-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v304)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v304) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v494) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S5x128x128 : Shape := ⟨3, ![5, 128, 128]⟩
abbrev S5x128 : Shape := ⟨2, ![5, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_

variable [Facts]

def fn_part3 {F : FTy → Type} [FloatOps F] (main_v48 : IVec S_ 1) (main_v49 : FVec F S5x128 .f32) (main_v50 : FVec F S5x128 .f32) : IVec S_ 1 :=
  let main_v51 : IVec S5x128 1 := cmpf .olt main_v49 main_v50
  let main_c_19 : IVec S_ 1 := constantI S_ 1 1#1
  let main_v52 : IVec S_ 1 := (fun x v => Host.reduce IntOp.andi x v reducesTo_S5x128_S_d0_1 h_S_) main_v51 main_c_19
  let main_v53 : IVec S_ 1 := andi main_v48 main_v52
  main_v53

def fn_part2 {F : FTy → Type} [FloatOps F] (main_arg9 : FVec F S5x128 .f32) (main_arg10 : FVec F S5x128 .f32) (main_arg11 : FVec F S5x128 .f32) (main_arg12 : FVec F S5x128 .f32) (main_v33 : IVec S_ 1) : IVec S_ 1 :=
  let main_v34 : FVec F S5x128 .f32 := Host.absf main_arg9
  let main_cst_12 : FVec F S_ .f32 := constant S_ .f32 0x7F800000#32
  let main_v35 : FVec F S5x128 .f32 := broadcastInDim S5x128 ![] bcast_S_S5x128 main_cst_12
  let main_v36 : IVec S5x128 1 := cmpf .olt main_v34 main_v35
  let main_c_13 : IVec S_ 1 := constantI S_ 1 1#1
  let main_v37 : IVec S_ 1 := (fun x v => Host.reduce IntOp.andi x v reducesTo_S5x128_S_d0_1 h_S_) main_v36 main_c_13
  let main_v38 : IVec S_ 1 := andi main_v33 main_v37
  let main_v39 : FVec F S5x128 .f32 := Host.absf main_arg10
  let main_cst_14 : FVec F S_ .f32 := constant S_ .f32 0x7F800000#32
  let main_v40 : FVec F S5x128 .f32 := broadcastInDim S5x128 ![] bcast_S_S5x128 main_cst_14
  let main_v41 : IVec S5x128 1 := cmpf .olt main_v39 main_v40
  let main_c_15 : IVec S_ 1 := constantI S_ 1 1#1
  let main_v42 : IVec S_ 1 := (fun x v => Host.reduce IntOp.andi x v reducesTo_S5x128_S_d0_1 h_S_) main_v41 main_c_15
  let main_v43 : IVec S_ 1 := andi main_v38 main_v42
  let main_v44 : FVec F S5x128 .f32 := Host.absf main_arg11
  let main_cst_16 : FVec F S_ .f32 := constant S_ .f32 0x7F800000#32
  let main_v45 : FVec F S5x128 .f32 := broadcastInDim S5x128 ![] bcast_S_S5x128 main_cst_16
  let main_v46 : IVec S5x128 1 := cmpf .olt main_v44 main_v45
  let main_c_17 : IVec S_ 1 := constantI S_ 1 1#1
  let main_v47 : IVec S_ 1 := (fun x v => Host.reduce IntOp.andi x v reducesTo_S5x128_S_d0_1 h_S_) main_v46 main_c_17
  let main_v48 : IVec S_ 1 := andi main_v43 main_v47
  let main_v49 : FVec F S5x128 .f32 := Host.absf main_arg12
  let main_cst_18 : FVec F S_ .f32 := constant S_ .f32 0x7F800000#32
  let main_v50 : FVec F S5x128 .f32 := broadcastInDim S5x128 ![] bcast_S_S5x128 main_cst_18
  fn_part3 (F := F) main_v48 main_v49 main_v50

def fn_part1 {F : FTy → Type} [FloatOps F] (main_arg6 : FVec F S5x128 .f32) (main_arg7 : FVec F S5x128 .f32) (main_arg8 : FVec F S5x128 .f32) (main_arg9 : FVec F S5x128 .f32) (main_arg10 : FVec F S5x128 .f32) (main_arg11 : FVec F S5x128 .f32) (main_arg12 : FVec F S5x128 .f32) (main_v13 : IVec S_ 1) (main_v16 : IVec S5x128x128 1) : IVec S_ 1 :=
  let main_c_5 : IVec S_ 1 := constantI S_ 1 1#1
  let main_v17 : IVec S_ 1 := (fun x v => Host.reduce IntOp.andi x v reducesTo_S5x128x128_S_d0_1_2 h_S_) main_v16 main_c_5
  let main_v18 : IVec S_ 1 := andi main_v13 main_v17
  let main_v19 : FVec F S5x128 .f32 := Host.absf main_arg6
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x128 .f32 := Host.absf main_arg7
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S5x128 .f32 := Host.absf main_arg8
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S800000 32) (main_arg2 : IVec S800000 32) (main_arg3 : FVec F S5x128x128 .f32) (main_arg4 : FVec F S5x128 .f32) (main_arg5 : FVec F S5x128x128 .f32) (main_arg6 : FVec F S5x128 .f32) (main_arg7 : FVec F S5x128 .f32) (main_arg8 : FVec F S5x128 .f32) (main_arg9 : FVec F S5x128 .f32) (main_arg10 : FVec F S5x128 .f32) (main_arg11 : FVec F S5x128 .f32) (main_arg12 : FVec F S5x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5x128x128 .f32 := Host.absf main_arg3
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg4
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5x128x128 .f32 := Host.absf main_arg5
  let main_cst_4 : FVec F S_ .f32 := constant S_ .f32 0x7F800000#32
  let main_v15 : FVec F S5x128x128 .f32 := broadcastInDim S5x128x128 ![] bcast_S_S5x128x128 main_cst_4
  let main_v16 : IVec S5x128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S800000 : Shape := ⟨1, ![800000]⟩
abbrev S5x128x128 : Shape := ⟨3, ![5, 128, 128]⟩
abbrev S5x128 : Shape := ⟨2, ![5, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S10000x128 : Shape := ⟨2, ![10000, 128]⟩

abbrev nBuf : Space → Nat
  | .hbm => 393
  | .vmem => 190
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S5x128x128, .f32⟩
  | 4 => ⟨S5x128, .f32⟩
  | 5 => ⟨S5x128x128, .f32⟩
  | 6 => ⟨S5x128, .f32⟩
  | 7 => ⟨S5x128, .f32⟩
  | 8 => ⟨S5x128, .f32⟩
  | 9 => ⟨S5x128, .f32⟩
  | 10 => ⟨S5x128, .f32⟩
  | 11 => ⟨S5x128, .f32⟩
  | 12 => ⟨S5x128, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S50000x128, .f32⟩
  | 27 => ⟨S1x128, .f32⟩
  | 28 => ⟨S128, .f32⟩
  | 29 => ⟨S1x128, .f32⟩
  | 30 => ⟨S1x128, .f32⟩
  | 31 => ⟨S128, .f32⟩
  | 32 => ⟨S1x128, .f32⟩
  | 33 => ⟨S1x128, .f32⟩
  | 34 => ⟨S128, .f32⟩
  | 35 => ⟨S1x128, .f32⟩
  | 36 => ⟨S1x128, .f32⟩
  | 37 => ⟨S128, .f32⟩
  | 38 => ⟨S1x128, .f32⟩
  | 39 => ⟨S1x128, .f32⟩
  | 40 => ⟨S128, .f32⟩
  | 41 => ⟨S1x128, .f32⟩
  | 42 => ⟨S1x128, .f32⟩
  | 43 => ⟨S128, .f32⟩
  | 44 => ⟨S1x128, .f32⟩
  | 45 => ⟨S1x128, .f32⟩
  | 46 => ⟨S128, .f32⟩
  | 47 => ⟨S1x128, .f32⟩
  | 48 => ⟨S1x128, .f32⟩
  | 49 => ⟨S128, .f32⟩
  | 50 => ⟨S1x128, .f32⟩
  | 51 => ⟨S1x128x128, .f32⟩
  | 52 => ⟨S128x128, .f32⟩
  | 53 => ⟨S50000x128, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S_, .f32⟩
  | 60 => ⟨S1x128, .f32⟩
  | 61 => ⟨S1x128, .f32⟩
  | 62 => ⟨S1x128, .f32⟩
  | 63 => ⟨S1x128, .f32⟩
  | 64 => ⟨S1x128x128, .f32⟩
  | 65 => ⟨S128x128, .f32⟩
  | 66 => ⟨S50000x128, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S1x128, .f32⟩
  | 76 => ⟨S1x128, .f32⟩
  | 77 => ⟨S50000x128, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S1x128, .f32⟩
  | 87 => ⟨S1x128, .f32⟩
  | 88 => ⟨S50000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S_, .f32⟩
  | 99 => ⟨S50000x128, .f32⟩
  | 100 => ⟨S800000x1, .i32⟩
  | 101 => ⟨S50000x128, .f32⟩
  | 102 => ⟨S50000x128, .f32⟩
  | 103 => ⟨S1x128, .f32⟩
  | 104 => ⟨S128, .f32⟩
  | 105 => ⟨S1x128, .f32⟩
  | 106 => ⟨S1x128, .f32⟩
  | 107 => ⟨S128, .f32⟩
  | 108 => ⟨S1x128, .f32⟩
  | 109 => ⟨S1x128, .f32⟩
  | 110 => ⟨S128, .f32⟩
  | 111 => ⟨S1x128, .f32⟩
  | 112 => ⟨S1x128, .f32⟩
  | 113 => ⟨S128, .f32⟩
  | 114 => ⟨S1x128, .f32⟩
  | 115 => ⟨S1x128, .f32⟩
  | 116 => ⟨S128, .f32⟩
  | 117 => ⟨S1x128, .f32⟩
  | 118 => ⟨S1x128, .f32⟩
  | 119 => ⟨S128, .f32⟩
  | 120 => ⟨S1x128, .f32⟩
  | 121 => ⟨S1x128, .f32⟩
  | 122 => ⟨S128, .f32⟩
  | 123 => ⟨S1x128, .f32⟩
  | 124 => ⟨S1x128, .f32⟩
  | 125 => ⟨S128, .f32⟩
  | 126 => ⟨S1x128, .f32⟩
  | 127 => ⟨S1x128x128, .f32⟩
  | _ => ⟨S50000x128, .f32⟩

abbrev hbmTy0_1 (i : Nat) : BufTy := match i % 128 with
  | 0 => ⟨S128x128, .f32⟩
  | 1 => ⟨S50000x128, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S_, .f32⟩
  | 8 => ⟨S1x128, .f32⟩
  | 9 => ⟨S1x128, .f32⟩
  | 10 => ⟨S1x128, .f32⟩
  | 11 => ⟨S1x128, .f32⟩
  | 12 => ⟨S1x128x128, .f32⟩
  | 13 => ⟨S128x128, .f32⟩
  | 14 => ⟨S50000x128, .f32⟩
  | 15 => ⟨S1x128, .f32⟩
  | 16 => ⟨S1x128, .f32⟩
  | 17 => ⟨S_, .f32⟩
  | 18 => ⟨S1x128, .f32⟩
  | 19 => ⟨S1x128, .f32⟩
  | 20 => ⟨S_, .f32⟩
  | 21 => ⟨S1x128, .f32⟩
  | 22 => ⟨S1x128, .f32⟩
  | 23 => ⟨S1x128, .f32⟩
  | 24 => ⟨S1x128, .f32⟩
  | 25 => ⟨S50000x128, .f32⟩
  | 26 => ⟨S1x128, .f32⟩
  | 27 => ⟨S1x128, .f32⟩
  | 28 => ⟨S_, .f32⟩
  | 29 => ⟨S1x128, .f32⟩
  | 30 => ⟨S1x128, .f32⟩
  | 31 => ⟨S_, .f32⟩
  | 32 => ⟨S1x128, .f32⟩
  | 33 => ⟨S1x128, .f32⟩
  | 34 => ⟨S1x128, .f32⟩
  | 35 => ⟨S1x128, .f32⟩
  | 36 => ⟨S50000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S50000x128, .f32⟩
  | 51 => ⟨S1x128, .f32⟩
  | 52 => ⟨S128, .f32⟩
  | 53 => ⟨S1x128, .f32⟩
  | 54 => ⟨S1x128, .f32⟩
  | 55 => ⟨S128, .f32⟩
  | 56 => ⟨S1x128, .f32⟩
  | 57 => ⟨S1x128, .f32⟩
  | 58 => ⟨S128, .f32⟩
  | 59 => ⟨S1x128, .f32⟩
  | 60 => ⟨S1x128, .f32⟩
  | 61 => ⟨S128, .f32⟩
  | 62 => ⟨S1x128, .f32⟩
  | 63 => ⟨S1x128, .f32⟩
  | 64 => ⟨S128, .f32⟩
  | 65 => ⟨S1x128, .f32⟩
  | 66 => ⟨S1x128, .f32⟩
  | 67 => ⟨S128, .f32⟩
  | 68 => ⟨S1x128, .f32⟩
  | 69 => ⟨S1x128, .f32⟩
  | 70 => ⟨S128, .f32⟩
  | 71 => ⟨S1x128, .f32⟩
  | 72 => ⟨S1x128, .f32⟩
  | 73 => ⟨S128, .f32⟩
  | 74 => ⟨S1x128, .f32⟩
  | 75 => ⟨S1x128x128, .f32⟩
  | 76 => ⟨S128x128, .f32⟩
  | 77 => ⟨S50000x128, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S1x128, .f32⟩
  | 87 => ⟨S1x128, .f32⟩
  | 88 => ⟨S1x128x128, .f32⟩
  | 89 => ⟨S128x128, .f32⟩
  | 90 => ⟨S50000x128, .f32⟩
  | 91 => ⟨S1x128, .f32⟩
  | 92 => ⟨S1x128, .f32⟩
  | 93 => ⟨S_, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S1x128, .f32⟩
  | 100 => ⟨S1x128, .f32⟩
  | 101 => ⟨S50000x128, .f32⟩
  | 102 => ⟨S1x128, .f32⟩
  | 103 => ⟨S1x128, .f32⟩
  | 104 => ⟨S_, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S1x128, .f32⟩
  | 111 => ⟨S1x128, .f32⟩
  | 112 => ⟨S50000x128, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S50000x128, .f32⟩
  | 127 => ⟨S1x128, .f32⟩
  | _ => ⟨S50000x128, .f32⟩

abbrev hbmTy0_2 (i : Nat) : BufTy := match i % 128 with
  | 0 => ⟨S128, .f32⟩
  | 1 => ⟨S1x128, .f32⟩
  | 2 => ⟨S1x128, .f32⟩
  | 3 => ⟨S128, .f32⟩
  | 4 => ⟨S1x128, .f32⟩
  | 5 => ⟨S1x128, .f32⟩
  | 6 => ⟨S128, .f32⟩
  | 7 => ⟨S1x128, .f32⟩
  | 8 => ⟨S1x128, .f32⟩
  | 9 => ⟨S128, .f32⟩
  | 10 => ⟨S1x128, .f32⟩
  | 11 => ⟨S1x128, .f32⟩
  | 12 => ⟨S128, .f32⟩
  | 13 => ⟨S1x128, .f32⟩
  | 14 => ⟨S1x128, .f32⟩
  | 15 => ⟨S128, .f32⟩
  | 16 => ⟨S1x128, .f32⟩
  | 17 => ⟨S1x128, .f32⟩
  | 18 => ⟨S128, .f32⟩
  | 19 => ⟨S1x128, .f32⟩
  | 20 => ⟨S1x128, .f32⟩
  | 21 => ⟨S128, .f32⟩
  | 22 => ⟨S1x128, .f32⟩
  | 23 => ⟨S1x128x128, .f32⟩
  | 24 => ⟨S128x128, .f32⟩
  | 25 => ⟨S50000x128, .f32⟩
  | 26 => ⟨S1x128, .f32⟩
  | 27 => ⟨S1x128, .f32⟩
  | 28 => ⟨S_, .f32⟩
  | 29 => ⟨S1x128, .f32⟩
  | 30 => ⟨S1x128, .f32⟩
  | 31 => ⟨S_, .f32⟩
  | 32 => ⟨S1x128, .f32⟩
  | 33 => ⟨S1x128, .f32⟩
  | 34 => ⟨S1x128, .f32⟩
  | 35 => ⟨S1x128, .f32⟩
  | 36 => ⟨S1x128x128, .f32⟩
  | 37 => ⟨S128x128, .f32⟩
  | 38 => ⟨S50000x128, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S_, .f32⟩
  | 45 => ⟨S1x128, .f32⟩
  | 46 => ⟨S1x128, .f32⟩
  | 47 => ⟨S1x128, .f32⟩
  | 48 => ⟨S1x128, .f32⟩
  | 49 => ⟨S50000x128, .f32⟩
  | 50 => ⟨S1x128, .f32⟩
  | 51 => ⟨S1x128, .f32⟩
  | 52 => ⟨S_, .f32⟩
  | 53 => ⟨S1x128, .f32⟩
  | 54 => ⟨S1x128, .f32⟩
  | 55 => ⟨S_, .f32⟩
  | 56 => ⟨S1x128, .f32⟩
  | 57 => ⟨S1x128, .f32⟩
  | 58 => ⟨S1x128, .f32⟩
  | 59 => ⟨S1x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S50000x128, .f32⟩
  | 75 => ⟨S1x128, .f32⟩
  | 76 => ⟨S128, .f32⟩
  | 77 => ⟨S1x128, .f32⟩
  | 78 => ⟨S1x128, .f32⟩
  | 79 => ⟨S128, .f32⟩
  | 80 => ⟨S1x128, .f32⟩
  | 81 => ⟨S1x128, .f32⟩
  | 82 => ⟨S128, .f32⟩
  | 83 => ⟨S1x128, .f32⟩
  | 84 => ⟨S1x128, .f32⟩
  | 85 => ⟨S128, .f32⟩
  | 86 => ⟨S1x128, .f32⟩
  | 87 => ⟨S1x128, .f32⟩
  | 88 => ⟨S128, .f32⟩
  | 89 => ⟨S1x128, .f32⟩
  | 90 => ⟨S1x128, .f32⟩
  | 91 => ⟨S128, .f32⟩
  | 92 => ⟨S1x128, .f32⟩
  | 93 => ⟨S1x128, .f32⟩
  | 94 => ⟨S128, .f32⟩
  | 95 => ⟨S1x128, .f32⟩
  | 96 => ⟨S1x128, .f32⟩
  | 97 => ⟨S128, .f32⟩
  | 98 => ⟨S1x128, .f32⟩
  | 99 => ⟨S1x128x128, .f32⟩
  | 100 => ⟨S128x128, .f32⟩
  | 101 => ⟨S50000x128, .f32⟩
  | 102 => ⟨S1x128, .f32⟩
  | 103 => ⟨S1x128, .f32⟩
  | 104 => ⟨S_, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S1x128, .f32⟩
  | 111 => ⟨S1x128, .f32⟩
  | 112 => ⟨S1x128x128, .f32⟩
  | 113 => ⟨S128x128, .f32⟩
  | 114 => ⟨S50000x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S1x128, .f32⟩
  | 124 => ⟨S1x128, .f32⟩
  | 125 => ⟨S50000x128, .f32⟩
  | 126 => ⟨S1x128, .f32⟩
  | 127 => ⟨S1x128, .f32⟩
  | _ => ⟨S50000x128, .f32⟩

abbrev hbmTy0_3 (i : Nat) : BufTy := match i % 128 with
  | 0 => ⟨S_, .f32⟩
  | 1 => ⟨S1x128, .f32⟩
  | 2 => ⟨S1x128, .f32⟩
  | 3 => ⟨S_, .f32⟩
  | 4 => ⟨S1x128, .f32⟩
  | 5 => ⟨S1x128, .f32⟩
  | 6 => ⟨S1x128, .f32⟩
  | 7 => ⟨S1x128, .f32⟩
  | 8 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev vmemTy0_0 (i : Nat) : BufTy := match i % 128 with
  | 0 => ⟨S10000x128, .f32⟩
  | 1 => ⟨S10000x128, .f32⟩
  | 2 => ⟨S128x128, .f32⟩
  | 3 => ⟨S1x128, .f32⟩
  | 4 => ⟨S10000x128, .f32⟩
  | 5 => ⟨S10000x128, .f32⟩
  | 6 => ⟨S1x128, .f32⟩
  | 7 => ⟨S1x128, .f32⟩
  | 8 => ⟨S10000x128, .f32⟩
  | 9 => ⟨S10000x128, .f32⟩
  | 10 => ⟨S1x128, .f32⟩
  | 11 => ⟨S1x128, .f32⟩
  | 12 => ⟨S1x128, .f32⟩
  | 13 => ⟨S1x128, .f32⟩
  | 14 => ⟨S128x128, .f32⟩
  | 15 => ⟨S1x128, .f32⟩
  | 16 => ⟨S10000x128, .f32⟩
  | 17 => ⟨S10000x128, .f32⟩
  | 18 => ⟨S1x128, .f32⟩
  | 19 => ⟨S1x128, .f32⟩
  | 20 => ⟨S10000x128, .f32⟩
  | 21 => ⟨S10000x128, .f32⟩
  | 22 => ⟨S1x128, .f32⟩
  | 23 => ⟨S1x128, .f32⟩
  | 24 => ⟨S1x128, .f32⟩
  | 25 => ⟨S1x128, .f32⟩
  | 26 => ⟨S10000x128, .f32⟩
  | 27 => ⟨S10000x128, .f32⟩
  | 28 => ⟨S1x128, .f32⟩
  | 29 => ⟨S1x128, .f32⟩
  | 30 => ⟨S10000x128, .f32⟩
  | 31 => ⟨S10000x128, .f32⟩
  | 32 => ⟨S1x128, .f32⟩
  | 33 => ⟨S1x128, .f32⟩
  | 34 => ⟨S1x128, .f32⟩
  | 35 => ⟨S1x128, .f32⟩
  | 36 => ⟨S10000x128, .f32⟩
  | 37 => ⟨S10000x128, .f32⟩
  | 38 => ⟨S10000x128, .f32⟩
  | 39 => ⟨S10000x128, .f32⟩
  | 40 => ⟨S128x128, .f32⟩
  | 41 => ⟨S1x128, .f32⟩
  | 42 => ⟨S10000x128, .f32⟩
  | 43 => ⟨S10000x128, .f32⟩
  | 44 => ⟨S1x128, .f32⟩
  | 45 => ⟨S1x128, .f32⟩
  | 46 => ⟨S10000x128, .f32⟩
  | 47 => ⟨S10000x128, .f32⟩
  | 48 => ⟨S1x128, .f32⟩
  | 49 => ⟨S1x128, .f32⟩
  | 50 => ⟨S1x128, .f32⟩
  | 51 => ⟨S1x128, .f32⟩
  | 52 => ⟨S128x128, .f32⟩
  | 53 => ⟨S1x128, .f32⟩
  | 54 => ⟨S10000x128, .f32⟩
  | 55 => ⟨S10000x128, .f32⟩
  | 56 => ⟨S1x128, .f32⟩
  | 57 => ⟨S1x128, .f32⟩
  | 58 => ⟨S10000x128, .f32⟩
  | 59 => ⟨S10000x128, .f32⟩
  | 60 => ⟨S1x128, .f32⟩
  | 61 => ⟨S1x128, .f32⟩
  | 62 => ⟨S1x128, .f32⟩
  | 63 => ⟨S1x128, .f32⟩
  | 64 => ⟨S10000x128, .f32⟩
  | 65 => ⟨S10000x128, .f32⟩
  | 66 => ⟨S1x128, .f32⟩
  | 67 => ⟨S1x128, .f32⟩
  | 68 => ⟨S10000x128, .f32⟩
  | 69 => ⟨S10000x128, .f32⟩
  | 70 => ⟨S1x128, .f32⟩
  | 71 => ⟨S1x128, .f32⟩
  | 72 => ⟨S1x128, .f32⟩
  | 73 => ⟨S1x128, .f32⟩
  | 74 => ⟨S10000x128, .f32⟩
  | 75 => ⟨S10000x128, .f32⟩
  | 76 => ⟨S10000x128, .f32⟩
  | 77 => ⟨S10000x128, .f32⟩
  | 78 => ⟨S128x128, .f32⟩
  | 79 => ⟨S1x128, .f32⟩
  | 80 => ⟨S10000x128, .f32⟩
  | 81 => ⟨S10000x128, .f32⟩
  | 82 => ⟨S1x128, .f32⟩
  | 83 => ⟨S1x128, .f32⟩
  | 84 => ⟨S10000x128, .f32⟩
  | 85 => ⟨S10000x128, .f32⟩
  | 86 => ⟨S1x128, .f32⟩
  | 87 => ⟨S1x128, .f32⟩
  | 88 => ⟨S1x128, .f32⟩
  | 89 => ⟨S1x128, .f32⟩
  | 90 => ⟨S128x128, .f32⟩
  | 91 => ⟨S1x128, .f32⟩
  | 92 => ⟨S10000x128, .f32⟩
  | 93 => ⟨S10000x128, .f32⟩
  | 94 => ⟨S1x128, .f32⟩
  | 95 => ⟨S1x128, .f32⟩
  | 96 => ⟨S10000x128, .f32⟩
  | 97 => ⟨S10000x128, .f32⟩
  | 98 => ⟨S1x128, .f32⟩
  | 99 => ⟨S1x128, .f32⟩
  | 100 => ⟨S1x128, .f32⟩
  | 101 => ⟨S1x128, .f32⟩
  | 102 => ⟨S10000x128, .f32⟩
  | 103 => ⟨S10000x128, .f32⟩
  | 104 => ⟨S1x128, .f32⟩
  | 105 => ⟨S1x128, .f32⟩
  | 106 => ⟨S10000x128, .f32⟩
  | 107 => ⟨S10000x128, .f32⟩
  | 108 => ⟨S1x128, .f32⟩
  | 109 => ⟨S1x128, .f32⟩
  | 110 => ⟨S1x128, .f32⟩
  | 111 => ⟨S1x128, .f32⟩
  | 112 => ⟨S10000x128, .f32⟩
  | 113 => ⟨S10000x128, .f32⟩
  | 114 => ⟨S10000x128, .f32⟩
  | 115 => ⟨S10000x128, .f32⟩
  | 116 => ⟨S128x128, .f32⟩
  | 117 => ⟨S1x128, .f32⟩
  | 118 => ⟨S10000x128, .f32⟩
  | 119 => ⟨S10000x128, .f32⟩
  | 120 => ⟨S1x128, .f32⟩
  | 121 => ⟨S1x128, .f32⟩
  | 122 => ⟨S10000x128, .f32⟩
  | 123 => ⟨S10000x128, .f32⟩
  | 124 => ⟨S1x128, .f32⟩
  | 125 => ⟨S1x128, .f32⟩
  | 126 => ⟨S1x128, .f32⟩
  | 127 => ⟨S1x128, .f32⟩
  | _ => ⟨S50000x128, .f32⟩

abbrev vmemTy0_1 (i : Nat) : BufTy := match i % 128 with
  | 0 => ⟨S128x128, .f32⟩
  | 1 => ⟨S1x128, .f32⟩
  | 2 => ⟨S10000x128, .f32⟩
  | 3 => ⟨S10000x128, .f32⟩
  | 4 => ⟨S1x128, .f32⟩
  | 5 => ⟨S1x128, .f32⟩
  | 6 => ⟨S10000x128, .f32⟩
  | 7 => ⟨S10000x128, .f32⟩
  | 8 => ⟨S1x128, .f32⟩
  | 9 => ⟨S1x128, .f32⟩
  | 10 => ⟨S1x128, .f32⟩
  | 11 => ⟨S1x128, .f32⟩
  | 12 => ⟨S10000x128, .f32⟩
  | 13 => ⟨S10000x128, .f32⟩
  | 14 => ⟨S1x128, .f32⟩
  | 15 => ⟨S1x128, .f32⟩
  | 16 => ⟨S10000x128, .f32⟩
  | 17 => ⟨S10000x128, .f32⟩
  | 18 => ⟨S1x128, .f32⟩
  | 19 => ⟨S1x128, .f32⟩
  | 20 => ⟨S1x128, .f32⟩
  | 21 => ⟨S1x128, .f32⟩
  | 22 => ⟨S10000x128, .f32⟩
  | 23 => ⟨S10000x128, .f32⟩
  | 24 => ⟨S10000x128, .f32⟩
  | 25 => ⟨S10000x128, .f32⟩
  | 26 => ⟨S128x128, .f32⟩
  | 27 => ⟨S1x128, .f32⟩
  | 28 => ⟨S10000x128, .f32⟩
  | 29 => ⟨S10000x128, .f32⟩
  | 30 => ⟨S1x128, .f32⟩
  | 31 => ⟨S1x128, .f32⟩
  | 32 => ⟨S10000x128, .f32⟩
  | 33 => ⟨S10000x128, .f32⟩
  | 34 => ⟨S1x128, .f32⟩
  | 35 => ⟨S1x128, .f32⟩
  | 36 => ⟨S1x128, .f32⟩
  | 37 => ⟨S1x128, .f32⟩
  | 38 => ⟨S128x128, .f32⟩
  | 39 => ⟨S1x128, .f32⟩
  | 40 => ⟨S10000x128, .f32⟩
  | 41 => ⟨S10000x128, .f32⟩
  | 42 => ⟨S1x128, .f32⟩
  | 43 => ⟨S1x128, .f32⟩
  | 44 => ⟨S10000x128, .f32⟩
  | 45 => ⟨S10000x128, .f32⟩
  | 46 => ⟨S1x128, .f32⟩
  | 47 => ⟨S1x128, .f32⟩
  | 48 => ⟨S1x128, .f32⟩
  | 49 => ⟨S1x128, .f32⟩
  | 50 => ⟨S10000x128, .f32⟩
  | 51 => ⟨S10000x128, .f32⟩
  | 52 => ⟨S1x128, .f32⟩
  | 53 => ⟨S1x128, .f32⟩
  | 54 => ⟨S10000x128, .f32⟩
  | 55 => ⟨S10000x128, .f32⟩
  | 56 => ⟨S1x128, .f32⟩
  | 57 => ⟨S1x128, .f32⟩
  | 58 => ⟨S1x128, .f32⟩
  | 59 => ⟨S1x128, .f32⟩
  | 60 => ⟨S10000x128, .f32⟩
  | 61 => ⟨S10000x128, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 190 → Bool
  | ⟨i, _⟩ => dmaSemScopedAt i

abbrev sig : RefSig :=
  ofTc nBuf bufTy 0 190 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37_0 : Ref sig .tc := ⟨.hbm, 53, rfl⟩
abbrev main_v37_1 : Ref sig .tc := ⟨.hbm, 54, rfl⟩
abbrev main_v37_2 : Ref sig .tc := ⟨.hbm, 55, rfl⟩
abbrev main_cst_1 : Ref sig .tc := ⟨.hbm, 56, rfl⟩
abbrev main_v38 : Ref sig .tc := ⟨.hbm, 57, rfl⟩
abbrev main_v39 : Ref sig .tc := ⟨.hbm, 58, rfl⟩
abbrev main_cst_2 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46_0 : Ref sig .tc := ⟨.hbm, 66, rfl⟩
abbrev main_v46_1 : Ref sig .tc := ⟨.hbm, 67, rfl⟩
abbrev main_v46_2 : Ref sig .tc := ⟨.hbm, 68, rfl⟩
abbrev main_cst_3 : Ref sig .tc := ⟨.hbm, 69, rfl⟩
abbrev main_v47 : Ref sig .tc := ⟨.hbm, 70, rfl⟩
abbrev main_v48 : Ref sig .tc := ⟨.hbm, 71, rfl⟩
abbrev main_cst_4 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53_0 : Ref sig .tc := ⟨.hbm, 77, rfl⟩
abbrev main_v53_1 : Ref sig .tc := ⟨.hbm, 78, rfl⟩
abbrev main_v53_2 : Ref sig .tc := ⟨.hbm, 79, rfl⟩
abbrev main_cst_5 : Ref sig .tc := ⟨.hbm, 80, rfl⟩
abbrev main_v54 : Ref sig .tc := ⟨.hbm, 81, rfl⟩
abbrev main_v55 : Ref sig .tc := ⟨.hbm, 82, rfl⟩
abbrev main_cst_6 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_7 : Ref sig .tc := ⟨.hbm, 89, rfl⟩
abbrev main_v61 : Ref sig .tc := ⟨.hbm, 90, rfl⟩
abbrev main_v62 : Ref sig .tc := ⟨.hbm, 91, rfl⟩
abbrev main_c_8 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_9 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98_0 : Ref sig .tc := ⟨.hbm, 129, rfl⟩
abbrev main_v98_1 : Ref sig .tc := ⟨.hbm, 130, rfl⟩
abbrev main_v98_2 : Ref sig .tc := ⟨.hbm, 131, rfl⟩
abbrev main_cst_10 : Ref sig .tc := ⟨.hbm, 132, rfl⟩
abbrev main_v99 : Ref sig .tc := ⟨.hbm, 133, rfl⟩
abbrev main_v100 : Ref sig .tc := ⟨.hbm, 134, rfl⟩
abbrev main_cst_11 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107_0 : Ref sig .tc := ⟨.hbm, 142, rfl⟩
abbrev main_v107_1 : Ref sig .tc := ⟨.hbm, 143, rfl⟩
abbrev main_v107_2 : Ref sig .tc := ⟨.hbm, 144, rfl⟩
abbrev main_cst_12 : Ref sig .tc := ⟨.hbm, 145, rfl⟩
abbrev main_v108 : Ref sig .tc := ⟨.hbm, 146, rfl⟩
abbrev main_v109 : Ref sig .tc := ⟨.hbm, 147, rfl⟩
abbrev main_cst_13 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114_0 : Ref sig .tc := ⟨.hbm, 153, rfl⟩
abbrev main_v114_1 : Ref sig .tc := ⟨.hbm, 154, rfl⟩
abbrev main_v114_2 : Ref sig .tc := ⟨.hbm, 155, rfl⟩
abbrev main_cst_14 : Ref sig .tc := ⟨.hbm, 156, rfl⟩
abbrev main_v115 : Ref sig .tc := ⟨.hbm, 157, rfl⟩
abbrev main_v116 : Ref sig .tc := ⟨.hbm, 158, rfl⟩
abbrev main_cst_15 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_c_16 : Ref sig .tc := ⟨.hbm, 165, rfl⟩
abbrev main_v122 : Ref sig .tc := ⟨.hbm, 166, rfl⟩
abbrev main_v123 : Ref sig .tc := ⟨.hbm, 167, rfl⟩
abbrev main_c_17 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_18 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159_0 : Ref sig .tc := ⟨.hbm, 205, rfl⟩
abbrev main_v159_1 : Ref sig .tc := ⟨.hbm, 206, rfl⟩
abbrev main_v159_2 : Ref sig .tc := ⟨.hbm, 207, rfl⟩
abbrev main_cst_19 : Ref sig .tc := ⟨.hbm, 208, rfl⟩
abbrev main_v160 : Ref sig .tc := ⟨.hbm, 209, rfl⟩
abbrev main_v161 : Ref sig .tc := ⟨.hbm, 210, rfl⟩
abbrev main_cst_20 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168_0 : Ref sig .tc := ⟨.hbm, 218, rfl⟩
abbrev main_v168_1 : Ref sig .tc := ⟨.hbm, 219, rfl⟩
abbrev main_v168_2 : Ref sig .tc := ⟨.hbm, 220, rfl⟩
abbrev main_cst_21 : Ref sig .tc := ⟨.hbm, 221, rfl⟩
abbrev main_v169 : Ref sig .tc := ⟨.hbm, 222, rfl⟩
abbrev main_v170 : Ref sig .tc := ⟨.hbm, 223, rfl⟩
abbrev main_cst_22 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175_0 : Ref sig .tc := ⟨.hbm, 229, rfl⟩
abbrev main_v175_1 : Ref sig .tc := ⟨.hbm, 230, rfl⟩
abbrev main_v175_2 : Ref sig .tc := ⟨.hbm, 231, rfl⟩
abbrev main_cst_23 : Ref sig .tc := ⟨.hbm, 232, rfl⟩
abbrev main_v176 : Ref sig .tc := ⟨.hbm, 233, rfl⟩
abbrev main_v177 : Ref sig .tc := ⟨.hbm, 234, rfl⟩
abbrev main_cst_24 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_c_25 : Ref sig .tc := ⟨.hbm, 241, rfl⟩
abbrev main_v183 : Ref sig .tc := ⟨.hbm, 242, rfl⟩
abbrev main_v184 : Ref sig .tc := ⟨.hbm, 243, rfl⟩
abbrev main_c_26 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_cst_27 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220_0 : Ref sig .tc := ⟨.hbm, 281, rfl⟩
abbrev main_v220_1 : Ref sig .tc := ⟨.hbm, 282, rfl⟩
abbrev main_v220_2 : Ref sig .tc := ⟨.hbm, 283, rfl⟩
abbrev main_cst_28 : Ref sig .tc := ⟨.hbm, 284, rfl⟩
abbrev main_v221 : Ref sig .tc := ⟨.hbm, 285, rfl⟩
abbrev main_v222 : Ref sig .tc := ⟨.hbm, 286, rfl⟩
abbrev main_cst_29 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229_0 : Ref sig .tc := ⟨.hbm, 294, rfl⟩
abbrev main_v229_1 : Ref sig .tc := ⟨.hbm, 295, rfl⟩
abbrev main_v229_2 : Ref sig .tc := ⟨.hbm, 296, rfl⟩
abbrev main_cst_30 : Ref sig .tc := ⟨.hbm, 297, rfl⟩
abbrev main_v230 : Ref sig .tc := ⟨.hbm, 298, rfl⟩
abbrev main_v231 : Ref sig .tc := ⟨.hbm, 299, rfl⟩
abbrev main_cst_31 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236_0 : Ref sig .tc := ⟨.hbm, 305, rfl⟩
abbrev main_v236_1 : Ref sig .tc := ⟨.hbm, 306, rfl⟩
abbrev main_v236_2 : Ref sig .tc := ⟨.hbm, 307, rfl⟩
abbrev main_cst_32 : Ref sig .tc := ⟨.hbm, 308, rfl⟩
abbrev main_v237 : Ref sig .tc := ⟨.hbm, 309, rfl⟩
abbrev main_v238 : Ref sig .tc := ⟨.hbm, 310, rfl⟩
abbrev main_cst_33 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_c_34 : Ref sig .tc := ⟨.hbm, 317, rfl⟩
abbrev main_v244 : Ref sig .tc := ⟨.hbm, 318, rfl⟩
abbrev main_v245 : Ref sig .tc := ⟨.hbm, 319, rfl⟩
abbrev main_c_35 : Ref sig .tc := ⟨.hbm, 320, rfl⟩
abbrev main_v246 : Ref sig .tc := ⟨.hbm, 321, rfl⟩
abbrev main_v247 : Ref sig .tc := ⟨.hbm, 322, rfl⟩
abbrev main_v248 : Ref sig .tc := ⟨.hbm, 323, rfl⟩
abbrev main_v249 : Ref sig .tc := ⟨.hbm, 324, rfl⟩
abbrev main_v250 : Ref sig .tc := ⟨.hbm, 325, rfl⟩
abbrev main_cst_36 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩
abbrev main_v272 : Ref sig .tc := ⟨.hbm, 348, rfl⟩
abbrev main_v273 : Ref sig .tc := ⟨.hbm, 349, rfl⟩
abbrev main_v274 : Ref sig .tc := ⟨.hbm, 350, rfl⟩
abbrev main_v275 : Ref sig .tc := ⟨.hbm, 351, rfl⟩
abbrev main_v276 : Ref sig .tc := ⟨.hbm, 352, rfl⟩
abbrev main_v277 : Ref sig .tc := ⟨.hbm, 353, rfl⟩
abbrev main_v278 : Ref sig .tc := ⟨.hbm, 354, rfl⟩
abbrev main_v279 : Ref sig .tc := ⟨.hbm, 355, rfl⟩
abbrev main_v280 : Ref sig .tc := ⟨.hbm, 356, rfl⟩
abbrev main_v281_0 : Ref sig .tc := ⟨.hbm, 357, rfl⟩
abbrev main_v281_1 : Ref sig .tc := ⟨.hbm, 358, rfl⟩
abbrev main_v281_2 : Ref sig .tc := ⟨.hbm, 359, rfl⟩
abbrev main_cst_37 : Ref sig .tc := ⟨.hbm, 360, rfl⟩
abbrev main_v282 : Ref sig .tc := ⟨.hbm, 361, rfl⟩
abbrev main_v283 : Ref sig .tc := ⟨.hbm, 362, rfl⟩
abbrev main_cst_38 : Ref sig .tc := ⟨.hbm, 363, rfl⟩
abbrev main_v284 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_v290_0 : Ref sig .tc := ⟨.hbm, 370, rfl⟩
abbrev main_v290_1 : Ref sig .tc := ⟨.hbm, 371, rfl⟩
abbrev main_v290_2 : Ref sig .tc := ⟨.hbm, 372, rfl⟩
abbrev main_cst_39 : Ref sig .tc := ⟨.hbm, 373, rfl⟩
abbrev main_v291 : Ref sig .tc := ⟨.hbm, 374, rfl⟩
abbrev main_v292 : Ref sig .tc := ⟨.hbm, 375, rfl⟩
abbrev main_cst_40 : Ref sig .tc := ⟨.hbm, 376, rfl⟩
abbrev main_v293 : Ref sig .tc := ⟨.hbm, 377, rfl⟩
abbrev main_v294 : Ref sig .tc := ⟨.hbm, 378, rfl⟩
abbrev main_v295 : Ref sig .tc := ⟨.hbm, 379, rfl⟩
abbrev main_v296 : Ref sig .tc := ⟨.hbm, 380, rfl⟩
abbrev main_v297_0 : Ref sig .tc := ⟨.hbm, 381, rfl⟩
abbrev main_v297_1 : Ref sig .tc := ⟨.hbm, 382, rfl⟩
abbrev main_v297_2 : Ref sig .tc := ⟨.hbm, 383, rfl⟩
abbrev main_cst_41 : Ref sig .tc := ⟨.hbm, 384, rfl⟩
abbrev main_v298 : Ref sig .tc := ⟨.hbm, 385, rfl⟩
abbrev main_v299 : Ref sig .tc := ⟨.hbm, 386, rfl⟩
abbrev main_cst_42 : Ref sig .tc := ⟨.hbm, 387, rfl⟩
abbrev main_v300 : Ref sig .tc := ⟨.hbm, 388, rfl⟩
abbrev main_v301 : Ref sig .tc := ⟨.hbm, 389, rfl⟩
abbrev main_v302 : Ref sig .tc := ⟨.hbm, 390, rfl⟩
abbrev main_v303 : Ref sig .tc := ⟨.hbm, 391, rfl⟩
abbrev main_v304 : Ref sig .tc := ⟨.hbm, 392, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg9_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg3_1 : Ref sig .tc := ⟨.vmem, 43, rfl⟩
abbrev cc4_stg4_0 : Ref sig .tc := ⟨.vmem, 44, rfl⟩
abbrev cc4_stg5_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg6_0 : Ref sig .tc := ⟨.vmem, 53, rfl⟩
abbrev cc5_stg7_0 : Ref sig .tc := ⟨.vmem, 54, rfl⟩
abbrev cc5_stg7_1 : Ref sig .tc := ⟨.vmem, 55, rfl⟩
abbrev cc5_stg8_0 : Ref sig .tc := ⟨.vmem, 56, rfl⟩
abbrev cc5_stg9_0 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg5_1 : Ref sig .tc := ⟨.vmem, 65, rfl⟩
abbrev cc6_stg6_0 : Ref sig .tc := ⟨.vmem, 66, rfl⟩
abbrev cc6_stg7_0 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg2_0 : Ref sig .tc := ⟨.vmem, 71, rfl⟩
abbrev cc7_stg3_0 : Ref sig .tc := ⟨.vmem, 72, rfl⟩
abbrev cc7_stg4_0 : Ref sig .tc := ⟨.vmem, 73, rfl⟩
abbrev cc7_stg5_0 : Ref sig .tc := ⟨.vmem, 74, rfl⟩
abbrev cc7_stg5_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg3_0 : Ref sig .tc := ⟨.vmem, 80, rfl⟩
abbrev cc8_stg3_1 : Ref sig .tc := ⟨.vmem, 81, rfl⟩
abbrev cc8_stg4_0 : Ref sig .tc := ⟨.vmem, 82, rfl⟩
abbrev cc8_stg5_0 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_stg2_0 : Ref sig .tc := ⟨.vmem, 87, rfl⟩
abbrev cc9_stg3_0 : Ref sig .tc := ⟨.vmem, 88, rfl⟩
abbrev cc9_stg4_0 : Ref sig .tc := ⟨.vmem, 89, rfl⟩
abbrev cc9_stg5_0 : Ref sig .tc := ⟨.vmem, 90, rfl⟩
abbrev cc9_stg6_0 : Ref sig .tc := ⟨.vmem, 91, rfl⟩
abbrev cc9_stg7_0 : Ref sig .tc := ⟨.vmem, 92, rfl⟩
abbrev cc9_stg7_1 : Ref sig .tc := ⟨.vmem, 93, rfl⟩
abbrev cc9_stg8_0 : Ref sig .tc := ⟨.vmem, 94, rfl⟩
abbrev cc9_stg9_0 : Ref sig .tc := ⟨.vmem, 95, rfl⟩
abbrev cc10_stg0_0 : Ref sig .tc := ⟨.vmem, 96, rfl⟩
abbrev cc10_stg0_1 : Ref sig .tc := ⟨.vmem, 97, rfl⟩
abbrev cc10_stg1_0 : Ref sig .tc := ⟨.vmem, 98, rfl⟩
abbrev cc10_stg2_0 : Ref sig .tc := ⟨.vmem, 99, rfl⟩
abbrev cc10_stg3_0 : Ref sig .tc := ⟨.vmem, 100, rfl⟩
abbrev cc10_stg4_0 : Ref sig .tc := ⟨.vmem, 101, rfl⟩
abbrev cc10_stg5_0 : Ref sig .tc := ⟨.vmem, 102, rfl⟩
abbrev cc10_stg5_1 : Ref sig .tc := ⟨.vmem, 103, rfl⟩
abbrev cc10_stg6_0 : Ref sig .tc := ⟨.vmem, 104, rfl⟩
abbrev cc10_stg7_0 : Ref sig .tc := ⟨.vmem, 105, rfl⟩
abbrev cc11_stg0_0 : Ref sig .tc := ⟨.vmem, 106, rfl⟩
abbrev cc11_stg0_1 : Ref sig .tc := ⟨.vmem, 107, rfl⟩
abbrev cc11_stg1_0 : Ref sig .tc := ⟨.vmem, 108, rfl⟩
abbrev cc11_stg2_0 : Ref sig .tc := ⟨.vmem, 109, rfl⟩
abbrev cc11_stg3_0 : Ref sig .tc := ⟨.vmem, 110, rfl⟩
abbrev cc11_stg4_0 : Ref sig .tc := ⟨.vmem, 111, rfl⟩
abbrev cc11_stg5_0 : Ref sig .tc := ⟨.vmem, 112, rfl⟩
abbrev cc11_stg5_1 : Ref sig .tc := ⟨.vmem, 113, rfl⟩
abbrev cc12_stg0_0 : Ref sig .tc := ⟨.vmem, 114, rfl⟩
abbrev cc12_stg0_1 : Ref sig .tc := ⟨.vmem, 115, rfl⟩
abbrev cc12_stg1_0 : Ref sig .tc := ⟨.vmem, 116, rfl⟩
abbrev cc12_stg2_0 : Ref sig .tc := ⟨.vmem, 117, rfl⟩
abbrev cc12_stg3_0 : Ref sig .tc := ⟨.vmem, 118, rfl⟩
abbrev cc12_stg3_1 : Ref sig .tc := ⟨.vmem, 119, rfl⟩
abbrev cc12_stg4_0 : Ref sig .tc := ⟨.vmem, 120, rfl⟩
abbrev cc12_stg5_0 : Ref sig .tc := ⟨.vmem, 121, rfl⟩
abbrev cc13_stg0_0 : Ref sig .tc := ⟨.vmem, 122, rfl⟩
abbrev cc13_stg0_1 : Ref sig .tc := ⟨.vmem, 123, rfl⟩
abbrev cc13_stg1_0 : Ref sig .tc := ⟨.vmem, 124, rfl⟩
abbrev cc13_stg2_0 : Ref sig .tc := ⟨.vmem, 125, rfl⟩
abbrev cc13_stg3_0 : Ref sig .tc := ⟨.vmem, 126, rfl⟩
abbrev cc13_stg4_0 : Ref sig .tc := ⟨.vmem, 127, rfl⟩
abbrev cc13_stg5_0 : Ref sig .tc := ⟨.vmem, 128, rfl⟩
abbrev cc13_stg6_0 : Ref sig .tc := ⟨.vmem, 129, rfl⟩
abbrev cc13_stg7_0 : Ref sig .tc := ⟨.vmem, 130, rfl⟩
abbrev cc13_stg7_1 : Ref sig .tc := ⟨.vmem, 131, rfl⟩
abbrev cc13_stg8_0 : Ref sig .tc := ⟨.vmem, 132, rfl⟩
abbrev cc13_stg9_0 : Ref sig .tc := ⟨.vmem, 133, rfl⟩
abbrev cc14_stg0_0 : Ref sig .tc := ⟨.vmem, 134, rfl⟩
abbrev cc14_stg0_1 : Ref sig .tc := ⟨.vmem, 135, rfl⟩
abbrev cc14_stg1_0 : Ref sig .tc := ⟨.vmem, 136, rfl⟩
abbrev cc14_stg2_0 : Ref sig .tc := ⟨.vmem, 137, rfl⟩
abbrev cc14_stg3_0 : Ref sig .tc := ⟨.vmem, 138, rfl⟩
abbrev cc14_stg4_0 : Ref sig .tc := ⟨.vmem, 139, rfl⟩
abbrev cc14_stg5_0 : Ref sig .tc := ⟨.vmem, 140, rfl⟩
abbrev cc14_stg5_1 : Ref sig .tc := ⟨.vmem, 141, rfl⟩
abbrev cc14_stg6_0 : Ref sig .tc := ⟨.vmem, 142, rfl⟩
abbrev cc14_stg7_0 : Ref sig .tc := ⟨.vmem, 143, rfl⟩
abbrev cc15_stg0_0 : Ref sig .tc := ⟨.vmem, 144, rfl⟩
abbrev cc15_stg0_1 : Ref sig .tc := ⟨.vmem, 145, rfl⟩
abbrev cc15_stg1_0 : Ref sig .tc := ⟨.vmem, 146, rfl⟩
abbrev cc15_stg2_0 : Ref sig .tc := ⟨.vmem, 147, rfl⟩
abbrev cc15_stg3_0 : Ref sig .tc := ⟨.vmem, 148, rfl⟩
abbrev cc15_stg4_0 : Ref sig .tc := ⟨.vmem, 149, rfl⟩
abbrev cc15_stg5_0 : Ref sig .tc := ⟨.vmem, 150, rfl⟩
abbrev cc15_stg5_1 : Ref sig .tc := ⟨.vmem, 151, rfl⟩
abbrev cc16_stg0_0 : Ref sig .tc := ⟨.vmem, 152, rfl⟩
abbrev cc16_stg0_1 : Ref sig .tc := ⟨.vmem, 153, rfl⟩
abbrev cc16_stg1_0 : Ref sig .tc := ⟨.vmem, 154, rfl⟩
abbrev cc16_stg2_0 : Ref sig .tc := ⟨.vmem, 155, rfl⟩
abbrev cc16_stg3_0 : Ref sig .tc := ⟨.vmem, 156, rfl⟩
abbrev cc16_stg3_1 : Ref sig .tc := ⟨.vmem, 157, rfl⟩
abbrev cc16_stg4_0 : Ref sig .tc := ⟨.vmem, 158, rfl⟩
abbrev cc16_stg5_0 : Ref sig .tc := ⟨.vmem, 159, rfl⟩
abbrev cc17_stg0_0 : Ref sig .tc := ⟨.vmem, 160, rfl⟩
abbrev cc17_stg0_1 : Ref sig .tc := ⟨.vmem, 161, rfl⟩
abbrev cc17_stg1_0 : Ref sig .tc := ⟨.vmem, 162, rfl⟩
abbrev cc17_stg2_0 : Ref sig .tc := ⟨.vmem, 163, rfl⟩
abbrev cc17_stg3_0 : Ref sig .tc := ⟨.vmem, 164, rfl⟩
abbrev cc17_stg4_0 : Ref sig .tc := ⟨.vmem, 165, rfl⟩
abbrev cc17_stg5_0 : Ref sig .tc := ⟨.vmem, 166, rfl⟩
abbrev cc17_stg6_0 : Ref sig .tc := ⟨.vmem, 167, rfl⟩
abbrev cc17_stg7_0 : Ref sig .tc := ⟨.vmem, 168, rfl⟩
abbrev cc17_stg7_1 : Ref sig .tc := ⟨.vmem, 169, rfl⟩
abbrev cc17_stg8_0 : Ref sig .tc := ⟨.vmem, 170, rfl⟩
abbrev cc17_stg9_0 : Ref sig .tc := ⟨.vmem, 171, rfl⟩
abbrev cc18_stg0_0 : Ref sig .tc := ⟨.vmem, 172, rfl⟩
abbrev cc18_stg0_1 : Ref sig .tc := ⟨.vmem, 173, rfl⟩
abbrev cc18_stg1_0 : Ref sig .tc := ⟨.vmem, 174, rfl⟩
abbrev cc18_stg2_0 : Ref sig .tc := ⟨.vmem, 175, rfl⟩
abbrev cc18_stg3_0 : Ref sig .tc := ⟨.vmem, 176, rfl⟩
abbrev cc18_stg4_0 : Ref sig .tc := ⟨.vmem, 177, rfl⟩
abbrev cc18_stg5_0 : Ref sig .tc := ⟨.vmem, 178, rfl⟩
abbrev cc18_stg5_1 : Ref sig .tc := ⟨.vmem, 179, rfl⟩
abbrev cc18_stg6_0 : Ref sig .tc := ⟨.vmem, 180, rfl⟩
abbrev cc18_stg7_0 : Ref sig .tc := ⟨.vmem, 181, rfl⟩
abbrev cc19_stg0_0 : Ref sig .tc := ⟨.vmem, 182, rfl⟩
abbrev cc19_stg0_1 : Ref sig .tc := ⟨.vmem, 183, rfl⟩
abbrev cc19_stg1_0 : Ref sig .tc := ⟨.vmem, 184, rfl⟩
abbrev cc19_stg2_0 : Ref sig .tc := ⟨.vmem, 185, rfl⟩
abbrev cc19_stg3_0 : Ref sig .tc := ⟨.vmem, 186, rfl⟩
abbrev cc19_stg4_0 : Ref sig .tc := ⟨.vmem, 187, rfl⟩
abbrev cc19_stg5_0 : Ref sig .tc := ⟨.vmem, 188, rfl⟩
abbrev cc19_stg5_1 : Ref sig .tc := ⟨.vmem, 189, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem9_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem3_1 : DmaSem sig := 43
abbrev cc4_sem4_0 : DmaSem sig := 44
abbrev cc4_sem5_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem6_0 : DmaSem sig := 53
abbrev cc5_sem7_0 : DmaSem sig := 54
abbrev cc5_sem7_1 : DmaSem sig := 55
abbrev cc5_sem8_0 : DmaSem sig := 56
abbrev cc5_sem9_0 : DmaSem sig := 57
abbrev cc6_sem0_0 : DmaSem sig := 58
abbrev cc6_sem0_1 : DmaSem sig := 59
abbrev cc6_sem1_0 : DmaSem sig := 60
abbrev cc6_sem2_0 : DmaSem sig := 61
abbrev cc6_sem3_0 : DmaSem sig := 62
abbrev cc6_sem4_0 : DmaSem sig := 63
abbrev cc6_sem5_0 : DmaSem sig := 64
abbrev cc6_sem5_1 : DmaSem sig := 65
abbrev cc6_sem6_0 : DmaSem sig := 66
abbrev cc6_sem7_0 : DmaSem sig := 67
abbrev cc7_sem0_0 : DmaSem sig := 68
abbrev cc7_sem0_1 : DmaSem sig := 69
abbrev cc7_sem1_0 : DmaSem sig := 70
abbrev cc7_sem2_0 : DmaSem sig := 71
abbrev cc7_sem3_0 : DmaSem sig := 72
abbrev cc7_sem4_0 : DmaSem sig := 73
abbrev cc7_sem5_0 : DmaSem sig := 74
abbrev cc7_sem5_1 : DmaSem sig := 75
abbrev cc8_sem0_0 : DmaSem sig := 76
abbrev cc8_sem0_1 : DmaSem sig := 77
abbrev cc8_sem1_0 : DmaSem sig := 78
abbrev cc8_sem2_0 : DmaSem sig := 79
abbrev cc8_sem3_0 : DmaSem sig := 80
abbrev cc8_sem3_1 : DmaSem sig := 81
abbrev cc8_sem4_0 : DmaSem sig := 82
abbrev cc8_sem5_0 : DmaSem sig := 83
abbrev cc9_sem0_0 : DmaSem sig := 84
abbrev cc9_sem0_1 : DmaSem sig := 85
abbrev cc9_sem1_0 : DmaSem sig := 86
abbrev cc9_sem2_0 : DmaSem sig := 87
abbrev cc9_sem3_0 : DmaSem sig := 88
abbrev cc9_sem4_0 : DmaSem sig := 89
abbrev cc9_sem5_0 : DmaSem sig := 90
abbrev cc9_sem6_0 : DmaSem sig := 91
abbrev cc9_sem7_0 : DmaSem sig := 92
abbrev cc9_sem7_1 : DmaSem sig := 93
abbrev cc9_sem8_0 : DmaSem sig := 94
abbrev cc9_sem9_0 : DmaSem sig := 95
abbrev cc10_sem0_0 : DmaSem sig := 96
abbrev cc10_sem0_1 : DmaSem sig := 97
abbrev cc10_sem1_0 : DmaSem sig := 98
abbrev cc10_sem2_0 : DmaSem sig := 99
abbrev cc10_sem3_0 : DmaSem sig := 100
abbrev cc10_sem4_0 : DmaSem sig := 101
abbrev cc10_sem5_0 : DmaSem sig := 102
abbrev cc10_sem5_1 : DmaSem sig := 103
abbrev cc10_sem6_0 : DmaSem sig := 104
abbrev cc10_sem7_0 : DmaSem sig := 105
abbrev cc11_sem0_0 : DmaSem sig := 106
abbrev cc11_sem0_1 : DmaSem sig := 107
abbrev cc11_sem1_0 : DmaSem sig := 108
abbrev cc11_sem2_0 : DmaSem sig := 109
abbrev cc11_sem3_0 : DmaSem sig := 110
abbrev cc11_sem4_0 : DmaSem sig := 111
abbrev cc11_sem5_0 : DmaSem sig := 112
abbrev cc11_sem5_1 : DmaSem sig := 113
abbrev cc12_sem0_0 : DmaSem sig := 114
abbrev cc12_sem0_1 : DmaSem sig := 115
abbrev cc12_sem1_0 : DmaSem sig := 116
abbrev cc12_sem2_0 : DmaSem sig := 117
abbrev cc12_sem3_0 : DmaSem sig := 118
abbrev cc12_sem3_1 : DmaSem sig := 119
abbrev cc12_sem4_0 : DmaSem sig := 120
abbrev cc12_sem5_0 : DmaSem sig := 121
abbrev cc13_sem0_0 : DmaSem sig := 122
abbrev cc13_sem0_1 : DmaSem sig := 123
abbrev cc13_sem1_0 : DmaSem sig := 124
abbrev cc13_sem2_0 : DmaSem sig := 125
abbrev cc13_sem3_0 : DmaSem sig := 126
abbrev cc13_sem4_0 : DmaSem sig := 127
abbrev cc13_sem5_0 : DmaSem sig := 128
abbrev cc13_sem6_0 : DmaSem sig := 129
abbrev cc13_sem7_0 : DmaSem sig := 130
abbrev cc13_sem7_1 : DmaSem sig := 131
abbrev cc13_sem8_0 : DmaSem sig := 132
abbrev cc13_sem9_0 : DmaSem sig := 133
abbrev cc14_sem0_0 : DmaSem sig := 134
abbrev cc14_sem0_1 : DmaSem sig := 135
abbrev cc14_sem1_0 : DmaSem sig := 136
abbrev cc14_sem2_0 : DmaSem sig := 137
abbrev cc14_sem3_0 : DmaSem sig := 138
abbrev cc14_sem4_0 : DmaSem sig := 139
abbrev cc14_sem5_0 : DmaSem sig := 140
abbrev cc14_sem5_1 : DmaSem sig := 141
abbrev cc14_sem6_0 : DmaSem sig := 142
abbrev cc14_sem7_0 : DmaSem sig := 143
abbrev cc15_sem0_0 : DmaSem sig := 144
abbrev cc15_sem0_1 : DmaSem sig := 145
abbrev cc15_sem1_0 : DmaSem sig := 146
abbrev cc15_sem2_0 : DmaSem sig := 147
abbrev cc15_sem3_0 : DmaSem sig := 148
abbrev cc15_sem4_0 : DmaSem sig := 149
abbrev cc15_sem5_0 : DmaSem sig := 150
abbrev cc15_sem5_1 : DmaSem sig := 151
abbrev cc16_sem0_0 : DmaSem sig := 152
abbrev cc16_sem0_1 : DmaSem sig := 153
abbrev cc16_sem1_0 : DmaSem sig := 154
abbrev cc16_sem2_0 : DmaSem sig := 155
abbrev cc16_sem3_0 : DmaSem sig := 156
abbrev cc16_sem3_1 : DmaSem sig := 157
abbrev cc16_sem4_0 : DmaSem sig := 158
abbrev cc16_sem5_0 : DmaSem sig := 159
abbrev cc17_sem0_0 : DmaSem sig := 160
abbrev cc17_sem0_1 : DmaSem sig := 161
abbrev cc17_sem1_0 : DmaSem sig := 162
abbrev cc17_sem2_0 : DmaSem sig := 163
abbrev cc17_sem3_0 : DmaSem sig := 164
abbrev cc17_sem4_0 : DmaSem sig := 165
abbrev cc17_sem5_0 : DmaSem sig := 166
abbrev cc17_sem6_0 : DmaSem sig := 167
abbrev cc17_sem7_0 : DmaSem sig := 168
abbrev cc17_sem7_1 : DmaSem sig := 169
abbrev cc17_sem8_0 : DmaSem sig := 170
abbrev cc17_sem9_0 : DmaSem sig := 171
abbrev cc18_sem0_0 : DmaSem sig := 172
abbrev cc18_sem0_1 : DmaSem sig := 173
abbrev cc18_sem1_0 : DmaSem sig := 174
abbrev cc18_sem2_0 : DmaSem sig := 175
abbrev cc18_sem3_0 : DmaSem sig := 176
abbrev cc18_sem4_0 : DmaSem sig := 177
abbrev cc18_sem5_0 : DmaSem sig := 178
abbrev cc18_sem5_1 : DmaSem sig := 179
abbrev cc18_sem6_0 : DmaSem sig := 180
abbrev cc18_sem7_0 : DmaSem sig := 181
abbrev cc19_sem0_0 : DmaSem sig := 182
abbrev cc19_sem0_1 : DmaSem sig := 183
abbrev cc19_sem1_0 : DmaSem sig := 184
abbrev cc19_sem2_0 : DmaSem sig := 185
abbrev cc19_sem3_0 : DmaSem sig := 186
abbrev cc19_sem4_0 : DmaSem sig := 187
abbrev cc19_sem5_0 : DmaSem sig := 188
abbrev cc19_sem5_1 : DmaSem sig := 189

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S10000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S10000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S10000x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev stage9_8 : Fin 1 → Memref sig .tc .vmem S1x128 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S1x128 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S10000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S10000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S1x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S10000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![5], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S10000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S10000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev grid13 : Pipeline.Grid := ⟨1, ![5], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_8 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_9 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S10000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S128x128 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x128 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 2 → Memref sig .tc .vmem S10000x128 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev stage13_8 : Fin 1 → Memref sig .tc .vmem S1x128 .f32 := fun | 0 => Memref.whole cc13_stg8_0 | ⟨_ + 1, h⟩ => absurd h (Nat.not_lt.2 (Nat.le_add_left _ _))
abbrev sem13_8 : Fin 1 → DmaSem sig := fun | 0 => cc13_sem8_0 | ⟨_ + 1, h⟩ => absurd h (Nat.not_lt.2 (Nat.le_add_left _ _))
abbrev reads13_8 : Fin grid13.rank → Bool := ![false]

abbrev stage13_9 : Fin 1 → Memref sig .tc .vmem S1x128 .f32 := fun | 0 => Memref.whole cc13_stg9_0 | ⟨_ + 1, h⟩ => absurd h (Nat.not_lt.2 (Nat.le_add_left _ _))
abbrev sem13_9 : Fin 1 → DmaSem sig := fun | 0 => cc13_sem9_0 | ⟨_ + 1, h⟩ => absurd h (Nat.not_lt.2 (Nat.le_add_left _ _))
abbrev reads13_9 : Fin grid13.rank → Bool := ![false]

abbrev grid14 : Pipeline.Grid := ⟨1, ![5], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S10000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S10000x128 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev stage14_6 : Fin 1 → Memref sig .tc .vmem S1x128 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 1 → Memref sig .tc .vmem S1x128 .f32 := fun | 0 => Memref.whole cc14_stg7_0 | ⟨_ + 1, h⟩ => absurd h (Nat.not_lt.2 (Nat.le_add_left _ _))
abbrev sem14_7 : Fin 1 → DmaSem sig := fun | 0 => cc14_sem7_0 | ⟨_ + 1, h⟩ => absurd h (Nat.not_lt.2 (Nat.le_add_left _ _))
abbrev reads14_7 : Fin grid14.rank → Bool := ![false]

abbrev grid15 : Pipeline.Grid := ⟨1, ![5], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S10000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S10000x128 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev grid16 : Pipeline.Grid := ⟨1, ![5], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 2 → Memref sig .tc .vmem S10000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S128x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S10000x128 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 1 → Memref sig .tc .vmem S1x128 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S1x128 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev grid17 : Pipeline.Grid := ⟨1, ![5], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_6 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_7 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_8 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_9 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage17_0 : Fin 2 → Memref sig .tc .vmem S10000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S1x128 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S1x128 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 1 → Memref sig .tc .vmem S128x128 .f32 := fun | 0 => Memref.whole cc17_stg5_0 | ⟨_ + 1, h⟩ => absurd h (Nat.not_lt.2 (Nat.le_add_left _ _))
abbrev sem17_5 : Fin 1 → DmaSem sig := fun | 0 => cc17_sem5_0 | ⟨_ + 1, h⟩ => absurd h (Nat.not_lt.2 (Nat.le_add_left _ _))
abbrev reads17_5 : Fin grid17.rank → Bool := ![false]

abbrev stage17_6 : Fin 1 → Memref sig .tc .vmem S1x128 .f32 := fun | 0 => Memref.whole cc17_stg6_0 | ⟨_ + 1, h⟩ => absurd h (Nat.not_lt.2 (Nat.le_add_left _ _))
abbrev sem17_6 : Fin 1 → DmaSem sig := fun | 0 => cc17_sem6_0 | ⟨_ + 1, h⟩ => absurd h (Nat.not_lt.2 (Nat.le_add_left _ _))
abbrev reads17_6 : Fin grid17.rank → Bool := ![false]

abbrev stage17_7 : Fin 2 → Memref sig .tc .vmem S10000x128 .f32 := fun | 0 => Memref.whole cc17_stg7_0 | 1 => Memref.whole cc17_stg7_1 | ⟨_ + 2, h⟩ => absurd h (Nat.not_lt.2 (Nat.le_add_left _ _))
abbrev sem17_7 : Fin 2 → DmaSem sig := fun | 0 => cc17_sem7_0 | 1 => cc17_sem7_1 | ⟨_ + 2, h⟩ => absurd h (Nat.not_lt.2 (Nat.le_add_left _ _))
abbrev reads17_7 : Fin grid17.rank → Bool := ![true]

abbrev stage17_8 : Fin 1 → Memref sig .tc .vmem S1x128 .f32 := fun | 0 => Memref.whole cc17_stg8_0 | ⟨_ + 1, h⟩ => absurd h (Nat.not_lt.2 (Nat.le_add_left _ _))
abbrev sem17_8 : Fin 1 → DmaSem sig := fun | 0 => cc17_sem8_0 | ⟨_ + 1, h⟩ => absurd h (Nat.not_lt.2 (Nat.le_add_left _ _))
abbrev reads17_8 : Fin grid17.rank → Bool := ![false]

abbrev stage17_9 : Fin 1 → Memref sig .tc .vmem S1x128 .f32 := fun | 0 => Memref.whole cc17_stg9_0 | ⟨_ + 1, h⟩ => absurd h (Nat.not_lt.2 (Nat.le_add_left _ _))
abbrev sem17_9 : Fin 1 → DmaSem sig := fun | 0 => cc17_sem9_0 | ⟨_ + 1, h⟩ => absurd h (Nat.not_lt.2 (Nat.le_add_left _ _))
abbrev reads17_9 : Fin grid17.rank → Bool := ![false]

abbrev grid18 : Pipeline.Grid := ⟨1, ![5], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_6 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_7 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage18_0 : Fin 2 → Memref sig .tc .vmem S10000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S1x128 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S1x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x128 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 2 → Memref sig .tc .vmem S10000x128 .f32 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true]

abbrev stage18_6 : Fin 1 → Memref sig .tc .vmem S1x128 .f32 := fun | 0 => Memref.whole cc18_stg6_0 | ⟨_ + 1, h⟩ => absurd h (Nat.not_lt.2 (Nat.le_add_left _ _))
abbrev sem18_6 : Fin 1 → DmaSem sig := fun | 0 => cc18_sem6_0 | ⟨_ + 1, h⟩ => absurd h (Nat.not_lt.2 (Nat.le_add_left _ _))
abbrev reads18_6 : Fin grid18.rank → Bool := ![false]

abbrev stage18_7 : Fin 1 → Memref sig .tc .vmem S1x128 .f32 := fun | 0 => Memref.whole cc18_stg7_0 | ⟨_ + 1, h⟩ => absurd h (Nat.not_lt.2 (Nat.le_add_left _ _))
abbrev sem18_7 : Fin 1 → DmaSem sig := fun | 0 => cc18_sem7_0 | ⟨_ + 1, h⟩ => absurd h (Nat.not_lt.2 (Nat.le_add_left _ _))
abbrev reads18_7 : Fin grid18.rank → Bool := ![false]

abbrev grid19 : Pipeline.Grid := ⟨1, ![5], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S10000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x128 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x128 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S1x128 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x128 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 2 → Memref sig .tc .vmem S10000x128 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S5x128_S1x128_0_0 : S5x128.Slices ![0, 0] S1x128
  shapeCasts_S1x128_S128 : S1x128.ShapeCasts S128
  shapeCasts_S128_S1x128 : S128.ShapeCasts S1x128
  slices_S5x128x128_S1x128x128_0_0_0 : S5x128x128.Slices ![0, 0, 0] S1x128x128
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S10000x128 : S1x128.Broadcasts S10000x128
  reduces_S10000x128_S128 : S10000x128.Reduces [0] S128
  bcast_S_S1x128 : S_.BroadcastsInDim S1x128 (![] : Fin 0 → Fin S1x128.rank)
  slices_S5x128_S1x128_1_0 : S5x128.Slices ![1, 0] S1x128
  slices_S5x128x128_S1x128x128_1_0_0 : S5x128x128.Slices ![1, 0, 0] S1x128x128
  slices_S5x128_S1x128_2_0 : S5x128.Slices ![2, 0] S1x128
  slices_S5x128x128_S1x128x128_2_0_0 : S5x128x128.Slices ![2, 0, 0] S1x128x128
  slices_S5x128_S1x128_3_0 : S5x128.Slices ![3, 0] S1x128
  slices_S5x128x128_S1x128x128_3_0_0 : S5x128x128.Slices ![3, 0, 0] S1x128x128
  slices_S5x128_S1x128_4_0 : S5x128.Slices ![4, 0] S1x128
  slices_S5x128x128_S1x128x128_4_0_0 : S5x128x128.Slices ![4, 0, 0] S1x128x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S50000x128.size a
  hwx1_7 : ∀ i : grid1.Coords, EltTy.bits .f32 = 32 ∨ (Rect.block (s := S50000x128) S10000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S50000x128.size a
  hwx2_5 : ∀ i : grid2.Coords, EltTy.bits .f32 = 32 ∨ (Rect.block (s := S50000x128) S10000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S50000x128.size a
  hwx3_5 : ∀ i : grid3.Coords, EltTy.bits .f32 = 32 ∨ (Rect.block (s := S50000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x128.size a ≤ S50000x128.size a
  hwx4_3 : ∀ i : grid4.Coords, EltTy.bits .f32 = 32 ∨ (Rect.block (s := S50000x128) S10000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S10000x128.size a ≤ S50000x128.size a
  hwx5_7 : ∀ i : grid5.Coords, EltTy.bits .f32 = 32 ∨ (Rect.block (s := S50000x128) S10000x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x128.size a ≤ S1x128.size a
  hwx5_9 : ∀ i : grid5.Coords, EltTy.bits .f32 = 32 ∨ (Rect.block (s := S1x128) S1x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x128.size a ≤ S50000x128.size a
  hwx6_5 : ∀ i : grid6.Coords, EltTy.bits .f32 = 32 ∨ (Rect.block (s := S50000x128) S10000x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S50000x128.size a
  hwx7_0 : ∀ i : grid7.Coords, EltTy.bits .f32 = 32 ∨ (Rect.block (s := S50000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x128.size a ≤ S50000x128.size a
  hwx7_5 : ∀ i : grid7.Coords, EltTy.bits .f32 = 32 ∨ (Rect.block (s := S50000x128) S10000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S50000x128.size a
  hwx8_0 : ∀ i : grid8.Coords, EltTy.bits .f32 = 32 ∨ (Rect.block (s := S50000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x128.size a ≤ S50000x128.size a
  hwx8_3 : ∀ i : grid8.Coords, EltTy.bits .f32 = 32 ∨ (Rect.block (s := S50000x128) S10000x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x128.size a ≤ S50000x128.size a
  hwx9_0 : ∀ i : grid9.Coords, EltTy.bits .f32 = 32 ∨ (Rect.block (s := S50000x128) S10000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x128.size a ≤ S128x128.size a
  hwx9_5 : ∀ i : grid9.Coords, EltTy.bits .f32 = 32 ∨ (Rect.block (s := S128x128) S128x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S10000x128.size a ≤ S50000x128.size a
  hwx9_7 : ∀ i : grid9.Coords, EltTy.bits .f32 = 32 ∨ (Rect.block (s := S50000x128) S10000x128.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x128.size a ≤ S1x128.size a
  hwx9_8 : ∀ i : grid9.Coords, EltTy.bits .f32 = 32 ∨ (Rect.block (s := S1x128) S1x128.size (cc9_transform_8 i) (hinb9_8 i)).WholeWords (EltTy.packing .f32)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S1x128.size a ≤ S1x128.size a
  hwx9_9 : ∀ i : grid9.Coords, EltTy.bits .f32 = 32 ∨ (Rect.block (s := S1x128) S1x128.size (cc9_transform_9 i) (hinb9_9 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x128.size a ≤ S50000x128.size a
  hwx10_0 : ∀ i : grid10.Coords, EltTy.bits .f32 = 32 ∨ (Rect.block (s := S50000x128) S10000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S10000x128.size a ≤ S50000x128.size a
  hwx10_5 : ∀ i : grid10.Coords, EltTy.bits .f32 = 32 ∨ (Rect.block (s := S50000x128) S10000x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x128.size a ≤ S1x128.size a
  hwx10_7 : ∀ i : grid10.Coords, EltTy.bits .f32 = 32 ∨ (Rect.block (s := S1x128) S1x128.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x128.size a ≤ S50000x128.size a
  hwx11_0 : ∀ i : grid11.Coords, EltTy.bits .f32 = 32 ∨ (Rect.block (s := S50000x128) S10000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S10000x128.size a ≤ S50000x128.size a
  hwx11_5 : ∀ i : grid11.Coords, EltTy.bits .f32 = 32 ∨ (Rect.block (s := S50000x128) S10000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x128.size a ≤ S50000x128.size a
  hwx12_0 : ∀ i : grid12.Coords, EltTy.bits .f32 = 32 ∨ (Rect.block (s := S50000x128) S10000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S10000x128.size a ≤ S50000x128.size a
  hwx12_3 : ∀ i : grid12.Coords, EltTy.bits .f32 = 32 ∨ (Rect.block (s := S50000x128) S10000x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x128.size a ≤ S1x128.size a
  hwx12_5 : ∀ i : grid12.Coords, EltTy.bits .f32 = 32 ∨ (Rect.block (s := S1x128) S1x128.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x128.size a ≤ S50000x128.size a
  hwx13_0 : ∀ i : grid13.Coords, EltTy.bits .f32 = 32 ∨ (Rect.block (s := S50000x128) S10000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S128x128.size a ≤ S128x128.size a
  hwx13_5 : ∀ i : grid13.Coords, EltTy.bits .f32 = 32 ∨ (Rect.block (s := S128x128) S128x128.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x128.size a ≤ S1x128.size a
  hwx13_6 : ∀ i : grid13.Coords, EltTy.bits .f32 = 32 ∨ (Rect.block (s := S1x128) S1x128.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S10000x128.size a ≤ S50000x128.size a
  hwx13_7 : ∀ i : grid13.Coords, EltTy.bits .f32 = 32 ∨ (Rect.block (s := S50000x128) S10000x128.size (cc13_transform_7 i) (hinb13_7 i)).WholeWords (EltTy.packing .f32)
  hstage13_8 : ∀ j, (stage13_8 j).IsWhole
  nbuf13_8 : grid13.bufCount reads13_8 true = 1
  hreads13_8 : ∀ i i' : grid13.Coords, (∀ a, reads13_8 a = true → i a = i' a) → cc13_transform_8 i = cc13_transform_8 i'
  hinb13_8 : ∀ (i : grid13.Coords) a, (cc13_transform_8 i a + 1) * S1x128.size a ≤ S1x128.size a
  hwx13_8 : ∀ i : grid13.Coords, EltTy.bits .f32 = 32 ∨ (Rect.block (s := S1x128) S1x128.size (cc13_transform_8 i) (hinb13_8 i)).WholeWords (EltTy.packing .f32)
  hstage13_9 : ∀ j, (stage13_9 j).IsWhole
  nbuf13_9 : grid13.bufCount reads13_9 true = 1
  hreads13_9 : ∀ i i' : grid13.Coords, (∀ a, reads13_9 a = true → i a = i' a) → cc13_transform_9 i = cc13_transform_9 i'
  hinb13_9 : ∀ (i : grid13.Coords) a, (cc13_transform_9 i a + 1) * S1x128.size a ≤ S1x128.size a
  hwx13_9 : ∀ i : grid13.Coords, EltTy.bits .f32 = 32 ∨ (Rect.block (s := S1x128) S1x128.size (cc13_transform_9 i) (hinb13_9 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x128.size a ≤ S50000x128.size a
  hwx14_0 : ∀ i : grid14.Coords, EltTy.bits .f32 = 32 ∨ (Rect.block (s := S50000x128) S10000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S10000x128.size a ≤ S50000x128.size a
  hwx14_5 : ∀ i : grid14.Coords, EltTy.bits .f32 = 32 ∨ (Rect.block (s := S50000x128) S10000x128.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S1x128.size a ≤ S1x128.size a
  hwx14_6 : ∀ i : grid14.Coords, EltTy.bits .f32 = 32 ∨ (Rect.block (s := S1x128) S1x128.size (cc14_transform_6 i) (hinb14_6 i)).WholeWords (EltTy.packing .f32)
  hstage14_7 : ∀ j, (stage14_7 j).IsWhole
  nbuf14_7 : grid14.bufCount reads14_7 true = 1
  hreads14_7 : ∀ i i' : grid14.Coords, (∀ a, reads14_7 a = true → i a = i' a) → cc14_transform_7 i = cc14_transform_7 i'
  hinb14_7 : ∀ (i : grid14.Coords) a, (cc14_transform_7 i a + 1) * S1x128.size a ≤ S1x128.size a
  hwx14_7 : ∀ i : grid14.Coords, EltTy.bits .f32 = 32 ∨ (Rect.block (s := S1x128) S1x128.size (cc14_transform_7 i) (hinb14_7 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S10000x128.size a ≤ S50000x128.size a
  hwx15_0 : ∀ i : grid15.Coords, EltTy.bits .f32 = 32 ∨ (Rect.block (s := S50000x128) S10000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x128.size a ≤ S1x128.size a
  hwx15_1 : ∀ i : grid15.Coords, EltTy.bits .f32 = 32 ∨ (Rect.block (s := S1x128) S1x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x128.size a ≤ S1x128.size a
  hwx15_4 : ∀ i : grid15.Coords, EltTy.bits .f32 = 32 ∨ (Rect.block (s := S1x128) S1x128.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S10000x128.size a ≤ S50000x128.size a
  hwx15_5 : ∀ i : grid15.Coords, EltTy.bits .f32 = 32 ∨ (Rect.block (s := S50000x128) S10000x128.size (cc15_transform_5 i) (hinb15_5 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S10000x128.size a ≤ S50000x128.size a
  hwx16_0 : ∀ i : grid16.Coords, EltTy.bits .f32 = 32 ∨ (Rect.block (s := S50000x128) S10000x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S128x128.size a ≤ S128x128.size a
  hwx16_1 : ∀ i : grid16.Coords, EltTy.bits .f32 = 32 ∨ (Rect.block (s := S128x128) S128x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S10000x128.size a ≤ S50000x128.size a
  hwx16_3 : ∀ i : grid16.Coords, EltTy.bits .f32 = 32 ∨ (Rect.block (s := S50000x128) S10000x128.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x128.size a ≤ S1x128.size a
  hwx16_4 : ∀ i : grid16.Coords, EltTy.bits .f32 = 32 ∨ (Rect.block (s := S1x128) S1x128.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S1x128.size a ≤ S1x128.size a
  hwx16_5 : ∀ i : grid16.Coords, EltTy.bits .f32 = 32 ∨ (Rect.block (s := S1x128) S1x128.size (cc16_transform_5 i) (hinb16_5 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S10000x128.size a ≤ S50000x128.size a
  hwx17_0 : ∀ i : grid17.Coords, EltTy.bits .f32 = 32 ∨ (Rect.block (s := S50000x128) S10000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x128.size a ≤ S1x128.size a
  hwx17_1 : ∀ i : grid17.Coords, EltTy.bits .f32 = 32 ∨ (Rect.block (s := S1x128) S1x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x128.size a ≤ S1x128.size a
  hwx17_2 : ∀ i : grid17.Coords, EltTy.bits .f32 = 32 ∨ (Rect.block (s := S1x128) S1x128.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x128.size a ≤ S1x128.size a
  hwx17_3 : ∀ i : grid17.Coords, EltTy.bits .f32 = 32 ∨ (Rect.block (s := S1x128) S1x128.size (cc17_transform_3 i) (hinb17_3 i)).WholeWords (EltTy.packing .f32)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S1x128.size a ≤ S1x128.size a
  hwx17_4 : ∀ i : grid17.Coords, EltTy.bits .f32 = 32 ∨ (Rect.block (s := S1x128) S1x128.size (cc17_transform_4 i) (hinb17_4 i)).WholeWords (EltTy.packing .f32)
  hstage17_5 : ∀ j, (stage17_5 j).IsWhole
  nbuf17_5 : grid17.bufCount reads17_5 true = 1
  hreads17_5 : ∀ i i' : grid17.Coords, (∀ a, reads17_5 a = true → i a = i' a) → cc17_transform_5 i = cc17_transform_5 i'
  hinb17_5 : ∀ (i : grid17.Coords) a, (cc17_transform_5 i a + 1) * S128x128.size a ≤ S128x128.size a
  hwx17_5 : ∀ i : grid17.Coords, EltTy.bits .f32 = 32 ∨ (Rect.block (s := S128x128) S128x128.size (cc17_transform_5 i) (hinb17_5 i)).WholeWords (EltTy.packing .f32)
  hstage17_6 : ∀ j, (stage17_6 j).IsWhole
  nbuf17_6 : grid17.bufCount reads17_6 true = 1
  hreads17_6 : ∀ i i' : grid17.Coords, (∀ a, reads17_6 a = true → i a = i' a) → cc17_transform_6 i = cc17_transform_6 i'
  hinb17_6 : ∀ (i : grid17.Coords) a, (cc17_transform_6 i a + 1) * S1x128.size a ≤ S1x128.size a
  hwx17_6 : ∀ i : grid17.Coords, EltTy.bits .f32 = 32 ∨ (Rect.block (s := S1x128) S1x128.size (cc17_transform_6 i) (hinb17_6 i)).WholeWords (EltTy.packing .f32)
  hstage17_7 : ∀ j, (stage17_7 j).IsWhole
  nbuf17_7 : grid17.bufCount reads17_7 false = 2
  hreads17_7 : ∀ i i' : grid17.Coords, (∀ a, reads17_7 a = true → i a = i' a) → cc17_transform_7 i = cc17_transform_7 i'
  hinb17_7 : ∀ (i : grid17.Coords) a, (cc17_transform_7 i a + 1) * S10000x128.size a ≤ S50000x128.size a
  hwx17_7 : ∀ i : grid17.Coords, EltTy.bits .f32 = 32 ∨ (Rect.block (s := S50000x128) S10000x128.size (cc17_transform_7 i) (hinb17_7 i)).WholeWords (EltTy.packing .f32)
  hstage17_8 : ∀ j, (stage17_8 j).IsWhole
  nbuf17_8 : grid17.bufCount reads17_8 true = 1
  hreads17_8 : ∀ i i' : grid17.Coords, (∀ a, reads17_8 a = true → i a = i' a) → cc17_transform_8 i = cc17_transform_8 i'
  hinb17_8 : ∀ (i : grid17.Coords) a, (cc17_transform_8 i a + 1) * S1x128.size a ≤ S1x128.size a
  hwx17_8 : ∀ i : grid17.Coords, EltTy.bits .f32 = 32 ∨ (Rect.block (s := S1x128) S1x128.size (cc17_transform_8 i) (hinb17_8 i)).WholeWords (EltTy.packing .f32)
  hstage17_9 : ∀ j, (stage17_9 j).IsWhole
  nbuf17_9 : grid17.bufCount reads17_9 true = 1
  hreads17_9 : ∀ i i' : grid17.Coords, (∀ a, reads17_9 a = true → i a = i' a) → cc17_transform_9 i = cc17_transform_9 i'
  hinb17_9 : ∀ (i : grid17.Coords) a, (cc17_transform_9 i a + 1) * S1x128.size a ≤ S1x128.size a
  hwx17_9 : ∀ i : grid17.Coords, EltTy.bits .f32 = 32 ∨ (Rect.block (s := S1x128) S1x128.size (cc17_transform_9 i) (hinb17_9 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S10000x128.size a ≤ S50000x128.size a
  hwx18_0 : ∀ i : grid18.Coords, EltTy.bits .f32 = 32 ∨ (Rect.block (s := S50000x128) S10000x128.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S1x128.size a ≤ S1x128.size a
  hwx18_1 : ∀ i : grid18.Coords, EltTy.bits .f32 = 32 ∨ (Rect.block (s := S1x128) S1x128.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x128.size a ≤ S1x128.size a
  hwx18_2 : ∀ i : grid18.Coords, EltTy.bits .f32 = 32 ∨ (Rect.block (s := S1x128) S1x128.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S1x128.size a ≤ S1x128.size a
  hwx18_3 : ∀ i : grid18.Coords, EltTy.bits .f32 = 32 ∨ (Rect.block (s := S1x128) S1x128.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x128.size a ≤ S1x128.size a
  hwx18_4 : ∀ i : grid18.Coords, EltTy.bits .f32 = 32 ∨ (Rect.block (s := S1x128) S1x128.size (cc18_transform_4 i) (hinb18_4 i)).WholeWords (EltTy.packing .f32)
  hstage18_5 : ∀ j, (stage18_5 j).IsWhole
  nbuf18_5 : grid18.bufCount reads18_5 false = 2
  hreads18_5 : ∀ i i' : grid18.Coords, (∀ a, reads18_5 a = true → i a = i' a) → cc18_transform_5 i = cc18_transform_5 i'
  hinb18_5 : ∀ (i : grid18.Coords) a, (cc18_transform_5 i a + 1) * S10000x128.size a ≤ S50000x128.size a
  hwx18_5 : ∀ i : grid18.Coords, EltTy.bits .f32 = 32 ∨ (Rect.block (s := S50000x128) S10000x128.size (cc18_transform_5 i) (hinb18_5 i)).WholeWords (EltTy.packing .f32)
  hstage18_6 : ∀ j, (stage18_6 j).IsWhole
  nbuf18_6 : grid18.bufCount reads18_6 true = 1
  hreads18_6 : ∀ i i' : grid18.Coords, (∀ a, reads18_6 a = true → i a = i' a) → cc18_transform_6 i = cc18_transform_6 i'
  hinb18_6 : ∀ (i : grid18.Coords) a, (cc18_transform_6 i a + 1) * S1x128.size a ≤ S1x128.size a
  hwx18_6 : ∀ i : grid18.Coords, EltTy.bits .f32 = 32 ∨ (Rect.block (s := S1x128) S1x128.size (cc18_transform_6 i) (hinb18_6 i)).WholeWords (EltTy.packing .f32)
  hstage18_7 : ∀ j, (stage18_7 j).IsWhole
  nbuf18_7 : grid18.bufCount reads18_7 true = 1
  hreads18_7 : ∀ i i' : grid18.Coords, (∀ a, reads18_7 a = true → i a = i' a) → cc18_transform_7 i = cc18_transform_7 i'
  hinb18_7 : ∀ (i : grid18.Coords) a, (cc18_transform_7 i a + 1) * S1x128.size a ≤ S1x128.size a
  hwx18_7 : ∀ i : grid18.Coords, EltTy.bits .f32 = 32 ∨ (Rect.block (s := S1x128) S1x128.size (cc18_transform_7 i) (hinb18_7 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S10000x128.size a ≤ S50000x128.size a
  hwx19_0 : ∀ i : grid19.Coords, EltTy.bits .f32 = 32 ∨ (Rect.block (s := S50000x128) S10000x128.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x128.size a ≤ S1x128.size a
  hwx19_1 : ∀ i : grid19.Coords, EltTy.bits .f32 = 32 ∨ (Rect.block (s := S1x128) S1x128.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x128.size a ≤ S1x128.size a
  hwx19_2 : ∀ i : grid19.Coords, EltTy.bits .f32 = 32 ∨ (Rect.block (s := S1x128) S1x128.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S1x128.size a ≤ S1x128.size a
  hwx19_3 : ∀ i : grid19.Coords, EltTy.bits .f32 = 32 ∨ (Rect.block (s := S1x128) S1x128.size (cc19_transform_3 i) (hinb19_3 i)).WholeWords (EltTy.packing .f32)
  hstage19_4 : ∀ j, (stage19_4 j).IsWhole
  nbuf19_4 : grid19.bufCount reads19_4 true = 1
  hreads19_4 : ∀ i i' : grid19.Coords, (∀ a, reads19_4 a = true → i a = i' a) → cc19_transform_4 i = cc19_transform_4 i'
  hinb19_4 : ∀ (i : grid19.Coords) a, (cc19_transform_4 i a + 1) * S1x128.size a ≤ S1x128.size a
  hwx19_4 : ∀ i : grid19.Coords, EltTy.bits .f32 = 32 ∨ (Rect.block (s := S1x128) S1x128.size (cc19_transform_4 i) (hinb19_4 i)).WholeWords (EltTy.packing .f32)
  hstage19_5 : ∀ j, (stage19_5 j).IsWhole
  nbuf19_5 : grid19.bufCount reads19_5 false = 2
  hreads19_5 : ∀ i i' : grid19.Coords, (∀ a, reads19_5 a = true → i a = i' a) → cc19_transform_5 i = cc19_transform_5 i'
  hinb19_5 : ∀ (i : grid19.Coords) a, (cc19_transform_5 i a + 1) * S10000x128.size a ≤ S50000x128.size a
  hwx19_5 : ∀ i : grid19.Coords, EltTy.bits .f32 = 32 ∨ (Rect.block (s := S50000x128) S10000x128.size (cc19_transform_5 i) (hinb19_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v10) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46_0) S10000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v46_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v46_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v46_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53_0) S10000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v53_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v53_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v53_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v71) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v97) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v98_0) S10000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v98_1) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v98_2) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v98_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v100) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v104) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v106) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v77) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v107_0) S10000x128.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v107_1) S1x128.size cc5_transform_8 reads5_8 true true 1 stage5_8 sem5_8
    hrank5 hreads5_8 hinb5_8 nbuf5_8 (Memref.isWhole_whole _) hwx5_8 hstage5_8

abbrev win5_9 : Pipeline.Window sig grid5 :=
  Pipeline.Window.ofSpec (Memref.whole main_v107_2) S1x128.size cc5_transform_9 reads5_9 true true 1 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v107_0) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v109) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v113) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v86) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v89) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v114_0) S10000x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v114_1) S1x128.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v114_2) S1x128.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v114_0) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v116) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v120) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v92) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v95) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v121) S10000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v132) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v158) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v135) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v159_0) S10000x128.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v159_1) S1x128.size cc8_transform_4 reads8_4 true true 1 stage8_4 sem8_4
    hrank8 hreads8_4 hinb8_4 nbuf8_4 (Memref.isWhole_whole _) hwx8_4 hstage8_4

abbrev win8_5 : Pipeline.Window sig grid8 :=
  Pipeline.Window.ofSpec (Memref.whole main_v159_2) S1x128.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v159_0) S10000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v161) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v165) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v141) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v144) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v167) S128x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v138) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v168_0) S10000x128.size cc9_transform_7 reads9_7 true false 2 stage9_7 sem9_7
    hrank9 hreads9_7 hinb9_7 nbuf9_7 (Memref.isWhole_whole _) hwx9_7 hstage9_7

abbrev win9_8 : Pipeline.Window sig grid9 :=
  Pipeline.Window.ofSpec (Memref.whole main_v168_1) S1x128.size cc9_transform_8 reads9_8 true true 1 stage9_8 sem9_8
    hrank9 hreads9_8 hinb9_8 nbuf9_8 (Memref.isWhole_whole _) hwx9_8 hstage9_8

abbrev win9_9 : Pipeline.Window sig grid9 :=
  Pipeline.Window.ofSpec (Memref.whole main_v168_2) S1x128.size cc9_transform_9 reads9_9 true true 1 stage9_9 sem9_9
    hrank9 hreads9_9 hinb9_9 nbuf9_9 (Memref.isWhole_whole _) hwx9_9 hstage9_9

abbrev win9 : Fin 10 → Pipeline.Window sig grid9 := fun | 0 => win9_0 | 1 => win9_1 | 2 => win9_2 | 3 => win9_3 | 4 => win9_4 | 5 => win9_5 | 6 => win9_6 | 7 => win9_7 | 8 => win9_8 | 9 => win9_9 | ⟨_ + 10, h⟩ => absurd h (Nat.not_lt.2 (Nat.le_add_left _ _))
abbrev spec9 : Fin 10 → Pipeline.WinSpec sig grid9.rank := fun w => (win9 w).toWinSpec

abbrev win10_0 : Pipeline.Window sig grid10 :=
  Pipeline.Window.ofSpec (Memref.whole main_v168_0) S10000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v170) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v174) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v147) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v150) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v175_0) S10000x128.size cc10_transform_5 reads10_5 true false 2 stage10_5 sem10_5
    hrank10 hreads10_5 hinb10_5 nbuf10_5 (Memref.isWhole_whole _) hwx10_5 hstage10_5

abbrev win10_6 : Pipeline.Window sig grid10 :=
  Pipeline.Window.ofSpec (Memref.whole main_v175_1) S1x128.size cc10_transform_6 reads10_6 true true 1 stage10_6 sem10_6
    hrank10 hreads10_6 hinb10_6 nbuf10_6 (Memref.isWhole_whole _) hwx10_6 hstage10_6

abbrev win10_7 : Pipeline.Window sig grid10 :=
  Pipeline.Window.ofSpec (Memref.whole main_v175_2) S1x128.size cc10_transform_7 reads10_7 true true 1 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v175_0) S10000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v177) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v181) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v153) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v156) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v182) S10000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v193) S10000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v219) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v196) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v220_0) S10000x128.size cc12_transform_3 reads12_3 true false 2 stage12_3 sem12_3
    hrank12 hreads12_3 hinb12_3 nbuf12_3 (Memref.isWhole_whole _) hwx12_3 hstage12_3

abbrev win12_4 : Pipeline.Window sig grid12 :=
  Pipeline.Window.ofSpec (Memref.whole main_v220_1) S1x128.size cc12_transform_4 reads12_4 true true 1 stage12_4 sem12_4
    hrank12 hreads12_4 hinb12_4 nbuf12_4 (Memref.isWhole_whole _) hwx12_4 hstage12_4

abbrev win12_5 : Pipeline.Window sig grid12 :=
  Pipeline.Window.ofSpec (Memref.whole main_v220_2) S1x128.size cc12_transform_5 reads12_5 true true 1 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v220_0) S10000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v222) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v226) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v202) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v205) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v228) S128x128.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v199) S1x128.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v229_0) S10000x128.size cc13_transform_7 reads13_7 true false 2 stage13_7 sem13_7
    hrank13 hreads13_7 hinb13_7 nbuf13_7 (Memref.isWhole_whole _) hwx13_7 hstage13_7

abbrev win13_8 : Pipeline.Window sig grid13 :=
  Pipeline.Window.ofSpec (Memref.whole main_v229_1) S1x128.size cc13_transform_8 reads13_8 true true 1 stage13_8 sem13_8
    hrank13 hreads13_8 hinb13_8 nbuf13_8 (Memref.isWhole_whole _) hwx13_8 hstage13_8

abbrev win13_9 : Pipeline.Window sig grid13 :=
  Pipeline.Window.ofSpec (Memref.whole main_v229_2) S1x128.size cc13_transform_9 reads13_9 true true 1 stage13_9 sem13_9
    hrank13 hreads13_9 hinb13_9 nbuf13_9 (Memref.isWhole_whole _) hwx13_9 hstage13_9

abbrev win13 : Fin 10 → Pipeline.Window sig grid13 := fun | 0 => win13_0 | 1 => win13_1 | 2 => win13_2 | 3 => win13_3 | 4 => win13_4 | 5 => win13_5 | 6 => win13_6 | 7 => win13_7 | 8 => win13_8 | 9 => win13_9 | ⟨_ + 10, h⟩ => absurd h (Nat.not_lt.2 (Nat.le_add_left _ _))
abbrev spec13 : Fin 10 → Pipeline.WinSpec sig grid13.rank := fun w => (win13 w).toWinSpec

abbrev win14_0 : Pipeline.Window sig grid14 :=
  Pipeline.Window.ofSpec (Memref.whole main_v229_0) S10000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v231) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v235) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v208) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v211) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v236_0) S10000x128.size cc14_transform_5 reads14_5 true false 2 stage14_5 sem14_5
    hrank14 hreads14_5 hinb14_5 nbuf14_5 (Memref.isWhole_whole _) hwx14_5 hstage14_5

abbrev win14_6 : Pipeline.Window sig grid14 :=
  Pipeline.Window.ofSpec (Memref.whole main_v236_1) S1x128.size cc14_transform_6 reads14_6 true true 1 stage14_6 sem14_6
    hrank14 hreads14_6 hinb14_6 nbuf14_6 (Memref.isWhole_whole _) hwx14_6 hstage14_6

abbrev win14_7 : Pipeline.Window sig grid14 :=
  Pipeline.Window.ofSpec (Memref.whole main_v236_2) S1x128.size cc14_transform_7 reads14_7 true true 1 stage14_7 sem14_7
    hrank14 hreads14_7 hinb14_7 nbuf14_7 (Memref.isWhole_whole _) hwx14_7 hstage14_7

abbrev win14 : Fin 8 → Pipeline.Window sig grid14 := fun | 0 => win14_0 | 1 => win14_1 | 2 => win14_2 | 3 => win14_3 | 4 => win14_4 | 5 => win14_5 | 6 => win14_6 | 7 => win14_7 | ⟨_ + 8, h⟩ => absurd h (Nat.not_lt.2 (Nat.le_add_left _ _))
abbrev spec14 : Fin 8 → Pipeline.WinSpec sig grid14.rank := fun w => (win14 w).toWinSpec

abbrev win15_0 : Pipeline.Window sig grid15 :=
  Pipeline.Window.ofSpec (Memref.whole main_v236_0) S10000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v238) S1x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v242) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v214) S1x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v217) S1x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v243) S10000x128.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v254) S10000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v280) S128x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v257) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v281_0) S10000x128.size cc16_transform_3 reads16_3 true false 2 stage16_3 sem16_3
    hrank16 hreads16_3 hinb16_3 nbuf16_3 (Memref.isWhole_whole _) hwx16_3 hstage16_3

abbrev win16_4 : Pipeline.Window sig grid16 :=
  Pipeline.Window.ofSpec (Memref.whole main_v281_1) S1x128.size cc16_transform_4 reads16_4 true true 1 stage16_4 sem16_4
    hrank16 hreads16_4 hinb16_4 nbuf16_4 (Memref.isWhole_whole _) hwx16_4 hstage16_4

abbrev win16_5 : Pipeline.Window sig grid16 :=
  Pipeline.Window.ofSpec (Memref.whole main_v281_2) S1x128.size cc16_transform_5 reads16_5 true true 1 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

abbrev win17_0 : Pipeline.Window sig grid17 :=
  Pipeline.Window.ofSpec (Memref.whole main_v281_0) S10000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v283) S1x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v287) S1x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v263) S1x128.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v266) S1x128.size cc17_transform_4 reads17_4 false true 1 stage17_4 sem17_4
    hrank17 hreads17_4 hinb17_4 nbuf17_4 (Memref.isWhole_whole _) hwx17_4 hstage17_4

abbrev win17_5 : Pipeline.Window sig grid17 :=
  Pipeline.Window.ofSpec (Memref.whole main_v289) S128x128.size cc17_transform_5 reads17_5 false true 1 stage17_5 sem17_5
    hrank17 hreads17_5 hinb17_5 nbuf17_5 (Memref.isWhole_whole _) hwx17_5 hstage17_5

abbrev win17_6 : Pipeline.Window sig grid17 :=
  Pipeline.Window.ofSpec (Memref.whole main_v260) S1x128.size cc17_transform_6 reads17_6 false true 1 stage17_6 sem17_6
    hrank17 hreads17_6 hinb17_6 nbuf17_6 (Memref.isWhole_whole _) hwx17_6 hstage17_6

abbrev win17_7 : Pipeline.Window sig grid17 :=
  Pipeline.Window.ofSpec (Memref.whole main_v290_0) S10000x128.size cc17_transform_7 reads17_7 true false 2 stage17_7 sem17_7
    hrank17 hreads17_7 hinb17_7 nbuf17_7 (Memref.isWhole_whole _) hwx17_7 hstage17_7

abbrev win17_8 : Pipeline.Window sig grid17 :=
  Pipeline.Window.ofSpec (Memref.whole main_v290_1) S1x128.size cc17_transform_8 reads17_8 true true 1 stage17_8 sem17_8
    hrank17 hreads17_8 hinb17_8 nbuf17_8 (Memref.isWhole_whole _) hwx17_8 hstage17_8

abbrev win17_9 : Pipeline.Window sig grid17 :=
  Pipeline.Window.ofSpec (Memref.whole main_v290_2) S1x128.size cc17_transform_9 reads17_9 true true 1 stage17_9 sem17_9
    hrank17 hreads17_9 hinb17_9 nbuf17_9 (Memref.isWhole_whole _) hwx17_9 hstage17_9

abbrev win17 : Fin 10 → Pipeline.Window sig grid17 := fun | 0 => win17_0 | 1 => win17_1 | 2 => win17_2 | 3 => win17_3 | 4 => win17_4 | 5 => win17_5 | 6 => win17_6 | 7 => win17_7 | 8 => win17_8 | 9 => win17_9 | ⟨_ + 10, h⟩ => absurd h (Nat.not_lt.2 (Nat.le_add_left _ _))
abbrev spec17 : Fin 10 → Pipeline.WinSpec sig grid17.rank := fun w => (win17 w).toWinSpec

abbrev win18_0 : Pipeline.Window sig grid18 :=
  Pipeline.Window.ofSpec (Memref.whole main_v290_0) S10000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v292) S1x128.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v296) S1x128.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v269) S1x128.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v272) S1x128.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v297_0) S10000x128.size cc18_transform_5 reads18_5 true false 2 stage18_5 sem18_5
    hrank18 hreads18_5 hinb18_5 nbuf18_5 (Memref.isWhole_whole _) hwx18_5 hstage18_5

abbrev win18_6 : Pipeline.Window sig grid18 :=
  Pipeline.Window.ofSpec (Memref.whole main_v297_1) S1x128.size cc18_transform_6 reads18_6 true true 1 stage18_6 sem18_6
    hrank18 hreads18_6 hinb18_6 nbuf18_6 (Memref.isWhole_whole _) hwx18_6 hstage18_6

abbrev win18_7 : Pipeline.Window sig grid18 :=
  Pipeline.Window.ofSpec (Memref.whole main_v297_2) S1x128.size cc18_transform_7 reads18_7 true true 1 stage18_7 sem18_7
    hrank18 hreads18_7 hinb18_7 nbuf18_7 (Memref.isWhole_whole _) hwx18_7 hstage18_7

abbrev win18 : Fin 8 → Pipeline.Window sig grid18 := fun | 0 => win18_0 | 1 => win18_1 | 2 => win18_2 | 3 => win18_3 | 4 => win18_4 | 5 => win18_5 | 6 => win18_6 | 7 => win18_7 | ⟨_ + 8, h⟩ => absurd h (Nat.not_lt.2 (Nat.le_add_left _ _))
abbrev spec18 : Fin 8 → Pipeline.WinSpec sig grid18.rank := fun w => (win18 w).toWinSpec

abbrev win19_0 : Pipeline.Window sig grid19 :=
  Pipeline.Window.ofSpec (Memref.whole main_v297_0) S10000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v299) S1x128.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v303) S1x128.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v275) S1x128.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v278) S1x128.size cc19_transform_4 reads19_4 false true 1 stage19_4 sem19_4
    hrank19 hreads19_4 hinb19_4 nbuf19_4 (Memref.isWhole_whole _) hwx19_4 hstage19_4

abbrev win19_5 : Pipeline.Window sig grid19 :=
  Pipeline.Window.ofSpec (Memref.whole main_v304) S10000x128.size cc19_transform_5 reads19_5 true false 2 stage19_5 sem19_5
    hrank19 hreads19_5 hinb19_5 nbuf19_5 (Memref.isWhole_whole _) hwx19_5 hstage19_5

abbrev win19 : Fin 6 → Pipeline.Window sig grid19 := fun | 0 => win19_0 | 1 => win19_1 | 2 => win19_2 | 3 => win19_3 | 4 => win19_4 | 5 => win19_5 | ⟨_ + 6, h⟩ => absurd h (Nat.not_lt.2 (Nat.le_add_left _ _))
abbrev spec19 : Fin 6 → Pipeline.WinSpec sig grid19.rank := fun w => (win19 w).toWinSpec

class Facts : Prop extends Facts₀ where

variable [Facts]
-- ==== ReferenceIdeal.lean ====
abbrev S50000x128 : Shape := ⟨2, ![50000, 128]⟩
abbrev S800000 : Shape := ⟨1, ![800000]⟩
abbrev S5x128x128 : Shape := ⟨3, ![5, 128, 128]⟩
abbrev S5x128 : Shape := ⟨2, ![5, 128]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 928
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S5x128x128, .f32⟩
  | 4 => ⟨S5x128, .f32⟩
  | 5 => ⟨S5x128x128, .f32⟩
  | 6 => ⟨S5x128, .f32⟩
  | 7 => ⟨S5x128, .f32⟩
  | 8 => ⟨S5x128, .f32⟩
  | 9 => ⟨S5x128, .f32⟩
  | 10 => ⟨S5x128, .f32⟩
  | 11 => ⟨S5x128, .f32⟩
  | 12 => ⟨S5x128, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S50000x128, .f32⟩
  | 27 => ⟨S1x128x128, .f32⟩
  | 28 => ⟨S128x128, .f32⟩
  | 29 => ⟨S50000x128, .f32⟩
  | 30 => ⟨S1x128, .f32⟩
  | 31 => ⟨S128, .f32⟩
  | 32 => ⟨S1x128, .f32⟩
  | 33 => ⟨S50000x128, .f32⟩
  | 34 => ⟨S50000x128, .f32⟩
  | 35 => ⟨S1x128, .f32⟩
  | 36 => ⟨S128, .f32⟩
  | 37 => ⟨S1x128, .f32⟩
  | 38 => ⟨S128, .f32⟩
  | 39 => ⟨S_, .f32⟩
  | 40 => ⟨S128, .f32⟩
  | 41 => ⟨S_, .f32⟩
  | 42 => ⟨S128, .f32⟩
  | 43 => ⟨S128, .f32⟩
  | 44 => ⟨S_, .i32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S50000x128, .f32⟩
  | 52 => ⟨S50000x128, .f32⟩
  | 53 => ⟨S50000x128, .f32⟩
  | 54 => ⟨S_, .f32⟩
  | 55 => ⟨S_, .f32⟩
  | 56 => ⟨S_, .f32⟩
  | 57 => ⟨S_, .f32⟩
  | 58 => ⟨S128, .f32⟩
  | 59 => ⟨S128, .f32⟩
  | 60 => ⟨S128, .f32⟩
  | 61 => ⟨S_, .f32⟩
  | 62 => ⟨S_, .i1⟩
  | 63 => ⟨S_, .f32⟩
  | 64 => ⟨S_, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S1x128x128, .f32⟩
  | 87 => ⟨S128x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S1x128, .f32⟩
  | 95 => ⟨S128, .f32⟩
  | 96 => ⟨S1x128, .f32⟩
  | 97 => ⟨S128, .f32⟩
  | 98 => ⟨S_, .f32⟩
  | 99 => ⟨S128, .f32⟩
  | 100 => ⟨S_, .f32⟩
  | 101 => ⟨S128, .f32⟩
  | 102 => ⟨S128, .f32⟩
  | 103 => ⟨S_, .i32⟩
  | 104 => ⟨S_, .f32⟩
  | 105 => ⟨S128, .f32⟩
  | 106 => ⟨S1x128, .f32⟩
  | 107 => ⟨S_, .f32⟩
  | 108 => ⟨S1x128, .f32⟩
  | 109 => ⟨S1x128, .f32⟩
  | 110 => ⟨S50000x128, .f32⟩
  | 111 => ⟨S50000x128, .f32⟩
  | 112 => ⟨S50000x128, .f32⟩
  | 113 => ⟨S_, .f32⟩
  | 114 => ⟨S_, .f32⟩
  | 115 => ⟨S_, .f32⟩
  | 116 => ⟨S_, .f32⟩
  | 117 => ⟨S128, .f32⟩
  | 118 => ⟨S128, .f32⟩
  | 119 => ⟨S128, .f32⟩
  | 120 => ⟨S_, .f32⟩
  | 121 => ⟨S_, .i1⟩
  | 122 => ⟨S_, .f32⟩
  | 123 => ⟨S_, .f32⟩
  | 124 => ⟨S128, .f32⟩
  | 125 => ⟨S128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S128, .f32⟩
  | 6 => ⟨S128, .f32⟩
  | 7 => ⟨S128, .f32⟩
  | 8 => ⟨S1x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S1x128, .f32⟩
  | 18 => ⟨S128, .f32⟩
  | 19 => ⟨S1x128, .f32⟩
  | 20 => ⟨S128, .f32⟩
  | 21 => ⟨S_, .f32⟩
  | 22 => ⟨S128, .f32⟩
  | 23 => ⟨S_, .f32⟩
  | 24 => ⟨S128, .f32⟩
  | 25 => ⟨S128, .f32⟩
  | 26 => ⟨S_, .i32⟩
  | 27 => ⟨S_, .f32⟩
  | 28 => ⟨S128, .f32⟩
  | 29 => ⟨S1x128, .f32⟩
  | 30 => ⟨S_, .f32⟩
  | 31 => ⟨S1x128, .f32⟩
  | 32 => ⟨S1x128, .f32⟩
  | 33 => ⟨S50000x128, .f32⟩
  | 34 => ⟨S50000x128, .f32⟩
  | 35 => ⟨S50000x128, .f32⟩
  | 36 => ⟨S_, .f32⟩
  | 37 => ⟨S_, .f32⟩
  | 38 => ⟨S_, .f32⟩
  | 39 => ⟨S_, .f32⟩
  | 40 => ⟨S128, .f32⟩
  | 41 => ⟨S128, .f32⟩
  | 42 => ⟨S128, .f32⟩
  | 43 => ⟨S_, .f32⟩
  | 44 => ⟨S_, .i1⟩
  | 45 => ⟨S_, .f32⟩
  | 46 => ⟨S_, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S128, .f32⟩
  | 57 => ⟨S128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S50000x128, .f32⟩
  | 82 => ⟨S1x128x128, .f32⟩
  | 83 => ⟨S128x128, .f32⟩
  | 84 => ⟨S50000x128, .f32⟩
  | 85 => ⟨S1x128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S128, .f32⟩
  | 92 => ⟨S1x128, .f32⟩
  | 93 => ⟨S128, .f32⟩
  | 94 => ⟨S_, .f32⟩
  | 95 => ⟨S128, .f32⟩
  | 96 => ⟨S_, .f32⟩
  | 97 => ⟨S128, .f32⟩
  | 98 => ⟨S128, .f32⟩
  | 99 => ⟨S_, .i32⟩
  | 100 => ⟨S_, .f32⟩
  | 101 => ⟨S128, .f32⟩
  | 102 => ⟨S1x128, .f32⟩
  | 103 => ⟨S_, .f32⟩
  | 104 => ⟨S1x128, .f32⟩
  | 105 => ⟨S1x128, .f32⟩
  | 106 => ⟨S50000x128, .f32⟩
  | 107 => ⟨S50000x128, .f32⟩
  | 108 => ⟨S50000x128, .f32⟩
  | 109 => ⟨S_, .f32⟩
  | 110 => ⟨S_, .f32⟩
  | 111 => ⟨S_, .f32⟩
  | 112 => ⟨S_, .f32⟩
  | 113 => ⟨S128, .f32⟩
  | 114 => ⟨S128, .f32⟩
  | 115 => ⟨S128, .f32⟩
  | 116 => ⟨S_, .f32⟩
  | 117 => ⟨S_, .i1⟩
  | 118 => ⟨S_, .f32⟩
  | 119 => ⟨S_, .f32⟩
  | 120 => ⟨S128, .f32⟩
  | 121 => ⟨S128, .f32⟩
  | 122 => ⟨S1x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_2 (i : Nat) : BufTy := match i % 128 with
  | 0 => ⟨S_, .f32⟩
  | 1 => ⟨S128, .f32⟩
  | 2 => ⟨S128, .f32⟩
  | 3 => ⟨S128, .f32⟩
  | 4 => ⟨S1x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S1x128x128, .f32⟩
  | 14 => ⟨S128x128, .f32⟩
  | 15 => ⟨S50000x128, .f32⟩
  | 16 => ⟨S1x128, .f32⟩
  | 17 => ⟨S128, .f32⟩
  | 18 => ⟨S1x128, .f32⟩
  | 19 => ⟨S50000x128, .f32⟩
  | 20 => ⟨S50000x128, .f32⟩
  | 21 => ⟨S1x128, .f32⟩
  | 22 => ⟨S128, .f32⟩
  | 23 => ⟨S1x128, .f32⟩
  | 24 => ⟨S128, .f32⟩
  | 25 => ⟨S_, .f32⟩
  | 26 => ⟨S128, .f32⟩
  | 27 => ⟨S_, .f32⟩
  | 28 => ⟨S128, .f32⟩
  | 29 => ⟨S128, .f32⟩
  | 30 => ⟨S_, .i32⟩
  | 31 => ⟨S_, .f32⟩
  | 32 => ⟨S128, .f32⟩
  | 33 => ⟨S1x128, .f32⟩
  | 34 => ⟨S_, .f32⟩
  | 35 => ⟨S1x128, .f32⟩
  | 36 => ⟨S1x128, .f32⟩
  | 37 => ⟨S50000x128, .f32⟩
  | 38 => ⟨S50000x128, .f32⟩
  | 39 => ⟨S50000x128, .f32⟩
  | 40 => ⟨S_, .f32⟩
  | 41 => ⟨S_, .f32⟩
  | 42 => ⟨S_, .f32⟩
  | 43 => ⟨S_, .f32⟩
  | 44 => ⟨S128, .f32⟩
  | 45 => ⟨S128, .f32⟩
  | 46 => ⟨S128, .f32⟩
  | 47 => ⟨S_, .f32⟩
  | 48 => ⟨S_, .i1⟩
  | 49 => ⟨S_, .f32⟩
  | 50 => ⟨S_, .f32⟩
  | 51 => ⟨S128, .f32⟩
  | 52 => ⟨S128, .f32⟩
  | 53 => ⟨S1x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S128, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S1x128, .f32⟩
  | 73 => ⟨S128, .f32⟩
  | 74 => ⟨S1x128, .f32⟩
  | 75 => ⟨S128, .f32⟩
  | 76 => ⟨S_, .f32⟩
  | 77 => ⟨S128, .f32⟩
  | 78 => ⟨S_, .f32⟩
  | 79 => ⟨S128, .f32⟩
  | 80 => ⟨S128, .f32⟩
  | 81 => ⟨S_, .i32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S50000x128, .f32⟩
  | 89 => ⟨S50000x128, .f32⟩
  | 90 => ⟨S50000x128, .f32⟩
  | 91 => ⟨S_, .f32⟩
  | 92 => ⟨S_, .f32⟩
  | 93 => ⟨S_, .f32⟩
  | 94 => ⟨S_, .f32⟩
  | 95 => ⟨S128, .f32⟩
  | 96 => ⟨S128, .f32⟩
  | 97 => ⟨S128, .f32⟩
  | 98 => ⟨S_, .f32⟩
  | 99 => ⟨S_, .i1⟩
  | 100 => ⟨S_, .f32⟩
  | 101 => ⟨S_, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S128, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_3 (i : Nat) : BufTy := match i % 128 with
  | 0 => ⟨S800000, .i32⟩
  | 1 => ⟨S800000, .i32⟩
  | 2 => ⟨S800000x1, .i32⟩
  | 3 => ⟨S800000x128, .f32⟩
  | 4 => ⟨S_, .f32⟩
  | 5 => ⟨S50000x128, .f32⟩
  | 6 => ⟨S800000x1, .i32⟩
  | 7 => ⟨S50000x128, .f32⟩
  | 8 => ⟨S50000x128, .f32⟩
  | 9 => ⟨S1x128x128, .f32⟩
  | 10 => ⟨S128x128, .f32⟩
  | 11 => ⟨S50000x128, .f32⟩
  | 12 => ⟨S1x128, .f32⟩
  | 13 => ⟨S128, .f32⟩
  | 14 => ⟨S1x128, .f32⟩
  | 15 => ⟨S50000x128, .f32⟩
  | 16 => ⟨S50000x128, .f32⟩
  | 17 => ⟨S1x128, .f32⟩
  | 18 => ⟨S128, .f32⟩
  | 19 => ⟨S1x128, .f32⟩
  | 20 => ⟨S128, .f32⟩
  | 21 => ⟨S_, .f32⟩
  | 22 => ⟨S128, .f32⟩
  | 23 => ⟨S_, .f32⟩
  | 24 => ⟨S128, .f32⟩
  | 25 => ⟨S128, .f32⟩
  | 26 => ⟨S_, .i32⟩
  | 27 => ⟨S_, .f32⟩
  | 28 => ⟨S128, .f32⟩
  | 29 => ⟨S1x128, .f32⟩
  | 30 => ⟨S_, .f32⟩
  | 31 => ⟨S1x128, .f32⟩
  | 32 => ⟨S1x128, .f32⟩
  | 33 => ⟨S50000x128, .f32⟩
  | 34 => ⟨S50000x128, .f32⟩
  | 35 => ⟨S50000x128, .f32⟩
  | 36 => ⟨S_, .f32⟩
  | 37 => ⟨S_, .f32⟩
  | 38 => ⟨S_, .f32⟩
  | 39 => ⟨S_, .f32⟩
  | 40 => ⟨S128, .f32⟩
  | 41 => ⟨S128, .f32⟩
  | 42 => ⟨S128, .f32⟩
  | 43 => ⟨S_, .f32⟩
  | 44 => ⟨S_, .i1⟩
  | 45 => ⟨S_, .f32⟩
  | 46 => ⟨S_, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S128, .f32⟩
  | 57 => ⟨S128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S1x128x128, .f32⟩
  | 69 => ⟨S128x128, .f32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S128, .f32⟩
  | 78 => ⟨S1x128, .f32⟩
  | 79 => ⟨S128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S50000x128, .f32⟩
  | 93 => ⟨S50000x128, .f32⟩
  | 94 => ⟨S50000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S128, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S1x128, .f32⟩
  | _ => ⟨S50000x128, .f32⟩

abbrev hbmTy0_4 (i : Nat) : BufTy := match i % 128 with
  | 0 => ⟨S128, .f32⟩
  | 1 => ⟨S1x128, .f32⟩
  | 2 => ⟨S128, .f32⟩
  | 3 => ⟨S_, .f32⟩
  | 4 => ⟨S128, .f32⟩
  | 5 => ⟨S_, .f32⟩
  | 6 => ⟨S128, .f32⟩
  | 7 => ⟨S128, .f32⟩
  | 8 => ⟨S_, .i32⟩
  | 9 => ⟨S_, .f32⟩
  | 10 => ⟨S128, .f32⟩
  | 11 => ⟨S1x128, .f32⟩
  | 12 => ⟨S_, .f32⟩
  | 13 => ⟨S1x128, .f32⟩
  | 14 => ⟨S1x128, .f32⟩
  | 15 => ⟨S50000x128, .f32⟩
  | 16 => ⟨S50000x128, .f32⟩
  | 17 => ⟨S50000x128, .f32⟩
  | 18 => ⟨S_, .f32⟩
  | 19 => ⟨S_, .f32⟩
  | 20 => ⟨S_, .f32⟩
  | 21 => ⟨S_, .f32⟩
  | 22 => ⟨S128, .f32⟩
  | 23 => ⟨S128, .f32⟩
  | 24 => ⟨S128, .f32⟩
  | 25 => ⟨S_, .f32⟩
  | 26 => ⟨S_, .i1⟩
  | 27 => ⟨S_, .f32⟩
  | 28 => ⟨S_, .f32⟩
  | 29 => ⟨S128, .f32⟩
  | 30 => ⟨S128, .f32⟩
  | 31 => ⟨S1x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S128, .f32⟩
  | 39 => ⟨S128, .f32⟩
  | 40 => ⟨S128, .f32⟩
  | 41 => ⟨S1x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000x128, .f32⟩
  | 64 => ⟨S1x128x128, .f32⟩
  | 65 => ⟨S128x128, .f32⟩
  | 66 => ⟨S50000x128, .f32⟩
  | 67 => ⟨S1x128, .f32⟩
  | 68 => ⟨S128, .f32⟩
  | 69 => ⟨S1x128, .f32⟩
  | 70 => ⟨S50000x128, .f32⟩
  | 71 => ⟨S50000x128, .f32⟩
  | 72 => ⟨S1x128, .f32⟩
  | 73 => ⟨S128, .f32⟩
  | 74 => ⟨S1x128, .f32⟩
  | 75 => ⟨S128, .f32⟩
  | 76 => ⟨S_, .f32⟩
  | 77 => ⟨S128, .f32⟩
  | 78 => ⟨S_, .f32⟩
  | 79 => ⟨S128, .f32⟩
  | 80 => ⟨S128, .f32⟩
  | 81 => ⟨S_, .i32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S50000x128, .f32⟩
  | 89 => ⟨S50000x128, .f32⟩
  | 90 => ⟨S50000x128, .f32⟩
  | 91 => ⟨S_, .f32⟩
  | 92 => ⟨S_, .f32⟩
  | 93 => ⟨S_, .f32⟩
  | 94 => ⟨S_, .f32⟩
  | 95 => ⟨S128, .f32⟩
  | 96 => ⟨S128, .f32⟩
  | 97 => ⟨S128, .f32⟩
  | 98 => ⟨S_, .f32⟩
  | 99 => ⟨S_, .i1⟩
  | 100 => ⟨S_, .f32⟩
  | 101 => ⟨S_, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S128, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S1x128x128, .f32⟩
  | 124 => ⟨S128x128, .f32⟩
  | 125 => ⟨S50000x128, .f32⟩
  | 126 => ⟨S1x128, .f32⟩
  | 127 => ⟨S128, .f32⟩
  | _ => ⟨S50000x128, .f32⟩

abbrev hbmTy0_5 (i : Nat) : BufTy := match i % 128 with
  | 0 => ⟨S1x128, .f32⟩
  | 1 => ⟨S50000x128, .f32⟩
  | 2 => ⟨S50000x128, .f32⟩
  | 3 => ⟨S1x128, .f32⟩
  | 4 => ⟨S128, .f32⟩
  | 5 => ⟨S1x128, .f32⟩
  | 6 => ⟨S128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S50000x128, .f32⟩
  | 20 => ⟨S50000x128, .f32⟩
  | 21 => ⟨S50000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S128, .f32⟩
  | 43 => ⟨S128, .f32⟩
  | 44 => ⟨S128, .f32⟩
  | 45 => ⟨S1x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S1x128, .f32⟩
  | 55 => ⟨S128, .f32⟩
  | 56 => ⟨S1x128, .f32⟩
  | 57 => ⟨S128, .f32⟩
  | 58 => ⟨S_, .f32⟩
  | 59 => ⟨S128, .f32⟩
  | 60 => ⟨S_, .f32⟩
  | 61 => ⟨S128, .f32⟩
  | 62 => ⟨S128, .f32⟩
  | 63 => ⟨S_, .i32⟩
  | 64 => ⟨S_, .f32⟩
  | 65 => ⟨S128, .f32⟩
  | 66 => ⟨S1x128, .f32⟩
  | 67 => ⟨S_, .f32⟩
  | 68 => ⟨S1x128, .f32⟩
  | 69 => ⟨S1x128, .f32⟩
  | 70 => ⟨S50000x128, .f32⟩
  | 71 => ⟨S50000x128, .f32⟩
  | 72 => ⟨S50000x128, .f32⟩
  | 73 => ⟨S_, .f32⟩
  | 74 => ⟨S_, .f32⟩
  | 75 => ⟨S_, .f32⟩
  | 76 => ⟨S_, .f32⟩
  | 77 => ⟨S128, .f32⟩
  | 78 => ⟨S128, .f32⟩
  | 79 => ⟨S128, .f32⟩
  | 80 => ⟨S_, .f32⟩
  | 81 => ⟨S_, .i1⟩
  | 82 => ⟨S_, .f32⟩
  | 83 => ⟨S_, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S50000x128, .f32⟩
  | 119 => ⟨S1x128x128, .f32⟩
  | 120 => ⟨S128x128, .f32⟩
  | 121 => ⟨S50000x128, .f32⟩
  | 122 => ⟨S1x128, .f32⟩
  | 123 => ⟨S128, .f32⟩
  | 124 => ⟨S1x128, .f32⟩
  | 125 => ⟨S50000x128, .f32⟩
  | 126 => ⟨S50000x128, .f32⟩
  | 127 => ⟨S1x128, .f32⟩
  | _ => ⟨S50000x128, .f32⟩

abbrev hbmTy0_6 (i : Nat) : BufTy := match i % 128 with
  | 0 => ⟨S128, .f32⟩
  | 1 => ⟨S1x128, .f32⟩
  | 2 => ⟨S128, .f32⟩
  | 3 => ⟨S_, .f32⟩
  | 4 => ⟨S128, .f32⟩
  | 5 => ⟨S_, .f32⟩
  | 6 => ⟨S128, .f32⟩
  | 7 => ⟨S128, .f32⟩
  | 8 => ⟨S_, .i32⟩
  | 9 => ⟨S_, .f32⟩
  | 10 => ⟨S128, .f32⟩
  | 11 => ⟨S1x128, .f32⟩
  | 12 => ⟨S_, .f32⟩
  | 13 => ⟨S1x128, .f32⟩
  | 14 => ⟨S1x128, .f32⟩
  | 15 => ⟨S50000x128, .f32⟩
  | 16 => ⟨S50000x128, .f32⟩
  | 17 => ⟨S50000x128, .f32⟩
  | 18 => ⟨S_, .f32⟩
  | 19 => ⟨S_, .f32⟩
  | 20 => ⟨S_, .f32⟩
  | 21 => ⟨S_, .f32⟩
  | 22 => ⟨S128, .f32⟩
  | 23 => ⟨S128, .f32⟩
  | 24 => ⟨S128, .f32⟩
  | 25 => ⟨S_, .f32⟩
  | 26 => ⟨S_, .i1⟩
  | 27 => ⟨S_, .f32⟩
  | 28 => ⟨S_, .f32⟩
  | 29 => ⟨S128, .f32⟩
  | 30 => ⟨S128, .f32⟩
  | 31 => ⟨S1x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S128, .f32⟩
  | 39 => ⟨S128, .f32⟩
  | 40 => ⟨S128, .f32⟩
  | 41 => ⟨S1x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S1x128x128, .f32⟩
  | 51 => ⟨S128x128, .f32⟩
  | 52 => ⟨S50000x128, .f32⟩
  | 53 => ⟨S1x128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S128, .f32⟩
  | 60 => ⟨S1x128, .f32⟩
  | 61 => ⟨S128, .f32⟩
  | 62 => ⟨S_, .f32⟩
  | 63 => ⟨S128, .f32⟩
  | 64 => ⟨S_, .f32⟩
  | 65 => ⟨S128, .f32⟩
  | 66 => ⟨S128, .f32⟩
  | 67 => ⟨S_, .i32⟩
  | 68 => ⟨S_, .f32⟩
  | 69 => ⟨S128, .f32⟩
  | 70 => ⟨S1x128, .f32⟩
  | 71 => ⟨S_, .f32⟩
  | 72 => ⟨S1x128, .f32⟩
  | 73 => ⟨S1x128, .f32⟩
  | 74 => ⟨S50000x128, .f32⟩
  | 75 => ⟨S50000x128, .f32⟩
  | 76 => ⟨S50000x128, .f32⟩
  | 77 => ⟨S_, .f32⟩
  | 78 => ⟨S_, .f32⟩
  | 79 => ⟨S_, .f32⟩
  | 80 => ⟨S_, .f32⟩
  | 81 => ⟨S128, .f32⟩
  | 82 => ⟨S128, .f32⟩
  | 83 => ⟨S128, .f32⟩
  | 84 => ⟨S_, .f32⟩
  | 85 => ⟨S_, .i1⟩
  | 86 => ⟨S_, .f32⟩
  | 87 => ⟨S_, .f32⟩
  | 88 => ⟨S128, .f32⟩
  | 89 => ⟨S128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S128, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S1x128, .f32⟩
  | 110 => ⟨S128, .f32⟩
  | 111 => ⟨S1x128, .f32⟩
  | 112 => ⟨S128, .f32⟩
  | 113 => ⟨S_, .f32⟩
  | 114 => ⟨S128, .f32⟩
  | 115 => ⟨S_, .f32⟩
  | 116 => ⟨S128, .f32⟩
  | 117 => ⟨S128, .f32⟩
  | 118 => ⟨S_, .i32⟩
  | 119 => ⟨S_, .f32⟩
  | 120 => ⟨S128, .f32⟩
  | 121 => ⟨S1x128, .f32⟩
  | 122 => ⟨S_, .f32⟩
  | 123 => ⟨S1x128, .f32⟩
  | 124 => ⟨S1x128, .f32⟩
  | 125 => ⟨S50000x128, .f32⟩
  | 126 => ⟨S50000x128, .f32⟩
  | 127 => ⟨S50000x128, .f32⟩
  | _ => ⟨S50000x128, .f32⟩

abbrev hbmTy0_7 (i : Nat) : BufTy := match i % 128 with
  | 0 => ⟨S_, .f32⟩
  | 1 => ⟨S_, .f32⟩
  | 2 => ⟨S_, .f32⟩
  | 3 => ⟨S_, .f32⟩
  | 4 => ⟨S128, .f32⟩
  | 5 => ⟨S128, .f32⟩
  | 6 => ⟨S128, .f32⟩
  | 7 => ⟨S_, .f32⟩
  | 8 => ⟨S_, .i1⟩
  | 9 => ⟨S_, .f32⟩
  | 10 => ⟨S_, .f32⟩
  | 11 => ⟨S128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S128, .f32⟩
  | 21 => ⟨S128, .f32⟩
  | 22 => ⟨S128, .f32⟩
  | 23 => ⟨S1x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_cst_3 : Ref sig .tc := ⟨.hbm, 61, rfl⟩
abbrev main_call0_v12 : Ref sig .tc := ⟨.hbm, 62, rfl⟩
abbrev main_call0_cst_4 : Ref sig .tc := ⟨.hbm, 63, rfl⟩
abbrev main_call0_call0_v0 : Ref sig .tc := ⟨.hbm, 64, rfl⟩
abbrev main_call0_call0_v1 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_4 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_call1_cst : Ref sig .tc := ⟨.hbm, 83, rfl⟩
abbrev main_call1_v0 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_5 : Ref sig .tc := ⟨.hbm, 98, rfl⟩
abbrev main_v55 : Ref sig .tc := ⟨.hbm, 99, rfl⟩
abbrev main_cst_6 : Ref sig .tc := ⟨.hbm, 100, rfl⟩
abbrev main_v56 : Ref sig .tc := ⟨.hbm, 101, rfl⟩
abbrev main_v57 : Ref sig .tc := ⟨.hbm, 102, rfl⟩
abbrev main_c_7 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_cst_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_v7 : Ref sig .tc := ⟨.hbm, 113, rfl⟩
abbrev main_call2_cst_1 : Ref sig .tc := ⟨.hbm, 114, rfl⟩
abbrev main_call2_v8 : Ref sig .tc := ⟨.hbm, 115, rfl⟩
abbrev main_call2_cst_2 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_cst_3 : Ref sig .tc := ⟨.hbm, 120, rfl⟩
abbrev main_call2_v12 : Ref sig .tc := ⟨.hbm, 121, rfl⟩
abbrev main_call2_cst_4 : Ref sig .tc := ⟨.hbm, 122, rfl⟩
abbrev main_call2_call0_v0 : Ref sig .tc := ⟨.hbm, 123, rfl⟩
abbrev main_call2_call0_v1 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_cst_8 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_call3_cst : Ref sig .tc := ⟨.hbm, 142, rfl⟩
abbrev main_call3_v0 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_cst_9 : Ref sig .tc := ⟨.hbm, 149, rfl⟩
abbrev main_v79 : Ref sig .tc := ⟨.hbm, 150, rfl⟩
abbrev main_cst_10 : Ref sig .tc := ⟨.hbm, 151, rfl⟩
abbrev main_v80 : Ref sig .tc := ⟨.hbm, 152, rfl⟩
abbrev main_v81 : Ref sig .tc := ⟨.hbm, 153, rfl⟩
abbrev main_c_11 : Ref sig .tc := ⟨.hbm, 154, rfl⟩
abbrev main_call4_cst : Ref sig .tc := ⟨.hbm, 155, rfl⟩
abbrev main_call4_v0 : Ref sig .tc := ⟨.hbm, 156, rfl⟩
abbrev main_call4_v1 : Ref sig .tc := ⟨.hbm, 157, rfl⟩
abbrev main_call4_cst_0 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_call4_v5 : Ref sig .tc := ⟨.hbm, 162, rfl⟩
abbrev main_call4_v6 : Ref sig .tc := ⟨.hbm, 163, rfl⟩
abbrev main_call4_v7 : Ref sig .tc := ⟨.hbm, 164, rfl⟩
abbrev main_call4_cst_1 : Ref sig .tc := ⟨.hbm, 165, rfl⟩
abbrev main_call4_v8 : Ref sig .tc := ⟨.hbm, 166, rfl⟩
abbrev main_call4_cst_2 : Ref sig .tc := ⟨.hbm, 167, rfl⟩
abbrev main_call4_v9 : Ref sig .tc := ⟨.hbm, 168, rfl⟩
abbrev main_call4_v10 : Ref sig .tc := ⟨.hbm, 169, rfl⟩
abbrev main_call4_v11 : Ref sig .tc := ⟨.hbm, 170, rfl⟩
abbrev main_call4_cst_3 : Ref sig .tc := ⟨.hbm, 171, rfl⟩
abbrev main_call4_v12 : Ref sig .tc := ⟨.hbm, 172, rfl⟩
abbrev main_call4_cst_4 : Ref sig .tc := ⟨.hbm, 173, rfl⟩
abbrev main_call4_call0_v0 : Ref sig .tc := ⟨.hbm, 174, rfl⟩
abbrev main_call4_call0_v1 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_cst_12 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_call5_cst : Ref sig .tc := ⟨.hbm, 193, rfl⟩
abbrev main_call5_v0 : Ref sig .tc := ⟨.hbm, 194, rfl⟩
abbrev main_v98 : Ref sig .tc := ⟨.hbm, 195, rfl⟩
abbrev main_c_13 : Ref sig .tc := ⟨.hbm, 196, rfl⟩
abbrev main_v99 : Ref sig .tc := ⟨.hbm, 197, rfl⟩
abbrev main_v100 : Ref sig .tc := ⟨.hbm, 198, rfl⟩
abbrev main_c_14 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_cst_15 : Ref sig .tc := ⟨.hbm, 205, rfl⟩
abbrev main_v106 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_cst_16 : Ref sig .tc := ⟨.hbm, 222, rfl⟩
abbrev main_v122 : Ref sig .tc := ⟨.hbm, 223, rfl⟩
abbrev main_cst_17 : Ref sig .tc := ⟨.hbm, 224, rfl⟩
abbrev main_v123 : Ref sig .tc := ⟨.hbm, 225, rfl⟩
abbrev main_v124 : Ref sig .tc := ⟨.hbm, 226, rfl⟩
abbrev main_c_18 : Ref sig .tc := ⟨.hbm, 227, rfl⟩
abbrev main_call6_cst : Ref sig .tc := ⟨.hbm, 228, rfl⟩
abbrev main_call6_v0 : Ref sig .tc := ⟨.hbm, 229, rfl⟩
abbrev main_call6_v1 : Ref sig .tc := ⟨.hbm, 230, rfl⟩
abbrev main_call6_cst_0 : Ref sig .tc := ⟨.hbm, 231, rfl⟩
abbrev main_call6_v2 : Ref sig .tc := ⟨.hbm, 232, rfl⟩
abbrev main_call6_v3 : Ref sig .tc := ⟨.hbm, 233, rfl⟩
abbrev main_call6_v4 : Ref sig .tc := ⟨.hbm, 234, rfl⟩
abbrev main_call6_v5 : Ref sig .tc := ⟨.hbm, 235, rfl⟩
abbrev main_call6_v6 : Ref sig .tc := ⟨.hbm, 236, rfl⟩
abbrev main_call6_v7 : Ref sig .tc := ⟨.hbm, 237, rfl⟩
abbrev main_call6_cst_1 : Ref sig .tc := ⟨.hbm, 238, rfl⟩
abbrev main_call6_v8 : Ref sig .tc := ⟨.hbm, 239, rfl⟩
abbrev main_call6_cst_2 : Ref sig .tc := ⟨.hbm, 240, rfl⟩
abbrev main_call6_v9 : Ref sig .tc := ⟨.hbm, 241, rfl⟩
abbrev main_call6_v10 : Ref sig .tc := ⟨.hbm, 242, rfl⟩
abbrev main_call6_v11 : Ref sig .tc := ⟨.hbm, 243, rfl⟩
abbrev main_call6_cst_3 : Ref sig .tc := ⟨.hbm, 244, rfl⟩
abbrev main_call6_v12 : Ref sig .tc := ⟨.hbm, 245, rfl⟩
abbrev main_call6_cst_4 : Ref sig .tc := ⟨.hbm, 246, rfl⟩
abbrev main_call6_call0_v0 : Ref sig .tc := ⟨.hbm, 247, rfl⟩
abbrev main_call6_call0_v1 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev main_v129 : Ref sig .tc := ⟨.hbm, 253, rfl⟩
abbrev main_v130 : Ref sig .tc := ⟨.hbm, 254, rfl⟩
abbrev main_v131 : Ref sig .tc := ⟨.hbm, 255, rfl⟩
abbrev main_cst_19 : Ref sig .tc := ⟨.hbm, 256, rfl⟩
abbrev main_v132 : Ref sig .tc := ⟨.hbm, 257, rfl⟩
abbrev main_v133 : Ref sig .tc := ⟨.hbm, 258, rfl⟩
abbrev main_v134 : Ref sig .tc := ⟨.hbm, 259, rfl⟩
abbrev main_v135 : Ref sig .tc := ⟨.hbm, 260, rfl⟩
abbrev main_v136 : Ref sig .tc := ⟨.hbm, 261, rfl⟩
abbrev main_v137 : Ref sig .tc := ⟨.hbm, 262, rfl⟩
abbrev main_v138 : Ref sig .tc := ⟨.hbm, 263, rfl⟩
abbrev main_v139 : Ref sig .tc := ⟨.hbm, 264, rfl⟩
abbrev main_v140 : Ref sig .tc := ⟨.hbm, 265, rfl⟩
abbrev main_call7_cst : Ref sig .tc := ⟨.hbm, 266, rfl⟩
abbrev main_call7_v0 : Ref sig .tc := ⟨.hbm, 267, rfl⟩
abbrev main_v141 : Ref sig .tc := ⟨.hbm, 268, rfl⟩
abbrev main_v142 : Ref sig .tc := ⟨.hbm, 269, rfl⟩
abbrev main_v143 : Ref sig .tc := ⟨.hbm, 270, rfl⟩
abbrev main_v144 : Ref sig .tc := ⟨.hbm, 271, rfl⟩
abbrev main_v145 : Ref sig .tc := ⟨.hbm, 272, rfl⟩
abbrev main_v146 : Ref sig .tc := ⟨.hbm, 273, rfl⟩
abbrev main_v147 : Ref sig .tc := ⟨.hbm, 274, rfl⟩
abbrev main_v148 : Ref sig .tc := ⟨.hbm, 275, rfl⟩
abbrev main_v149 : Ref sig .tc := ⟨.hbm, 276, rfl⟩
abbrev main_v150 : Ref sig .tc := ⟨.hbm, 277, rfl⟩
abbrev main_v151 : Ref sig .tc := ⟨.hbm, 278, rfl⟩
abbrev main_v152 : Ref sig .tc := ⟨.hbm, 279, rfl⟩
abbrev main_v153 : Ref sig .tc := ⟨.hbm, 280, rfl⟩
abbrev main_cst_20 : Ref sig .tc := ⟨.hbm, 281, rfl⟩
abbrev main_v154 : Ref sig .tc := ⟨.hbm, 282, rfl⟩
abbrev main_cst_21 : Ref sig .tc := ⟨.hbm, 283, rfl⟩
abbrev main_v155 : Ref sig .tc := ⟨.hbm, 284, rfl⟩
abbrev main_v156 : Ref sig .tc := ⟨.hbm, 285, rfl⟩
abbrev main_c_22 : Ref sig .tc := ⟨.hbm, 286, rfl⟩
abbrev main_call8_cst : Ref sig .tc := ⟨.hbm, 287, rfl⟩
abbrev main_call8_v0 : Ref sig .tc := ⟨.hbm, 288, rfl⟩
abbrev main_call8_v1 : Ref sig .tc := ⟨.hbm, 289, rfl⟩
abbrev main_call8_cst_0 : Ref sig .tc := ⟨.hbm, 290, rfl⟩
abbrev main_call8_v2 : Ref sig .tc := ⟨.hbm, 291, rfl⟩
abbrev main_call8_v3 : Ref sig .tc := ⟨.hbm, 292, rfl⟩
abbrev main_call8_v4 : Ref sig .tc := ⟨.hbm, 293, rfl⟩
abbrev main_call8_v5 : Ref sig .tc := ⟨.hbm, 294, rfl⟩
abbrev main_call8_v6 : Ref sig .tc := ⟨.hbm, 295, rfl⟩
abbrev main_call8_v7 : Ref sig .tc := ⟨.hbm, 296, rfl⟩
abbrev main_call8_cst_1 : Ref sig .tc := ⟨.hbm, 297, rfl⟩
abbrev main_call8_v8 : Ref sig .tc := ⟨.hbm, 298, rfl⟩
abbrev main_call8_cst_2 : Ref sig .tc := ⟨.hbm, 299, rfl⟩
abbrev main_call8_v9 : Ref sig .tc := ⟨.hbm, 300, rfl⟩
abbrev main_call8_v10 : Ref sig .tc := ⟨.hbm, 301, rfl⟩
abbrev main_call8_v11 : Ref sig .tc := ⟨.hbm, 302, rfl⟩
abbrev main_call8_cst_3 : Ref sig .tc := ⟨.hbm, 303, rfl⟩
abbrev main_call8_v12 : Ref sig .tc := ⟨.hbm, 304, rfl⟩
abbrev main_call8_cst_4 : Ref sig .tc := ⟨.hbm, 305, rfl⟩
abbrev main_call8_call0_v0 : Ref sig .tc := ⟨.hbm, 306, rfl⟩
abbrev main_call8_call0_v1 : Ref sig .tc := ⟨.hbm, 307, rfl⟩
abbrev main_v157 : Ref sig .tc := ⟨.hbm, 308, rfl⟩
abbrev main_v158 : Ref sig .tc := ⟨.hbm, 309, rfl⟩
abbrev main_v159 : Ref sig .tc := ⟨.hbm, 310, rfl⟩
abbrev main_v160 : Ref sig .tc := ⟨.hbm, 311, rfl⟩
abbrev main_v161 : Ref sig .tc := ⟨.hbm, 312, rfl⟩
abbrev main_v162 : Ref sig .tc := ⟨.hbm, 313, rfl⟩
abbrev main_v163 : Ref sig .tc := ⟨.hbm, 314, rfl⟩
abbrev main_cst_23 : Ref sig .tc := ⟨.hbm, 315, rfl⟩
abbrev main_v164 : Ref sig .tc := ⟨.hbm, 316, rfl⟩
abbrev main_v165 : Ref sig .tc := ⟨.hbm, 317, rfl⟩
abbrev main_v166 : Ref sig .tc := ⟨.hbm, 318, rfl⟩
abbrev main_v167 : Ref sig .tc := ⟨.hbm, 319, rfl⟩
abbrev main_v168 : Ref sig .tc := ⟨.hbm, 320, rfl⟩
abbrev main_v169 : Ref sig .tc := ⟨.hbm, 321, rfl⟩
abbrev main_v170 : Ref sig .tc := ⟨.hbm, 322, rfl⟩
abbrev main_v171 : Ref sig .tc := ⟨.hbm, 323, rfl⟩
abbrev main_v172 : Ref sig .tc := ⟨.hbm, 324, rfl⟩
abbrev main_call9_cst : Ref sig .tc := ⟨.hbm, 325, rfl⟩
abbrev main_call9_v0 : Ref sig .tc := ⟨.hbm, 326, rfl⟩
abbrev main_v173 : Ref sig .tc := ⟨.hbm, 327, rfl⟩
abbrev main_v174 : Ref sig .tc := ⟨.hbm, 328, rfl⟩
abbrev main_v175 : Ref sig .tc := ⟨.hbm, 329, rfl⟩
abbrev main_v176 : Ref sig .tc := ⟨.hbm, 330, rfl⟩
abbrev main_v177 : Ref sig .tc := ⟨.hbm, 331, rfl⟩
abbrev main_cst_24 : Ref sig .tc := ⟨.hbm, 332, rfl⟩
abbrev main_v178 : Ref sig .tc := ⟨.hbm, 333, rfl⟩
abbrev main_cst_25 : Ref sig .tc := ⟨.hbm, 334, rfl⟩
abbrev main_v179 : Ref sig .tc := ⟨.hbm, 335, rfl⟩
abbrev main_v180 : Ref sig .tc := ⟨.hbm, 336, rfl⟩
abbrev main_c_26 : Ref sig .tc := ⟨.hbm, 337, rfl⟩
abbrev main_call10_cst : Ref sig .tc := ⟨.hbm, 338, rfl⟩
abbrev main_call10_v0 : Ref sig .tc := ⟨.hbm, 339, rfl⟩
abbrev main_call10_v1 : Ref sig .tc := ⟨.hbm, 340, rfl⟩
abbrev main_call10_cst_0 : Ref sig .tc := ⟨.hbm, 341, rfl⟩
abbrev main_call10_v2 : Ref sig .tc := ⟨.hbm, 342, rfl⟩
abbrev main_call10_v3 : Ref sig .tc := ⟨.hbm, 343, rfl⟩
abbrev main_call10_v4 : Ref sig .tc := ⟨.hbm, 344, rfl⟩
abbrev main_call10_v5 : Ref sig .tc := ⟨.hbm, 345, rfl⟩
abbrev main_call10_v6 : Ref sig .tc := ⟨.hbm, 346, rfl⟩
abbrev main_call10_v7 : Ref sig .tc := ⟨.hbm, 347, rfl⟩
abbrev main_call10_cst_1 : Ref sig .tc := ⟨.hbm, 348, rfl⟩
abbrev main_call10_v8 : Ref sig .tc := ⟨.hbm, 349, rfl⟩
abbrev main_call10_cst_2 : Ref sig .tc := ⟨.hbm, 350, rfl⟩
abbrev main_call10_v9 : Ref sig .tc := ⟨.hbm, 351, rfl⟩
abbrev main_call10_v10 : Ref sig .tc := ⟨.hbm, 352, rfl⟩
abbrev main_call10_v11 : Ref sig .tc := ⟨.hbm, 353, rfl⟩
abbrev main_call10_cst_3 : Ref sig .tc := ⟨.hbm, 354, rfl⟩
abbrev main_call10_v12 : Ref sig .tc := ⟨.hbm, 355, rfl⟩
abbrev main_call10_cst_4 : Ref sig .tc := ⟨.hbm, 356, rfl⟩
abbrev main_call10_call0_v0 : Ref sig .tc := ⟨.hbm, 357, rfl⟩
abbrev main_call10_call0_v1 : Ref sig .tc := ⟨.hbm, 358, rfl⟩
abbrev main_v181 : Ref sig .tc := ⟨.hbm, 359, rfl⟩
abbrev main_v182 : Ref sig .tc := ⟨.hbm, 360, rfl⟩
abbrev main_v183 : Ref sig .tc := ⟨.hbm, 361, rfl⟩
abbrev main_v184 : Ref sig .tc := ⟨.hbm, 362, rfl⟩
abbrev main_v185 : Ref sig .tc := ⟨.hbm, 363, rfl⟩
abbrev main_v186 : Ref sig .tc := ⟨.hbm, 364, rfl⟩
abbrev main_v187 : Ref sig .tc := ⟨.hbm, 365, rfl⟩
abbrev main_cst_27 : Ref sig .tc := ⟨.hbm, 366, rfl⟩
abbrev main_v188 : Ref sig .tc := ⟨.hbm, 367, rfl⟩
abbrev main_v189 : Ref sig .tc := ⟨.hbm, 368, rfl⟩
abbrev main_v190 : Ref sig .tc := ⟨.hbm, 369, rfl⟩
abbrev main_v191 : Ref sig .tc := ⟨.hbm, 370, rfl⟩
abbrev main_v192 : Ref sig .tc := ⟨.hbm, 371, rfl⟩
abbrev main_v193 : Ref sig .tc := ⟨.hbm, 372, rfl⟩
abbrev main_v194 : Ref sig .tc := ⟨.hbm, 373, rfl⟩
abbrev main_v195 : Ref sig .tc := ⟨.hbm, 374, rfl⟩
abbrev main_v196 : Ref sig .tc := ⟨.hbm, 375, rfl⟩
abbrev main_call11_cst : Ref sig .tc := ⟨.hbm, 376, rfl⟩
abbrev main_call11_v0 : Ref sig .tc := ⟨.hbm, 377, rfl⟩
abbrev main_v197 : Ref sig .tc := ⟨.hbm, 378, rfl⟩
abbrev main_c_28 : Ref sig .tc := ⟨.hbm, 379, rfl⟩
abbrev main_v198 : Ref sig .tc := ⟨.hbm, 380, rfl⟩
abbrev main_v199 : Ref sig .tc := ⟨.hbm, 381, rfl⟩
abbrev main_c_29 : Ref sig .tc := ⟨.hbm, 382, rfl⟩
abbrev main_v200 : Ref sig .tc := ⟨.hbm, 383, rfl⟩
abbrev main_v201 : Ref sig .tc := ⟨.hbm, 384, rfl⟩
abbrev main_v202 : Ref sig .tc := ⟨.hbm, 385, rfl⟩
abbrev main_v203 : Ref sig .tc := ⟨.hbm, 386, rfl⟩
abbrev main_v204 : Ref sig .tc := ⟨.hbm, 387, rfl⟩
abbrev main_cst_30 : Ref sig .tc := ⟨.hbm, 388, rfl⟩
abbrev main_v205 : Ref sig .tc := ⟨.hbm, 389, rfl⟩
abbrev main_v206 : Ref sig .tc := ⟨.hbm, 390, rfl⟩
abbrev main_v207 : Ref sig .tc := ⟨.hbm, 391, rfl⟩
abbrev main_v208 : Ref sig .tc := ⟨.hbm, 392, rfl⟩
abbrev main_v209 : Ref sig .tc := ⟨.hbm, 393, rfl⟩
abbrev main_v210 : Ref sig .tc := ⟨.hbm, 394, rfl⟩
abbrev main_v211 : Ref sig .tc := ⟨.hbm, 395, rfl⟩
abbrev main_v212 : Ref sig .tc := ⟨.hbm, 396, rfl⟩
abbrev main_v213 : Ref sig .tc := ⟨.hbm, 397, rfl⟩
abbrev main_v214 : Ref sig .tc := ⟨.hbm, 398, rfl⟩
abbrev main_v215 : Ref sig .tc := ⟨.hbm, 399, rfl⟩
abbrev main_v216 : Ref sig .tc := ⟨.hbm, 400, rfl⟩
abbrev main_v217 : Ref sig .tc := ⟨.hbm, 401, rfl⟩
abbrev main_v218 : Ref sig .tc := ⟨.hbm, 402, rfl⟩
abbrev main_v219 : Ref sig .tc := ⟨.hbm, 403, rfl⟩
abbrev main_v220 : Ref sig .tc := ⟨.hbm, 404, rfl⟩
abbrev main_cst_31 : Ref sig .tc := ⟨.hbm, 405, rfl⟩
abbrev main_v221 : Ref sig .tc := ⟨.hbm, 406, rfl⟩
abbrev main_cst_32 : Ref sig .tc := ⟨.hbm, 407, rfl⟩
abbrev main_v222 : Ref sig .tc := ⟨.hbm, 408, rfl⟩
abbrev main_v223 : Ref sig .tc := ⟨.hbm, 409, rfl⟩
abbrev main_c_33 : Ref sig .tc := ⟨.hbm, 410, rfl⟩
abbrev main_call12_cst : Ref sig .tc := ⟨.hbm, 411, rfl⟩
abbrev main_call12_v0 : Ref sig .tc := ⟨.hbm, 412, rfl⟩
abbrev main_call12_v1 : Ref sig .tc := ⟨.hbm, 413, rfl⟩
abbrev main_call12_cst_0 : Ref sig .tc := ⟨.hbm, 414, rfl⟩
abbrev main_call12_v2 : Ref sig .tc := ⟨.hbm, 415, rfl⟩
abbrev main_call12_v3 : Ref sig .tc := ⟨.hbm, 416, rfl⟩
abbrev main_call12_v4 : Ref sig .tc := ⟨.hbm, 417, rfl⟩
abbrev main_call12_v5 : Ref sig .tc := ⟨.hbm, 418, rfl⟩
abbrev main_call12_v6 : Ref sig .tc := ⟨.hbm, 419, rfl⟩
abbrev main_call12_v7 : Ref sig .tc := ⟨.hbm, 420, rfl⟩
abbrev main_call12_cst_1 : Ref sig .tc := ⟨.hbm, 421, rfl⟩
abbrev main_call12_v8 : Ref sig .tc := ⟨.hbm, 422, rfl⟩
abbrev main_call12_cst_2 : Ref sig .tc := ⟨.hbm, 423, rfl⟩
abbrev main_call12_v9 : Ref sig .tc := ⟨.hbm, 424, rfl⟩
abbrev main_call12_v10 : Ref sig .tc := ⟨.hbm, 425, rfl⟩
abbrev main_call12_v11 : Ref sig .tc := ⟨.hbm, 426, rfl⟩
abbrev main_call12_cst_3 : Ref sig .tc := ⟨.hbm, 427, rfl⟩
abbrev main_call12_v12 : Ref sig .tc := ⟨.hbm, 428, rfl⟩
abbrev main_call12_cst_4 : Ref sig .tc := ⟨.hbm, 429, rfl⟩
abbrev main_call12_call0_v0 : Ref sig .tc := ⟨.hbm, 430, rfl⟩
abbrev main_call12_call0_v1 : Ref sig .tc := ⟨.hbm, 431, rfl⟩
abbrev main_v224 : Ref sig .tc := ⟨.hbm, 432, rfl⟩
abbrev main_v225 : Ref sig .tc := ⟨.hbm, 433, rfl⟩
abbrev main_v226 : Ref sig .tc := ⟨.hbm, 434, rfl⟩
abbrev main_v227 : Ref sig .tc := ⟨.hbm, 435, rfl⟩
abbrev main_v228 : Ref sig .tc := ⟨.hbm, 436, rfl⟩
abbrev main_v229 : Ref sig .tc := ⟨.hbm, 437, rfl⟩
abbrev main_v230 : Ref sig .tc := ⟨.hbm, 438, rfl⟩
abbrev main_cst_34 : Ref sig .tc := ⟨.hbm, 439, rfl⟩
abbrev main_v231 : Ref sig .tc := ⟨.hbm, 440, rfl⟩
abbrev main_v232 : Ref sig .tc := ⟨.hbm, 441, rfl⟩
abbrev main_v233 : Ref sig .tc := ⟨.hbm, 442, rfl⟩
abbrev main_v234 : Ref sig .tc := ⟨.hbm, 443, rfl⟩
abbrev main_v235 : Ref sig .tc := ⟨.hbm, 444, rfl⟩
abbrev main_v236 : Ref sig .tc := ⟨.hbm, 445, rfl⟩
abbrev main_v237 : Ref sig .tc := ⟨.hbm, 446, rfl⟩
abbrev main_v238 : Ref sig .tc := ⟨.hbm, 447, rfl⟩
abbrev main_v239 : Ref sig .tc := ⟨.hbm, 448, rfl⟩
abbrev main_call13_cst : Ref sig .tc := ⟨.hbm, 449, rfl⟩
abbrev main_call13_v0 : Ref sig .tc := ⟨.hbm, 450, rfl⟩
abbrev main_v240 : Ref sig .tc := ⟨.hbm, 451, rfl⟩
abbrev main_v241 : Ref sig .tc := ⟨.hbm, 452, rfl⟩
abbrev main_v242 : Ref sig .tc := ⟨.hbm, 453, rfl⟩
abbrev main_v243 : Ref sig .tc := ⟨.hbm, 454, rfl⟩
abbrev main_v244 : Ref sig .tc := ⟨.hbm, 455, rfl⟩
abbrev main_v245 : Ref sig .tc := ⟨.hbm, 456, rfl⟩
abbrev main_v246 : Ref sig .tc := ⟨.hbm, 457, rfl⟩
abbrev main_v247 : Ref sig .tc := ⟨.hbm, 458, rfl⟩
abbrev main_v248 : Ref sig .tc := ⟨.hbm, 459, rfl⟩
abbrev main_v249 : Ref sig .tc := ⟨.hbm, 460, rfl⟩
abbrev main_v250 : Ref sig .tc := ⟨.hbm, 461, rfl⟩
abbrev main_v251 : Ref sig .tc := ⟨.hbm, 462, rfl⟩
abbrev main_v252 : Ref sig .tc := ⟨.hbm, 463, rfl⟩
abbrev main_cst_35 : Ref sig .tc := ⟨.hbm, 464, rfl⟩
abbrev main_v253 : Ref sig .tc := ⟨.hbm, 465, rfl⟩
abbrev main_cst_36 : Ref sig .tc := ⟨.hbm, 466, rfl⟩
abbrev main_v254 : Ref sig .tc := ⟨.hbm, 467, rfl⟩
abbrev main_v255 : Ref sig .tc := ⟨.hbm, 468, rfl⟩
abbrev main_c_37 : Ref sig .tc := ⟨.hbm, 469, rfl⟩
abbrev main_call14_cst : Ref sig .tc := ⟨.hbm, 470, rfl⟩
abbrev main_call14_v0 : Ref sig .tc := ⟨.hbm, 471, rfl⟩
abbrev main_call14_v1 : Ref sig .tc := ⟨.hbm, 472, rfl⟩
abbrev main_call14_cst_0 : Ref sig .tc := ⟨.hbm, 473, rfl⟩
abbrev main_call14_v2 : Ref sig .tc := ⟨.hbm, 474, rfl⟩
abbrev main_call14_v3 : Ref sig .tc := ⟨.hbm, 475, rfl⟩
abbrev main_call14_v4 : Ref sig .tc := ⟨.hbm, 476, rfl⟩
abbrev main_call14_v5 : Ref sig .tc := ⟨.hbm, 477, rfl⟩
abbrev main_call14_v6 : Ref sig .tc := ⟨.hbm, 478, rfl⟩
abbrev main_call14_v7 : Ref sig .tc := ⟨.hbm, 479, rfl⟩
abbrev main_call14_cst_1 : Ref sig .tc := ⟨.hbm, 480, rfl⟩
abbrev main_call14_v8 : Ref sig .tc := ⟨.hbm, 481, rfl⟩
abbrev main_call14_cst_2 : Ref sig .tc := ⟨.hbm, 482, rfl⟩
abbrev main_call14_v9 : Ref sig .tc := ⟨.hbm, 483, rfl⟩
abbrev main_call14_v10 : Ref sig .tc := ⟨.hbm, 484, rfl⟩
abbrev main_call14_v11 : Ref sig .tc := ⟨.hbm, 485, rfl⟩
abbrev main_call14_cst_3 : Ref sig .tc := ⟨.hbm, 486, rfl⟩
abbrev main_call14_v12 : Ref sig .tc := ⟨.hbm, 487, rfl⟩
abbrev main_call14_cst_4 : Ref sig .tc := ⟨.hbm, 488, rfl⟩
abbrev main_call14_call0_v0 : Ref sig .tc := ⟨.hbm, 489, rfl⟩
abbrev main_call14_call0_v1 : Ref sig .tc := ⟨.hbm, 490, rfl⟩
abbrev main_v256 : Ref sig .tc := ⟨.hbm, 491, rfl⟩
abbrev main_v257 : Ref sig .tc := ⟨.hbm, 492, rfl⟩
abbrev main_v258 : Ref sig .tc := ⟨.hbm, 493, rfl⟩
abbrev main_v259 : Ref sig .tc := ⟨.hbm, 494, rfl⟩
abbrev main_v260 : Ref sig .tc := ⟨.hbm, 495, rfl⟩
abbrev main_v261 : Ref sig .tc := ⟨.hbm, 496, rfl⟩
abbrev main_v262 : Ref sig .tc := ⟨.hbm, 497, rfl⟩
abbrev main_cst_38 : Ref sig .tc := ⟨.hbm, 498, rfl⟩
abbrev main_v263 : Ref sig .tc := ⟨.hbm, 499, rfl⟩
abbrev main_v264 : Ref sig .tc := ⟨.hbm, 500, rfl⟩
abbrev main_v265 : Ref sig .tc := ⟨.hbm, 501, rfl⟩
abbrev main_v266 : Ref sig .tc := ⟨.hbm, 502, rfl⟩
abbrev main_v267 : Ref sig .tc := ⟨.hbm, 503, rfl⟩
abbrev main_v268 : Ref sig .tc := ⟨.hbm, 504, rfl⟩
abbrev main_v269 : Ref sig .tc := ⟨.hbm, 505, rfl⟩
abbrev main_v270 : Ref sig .tc := ⟨.hbm, 506, rfl⟩
abbrev main_v271 : Ref sig .tc := ⟨.hbm, 507, rfl⟩
abbrev main_call15_cst : Ref sig .tc := ⟨.hbm, 508, rfl⟩
abbrev main_call15_v0 : Ref sig .tc := ⟨.hbm, 509, rfl⟩
abbrev main_v272 : Ref sig .tc := ⟨.hbm, 510, rfl⟩
abbrev main_v273 : Ref sig .tc := ⟨.hbm, 511, rfl⟩
abbrev main_v274 : Ref sig .tc := ⟨.hbm, 512, rfl⟩
abbrev main_v275 : Ref sig .tc := ⟨.hbm, 513, rfl⟩
abbrev main_v276 : Ref sig .tc := ⟨.hbm, 514, rfl⟩
abbrev main_cst_39 : Ref sig .tc := ⟨.hbm, 515, rfl⟩
abbrev main_v277 : Ref sig .tc := ⟨.hbm, 516, rfl⟩
abbrev main_cst_40 : Ref sig .tc := ⟨.hbm, 517, rfl⟩
abbrev main_v278 : Ref sig .tc := ⟨.hbm, 518, rfl⟩
abbrev main_v279 : Ref sig .tc := ⟨.hbm, 519, rfl⟩
abbrev main_c_41 : Ref sig .tc := ⟨.hbm, 520, rfl⟩
abbrev main_call16_cst : Ref sig .tc := ⟨.hbm, 521, rfl⟩
abbrev main_call16_v0 : Ref sig .tc := ⟨.hbm, 522, rfl⟩
abbrev main_call16_v1 : Ref sig .tc := ⟨.hbm, 523, rfl⟩
abbrev main_call16_cst_0 : Ref sig .tc := ⟨.hbm, 524, rfl⟩
abbrev main_call16_v2 : Ref sig .tc := ⟨.hbm, 525, rfl⟩
abbrev main_call16_v3 : Ref sig .tc := ⟨.hbm, 526, rfl⟩
abbrev main_call16_v4 : Ref sig .tc := ⟨.hbm, 527, rfl⟩
abbrev main_call16_v5 : Ref sig .tc := ⟨.hbm, 528, rfl⟩
abbrev main_call16_v6 : Ref sig .tc := ⟨.hbm, 529, rfl⟩
abbrev main_call16_v7 : Ref sig .tc := ⟨.hbm, 530, rfl⟩
abbrev main_call16_cst_1 : Ref sig .tc := ⟨.hbm, 531, rfl⟩
abbrev main_call16_v8 : Ref sig .tc := ⟨.hbm, 532, rfl⟩
abbrev main_call16_cst_2 : Ref sig .tc := ⟨.hbm, 533, rfl⟩
abbrev main_call16_v9 : Ref sig .tc := ⟨.hbm, 534, rfl⟩
abbrev main_call16_v10 : Ref sig .tc := ⟨.hbm, 535, rfl⟩
abbrev main_call16_v11 : Ref sig .tc := ⟨.hbm, 536, rfl⟩
abbrev main_call16_cst_3 : Ref sig .tc := ⟨.hbm, 537, rfl⟩
abbrev main_call16_v12 : Ref sig .tc := ⟨.hbm, 538, rfl⟩
abbrev main_call16_cst_4 : Ref sig .tc := ⟨.hbm, 539, rfl⟩
abbrev main_call16_call0_v0 : Ref sig .tc := ⟨.hbm, 540, rfl⟩
abbrev main_call16_call0_v1 : Ref sig .tc := ⟨.hbm, 541, rfl⟩
abbrev main_v280 : Ref sig .tc := ⟨.hbm, 542, rfl⟩
abbrev main_v281 : Ref sig .tc := ⟨.hbm, 543, rfl⟩
abbrev main_v282 : Ref sig .tc := ⟨.hbm, 544, rfl⟩
abbrev main_v283 : Ref sig .tc := ⟨.hbm, 545, rfl⟩
abbrev main_v284 : Ref sig .tc := ⟨.hbm, 546, rfl⟩
abbrev main_v285 : Ref sig .tc := ⟨.hbm, 547, rfl⟩
abbrev main_v286 : Ref sig .tc := ⟨.hbm, 548, rfl⟩
abbrev main_cst_42 : Ref sig .tc := ⟨.hbm, 549, rfl⟩
abbrev main_v287 : Ref sig .tc := ⟨.hbm, 550, rfl⟩
abbrev main_v288 : Ref sig .tc := ⟨.hbm, 551, rfl⟩
abbrev main_v289 : Ref sig .tc := ⟨.hbm, 552, rfl⟩
abbrev main_v290 : Ref sig .tc := ⟨.hbm, 553, rfl⟩
abbrev main_v291 : Ref sig .tc := ⟨.hbm, 554, rfl⟩
abbrev main_v292 : Ref sig .tc := ⟨.hbm, 555, rfl⟩
abbrev main_v293 : Ref sig .tc := ⟨.hbm, 556, rfl⟩
abbrev main_v294 : Ref sig .tc := ⟨.hbm, 557, rfl⟩
abbrev main_v295 : Ref sig .tc := ⟨.hbm, 558, rfl⟩
abbrev main_call17_cst : Ref sig .tc := ⟨.hbm, 559, rfl⟩
abbrev main_call17_v0 : Ref sig .tc := ⟨.hbm, 560, rfl⟩
abbrev main_v296 : Ref sig .tc := ⟨.hbm, 561, rfl⟩
abbrev main_c_43 : Ref sig .tc := ⟨.hbm, 562, rfl⟩
abbrev main_v297 : Ref sig .tc := ⟨.hbm, 563, rfl⟩
abbrev main_v298 : Ref sig .tc := ⟨.hbm, 564, rfl⟩
abbrev main_c_44 : Ref sig .tc := ⟨.hbm, 565, rfl⟩
abbrev main_v299 : Ref sig .tc := ⟨.hbm, 566, rfl⟩
abbrev main_v300 : Ref sig .tc := ⟨.hbm, 567, rfl⟩
abbrev main_v301 : Ref sig .tc := ⟨.hbm, 568, rfl⟩
abbrev main_v302 : Ref sig .tc := ⟨.hbm, 569, rfl⟩
abbrev main_v303 : Ref sig .tc := ⟨.hbm, 570, rfl⟩
abbrev main_cst_45 : Ref sig .tc := ⟨.hbm, 571, rfl⟩
abbrev main_v304 : Ref sig .tc := ⟨.hbm, 572, rfl⟩
abbrev main_v305 : Ref sig .tc := ⟨.hbm, 573, rfl⟩
abbrev main_v306 : Ref sig .tc := ⟨.hbm, 574, rfl⟩
abbrev main_v307 : Ref sig .tc := ⟨.hbm, 575, rfl⟩
abbrev main_v308 : Ref sig .tc := ⟨.hbm, 576, rfl⟩
abbrev main_v309 : Ref sig .tc := ⟨.hbm, 577, rfl⟩
abbrev main_v310 : Ref sig .tc := ⟨.hbm, 578, rfl⟩
abbrev main_v311 : Ref sig .tc := ⟨.hbm, 579, rfl⟩
abbrev main_v312 : Ref sig .tc := ⟨.hbm, 580, rfl⟩
abbrev main_v313 : Ref sig .tc := ⟨.hbm, 581, rfl⟩
abbrev main_v314 : Ref sig .tc := ⟨.hbm, 582, rfl⟩
abbrev main_v315 : Ref sig .tc := ⟨.hbm, 583, rfl⟩
abbrev main_v316 : Ref sig .tc := ⟨.hbm, 584, rfl⟩
abbrev main_v317 : Ref sig .tc := ⟨.hbm, 585, rfl⟩
abbrev main_v318 : Ref sig .tc := ⟨.hbm, 586, rfl⟩
abbrev main_v319 : Ref sig .tc := ⟨.hbm, 587, rfl⟩
abbrev main_cst_46 : Ref sig .tc := ⟨.hbm, 588, rfl⟩
abbrev main_v320 : Ref sig .tc := ⟨.hbm, 589, rfl⟩
abbrev main_cst_47 : Ref sig .tc := ⟨.hbm, 590, rfl⟩
abbrev main_v321 : Ref sig .tc := ⟨.hbm, 591, rfl⟩
abbrev main_v322 : Ref sig .tc := ⟨.hbm, 592, rfl⟩
abbrev main_c_48 : Ref sig .tc := ⟨.hbm, 593, rfl⟩
abbrev main_call18_cst : Ref sig .tc := ⟨.hbm, 594, rfl⟩
abbrev main_call18_v0 : Ref sig .tc := ⟨.hbm, 595, rfl⟩
abbrev main_call18_v1 : Ref sig .tc := ⟨.hbm, 596, rfl⟩
abbrev main_call18_cst_0 : Ref sig .tc := ⟨.hbm, 597, rfl⟩
abbrev main_call18_v2 : Ref sig .tc := ⟨.hbm, 598, rfl⟩
abbrev main_call18_v3 : Ref sig .tc := ⟨.hbm, 599, rfl⟩
abbrev main_call18_v4 : Ref sig .tc := ⟨.hbm, 600, rfl⟩
abbrev main_call18_v5 : Ref sig .tc := ⟨.hbm, 601, rfl⟩
abbrev main_call18_v6 : Ref sig .tc := ⟨.hbm, 602, rfl⟩
abbrev main_call18_v7 : Ref sig .tc := ⟨.hbm, 603, rfl⟩
abbrev main_call18_cst_1 : Ref sig .tc := ⟨.hbm, 604, rfl⟩
abbrev main_call18_v8 : Ref sig .tc := ⟨.hbm, 605, rfl⟩
abbrev main_call18_cst_2 : Ref sig .tc := ⟨.hbm, 606, rfl⟩
abbrev main_call18_v9 : Ref sig .tc := ⟨.hbm, 607, rfl⟩
abbrev main_call18_v10 : Ref sig .tc := ⟨.hbm, 608, rfl⟩
abbrev main_call18_v11 : Ref sig .tc := ⟨.hbm, 609, rfl⟩
abbrev main_call18_cst_3 : Ref sig .tc := ⟨.hbm, 610, rfl⟩
abbrev main_call18_v12 : Ref sig .tc := ⟨.hbm, 611, rfl⟩
abbrev main_call18_cst_4 : Ref sig .tc := ⟨.hbm, 612, rfl⟩
abbrev main_call18_call0_v0 : Ref sig .tc := ⟨.hbm, 613, rfl⟩
abbrev main_call18_call0_v1 : Ref sig .tc := ⟨.hbm, 614, rfl⟩
abbrev main_v323 : Ref sig .tc := ⟨.hbm, 615, rfl⟩
abbrev main_v324 : Ref sig .tc := ⟨.hbm, 616, rfl⟩
abbrev main_v325 : Ref sig .tc := ⟨.hbm, 617, rfl⟩
abbrev main_v326 : Ref sig .tc := ⟨.hbm, 618, rfl⟩
abbrev main_v327 : Ref sig .tc := ⟨.hbm, 619, rfl⟩
abbrev main_v328 : Ref sig .tc := ⟨.hbm, 620, rfl⟩
abbrev main_v329 : Ref sig .tc := ⟨.hbm, 621, rfl⟩
abbrev main_cst_49 : Ref sig .tc := ⟨.hbm, 622, rfl⟩
abbrev main_v330 : Ref sig .tc := ⟨.hbm, 623, rfl⟩
abbrev main_v331 : Ref sig .tc := ⟨.hbm, 624, rfl⟩
abbrev main_v332 : Ref sig .tc := ⟨.hbm, 625, rfl⟩
abbrev main_v333 : Ref sig .tc := ⟨.hbm, 626, rfl⟩
abbrev main_v334 : Ref sig .tc := ⟨.hbm, 627, rfl⟩
abbrev main_v335 : Ref sig .tc := ⟨.hbm, 628, rfl⟩
abbrev main_v336 : Ref sig .tc := ⟨.hbm, 629, rfl⟩
abbrev main_v337 : Ref sig .tc := ⟨.hbm, 630, rfl⟩
abbrev main_v338 : Ref sig .tc := ⟨.hbm, 631, rfl⟩
abbrev main_call19_cst : Ref sig .tc := ⟨.hbm, 632, rfl⟩
abbrev main_call19_v0 : Ref sig .tc := ⟨.hbm, 633, rfl⟩
abbrev main_v339 : Ref sig .tc := ⟨.hbm, 634, rfl⟩
abbrev main_v340 : Ref sig .tc := ⟨.hbm, 635, rfl⟩
abbrev main_v341 : Ref sig .tc := ⟨.hbm, 636, rfl⟩
abbrev main_v342 : Ref sig .tc := ⟨.hbm, 637, rfl⟩
abbrev main_v343 : Ref sig .tc := ⟨.hbm, 638, rfl⟩
abbrev main_v344 : Ref sig .tc := ⟨.hbm, 639, rfl⟩
abbrev main_v345 : Ref sig .tc := ⟨.hbm, 640, rfl⟩
abbrev main_v346 : Ref sig .tc := ⟨.hbm, 641, rfl⟩
abbrev main_v347 : Ref sig .tc := ⟨.hbm, 642, rfl⟩
abbrev main_v348 : Ref sig .tc := ⟨.hbm, 643, rfl⟩
abbrev main_v349 : Ref sig .tc := ⟨.hbm, 644, rfl⟩
abbrev main_v350 : Ref sig .tc := ⟨.hbm, 645, rfl⟩
abbrev main_v351 : Ref sig .tc := ⟨.hbm, 646, rfl⟩
abbrev main_cst_50 : Ref sig .tc := ⟨.hbm, 647, rfl⟩
abbrev main_v352 : Ref sig .tc := ⟨.hbm, 648, rfl⟩
abbrev main_cst_51 : Ref sig .tc := ⟨.hbm, 649, rfl⟩
abbrev main_v353 : Ref sig .tc := ⟨.hbm, 650, rfl⟩
abbrev main_v354 : Ref sig .tc := ⟨.hbm, 651, rfl⟩
abbrev main_c_52 : Ref sig .tc := ⟨.hbm, 652, rfl⟩
abbrev main_call20_cst : Ref sig .tc := ⟨.hbm, 653, rfl⟩
abbrev main_call20_v0 : Ref sig .tc := ⟨.hbm, 654, rfl⟩
abbrev main_call20_v1 : Ref sig .tc := ⟨.hbm, 655, rfl⟩
abbrev main_call20_cst_0 : Ref sig .tc := ⟨.hbm, 656, rfl⟩
abbrev main_call20_v2 : Ref sig .tc := ⟨.hbm, 657, rfl⟩
abbrev main_call20_v3 : Ref sig .tc := ⟨.hbm, 658, rfl⟩
abbrev main_call20_v4 : Ref sig .tc := ⟨.hbm, 659, rfl⟩
abbrev main_call20_v5 : Ref sig .tc := ⟨.hbm, 660, rfl⟩
abbrev main_call20_v6 : Ref sig .tc := ⟨.hbm, 661, rfl⟩
abbrev main_call20_v7 : Ref sig .tc := ⟨.hbm, 662, rfl⟩
abbrev main_call20_cst_1 : Ref sig .tc := ⟨.hbm, 663, rfl⟩
abbrev main_call20_v8 : Ref sig .tc := ⟨.hbm, 664, rfl⟩
abbrev main_call20_cst_2 : Ref sig .tc := ⟨.hbm, 665, rfl⟩
abbrev main_call20_v9 : Ref sig .tc := ⟨.hbm, 666, rfl⟩
abbrev main_call20_v10 : Ref sig .tc := ⟨.hbm, 667, rfl⟩
abbrev main_call20_v11 : Ref sig .tc := ⟨.hbm, 668, rfl⟩
abbrev main_call20_cst_3 : Ref sig .tc := ⟨.hbm, 669, rfl⟩
abbrev main_call20_v12 : Ref sig .tc := ⟨.hbm, 670, rfl⟩
abbrev main_call20_cst_4 : Ref sig .tc := ⟨.hbm, 671, rfl⟩
abbrev main_call20_call0_v0 : Ref sig .tc := ⟨.hbm, 672, rfl⟩
abbrev main_call20_call0_v1 : Ref sig .tc := ⟨.hbm, 673, rfl⟩
abbrev main_v355 : Ref sig .tc := ⟨.hbm, 674, rfl⟩
abbrev main_v356 : Ref sig .tc := ⟨.hbm, 675, rfl⟩
abbrev main_v357 : Ref sig .tc := ⟨.hbm, 676, rfl⟩
abbrev main_v358 : Ref sig .tc := ⟨.hbm, 677, rfl⟩
abbrev main_v359 : Ref sig .tc := ⟨.hbm, 678, rfl⟩
abbrev main_v360 : Ref sig .tc := ⟨.hbm, 679, rfl⟩
abbrev main_v361 : Ref sig .tc := ⟨.hbm, 680, rfl⟩
abbrev main_cst_53 : Ref sig .tc := ⟨.hbm, 681, rfl⟩
abbrev main_v362 : Ref sig .tc := ⟨.hbm, 682, rfl⟩
abbrev main_v363 : Ref sig .tc := ⟨.hbm, 683, rfl⟩
abbrev main_v364 : Ref sig .tc := ⟨.hbm, 684, rfl⟩
abbrev main_v365 : Ref sig .tc := ⟨.hbm, 685, rfl⟩
abbrev main_v366 : Ref sig .tc := ⟨.hbm, 686, rfl⟩
abbrev main_v367 : Ref sig .tc := ⟨.hbm, 687, rfl⟩
abbrev main_v368 : Ref sig .tc := ⟨.hbm, 688, rfl⟩
abbrev main_v369 : Ref sig .tc := ⟨.hbm, 689, rfl⟩
abbrev main_v370 : Ref sig .tc := ⟨.hbm, 690, rfl⟩
abbrev main_call21_cst : Ref sig .tc := ⟨.hbm, 691, rfl⟩
abbrev main_call21_v0 : Ref sig .tc := ⟨.hbm, 692, rfl⟩
abbrev main_v371 : Ref sig .tc := ⟨.hbm, 693, rfl⟩
abbrev main_v372 : Ref sig .tc := ⟨.hbm, 694, rfl⟩
abbrev main_v373 : Ref sig .tc := ⟨.hbm, 695, rfl⟩
abbrev main_v374 : Ref sig .tc := ⟨.hbm, 696, rfl⟩
abbrev main_v375 : Ref sig .tc := ⟨.hbm, 697, rfl⟩
abbrev main_cst_54 : Ref sig .tc := ⟨.hbm, 698, rfl⟩
abbrev main_v376 : Ref sig .tc := ⟨.hbm, 699, rfl⟩
abbrev main_cst_55 : Ref sig .tc := ⟨.hbm, 700, rfl⟩
abbrev main_v377 : Ref sig .tc := ⟨.hbm, 701, rfl⟩
abbrev main_v378 : Ref sig .tc := ⟨.hbm, 702, rfl⟩
abbrev main_c_56 : Ref sig .tc := ⟨.hbm, 703, rfl⟩
abbrev main_call22_cst : Ref sig .tc := ⟨.hbm, 704, rfl⟩
abbrev main_call22_v0 : Ref sig .tc := ⟨.hbm, 705, rfl⟩
abbrev main_call22_v1 : Ref sig .tc := ⟨.hbm, 706, rfl⟩
abbrev main_call22_cst_0 : Ref sig .tc := ⟨.hbm, 707, rfl⟩
abbrev main_call22_v2 : Ref sig .tc := ⟨.hbm, 708, rfl⟩
abbrev main_call22_v3 : Ref sig .tc := ⟨.hbm, 709, rfl⟩
abbrev main_call22_v4 : Ref sig .tc := ⟨.hbm, 710, rfl⟩
abbrev main_call22_v5 : Ref sig .tc := ⟨.hbm, 711, rfl⟩
abbrev main_call22_v6 : Ref sig .tc := ⟨.hbm, 712, rfl⟩
abbrev main_call22_v7 : Ref sig .tc := ⟨.hbm, 713, rfl⟩
abbrev main_call22_cst_1 : Ref sig .tc := ⟨.hbm, 714, rfl⟩
abbrev main_call22_v8 : Ref sig .tc := ⟨.hbm, 715, rfl⟩
abbrev main_call22_cst_2 : Ref sig .tc := ⟨.hbm, 716, rfl⟩
abbrev main_call22_v9 : Ref sig .tc := ⟨.hbm, 717, rfl⟩
abbrev main_call22_v10 : Ref sig .tc := ⟨.hbm, 718, rfl⟩
abbrev main_call22_v11 : Ref sig .tc := ⟨.hbm, 719, rfl⟩
abbrev main_call22_cst_3 : Ref sig .tc := ⟨.hbm, 720, rfl⟩
abbrev main_call22_v12 : Ref sig .tc := ⟨.hbm, 721, rfl⟩
abbrev main_call22_cst_4 : Ref sig .tc := ⟨.hbm, 722, rfl⟩
abbrev main_call22_call0_v0 : Ref sig .tc := ⟨.hbm, 723, rfl⟩
abbrev main_call22_call0_v1 : Ref sig .tc := ⟨.hbm, 724, rfl⟩
abbrev main_v379 : Ref sig .tc := ⟨.hbm, 725, rfl⟩
abbrev main_v380 : Ref sig .tc := ⟨.hbm, 726, rfl⟩
abbrev main_v381 : Ref sig .tc := ⟨.hbm, 727, rfl⟩
abbrev main_v382 : Ref sig .tc := ⟨.hbm, 728, rfl⟩
abbrev main_v383 : Ref sig .tc := ⟨.hbm, 729, rfl⟩
abbrev main_v384 : Ref sig .tc := ⟨.hbm, 730, rfl⟩
abbrev main_v385 : Ref sig .tc := ⟨.hbm, 731, rfl⟩
abbrev main_cst_57 : Ref sig .tc := ⟨.hbm, 732, rfl⟩
abbrev main_v386 : Ref sig .tc := ⟨.hbm, 733, rfl⟩
abbrev main_v387 : Ref sig .tc := ⟨.hbm, 734, rfl⟩
abbrev main_v388 : Ref sig .tc := ⟨.hbm, 735, rfl⟩
abbrev main_v389 : Ref sig .tc := ⟨.hbm, 736, rfl⟩
abbrev main_v390 : Ref sig .tc := ⟨.hbm, 737, rfl⟩
abbrev main_v391 : Ref sig .tc := ⟨.hbm, 738, rfl⟩
abbrev main_v392 : Ref sig .tc := ⟨.hbm, 739, rfl⟩
abbrev main_v393 : Ref sig .tc := ⟨.hbm, 740, rfl⟩
abbrev main_v394 : Ref sig .tc := ⟨.hbm, 741, rfl⟩
abbrev main_call23_cst : Ref sig .tc := ⟨.hbm, 742, rfl⟩
abbrev main_call23_v0 : Ref sig .tc := ⟨.hbm, 743, rfl⟩
abbrev main_v395 : Ref sig .tc := ⟨.hbm, 744, rfl⟩
abbrev main_c_58 : Ref sig .tc := ⟨.hbm, 745, rfl⟩
abbrev main_v396 : Ref sig .tc := ⟨.hbm, 746, rfl⟩
abbrev main_v397 : Ref sig .tc := ⟨.hbm, 747, rfl⟩
abbrev main_c_59 : Ref sig .tc := ⟨.hbm, 748, rfl⟩
abbrev main_v398 : Ref sig .tc := ⟨.hbm, 749, rfl⟩
abbrev main_v399 : Ref sig .tc := ⟨.hbm, 750, rfl⟩
abbrev main_v400 : Ref sig .tc := ⟨.hbm, 751, rfl⟩
abbrev main_v401 : Ref sig .tc := ⟨.hbm, 752, rfl⟩
abbrev main_v402 : Ref sig .tc := ⟨.hbm, 753, rfl⟩
abbrev main_cst_60 : Ref sig .tc := ⟨.hbm, 754, rfl⟩
abbrev main_v403 : Ref sig .tc := ⟨.hbm, 755, rfl⟩
abbrev main_v404 : Ref sig .tc := ⟨.hbm, 756, rfl⟩
abbrev main_v405 : Ref sig .tc := ⟨.hbm, 757, rfl⟩
abbrev main_v406 : Ref sig .tc := ⟨.hbm, 758, rfl⟩
abbrev main_v407 : Ref sig .tc := ⟨.hbm, 759, rfl⟩
abbrev main_v408 : Ref sig .tc := ⟨.hbm, 760, rfl⟩
abbrev main_v409 : Ref sig .tc := ⟨.hbm, 761, rfl⟩
abbrev main_v410 : Ref sig .tc := ⟨.hbm, 762, rfl⟩
abbrev main_v411 : Ref sig .tc := ⟨.hbm, 763, rfl⟩
abbrev main_v412 : Ref sig .tc := ⟨.hbm, 764, rfl⟩
abbrev main_v413 : Ref sig .tc := ⟨.hbm, 765, rfl⟩
abbrev main_v414 : Ref sig .tc := ⟨.hbm, 766, rfl⟩
abbrev main_v415 : Ref sig .tc := ⟨.hbm, 767, rfl⟩
abbrev main_v416 : Ref sig .tc := ⟨.hbm, 768, rfl⟩
abbrev main_v417 : Ref sig .tc := ⟨.hbm, 769, rfl⟩
abbrev main_v418 : Ref sig .tc := ⟨.hbm, 770, rfl⟩
abbrev main_cst_61 : Ref sig .tc := ⟨.hbm, 771, rfl⟩
abbrev main_v419 : Ref sig .tc := ⟨.hbm, 772, rfl⟩
abbrev main_cst_62 : Ref sig .tc := ⟨.hbm, 773, rfl⟩
abbrev main_v420 : Ref sig .tc := ⟨.hbm, 774, rfl⟩
abbrev main_v421 : Ref sig .tc := ⟨.hbm, 775, rfl⟩
abbrev main_c_63 : Ref sig .tc := ⟨.hbm, 776, rfl⟩
abbrev main_call24_cst : Ref sig .tc := ⟨.hbm, 777, rfl⟩
abbrev main_call24_v0 : Ref sig .tc := ⟨.hbm, 778, rfl⟩
abbrev main_call24_v1 : Ref sig .tc := ⟨.hbm, 779, rfl⟩
abbrev main_call24_cst_0 : Ref sig .tc := ⟨.hbm, 780, rfl⟩
abbrev main_call24_v2 : Ref sig .tc := ⟨.hbm, 781, rfl⟩
abbrev main_call24_v3 : Ref sig .tc := ⟨.hbm, 782, rfl⟩
abbrev main_call24_v4 : Ref sig .tc := ⟨.hbm, 783, rfl⟩
abbrev main_call24_v5 : Ref sig .tc := ⟨.hbm, 784, rfl⟩
abbrev main_call24_v6 : Ref sig .tc := ⟨.hbm, 785, rfl⟩
abbrev main_call24_v7 : Ref sig .tc := ⟨.hbm, 786, rfl⟩
abbrev main_call24_cst_1 : Ref sig .tc := ⟨.hbm, 787, rfl⟩
abbrev main_call24_v8 : Ref sig .tc := ⟨.hbm, 788, rfl⟩
abbrev main_call24_cst_2 : Ref sig .tc := ⟨.hbm, 789, rfl⟩
abbrev main_call24_v9 : Ref sig .tc := ⟨.hbm, 790, rfl⟩
abbrev main_call24_v10 : Ref sig .tc := ⟨.hbm, 791, rfl⟩
abbrev main_call24_v11 : Ref sig .tc := ⟨.hbm, 792, rfl⟩
abbrev main_call24_cst_3 : Ref sig .tc := ⟨.hbm, 793, rfl⟩
abbrev main_call24_v12 : Ref sig .tc := ⟨.hbm, 794, rfl⟩
abbrev main_call24_cst_4 : Ref sig .tc := ⟨.hbm, 795, rfl⟩
abbrev main_call24_call0_v0 : Ref sig .tc := ⟨.hbm, 796, rfl⟩
abbrev main_call24_call0_v1 : Ref sig .tc := ⟨.hbm, 797, rfl⟩
abbrev main_v422 : Ref sig .tc := ⟨.hbm, 798, rfl⟩
abbrev main_v423 : Ref sig .tc := ⟨.hbm, 799, rfl⟩
abbrev main_v424 : Ref sig .tc := ⟨.hbm, 800, rfl⟩
abbrev main_v425 : Ref sig .tc := ⟨.hbm, 801, rfl⟩
abbrev main_v426 : Ref sig .tc := ⟨.hbm, 802, rfl⟩
abbrev main_v427 : Ref sig .tc := ⟨.hbm, 803, rfl⟩
abbrev main_v428 : Ref sig .tc := ⟨.hbm, 804, rfl⟩
abbrev main_cst_64 : Ref sig .tc := ⟨.hbm, 805, rfl⟩
abbrev main_v429 : Ref sig .tc := ⟨.hbm, 806, rfl⟩
abbrev main_v430 : Ref sig .tc := ⟨.hbm, 807, rfl⟩
abbrev main_v431 : Ref sig .tc := ⟨.hbm, 808, rfl⟩
abbrev main_v432 : Ref sig .tc := ⟨.hbm, 809, rfl⟩
abbrev main_v433 : Ref sig .tc := ⟨.hbm, 810, rfl⟩
abbrev main_v434 : Ref sig .tc := ⟨.hbm, 811, rfl⟩
abbrev main_v435 : Ref sig .tc := ⟨.hbm, 812, rfl⟩
abbrev main_v436 : Ref sig .tc := ⟨.hbm, 813, rfl⟩
abbrev main_v437 : Ref sig .tc := ⟨.hbm, 814, rfl⟩
abbrev main_call25_cst : Ref sig .tc := ⟨.hbm, 815, rfl⟩
abbrev main_call25_v0 : Ref sig .tc := ⟨.hbm, 816, rfl⟩
abbrev main_v438 : Ref sig .tc := ⟨.hbm, 817, rfl⟩
abbrev main_v439 : Ref sig .tc := ⟨.hbm, 818, rfl⟩
abbrev main_v440 : Ref sig .tc := ⟨.hbm, 819, rfl⟩
abbrev main_v441 : Ref sig .tc := ⟨.hbm, 820, rfl⟩
abbrev main_v442 : Ref sig .tc := ⟨.hbm, 821, rfl⟩
abbrev main_v443 : Ref sig .tc := ⟨.hbm, 822, rfl⟩
abbrev main_v444 : Ref sig .tc := ⟨.hbm, 823, rfl⟩
abbrev main_v445 : Ref sig .tc := ⟨.hbm, 824, rfl⟩
abbrev main_v446 : Ref sig .tc := ⟨.hbm, 825, rfl⟩
abbrev main_v447 : Ref sig .tc := ⟨.hbm, 826, rfl⟩
abbrev main_v448 : Ref sig .tc := ⟨.hbm, 827, rfl⟩
abbrev main_v449 : Ref sig .tc := ⟨.hbm, 828, rfl⟩
abbrev main_v450 : Ref sig .tc := ⟨.hbm, 829, rfl⟩
abbrev main_cst_65 : Ref sig .tc := ⟨.hbm, 830, rfl⟩
abbrev main_v451 : Ref sig .tc := ⟨.hbm, 831, rfl⟩
abbrev main_cst_66 : Ref sig .tc := ⟨.hbm, 832, rfl⟩
abbrev main_v452 : Ref sig .tc := ⟨.hbm, 833, rfl⟩
abbrev main_v453 : Ref sig .tc := ⟨.hbm, 834, rfl⟩
abbrev main_c_67 : Ref sig .tc := ⟨.hbm, 835, rfl⟩
abbrev main_call26_cst : Ref sig .tc := ⟨.hbm, 836, rfl⟩
abbrev main_call26_v0 : Ref sig .tc := ⟨.hbm, 837, rfl⟩
abbrev main_call26_v1 : Ref sig .tc := ⟨.hbm, 838, rfl⟩
abbrev main_call26_cst_0 : Ref sig .tc := ⟨.hbm, 839, rfl⟩
abbrev main_call26_v2 : Ref sig .tc := ⟨.hbm, 840, rfl⟩
abbrev main_call26_v3 : Ref sig .tc := ⟨.hbm, 841, rfl⟩
abbrev main_call26_v4 : Ref sig .tc := ⟨.hbm, 842, rfl⟩
abbrev main_call26_v5 : Ref sig .tc := ⟨.hbm, 843, rfl⟩
abbrev main_call26_v6 : Ref sig .tc := ⟨.hbm, 844, rfl⟩
abbrev main_call26_v7 : Ref sig .tc := ⟨.hbm, 845, rfl⟩
abbrev main_call26_cst_1 : Ref sig .tc := ⟨.hbm, 846, rfl⟩
abbrev main_call26_v8 : Ref sig .tc := ⟨.hbm, 847, rfl⟩
abbrev main_call26_cst_2 : Ref sig .tc := ⟨.hbm, 848, rfl⟩
abbrev main_call26_v9 : Ref sig .tc := ⟨.hbm, 849, rfl⟩
abbrev main_call26_v10 : Ref sig .tc := ⟨.hbm, 850, rfl⟩
abbrev main_call26_v11 : Ref sig .tc := ⟨.hbm, 851, rfl⟩
abbrev main_call26_cst_3 : Ref sig .tc := ⟨.hbm, 852, rfl⟩
abbrev main_call26_v12 : Ref sig .tc := ⟨.hbm, 853, rfl⟩
abbrev main_call26_cst_4 : Ref sig .tc := ⟨.hbm, 854, rfl⟩
abbrev main_call26_call0_v0 : Ref sig .tc := ⟨.hbm, 855, rfl⟩
abbrev main_call26_call0_v1 : Ref sig .tc := ⟨.hbm, 856, rfl⟩
abbrev main_v454 : Ref sig .tc := ⟨.hbm, 857, rfl⟩
abbrev main_v455 : Ref sig .tc := ⟨.hbm, 858, rfl⟩
abbrev main_v456 : Ref sig .tc := ⟨.hbm, 859, rfl⟩
abbrev main_v457 : Ref sig .tc := ⟨.hbm, 860, rfl⟩
abbrev main_v458 : Ref sig .tc := ⟨.hbm, 861, rfl⟩
abbrev main_v459 : Ref sig .tc := ⟨.hbm, 862, rfl⟩
abbrev main_v460 : Ref sig .tc := ⟨.hbm, 863, rfl⟩
abbrev main_cst_68 : Ref sig .tc := ⟨.hbm, 864, rfl⟩
abbrev main_v461 : Ref sig .tc := ⟨.hbm, 865, rfl⟩
abbrev main_v462 : Ref sig .tc := ⟨.hbm, 866, rfl⟩
abbrev main_v463 : Ref sig .tc := ⟨.hbm, 867, rfl⟩
abbrev main_v464 : Ref sig .tc := ⟨.hbm, 868, rfl⟩
abbrev main_v465 : Ref sig .tc := ⟨.hbm, 869, rfl⟩
abbrev main_v466 : Ref sig .tc := ⟨.hbm, 870, rfl⟩
abbrev main_v467 : Ref sig .tc := ⟨.hbm, 871, rfl⟩
abbrev main_v468 : Ref sig .tc := ⟨.hbm, 872, rfl⟩
abbrev main_v469 : Ref sig .tc := ⟨.hbm, 873, rfl⟩
abbrev main_call27_cst : Ref sig .tc := ⟨.hbm, 874, rfl⟩
abbrev main_call27_v0 : Ref sig .tc := ⟨.hbm, 875, rfl⟩
abbrev main_v470 : Ref sig .tc := ⟨.hbm, 876, rfl⟩
abbrev main_v471 : Ref sig .tc := ⟨.hbm, 877, rfl⟩
abbrev main_v472 : Ref sig .tc := ⟨.hbm, 878, rfl⟩
abbrev main_v473 : Ref sig .tc := ⟨.hbm, 879, rfl⟩
abbrev main_v474 : Ref sig .tc := ⟨.hbm, 880, rfl⟩
abbrev main_cst_69 : Ref sig .tc := ⟨.hbm, 881, rfl⟩
abbrev main_v475 : Ref sig .tc := ⟨.hbm, 882, rfl⟩
abbrev main_cst_70 : Ref sig .tc := ⟨.hbm, 883, rfl⟩
abbrev main_v476 : Ref sig .tc := ⟨.hbm, 884, rfl⟩
abbrev main_v477 : Ref sig .tc := ⟨.hbm, 885, rfl⟩
abbrev main_c_71 : Ref sig .tc := ⟨.hbm, 886, rfl⟩
abbrev main_call28_cst : Ref sig .tc := ⟨.hbm, 887, rfl⟩
abbrev main_call28_v0 : Ref sig .tc := ⟨.hbm, 888, rfl⟩
abbrev main_call28_v1 : Ref sig .tc := ⟨.hbm, 889, rfl⟩
abbrev main_call28_cst_0 : Ref sig .tc := ⟨.hbm, 890, rfl⟩
abbrev main_call28_v2 : Ref sig .tc := ⟨.hbm, 891, rfl⟩
abbrev main_call28_v3 : Ref sig .tc := ⟨.hbm, 892, rfl⟩
abbrev main_call28_v4 : Ref sig .tc := ⟨.hbm, 893, rfl⟩
abbrev main_call28_v5 : Ref sig .tc := ⟨.hbm, 894, rfl⟩
abbrev main_call28_v6 : Ref sig .tc := ⟨.hbm, 895, rfl⟩
abbrev main_call28_v7 : Ref sig .tc := ⟨.hbm, 896, rfl⟩
abbrev main_call28_cst_1 : Ref sig .tc := ⟨.hbm, 897, rfl⟩
abbrev main_call28_v8 : Ref sig .tc := ⟨.hbm, 898, rfl⟩
abbrev main_call28_cst_2 : Ref sig .tc := ⟨.hbm, 899, rfl⟩
abbrev main_call28_v9 : Ref sig .tc := ⟨.hbm, 900, rfl⟩
abbrev main_call28_v10 : Ref sig .tc := ⟨.hbm, 901, rfl⟩
abbrev main_call28_v11 : Ref sig .tc := ⟨.hbm, 902, rfl⟩
abbrev main_call28_cst_3 : Ref sig .tc := ⟨.hbm, 903, rfl⟩
abbrev main_call28_v12 : Ref sig .tc := ⟨.hbm, 904, rfl⟩
abbrev main_call28_cst_4 : Ref sig .tc := ⟨.hbm, 905, rfl⟩
abbrev main_call28_call0_v0 : Ref sig .tc := ⟨.hbm, 906, rfl⟩
abbrev main_call28_call0_v1 : Ref sig .tc := ⟨.hbm, 907, rfl⟩
abbrev main_v478 : Ref sig .tc := ⟨.hbm, 908, rfl⟩
abbrev main_v479 : Ref sig .tc := ⟨.hbm, 909, rfl⟩
abbrev main_v480 : Ref sig .tc := ⟨.hbm, 910, rfl⟩
abbrev main_v481 : Ref sig .tc := ⟨.hbm, 911, rfl⟩
abbrev main_v482 : Ref sig .tc := ⟨.hbm, 912, rfl⟩
abbrev main_v483 : Ref sig .tc := ⟨.hbm, 913, rfl⟩
abbrev main_v484 : Ref sig .tc := ⟨.hbm, 914, rfl⟩
abbrev main_cst_72 : Ref sig .tc := ⟨.hbm, 915, rfl⟩
abbrev main_v485 : Ref sig .tc := ⟨.hbm, 916, rfl⟩
abbrev main_v486 : Ref sig .tc := ⟨.hbm, 917, rfl⟩
abbrev main_v487 : Ref sig .tc := ⟨.hbm, 918, rfl⟩
abbrev main_v488 : Ref sig .tc := ⟨.hbm, 919, rfl⟩
abbrev main_v489 : Ref sig .tc := ⟨.hbm, 920, rfl⟩
abbrev main_v490 : Ref sig .tc := ⟨.hbm, 921, rfl⟩
abbrev main_v491 : Ref sig .tc := ⟨.hbm, 922, rfl⟩
abbrev main_v492 : Ref sig .tc := ⟨.hbm, 923, rfl⟩
abbrev main_v493 : Ref sig .tc := ⟨.hbm, 924, rfl⟩
abbrev main_call29_cst : Ref sig .tc := ⟨.hbm, 925, rfl⟩
abbrev main_call29_v0 : Ref sig .tc := ⟨.hbm, 926, rfl⟩
abbrev main_v494 : Ref sig .tc := ⟨.hbm, 927, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel program's run with its result buffer named. The program is twenty kernel regions among stretches
  of host operations; every weakly fair execution terminates, without a fault, and every final state holds, in each
  unscoped buffer of each core, the contents of the last segment boundary. So the result buffer ends at the last
  boundary's contents of that buffer, and the argument buffers end as they were launched.
-/
import proofs.«113410_j5944234737805_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last segment
    boundary's contents and each argument buffer as launched. -/
theorem run_result : θ_run defs (onTc (τ := τ) (main (F := F))) ⟨m, fun _ => 0, ρ⟩ (fun r => ∀ c : Dev nD,
      r.2.mem ((c.tc : Thread nD τ).loc main_v304) = W40 m ρ c (Proc.devRef .tc main_v304)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W40 m ρ c b)
    (hfin := fun c s' => by
      iintro ⟨⟨Hh, -⟩, HSI⟩
      unfold StableHlo.held
      imodintro
      iapply (pointsTo_read_all (Pipeline.ucRefs τ sig) (fun b => (((c : Thread nD τ)).1, b)) (W40 m ρ c) s')
      isplitl [Hh] <;> iassumption)
    (hQ := fun s h c =>
      ⟨h c _ (mem_uc main_v304 (by decide)),
       (h c _ (mem_uc main_arg0 (by decide))).trans (W40_main_arg0 m ρ c),
       (h c _ (mem_uc main_arg1 (by decide))).trans (W40_main_arg1 m ρ c),
       (h c _ (mem_uc main_arg2 (by decide))).trans (W40_main_arg2 m ρ c),
       (h c _ (mem_uc main_arg3 (by decide))).trans (W40_main_arg3 m ρ c),
       (h c _ (mem_uc main_arg4 (by decide))).trans (W40_main_arg4 m ρ c),
       (h c _ (mem_uc main_arg5 (by decide))).trans (W40_main_arg5 m ρ c),
       (h c _ (mem_uc main_arg6 (by decide))).trans (W40_main_arg6 m ρ c),
       (h c _ (mem_uc main_arg7 (by decide))).trans (W40_main_arg7 m ρ c),
       (h c _ (mem_uc main_arg8 (by decide))).trans (W40_main_arg8 m ρ c),
       (h c _ (mem_uc main_arg9 (by decide))).trans (W40_main_arg9 m ρ c),
       (h c _ (mem_uc main_arg10 (by decide))).trans (W40_main_arg10 m ρ c),
       (h c _ (mem_uc main_arg11 (by decide))).trans (W40_main_arg11 m ρ c),
       (h c _ (mem_uc main_arg12 (by decide))).trans (W40_main_arg12 m ρ c)⟩)

end Cert.KernelIdeal.KRun

end
-- ==== Proof.R0Value.lean ====
/-
  The first kernel of layer 0, read as values, at any float instance. At each of its five grid points the kernel stores the
  dense layer of the point's tile of 10000 rows, and keeps two running rows: at the first point it sets them to the zero
  row plus the tile's column sums (of the result, and of its squares); at every later point it adds the tile's column sums
  to what the point before left. So after point n the three output buffers hold the dense layer of tile n and the two
  accumulations over tiles 0..n (by induction on the point).
-/
import proofs.«113410_j5944234737805_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R0

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem out_A_3 (c : Dev nD) (i : grid0.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S10000x128 .f32) (x1 : Vec F S128x128 .f32) (x2 : Vec F S1x128 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

theorem out_A_4 (c : Dev nD) (i : grid0.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S10000x128 .f32) (x1 : Vec F S128x128 .f32) (x2 : Vec F S1x128 .f32) :
    out0_A_4 c i a1 h1 a2 h2 a3 h3 a4 h4 a5 h5 a6 h6 hc x0 x1 x2 = k0_pay4 x0 x1 x2 k0_pay1 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S10000x128) hz, View.ld_unit_zero (S := S128x128) hz, View.ld_unit_zero (S := S1x128) hz]

theorem out_A_5 (c : Dev nD) (i : grid0.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S10000x128 .f32) (x1 : Vec F S128x128 .f32) (x2 : Vec F S1x128 .f32) :
    out0_A_5 c i a1 h1 a2 h2 a3 h3 a4 h4 a5 h5 a6 h6 hc x0 x1 x2 = k0_pay5 x0 x1 x2 k0_pay2 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S10000x128) hz, View.ld_unit_zero (S := S128x128) hz, View.ld_unit_zero (S := S1x128) hz]

theorem out_B_3 (c : Dev nD) (i : grid0.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S10000x128 .f32) (x1 : Vec F S128x128 .f32) (x2 : Vec F S1x128 .f32) (xo4 xo5 : Vec F S1x128 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

theorem out_B_4 (c : Dev nD) (i : grid0.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S10000x128 .f32) (x1 : Vec F S128x128 .f32) (x2 : Vec F S1x128 .f32) (xo4 xo5 : Vec F S1x128 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

theorem out_B_5 (c : Dev nD) (i : grid0.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S10000x128 .f32) (x1 : Vec F S128x128 .f32) (x2 : Vec F S1x128 .f32) (xo4 xo5 : Vec F S1x128 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

/-- The running column sums of the rows seen so far: tile 0 added to the zero row, then one tile per point. -/
def acc4 (c : Dev nD) : (n : ℕ) → n < cfg0.N → Vec F S1x128 .f32
  | 0, h => k0_pay4 (iblk0 V c 0 ⟨0, h⟩) (iblk0 V c 1 ⟨0, h⟩) (iblk0 V c 2 ⟨0, h⟩) k0_pay1
  | n + 1, h => k0_pay4 (iblk0 V c 0 ⟨n + 1, h⟩) (iblk0 V c 1 ⟨n + 1, h⟩) (iblk0 V c 2 ⟨n + 1, h⟩) (acc4 c n (Nat.lt_of_succ_lt h))

/-- The same for the squares. -/
def acc5 (c : Dev nD) : (n : ℕ) → n < cfg0.N → Vec F S1x128 .f32
  | 0, h => k0_pay5 (iblk0 V c 0 ⟨0, h⟩) (iblk0 V c 1 ⟨0, h⟩) (iblk0 V c 2 ⟨0, h⟩) k0_pay2
  | n + 1, h => k0_pay5 (iblk0 V c 0 ⟨n + 1, h⟩) (iblk0 V c 1 ⟨n + 1, h⟩) (iblk0 V c 2 ⟨n + 1, h⟩) (acc5 c n (Nat.lt_of_succ_lt h))

/-- After point n the three output buffers hold: the dense layer of tile n; the column sums of tiles 0..n; the column sums
    of their squares. By induction on the point. -/
theorem outsAt_eq (c : Dev nD) : ∀ (n : ℕ) (h : n < cfg0.N),
    outsAt0 V c n h = (k0_pay3 (iblk0 V c 0 ⟨n, h⟩) (iblk0 V c 1 ⟨n, h⟩) (iblk0 V c 2 ⟨n, h⟩), acc4 V c n h, acc5 V c n h)
  | 0, h => (outsAt0_A V c ⟨0, h⟩ rfl).trans (by
      rw [out_A_3, out_A_4, out_A_5]
      rfl)
  | n + 1, h => by
    have hN : cfg0.N = 5 := N_0
    have hB : ¬(⟨n + 1, h⟩ : Fin cfg0.N).val % 5 = 0 := by dsimp only; omega
    rw [outsAt0_B V c ⟨n + 1, h⟩ hB, out_B_3, out_B_4, out_B_5]
    show (k0_pay3 _ _ _, k0_pay4 _ _ _ (outsAt0 V c n _).2.1, k0_pay5 _ _ _ (outsAt0 V c n _).2.2)
      = (k0_pay3 _ _ _, k0_pay4 _ _ _ (acc4 V c n _), k0_pay5 _ _ _ (acc5 V c n _))
    rw [outsAt_eq c n]

end Cert.KernelIdeal.R0
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.LibDense.lean ====
/-
  A dense layer on the extended reals, index by index, in its two spellings.

  For a matrix `a` of R rows and K columns, weights `w` (K by P) and a bias row `b` (1 by P), entry (r, c) of the
  layer is  Σ_k a(r, k) · w(k, c)  +  b(0, c).  A kernel computes it on the matrix unit into a splat of zeros and adds the
  bias row broadcast over the rows; a host program computes it as a `dot_general` and adds the bias row broadcast in
  dimensions (0, 1). Both, read at an index, are that sum: no rounding, no order of accumulation, and the zero
  accumulator adds nothing.

  Every entry of the result depends on ONE row of `a`: a block of consecutive rows of the result is the same function of
  the matching block of rows of `a` (`dense_rows`). The rectifier (maximum with the zero word) and the entrywise sum
  are pointwise, so they commute with taking row blocks trivially.

  Also here: four matrices of 64 columns joined along the columns, read at an index — column k of the result is column
  k mod 64 of piece k / 64 —, and two spellings of a vector as a one-row matrix.
-/
import Idealize.ShloMosaic.Lib.ValueIdx
import Idealize.ShloMosaic.Lib.ValueLayout
import Idealize.ShloMosaic.Lib.Pipeline.Value
import Idealize.ShloMosaic.PureOps.Ideal.Laws
import proofs.«113410_j5944234737805_1_alg».proof.Proof.LibPlainProduct

noncomputable section

namespace DenseSpec

open Idealize.ShloMosaic Idealize.ShloMosaic.ValueIdx

/-- An a-by-b matrix of extended reals. -/
abbrev Mat (a b : Nat) := (⟨2, ![a, b]⟩ : Shape).Idx → EReal

variable {R K P : Nat}

/-- Entry (r, c) of `a · w + b`, the bias a one-row matrix. -/
def dense (a : Mat R K) (w : Mat K P) (b : Mat 1 P) : Mat R P := fun i =>
  (∑ k : Fin K, a (ix2 (i 0) k) * w (ix2 k (i 1))) + b (ix2 (0 : Fin 1) (i 1))

theorem dense_apply (a : Mat R K) (w : Mat K P) (b : Mat 1 P) (r : Fin R) (c : Fin P) :
    dense a w b (ix2 r c) = (∑ k : Fin K, a (ix2 r k) * w (ix2 k c)) + b (ix2 (0 : Fin 1) c) := rfl

/-- The rectifier: the maximum with the value of the f32 zero word. -/
def relu (z : Mat R P) : Mat R P := fun i => max (z i) (Ideal.ofBits .f32 0x00000000#32)

/-- The entrywise sum. -/
def add (x y : Mat R P) : Mat R P := fun i => x i + y i

variable {R' : Nat}

/-- A row of `a · w + b` is a function of the same row of `a`. -/
theorem dense_rows (a : Mat R K) (a' : Mat R' K) (w : Mat K P) (b : Mat 1 P) (r : Fin R) (r' : Fin R')
    (h : ∀ k : Fin K, a' (ix2 r' k) = a (ix2 r k)) (c : Fin P) : dense a' w b (ix2 r' c) = dense a w b (ix2 r c) := by
  rw [dense_apply, dense_apply]
  exact congrArg (· + b (ix2 (0 : Fin 1) c)) (Finset.sum_congr rfl fun k _ => by rw [h k])

/-! ## The kernel's spelling and the host's -/

variable (wf : DotDims.WF (⟨2, ![R, K]⟩ : Shape) ⟨2, ![K, P]⟩ ⟨2, ![R, P]⟩ [1] [0] [0] [1] [] [])

/-- The matrix unit's product into a splat of zeros, plus the bias row broadcast over the rows, is the dense layer. -/
theorem matmul_bias {φ₁ φ₂ : FTy} (prec : Option ContractPrecision) (a : FVec Ideal ⟨2, ![R, K]⟩ φ₁) (w : FVec Ideal ⟨2, ![K, P]⟩ φ₂)
    (b : FVec Ideal ⟨2, ![1, P]⟩ .f32) (hb : (⟨2, ![1, P]⟩ : Shape).Broadcasts ⟨2, ![R, P]⟩) :
    addf (matmul (PlainProduct.plainDims R K P wf) prec a w (constant ⟨2, ![R, P]⟩ .f32 0x00000000#32)) (broadcastTo ⟨2, ![R, P]⟩ b hb)
      = dense a w b := by
  funext i
  obtain ⟨r, c, rfl⟩ : ∃ (r : Fin R) (c : Fin P), i = ix2 r c := ⟨i 0, i 1, eq_ix2 i⟩
  rw [addf_apply, PlainProduct.matmul_zero_apply wf prec a w r c, broadcastTo_1b_ab_apply b hb r c, dense_apply]

/-- The host's `dot_general`, plus the bias row broadcast in dimensions (0, 1), is the dense layer. -/
theorem dotGeneral_bias {φ₁ φ₂ : FTy} (prec : Option ContractPrecision) (a : FVec Ideal ⟨2, ![R, K]⟩ φ₁) (w : FVec Ideal ⟨2, ![K, P]⟩ φ₂)
    (b : FVec Ideal ⟨2, ![1, P]⟩ .f32) (hb : (⟨2, ![1, P]⟩ : Shape).BroadcastsInDim ⟨2, ![R, P]⟩ ![0, 1]) :
    addf (Host.dotGeneral (PlainProduct.plainDims R K P wf) prec a w) (broadcastInDim ⟨2, ![R, P]⟩ ![0, 1] hb b)
      = dense a w b := by
  funext i
  obtain ⟨r, c, rfl⟩ : ∃ (r : Fin R) (c : Fin P), i = ix2 r c := ⟨i 0, i 1, eq_ix2 i⟩
  rw [addf_apply, PlainProduct.dotGeneral_apply wf prec a w r c, dense_apply]
  refine congrArg (_ + ·) ?_
  refine broadcastInDim_apply _ hb b (ix2 r c) (ix2 (0 : Fin 1) c) fun ax => ?_
  match ax with
  | ⟨0, _⟩ => rfl
  | ⟨1, _⟩ =>
    show c.val = if P = 1 then 0 else c.val
    split
    · have := c.isLt; omega
    · rfl

/-! ## A vector as a one-row matrix, two ways -/

/-- A vector of P entries cast to a 1-by-P matrix reads, at (0, c), the vector at c. -/
theorem shapeCast_row_apply (x : (⟨1, ![P]⟩ : Shape).Idx → EReal) (h : (⟨1, ![P]⟩ : Shape).ShapeCasts ⟨2, ![1, P]⟩) (u : Fin 1) (c : Fin P) :
    shapeCast ⟨2, ![1, P]⟩ x h (ix2 u c) = x (ix1 c) :=
  shapeCast_apply x h _ _ (by
    have hu : u.val = 0 := by omega
    rw [Shape.rowMajor_val_two, Shape.rowMajor_val_one]
    show c.val = u.val * P + c.val
    rw [hu, Nat.zero_mul, Nat.zero_add])

/-- The same vector broadcast in dimension 1 to a 1-by-P matrix is the cast. -/
theorem broadcastInDim_row_eq_shapeCast (x : (⟨1, ![P]⟩ : Shape).Idx → EReal) (h : (⟨1, ![P]⟩ : Shape).ShapeCasts ⟨2, ![1, P]⟩)
    (hb : (⟨1, ![P]⟩ : Shape).BroadcastsInDim ⟨2, ![1, P]⟩ ![1]) :
    broadcastInDim ⟨2, ![1, P]⟩ ![1] hb x = shapeCast ⟨2, ![1, P]⟩ x h := by
  funext i
  obtain ⟨u, c, rfl⟩ : ∃ (u : Fin 1) (c : Fin P), i = ix2 u c := ⟨i 0, i 1, eq_ix2 i⟩
  rw [shapeCast_row_apply x h u c]
  refine broadcastInDim_apply _ hb x (ix2 u c) (ix1 c) fun ax => ?_
  match ax with
  | ⟨0, _⟩ =>
    show c.val = if P = 1 then 0 else c.val
    split
    · have := c.isLt; omega
    · rfl

end DenseSpec

end
-- ==== Proof.LibMoments.lean ====
/-
  Pure mathematics on the extended reals \`[-∞, +∞]\`, for a batch normalisation over many rows whose mean and
  variance are computed in two ways.

  * A finite sum of (coercions of) reals is the coercion of the real sum (\`coe_finset_sum\`).
  * \`IsReal x\`: the extended real \`x\` is (the coercion of) a real. The reals are closed under \`0\`, \`1\`, \`+\`, \`-\`,
    \`*\`, negation, \`max\`, \`min\`, finite sums, the reciprocal square root of a positive real, and division by a
    nonzero real; so an accumulating scatter of reals into reals is real at every index, and a gather of an
    array that satisfies a predicate everywhere satisfies it everywhere.
  * A sum over \`a * b\` rows is the sum over \`a\` tiles of the sums over the \`b\` rows of each tile
    (\`sum_fin_mul\`; at \`250 × 2000 = 500000\`, \`sum_fin_500000\`).
  * The mean of the squared deviations from the mean is the mean of the squares minus the square of the mean:
    over the reals (\`variance_real\`), and, for real-valued data, on the extended reals with the quotient
    \`Ideal.div\` by the real count (\`variance_ereal\`).
-/
import Idealize.ShloMosaic.PureOps.Ideal
import Idealize.ShloMosaic.PureOps.Ideal.Laws
import Mathlib.Data.EReal.Inv
import Mathlib.Data.Fintype.BigOperators
import Mathlib.Logic.Equiv.Fin.Basic
import Mathlib.Tactic

noncomputable section

open Idealize.ShloMosaic

namespace Cert.LibMoments

open scoped BigOperators

/-! ## Sums of reals stay real -/

/-- A finite sum of coercions of reals into the extended reals is the coercion of the real sum:
    \`∑ i ∈ s, (f i : EReal) = ((∑ i ∈ s, f i : ℝ) : EReal)\`. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The same over a whole finite type: \`∑ i, (f i : EReal) = ((∑ i, f i : ℝ) : EReal)\`. -/
theorem coe_fintype_sum {ι : Type*} [Fintype ι] (f : ι → ℝ) :
    (∑ i, ((f i : ℝ) : EReal)) = ((∑ i, f i : ℝ) : EReal) :=
  coe_finset_sum Finset.univ f

/-! ## The predicate "is a real" -/

/-- An extended real is REAL when it is the coercion of a real number (it is neither \`⊤\` nor \`⊥\`). -/
def IsReal (x : EReal) : Prop := ∃ r : ℝ, x = (r : EReal)

namespace IsReal

/-- The coercion of a real is real. -/
theorem coe (r : ℝ) : IsReal (r : EReal) := ⟨r, rfl⟩

/-- \`0\` is real. -/
theorem zero : IsReal (0 : EReal) := ⟨0, rfl⟩

/-- \`1\` is real. -/
theorem one : IsReal (1 : EReal) := ⟨1, rfl⟩

/-- A real is neither infinity. -/
theorem ne_top {x : EReal} (hx : IsReal x) : x ≠ ⊤ := by
  obtain ⟨a, rfl⟩ := hx; exact EReal.coe_ne_top a

/-- A real is neither infinity. -/
theorem ne_bot {x : EReal} (hx : IsReal x) : x ≠ ⊥ := by
  obtain ⟨a, rfl⟩ := hx; exact EReal.coe_ne_bot a

/-- An extended real that is neither infinity is real. -/
theorem of_ne {x : EReal} (ht : x ≠ ⊤) (hb : x ≠ ⊥) : IsReal x :=
  ⟨x.toReal, (EReal.coe_toReal ht hb).symm⟩

/-- The sum of two reals is real. -/
theorem add {x y : EReal} (hx : IsReal x) (hy : IsReal y) : IsReal (x + y) := by
  obtain ⟨a, rfl⟩ := hx; obtain ⟨b, rfl⟩ := hy
  exact ⟨a + b, (EReal.coe_add a b).symm⟩

/-- The difference of two reals is real. -/
theorem sub {x y : EReal} (hx : IsReal x) (hy : IsReal y) : IsReal (x - y) := by
  obtain ⟨a, rfl⟩ := hx; obtain ⟨b, rfl⟩ := hy
  exact ⟨a - b, (EReal.coe_sub a b).symm⟩

/-- The product of two reals is real. -/
theorem mul {x y : EReal} (hx : IsReal x) (hy : IsReal y) : IsReal (x * y) := by
  obtain ⟨a, rfl⟩ := hx; obtain ⟨b, rfl⟩ := hy
  exact ⟨a * b, (EReal.coe_mul a b).symm⟩

/-- The negation of a real is real. -/
theorem neg {x : EReal} (hx : IsReal x) : IsReal (-x) := by
  obtain ⟨a, rfl⟩ := hx
  exact ⟨-a, (EReal.coe_neg a).symm⟩

/-- The maximum of two reals is real. -/
theorem max {x y : EReal} (hx : IsReal x) (hy : IsReal y) : IsReal (max x y) := by
  rcases le_total x y with h | h
  · rw [max_eq_right h]; exact hy
  · rw [max_eq_left h]; exact hx

/-- The minimum of two reals is real. -/
theorem min {x y : EReal} (hx : IsReal x) (hy : IsReal y) : IsReal (min x y) := by
  rcases le_total x y with h | h
  · rw [min_eq_left h]; exact hx
  · rw [min_eq_right h]; exact hy

/-- A finite sum of reals is real. -/
theorem sum {ι : Type*} (s : Finset ι) (f : ι → EReal) (h : ∀ i ∈ s, IsReal (f i)) :
    IsReal (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))

/-- A sum of reals over a whole finite type is real. -/
theorem fintype_sum {ι : Type*} [Fintype ι] (f : ι → EReal) (h : ∀ i, IsReal (f i)) : IsReal (∑ i, f i) :=
  sum Finset.univ f fun i _ => h i

end IsReal

/-! ## The reciprocal square root and the quotient by a real constant -/

/-- The reciprocal square root of a positive real \`r\` is the real \`(√r)⁻¹\`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- The quotient of a real \`a\` by a nonzero real \`c\` is the real \`a / c\`. -/
theorem div_coe_coe (a : ℝ) {c : ℝ} (hc : c ≠ 0) : Ideal.div (a : EReal) (c : EReal) = ((a / c : ℝ) : EReal) := by
  rw [Ideal.div_coe hc, ← EReal.coe_mul, mul_one_div]

namespace IsReal

/-- The reciprocal square root of a positive real is real. -/
theorem rsqrt_of_pos {x : EReal} (hx : IsReal x) (h : 0 < x) : IsReal (Ideal.rsqrt x) := by
  obtain ⟨r, rfl⟩ := hx
  rw [rsqrt_coe_of_pos (EReal.coe_pos.mp h)]
  exact coe _

/-- The reciprocal square root of a real that is at least \`1\` is real. -/
theorem rsqrt {x : EReal} (hx : IsReal x) (h : (1 : EReal) ≤ x) : IsReal (Ideal.rsqrt x) :=
  hx.rsqrt_of_pos (lt_of_lt_of_le zero_lt_one h)

/-- The quotient of a real by a nonzero real constant is real. -/
theorem div_const {x : EReal} (hx : IsReal x) {c : ℝ} (hc : c ≠ 0) : IsReal (Ideal.div x (c : EReal)) := by
  obtain ⟨a, rfl⟩ := hx
  rw [div_coe_coe a hc]
  exact coe _

/-- An accumulating scatter — each operand element plus the sum of the update elements that land on it — of real
    updates into a real operand is real at every index. -/
theorem hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (sum _ _ fun j _ => hu j)

end IsReal

/-- A gather reads the operand at some index, so whatever holds of the operand at every index holds of the
    gathered array at every index. -/
theorem gather_of_forall {s si t : Shape} {α : Type} {w : Nat} (d : GatherDims s si t) (x : s.Idx → α) (idx : IVec si w)
    (P : α → Prop) (h : ∀ i, P (x i)) (j : t.Idx) : P (Host.gather d x idx j) :=
  h _

/-- In particular a gather of an array of reals is an array of reals. -/
theorem IsReal.gather {s si t : Shape} {w : Nat} (d : GatherDims s si t) (x : s.Idx → EReal) (idx : IVec si w)
    (h : ∀ i, IsReal (x i)) (j : t.Idx) : IsReal (Host.gather d x idx j) :=
  gather_of_forall d x idx IsReal h j

/-! ## Regrouping a sum over \`a * b\` rows into \`a\` tiles of \`b\` rows -/

/-- Row \`r\` of tile \`t\`, among \`a\` tiles of \`b\` rows, is a row below \`a * b\`. -/
theorem tile_row_lt {a b : ℕ} (t : Fin a) (r : Fin b) : b * t.val + r.val < a * b := by
  have ht := t.isLt
  have hr := r.isLt
  calc b * t.val + r.val < b * t.val + b := by omega
    _ = b * (t.val + 1) := by ring
    _ ≤ b * a := Nat.mul_le_mul_left _ ht
    _ = a * b := Nat.mul_comm _ _

/-- A sum over \`a * b\` rows is the sum over the \`a\` tiles of the sum over the \`b\` rows of each tile, row \`r\` of tile \`t\`
    being row \`b * t + r\`. -/
theorem sum_fin_mul {M : Type*} [AddCommMonoid M] (a b : ℕ) (f : Fin (a * b) → M) :
    ∑ n : Fin (a * b), f n = ∑ t : Fin a, ∑ r : Fin b, f ⟨b * t.val + r.val, tile_row_lt t r⟩ := by
  rw [← Fintype.sum_equiv finProdFinEquiv (fun p : Fin a × Fin b => f (finProdFinEquiv p)) f (fun _ => rfl),
    Fintype.sum_prod_type]
  refine Finset.sum_congr rfl fun t _ => Finset.sum_congr rfl fun r _ => ?_
  congr 1
  apply Fin.ext
  simp only [finProdFinEquiv_apply_val]
  exact Nat.add_comm _ _

/-- The case of \`500000 = 250 × 2000\` rows: the sum over all rows is the sum over 250 tiles of the sums over the 2000
    rows of each tile. -/
theorem sum_fin_500000 {M : Type*} [AddCommMonoid M] (f : Fin 500000 → M) :
    ∑ n : Fin 500000, f n = ∑ t : Fin 250, ∑ r : Fin 2000, f ⟨2000 * t.val + r.val, by omega⟩ :=
  sum_fin_mul 250 2000 f

/-! ## The two variance formulas -/

/-- Over the reals, with \`N\` the number of data points and \`μ = (∑ x) / N\` their mean, the mean of the squared
    deviations from the mean is the mean of the squares minus the square of the mean:
    \`(∑ (x - μ)²) / N = (∑ x²) / N - μ · μ\`. -/
theorem variance_real {ι : Type*} [Fintype ι] (x : ι → ℝ) (N : ℝ) (hN : N = (Fintype.card ι : ℝ)) (hN0 : N ≠ 0) :
    (∑ i, (x i - (∑ i, x i) / N) ^ 2) / N
      = (∑ i, (x i) ^ 2) / N - ((∑ i, x i) / N) * ((∑ i, x i) / N) := by
  set S : ℝ := ∑ i, x i with hS
  set Q : ℝ := ∑ i, (x i) ^ 2 with hQ
  have h1 : ∑ i, (x i - S / N) ^ 2 = Q - 2 * (S / N) * S + N * (S / N) ^ 2 := by
    have h2 : ∀ i, (x i - S / N) ^ 2 = (x i) ^ 2 - 2 * (S / N) * x i + (S / N) ^ 2 := fun i => by ring
    simp only [h2, Finset.sum_add_distrib, Finset.sum_sub_distrib, ← Finset.mul_sum, Finset.sum_const,
      Finset.card_univ, nsmul_eq_mul, ← hN, ← hS, ← hQ]
  rw [h1]
  field_simp
  ring

/-- The same with the squares written as products, the shape the extended-real statement below reduces to. -/
theorem variance_real_mul {ι : Type*} [Fintype ι] (x : ι → ℝ) (N : ℝ) (hN : N = (Fintype.card ι : ℝ)) (hN0 : N ≠ 0) :
    (∑ i, (x i - (∑ i, x i) / N) * (x i - (∑ i, x i) / N)) / N
      = (∑ i, x i * x i) / N - ((∑ i, x i) / N) * ((∑ i, x i) / N) := by
  have h := variance_real x N hN hN0
  simp only [pow_two] at h
  exact h

/-- On the extended reals, for data \`h\` that are all real and \`N\` their (nonzero) number, with the mean
    \`μ = (0 + ∑ h) / N\` taken by the quotient \`Ideal.div\`: the mean of the squared deviations is the mean of the squares
    minus the square of the mean, \`(0 + ∑ (h - μ) · (h - μ)) / N = (0 + ∑ h · h) / N - μ · μ\`. (The leading \`0 +\` is the
    initial value of the sums.) -/
theorem variance_ereal {ι : Type*} [Fintype ι] (h : ι → EReal) (hh : ∀ i, IsReal (h i)) (N : ℝ)
    (hN : N = (Fintype.card ι : ℝ)) (hN0 : N ≠ 0) :
    Ideal.div (0 + ∑ i, (h i - Ideal.div (0 + ∑ i, h i) (N : EReal)) * (h i - Ideal.div (0 + ∑ i, h i) (N : EReal))) (N : EReal)
      = Ideal.div (0 + ∑ i, h i * h i) (N : EReal)
        - Ideal.div (0 + ∑ i, h i) (N : EReal) * Ideal.div (0 + ∑ i, h i) (N : EReal) := by
  choose x hx using hh
  obtain rfl : h = fun i => ((x i : ℝ) : EReal) := funext hx
  simp only [zero_add]
  rw [coe_fintype_sum, div_coe_coe _ hN0]
  simp only [← EReal.coe_sub, ← EReal.coe_mul]
  rw [coe_fintype_sum, coe_fintype_sum, div_coe_coe _ hN0, div_coe_coe _ hN0, ← EReal.coe_sub]
  exact congrArg _ (variance_real_mul x N hN hN0)

/-- The same for data indexed by \`Fin n\`, \`n ≠ 0\`, the count being the real \`n\`. -/
theorem variance_ereal_fin {n : ℕ} (hn : n ≠ 0) (h : Fin n → EReal) (hh : ∀ i, IsReal (h i)) :
    Ideal.div (0 + ∑ i, (h i - Ideal.div (0 + ∑ i, h i) ((n : ℝ) : EReal))
        * (h i - Ideal.div (0 + ∑ i, h i) ((n : ℝ) : EReal))) ((n : ℝ) : EReal)
      = Ideal.div (0 + ∑ i, h i * h i) ((n : ℝ) : EReal)
        - Ideal.div (0 + ∑ i, h i) ((n : ℝ) : EReal) * Ideal.div (0 + ∑ i, h i) ((n : ℝ) : EReal) :=
  variance_ereal h hh (n : ℝ) (by rw [Fintype.card_fin]) (Nat.cast_ne_zero.mpr hn)

/-- The case of \`500000\` data points, the count being the real \`500000\`. -/
theorem variance_ereal_500000 (h : Fin 500000 → EReal) (hh : ∀ i, IsReal (h i)) :
    Ideal.div (0 + ∑ i, (h i - Ideal.div (0 + ∑ i, h i) ((500000 : ℝ) : EReal))
        * (h i - Ideal.div (0 + ∑ i, h i) ((500000 : ℝ) : EReal))) ((500000 : ℝ) : EReal)
      = Ideal.div (0 + ∑ i, h i * h i) ((500000 : ℝ) : EReal)
        - Ideal.div (0 + ∑ i, h i) ((500000 : ℝ) : EReal) * Ideal.div (0 + ∑ i, h i) ((500000 : ℝ) : EReal) :=
  variance_ereal h hh (500000 : ℝ) (by rw [Fintype.card_fin]; norm_num) (by norm_num)

end Cert.LibMoments
-- ==== Proof.LibBatchNorm.lean ====
/-
  Batch normalisation over the rows of a matrix, on the extended reals.

  For a matrix `x` of N rows and D columns and a real count `n`, column c has the mean `(Σ_r x(r,c)) / n` and two
  spellings of the variance: the mean of the squared deviations from the mean (`varCentred`), and the mean of the squares
  minus the square of the mean (`varMoment`). For a matrix of reals and `n = N ≠ 0` they are the same number
  (`var_eq`), a nonnegative real (`varCentred_nonneg`), so adding a positive epsilon and taking the reciprocal square root
  stays real. The normalise-scale-shift-rectify step `max (g · (x − μ) · rsqrt(v + ε) + b) z` is pointwise in the row, so
  it commutes with taking blocks of rows, and keeps reals real.

  Sums over the rows can be taken tile by tile: a column sum over `T · B` rows is the sum over the T tiles of the column
  sums of each tile of B rows (`colSum_tiles`), and a running accumulation `a₀ = z + g 0`, `a_{t+1} = a_t + g (t+1)` ends at
  `z + Σ_t g t` (`chain_eq`).
-/
import Idealize.ShloMosaic.Lib.ValueIdx
import Idealize.ShloMosaic.PureOps.Ideal.Laws
import proofs.«113410_j5944234737805_1_alg».proof.Proof.LibMoments

noncomputable section

namespace BatchNormSpec

open Idealize.ShloMosaic Idealize.ShloMosaic.ValueIdx Cert.LibMoments
open scoped BigOperators

/-- An a-by-b matrix of extended reals. -/
abbrev Mat (a b : Nat) := (⟨2, ![a, b]⟩ : Shape).Idx → EReal

variable {N D : Nat}

/-- The sum of column c. -/
def colSum (x : Mat N D) (c : Fin D) : EReal := ∑ r : Fin N, x (ix2 r c)

/-- The sum of the squares of column c. -/
def colSumSq (x : Mat N D) (c : Fin D) : EReal := ∑ r : Fin N, x (ix2 r c) * x (ix2 r c)

/-- The mean of column c, the count a real `n`. -/
def mean (n : ℝ) (x : Mat N D) (c : Fin D) : EReal := Ideal.div (colSum x c) (n : EReal)

/-- The variance of column c as the mean of the squared deviations from the mean. -/
def varCentred (n : ℝ) (x : Mat N D) (c : Fin D) : EReal :=
  Ideal.div (∑ r : Fin N, (x (ix2 r c) - mean n x c) * (x (ix2 r c) - mean n x c)) (n : EReal)

/-- The variance of column c as the mean of the squares minus the square of the mean. -/
def varMoment (n : ℝ) (x : Mat N D) (c : Fin D) : EReal :=
  Ideal.div (colSumSq x c) (n : EReal) - mean n x c * mean n x c

/-- For a matrix of reals with `N ≠ 0` rows, counted by the real `N`, the two variances agree. -/
theorem var_eq (hN : N ≠ 0) (x : Mat N D) (hx : ∀ i, IsReal (x i)) (c : Fin D) :
    varCentred (N : ℝ) x c = varMoment (N : ℝ) x c := by
  have h := variance_ereal_fin hN (fun r : Fin N => x (ix2 r c)) (fun r => hx _)
  simp only [zero_add] at h
  exact h

/-- The mean of a column of reals by a nonzero count is real. -/
theorem mean_isReal {n : ℝ} (hn : n ≠ 0) (x : Mat N D) (hx : ∀ i, IsReal (x i)) (c : Fin D) : IsReal (mean n x c) :=
  (IsReal.fintype_sum _ fun r => hx _).div_const hn

/-- The centred variance of a column of reals by a positive count is a nonnegative real. -/
theorem varCentred_nonneg {n : ℝ} (hn : 0 < n) (x : Mat N D) (hx : ∀ i, IsReal (x i)) (c : Fin D) :
    ∃ v : ℝ, 0 ≤ v ∧ varCentred n x c = (v : EReal) := by
  obtain ⟨μ, hμ⟩ := mean_isReal hn.ne' x hx c
  choose y hy using fun r : Fin N => hx (ix2 r c)
  refine ⟨(∑ r : Fin N, (y r - μ) * (y r - μ)) / n, div_nonneg (Finset.sum_nonneg fun r _ => mul_self_nonneg _) hn.le, ?_⟩
  unfold varCentred
  rw [hμ]
  simp only [hy, ← EReal.coe_sub, ← EReal.coe_mul]
  rw [coe_fintype_sum, div_coe_coe _ hn.ne']

/-- The normalise-scale-shift-rectify step, entry by entry: `max (g · (x − μ) · rsqrt(v + ε) + b) z`. -/
def normRelu (e z : EReal) (x : Mat N D) (μ v g b : Fin D → EReal) : Mat N D := fun i =>
  max (g (i 1) * (x i - μ (i 1)) * Ideal.rsqrt (v (i 1) + e) + b (i 1)) z

theorem normRelu_apply (e z : EReal) (x : Mat N D) (μ v g b : Fin D → EReal) (r : Fin N) (c : Fin D) :
    normRelu e z x μ v g b (ix2 r c) = max (g c * (x (ix2 r c) - μ c) * Ideal.rsqrt (v c + e) + b c) z := rfl

/-- With real data, real statistics, a nonnegative variance and a positive epsilon, the step's result is real. -/
theorem normRelu_isReal {e z : EReal} (he : ∃ r : ℝ, 0 < r ∧ e = (r : EReal)) (hz : IsReal z) (x : Mat N D)
    (μ v g b : Fin D → EReal) (hx : ∀ i, IsReal (x i)) (hμ : ∀ c, IsReal (μ c))
    (hv : ∀ c, ∃ w : ℝ, 0 ≤ w ∧ v c = (w : EReal)) (hg : ∀ c, IsReal (g c)) (hb : ∀ c, IsReal (b c)) (i) :
    IsReal (normRelu e z x μ v g b i) := by
  obtain ⟨ε, hε, rfl⟩ := he
  obtain ⟨w, hw, hvw⟩ := hv (i 1)
  unfold normRelu
  refine IsReal.max (IsReal.add (IsReal.mul (IsReal.mul (hg _) ((hx _).sub (hμ _))) ?_) (hb _)) hz
  rw [hvw, ← EReal.coe_add]
  exact (IsReal.coe _).rsqrt_of_pos (EReal.coe_pos.mpr (by linarith))

/-! ## Sums taken tile by tile -/

/-- Row `q` of tile `t`, among `T` tiles of `B` rows. -/
abbrev tileRow {T B : Nat} (t : Fin T) (q : Fin B) : Fin (T * B) := ⟨B * t.val + q.val, tile_row_lt t q⟩

/-- A column sum over `T · B` rows is the sum over the tiles of the column sums of the tiles. -/
theorem colSum_tiles {T B : Nat} (x : Mat (T * B) D) (c : Fin D) :
    colSum x c = ∑ t : Fin T, ∑ q : Fin B, x (ix2 (tileRow t q) c) :=
  sum_fin_mul T B fun r => x (ix2 r c)

/-- The same for the squares. -/
theorem colSumSq_tiles {T B : Nat} (x : Mat (T * B) D) (c : Fin D) :
    colSumSq x c = ∑ t : Fin T, ∑ q : Fin B, x (ix2 (tileRow t q) c) * x (ix2 (tileRow t q) c) :=
  sum_fin_mul T B fun r => x (ix2 r c) * x (ix2 r c)

/-- A running accumulation from `z`: `z + g 0`, then `+ g (t+1)`. -/
def chain (z : EReal) (g : ℕ → EReal) : ℕ → EReal
  | 0 => z + g 0
  | t + 1 => chain z g t + g (t + 1)

/-- It ends at `z` plus the sum of the terms so far. -/
theorem chain_eq (z : EReal) (g : ℕ → EReal) (t : ℕ) : chain z g t = z + ∑ s ∈ Finset.range (t + 1), g s := by
  induction t with
  | zero => simp [chain]
  | succ t ih => rw [chain, ih, Finset.sum_range_succ _ (t + 1), add_assoc]

/-- Over `T` tiles, `T ≠ 0`: the accumulation after the last tile is `z` plus the sum over all tiles. -/
theorem chain_last {T : Nat} (hT : T ≠ 0) (z : EReal) (g : ℕ → EReal) :
    chain z g (T - 1) = z + ∑ t : Fin T, g t.val := by
  rw [chain_eq, Nat.sub_add_cancel (Nat.pos_of_ne_zero hT), Finset.sum_range]

end BatchNormSpec

end
-- ==== Proof.KPay0.lean ====
/-
  The arithmetic of the first kernel of a layer, at the exact values. From a tile `x` of 10000 rows, the weights `w` and
  the bias row `b` it stores the dense layer `x · w + b` of the tile, and adds to two running rows the column sums of that
  result and the column sums of its squares.
-/
import proofs.«113410_j5944234737805_1_alg».proof.Proof.Gen.KernelIdeal.Skeleton
import proofs.«113410_j5944234737805_1_alg».proof.Proof.LibDense
import proofs.«113410_j5944234737805_1_alg».proof.Proof.LibBatchNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Cert.KernelIdeal Cert.KernelIdeal.Gen Idealize.ShloMosaic Idealize.ShloMosaic.TcCoe Idealize.ShloMosaic.ValueIdx

/-- The dense layer of a tile. -/
theorem pay3_eq (x : Vec Ideal S10000x128 .f32) (w : Vec Ideal S128x128 .f32) (b : Vec Ideal S1x128 .f32) :
    k0_pay3 (F := Ideal) x w b = DenseSpec.dense x w b := by
  unfold k0_pay3
  dsimp only
  rw [shapeCast_self, shapeCast_self, shapeCast_self]
  exact DenseSpec.matmul_bias dot_S10000x128_S128x128_S10000x128_1_0_0_1_n_n_wf none
    (truncf .bf16 x bitsLt_bf16_f32) (truncf .bf16 w bitsLt_bf16_f32) b broadcasts_S1x128_S10000x128

/-- The column sums of a tile, added to the running row. -/
theorem pay4_apply (x : Vec Ideal S10000x128 .f32) (w : Vec Ideal S128x128 .f32) (b acc : Vec Ideal S1x128 .f32) (c : Fin 128) :
    k0_pay4 (F := Ideal) x w b acc (ix2 (0 : Fin 1) c)
      = acc (ix2 (0 : Fin 1) c) + ∑ q : Fin 10000, DenseSpec.dense x w b (ix2 q c) := by
  unfold k0_pay4
  dsimp only
  rw [addf_apply, shapeCast_self]
  refine congrArg (acc (ix2 (0 : Fin 1) c) + ·) ?_
  refine (DenseSpec.shapeCast_row_apply _ shapeCasts_S128_S1x128 (0 : Fin 1) c).trans ?_
  refine (Ideal.multiReduction_add_single (k0_pay3 (F := Ideal) x w b) 0x00000000#32 reduces_S10000x128_S128 (.inl rfl) rfl (ix1 c)).trans ?_
  rw [pay3_eq]
  exact Finset.sum_congr rfl fun q _ => congrArg _ (funext fun a => Fin.ext (by
    match a with
    | ⟨0, _⟩ => rfl
    | ⟨1, _⟩ => rfl))

/-- The column sums of the squares of a tile, added to the running row. -/
theorem pay5_apply (x : Vec Ideal S10000x128 .f32) (w : Vec Ideal S128x128 .f32) (b acc : Vec Ideal S1x128 .f32) (c : Fin 128) :
    k0_pay5 (F := Ideal) x w b acc (ix2 (0 : Fin 1) c)
      = acc (ix2 (0 : Fin 1) c) + ∑ q : Fin 10000, DenseSpec.dense x w b (ix2 q c) * DenseSpec.dense x w b (ix2 q c) := by
  unfold k0_pay5
  dsimp only
  rw [addf_apply, shapeCast_self]
  refine congrArg (acc (ix2 (0 : Fin 1) c) + ·) ?_
  refine (DenseSpec.shapeCast_row_apply _ shapeCasts_S128_S1x128 (0 : Fin 1) c).trans ?_
  refine (Ideal.multiReduction_add_single (mulf (k0_pay3 (F := Ideal) x w b) (k0_pay3 (F := Ideal) x w b)) 0x00000000#32
    reduces_S10000x128_S128 (.inl rfl) rfl (ix1 c)).trans ?_
  rw [pay3_eq]
  exact Finset.sum_congr rfl fun q _ => by
    rw [mulf_apply]
    have e : (reduces_S10000x128_S128.lift (ix1 c) q : S10000x128.Idx) = ix2 q c := funext fun a => Fin.ext (by
      match a with
      | ⟨0, _⟩ => rfl
      | ⟨1, _⟩ => rfl)
    rw [e]
    rfl

/-- The row the first grid point starts the accumulation from is the zero row. -/
theorem pay1_apply (i : S1x128.Idx) : k0_pay1 (F := Ideal) i = 0 := by
  show Ideal.ofBits .f32 0x00000000#32 = 0
  exact Ideal.ofBits_zero_f32
theorem pay2_apply (i : S1x128.Idx) : k0_pay2 (F := Ideal) i = 0 := by
  show Ideal.ofBits .f32 0x00000000#32 = 0
  exact Ideal.ofBits_zero_f32

end Cert.KernelIdeal.KPay

end
-- ==== Proof.GinTiles.lean ====
/-
  Five tiles of 10000 rows make the 50000 rows. Row `q` of tile `t` is row `10000 · t + q`. A running row that starts at
  `0 +` the column sums of tile 0 and then adds the column sums of tiles 1, 2, 3, 4 ends at the column sums of all rows;
  the same for the squares.
-/
import proofs.«113410_j5944234737805_1_alg».proof.Proof.LibBatchNorm

noncomputable section

namespace GinTiles

open Idealize.ShloMosaic Idealize.ShloMosaic.ValueIdx Cert.LibMoments BatchNormSpec
open scoped BigOperators

/-- Row `q` of tile `t`. -/
abbrev rowOf (t : Fin 5) (q : Fin 10000) : Fin 50000 := ⟨10000 * t.val + q.val, by have := t.isLt; have := q.isLt; omega⟩

/-- The sum over all 50000 rows, tile by tile. -/
theorem sum_rows {M : Type*} [AddCommMonoid M] (f : Fin 50000 → M) :
    ∑ r : Fin 50000, f r = ∑ t : Fin 5, ∑ q : Fin 10000, f (rowOf t q) :=
  sum_fin_mul 5 10000 f

/-- The column sums of tile `t` of `X`, as a function of the tile's number (zero past the last tile). -/
def tileSum (f : Fin 50000 → EReal) (t : ℕ) : EReal :=
  if h : t < 5 then ∑ q : Fin 10000, f (rowOf ⟨t, h⟩ q) else 0

/-- A running accumulation over the five tiles ends at the sum over all rows. -/
theorem acc_eq_sum (f : Fin 50000 → EReal) (A : ℕ → EReal)
    (h0 : A 0 = 0 + tileSum f 0) (hs : ∀ n, n + 1 < 5 → A (n + 1) = A n + tileSum f (n + 1)) :
    A 4 = ∑ r : Fin 50000, f r := by
  have hA : ∀ n, n < 5 → A n = chain 0 (tileSum f) n := by
    intro n
    induction n with
    | zero => intro _; exact h0
    | succ n ih => intro hn; rw [hs n hn, ih (by omega)]; rfl
  rw [hA 4 (by norm_num), show (4 : ℕ) = 5 - 1 from rfl, chain_last (by norm_num : (5 : ℕ) ≠ 0), zero_add, sum_rows]
  exact Finset.sum_congr rfl fun t _ => by
    unfold tileSum
    rw [dif_pos t.isLt]

/-- In particular for a column of a matrix … -/
theorem acc_eq_colSum (X : Mat 50000 128) (c : Fin 128) (A : ℕ → EReal)
    (h0 : A 0 = 0 + tileSum (fun r => X (ix2 r c)) 0)
    (hs : ∀ n, n + 1 < 5 → A (n + 1) = A n + tileSum (fun r => X (ix2 r c)) (n + 1)) : A 4 = colSum X c :=
  acc_eq_sum _ A h0 hs

/-- … and for the squares of a column. -/
theorem acc_eq_colSumSq (X : Mat 50000 128) (c : Fin 128) (A : ℕ → EReal)
    (h0 : A 0 = 0 + tileSum (fun r => X (ix2 r c) * X (ix2 r c)) 0)
    (hs : ∀ n, n + 1 < 5 → A (n + 1) = A n + tileSum (fun r => X (ix2 r c) * X (ix2 r c)) (n + 1)) : A 4 = colSumSq X c :=
  acc_eq_sum _ A h0 hs

end GinTiles

end
-- ==== Proof.R0Array.lean ====
/-
  The first kernel of layer 0: what its three output arrays hold when the region ends, at the exact values. The grid has
  five points; point t reads rows 10000·t … 10000·t + 9999 of the input (every column), the whole weight matrix and the
  whole bias row, and writes back the same rows of the output. So the output array is the dense layer of the whole input,
  row by row. The two running rows are written back once, after the last point.
-/
import proofs.«113410_j5944234737805_1_alg».proof.Proof.R0Value
import proofs.«113410_j5944234737805_1_alg».proof.Proof.KPay0
import proofs.«113410_j5944234737805_1_alg».proof.Proof.GinTiles
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

variable (V : (c : Dev nD) → (b : Ref sig .tc) → Buf (Elt Ideal) ((c : Thread nD τ).loc b))

/-- The block indices of the six windows at each grid point: the row windows move with the point, the others stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row q of the tile of point t. -/
abbrev rowK (t : Fin cfg0.N) (q : Fin 10000) : Fin 50000 :=
  ⟨10000 * t.val + q.val, by have := t.isLt; have hN : cfg0.N = 5 := N_0; have := q.isLt; omega⟩

/-- The input tile of point t, read through its window, is rows 10000·t + q of the input array. -/
theorem tile_apply (c : Dev nD) (t : Fin cfg0.N) (q : Fin 10000) (k : Fin 128) :
    iblk0 V c 0 t (ix2 q k) = V c main_v10 (ix2 (rowK t q) k) := by
  obtain ⟨e0, e1, -⟩ := idx_facts t
  unfold iblk0
  rw [View.read_apply]
  show V c main_v10 _ = V c main_v10 _
  congr 1
  funext a
  apply Fin.ext
  match a with
  | ⟨0, _⟩ => show win0_0.index t (0 : Fin 2) * 10000 + 1 * q.val = 10000 * t.val + q.val; rw [e0]; omega
  | ⟨1, _⟩ => show win0_0.index t (1 : Fin 2) * 128 + 1 * k.val = k.val; rw [e1]; omega

/-- The weights' block at every point is the whole weight matrix. -/
theorem w_blk (c : Dev nD) (t : Fin cfg0.N) : iblk0 V c 1 t = V c main_v36 := by
  obtain ⟨-, -, e2, e3, -⟩ := idx_facts t
  funext j
  unfold iblk0
  rw [View.read_apply]
  show V c main_v36 _ = V c main_v36 j
  congr 1
  funext a
  apply Fin.ext
  match a with
  | ⟨0, _⟩ => show win0_1.index t (0 : Fin 2) * 128 + 1 * (j 0).val = (j 0).val; rw [e2]; omega
  | ⟨1, _⟩ => show win0_1.index t (1 : Fin 2) * 128 + 1 * (j 1).val = (j 1).val; rw [e3]; omega

/-- The bias row's block at every point is the whole row. -/
theorem b_blk (c : Dev nD) (t : Fin cfg0.N) : iblk0 V c 2 t = V c main_v13 := by
  obtain ⟨-, -, -, -, e4, e5, -⟩ := idx_facts t
  funext j
  unfold iblk0
  rw [View.read_apply]
  show V c main_v13 _ = V c main_v13 j
  congr 1
  funext a
  apply Fin.ext
  match a with
  | ⟨0, _⟩ => show win0_2.index t (0 : Fin 2) * 1 + 1 * (j 0).val = (j 0).val; rw [e4]; omega
  | ⟨1, _⟩ => show win0_2.index t (1 : Fin 2) * 128 + 1 * (j 1).val = (j 1).val; rw [e5]; omega

/-- The dense layer of the whole input: what the first output array ends holding. -/
def X1 (c : Dev nD) : S50000x128.Idx → EReal := DenseSpec.dense (V c main_v10) (V c main_v36) (V c main_v13)

/-- What point t writes back is rows 10000·t … of the dense layer of the whole input. -/
theorem flushed3_eq (c : Dev nD) (t : Fin cfg0.N) :
    (dat0 V c).flushed 3 t = ((cfg0.win 3).blk t).view.read (Elt Ideal) (X1 V c) := by
  obtain ⟨-, -, -, -, -, -, e6, e7, -⟩ := idx_facts t
  show (cfg0.win 3).cut (grid0.coords t) ((dat0 V c).after 3 t) = _
  rw [after0_3, outsAt_eq V c t.val t.isLt]
  funext j
  obtain ⟨q, k, rfl⟩ : ∃ (q : Fin 10000) (k : Fin 128), j = ix2 q k := ⟨j 0, j 1, eq_ix2 j⟩
  show k0_pay3 (iblk0 V c 0 t) (iblk0 V c 1 t) (iblk0 V c 2 t) (ix2 q k) = X1 V c (((cfg0.win 3).blk t).view.emb (ix2 q k))
  rw [KPay.pay3_eq, w_blk, b_blk]
  have hemb : ((cfg0.win 3).blk t).view.emb (ix2 q k) = ix2 (rowK t q) k := by
    funext a
    apply Fin.ext
    match a with
    | ⟨0, _⟩ => show win0_3.index t (0 : Fin 2) * 10000 + 1 * q.val = 10000 * t.val + q.val; rw [e6]; omega
    | ⟨1, _⟩ => show win0_3.index t (1 : Fin 2) * 128 + 1 * k.val = k.val; rw [e7]; omega
  rw [hemb]
  exact DenseSpec.dense_rows (V c main_v10) (iblk0 V c 0 t) (V c main_v36) (V c main_v13) (rowK t q) q
    (fun k' => tile_apply V c t q k') k

/-- An index of the output array is in point t's block iff each coordinate is in the block's range. -/
theorem mem_blk3 (t : Fin cfg0.N) (i : S50000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v37_0).slice (win0_3.rect t)).set ↔ _
  rw [View.set_slice_whole, Rect.mem_set_unit]
  exact Iff.rfl

/-- The first output array when the region ends: the dense layer of the whole input. -/
theorem final3 (c : Dev nD) : (dat0 V c).arrAt 3 cfg0.N = X1 V c :=
  (dat0 V c).arrAt_eq_of_cover 3 (X1 V c) (fun t _ => flushed3_eq V c t) fun i => by
    have hi0 : (i 0).val < 50000 := (i 0).isLt
    have hi1 : (i 1).val < 128 := (i 1).isLt
    have hN : cfg0.N = 5 := N_0
    obtain ⟨-, -, -, -, -, -, e6, e7, -⟩ := idx_facts ⟨(i 0).val / 10000, by omega⟩
    refine ⟨⟨(i 0).val / 10000, by omega⟩, flush0_3 _, ?_⟩
    rw [mem_blk3]
    intro a
    match a with
    | ⟨0, _⟩ =>
      show win0_3.index ⟨(i 0).val / 10000, _⟩ (0 : Fin 2) * 10000 ≤ (i 0).val
        ∧ (i 0).val < win0_3.index ⟨(i 0).val / 10000, _⟩ (0 : Fin 2) * 10000 + 10000
      rw [e6]; dsimp only; omega
    | ⟨1, _⟩ =>
      show win0_3.index ⟨(i 0).val / 10000, _⟩ (1 : Fin 2) * 128 ≤ (i 1).val
        ∧ (i 1).val < win0_3.index ⟨(i 0).val / 10000, _⟩ (1 : Fin 2) * 128 + 128
      rw [e7]; omega

/-! ## The two running rows -/

/-- The last grid point. -/
abbrev tLast : Fin cfg0.N := ⟨4, by rw [show cfg0.N = 5 from N_0]; decide⟩

/-- Point 4 is a point of the grid. -/
theorem h4 : 4 < cfg0.N := tLast.isLt

/-- An index of running row 4's array is in point t's block iff each coordinate is in the block's range. -/
theorem mem_blk4 (t : Fin cfg0.N) (i : S1x128.Idx) :
    i ∈ ((cfg0.win 4).blk t).view.set ↔ ∀ a : Fin 2, win0_4.index t a * S1x128.size a ≤ (i a).val
      ∧ (i a).val < win0_4.index t a * S1x128.size a + S1x128.size a := by
  show i ∈ ((View.whole main_v37_1).slice (win0_4.rect t)).set ↔ _
  rw [View.set_slice_whole, Rect.mem_set_unit]
  exact Iff.rfl

/-- The one write-back of running row 4, after the last point, writes the row as it stands after point 4. -/
theorem flushed4_eq (c : Dev nD) (t : Fin cfg0.N) (hf : (cfg0.win 4).flush t = true) :
    (dat0 V c).flushed 4 t = ((cfg0.win 4).blk t).view.read (Elt Ideal) (acc4 V c 4 h4) := by
  have hN : cfg0.N = 5 := N_0
  have ht : t.val = 4 := by have := (flush0_4 t).mp hf; have := t.isLt; omega
  obtain rfl : t = tLast := Fin.ext ht
  obtain ⟨-, -, -, -, -, -, -, -, ea, eb, -⟩ := idx_facts tLast
  show (cfg0.win 4).cut (grid0.coords tLast) ((dat0 V c).after 4 tLast) = _
  rw [after0_4, outsAt_eq V c tLast.val tLast.isLt]
  funext j
  show acc4 V c 4 _ j = acc4 V c 4 _ (((cfg0.win 4).blk tLast).view.emb j)
  congr 1
  funext a
  apply Fin.ext
  match a with
  | ⟨0, _⟩ => show (j 0).val = win0_4.index tLast (0 : Fin 2) * 1 + 1 * (j 0).val; rw [ea]; omega
  | ⟨1, _⟩ => show (j 1).val = win0_4.index tLast (1 : Fin 2) * 128 + 1 * (j 1).val; rw [eb]; omega

/-- Running row 4's array when the region ends. -/
theorem final4 (c : Dev nD) : (dat0 V c).arrAt 4 cfg0.N = acc4 V c 4 h4 :=
  (dat0 V c).arrAt_eq_of_cover 4 (acc4 V c 4 h4) (flushed4_eq V c) fun i => by
    have hi0 : (i 0).val < 1 := (i 0).isLt
    have hi1 : (i 1).val < 128 := (i 1).isLt
    obtain ⟨-, -, -, -, -, -, -, -, ea, eb, -⟩ := idx_facts tLast
    refine ⟨tLast, (flush0_4 tLast).mpr rfl, ?_⟩
    rw [mem_blk4]
    intro a
    match a with
    | ⟨0, _⟩ =>
      show win0_4.index tLast (0 : Fin 2) * 1 ≤ (i 0).val ∧ (i 0).val < win0_4.index tLast (0 : Fin 2) * 1 + 1
      rw [ea]; omega
    | ⟨1, _⟩ =>
      show win0_4.index tLast (1 : Fin 2) * 128 ≤ (i 1).val ∧ (i 1).val < win0_4.index tLast (1 : Fin 2) * 128 + 128
      rw [eb]; omega

/-- An index of running row 5's array is in point t's block iff each coordinate is in the block's range. -/
theorem mem_blk5 (t : Fin cfg0.N) (i : S1x128.Idx) :
    i ∈ ((cfg0.win 5).blk t).view.set ↔ ∀ a : Fin 2, win0_5.index t a * S1x128.size a ≤ (i a).val
      ∧ (i a).val < win0_5.index t a * S1x128.size a + S1x128.size a := by
  show i ∈ ((View.whole main_v37_2).slice (win0_5.rect t)).set ↔ _
  rw [View.set_slice_whole, Rect.mem_set_unit]
  exact Iff.rfl

/-- The one write-back of running row 5, after the last point, writes the row as it stands after point 4. -/
theorem flushed5_eq (c : Dev nD) (t : Fin cfg0.N) (hf : (cfg0.win 5).flush t = true) :
    (dat0 V c).flushed 5 t = ((cfg0.win 5).blk t).view.read (Elt Ideal) (acc5 V c 4 h4) := by
  have hN : cfg0.N = 5 := N_0
  have ht : t.val = 4 := by have := (flush0_5 t).mp hf; have := t.isLt; omega
  obtain rfl : t = tLast := Fin.ext ht
  obtain ⟨-, -, -, -, -, -, -, -, -, -, ea, eb⟩ := idx_facts tLast
  show (cfg0.win 5).cut (grid0.coords tLast) ((dat0 V c).after 5 tLast) = _
  rw [after0_5, outsAt_eq V c tLast.val tLast.isLt]
  funext j
  show acc5 V c 4 _ j = acc5 V c 4 _ (((cfg0.win 5).blk tLast).view.emb j)
  congr 1
  funext a
  apply Fin.ext
  match a with
  | ⟨0, _⟩ => show (j 0).val = win0_5.index tLast (0 : Fin 2) * 1 + 1 * (j 0).val; rw [ea]; omega
  | ⟨1, _⟩ => show (j 1).val = win0_5.index tLast (1 : Fin 2) * 128 + 1 * (j 1).val; rw [eb]; omega

/-- Running row 5's array when the region ends. -/
theorem final5 (c : Dev nD) : (dat0 V c).arrAt 5 cfg0.N = acc5 V c 4 h4 :=
  (dat0 V c).arrAt_eq_of_cover 5 (acc5 V c 4 h4) (flushed5_eq V c) fun i => by
    have hi0 : (i 0).val < 1 := (i 0).isLt
    have hi1 : (i 1).val < 128 := (i 1).isLt
    obtain ⟨-, -, -, -, -, -, -, -, -, -, ea, eb⟩ := idx_facts tLast
    refine ⟨tLast, (flush0_5 tLast).mpr rfl, ?_⟩
    rw [mem_blk5]
    intro a
    match a with
    | ⟨0, _⟩ =>
      show win0_5.index tLast (0 : Fin 2) * 1 ≤ (i 0).val ∧ (i 0).val < win0_5.index tLast (0 : Fin 2) * 1 + 1
      rw [ea]; omega
    | ⟨1, _⟩ =>
      show win0_5.index tLast (1 : Fin 2) * 128 ≤ (i 1).val ∧ (i 1).val < win0_5.index tLast (1 : Fin 2) * 128 + 128
      rw [eb]; omega

/-! ## The running rows are the column sums -/

/-- The dense layer of a tile is the matching rows of the dense layer of the whole input. -/
theorem tile_dense (c : Dev nD) (t : Fin cfg0.N) (q : Fin 10000) (k : Fin 128) :
    DenseSpec.dense (iblk0 V c 0 t) (iblk0 V c 1 t) (iblk0 V c 2 t) (ix2 q k) = X1 V c (ix2 (rowK t q) k) := by
  rw [w_blk, b_blk]
  exact DenseSpec.dense_rows (V c main_v10) (iblk0 V c 0 t) (V c main_v36) (V c main_v13) (rowK t q) q
    (fun k' => tile_apply V c t q k') k

/-- Running row 4 at column cc, as a sequence in the point (zero past the last point). -/
def A4 (c : Dev nD) (cc : Fin 128) (n : ℕ) : EReal :=
  if h : n < cfg0.N then acc4 V c n h (ix2 (0 : Fin 1) cc) else 0

/-- After the last point, running row 4 holds the column sums of the dense layer of the whole input. -/
theorem acc4_eq (c : Dev nD) (cc : Fin 128) :
    acc4 V c 4 h4 (ix2 (0 : Fin 1) cc) = BatchNormSpec.colSum (X1 V c) cc := by
  have hN : cfg0.N = 5 := N_0
  have key := GinTiles.acc_eq_colSum (X1 V c) cc (A4 V c cc) ?h0 ?hs
  · rw [← key]
    unfold A4
    rw [dif_pos h4]
  case h0 =>
    unfold A4
    rw [dif_pos (by omega : 0 < cfg0.N)]
    refine (KPay.pay4_apply (iblk0 V c 0 ⟨0, by omega⟩) (iblk0 V c 1 ⟨0, by omega⟩) (iblk0 V c 2 ⟨0, by omega⟩) (k0_pay1 (F := Ideal)) cc).trans ?_
    rw [KPay.pay1_apply]
    refine congrArg ((0 : EReal) + ·) ?_
    unfold GinTiles.tileSum
    rw [dif_pos (by norm_num : 0 < 5)]
    exact Finset.sum_congr rfl fun q _ => tile_dense V c ⟨0, by omega⟩ q cc
  case hs =>
    intro n hn
    unfold A4
    rw [dif_pos (by omega : n + 1 < cfg0.N), dif_pos (by omega : n < cfg0.N)]
    refine (KPay.pay4_apply (iblk0 V c 0 ⟨n + 1, by omega⟩) (iblk0 V c 1 ⟨n + 1, by omega⟩) (iblk0 V c 2 ⟨n + 1, by omega⟩)
      (acc4 V c n (by omega)) cc).trans ?_
    refine congrArg (acc4 V c n (by omega) (ix2 (0 : Fin 1) cc) + ·) ?_
    unfold GinTiles.tileSum
    rw [dif_pos hn]
    exact Finset.sum_congr rfl fun q _ => tile_dense V c ⟨n + 1, by omega⟩ q cc

/-- Running row 5 at column cc, as a sequence in the point (zero past the last point). -/
def A5 (c : Dev nD) (cc : Fin 128) (n : ℕ) : EReal :=
  if h : n < cfg0.N then acc5 V c n h (ix2 (0 : Fin 1) cc) else 0

/-- After the last point, running row 5 holds the column sums of squares of the dense layer of the whole input. -/
theorem acc5_eq (c : Dev nD) (cc : Fin 128) :
    acc5 V c 4 h4 (ix2 (0 : Fin 1) cc) = BatchNormSpec.colSumSq (X1 V c) cc := by
  have hN : cfg0.N = 5 := N_0
  have key := GinTiles.acc_eq_colSumSq (X1 V c) cc (A5 V c cc) ?h0 ?hs
  · rw [← key]
    unfold A5
    rw [dif_pos h4]
  case h0 =>
    unfold A5
    rw [dif_pos (by omega : 0 < cfg0.N)]
    refine (KPay.pay5_apply (iblk0 V c 0 ⟨0, by omega⟩) (iblk0 V c 1 ⟨0, by omega⟩) (iblk0 V c 2 ⟨0, by omega⟩) (k0_pay2 (F := Ideal)) cc).trans ?_
    rw [KPay.pay2_apply]
    refine congrArg ((0 : EReal) + ·) ?_
    unfold GinTiles.tileSum
    rw [dif_pos (by norm_num : 0 < 5)]
    exact Finset.sum_congr rfl fun q _ =>
      congrArg₂ (· * ·) (tile_dense V c ⟨0, by omega⟩ q cc) (tile_dense V c ⟨0, by omega⟩ q cc)
  case hs =>
    intro n hn
    unfold A5
    rw [dif_pos (by omega : n + 1 < cfg0.N), dif_pos (by omega : n < cfg0.N)]
    refine (KPay.pay5_apply (iblk0 V c 0 ⟨n + 1, by omega⟩) (iblk0 V c 1 ⟨n + 1, by omega⟩) (iblk0 V c 2 ⟨n + 1, by omega⟩)
      (acc5 V c n (by omega)) cc).trans ?_
    refine congrArg (acc5 V c n (by omega) (ix2 (0 : Fin 1) cc) + ·) ?_
    unfold GinTiles.tileSum
    rw [dif_pos hn]
    exact Finset.sum_congr rfl fun q _ =>
      congrArg₂ (· * ·) (tile_dense V c ⟨n + 1, by omega⟩ q cc) (tile_dense V c ⟨n + 1, by omega⟩ q cc)

end Cert.KernelIdeal.R0

end
-- ==== Proof.R1Value.lean ====
/-
  The second kernel of layer 0, read as values, at any float instance. At each of its five grid points the kernel
  normalises and rectifies the point's tile of 10000 rows, stores the second dense layer of that, and keeps two running
  rows: at the first point the zero row plus the stored tile's column sums (and the column sums of its squares); at every
  later point what the point before left plus the same. So after point n the three output buffers hold the second dense
  layer of tile n and the two accumulations over tiles 0..n (by induction on the point).
-/
import proofs.«113410_j5944234737805_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R1

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem out_A_7 (c : Dev nD) (i : grid1.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond1_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) :
    out1_A_7 c i a1 h1 a2 h2 a3 h3 a4 h4 a5 h5 a6 h6 a7 h7 a8 h8 a9 h9 a10 h10 hc x0 x1 x2 x3 x4 x5 x6 = k1_pay5 x0 x2 x3 x1 x4 x5 x6 := by
  unfold out1_A_7
  rw [View.read_writes_eq_canon _ _ _ (cover1_A_7 c i a1 h1 a2 h2 a3 h3 a4 h4 a5 h5 a6 h6 a7 h7 a8 h8 a9 h9 a10 h10 hc x0 x1 x2 x3 x4 x5 x6)]
  unfold kernelRun1_A
  dsimp only
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_A_8 (c : Dev nD) (i : grid1.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond1_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) :
    out1_A_8 c i a1 h1 a2 h2 a3 h3 a4 h4 a5 h5 a6 h6 a7 h7 a8 h8 a9 h9 a10 h10 hc x0 x1 x2 x3 x4 x5 x6 = k1_pay1 (k1_pay5 x0 x2 x3 x1 x4 x5 x6) k1_pay3 := by
  unfold out1_A_8
  rw [View.read_writes_eq_canon _ _ _ (cover1_A_8 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_A_9 (c : Dev nD) (i : grid1.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond1_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) :
    out1_A_9 c i a1 h1 a2 h2 a3 h3 a4 h4 a5 h5 a6 h6 a7 h7 a8 h8 a9 h9 a10 h10 hc x0 x1 x2 x3 x4 x5 x6 = k1_pay2 (k1_pay5 x0 x2 x3 x1 x4 x5 x6) k1_pay4 := by
  unfold out1_A_9
  rw [View.read_writes_eq_canon _ _ _ (cover1_A_9 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_B_7 (c : Dev nD) (i : grid1.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond1_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out1_B_7 c i a1 h1 a2 h2 a3 h3 a4 h4 a5 h5 a6 h6 a7 h7 a8 h8 a9 h9 a10 h10 hc x0 x1 x2 x3 x4 x5 x6 xo8 xo9 = k1_pay5 x0 x2 x3 x1 x4 x5 x6 := by
  unfold out1_B_7
  rw [View.read_writes_eq_canon _ _ _ (cover1_B_7 c i a1 h1 a2 h2 a3 h3 a4 h4 a5 h5 a6 h6 a7 h7 a8 h8 a9 h9 a10 h10 hc x0 x1 x2 x3 x4 x5 x6 xo8 xo9)]
  unfold kernelRun1_B
  dsimp only
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_B_8 (c : Dev nD) (i : grid1.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond1_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out1_B_8 c i a1 h1 a2 h2 a3 h3 a4 h4 a5 h5 a6 h6 a7 h7 a8 h8 a9 h9 a10 h10 hc x0 x1 x2 x3 x4 x5 x6 xo8 xo9 = k1_pay1 (k1_pay5 x0 x2 x3 x1 x4 x5 x6) xo8 := by
  unfold out1_B_8
  rw [View.read_writes_eq_canon _ _ _ (cover1_B_8 c i a1 h1 a2 h2 a3 h3 a4 h4 a5 h5 a6 h6 a7 h7 a8 h8 a9 h9 a10 h10 hc x0 x1 x2 x3 x4 x5 x6 xo8 xo9)]
  unfold kernelRun1_B
  dsimp only
  rw [View.canon_unit_zero hz]
  sl_unfold_words
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_B_9 (c : Dev nD) (i : grid1.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond1_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out1_B_9 c i a1 h1 a2 h2 a3 h3 a4 h4 a5 h5 a6 h6 a7 h7 a8 h8 a9 h9 a10 h10 hc x0 x1 x2 x3 x4 x5 x6 xo8 xo9 = k1_pay2 (k1_pay5 x0 x2 x3 x1 x4 x5 x6) xo9 := by
  unfold out1_B_9
  rw [View.read_writes_eq_canon _ _ _ (cover1_B_9 c i a1 h1 a2 h2 a3 h3 a4 h4 a5 h5 a6 h6 a7 h7 a8 h8 a9 h9 a10 h10 hc x0 x1 x2 x3 x4 x5 x6 xo8 xo9)]
  unfold kernelRun1_B
  dsimp only
  rw [View.canon_unit_zero hz]
  sl_unfold_words
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

/-- The first running row after point n. -/
def acc8 (c : Dev nD) : (n : ℕ) → n < cfg1.N → Vec F S1x128 .f32
  | 0, h => k1_pay1 (k1_pay5 (iblk1 V c 0 ⟨0, h⟩) (iblk1 V c 2 ⟨0, h⟩) (iblk1 V c 3 ⟨0, h⟩) (iblk1 V c 1 ⟨0, h⟩) (iblk1 V c 4 ⟨0, h⟩) (iblk1 V c 5 ⟨0, h⟩) (iblk1 V c 6 ⟨0, h⟩)) k1_pay3
  | n + 1, h => k1_pay1 (k1_pay5 (iblk1 V c 0 ⟨n + 1, h⟩) (iblk1 V c 2 ⟨n + 1, h⟩) (iblk1 V c 3 ⟨n + 1, h⟩) (iblk1 V c 1 ⟨n + 1, h⟩) (iblk1 V c 4 ⟨n + 1, h⟩) (iblk1 V c 5 ⟨n + 1, h⟩) (iblk1 V c 6 ⟨n + 1, h⟩)) (acc8 c n (Nat.lt_of_succ_lt h))

/-- The second running row after point n. -/
def acc9 (c : Dev nD) : (n : ℕ) → n < cfg1.N → Vec F S1x128 .f32
  | 0, h => k1_pay2 (k1_pay5 (iblk1 V c 0 ⟨0, h⟩) (iblk1 V c 2 ⟨0, h⟩) (iblk1 V c 3 ⟨0, h⟩) (iblk1 V c 1 ⟨0, h⟩) (iblk1 V c 4 ⟨0, h⟩) (iblk1 V c 5 ⟨0, h⟩) (iblk1 V c 6 ⟨0, h⟩)) k1_pay4
  | n + 1, h => k1_pay2 (k1_pay5 (iblk1 V c 0 ⟨n + 1, h⟩) (iblk1 V c 2 ⟨n + 1, h⟩) (iblk1 V c 3 ⟨n + 1, h⟩) (iblk1 V c 1 ⟨n + 1, h⟩) (iblk1 V c 4 ⟨n + 1, h⟩) (iblk1 V c 5 ⟨n + 1, h⟩) (iblk1 V c 6 ⟨n + 1, h⟩)) (acc9 c n (Nat.lt_of_succ_lt h))

/-- After point n the three output buffers hold the tile's result and the two running rows. By induction on the point. -/
theorem outsAt_eq (c : Dev nD) : ∀ (n : ℕ) (h : n < cfg1.N),
    outsAt1 V c n h = (k1_pay5 (iblk1 V c 0 ⟨n, h⟩) (iblk1 V c 2 ⟨n, h⟩) (iblk1 V c 3 ⟨n, h⟩) (iblk1 V c 1 ⟨n, h⟩) (iblk1 V c 4 ⟨n, h⟩) (iblk1 V c 5 ⟨n, h⟩) (iblk1 V c 6 ⟨n, h⟩), acc8 V c n h, acc9 V c n h)
  | 0, h => (outsAt1_A V c ⟨0, h⟩ rfl).trans (by
      rw [out_A_7, out_A_8, out_A_9]
      rfl)
  | n + 1, h => by
    have hN : cfg1.N = 5 := N_1
    have hB : ¬(⟨n + 1, h⟩ : Fin cfg1.N).val % 5 = 0 := by dsimp only; omega
    rw [outsAt1_B V c ⟨n + 1, h⟩ hB, out_B_7, out_B_8, out_B_9]
    show (k1_pay5 _ _ _ _ _ _ _, k1_pay1 _ (outsAt1 V c n _).2.1, k1_pay2 _ (outsAt1 V c n _).2.2)
      = (k1_pay5 _ _ _ _ _ _ _, k1_pay1 _ (acc8 V c n _), k1_pay2 _ (acc9 V c n _))
    rw [outsAt_eq c n]

end Cert.KernelIdeal.R1
-- ==== Proof.KPay1.lean ====
/-
  The arithmetic of the second, third and fourth kernels of a layer, at the exact values. Each takes a tile `x` of the
  previous stage's output and the rows of its column means, column variances, scale and shift, and forms the normalised
  and rectified tile `max (g · (x − μ) · rsqrt(v + ε) + β) 0`. The second kernel stores the second dense layer of that
  tile; the third stores the tile itself; both add to two running rows the column sums of what they store and of its
  squares. The fourth stores the tile: the layer's output rows.
-/
import proofs.«113410_j5944234737805_1_alg».proof.Proof.Gen.KernelIdeal.Skeleton
import proofs.«113410_j5944234737805_1_alg».proof.Proof.LibDense
import proofs.«113410_j5944234737805_1_alg».proof.Proof.LibBatchNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Cert.KernelIdeal Cert.KernelIdeal.Gen Idealize.ShloMosaic Idealize.ShloMosaic.TcCoe Idealize.ShloMosaic.ValueIdx

/-- A 1 × 128 row read as a function of the column. -/
abbrev rowAt (s : Vec Ideal S1x128 .f32) : Fin 128 → EReal := fun c => s (ix2 (0 : Fin 1) c)

/-- The normalised and rectified tile. -/
abbrev normTile (x : Vec Ideal S10000x128 .f32) (μ v g β : Vec Ideal S1x128 .f32) : BatchNormSpec.Mat 10000 128 :=
  BatchNormSpec.normRelu (Ideal.ofBits .f32 0x3727C5AC#32) (Ideal.ofBits .f32 0x00000000#32) x (rowAt μ) (rowAt v) (rowAt g) (rowAt β)

/-- The second dense layer of the normalised and rectified tile. -/
theorem k1pay5_eq (x : Vec Ideal S10000x128 .f32) (v g μ β : Vec Ideal S1x128 .f32) (w : Vec Ideal S128x128 .f32)
    (b : Vec Ideal S1x128 .f32) :
    k1_pay5 (F := Ideal) x v g μ β w b = DenseSpec.dense (normTile x μ v g β) w b := by
  unfold k1_pay5
  dsimp only
  simp only [shapeCast_self]
  refine (DenseSpec.matmul_bias dot_S10000x128_S128x128_S10000x128_1_0_0_1_n_n_wf none _ _ b broadcasts_S1x128_S10000x128).trans ?_
  refine congrArg (fun a : BatchNormSpec.Mat 10000 128 => DenseSpec.dense a w b) ?_
  funext i
  obtain ⟨r, c, rfl⟩ : ∃ (r : Fin 10000) (c : Fin 128), i = ix2 r c := ⟨i 0, i 1, eq_ix2 i⟩
  unfold normTile
  rw [BatchNormSpec.normRelu_apply, truncf_apply, maximumf_apply, addf_apply, mulf_apply, mulf_apply, subf_apply,
    broadcastTo_1b_ab_apply g _ r c, broadcastTo_1b_ab_apply μ _ r c, broadcastTo_1b_ab_apply _ _ r c,
    broadcastTo_1b_ab_apply β _ r c]
  rfl

/-- A running row plus the column sums of a tile, read at a column. -/
theorem colAcc_apply (y : FVec Ideal S10000x128 .f32) (acc : Vec Ideal S1x128 .f32) (c : Fin 128) :
    addf (shapeCast S1x128 acc shapeCasts_S1x128_S1x128)
        (shapeCast S1x128 (multiReduction .add [0] S128 y 0x00000000#32 reduces_S10000x128_S128 (.inl rfl) rfl) shapeCasts_S128_S1x128)
        (ix2 (0 : Fin 1) c)
      = acc (ix2 (0 : Fin 1) c) + ∑ q : Fin 10000, y (ix2 q c) := by
  rw [addf_apply, shapeCast_self]
  refine congrArg (acc (ix2 (0 : Fin 1) c) + ·) ?_
  refine (DenseSpec.shapeCast_row_apply _ shapeCasts_S128_S1x128 (0 : Fin 1) c).trans ?_
  refine (Ideal.multiReduction_add_single y 0x00000000#32 reduces_S10000x128_S128 (.inl rfl) rfl (ix1 c)).trans ?_
  exact Finset.sum_congr rfl fun q _ => congrArg y (funext fun a => Fin.ext (by
    match a with
    | ⟨0, _⟩ => rfl
    | ⟨1, _⟩ => rfl))

/-- The same for the squares. -/
theorem colAccSq_apply (y : FVec Ideal S10000x128 .f32) (acc : Vec Ideal S1x128 .f32) (c : Fin 128) :
    addf (shapeCast S1x128 acc shapeCasts_S1x128_S1x128)
        (shapeCast S1x128 (multiReduction .add [0] S128 (mulf y y) 0x00000000#32 reduces_S10000x128_S128 (.inl rfl) rfl) shapeCasts_S128_S1x128)
        (ix2 (0 : Fin 1) c)
      = acc (ix2 (0 : Fin 1) c) + ∑ q : Fin 10000, y (ix2 q c) * y (ix2 q c) :=
  (colAcc_apply (mulf y y) acc c).trans (congrArg (acc (ix2 (0 : Fin 1) c) + ·) (Finset.sum_congr rfl fun q _ => mulf_apply y y _))

/-- The second kernel's two accumulations, over the tile `y` it has just stored. -/
theorem k1pay1_apply (y : FVec Ideal S10000x128 .f32) (acc : Vec Ideal S1x128 .f32) (c : Fin 128) :
    k1_pay1 (F := Ideal) y acc (ix2 (0 : Fin 1) c) = acc (ix2 (0 : Fin 1) c) + ∑ q : Fin 10000, y (ix2 q c) := by
  unfold k1_pay1
  exact colAcc_apply y acc c
theorem k1pay2_apply (y : FVec Ideal S10000x128 .f32) (acc : Vec Ideal S1x128 .f32) (c : Fin 128) :
    k1_pay2 (F := Ideal) y acc (ix2 (0 : Fin 1) c) = acc (ix2 (0 : Fin 1) c) + ∑ q : Fin 10000, y (ix2 q c) * y (ix2 q c) := by
  unfold k1_pay2
  exact colAccSq_apply y acc c
theorem k1pay3_apply (i : S1x128.Idx) : k1_pay3 (F := Ideal) i = 0 := by
  show Ideal.ofBits .f32 0x00000000#32 = 0
  exact Ideal.ofBits_zero_f32
theorem k1pay4_apply (i : S1x128.Idx) : k1_pay4 (F := Ideal) i = 0 := by
  show Ideal.ofBits .f32 0x00000000#32 = 0
  exact Ideal.ofBits_zero_f32

/-- The third kernel stores the normalised and rectified tile itself … -/
theorem k2pay4_eq (x : Vec Ideal S10000x128 .f32) (v g μ β : Vec Ideal S1x128 .f32) :
    k2_pay4 (F := Ideal) x v g μ β = normTile x μ v g β := by
  unfold k2_pay4
  dsimp only
  simp only [shapeCast_self]
  funext i
  obtain ⟨r, c, rfl⟩ : ∃ (r : Fin 10000) (c : Fin 128), i = ix2 r c := ⟨i 0, i 1, eq_ix2 i⟩
  unfold normTile
  rw [BatchNormSpec.normRelu_apply, maximumf_apply, addf_apply, mulf_apply, mulf_apply, subf_apply,
    broadcastTo_1b_ab_apply g _ r c, broadcastTo_1b_ab_apply μ _ r c, broadcastTo_1b_ab_apply _ _ r c,
    broadcastTo_1b_ab_apply β _ r c]
  rfl

/-- … and accumulates its column sums and the column sums of its squares. -/
theorem k2pay5_apply (x : Vec Ideal S10000x128 .f32) (v g μ β acc : Vec Ideal S1x128 .f32) (c : Fin 128) :
    k2_pay5 (F := Ideal) x v g μ β acc (ix2 (0 : Fin 1) c)
      = acc (ix2 (0 : Fin 1) c) + ∑ q : Fin 10000, normTile x μ v g β (ix2 q c) := by
  unfold k2_pay5
  dsimp only
  rw [k2pay4_eq]
  exact colAcc_apply (normTile x μ v g β) acc c
theorem k2pay1_apply (y : FVec Ideal S10000x128 .f32) (acc : Vec Ideal S1x128 .f32) (c : Fin 128) :
    k2_pay1 (F := Ideal) y acc (ix2 (0 : Fin 1) c) = acc (ix2 (0 : Fin 1) c) + ∑ q : Fin 10000, y (ix2 q c) * y (ix2 q c) := by
  unfold k2_pay1
  exact colAccSq_apply y acc c
theorem k2pay2_apply (i : S1x128.Idx) : k2_pay2 (F := Ideal) i = 0 := by
  show Ideal.ofBits .f32 0x00000000#32 = 0
  exact Ideal.ofBits_zero_f32
theorem k2pay3_apply (i : S1x128.Idx) : k2_pay3 (F := Ideal) i = 0 := by
  show Ideal.ofBits .f32 0x00000000#32 = 0
  exact Ideal.ofBits_zero_f32

/-- The fourth kernel stores the normalised and rectified tile: the layer's output rows. -/
theorem k3pay1_eq (x : Vec Ideal S10000x128 .f32) (v g μ β : Vec Ideal S1x128 .f32) :
    k3_pay1 (F := Ideal) x v g μ β = normTile x μ v g β := by
  unfold k3_pay1
  dsimp only
  simp only [shapeCast_self]
  funext i
  obtain ⟨r, c, rfl⟩ : ∃ (r : Fin 10000) (c : Fin 128), i = ix2 r c := ⟨i 0, i 1, eq_ix2 i⟩
  unfold normTile
  rw [BatchNormSpec.normRelu_apply, maximumf_apply, addf_apply, mulf_apply, mulf_apply, subf_apply,
    broadcastTo_1b_ab_apply g _ r c, broadcastTo_1b_ab_apply μ _ r c, broadcastTo_1b_ab_apply _ _ r c,
    broadcastTo_1b_ab_apply β _ r c]
  rfl

end Cert.KernelIdeal.KPay

end
-- ==== Proof.R1Array.lean ====
/-
  The second kernel of layer 0: what its three output arrays hold when the region ends, at the exact values. Point t reads
  rows 10000·t … of the first dense layer's output, the four statistics and parameter rows, the whole second weight
  matrix and its bias row, and writes back the same rows of the output: the second dense layer of the normalised and
  rectified rows. Normalising is row by row, so the output array is the second dense layer of the normalised and
  rectified whole array. The two running rows, written back once after the last point, are that array's column sums
  and column sums of squares.
-/
import proofs.«113410_j5944234737805_1_alg».proof.Proof.R1Value
import proofs.«113410_j5944234737805_1_alg».proof.Proof.KPay1
import proofs.«113410_j5944234737805_1_alg».proof.Proof.GinTiles
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

variable (V : (c : Dev nD) → (b : Ref sig .tc) → Buf (Elt Ideal) ((c : Thread nD τ).loc b))

/-- The block indices of the ten windows at each grid point: the two row-tile windows move with the point, the others stay. -/
theorem idx_facts : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0 :=
  (by decide +kernel : ∀ t : Fin grid1.N, _)

/-- Row q of the tile of point t. -/
abbrev rowK (t : Fin cfg1.N) (q : Fin 10000) : Fin 50000 :=
  ⟨10000 * t.val + q.val, by have := t.isLt; have hN : cfg1.N = 5 := N_1; have := q.isLt; omega⟩

/-- The input tile of point t is rows 10000·t + q of the first dense layer's output. -/
theorem tile_apply (c : Dev nD) (t : Fin cfg1.N) (q : Fin 10000) (k : Fin 128) :
    iblk1 V c 0 t (ix2 q k) = V c main_v37_0 (ix2 (rowK t q) k) := by
  obtain ⟨e0, e1, -⟩ := idx_facts t
  unfold iblk1
  rw [View.read_apply]
  show V c main_v37_0 _ = V c main_v37_0 _
  congr 1
  funext a
  apply Fin.ext
  match a with
  | ⟨0, _⟩ => show win1_0.index t (0 : Fin 2) * 10000 + 1 * q.val = 10000 * t.val + q.val; rw [e0]; omega
  | ⟨1, _⟩ => show win1_0.index t (1 : Fin 2) * 128 + 1 * k.val = k.val; rw [e1]; omega

/-! The statistics and parameter rows, and the bias row: each window's block at every point is the whole row. -/

theorem row_blk1 (c : Dev nD) (t : Fin cfg1.N) : iblk1 V c 1 t = V c main_v39 := by
  obtain ⟨-, -, ea, eb, -⟩ := idx_facts t
  funext j
  unfold iblk1
  rw [View.read_apply]
  show V c main_v39 _ = V c main_v39 j
  congr 1
  funext a
  apply Fin.ext
  match a with
  | ⟨0, _⟩ => show win1_1.index t (0 : Fin 2) * 1 + 1 * (j 0).val = (j 0).val; rw [ea]; omega
  | ⟨1, _⟩ => show win1_1.index t (1 : Fin 2) * 128 + 1 * (j 1).val = (j 1).val; rw [eb]; omega

theorem row_blk2 (c : Dev nD) (t : Fin cfg1.N) : iblk1 V c 2 t = V c main_v43 := by
  obtain ⟨-, -, -, -, ea, eb, -⟩ := idx_facts t
  funext j
  unfold iblk1
  rw [View.read_apply]
  show V c main_v43 _ = V c main_v43 j
  congr 1
  funext a
  apply Fin.ext
  match a with
  | ⟨0, _⟩ => show win1_2.index t (0 : Fin 2) * 1 + 1 * (j 0).val = (j 0).val; rw [ea]; omega
  | ⟨1, _⟩ => show win1_2.index t (1 : Fin 2) * 128 + 1 * (j 1).val = (j 1).val; rw [eb]; omega

theorem row_blk3 (c : Dev nD) (t : Fin cfg1.N) : iblk1 V c 3 t = V c main_v19 := by
  obtain ⟨-, -, -, -, -, -, ea, eb, -⟩ := idx_facts t
  funext j
  unfold iblk1
  rw [View.read_apply]
  show V c main_v19 _ = V c main_v19 j
  congr 1
  funext a
  apply Fin.ext
  match a with
  | ⟨0, _⟩ => show win1_3.index t (0 : Fin 2) * 1 + 1 * (j 0).val = (j 0).val; rw [ea]; omega
  | ⟨1, _⟩ => show win1_3.index t (1 : Fin 2) * 128 + 1 * (j 1).val = (j 1).val; rw [eb]; omega

theorem row_blk4 (c : Dev nD) (t : Fin cfg1.N) : iblk1 V c 4 t = V c main_v22 := by
  obtain ⟨-, -, -, -, -, -, -, -, ea, eb, -⟩ := idx_facts t
  funext j
  unfold iblk1
  rw [View.read_apply]
  show V c main_v22 _ = V c main_v22 j
  congr 1
  funext a
  apply Fin.ext
  match a with
  | ⟨0, _⟩ => show win1_4.index t (0 : Fin 2) * 1 + 1 * (j 0).val = (j 0).val; rw [ea]; omega
  | ⟨1, _⟩ => show win1_4.index t (1 : Fin 2) * 128 + 1 * (j 1).val = (j 1).val; rw [eb]; omega

theorem row_blk6 (c : Dev nD) (t : Fin cfg1.N) : iblk1 V c 6 t = V c main_v16 := by
  obtain ⟨-, -, -, -, -, -, -, -, -, -, -, -, ea, eb, -⟩ := idx_facts t
  funext j
  unfold iblk1
  rw [View.read_apply]
  show V c main_v16 _ = V c main_v16 j
  congr 1
  funext a
  apply Fin.ext
  match a with
  | ⟨0, _⟩ => show win1_6.index t (0 : Fin 2) * 1 + 1 * (j 0).val = (j 0).val; rw [ea]; omega
  | ⟨1, _⟩ => show win1_6.index t (1 : Fin 2) * 128 + 1 * (j 1).val = (j 1).val; rw [eb]; omega

/-- The weights' block at every point is the whole weight matrix. -/
theorem w_blk (c : Dev nD) (t : Fin cfg1.N) : iblk1 V c 5 t = V c main_v45 := by
  obtain ⟨-, -, -, -, -, -, -, -, -, -, ea, eb, -⟩ := idx_facts t
  funext j
  unfold iblk1
  rw [View.read_apply]
  show V c main_v45 _ = V c main_v45 j
  congr 1
  funext a
  apply Fin.ext
  match a with
  | ⟨0, _⟩ => show win1_5.index t (0 : Fin 2) * 128 + 1 * (j 0).val = (j 0).val; rw [ea]; omega
  | ⟨1, _⟩ => show win1_5.index t (1 : Fin 2) * 128 + 1 * (j 1).val = (j 1).val; rw [eb]; omega

/-- The first dense layer's output, normalised and rectified: the whole array. -/
def A1 (c : Dev nD) : BatchNormSpec.Mat 50000 128 :=
  BatchNormSpec.normRelu (Ideal.ofBits .f32 0x3727C5AC#32) (Ideal.ofBits .f32 0x00000000#32) (V c main_v37_0)
    (KPay.rowAt (V c main_v39)) (KPay.rowAt (V c main_v43)) (KPay.rowAt (V c main_v19)) (KPay.rowAt (V c main_v22))

/-- The second dense layer of it: what the first output array ends holding. -/
def X2 (c : Dev nD) : S50000x128.Idx → EReal := DenseSpec.dense (A1 V c) (V c main_v45) (V c main_v16)

/-- The second dense layer of the normalised tile is the matching rows of the second dense layer of the whole array. -/
theorem tile_dense (c : Dev nD) (t : Fin cfg1.N) (q : Fin 10000) (k : Fin 128) :
    k1_pay5 (F := Ideal) (iblk1 V c 0 t) (iblk1 V c 2 t) (iblk1 V c 3 t) (iblk1 V c 1 t) (iblk1 V c 4 t) (iblk1 V c 5 t) (iblk1 V c 6 t) (ix2 q k) = X2 V c (ix2 (rowK t q) k) := by
  rw [KPay.k1pay5_eq, row_blk1, row_blk2, row_blk3, row_blk4, row_blk6, w_blk]
  refine DenseSpec.dense_rows (A1 V c) _ (V c main_v45) (V c main_v16) (rowK t q) q (fun k' => ?_) k
  unfold A1 KPay.normTile
  rw [BatchNormSpec.normRelu_apply, BatchNormSpec.normRelu_apply, tile_apply V c t q k']

/-- What point t writes back is rows 10000·t … of the second dense layer of the whole array. -/
theorem flushed7_eq (c : Dev nD) (t : Fin cfg1.N) :
    (dat1 V c).flushed 7 t = ((cfg1.win 7).blk t).view.read (Elt Ideal) (X2 V c) := by
  obtain ⟨-, -, -, -, -, -, -, -, -, -, -, -, -, -, ea, eb, -⟩ := idx_facts t
  show (cfg1.win 7).cut (grid1.coords t) ((dat1 V c).after 7 t) = _
  rw [after1_7, outsAt_eq V c t.val t.isLt]
  funext j
  obtain ⟨q, k, rfl⟩ : ∃ (q : Fin 10000) (k : Fin 128), j = ix2 q k := ⟨j 0, j 1, eq_ix2 j⟩
  show k1_pay5 (F := Ideal) (iblk1 V c 0 t) (iblk1 V c 2 t) (iblk1 V c 3 t) (iblk1 V c 1 t) (iblk1 V c 4 t) (iblk1 V c 5 t) (iblk1 V c 6 t) (ix2 q k) = X2 V c (((cfg1.win 7).blk t).view.emb (ix2 q k))
  have hemb : ((cfg1.win 7).blk t).view.emb (ix2 q k) = ix2 (rowK t q) k := by
    funext a
    apply Fin.ext
    match a with
    | ⟨0, _⟩ => show win1_7.index t (0 : Fin 2) * 10000 + 1 * q.val = 10000 * t.val + q.val; rw [ea]; omega
    | ⟨1, _⟩ => show win1_7.index t (1 : Fin 2) * 128 + 1 * k.val = k.val; rw [eb]; omega
  rw [hemb]
  exact tile_dense V c t q k

theorem mem_blk7 (t : Fin cfg1.N) (i : S50000x128.Idx) :
    i ∈ ((cfg1.win 7).blk t).view.set ↔ ∀ a : Fin 2, win1_7.index t a * S10000x128.size a ≤ (i a).val
      ∧ (i a).val < win1_7.index t a * S10000x128.size a + S10000x128.size a := by
  show i ∈ ((View.whole main_v46_0).slice (win1_7.rect t)).set ↔ _
  rw [View.set_slice_whole, Rect.mem_set_unit]
  exact Iff.rfl

/-- The first output array when the region ends: the second dense layer of the normalised and rectified whole array. -/
theorem final7 (c : Dev nD) : (dat1 V c).arrAt 7 cfg1.N = X2 V c :=
  (dat1 V c).arrAt_eq_of_cover 7 (X2 V c) (fun t _ => flushed7_eq V c t) fun i => by
    have hi0 : (i 0).val < 50000 := (i 0).isLt
    have hi1 : (i 1).val < 128 := (i 1).isLt
    have hN : cfg1.N = 5 := N_1
    obtain ⟨-, -, -, -, -, -, -, -, -, -, -, -, -, -, ea, eb, -⟩ := idx_facts ⟨(i 0).val / 10000, by omega⟩
    refine ⟨⟨(i 0).val / 10000, by omega⟩, flush1_7 _, ?_⟩
    rw [mem_blk7]
    intro a
    match a with
    | ⟨0, _⟩ =>
      show win1_7.index ⟨(i 0).val / 10000, _⟩ (0 : Fin 2) * 10000 ≤ (i 0).val
        ∧ (i 0).val < win1_7.index ⟨(i 0).val / 10000, _⟩ (0 : Fin 2) * 10000 + 10000
      rw [ea]; dsimp only; omega
    | ⟨1, _⟩ =>
      show win1_7.index ⟨(i 0).val / 10000, _⟩ (1 : Fin 2) * 128 ≤ (i 1).val
        ∧ (i 1).val < win1_7.index ⟨(i 0).val / 10000, _⟩ (1 : Fin 2) * 128 + 128
      rw [eb]; omega

/-! ## The two running rows -/

/-- The last grid point. -/
abbrev tLast : Fin cfg1.N := ⟨4, by rw [show cfg1.N = 5 from N_1]; decide⟩

theorem h4 : 4 < cfg1.N := tLast.isLt

theorem mem_blk8 (t : Fin cfg1.N) (i : S1x128.Idx) :
    i ∈ ((cfg1.win 8).blk t).view.set ↔ ∀ a : Fin 2, win1_8.index t a * S1x128.size a ≤ (i a).val
      ∧ (i a).val < win1_8.index t a * S1x128.size a + S1x128.size a := by
  show i ∈ ((View.whole main_v46_1).slice (win1_8.rect t)).set ↔ _
  rw [View.set_slice_whole, Rect.mem_set_unit]
  exact Iff.rfl

/-- The one write-back of running row 8, after the last point, writes the row as it stands after point 4. -/
theorem flushed8_eq (c : Dev nD) (t : Fin cfg1.N) (hf : (cfg1.win 8).flush t = true) :
    (dat1 V c).flushed 8 t = ((cfg1.win 8).blk t).view.read (Elt Ideal) (acc8 V c 4 h4) := by
  have hN : cfg1.N = 5 := N_1
  have ht : t.val = 4 := by have := (flush1_8 t).mp hf; have := t.isLt; omega
  obtain rfl : t = tLast := Fin.ext ht
  obtain ⟨-, -, -, -, -, -, -, -, -, -, -, -, -, -, -, -, ea, eb, -⟩ := idx_facts tLast
  show (cfg1.win 8).cut (grid1.coords tLast) ((dat1 V c).after 8 tLast) = _
  rw [after1_8, outsAt_eq V c tLast.val tLast.isLt]
  funext j
  show acc8 V c 4 _ j = acc8 V c 4 _ (((cfg1.win 8).blk tLast).view.emb j)
  congr 1
  funext a
  apply Fin.ext
  match a with
  | ⟨0, _⟩ => show (j 0).val = win1_8.index tLast (0 : Fin 2) * 1 + 1 * (j 0).val; rw [ea]; omega
  | ⟨1, _⟩ => show (j 1).val = win1_8.index tLast (1 : Fin 2) * 128 + 1 * (j 1).val; rw [eb]; omega

/-- Running row 8's array when the region ends. -/
theorem final8 (c : Dev nD) : (dat1 V c).arrAt 8 cfg1.N = acc8 V c 4 h4 :=
  (dat1 V c).arrAt_eq_of_cover 8 (acc8 V c 4 h4) (flushed8_eq V c) fun i => by
    have hi0 : (i 0).val < 1 := (i 0).isLt
    have hi1 : (i 1).val < 128 := (i 1).isLt
    obtain ⟨-, -, -, -, -, -, -, -, -, -, -, -, -, -, -, -, ea, eb, -⟩ := idx_facts tLast
    refine ⟨tLast, (flush1_8 tLast).mpr rfl, ?_⟩
    rw [mem_blk8]
    intro a
    match a with
    | ⟨0, _⟩ =>
      show win1_8.index tLast (0 : Fin 2) * 1 ≤ (i 0).val ∧ (i 0).val < win1_8.index tLast (0 : Fin 2) * 1 + 1
      rw [ea]; omega
    | ⟨1, _⟩ =>
      show win1_8.index tLast (1 : Fin 2) * 128 ≤ (i 1).val ∧ (i 1).val < win1_8.index tLast (1 : Fin 2) * 128 + 128
      rw [eb]; omega

theorem mem_blk9 (t : Fin cfg1.N) (i : S1x128.Idx) :
    i ∈ ((cfg1.win 9).blk t).view.set ↔ ∀ a : Fin 2, win1_9.index t a * S1x128.size a ≤ (i a).val
      ∧ (i a).val < win1_9.index t a * S1x128.size a + S1x128.size a := by
  show i ∈ ((View.whole main_v46_2).slice (win1_9.rect t)).set ↔ _
  rw [View.set_slice_whole, Rect.mem_set_unit]
  exact Iff.rfl

/-- The one write-back of running row 9, after the last point, writes the row as it stands after point 4. -/
theorem flushed9_eq (c : Dev nD) (t : Fin cfg1.N) (hf : (cfg1.win 9).flush t = true) :
    (dat1 V c).flushed 9 t = ((cfg1.win 9).blk t).view.read (Elt Ideal) (acc9 V c 4 h4) := by
  have hN : cfg1.N = 5 := N_1
  have ht : t.val = 4 := by have := (flush1_9 t).mp hf; have := t.isLt; omega
  obtain rfl : t = tLast := Fin.ext ht
  obtain ⟨-, -, -, -, -, -, -, -, -, -, -, -, -, -, -, -, -, -, ea, eb⟩ := idx_facts tLast
  show (cfg1.win 9).cut (grid1.coords tLast) ((dat1 V c).after 9 tLast) = _
  rw [after1_9, outsAt_eq V c tLast.val tLast.isLt]
  funext j
  show acc9 V c 4 _ j = acc9 V c 4 _ (((cfg1.win 9).blk tLast).view.emb j)
  congr 1
  funext a
  apply Fin.ext
  match a with
  | ⟨0, _⟩ => show (j 0).val = win1_9.index tLast (0 : Fin 2) * 1 + 1 * (j 0).val; rw [ea]; omega
  | ⟨1, _⟩ => show (j 1).val = win1_9.index tLast (1 : Fin 2) * 128 + 1 * (j 1).val; rw [eb]; omega

/-- Running row 9's array when the region ends. -/
theorem final9 (c : Dev nD) : (dat1 V c).arrAt 9 cfg1.N = acc9 V c 4 h4 :=
  (dat1 V c).arrAt_eq_of_cover 9 (acc9 V c 4 h4) (flushed9_eq V c) fun i => by
    have hi0 : (i 0).val < 1 := (i 0).isLt
    have hi1 : (i 1).val < 128 := (i 1).isLt
    obtain ⟨-, -, -, -, -, -, -, -, -, -, -, -, -, -, -, -, -, -, ea, eb⟩ := idx_facts tLast
    refine ⟨tLast, (flush1_9 tLast).mpr rfl, ?_⟩
    rw [mem_blk9]
    intro a
    match a with
    | ⟨0, _⟩ =>
      show win1_9.index tLast (0 : Fin 2) * 1 ≤ (i 0).val ∧ (i 0).val < win1_9.index tLast (0 : Fin 2) * 1 + 1
      rw [ea]; omega
    | ⟨1, _⟩ =>
      show win1_9.index tLast (1 : Fin 2) * 128 ≤ (i 1).val ∧ (i 1).val < win1_9.index tLast (1 : Fin 2) * 128 + 128
      rw [eb]; omega

/-! ## The running rows are the column sums -/

/-- Running row 8 at column cc, as a sequence in the point (zero past the last point). -/
def A8 (c : Dev nD) (cc : Fin 128) (n : ℕ) : EReal :=
  if h : n < cfg1.N then acc8 V c n h (ix2 (0 : Fin 1) cc) else 0

/-- After the last point, running row 8 holds the column sums of the second dense layer. -/
theorem acc8_eq (c : Dev nD) (cc : Fin 128) :
    acc8 V c 4 h4 (ix2 (0 : Fin 1) cc) = BatchNormSpec.colSum (X2 V c) cc := by
  have hN : cfg1.N = 5 := N_1
  have key := GinTiles.acc_eq_colSum (X2 V c) cc (A8 V c cc) ?h0 ?hs
  · rw [← key]
    unfold A8
    rw [dif_pos h4]
  case h0 =>
    unfold A8
    rw [dif_pos (by omega : 0 < cfg1.N)]
    refine (KPay.k1pay1_apply (k1_pay5 (F := Ideal) (iblk1 V c 0 ⟨0, by omega⟩) (iblk1 V c 2 ⟨0, by omega⟩) (iblk1 V c 3 ⟨0, by omega⟩) (iblk1 V c 1 ⟨0, by omega⟩) (iblk1 V c 4 ⟨0, by omega⟩) (iblk1 V c 5 ⟨0, by omega⟩) (iblk1 V c 6 ⟨0, by omega⟩)) (k1_pay3 (F := Ideal)) cc).trans ?_
    rw [KPay.k1pay3_apply]
    refine congrArg ((0 : EReal) + ·) ?_
    unfold GinTiles.tileSum
    rw [dif_pos (by norm_num : 0 < 5)]
    exact Finset.sum_congr rfl fun q _ => tile_dense V c ⟨0, by omega⟩ q cc
  case hs =>
    intro n hn
    unfold A8
    rw [dif_pos (by omega : n + 1 < cfg1.N), dif_pos (by omega : n < cfg1.N)]
    refine (KPay.k1pay1_apply (k1_pay5 (F := Ideal) (iblk1 V c 0 ⟨n + 1, by omega⟩) (iblk1 V c 2 ⟨n + 1, by omega⟩) (iblk1 V c 3 ⟨n + 1, by omega⟩) (iblk1 V c 1 ⟨n + 1, by omega⟩) (iblk1 V c 4 ⟨n + 1, by omega⟩) (iblk1 V c 5 ⟨n + 1, by omega⟩) (iblk1 V c 6 ⟨n + 1, by omega⟩)) (acc8 V c n (by omega)) cc).trans ?_
    refine congrArg (acc8 V c n (by omega) (ix2 (0 : Fin 1) cc) + ·) ?_
    unfold GinTiles.tileSum
    rw [dif_pos hn]
    exact Finset.sum_congr rfl fun q _ => tile_dense V c ⟨n + 1, by omega⟩ q cc

/-- Running row 9 at column cc, as a sequence in the point (zero past the last point). -/
def A9 (c : Dev nD) (cc : Fin 128) (n : ℕ) : EReal :=
  if h : n < cfg1.N then acc9 V c n h (ix2 (0 : Fin 1) cc) else 0

/-- After the last point, running row 9 holds the column sums of squares of the second dense layer. -/
theorem acc9_eq (c : Dev nD) (cc : Fin 128) :
    acc9 V c 4 h4 (ix2 (0 : Fin 1) cc) = BatchNormSpec.colSumSq (X2 V c) cc := by
  have hN : cfg1.N = 5 := N_1
  have key := GinTiles.acc_eq_colSumSq (X2 V c) cc (A9 V c cc) ?h0 ?hs
  · rw [← key]
    unfold A9
    rw [dif_pos h4]
  case h0 =>
    unfold A9
    rw [dif_pos (by omega : 0 < cfg1.N)]
    refine (KPay.k1pay2_apply (k1_pay5 (F := Ideal) (iblk1 V c 0 ⟨0, by omega⟩) (iblk1 V c 2 ⟨0, by omega⟩) (iblk1 V c 3 ⟨0, by omega⟩) (iblk1 V c 1 ⟨0, by omega⟩) (iblk1 V c 4 ⟨0, by omega⟩) (iblk1 V c 5 ⟨0, by omega⟩) (iblk1 V c 6 ⟨0, by omega⟩)) (k1_pay4 (F := Ideal)) cc).trans ?_
    rw [KPay.k1pay4_apply]
    refine congrArg ((0 : EReal) + ·) ?_
    unfold GinTiles.tileSum
    rw [dif_pos (by norm_num : 0 < 5)]
    exact Finset.sum_congr rfl fun q _ => congrArg₂ (· * ·) (tile_dense V c ⟨0, by omega⟩ q cc) (tile_dense V c ⟨0, by omega⟩ q cc)
  case hs =>
    intro n hn
    unfold A9
    rw [dif_pos (by omega : n + 1 < cfg1.N), dif_pos (by omega : n < cfg1.N)]
    refine (KPay.k1pay2_apply (k1_pay5 (F := Ideal) (iblk1 V c 0 ⟨n + 1, by omega⟩) (iblk1 V c 2 ⟨n + 1, by omega⟩) (iblk1 V c 3 ⟨n + 1, by omega⟩) (iblk1 V c 1 ⟨n + 1, by omega⟩) (iblk1 V c 4 ⟨n + 1, by omega⟩) (iblk1 V c 5 ⟨n + 1, by omega⟩) (iblk1 V c 6 ⟨n + 1, by omega⟩)) (acc9 V c n (by omega)) cc).trans ?_
    refine congrArg (acc9 V c n (by omega) (ix2 (0 : Fin 1) cc) + ·) ?_
    unfold GinTiles.tileSum
    rw [dif_pos hn]
    exact Finset.sum_congr rfl fun q _ => congrArg₂ (· * ·) (tile_dense V c ⟨n + 1, by omega⟩ q cc) (tile_dense V c ⟨n + 1, by omega⟩ q cc)

end Cert.KernelIdeal.R1

end
-- ==== Proof.R2Value.lean ====
/- The third kernel of the first layer, read as values, at any float instance. At each of its five grid points the kernel
   normalises, scales, shifts and rectifies the point's tile of 10000 rows with the four statistics rows and stores the
   tile, and keeps two running rows: at the first point it sets them to the zero row plus the column sums of the stored
   tile and of its squares; at every later point it adds the tile's column sums to what the point before left. So after
   point n the three output buffers hold tile n's result and the two accumulations over tiles 0..n, by induction on
   the point. -/
import proofs.«113410_j5944234737805_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R2

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem out_A_5 (c : Dev nD) (i : grid2.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond2_0 i)
    (x0 : Vec F S10000x128 .f32) (x1 : Vec F S1x128 .f32) (x2 : Vec F S1x128 .f32) (x3 : Vec F S1x128 .f32) (x4 : Vec F S1x128 .f32) :
    out2_A_5 c i a1 h1 a2 h2 a3 h3 a4 h4 a5 h5 a6 h6 a7 h7 a8 h8 hc x0 x1 x2 x3 x4 = k2_pay4 x0 x2 x3 x1 x4 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_A_6 (c : Dev nD) (i : grid2.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond2_0 i)
    (x0 : Vec F S10000x128 .f32) (x1 : Vec F S1x128 .f32) (x2 : Vec F S1x128 .f32) (x3 : Vec F S1x128 .f32) (x4 : Vec F S1x128 .f32) :
    out2_A_6 c i a1 h1 a2 h2 a3 h3 a4 h4 a5 h5 a6 h6 a7 h7 a8 h8 hc x0 x1 x2 x3 x4 = k2_pay5 x0 x2 x3 x1 x4 k2_pay2 := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_A_7 (c : Dev nD) (i : grid2.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond2_0 i)
    (x0 : Vec F S10000x128 .f32) (x1 : Vec F S1x128 .f32) (x2 : Vec F S1x128 .f32) (x3 : Vec F S1x128 .f32) (x4 : Vec F S1x128 .f32) :
    out2_A_7 c i a1 h1 a2 h2 a3 h3 a4 h4 a5 h5 a6 h6 a7 h7 a8 h8 hc x0 x1 x2 x3 x4 = k2_pay1 (k2_pay4 x0 x2 x3 x1 x4) k2_pay3 := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_B_5 (c : Dev nD) (i : grid2.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond2_0 i)
    (x0 : Vec F S10000x128 .f32) (x1 : Vec F S1x128 .f32) (x2 : Vec F S1x128 .f32) (x3 : Vec F S1x128 .f32) (x4 : Vec F S1x128 .f32) (xo6 xo7 : Vec F S1x128 .f32) :
    out2_B_5 c i a1 h1 a2 h2 a3 h3 a4 h4 a5 h5 a6 h6 a7 h7 a8 h8 hc x0 x1 x2 x3 x4 xo6 xo7 = k2_pay4 x0 x2 x3 x1 x4 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_B_6 (c : Dev nD) (i : grid2.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond2_0 i)
    (x0 : Vec F S10000x128 .f32) (x1 : Vec F S1x128 .f32) (x2 : Vec F S1x128 .f32) (x3 : Vec F S1x128 .f32) (x4 : Vec F S1x128 .f32) (xo6 xo7 : Vec F S1x128 .f32) :
    out2_B_6 c i a1 h1 a2 h2 a3 h3 a4 h4 a5 h5 a6 h6 a7 h7 a8 h8 hc x0 x1 x2 x3 x4 xo6 xo7 = k2_pay5 x0 x2 x3 x1 x4 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_B_7 (c : Dev nD) (i : grid2.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond2_0 i)
    (x0 : Vec F S10000x128 .f32) (x1 : Vec F S1x128 .f32) (x2 : Vec F S1x128 .f32) (x3 : Vec F S1x128 .f32) (x4 : Vec F S1x128 .f32) (xo6 xo7 : Vec F S1x128 .f32) :
    out2_B_7 c i a1 h1 a2 h2 a3 h3 a4 h4 a5 h5 a6 h6 a7 h7 a8 h8 hc x0 x1 x2 x3 x4 xo6 xo7 = k2_pay1 (k2_pay4 x0 x2 x3 x1 x4) xo7 := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

/-- The first running row after point n. -/
def acc6 (c : Dev nD) : (n : ℕ) → n < cfg2.N → Vec F S1x128 .f32
  | 0, h => k2_pay5 (iblk2 V c 0 ⟨0, h⟩) (iblk2 V c 2 ⟨0, h⟩) (iblk2 V c 3 ⟨0, h⟩) (iblk2 V c 1 ⟨0, h⟩) (iblk2 V c 4 ⟨0, h⟩) k2_pay2
  | n + 1, h => k2_pay5 (iblk2 V c 0 ⟨n + 1, h⟩) (iblk2 V c 2 ⟨n + 1, h⟩) (iblk2 V c 3 ⟨n + 1, h⟩) (iblk2 V c 1 ⟨n + 1, h⟩) (iblk2 V c 4 ⟨n + 1, h⟩) (acc6 c n (Nat.lt_of_succ_lt h))

/-- The second running row after point n. -/
def acc7 (c : Dev nD) : (n : ℕ) → n < cfg2.N → Vec F S1x128 .f32
  | 0, h => k2_pay1 (k2_pay4 (iblk2 V c 0 ⟨0, h⟩) (iblk2 V c 2 ⟨0, h⟩) (iblk2 V c 3 ⟨0, h⟩) (iblk2 V c 1 ⟨0, h⟩) (iblk2 V c 4 ⟨0, h⟩)) k2_pay3
  | n + 1, h => k2_pay1 (k2_pay4 (iblk2 V c 0 ⟨n + 1, h⟩) (iblk2 V c 2 ⟨n + 1, h⟩) (iblk2 V c 3 ⟨n + 1, h⟩) (iblk2 V c 1 ⟨n + 1, h⟩) (iblk2 V c 4 ⟨n + 1, h⟩)) (acc7 c n (Nat.lt_of_succ_lt h))

/-- After point n the three output buffers hold the tile's result and the two running rows. By induction on the point. -/
theorem outsAt_eq (c : Dev nD) : ∀ (n : ℕ) (h : n < cfg2.N),
    outsAt2 V c n h = (k2_pay4 (iblk2 V c 0 ⟨n, h⟩) (iblk2 V c 2 ⟨n, h⟩) (iblk2 V c 3 ⟨n, h⟩) (iblk2 V c 1 ⟨n, h⟩) (iblk2 V c 4 ⟨n, h⟩), acc6 V c n h, acc7 V c n h)
  | 0, h => (outsAt2_A V c ⟨0, h⟩ rfl).trans (by
      rw [out_A_5, out_A_6, out_A_7]
      rfl)
  | n + 1, h => by
    have hN : cfg2.N = 5 := N_2
    have hB : ¬(⟨n + 1, h⟩ : Fin cfg2.N).val % 5 = 0 := by dsimp only; omega
    rw [outsAt2_B V c ⟨n + 1, h⟩ hB, out_B_5, out_B_6, out_B_7]
    show (k2_pay4 _ _ _ _ _, k2_pay5 _ _ _ _ _ (outsAt2 V c n _).2.1, k2_pay1 (k2_pay4 _ _ _ _ _) (outsAt2 V c n _).2.2)
      = (k2_pay4 _ _ _ _ _, k2_pay5 _ _ _ _ _ (acc6 V c n _), k2_pay1 (k2_pay4 _ _ _ _ _) (acc7 V c n _))
    rw [outsAt_eq c n]

end Cert.KernelIdeal.R2
-- ==== Proof.R3Value.lean ====
/- Region 3 of the idealized kernel program: the fourth kernel of the first layer, read as one function of the arrays
   it finds.

   The kernel's grid has five points; point t loads rows 10000·t … 10000·t + 9999 of the 50000 × 128 source and the
   four 1 × 128 rows (mean, variance, scale, shift), whole at every point, and stores one 10000 × 128 tile: entry
   (q, k) is `max (scale(k) · (x(q,k) − mean(k)) · rsqrt (variance(k) + ε) + shift(k)) 0`. The single store covers the
   staging buffer, so what the body leaves there is its payload (`out_eq`). Tile t is written back to rows
   10000·t … of the output, and every row r of the output belongs to tile r / 10000, so after the five points the
   output array is the normalise-scale-shift-rectify function of the whole source and the four rows, entry by entry
   (`final5`): an entry of a tile reads the source at the same row of the whole array and each statistics row at the
   same column. The five input arrays are left as found (`arr_in`). -/
import proofs.«113410_j5944234737805_1_alg».proof.Proof.Gen.KernelIdeal.Frame
import proofs.«113410_j5944234737805_1_alg».proof.Proof.KPay1
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R3

open Cert.KernelIdeal Cert.KernelIdeal.Gen Idealize.ShloMosaic.ValueIdx

theorem hz : (![0, 0] : Fin 2 → Nat) = fun _ => 0 := funext fun a => by fin_cases a <;> rfl

section AnyValues

variable {F : FTy → Type} [FloatOps F]
variable (V : (c : Dev nD) → (b : Ref sig .tc) → Buf (Elt F) ((c : Thread nD τ).loc b))

/-- The body's one store covers the staging buffer, so the buffer ends holding the store's payload of the loaded
    blocks. -/
theorem out_eq (x0 : Vec F S10000x128 .f32) (x1 x2 x3 x4 : Vec F S1x128 .f32) :
    out3_5 x0 x1 x2 x3 x4 = k3_pay1 x0 x2 x3 x1 x4 := by
  unfold out3_5
  rw [View.canon_unit_zero hz]
  simp only [View.ld_unit_zero (S := S10000x128) hz, View.ld_unit_zero (S := S1x128) hz]

/-- The input windows' arrays end as the region found them. -/
theorem arr_in (c : Dev nD) (w : Fin cfg3.W) (hin : (cfg3.win w).isOut = false) :
    (dat3 V c).arrAt w cfg3.N = V c (Pipeline.arrRef spec3 w) :=
  ((dat3 V c).arrAt_in w hin _).trans (A_eq3 V c w)

theorem arr_in0 (c : Dev nD) : (dat3 V c).arrAt 0 cfg3.N = V c (Pipeline.arrRef spec3 0) := arr_in V c 0 rfl
theorem arr_in1 (c : Dev nD) : (dat3 V c).arrAt 1 cfg3.N = V c (Pipeline.arrRef spec3 1) := arr_in V c 1 rfl
theorem arr_in2 (c : Dev nD) : (dat3 V c).arrAt 2 cfg3.N = V c (Pipeline.arrRef spec3 2) := arr_in V c 2 rfl
theorem arr_in3 (c : Dev nD) : (dat3 V c).arrAt 3 cfg3.N = V c (Pipeline.arrRef spec3 3) := arr_in V c 3 rfl
theorem arr_in4 (c : Dev nD) : (dat3 V c).arrAt 4 cfg3.N = V c (Pipeline.arrRef spec3 4) := arr_in V c 4 rfl

end AnyValues

/-- The printed index maps over the five points: the source tile moves with the output tile, which is tile `t`; every
    row window sits at block (0, 0). -/
theorem idx_facts : ∀ t : Fin cfg3.N, win3_0.index t (0 : Fin 2) = win3_5.index t (0 : Fin 2)
    ∧ win3_0.index t (1 : Fin 2) = 0 ∧ win3_5.index t (1 : Fin 2) = 0 ∧ win3_5.index t (0 : Fin 2) = t.val
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Normalise-scale-shift-rectify at an entry depends on the data at that entry and on the four rows at its column. -/
theorem normRelu_congr {N N' D : Nat} (e z : EReal) (x : BatchNormSpec.Mat N D) (x' : BatchNormSpec.Mat N' D)
    (μ v g b μ' v' g' b' : Fin D → EReal) (i : (⟨2, ![N, D]⟩ : Shape).Idx) (i' : (⟨2, ![N', D]⟩ : Shape).Idx)
    (hx : x i = x' i') (hμ : μ (i 1) = μ' (i' 1)) (hv : v (i 1) = v' (i' 1)) (hg : g (i 1) = g' (i' 1))
    (hb : b (i 1) = b' (i' 1)) :
    BatchNormSpec.normRelu e z x μ v g b i = BatchNormSpec.normRelu e z x' μ' v' g' b' i' := by
  unfold BatchNormSpec.normRelu
  rw [hx, hμ, hv, hg, hb]

section Exact

variable (V : (c : Dev nD) → (b : Ref sig .tc) → Buf (Elt Ideal) ((c : Thread nD τ).loc b))

/-- What the output array ends holding: the normalised, scaled, shifted and rectified source, with the four rows. -/
abbrev G (c : Dev nD) : BatchNormSpec.Mat 50000 128 :=
  BatchNormSpec.normRelu (Ideal.ofBits .f32 0x3727C5AC#32) (Ideal.ofBits .f32 0x00000000#32) (V c main_v53_0)
    (KPay.rowAt (V c main_v55)) (KPay.rowAt (V c main_v59)) (KPay.rowAt (V c main_v31)) (KPay.rowAt (V c main_v34))

/-- What point `t` writes back is tile `t` of that function. -/
theorem flushed5_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5, out_eq, KPay.k3pay1_eq]
  obtain ⟨f0, f1, f5, ft, a10, a11, a20, a21, a30, a31, a40, a41⟩ := idx_facts t
  funext j
  show KPay.normTile (iblk3 V c 0 t) (iblk3 V c 1 t) (iblk3 V c 2 t) (iblk3 V c 3 t) (iblk3 V c 4 t) j
    = G V c (((cfg3.win 5).blk t).view.emb j)
  refine normRelu_congr _ _ _ _ _ _ _ _ _ _ _ _ j (((cfg3.win 5).blk t).view.emb j) ?_ ?_ ?_ ?_ ?_
  · show V c main_v53_0 (((cfg3.win 0).blk t).view.emb j) = V c main_v53_0 (((cfg3.win 5).blk t).view.emb j)
    refine congrArg _ (funext fun a => Fin.ext ?_)
    match a with
    | ⟨0, _⟩ =>
      show win3_0.index t (0 : Fin 2) * 10000 + 1 * (j 0).val = win3_5.index t (0 : Fin 2) * 10000 + 1 * (j 0).val
      omega
    | ⟨1, _⟩ =>
      show win3_0.index t (1 : Fin 2) * 128 + 1 * (j 1).val = win3_5.index t (1 : Fin 2) * 128 + 1 * (j 1).val
      omega
  · show V c main_v55 (((cfg3.win 1).blk t).view.emb (ix2 (0 : Fin 1) (j 1)))
      = V c main_v55 (ix2 (0 : Fin 1) ((((cfg3.win 5).blk t).view.emb j) 1))
    refine congrArg _ (funext fun a => Fin.ext ?_)
    match a with
    | ⟨0, _⟩ => show win3_1.index t (0 : Fin 2) * 1 + 1 * 0 = 0; omega
    | ⟨1, _⟩ =>
      show win3_1.index t (1 : Fin 2) * 128 + 1 * (j 1).val = win3_5.index t (1 : Fin 2) * 128 + 1 * (j 1).val
      omega
  · show V c main_v59 (((cfg3.win 2).blk t).view.emb (ix2 (0 : Fin 1) (j 1)))
      = V c main_v59 (ix2 (0 : Fin 1) ((((cfg3.win 5).blk t).view.emb j) 1))
    refine congrArg _ (funext fun a => Fin.ext ?_)
    match a with
    | ⟨0, _⟩ => show win3_2.index t (0 : Fin 2) * 1 + 1 * 0 = 0; omega
    | ⟨1, _⟩ =>
      show win3_2.index t (1 : Fin 2) * 128 + 1 * (j 1).val = win3_5.index t (1 : Fin 2) * 128 + 1 * (j 1).val
      omega
  · show V c main_v31 (((cfg3.win 3).blk t).view.emb (ix2 (0 : Fin 1) (j 1)))
      = V c main_v31 (ix2 (0 : Fin 1) ((((cfg3.win 5).blk t).view.emb j) 1))
    refine congrArg _ (funext fun a => Fin.ext ?_)
    match a with
    | ⟨0, _⟩ => show win3_3.index t (0 : Fin 2) * 1 + 1 * 0 = 0; omega
    | ⟨1, _⟩ =>
      show win3_3.index t (1 : Fin 2) * 128 + 1 * (j 1).val = win3_5.index t (1 : Fin 2) * 128 + 1 * (j 1).val
      omega
  · show V c main_v34 (((cfg3.win 4).blk t).view.emb (ix2 (0 : Fin 1) (j 1)))
      = V c main_v34 (ix2 (0 : Fin 1) ((((cfg3.win 5).blk t).view.emb j) 1))
    refine congrArg _ (funext fun a => Fin.ext ?_)
    match a with
    | ⟨0, _⟩ => show win3_4.index t (0 : Fin 2) * 1 + 1 * 0 = 0; omega
    | ⟨1, _⟩ =>
      show win3_4.index t (1 : Fin 2) * 128 + 1 * (j 1).val = win3_5.index t (1 : Fin 2) * 128 + 1 * (j 1).val
      omega

/-- An index of the output array is in point `t`'s tile iff each coordinate is in the tile's range on its axis. -/
theorem mem_blk5 (t : Fin cfg3.N) (i : S50000x128.Idx) :
    i ∈ ((cfg3.win 5).blk t).view.set ↔ ∀ a : Fin 2, win3_5.index t a * S10000x128.size a ≤ (i a).val
      ∧ (i a).val < win3_5.index t a * S10000x128.size a + S10000x128.size a := by
  show i ∈ ((View.whole main_v60).slice (win3_5.rect t)).set ↔ _
  rw [View.set_slice_whole, Rect.mem_set_unit]
  exact Iff.rfl

/-- Every entry of the output array is in some point's tile: row `r` is in tile `r / 10000`. -/
theorem cover5 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : grid3.N = 5 := N_3
  let t : Fin cfg3.N := ⟨(i 0).val / 10000, by show (i 0).val / 10000 < grid3.N; omega⟩
  obtain ⟨f0, f1, f5, ft, -⟩ := idx_facts t
  have htv : t.val = (i 0).val / 10000 := rfl
  refine ⟨t, flush3_5 t, ?_⟩
  rw [mem_blk5]
  intro a
  match a with
  | ⟨0, _⟩ =>
    show win3_5.index t (0 : Fin 2) * 10000 ≤ (i 0).val ∧ (i 0).val < win3_5.index t (0 : Fin 2) * 10000 + 10000
    omega
  | ⟨1, _⟩ =>
    show win3_5.index t (1 : Fin 2) * 128 ≤ (i 1).val ∧ (i 1).val < win3_5.index t (1 : Fin 2) * 128 + 128
    omega

/-- THE OUTPUT ARRAY after the region: the normalised, scaled, shifted and rectified source, entry by entry. -/
theorem final5 (c : Dev nD) : (dat3 V c).arrAt 5 cfg3.N = G V c :=
  (dat3 V c).arrAt_eq_of_cover 5 (G V c) (fun t _ => flushed5_eq V c t) (cover5)

end Exact

end Cert.KernelIdeal.R3

end
-- ==== Proof.R2Array.lean ====
/- The third kernel of the first layer: what its three output arrays hold when the region ends, at the exact values.

   The grid has five points; point t reads rows 10000·t … 10000·t + 9999 of the source and the four statistics rows,
   whole at every point, and writes back the same rows of the first output. An entry of a tile's result depends on the
   source at that entry and on the rows at its column, so tile t's result is rows 10000·t … of the normalise-scale-
   shift-rectify function of the whole source; the tiles cover the array, which therefore ends holding that function.
   The two running rows are written back once, after the last point, as they stand then: tile by tile they started from
   the zero row and added each tile's column sums (of the result, and of its squares), and a sum over the 50000 rows is
   the sum over the five tiles of the tiles' sums, so they end at the column sums and the column sums of squares of the
   whole result. -/
import proofs.«113410_j5944234737805_1_alg».proof.Proof.R2Value
import proofs.«113410_j5944234737805_1_alg».proof.Proof.R3Value
import proofs.«113410_j5944234737805_1_alg».proof.Proof.KPay1
import proofs.«113410_j5944234737805_1_alg».proof.Proof.GinTiles
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.R2

open Cert.KernelIdeal Cert.KernelIdeal.Gen

variable (V : (c : Dev nD) → (b : Ref sig .tc) → Buf (Elt Ideal) ((c : Thread nD τ).loc b))

/-- The block indices of the eight windows at each grid point: the two tile windows move with the point, the rows stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Row q of the tile of point t. -/
abbrev rowK (t : Fin cfg2.N) (q : Fin 10000) : Fin 50000 :=
  ⟨10000 * t.val + q.val, by have := t.isLt; have hN : cfg2.N = 5 := N_2; have := q.isLt; omega⟩

/-- The source tile of point t, read through its window, is rows 10000·t + q of the source array. -/
theorem tile_apply (c : Dev nD) (t : Fin cfg2.N) (q : Fin 10000) (k : Fin 128) :
    iblk2 V c 0 t (ix2 q k) = V c main_v46_0 (ix2 (rowK t q) k) := by
  obtain ⟨e0, e1, -⟩ := idx_facts t
  unfold iblk2
  rw [View.read_apply]
  show V c main_v46_0 _ = V c main_v46_0 _
  congr 1
  funext a
  apply Fin.ext
  match a with
  | ⟨0, _⟩ => show win2_0.index t (0 : Fin 2) * 10000 + 1 * q.val = 10000 * t.val + q.val; rw [e0]; omega
  | ⟨1, _⟩ => show win2_0.index t (1 : Fin 2) * 128 + 1 * k.val = k.val; rw [e1]; omega

/-- Window 1's block at every point is its whole row. -/
theorem row_blk1 (c : Dev nD) (t : Fin cfg2.N) : iblk2 V c 1 t = V c main_v48 := by
  obtain ⟨-, -, e10, e11, e20, e21, e30, e31, e40, e41, -⟩ := idx_facts t
  funext j
  unfold iblk2
  rw [View.read_apply]
  show V c main_v48 _ = V c main_v48 j
  congr 1
  funext a
  apply Fin.ext
  match a with
  | ⟨0, _⟩ => show win2_1.index t (0 : Fin 2) * 1 + 1 * (j 0).val = (j 0).val; rw [e10]; omega
  | ⟨1, _⟩ => show win2_1.index t (1 : Fin 2) * 128 + 1 * (j 1).val = (j 1).val; rw [e11]; omega

/-- Window 2's block at every point is its whole row. -/
theorem row_blk2 (c : Dev nD) (t : Fin cfg2.N) : iblk2 V c 2 t = V c main_v52 := by
  obtain ⟨-, -, e10, e11, e20, e21, e30, e31, e40, e41, -⟩ := idx_facts t
  funext j
  unfold iblk2
  rw [View.read_apply]
  show V c main_v52 _ = V c main_v52 j
  congr 1
  funext a
  apply Fin.ext
  match a with
  | ⟨0, _⟩ => show win2_2.index t (0 : Fin 2) * 1 + 1 * (j 0).val = (j 0).val; rw [e20]; omega
  | ⟨1, _⟩ => show win2_2.index t (1 : Fin 2) * 128 + 1 * (j 1).val = (j 1).val; rw [e21]; omega

/-- Window 3's block at every point is its whole row. -/
theorem row_blk3 (c : Dev nD) (t : Fin cfg2.N) : iblk2 V c 3 t = V c main_v25 := by
  obtain ⟨-, -, e10, e11, e20, e21, e30, e31, e40, e41, -⟩ := idx_facts t
  funext j
  unfold iblk2
  rw [View.read_apply]
  show V c main_v25 _ = V c main_v25 j
  congr 1
  funext a
  apply Fin.ext
  match a with
  | ⟨0, _⟩ => show win2_3.index t (0 : Fin 2) * 1 + 1 * (j 0).val = (j 0).val; rw [e30]; omega
  | ⟨1, _⟩ => show win2_3.index t (1 : Fin 2) * 128 + 1 * (j 1).val = (j 1).val; rw [e31]; omega

/-- Window 4's block at every point is its whole row. -/
theorem row_blk4 (c : Dev nD) (t : Fin cfg2.N) : iblk2 V c 4 t = V c main_v28 := by
  obtain ⟨-, -, e10, e11, e20, e21, e30, e31, e40, e41, -⟩ := idx_facts t
  funext j
  unfold iblk2
  rw [View.read_apply]
  show V c main_v28 _ = V c main_v28 j
  congr 1
  funext a
  apply Fin.ext
  match a with
  | ⟨0, _⟩ => show win2_4.index t (0 : Fin 2) * 1 + 1 * (j 0).val = (j 0).val; rw [e40]; omega
  | ⟨1, _⟩ => show win2_4.index t (1 : Fin 2) * 128 + 1 * (j 1).val = (j 1).val; rw [e41]; omega

/-- What the first output array ends holding: the normalised, scaled, shifted and rectified source. -/
abbrev A2 (c : Dev nD) : BatchNormSpec.Mat 50000 128 :=
  BatchNormSpec.normRelu (Ideal.ofBits .f32 0x3727C5AC#32) (Ideal.ofBits .f32 0x00000000#32) (V c main_v46_0)
    (KPay.rowAt (V c main_v48)) (KPay.rowAt (V c main_v52)) (KPay.rowAt (V c main_v25)) (KPay.rowAt (V c main_v28))

/-- The result on a tile is the matching rows of the result on the whole source. -/
theorem tile_norm (c : Dev nD) (t : Fin cfg2.N) (q : Fin 10000) (k : Fin 128) :
    KPay.normTile (iblk2 V c 0 t) (iblk2 V c 1 t) (iblk2 V c 2 t) (iblk2 V c 3 t) (iblk2 V c 4 t) (ix2 q k)
      = A2 V c (ix2 (rowK t q) k) := by
  rw [row_blk1, row_blk2, row_blk3, row_blk4]
  exact R3.normRelu_congr _ _ _ _ _ _ _ _ _ _ _ _ (ix2 q k) (ix2 (rowK t q) k) (tile_apply V c t q k) rfl rfl rfl rfl

/-- What point t writes back to the first output is rows 10000·t … of that function. -/
theorem flushed5_eq (c : Dev nD) (t : Fin cfg2.N) :
    (dat2 V c).flushed 5 t = ((cfg2.win 5).blk t).view.read (Elt Ideal) (A2 V c) := by
  obtain ⟨-, -, -, -, -, -, -, -, -, -, e50, e51, -⟩ := idx_facts t
  show (cfg2.win 5).cut (grid2.coords t) ((dat2 V c).after 5 t) = _
  rw [after2_5, outsAt_eq V c t.val t.isLt]
  funext j
  obtain ⟨q, k, rfl⟩ : ∃ (q : Fin 10000) (k : Fin 128), j = ix2 q k := ⟨j 0, j 1, eq_ix2 j⟩
  show k2_pay4 (iblk2 V c 0 t) (iblk2 V c 2 t) (iblk2 V c 3 t) (iblk2 V c 1 t) (iblk2 V c 4 t) (ix2 q k) = A2 V c (((cfg2.win 5).blk t).view.emb (ix2 q k))
  rw [KPay.k2pay4_eq]
  have hemb : ((cfg2.win 5).blk t).view.emb (ix2 q k) = ix2 (rowK t q) k := by
    funext a
    apply Fin.ext
    match a with
    | ⟨0, _⟩ => show win2_5.index t (0 : Fin 2) * 10000 + 1 * q.val = 10000 * t.val + q.val; rw [e50]; omega
    | ⟨1, _⟩ => show win2_5.index t (1 : Fin 2) * 128 + 1 * k.val = k.val; rw [e51]; omega
  rw [hemb]
  exact tile_norm V c t q k

/-- An index of the first output array is in point t's block iff each coordinate is in the block's range. -/
theorem mem_blk5 (t : Fin cfg2.N) (i : S50000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v53_0).slice (win2_5.rect t)).set ↔ _
  rw [View.set_slice_whole, Rect.mem_set_unit]
  exact Iff.rfl

/-- The first output array when the region ends. -/
theorem final5 (c : Dev nD) : (dat2 V c).arrAt 5 cfg2.N = A2 V c :=
  (dat2 V c).arrAt_eq_of_cover 5 (A2 V c) (fun t _ => flushed5_eq V c t) fun i => by
    have hi0 : (i 0).val < 50000 := (i 0).isLt
    have hi1 : (i 1).val < 128 := (i 1).isLt
    have hN : cfg2.N = 5 := N_2
    obtain ⟨-, -, -, -, -, -, -, -, -, -, e50, e51, -⟩ := idx_facts ⟨(i 0).val / 10000, by omega⟩
    refine ⟨⟨(i 0).val / 10000, by omega⟩, flush2_5 _, ?_⟩
    rw [mem_blk5]
    intro a
    match a with
    | ⟨0, _⟩ =>
      show win2_5.index ⟨(i 0).val / 10000, _⟩ (0 : Fin 2) * 10000 ≤ (i 0).val
        ∧ (i 0).val < win2_5.index ⟨(i 0).val / 10000, _⟩ (0 : Fin 2) * 10000 + 10000
      rw [e50]; dsimp only; omega
    | ⟨1, _⟩ =>
      show win2_5.index ⟨(i 0).val / 10000, _⟩ (1 : Fin 2) * 128 ≤ (i 1).val
        ∧ (i 1).val < win2_5.index ⟨(i 0).val / 10000, _⟩ (1 : Fin 2) * 128 + 128
      rw [e51]; omega

/-! ## The two running rows -/

/-- The last grid point. -/
abbrev tLast : Fin cfg2.N := ⟨4, by rw [show cfg2.N = 5 from N_2]; decide⟩

/-- Point 4 is a point of the grid. -/
theorem h4 : 4 < cfg2.N := tLast.isLt

/-- An index of running row 6's array is in point t's block iff each coordinate is in the block's range. -/
theorem mem_blk6 (t : Fin cfg2.N) (i : S1x128.Idx) :
    i ∈ ((cfg2.win 6).blk t).view.set ↔ ∀ a : Fin 2, win2_6.index t a * S1x128.size a ≤ (i a).val
      ∧ (i a).val < win2_6.index t a * S1x128.size a + S1x128.size a := by
  show i ∈ ((View.whole main_v53_1).slice (win2_6.rect t)).set ↔ _
  rw [View.set_slice_whole, Rect.mem_set_unit]
  exact Iff.rfl

/-- The one write-back of running row 6, after the last point, writes the row as it stands after point 4. -/
theorem flushed6_eq (c : Dev nD) (t : Fin cfg2.N) (hf : (cfg2.win 6).flush t = true) :
    (dat2 V c).flushed 6 t = ((cfg2.win 6).blk t).view.read (Elt Ideal) (acc6 V c 4 h4) := by
  have hN : cfg2.N = 5 := N_2
  have ht : t.val = 4 := by have := (flush2_6 t).mp hf; have := t.isLt; omega
  obtain rfl : t = tLast := Fin.ext ht
  obtain ⟨-, -, -, -, -, -, -, -, -, -, -, -, e60, e61, e70, e71⟩ := idx_facts tLast
  show (cfg2.win 6).cut (grid2.coords tLast) ((dat2 V c).after 6 tLast) = _
  rw [after2_6, outsAt_eq V c tLast.val tLast.isLt]
  funext j
  show acc6 V c 4 _ j = acc6 V c 4 _ (((cfg2.win 6).blk tLast).view.emb j)
  congr 1
  funext a
  apply Fin.ext
  match a with
  | ⟨0, _⟩ => show (j 0).val = win2_6.index tLast (0 : Fin 2) * 1 + 1 * (j 0).val; rw [e60]; omega
  | ⟨1, _⟩ => show (j 1).val = win2_6.index tLast (1 : Fin 2) * 128 + 1 * (j 1).val; rw [e61]; omega

/-- Running row 6's array when the region ends. -/
theorem final6 (c : Dev nD) : (dat2 V c).arrAt 6 cfg2.N = acc6 V c 4 h4 :=
  (dat2 V c).arrAt_eq_of_cover 6 (acc6 V c 4 h4) (flushed6_eq V c) fun i => by
    have hi0 : (i 0).val < 1 := (i 0).isLt
    have hi1 : (i 1).val < 128 := (i 1).isLt
    obtain ⟨-, -, -, -, -, -, -, -, -, -, -, -, e60, e61, e70, e71⟩ := idx_facts tLast
    refine ⟨tLast, (flush2_6 tLast).mpr rfl, ?_⟩
    rw [mem_blk6]
    intro a
    match a with
    | ⟨0, _⟩ =>
      show win2_6.index tLast (0 : Fin 2) * 1 ≤ (i 0).val ∧ (i 0).val < win2_6.index tLast (0 : Fin 2) * 1 + 1
      rw [e60]; omega
    | ⟨1, _⟩ =>
      show win2_6.index tLast (1 : Fin 2) * 128 ≤ (i 1).val ∧ (i 1).val < win2_6.index tLast (1 : Fin 2) * 128 + 128
      rw [e61]; omega

/-- An index of running row 7's array is in point t's block iff each coordinate is in the block's range. -/
theorem mem_blk7 (t : Fin cfg2.N) (i : S1x128.Idx) :
    i ∈ ((cfg2.win 7).blk t).view.set ↔ ∀ a : Fin 2, win2_7.index t a * S1x128.size a ≤ (i a).val
      ∧ (i a).val < win2_7.index t a * S1x128.size a + S1x128.size a := by
  show i ∈ ((View.whole main_v53_2).slice (win2_7.rect t)).set ↔ _
  rw [View.set_slice_whole, Rect.mem_set_unit]
  exact Iff.rfl

/-- The one write-back of running row 7, after the last point, writes the row as it stands after point 4. -/
theorem flushed7_eq (c : Dev nD) (t : Fin cfg2.N) (hf : (cfg2.win 7).flush t = true) :
    (dat2 V c).flushed 7 t = ((cfg2.win 7).blk t).view.read (Elt Ideal) (acc7 V c 4 h4) := by
  have hN : cfg2.N = 5 := N_2
  have ht : t.val = 4 := by have := (flush2_7 t).mp hf; have := t.isLt; omega
  obtain rfl : t = tLast := Fin.ext ht
  obtain ⟨-, -, -, -, -, -, -, -, -, -, -, -, e60, e61, e70, e71⟩ := idx_facts tLast
  show (cfg2.win 7).cut (grid2.coords tLast) ((dat2 V c).after 7 tLast) = _
  rw [after2_7, outsAt_eq V c tLast.val tLast.isLt]
  funext j
  show acc7 V c 4 _ j = acc7 V c 4 _ (((cfg2.win 7).blk tLast).view.emb j)
  congr 1
  funext a
  apply Fin.ext
  match a with
  | ⟨0, _⟩ => show (j 0).val = win2_7.index tLast (0 : Fin 2) * 1 + 1 * (j 0).val; rw [e70]; omega
  | ⟨1, _⟩ => show (j 1).val = win2_7.index tLast (1 : Fin 2) * 128 + 1 * (j 1).val; rw [e71]; omega

/-- Running row 7's array when the region ends. -/
theorem final7 (c : Dev nD) : (dat2 V c).arrAt 7 cfg2.N = acc7 V c 4 h4 :=
  (dat2 V c).arrAt_eq_of_cover 7 (acc7 V c 4 h4) (flushed7_eq V c) fun i => by
    have hi0 : (i 0).val < 1 := (i 0).isLt
    have hi1 : (i 1).val < 128 := (i 1).isLt
    obtain ⟨-, -, -, -, -, -, -, -, -, -, -, -, e60, e61, e70, e71⟩ := idx_facts tLast
    refine ⟨tLast, (flush2_7 tLast).mpr rfl, ?_⟩
    rw [mem_blk7]
    intro a
    match a with
    | ⟨0, _⟩ =>
      show win2_7.index tLast (0 : Fin 2) * 1 ≤ (i 0).val ∧ (i 0).val < win2_7.index tLast (0 : Fin 2) * 1 + 1
      rw [e70]; omega
    | ⟨1, _⟩ =>
      show win2_7.index tLast (1 : Fin 2) * 128 ≤ (i 1).val ∧ (i 1).val < win2_7.index tLast (1 : Fin 2) * 128 + 128
      rw [e71]; omega

/-! ## The running rows are the column sums -/

/-- Running row 6 at column cc, as a sequence in the point (zero past the last point). -/
def A6 (c : Dev nD) (cc : Fin 128) (n : ℕ) : EReal :=
  if h : n < cfg2.N then acc6 V c n h (ix2 (0 : Fin 1) cc) else 0

/-- After the last point, running row 6 holds the column sums of the whole result. -/
theorem acc6_eq (c : Dev nD) (cc : Fin 128) :
    acc6 V c 4 h4 (ix2 (0 : Fin 1) cc) = BatchNormSpec.colSum (A2 V c) cc := by
  have hN : cfg2.N = 5 := N_2
  have key := GinTiles.acc_eq_colSum (A2 V c) cc (A6 V c cc) ?h0 ?hs
  · rw [← key]
    unfold A6
    rw [dif_pos h4]
  case h0 =>
    unfold A6
    rw [dif_pos (by omega : 0 < cfg2.N)]
    refine (KPay.k2pay5_apply (iblk2 V c 0 ⟨0, by omega⟩) (iblk2 V c 2 ⟨0, by omega⟩) (iblk2 V c 3 ⟨0, by omega⟩) (iblk2 V c 1 ⟨0, by omega⟩) (iblk2 V c 4 ⟨0, by omega⟩) (k2_pay2 (F := Ideal)) cc).trans ?_
    rw [KPay.k2pay2_apply]
    refine congrArg ((0 : EReal) + ·) ?_
    unfold GinTiles.tileSum
    rw [dif_pos (by norm_num : 0 < 5)]
    exact Finset.sum_congr rfl fun q _ => tile_norm V c ⟨0, by omega⟩ q cc
  case hs =>
    intro n hn
    unfold A6
    rw [dif_pos (by omega : n + 1 < cfg2.N), dif_pos (by omega : n < cfg2.N)]
    refine (KPay.k2pay5_apply (iblk2 V c 0 ⟨n + 1, by omega⟩) (iblk2 V c 2 ⟨n + 1, by omega⟩) (iblk2 V c 3 ⟨n + 1, by omega⟩) (iblk2 V c 1 ⟨n + 1, by omega⟩) (iblk2 V c 4 ⟨n + 1, by omega⟩) (acc6 V c n (by omega)) cc).trans ?_
    refine congrArg (acc6 V c n (by omega) (ix2 (0 : Fin 1) cc) + ·) ?_
    unfold GinTiles.tileSum
    rw [dif_pos hn]
    exact Finset.sum_congr rfl fun q _ => tile_norm V c ⟨n + 1, by omega⟩ q cc

/-- Running row 7 at column cc, as a sequence in the point (zero past the last point). -/
def A7 (c : Dev nD) (cc : Fin 128) (n : ℕ) : EReal :=
  if h : n < cfg2.N then acc7 V c n h (ix2 (0 : Fin 1) cc) else 0

/-- After the last point, running row 7 holds the column sums of squares of the whole result. -/
theorem acc7_eq (c : Dev nD) (cc : Fin 128) :
    acc7 V c 4 h4 (ix2 (0 : Fin 1) cc) = BatchNormSpec.colSumSq (A2 V c) cc := by
  have hN : cfg2.N = 5 := N_2
  have key := GinTiles.acc_eq_colSumSq (A2 V c) cc (A7 V c cc) ?h0 ?hs
  · rw [← key]
    unfold A7
    rw [dif_pos h4]
  case h0 =>
    unfold A7
    rw [dif_pos (by omega : 0 < cfg2.N)]
    refine (KPay.k2pay1_apply (k2_pay4 (iblk2 V c 0 ⟨0, by omega⟩) (iblk2 V c 2 ⟨0, by omega⟩) (iblk2 V c 3 ⟨0, by omega⟩) (iblk2 V c 1 ⟨0, by omega⟩) (iblk2 V c 4 ⟨0, by omega⟩)) (k2_pay3 (F := Ideal)) cc).trans ?_
    rw [KPay.k2pay3_apply, KPay.k2pay4_eq]
    refine congrArg ((0 : EReal) + ·) ?_
    unfold GinTiles.tileSum
    rw [dif_pos (by norm_num : 0 < 5)]
    exact Finset.sum_congr rfl fun q _ =>
      congrArg₂ (· * ·) (tile_norm V c ⟨0, by omega⟩ q cc) (tile_norm V c ⟨0, by omega⟩ q cc)
  case hs =>
    intro n hn
    unfold A7
    rw [dif_pos (by omega : n + 1 < cfg2.N), dif_pos (by omega : n < cfg2.N)]
    refine (KPay.k2pay1_apply (k2_pay4 (iblk2 V c 0 ⟨n + 1, by omega⟩) (iblk2 V c 2 ⟨n + 1, by omega⟩) (iblk2 V c 3 ⟨n + 1, by omega⟩) (iblk2 V c 1 ⟨n + 1, by omega⟩) (iblk2 V c 4 ⟨n + 1, by omega⟩)) (acc7 V c n (by omega)) cc).trans ?_
    rw [KPay.k2pay4_eq]
    refine congrArg (acc7 V c n (by omega) (ix2 (0 : Fin 1) cc) + ·) ?_
    unfold GinTiles.tileSum
    rw [dif_pos hn]
    exact Finset.sum_congr rfl fun q _ =>
      congrArg₂ (· * ·) (tile_norm V c ⟨n + 1, by omega⟩ q cc) (tile_norm V c ⟨n + 1, by omega⟩ q cc)

/-- The input windows' arrays end as the region found them. -/
theorem arr_in (c : Dev nD) (w : Fin cfg2.W) (hin : (cfg2.win w).isOut = false) :
    (dat2 V c).arrAt w cfg2.N = V c (Pipeline.arrRef spec2 w) :=
  ((dat2 V c).arrAt_in w hin _).trans (A_eq2 V c w)

theorem arr_in0 (c : Dev nD) : (dat2 V c).arrAt 0 cfg2.N = V c (Pipeline.arrRef spec2 0) := arr_in V c 0 rfl
theorem arr_in1 (c : Dev nD) : (dat2 V c).arrAt 1 cfg2.N = V c (Pipeline.arrRef spec2 1) := arr_in V c 1 rfl
theorem arr_in2 (c : Dev nD) : (dat2 V c).arrAt 2 cfg2.N = V c (Pipeline.arrRef spec2 2) := arr_in V c 2 rfl
theorem arr_in3 (c : Dev nD) : (dat2 V c).arrAt 3 cfg2.N = V c (Pipeline.arrRef spec2 3) := arr_in V c 3 rfl
theorem arr_in4 (c : Dev nD) : (dat2 V c).arrAt 4 cfg2.N = V c (Pipeline.arrRef spec2 4) := arr_in V c 4 rfl

end Cert.KernelIdeal.R2

end
-- ==== Proof.GinConsts.lean ====
/-
  The float words the two programs spell, as the extended reals they denote: the row count 50000, the
  normalisation's epsilon (a positive real, whose exact value never matters), and the integer zero converted to a float.
-/
import Idealize.ShloMosaic.PureOps.Ideal
import Idealize.ShloMosaic.PureOps.Ideal.Laws

noncomputable section

namespace GinConsts

open Idealize.ShloMosaic

/-- The word of `50000.0` denotes the real 50000, the number of rows. -/
theorem ofBits_50000 : Ideal.ofBits .f32 0x47435000#32 = ((50000 : ℝ) : EReal) := by
  simp [Ideal.ofBits, Ideal.ieee, -EReal.coe_mul]; norm_num

/-- The epsilon added to a variance denotes a positive real. -/
theorem ofBits_eps : ∃ r : ℝ, 0 < r ∧ Ideal.ofBits .f32 0x3727C5AC#32 = (r : EReal) := by
  refine ⟨_, ?_, by simp [Ideal.ofBits, Ideal.ieee, -EReal.coe_mul]; rfl⟩
  norm_num

end GinConsts

end
-- ==== Proof.KHost.lean ====
/-
  The host operations between the kernel regions of layer 0, as functions of the buffer contents they start from.
  After each of the first three regions the program divides the region's two accumulated rows (the column sums and the
  column sums of squares) by the row count 50000, giving the column means, and subtracts the squared mean from the mean
  square, giving the column variances in their moment form.
-/
import proofs.«113410_j5944234737805_1_alg».proof.Proof.Gen.KernelIdeal.Launch
import Idealize.ShloMosaic.Lib.StableHlo.Run
import Idealize.ShloMosaic.Lib.ValueIdx
import proofs.«113410_j5944234737805_1_alg».proof.Proof.LibBatchNorm
import proofs.«113410_j5944234737805_1_alg».proof.Proof.GinConsts

noncomputable section

namespace Cert.KernelIdeal.KHost

open Cert.KernelIdeal Cert.KernelIdeal.Gen Idealize.ShloMosaic Idealize.ShloMosaic.TcCoe Idealize.SL.Sem
open Idealize.ShloMosaic.StableHlo

variable {F : FTy → Type} [FloatOps F]

/-- A row of 128 floats, as a 1 × 128 array. -/
abbrev Row (F : FTy → Type) : Type := (⟨S1x128, .f32⟩ : BufTy).Contents (Elt F)

/-- An accumulated row divided by the row count 50000. -/
def rowMean (s : Row F) : Row F :=
  Host.divf s (broadcastInDim S1x128 ![] bcast_S_S1x128 (constant S_ .f32 0x47435000#32))

/-- The moment form of the variance: the mean square minus the squared mean. -/
def rowVar (s q : Row F) : Row F := subf (rowMean q) (mulf (rowMean s) (rowMean s))

/-- After region 0: the means of the first dense layer's columns. -/
theorem mean1_eq (W : Valuation τ sig (Elt F)) :
    after hostOps1 W (Proc.devRef .tc main_v39) = rowMean (W (Proc.devRef .tc main_v37_1)) := by
  after_results
  rfl

/-- After region 0: their variances. -/
theorem var1_eq (W : Valuation τ sig (Elt F)) :
    after hostOps1 W (Proc.devRef .tc main_v43)
      = rowVar (W (Proc.devRef .tc main_v37_1)) (W (Proc.devRef .tc main_v37_2)) := by
  after_results
  rfl

/-- After region 1: the means of the second dense layer's columns. -/
theorem mean2_eq (W : Valuation τ sig (Elt F)) :
    after hostOps2 W (Proc.devRef .tc main_v48) = rowMean (W (Proc.devRef .tc main_v46_1)) := by
  after_results
  rfl

/-- After region 1: their variances. -/
theorem var2_eq (W : Valuation τ sig (Elt F)) :
    after hostOps2 W (Proc.devRef .tc main_v52)
      = rowVar (W (Proc.devRef .tc main_v46_1)) (W (Proc.devRef .tc main_v46_2)) := by
  after_results
  rfl

/-- After region 2: the means of the rectified columns. -/
theorem mean3_eq (W : Valuation τ sig (Elt F)) :
    after hostOps3 W (Proc.devRef .tc main_v55) = rowMean (W (Proc.devRef .tc main_v53_1)) := by
  after_results
  rfl

/-- After region 2: their variances. -/
theorem var3_eq (W : Valuation τ sig (Elt F)) :
    after hostOps3 W (Proc.devRef .tc main_v59)
      = rowVar (W (Proc.devRef .tc main_v53_1)) (W (Proc.devRef .tc main_v53_2)) := by
  after_results
  rfl

/-! ## The first stretch of layer 0: the neighbour sum and row 0 of every stacked parameter -/

/-- A 50000 × 128 array of floats. -/
abbrev Mat (F : FTy → Type) : Type := (⟨S50000x128, .f32⟩ : BufTy).Contents (Elt F)
/-- 800000 edge endpoints. -/
abbrev Ix (F : FTy → Type) : Type := (⟨S800000, .i32⟩ : BufTy).Contents (Elt F)

/-- The edge sources as gather indices: a negative index wrapped by adding 50000, then made a column. -/
def srcIx (src : Ix F) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The features plus their neighbour sum: starting from zeros, row `src e` of `h` is added into row `dst e` for every
    edge `e`, and `h` is added to the result. -/
def rst (h : Mat F) (src dst : Ix F) : Mat F :=
  addf h (Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h (srcIx src)))

/-- Row 0 of five stacked vectors, as a 1 × 128 array (sliced, flattened, and made a row again). -/
def row0 (p : (⟨S5x128, .f32⟩ : BufTy).Contents (Elt F)) : Row F :=
  shapeCast S1x128 (shapeCast S128 (extractStridedSlice S1x128 ![0, 0] p slices_S5x128_S1x128_0_0) shapeCasts_S1x128_S128)
    shapeCasts_S128_S1x128

/-- Matrix 0 of five stacked 128 × 128 matrices. -/
def mat0 (p : (⟨S5x128x128, .f32⟩ : BufTy).Contents (Elt F)) : (⟨S128x128, .f32⟩ : BufTy).Contents (Elt F) :=
  shapeCast S128x128 (extractStridedSlice S1x128x128 ![0, 0, 0] p slices_S5x128x128_S1x128x128_0_0_0)
    shapeCasts_S1x128x128_S128x128

/-- Region 0's first operand: the features plus their neighbour sum. -/
theorem rst0_eq (W : Valuation τ sig (Elt F)) :
    after hostOps0 W (Proc.devRef .tc main_v10)
      = rst (W (Proc.devRef .tc main_arg0)) (W (Proc.devRef .tc main_arg1)) (W (Proc.devRef .tc main_arg2)) := by
  after_results
  rfl

/-- Region 0's weights and bias row. -/
theorem w1_0_eq (W : Valuation τ sig (Elt F)) :
    after hostOps0 W (Proc.devRef .tc main_v36) = mat0 (W (Proc.devRef .tc main_arg3)) := by
  after_results
  rfl
theorem b1_0_eq (W : Valuation τ sig (Elt F)) :
    after hostOps0 W (Proc.devRef .tc main_v13) = row0 (W (Proc.devRef .tc main_arg4)) := by
  after_results
  rfl

/-- The other parameter rows of layer 0, each row 0 of its stacked argument. -/
theorem b2_0_eq (W : Valuation τ sig (Elt F)) :
    after hostOps0 W (Proc.devRef .tc main_v16) = row0 (W (Proc.devRef .tc main_arg6)) := by
  after_results
  rfl
theorem g1_0_eq (W : Valuation τ sig (Elt F)) :
    after hostOps0 W (Proc.devRef .tc main_v19) = row0 (W (Proc.devRef .tc main_arg7)) := by
  after_results
  rfl
theorem be1_0_eq (W : Valuation τ sig (Elt F)) :
    after hostOps0 W (Proc.devRef .tc main_v22) = row0 (W (Proc.devRef .tc main_arg8)) := by
  after_results
  rfl
theorem g2_0_eq (W : Valuation τ sig (Elt F)) :
    after hostOps0 W (Proc.devRef .tc main_v25) = row0 (W (Proc.devRef .tc main_arg9)) := by
  after_results
  rfl
theorem be2_0_eq (W : Valuation τ sig (Elt F)) :
    after hostOps0 W (Proc.devRef .tc main_v28) = row0 (W (Proc.devRef .tc main_arg10)) := by
  after_results
  rfl
theorem g3_0_eq (W : Valuation τ sig (Elt F)) :
    after hostOps0 W (Proc.devRef .tc main_v31) = row0 (W (Proc.devRef .tc main_arg11)) := by
  after_results
  rfl
theorem be3_0_eq (W : Valuation τ sig (Elt F)) :
    after hostOps0 W (Proc.devRef .tc main_v34) = row0 (W (Proc.devRef .tc main_arg12)) := by
  after_results
  rfl

/-- The second dense layer's weights, sliced after region 0. -/
theorem w2_0_eq (W : Valuation τ sig (Elt F)) :
    after hostOps1 W (Proc.devRef .tc main_v45) = mat0 (W (Proc.devRef .tc main_arg5)) := by
  after_results
  rfl

/-! ## What the stretches leave alone: a buffer no operation of a stretch writes keeps its contents across it -/

theorem keep_hostOps1_main_v37_0 (W : Valuation τ sig (Elt F)) :
    after hostOps1 W (Proc.devRef .tc main_v37_0) = W (Proc.devRef .tc main_v37_0) := by
  after_results
theorem keep_hostOps1_main_v19 (W : Valuation τ sig (Elt F)) :
    after hostOps1 W (Proc.devRef .tc main_v19) = W (Proc.devRef .tc main_v19) := by
  after_results
theorem keep_hostOps1_main_v22 (W : Valuation τ sig (Elt F)) :
    after hostOps1 W (Proc.devRef .tc main_v22) = W (Proc.devRef .tc main_v22) := by
  after_results
theorem keep_hostOps1_main_v16 (W : Valuation τ sig (Elt F)) :
    after hostOps1 W (Proc.devRef .tc main_v16) = W (Proc.devRef .tc main_v16) := by
  after_results
theorem keep_hostOps1_main_v25 (W : Valuation τ sig (Elt F)) :
    after hostOps1 W (Proc.devRef .tc main_v25) = W (Proc.devRef .tc main_v25) := by
  after_results
theorem keep_hostOps1_main_v28 (W : Valuation τ sig (Elt F)) :
    after hostOps1 W (Proc.devRef .tc main_v28) = W (Proc.devRef .tc main_v28) := by
  after_results
theorem keep_hostOps1_main_v31 (W : Valuation τ sig (Elt F)) :
    after hostOps1 W (Proc.devRef .tc main_v31) = W (Proc.devRef .tc main_v31) := by
  after_results
theorem keep_hostOps1_main_v34 (W : Valuation τ sig (Elt F)) :
    after hostOps1 W (Proc.devRef .tc main_v34) = W (Proc.devRef .tc main_v34) := by
  after_results

theorem keep_hostOps2_main_v46_0 (W : Valuation τ sig (Elt F)) :
    after hostOps2 W (Proc.devRef .tc main_v46_0) = W (Proc.devRef .tc main_v46_0) := by
  after_results
theorem keep_hostOps2_main_v25 (W : Valuation τ sig (Elt F)) :
    after hostOps2 W (Proc.devRef .tc main_v25) = W (Proc.devRef .tc main_v25) := by
  after_results
theorem keep_hostOps2_main_v28 (W : Valuation τ sig (Elt F)) :
    after hostOps2 W (Proc.devRef .tc main_v28) = W (Proc.devRef .tc main_v28) := by
  after_results
theorem keep_hostOps2_main_v31 (W : Valuation τ sig (Elt F)) :
    after hostOps2 W (Proc.devRef .tc main_v31) = W (Proc.devRef .tc main_v31) := by
  after_results
theorem keep_hostOps2_main_v34 (W : Valuation τ sig (Elt F)) :
    after hostOps2 W (Proc.devRef .tc main_v34) = W (Proc.devRef .tc main_v34) := by
  after_results

theorem keep_hostOps3_main_v53_0 (W : Valuation τ sig (Elt F)) :
    after hostOps3 W (Proc.devRef .tc main_v53_0) = W (Proc.devRef .tc main_v53_0) := by
  after_results
theorem keep_hostOps3_main_v31 (W : Valuation τ sig (Elt F)) :
    after hostOps3 W (Proc.devRef .tc main_v31) = W (Proc.devRef .tc main_v31) := by
  after_results
theorem keep_hostOps3_main_v34 (W : Valuation τ sig (Elt F)) :
    after hostOps3 W (Proc.devRef .tc main_v34) = W (Proc.devRef .tc main_v34) := by
  after_results

/-! ## The statistics rows at the exact values -/

section Read

open Idealize.ShloMosaic.ValueIdx

/-- At the exact values the mean row reads, at column c, the accumulated row at c divided by the real 50000. -/
theorem rowMean_apply (s : Row Ideal) (c : Fin 128) :
    rowMean s (ix2 (0 : Fin 1) c) = Ideal.div (s (ix2 (0 : Fin 1) c)) ((50000 : ℝ) : EReal) := by
  show Ideal.div (s (ix2 (0 : Fin 1) c)) (Ideal.ofBits .f32 0x47435000#32) = _
  rw [GinConsts.ofBits_50000]

/-- The variance row reads the mean square minus the squared mean. -/
theorem rowVar_apply (s q : Row Ideal) (c : Fin 128) :
    rowVar s q (ix2 (0 : Fin 1) c)
      = Ideal.div (q (ix2 (0 : Fin 1) c)) ((50000 : ℝ) : EReal)
        - Ideal.div (s (ix2 (0 : Fin 1) c)) ((50000 : ℝ) : EReal) * Ideal.div (s (ix2 (0 : Fin 1) c)) ((50000 : ℝ) : EReal) := by
  unfold rowVar
  rw [subf_apply, mulf_apply, rowMean_apply, rowMean_apply]

/-- When the accumulated row holds the column sums of a matrix, the mean row holds its column means. -/
theorem rowMean_of_colSum (x : BatchNormSpec.Mat 50000 128) (s : Row Ideal) (c : Fin 128)
    (hs : s (ix2 (0 : Fin 1) c) = BatchNormSpec.colSum x c) :
    rowMean s (ix2 (0 : Fin 1) c) = BatchNormSpec.mean 50000 x c := by
  rw [rowMean_apply, hs]
  rfl

/-- When the two accumulated rows hold the column sums and the column sums of squares of a matrix, the variance row holds
    its column variances in the moment form. -/
theorem rowVar_of_colSums (x : BatchNormSpec.Mat 50000 128) (s q : Row Ideal) (c : Fin 128)
    (hs : s (ix2 (0 : Fin 1) c) = BatchNormSpec.colSum x c) (hq : q (ix2 (0 : Fin 1) c) = BatchNormSpec.colSumSq x c) :
    rowVar s q (ix2 (0 : Fin 1) c) = BatchNormSpec.varMoment 50000 x c := by
  rw [rowVar_apply, hs, hq]
  rfl

end Read

end Cert.KernelIdeal.KHost

end
-- ==== Proof.GinSpec.lean ====
/-
  One layer of the network as a function on matrices of extended reals, in the two spellings the two programs use.

  A layer takes the features plus their neighbour sum `y₀` (50000 rows, 128 columns) and applies: a dense layer, a batch
  normalisation with rectifier, a second dense layer, and two more batch normalisations with rectifier. A batch
  normalisation subtracts the column mean, multiplies by a scale and by the reciprocal square root of the column variance
  plus a positive epsilon, adds a shift, and takes the maximum with zero. The reference takes the variance as the mean of
  the squared deviations (`bnC`); the kernels take it as the mean of the squares minus the squared mean (`bnM`). On
  real data the two agree, and every stage maps reals to reals, so the two spellings of the layer are the same function
  on real inputs, with a real result.
-/
import proofs.«113410_j5944234737805_1_alg».proof.Proof.LibDense
import proofs.«113410_j5944234737805_1_alg».proof.Proof.LibBatchNorm

noncomputable section

namespace GinSpec

open Idealize.ShloMosaic Idealize.ShloMosaic.ValueIdx Cert.LibMoments BatchNormSpec
open scoped BigOperators

/-- The number of rows, and the number of columns. -/
abbrev N : Nat := 50000
abbrev D : Nat := 128

/-- A row of scales or shifts, as a function of the column. -/
abbrev Row := Fin D → EReal

/-- Batch normalisation with rectifier, the variance centred. -/
def bnC (e z : EReal) (y : Mat N D) (g β : Row) : Mat N D :=
  normRelu e z y (mean (N : ℝ) y) (varCentred (N : ℝ) y) g β

/-- Batch normalisation with rectifier, the variance in the moment form. -/
def bnM (e z : EReal) (y : Mat N D) (g β : Row) : Mat N D :=
  normRelu e z y (mean (N : ℝ) y) (varMoment (N : ℝ) y) g β

/-- On real data the two spellings agree. -/
theorem bnM_eq_bnC (e z : EReal) (y : Mat N D) (hy : ∀ i, IsReal (y i)) (g β : Row) : bnM e z y g β = bnC e z y g β := by
  unfold bnM bnC
  have hv : varMoment (N : ℝ) y = varCentred (N : ℝ) y := funext fun c => (var_eq (by decide) y hy c).symm
  rw [hv]

/-- Batch normalisation with rectifier keeps reals real, for a positive real epsilon. -/
theorem bnC_isReal {e z : EReal} (he : ∃ r : ℝ, 0 < r ∧ e = (r : EReal)) (hz : IsReal z) (y : Mat N D)
    (hy : ∀ i, IsReal (y i)) (g β : Row) (hg : ∀ c, IsReal (g c)) (hβ : ∀ c, IsReal (β c)) (i) :
    IsReal (bnC e z y g β i) :=
  normRelu_isReal he hz y _ _ g β hy (fun c => mean_isReal (by norm_num) y hy c)
    (fun c => varCentred_nonneg (by norm_num) y hy c) hg hβ i

/-- A dense layer keeps reals real. -/
theorem dense_isReal {R K P : Nat} (a : DenseSpec.Mat R K) (w : DenseSpec.Mat K P) (b : DenseSpec.Mat 1 P)
    (ha : ∀ i, IsReal (a i)) (hw : ∀ i, IsReal (w i)) (hb : ∀ i, IsReal (b i)) (i) : IsReal (DenseSpec.dense a w b i) := by
  unfold DenseSpec.dense
  exact (IsReal.fintype_sum _ fun k => (ha _).mul (hw _)).add (hb _)

/-- The parameters of one layer: two weight matrices with their bias rows, three scale and shift rows. -/
structure Params where
  W1 : DenseSpec.Mat D D
  b1 : DenseSpec.Mat 1 D
  W2 : DenseSpec.Mat D D
  b2 : DenseSpec.Mat 1 D
  g1 : Row
  β1 : Row
  g2 : Row
  β2 : Row
  g3 : Row
  β3 : Row

/-- Every parameter is real. -/
structure Params.Real (p : Params) : Prop where
  W1 : ∀ i, IsReal (p.W1 i)
  b1 : ∀ i, IsReal (p.b1 i)
  W2 : ∀ i, IsReal (p.W2 i)
  b2 : ∀ i, IsReal (p.b2 i)
  g1 : ∀ c, IsReal (p.g1 c)
  β1 : ∀ c, IsReal (p.β1 c)
  g2 : ∀ c, IsReal (p.g2 c)
  β2 : ∀ c, IsReal (p.β2 c)
  g3 : ∀ c, IsReal (p.g3 c)
  β3 : ∀ c, IsReal (p.β3 c)

/-- The layer with centred variances, from the features plus their neighbour sum. -/
def layerC (e z : EReal) (p : Params) (y0 : Mat N D) : Mat N D :=
  bnC e z (bnC e z (DenseSpec.dense (bnC e z (DenseSpec.dense y0 p.W1 p.b1) p.g1 p.β1) p.W2 p.b2) p.g2 p.β2) p.g3 p.β3

/-- The layer with moment variances. -/
def layerM (e z : EReal) (p : Params) (y0 : Mat N D) : Mat N D :=
  bnM e z (bnM e z (DenseSpec.dense (bnM e z (DenseSpec.dense y0 p.W1 p.b1) p.g1 p.β1) p.W2 p.b2) p.g2 p.β2) p.g3 p.β3

variable {e z : EReal}

/-- On real inputs the layer's result is real. -/
theorem layerC_isReal (he : ∃ r : ℝ, 0 < r ∧ e = (r : EReal)) (hz : IsReal z) (p : Params) (hp : p.Real) (y0 : Mat N D) (hy : ∀ i, IsReal (y0 i)) (i) : IsReal (layerC e z p y0 i) := by
  have h1 := dense_isReal y0 p.W1 p.b1 hy hp.W1 hp.b1
  have h2 := bnC_isReal he hz _ h1 p.g1 p.β1 hp.g1 hp.β1
  have h3 := dense_isReal _ p.W2 p.b2 h2 hp.W2 hp.b2
  have h4 := bnC_isReal he hz _ h3 p.g2 p.β2 hp.g2 hp.β2
  exact bnC_isReal he hz _ h4 p.g3 p.β3 hp.g3 hp.β3 i

/-- On real inputs the two spellings of the layer are the same function. -/
theorem layerM_eq_layerC (he : ∃ r : ℝ, 0 < r ∧ e = (r : EReal)) (hz : IsReal z) (p : Params) (hp : p.Real) (y0 : Mat N D) (hy : ∀ i, IsReal (y0 i)) :
    layerM e z p y0 = layerC e z p y0 := by
  have h1 := dense_isReal y0 p.W1 p.b1 hy hp.W1 hp.b1
  have h2 := bnC_isReal he hz _ h1 p.g1 p.β1 hp.g1 hp.β1
  have h3 := dense_isReal _ p.W2 p.b2 h2 hp.W2 hp.b2
  have h4 := bnC_isReal he hz _ h3 p.g2 p.β2 hp.g2 hp.β2
  unfold layerM layerC
  rw [bnM_eq_bnC e z _ h1, bnM_eq_bnC e z _ h3, bnM_eq_bnC e z _ h4]

end GinSpec

end
-- ==== Proof.Layer0.lean ====
/-
  Layer 0 of the idealized kernel program, through the segment boundaries from the launch to the end of the fourth region.
  The first stretch of host operations forms the features plus their neighbour sum and slices row 0 out of every stacked
  parameter; region 0 computes the first dense layer and its column sums; the next stretch turns the sums into column
  means and moment variances; region 1 normalises, rectifies and applies the second dense layer; and so on. Each
  region's arrays at its exit are what its write-backs leave, every other buffer is as it was at the region's entry, and
  a buffer no operation of a stretch writes keeps its contents across it. Composed, the features after the fourth region
  are the layer function with moment variances of the launch contents.
-/
import proofs.«113410_j5944234737805_1_alg».proof.Proof.R0Array
import proofs.«113410_j5944234737805_1_alg».proof.Proof.R1Array
import proofs.«113410_j5944234737805_1_alg».proof.Proof.R2Array
import proofs.«113410_j5944234737805_1_alg».proof.Proof.R3Value
import proofs.«113410_j5944234737805_1_alg».proof.Proof.KHost
import proofs.«113410_j5944234737805_1_alg».proof.Proof.GinSpec

noncomputable section

open Idealize.ShloMosaic Idealize.ShloMosaic.TcCoe Idealize.SL.Sem Idealize.ShloMosaic.ValueIdx
open Idealize.ShloMosaic.StableHlo

namespace Cert.KernelIdeal.Layer0

open Cert.KernelIdeal Cert.KernelIdeal.Gen

variable (m : (ℓ : Loc nD τ sig) → Buf (Elt Ideal) ℓ) (ρ : Dev nD → PrngReg)

/-- The epsilon and the zero of the normalisations. -/
abbrev eps : EReal := Ideal.ofBits .f32 0x3727C5AC#32
abbrev zero : EReal := Ideal.ofBits .f32 0x00000000#32

/-- The row count as a real. -/
theorem N_cast : ((GinSpec.N : ℕ) : ℝ) = (50000 : ℝ) := by norm_num [GinSpec.N]

/-- The first stretch writes no argument. -/
theorem keep0_main_arg1 (W : Valuation τ sig (Elt Ideal)) :
    after hostOps0 W (Proc.devRef .tc main_arg1) = W (Proc.devRef .tc main_arg1) := by
  after_results
theorem keep0_main_arg2 (W : Valuation τ sig (Elt Ideal)) :
    after hostOps0 W (Proc.devRef .tc main_arg2) = W (Proc.devRef .tc main_arg2) := by
  after_results
theorem keep0_main_arg3 (W : Valuation τ sig (Elt Ideal)) :
    after hostOps0 W (Proc.devRef .tc main_arg3) = W (Proc.devRef .tc main_arg3) := by
  after_results
theorem keep0_main_arg4 (W : Valuation τ sig (Elt Ideal)) :
    after hostOps0 W (Proc.devRef .tc main_arg4) = W (Proc.devRef .tc main_arg4) := by
  after_results
theorem keep0_main_arg5 (W : Valuation τ sig (Elt Ideal)) :
    after hostOps0 W (Proc.devRef .tc main_arg5) = W (Proc.devRef .tc main_arg5) := by
  after_results
theorem keep0_main_arg6 (W : Valuation τ sig (Elt Ideal)) :
    after hostOps0 W (Proc.devRef .tc main_arg6) = W (Proc.devRef .tc main_arg6) := by
  after_results
theorem keep0_main_arg7 (W : Valuation τ sig (Elt Ideal)) :
    after hostOps0 W (Proc.devRef .tc main_arg7) = W (Proc.devRef .tc main_arg7) := by
  after_results
theorem keep0_main_arg8 (W : Valuation τ sig (Elt Ideal)) :
    after hostOps0 W (Proc.devRef .tc main_arg8) = W (Proc.devRef .tc main_arg8) := by
  after_results
theorem keep0_main_arg9 (W : Valuation τ sig (Elt Ideal)) :
    after hostOps0 W (Proc.devRef .tc main_arg9) = W (Proc.devRef .tc main_arg9) := by
  after_results
theorem keep0_main_arg10 (W : Valuation τ sig (Elt Ideal)) :
    after hostOps0 W (Proc.devRef .tc main_arg10) = W (Proc.devRef .tc main_arg10) := by
  after_results
theorem keep0_main_arg11 (W : Valuation τ sig (Elt Ideal)) :
    after hostOps0 W (Proc.devRef .tc main_arg11) = W (Proc.devRef .tc main_arg11) := by
  after_results
theorem keep0_main_arg12 (W : Valuation τ sig (Elt Ideal)) :
    after hostOps0 W (Proc.devRef .tc main_arg12) = W (Proc.devRef .tc main_arg12) := by
  after_results

/-- The layer's parameters: matrix 0 and row 0 of the stacked arguments as launched. -/
def P0 (c : Dev nD) : GinSpec.Params where
  W1 := KHost.mat0 (W0 m ρ c (Proc.devRef .tc main_arg3))
  b1 := KHost.row0 (W0 m ρ c (Proc.devRef .tc main_arg4))
  W2 := KHost.mat0 (W0 m ρ c (Proc.devRef .tc main_arg5))
  b2 := KHost.row0 (W0 m ρ c (Proc.devRef .tc main_arg6))
  g1 := KPay.rowAt (KHost.row0 (W0 m ρ c (Proc.devRef .tc main_arg7)))
  β1 := KPay.rowAt (KHost.row0 (W0 m ρ c (Proc.devRef .tc main_arg8)))
  g2 := KPay.rowAt (KHost.row0 (W0 m ρ c (Proc.devRef .tc main_arg9)))
  β2 := KPay.rowAt (KHost.row0 (W0 m ρ c (Proc.devRef .tc main_arg10)))
  g3 := KPay.rowAt (KHost.row0 (W0 m ρ c (Proc.devRef .tc main_arg11)))
  β3 := KPay.rowAt (KHost.row0 (W0 m ρ c (Proc.devRef .tc main_arg12)))

/-- The features plus their neighbour sum, of the launch contents. -/
def Y0 (c : Dev nD) : BatchNormSpec.Mat 50000 128 :=
  KHost.rst (W0 m ρ c (Proc.devRef .tc main_arg0)) (W0 m ρ c (Proc.devRef .tc main_arg1)) (W0 m ρ c (Proc.devRef .tc main_arg2))

/-! ## Region 0 -/

/-- The first dense layer. -/
def X1 (c : Dev nD) : BatchNormSpec.Mat 50000 128 := DenseSpec.dense (Y0 m ρ c) (P0 m ρ c).W1 (P0 m ρ c).b1

theorem x1_eq (c : Dev nD) : R0.X1 (V1 m ρ) c = X1 m ρ c := by
  have e1 : V1 m ρ c main_v10 = Y0 m ρ c := KHost.rst0_eq (W0 m ρ c)
  have e2 : V1 m ρ c main_v36 = KHost.mat0 (W0 m ρ c (Proc.devRef .tc main_arg3)) := KHost.w1_0_eq (W0 m ρ c)
  have e3 : V1 m ρ c main_v13 = KHost.row0 (W0 m ρ c (Proc.devRef .tc main_arg4)) := KHost.b1_0_eq (W0 m ρ c)
  unfold R0.X1 X1 P0
  rw [e1, e2, e3]

/-! ## Region 1's entry -/

theorem in37 (c : Dev nD) : V3 m ρ c main_v37_0 = X1 m ρ c :=
  (KHost.keep_hostOps1_main_v37_0 (W2 m ρ c)).trans
    (((W2_arr m ρ c 3).trans (R0.final3 (V1 m ρ) c)).trans (x1_eq m ρ c))

theorem s1 (c : Dev nD) (cc : Fin 128) :
    W2 m ρ c (Proc.devRef .tc main_v37_1) (ix2 (0 : Fin 1) cc) = BatchNormSpec.colSum (X1 m ρ c) cc := by
  rw [(W2_arr m ρ c 4).trans (R0.final4 (V1 m ρ) c), R0.acc4_eq, x1_eq]

theorem q1 (c : Dev nD) (cc : Fin 128) :
    W2 m ρ c (Proc.devRef .tc main_v37_2) (ix2 (0 : Fin 1) cc) = BatchNormSpec.colSumSq (X1 m ρ c) cc := by
  rw [(W2_arr m ρ c 5).trans (R0.final5 (V1 m ρ) c), R0.acc5_eq, x1_eq]

theorem mean39 (c : Dev nD) : KPay.rowAt (V3 m ρ c main_v39) = BatchNormSpec.mean (GinSpec.N : ℝ) (X1 m ρ c) := by
  funext cc
  rw [N_cast]
  show V3 m ρ c main_v39 (ix2 (0 : Fin 1) cc) = _
  rw [show V3 m ρ c main_v39 = KHost.rowMean (W2 m ρ c (Proc.devRef .tc main_v37_1)) from KHost.mean1_eq (W2 m ρ c)]
  exact KHost.rowMean_of_colSum (X1 m ρ c) _ cc (s1 m ρ c cc)

theorem var43 (c : Dev nD) : KPay.rowAt (V3 m ρ c main_v43) = BatchNormSpec.varMoment (GinSpec.N : ℝ) (X1 m ρ c) := by
  funext cc
  rw [N_cast]
  show V3 m ρ c main_v43 (ix2 (0 : Fin 1) cc) = _
  rw [show V3 m ρ c main_v43 = KHost.rowVar (W2 m ρ c (Proc.devRef .tc main_v37_1)) (W2 m ρ c (Proc.devRef .tc main_v37_2))
    from KHost.var1_eq (W2 m ρ c)]
  exact KHost.rowVar_of_colSums (X1 m ρ c) _ _ cc (s1 m ρ c cc) (q1 m ρ c cc)

theorem g19 (c : Dev nD) : V3 m ρ c main_v19 = KHost.row0 (W0 m ρ c (Proc.devRef .tc main_arg7)) :=
  (KHost.keep_hostOps1_main_v19 (W2 m ρ c)).trans ((W2_of_ne m ρ c main_v19 (by decide)).trans (KHost.g1_0_eq (W0 m ρ c)))
theorem be22 (c : Dev nD) : V3 m ρ c main_v22 = KHost.row0 (W0 m ρ c (Proc.devRef .tc main_arg8)) :=
  (KHost.keep_hostOps1_main_v22 (W2 m ρ c)).trans ((W2_of_ne m ρ c main_v22 (by decide)).trans (KHost.be1_0_eq (W0 m ρ c)))
theorem b16 (c : Dev nD) : V3 m ρ c main_v16 = KHost.row0 (W0 m ρ c (Proc.devRef .tc main_arg6)) :=
  (KHost.keep_hostOps1_main_v16 (W2 m ρ c)).trans ((W2_of_ne m ρ c main_v16 (by decide)).trans (KHost.b2_0_eq (W0 m ρ c)))
theorem w45 (c : Dev nD) : V3 m ρ c main_v45 = KHost.mat0 (W0 m ρ c (Proc.devRef .tc main_arg5)) :=
  (KHost.w2_0_eq (W2 m ρ c)).trans (congrArg KHost.mat0
    ((W2_of_ne m ρ c main_arg5 (by decide)).trans (keep0_main_arg5 (W0 m ρ c))))

/-! ## Region 1 -/

/-- The second dense layer of the normalised and rectified first one. -/
def X2 (c : Dev nD) : BatchNormSpec.Mat 50000 128 :=
  DenseSpec.dense (GinSpec.bnM eps zero (X1 m ρ c) (P0 m ρ c).g1 (P0 m ρ c).β1) (P0 m ρ c).W2 (P0 m ρ c).b2

theorem x2_eq (c : Dev nD) : R1.X2 (V3 m ρ) c = X2 m ρ c := by
  unfold R1.X2 R1.A1 X2 GinSpec.bnM P0
  rw [in37, mean39, var43, g19, be22, b16, w45]

/-! ## Region 2's entry -/

theorem in46 (c : Dev nD) : V5 m ρ c main_v46_0 = X2 m ρ c :=
  (KHost.keep_hostOps2_main_v46_0 (W4 m ρ c)).trans
    (((W4_arr m ρ c 7).trans (R1.final7 (V3 m ρ) c)).trans (x2_eq m ρ c))

theorem s2 (c : Dev nD) (cc : Fin 128) :
    W4 m ρ c (Proc.devRef .tc main_v46_1) (ix2 (0 : Fin 1) cc) = BatchNormSpec.colSum (X2 m ρ c) cc := by
  rw [(W4_arr m ρ c 8).trans (R1.final8 (V3 m ρ) c), R1.acc8_eq, x2_eq]

theorem q2 (c : Dev nD) (cc : Fin 128) :
    W4 m ρ c (Proc.devRef .tc main_v46_2) (ix2 (0 : Fin 1) cc) = BatchNormSpec.colSumSq (X2 m ρ c) cc := by
  rw [(W4_arr m ρ c 9).trans (R1.final9 (V3 m ρ) c), R1.acc9_eq, x2_eq]

theorem mean48 (c : Dev nD) : KPay.rowAt (V5 m ρ c main_v48) = BatchNormSpec.mean (GinSpec.N : ℝ) (X2 m ρ c) := by
  funext cc
  rw [N_cast]
  show V5 m ρ c main_v48 (ix2 (0 : Fin 1) cc) = _
  rw [show V5 m ρ c main_v48 = KHost.rowMean (W4 m ρ c (Proc.devRef .tc main_v46_1)) from KHost.mean2_eq (W4 m ρ c)]
  exact KHost.rowMean_of_colSum (X2 m ρ c) _ cc (s2 m ρ c cc)

theorem var52 (c : Dev nD) : KPay.rowAt (V5 m ρ c main_v52) = BatchNormSpec.varMoment (GinSpec.N : ℝ) (X2 m ρ c) := by
  funext cc
  rw [N_cast]
  show V5 m ρ c main_v52 (ix2 (0 : Fin 1) cc) = _
  rw [show V5 m ρ c main_v52 = KHost.rowVar (W4 m ρ c (Proc.devRef .tc main_v46_1)) (W4 m ρ c (Proc.devRef .tc main_v46_2))
    from KHost.var2_eq (W4 m ρ c)]
  exact KHost.rowVar_of_colSums (X2 m ρ c) _ _ cc (s2 m ρ c cc) (q2 m ρ c cc)

theorem g25 (c : Dev nD) : V5 m ρ c main_v25 = KHost.row0 (W0 m ρ c (Proc.devRef .tc main_arg9)) :=
  (KHost.keep_hostOps2_main_v25 (W4 m ρ c)).trans ((W4_of_ne m ρ c main_v25 (by decide)).trans
    ((KHost.keep_hostOps1_main_v25 (W2 m ρ c)).trans ((W2_of_ne m ρ c main_v25 (by decide)).trans (KHost.g2_0_eq (W0 m ρ c)))))
theorem be28 (c : Dev nD) : V5 m ρ c main_v28 = KHost.row0 (W0 m ρ c (Proc.devRef .tc main_arg10)) :=
  (KHost.keep_hostOps2_main_v28 (W4 m ρ c)).trans ((W4_of_ne m ρ c main_v28 (by decide)).trans
    ((KHost.keep_hostOps1_main_v28 (W2 m ρ c)).trans ((W2_of_ne m ρ c main_v28 (by decide)).trans (KHost.be2_0_eq (W0 m ρ c)))))

/-! ## Region 2 -/

/-- The second dense layer, normalised and rectified. -/
def A2 (c : Dev nD) : BatchNormSpec.Mat 50000 128 := GinSpec.bnM eps zero (X2 m ρ c) (P0 m ρ c).g2 (P0 m ρ c).β2

theorem a2_eq (c : Dev nD) : R2.A2 (V5 m ρ) c = A2 m ρ c := by
  unfold A2 GinSpec.bnM P0
  show BatchNormSpec.normRelu _ _ (V5 m ρ c main_v46_0) (KPay.rowAt (V5 m ρ c main_v48)) (KPay.rowAt (V5 m ρ c main_v52))
    (KPay.rowAt (V5 m ρ c main_v25)) (KPay.rowAt (V5 m ρ c main_v28)) = _
  rw [in46, mean48, var52, g25, be28]

/-! ## Region 3's entry -/

theorem in53 (c : Dev nD) : V7 m ρ c main_v53_0 = A2 m ρ c :=
  (KHost.keep_hostOps3_main_v53_0 (W6 m ρ c)).trans
    (((W6_arr m ρ c 5).trans (R2.final5 (V5 m ρ) c)).trans (a2_eq m ρ c))

theorem s3 (c : Dev nD) (cc : Fin 128) :
    W6 m ρ c (Proc.devRef .tc main_v53_1) (ix2 (0 : Fin 1) cc) = BatchNormSpec.colSum (A2 m ρ c) cc := by
  rw [(W6_arr m ρ c 6).trans (R2.final6 (V5 m ρ) c), R2.acc6_eq, a2_eq]

theorem q3 (c : Dev nD) (cc : Fin 128) :
    W6 m ρ c (Proc.devRef .tc main_v53_2) (ix2 (0 : Fin 1) cc) = BatchNormSpec.colSumSq (A2 m ρ c) cc := by
  rw [(W6_arr m ρ c 7).trans (R2.final7 (V5 m ρ) c), R2.acc7_eq, a2_eq]

theorem mean55 (c : Dev nD) : KPay.rowAt (V7 m ρ c main_v55) = BatchNormSpec.mean (GinSpec.N : ℝ) (A2 m ρ c) := by
  funext cc
  rw [N_cast]
  show V7 m ρ c main_v55 (ix2 (0 : Fin 1) cc) = _
  rw [show V7 m ρ c main_v55 = KHost.rowMean (W6 m ρ c (Proc.devRef .tc main_v53_1)) from KHost.mean3_eq (W6 m ρ c)]
  exact KHost.rowMean_of_colSum (A2 m ρ c) _ cc (s3 m ρ c cc)

theorem var59 (c : Dev nD) : KPay.rowAt (V7 m ρ c main_v59) = BatchNormSpec.varMoment (GinSpec.N : ℝ) (A2 m ρ c) := by
  funext cc
  rw [N_cast]
  show V7 m ρ c main_v59 (ix2 (0 : Fin 1) cc) = _
  rw [show V7 m ρ c main_v59 = KHost.rowVar (W6 m ρ c (Proc.devRef .tc main_v53_1)) (W6 m ρ c (Proc.devRef .tc main_v53_2))
    from KHost.var3_eq (W6 m ρ c)]
  exact KHost.rowVar_of_colSums (A2 m ρ c) _ _ cc (s3 m ρ c cc) (q3 m ρ c cc)

theorem g31 (c : Dev nD) : V7 m ρ c main_v31 = KHost.row0 (W0 m ρ c (Proc.devRef .tc main_arg11)) :=
  (KHost.keep_hostOps3_main_v31 (W6 m ρ c)).trans ((W6_of_ne m ρ c main_v31 (by decide)).trans
    ((KHost.keep_hostOps2_main_v31 (W4 m ρ c)).trans ((W4_of_ne m ρ c main_v31 (by decide)).trans
      ((KHost.keep_hostOps1_main_v31 (W2 m ρ c)).trans ((W2_of_ne m ρ c main_v31 (by decide)).trans (KHost.g3_0_eq (W0 m ρ c)))))))
theorem be34 (c : Dev nD) : V7 m ρ c main_v34 = KHost.row0 (W0 m ρ c (Proc.devRef .tc main_arg12)) :=
  (KHost.keep_hostOps3_main_v34 (W6 m ρ c)).trans ((W6_of_ne m ρ c main_v34 (by decide)).trans
    ((KHost.keep_hostOps2_main_v34 (W4 m ρ c)).trans ((W4_of_ne m ρ c main_v34 (by decide)).trans
      ((KHost.keep_hostOps1_main_v34 (W2 m ρ c)).trans ((W2_of_ne m ρ c main_v34 (by decide)).trans (KHost.be3_0_eq (W0 m ρ c)))))))

/-! ## The layer -/

/-- After the fourth region the features buffer holds the layer function, with moment variances, of the launch contents. -/
theorem layer_out (c : Dev nD) :
    W8 m ρ c (Proc.devRef .tc main_v60) = GinSpec.layerM eps zero (P0 m ρ c) (Y0 m ρ c) := by
  refine ((W8_arr m ρ c 5).trans (R3.final5 (V7 m ρ) c)).trans ?_
  show BatchNormSpec.normRelu _ _ (V7 m ρ c main_v53_0) (KPay.rowAt (V7 m ρ c main_v55)) (KPay.rowAt (V7 m ρ c main_v59))
    (KPay.rowAt (V7 m ρ c main_v31)) (KPay.rowAt (V7 m ρ c main_v34)) = _
  rw [in53, mean55, var59, g31, be34]
  rfl

/-! ## The arguments read at the layer's end as at its start -/

theorem keep1_main_arg1 (W : Valuation τ sig (Elt Ideal)) :
    after hostOps1 W (Proc.devRef .tc main_arg1) = W (Proc.devRef .tc main_arg1) := by
  after_results
theorem keep1_main_arg2 (W : Valuation τ sig (Elt Ideal)) :
    after hostOps1 W (Proc.devRef .tc main_arg2) = W (Proc.devRef .tc main_arg2) := by
  after_results
theorem keep1_main_arg3 (W : Valuation τ sig (Elt Ideal)) :
    after hostOps1 W (Proc.devRef .tc main_arg3) = W (Proc.devRef .tc main_arg3) := by
  after_results
theorem keep1_main_arg4 (W : Valuation τ sig (Elt Ideal)) :
    after hostOps1 W (Proc.devRef .tc main_arg4) = W (Proc.devRef .tc main_arg4) := by
  after_results
theorem keep1_main_arg5 (W : Valuation τ sig (Elt Ideal)) :
    after hostOps1 W (Proc.devRef .tc main_arg5) = W (Proc.devRef .tc main_arg5) := by
  after_results
theorem keep1_main_arg6 (W : Valuation τ sig (Elt Ideal)) :
    after hostOps1 W (Proc.devRef .tc main_arg6) = W (Proc.devRef .tc main_arg6) := by
  after_results
theorem keep1_main_arg7 (W : Valuation τ sig (Elt Ideal)) :
    after hostOps1 W (Proc.devRef .tc main_arg7) = W (Proc.devRef .tc main_arg7) := by
  after_results
theorem keep1_main_arg8 (W : Valuation τ sig (Elt Ideal)) :
    after hostOps1 W (Proc.devRef .tc main_arg8) = W (Proc.devRef .tc main_arg8) := by
  after_results
theorem keep1_main_arg9 (W : Valuation τ sig (Elt Ideal)) :
    after hostOps1 W (Proc.devRef .tc main_arg9) = W (Proc.devRef .tc main_arg9) := by
  after_results
theorem keep1_main_arg10 (W : Valuation τ sig (Elt Ideal)) :
    after hostOps1 W (Proc.devRef .tc main_arg10) = W (Proc.devRef .tc main_arg10) := by
  after_results
theorem keep1_main_arg11 (W : Valuation τ sig (Elt Ideal)) :
    after hostOps1 W (Proc.devRef .tc main_arg11) = W (Proc.devRef .tc main_arg11) := by
  after_results
theorem keep1_main_arg12 (W : Valuation τ sig (Elt Ideal)) :
    after hostOps1 W (Proc.devRef .tc main_arg12) = W (Proc.devRef .tc main_arg12) := by
  after_results
theorem keep2_main_arg1 (W : Valuation τ sig (Elt Ideal)) :
    after hostOps2 W (Proc.devRef .tc main_arg1) = W (Proc.devRef .tc main_arg1) := by
  after_results
theorem keep2_main_arg2 (W : Valuation τ sig (Elt Ideal)) :
    after hostOps2 W (Proc.devRef .tc main_arg2) = W (Proc.devRef .tc main_arg2) := by
  after_results
theorem keep2_main_arg3 (W : Valuation τ sig (Elt Ideal)) :
    after hostOps2 W (Proc.devRef .tc main_arg3) = W (Proc.devRef .tc main_arg3) := by
  after_results
theorem keep2_main_arg4 (W : Valuation τ sig (Elt Ideal)) :
    after hostOps2 W (Proc.devRef .tc main_arg4) = W (Proc.devRef .tc main_arg4) := by
  after_results
theorem keep2_main_arg5 (W : Valuation τ sig (Elt Ideal)) :
    after hostOps2 W (Proc.devRef .tc main_arg5) = W (Proc.devRef .tc main_arg5) := by
  after_results
theorem keep2_main_arg6 (W : Valuation τ sig (Elt Ideal)) :
    after hostOps2 W (Proc.devRef .tc main_arg6) = W (Proc.devRef .tc main_arg6) := by
  after_results
theorem keep2_main_arg7 (W : Valuation τ sig (Elt Ideal)) :
    after hostOps2 W (Proc.devRef .tc main_arg7) = W (Proc.devRef .tc main_arg7) := by
  after_results
theorem keep2_main_arg8 (W : Valuation τ sig (Elt Ideal)) :
    after hostOps2 W (Proc.devRef .tc main_arg8) = W (Proc.devRef .tc main_arg8) := by
  after_results
theorem keep2_main_arg9 (W : Valuation τ sig (Elt Ideal)) :
    after hostOps2 W (Proc.devRef .tc main_arg9) = W (Proc.devRef .tc main_arg9) := by
  after_results
theorem keep2_main_arg10 (W : Valuation τ sig (Elt Ideal)) :
    after hostOps2 W (Proc.devRef .tc main_arg10) = W (Proc.devRef .tc main_arg10) := by
  after_results
theorem keep2_main_arg11 (W : Valuation τ sig (Elt Ideal)) :
    after hostOps2 W (Proc.devRef .tc main_arg11) = W (Proc.devRef .tc main_arg11) := by
  after_results
theorem keep2_main_arg12 (W : Valuation τ sig (Elt Ideal)) :
    after hostOps2 W (Proc.devRef .tc main_arg12) = W (Proc.devRef .tc main_arg12) := by
  after_results
theorem keep3_main_arg1 (W : Valuation τ sig (Elt Ideal)) :
    after hostOps3 W (Proc.devRef .tc main_arg1) = W (Proc.devRef .tc main_arg1) := by
  after_results
theorem keep3_main_arg2 (W : Valuation τ sig (Elt Ideal)) :
    after hostOps3 W (Proc.devRef .tc main_arg2) = W (Proc.devRef .tc main_arg2) := by
  after_results
theorem keep3_main_arg3 (W : Valuation τ sig (Elt Ideal)) :
    after hostOps3 W (Proc.devRef .tc main_arg3) = W (Proc.devRef .tc main_arg3) := by
  after_results
theorem keep3_main_arg4 (W : Valuation τ sig (Elt Ideal)) :
    after hostOps3 W (Proc.devRef .tc main_arg4) = W (Proc.devRef .tc main_arg4) := by
  after_results
theorem keep3_main_arg5 (W : Valuation τ sig (Elt Ideal)) :
    after hostOps3 W (Proc.devRef .tc main_arg5) = W (Proc.devRef .tc main_arg5) := by
  after_results
theorem keep3_main_arg6 (W : Valuation τ sig (Elt Ideal)) :
    after hostOps3 W (Proc.devRef .tc main_arg6) = W (Proc.devRef .tc main_arg6) := by
  after_results
theorem keep3_main_arg7 (W : Valuation τ sig (Elt Ideal)) :
    after hostOps3 W (Proc.devRef .tc main_arg7) = W (Proc.devRef .tc main_arg7) := by
  after_results
theorem keep3_main_arg8 (W : Valuation τ sig (Elt Ideal)) :
    after hostOps3 W (Proc.devRef .tc main_arg8) = W (Proc.devRef .tc main_arg8) := by
  after_results
theorem keep3_main_arg9 (W : Valuation τ sig (Elt Ideal)) :
    after hostOps3 W (Proc.devRef .tc main_arg9) = W (Proc.devRef .tc main_arg9) := by
  after_results
theorem keep3_main_arg10 (W : Valuation τ sig (Elt Ideal)) :
    after hostOps3 W (Proc.devRef .tc main_arg10) = W (Proc.devRef .tc main_arg10) := by
  after_results
theorem keep3_main_arg11 (W : Valuation τ sig (Elt Ideal)) :
    after hostOps3 W (Proc.devRef .tc main_arg11) = W (Proc.devRef .tc main_arg11) := by
  after_results
theorem keep3_main_arg12 (W : Valuation τ sig (Elt Ideal)) :
    after hostOps3 W (Proc.devRef .tc main_arg12) = W (Proc.devRef .tc main_arg12) := by
  after_results
theorem args_main_arg1 (c : Dev nD) : W8 m ρ c (Proc.devRef .tc main_arg1) = W0 m ρ c (Proc.devRef .tc main_arg1) :=
  (W8_of_ne m ρ c main_arg1 (by decide)).trans ((keep3_main_arg1 (W6 m ρ c)).trans ((W6_of_ne m ρ c main_arg1 (by decide)).trans
    ((keep2_main_arg1 (W4 m ρ c)).trans ((W4_of_ne m ρ c main_arg1 (by decide)).trans
      ((keep1_main_arg1 (W2 m ρ c)).trans ((W2_of_ne m ρ c main_arg1 (by decide)).trans (keep0_main_arg1 (W0 m ρ c))))))))
theorem args_main_arg2 (c : Dev nD) : W8 m ρ c (Proc.devRef .tc main_arg2) = W0 m ρ c (Proc.devRef .tc main_arg2) :=
  (W8_of_ne m ρ c main_arg2 (by decide)).trans ((keep3_main_arg2 (W6 m ρ c)).trans ((W6_of_ne m ρ c main_arg2 (by decide)).trans
    ((keep2_main_arg2 (W4 m ρ c)).trans ((W4_of_ne m ρ c main_arg2 (by decide)).trans
      ((keep1_main_arg2 (W2 m ρ c)).trans ((W2_of_ne m ρ c main_arg2 (by decide)).trans (keep0_main_arg2 (W0 m ρ c))))))))
theorem args_main_arg3 (c : Dev nD) : W8 m ρ c (Proc.devRef .tc main_arg3) = W0 m ρ c (Proc.devRef .tc main_arg3) :=
  (W8_of_ne m ρ c main_arg3 (by decide)).trans ((keep3_main_arg3 (W6 m ρ c)).trans ((W6_of_ne m ρ c main_arg3 (by decide)).trans
    ((keep2_main_arg3 (W4 m ρ c)).trans ((W4_of_ne m ρ c main_arg3 (by decide)).trans
      ((keep1_main_arg3 (W2 m ρ c)).trans ((W2_of_ne m ρ c main_arg3 (by decide)).trans (keep0_main_arg3 (W0 m ρ c))))))))
theorem args_main_arg4 (c : Dev nD) : W8 m ρ c (Proc.devRef .tc main_arg4) = W0 m ρ c (Proc.devRef .tc main_arg4) :=
  (W8_of_ne m ρ c main_arg4 (by decide)).trans ((keep3_main_arg4 (W6 m ρ c)).trans ((W6_of_ne m ρ c main_arg4 (by decide)).trans
    ((keep2_main_arg4 (W4 m ρ c)).trans ((W4_of_ne m ρ c main_arg4 (by decide)).trans
      ((keep1_main_arg4 (W2 m ρ c)).trans ((W2_of_ne m ρ c main_arg4 (by decide)).trans (keep0_main_arg4 (W0 m ρ c))))))))
theorem args_main_arg5 (c : Dev nD) : W8 m ρ c (Proc.devRef .tc main_arg5) = W0 m ρ c (Proc.devRef .tc main_arg5) :=
  (W8_of_ne m ρ c main_arg5 (by decide)).trans ((keep3_main_arg5 (W6 m ρ c)).trans ((W6_of_ne m ρ c main_arg5 (by decide)).trans
    ((keep2_main_arg5 (W4 m ρ c)).trans ((W4_of_ne m ρ c main_arg5 (by decide)).trans
      ((keep1_main_arg5 (W2 m ρ c)).trans ((W2_of_ne m ρ c main_arg5 (by decide)).trans (keep0_main_arg5 (W0 m ρ c))))))))
theorem args_main_arg6 (c : Dev nD) : W8 m ρ c (Proc.devRef .tc main_arg6) = W0 m ρ c (Proc.devRef .tc main_arg6) :=
  (W8_of_ne m ρ c main_arg6 (by decide)).trans ((keep3_main_arg6 (W6 m ρ c)).trans ((W6_of_ne m ρ c main_arg6 (by decide)).trans
    ((keep2_main_arg6 (W4 m ρ c)).trans ((W4_of_ne m ρ c main_arg6 (by decide)).trans
      ((keep1_main_arg6 (W2 m ρ c)).trans ((W2_of_ne m ρ c main_arg6 (by decide)).trans (keep0_main_arg6 (W0 m ρ c))))))))
theorem args_main_arg7 (c : Dev nD) : W8 m ρ c (Proc.devRef .tc main_arg7) = W0 m ρ c (Proc.devRef .tc main_arg7) :=
  (W8_of_ne m ρ c main_arg7 (by decide)).trans ((keep3_main_arg7 (W6 m ρ c)).trans ((W6_of_ne m ρ c main_arg7 (by decide)).trans
    ((keep2_main_arg7 (W4 m ρ c)).trans ((W4_of_ne m ρ c main_arg7 (by decide)).trans
      ((keep1_main_arg7 (W2 m ρ c)).trans ((W2_of_ne m ρ c main_arg7 (by decide)).trans (keep0_main_arg7 (W0 m ρ c))))))))
theorem args_main_arg8 (c : Dev nD) : W8 m ρ c (Proc.devRef .tc main_arg8) = W0 m ρ c (Proc.devRef .tc main_arg8) :=
  (W8_of_ne m ρ c main_arg8 (by decide)).trans ((keep3_main_arg8 (W6 m ρ c)).trans ((W6_of_ne m ρ c main_arg8 (by decide)).trans
    ((keep2_main_arg8 (W4 m ρ c)).trans ((W4_of_ne m ρ c main_arg8 (by decide)).trans
      ((keep1_main_arg8 (W2 m ρ c)).trans ((W2_of_ne m ρ c main_arg8 (by decide)).trans (keep0_main_arg8 (W0 m ρ c))))))))
theorem args_main_arg9 (c : Dev nD) : W8 m ρ c (Proc.devRef .tc main_arg9) = W0 m ρ c (Proc.devRef .tc main_arg9) :=
  (W8_of_ne m ρ c main_arg9 (by decide)).trans ((keep3_main_arg9 (W6 m ρ c)).trans ((W6_of_ne m ρ c main_arg9 (by decide)).trans
    ((keep2_main_arg9 (W4 m ρ c)).trans ((W4_of_ne m ρ c main_arg9 (by decide)).trans
      ((keep1_main_arg9 (W2 m ρ c)).trans ((W2_of_ne m ρ c main_arg9 (by decide)).trans (keep0_main_arg9 (W0 m ρ c))))))))
theorem args_main_arg10 (c : Dev nD) : W8 m ρ c (Proc.devRef .tc main_arg10) = W0 m ρ c (Proc.devRef .tc main_arg10) :=
  (W8_of_ne m ρ c main_arg10 (by decide)).trans ((keep3_main_arg10 (W6 m ρ c)).trans ((W6_of_ne m ρ c main_arg10 (by decide)).trans
    ((keep2_main_arg10 (W4 m ρ c)).trans ((W4_of_ne m ρ c main_arg10 (by decide)).trans
      ((keep1_main_arg10 (W2 m ρ c)).trans ((W2_of_ne m ρ c main_arg10 (by decide)).trans (keep0_main_arg10 (W0 m ρ c))))))))
theorem args_main_arg11 (c : Dev nD) : W8 m ρ c (Proc.devRef .tc main_arg11) = W0 m ρ c (Proc.devRef .tc main_arg11) :=
  (W8_of_ne m ρ c main_arg11 (by decide)).trans ((keep3_main_arg11 (W6 m ρ c)).trans ((W6_of_ne m ρ c main_arg11 (by decide)).trans
    ((keep2_main_arg11 (W4 m ρ c)).trans ((W4_of_ne m ρ c main_arg11 (by decide)).trans
      ((keep1_main_arg11 (W2 m ρ c)).trans ((W2_of_ne m ρ c main_arg11 (by decide)).trans (keep0_main_arg11 (W0 m ρ c))))))))
theorem args_main_arg12 (c : Dev nD) : W8 m ρ c (Proc.devRef .tc main_arg12) = W0 m ρ c (Proc.devRef .tc main_arg12) :=
  (W8_of_ne m ρ c main_arg12 (by decide)).trans ((keep3_main_arg12 (W6 m ρ c)).trans ((W6_of_ne m ρ c main_arg12 (by decide)).trans
    ((keep2_main_arg12 (W4 m ρ c)).trans ((W4_of_ne m ρ c main_arg12 (by decide)).trans
      ((keep1_main_arg12 (W2 m ρ c)).trans ((W2_of_ne m ρ c main_arg12 (by decide)).trans (keep0_main_arg12 (W0 m ρ c))))))))

end Cert.KernelIdeal.Layer0

end
-- ==== Proof.R4Value.lean ====
/-
  The first kernel of layer 1, read as values, at any float instance. At each of its five grid points the kernel stores the
  dense layer of the point's tile of 10000 rows, and keeps two running rows: at the first point it sets them to the zero
  row plus the tile's column sums (of the result, and of its squares); at every later point it adds the tile's column sums
  to what the point before left. So after point n the three output buffers hold the dense layer of tile n and the two
  accumulations over tiles 0..n (by induction on the point).
-/
import proofs.«113410_j5944234737805_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R4

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem out_A_3 (c : Dev nD) (i : grid4.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond4_0 i)
    (x0 : Vec F S10000x128 .f32) (x1 : Vec F S128x128 .f32) (x2 : Vec F S1x128 .f32) :
    out4_A_3 c i a1 h1 a2 h2 a3 h3 a4 h4 a5 h5 a6 h6 hc x0 x1 x2 = k4_pay3 x0 x1 x2 := by
  unfold out4_A_3
  rw [View.read_writes_eq_canon _ _ _ (cover4_A_3 c i a1 h1 a2 h2 a3 h3 a4 h4 a5 h5 a6 h6 hc x0 x1 x2)]
  unfold kernelRun4_A
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

theorem out_A_4 (c : Dev nD) (i : grid4.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond4_0 i)
    (x0 : Vec F S10000x128 .f32) (x1 : Vec F S128x128 .f32) (x2 : Vec F S1x128 .f32) :
    out4_A_4 c i a1 h1 a2 h2 a3 h3 a4 h4 a5 h5 a6 h6 hc x0 x1 x2 = k4_pay4 x0 x1 x2 k4_pay1 := by
  unfold out4_A_4
  rw [View.read_writes_eq_canon _ _ _ (cover4_A_4 c i a1 h1 a2 h2 a3 h3 a4 h4 a5 h5 a6 h6 hc x0 x1 x2)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S10000x128) hz, View.ld_unit_zero (S := S128x128) hz, View.ld_unit_zero (S := S1x128) hz]

theorem out_A_5 (c : Dev nD) (i : grid4.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond4_0 i)
    (x0 : Vec F S10000x128 .f32) (x1 : Vec F S128x128 .f32) (x2 : Vec F S1x128 .f32) :
    out4_A_5 c i a1 h1 a2 h2 a3 h3 a4 h4 a5 h5 a6 h6 hc x0 x1 x2 = k4_pay5 x0 x1 x2 k4_pay2 := by
  unfold out4_A_5
  rw [View.read_writes_eq_canon _ _ _ (cover4_A_5 c i a1 h1 a2 h2 a3 h3 a4 h4 a5 h5 a6 h6 hc x0 x1 x2)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S10000x128) hz, View.ld_unit_zero (S := S128x128) hz, View.ld_unit_zero (S := S1x128) hz]

theorem out_B_3 (c : Dev nD) (i : grid4.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond4_0 i)
    (x0 : Vec F S10000x128 .f32) (x1 : Vec F S128x128 .f32) (x2 : Vec F S1x128 .f32) (xo4 xo5 : Vec F S1x128 .f32) :
    out4_B_3 c i a1 h1 a2 h2 a3 h3 a4 h4 a5 h5 a6 h6 hc x0 x1 x2 xo4 xo5 = k4_pay3 x0 x1 x2 := by
  unfold out4_B_3
  rw [View.read_writes_eq_canon _ _ _ (cover4_B_3 c i a1 h1 a2 h2 a3 h3 a4 h4 a5 h5 a6 h6 hc x0 x1 x2 xo4 xo5)]
  unfold kernelRun4_B
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

theorem out_B_4 (c : Dev nD) (i : grid4.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond4_0 i)
    (x0 : Vec F S10000x128 .f32) (x1 : Vec F S128x128 .f32) (x2 : Vec F S1x128 .f32) (xo4 xo5 : Vec F S1x128 .f32) :
    out4_B_4 c i a1 h1 a2 h2 a3 h3 a4 h4 a5 h5 a6 h6 hc x0 x1 x2 xo4 xo5 = k4_pay4 x0 x1 x2 xo4 := by
  unfold out4_B_4
  rw [View.read_writes_eq_canon _ _ _ (cover4_B_4 c i a1 h1 a2 h2 a3 h3 a4 h4 a5 h5 a6 h6 hc x0 x1 x2 xo4 xo5)]
  unfold kernelRun4_B
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

theorem out_B_5 (c : Dev nD) (i : grid4.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond4_0 i)
    (x0 : Vec F S10000x128 .f32) (x1 : Vec F S128x128 .f32) (x2 : Vec F S1x128 .f32) (xo4 xo5 : Vec F S1x128 .f32) :
    out4_B_5 c i a1 h1 a2 h2 a3 h3 a4 h4 a5 h5 a6 h6 hc x0 x1 x2 xo4 xo5 = k4_pay5 x0 x1 x2 xo5 := by
  unfold out4_B_5
  rw [View.read_writes_eq_canon _ _ _ (cover4_B_5 c i a1 h1 a2 h2 a3 h3 a4 h4 a5 h5 a6 h6 hc x0 x1 x2 xo4 xo5)]
  unfold kernelRun4_B
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

/-- The running column sums of the rows seen so far: tile 0 added to the zero row, then one tile per point. -/
def acc4 (c : Dev nD) : (n : ℕ) → n < cfg4.N → Vec F S1x128 .f32
  | 0, h => k4_pay4 (iblk4 V c 0 ⟨0, h⟩) (iblk4 V c 1 ⟨0, h⟩) (iblk4 V c 2 ⟨0, h⟩) k4_pay1
  | n + 1, h => k4_pay4 (iblk4 V c 0 ⟨n + 1, h⟩) (iblk4 V c 1 ⟨n + 1, h⟩) (iblk4 V c 2 ⟨n + 1, h⟩) (acc4 c n (Nat.lt_of_succ_lt h))

/-- The same for the squares. -/
def acc5 (c : Dev nD) : (n : ℕ) → n < cfg4.N → Vec F S1x128 .f32
  | 0, h => k4_pay5 (iblk4 V c 0 ⟨0, h⟩) (iblk4 V c 1 ⟨0, h⟩) (iblk4 V c 2 ⟨0, h⟩) k4_pay2
  | n + 1, h => k4_pay5 (iblk4 V c 0 ⟨n + 1, h⟩) (iblk4 V c 1 ⟨n + 1, h⟩) (iblk4 V c 2 ⟨n + 1, h⟩) (acc5 c n (Nat.lt_of_succ_lt h))

/-- After point n the three output buffers hold: the dense layer of tile n; the column sums of tiles 0..n; the column sums
    of their squares. By induction on the point. -/
theorem outsAt_eq (c : Dev nD) : ∀ (n : ℕ) (h : n < cfg4.N),
    outsAt4 V c n h = (k4_pay3 (iblk4 V c 0 ⟨n, h⟩) (iblk4 V c 1 ⟨n, h⟩) (iblk4 V c 2 ⟨n, h⟩), acc4 V c n h, acc5 V c n h)
  | 0, h => (outsAt4_A V c ⟨0, h⟩ rfl).trans (by
      rw [out_A_3, out_A_4, out_A_5]
      rfl)
  | n + 1, h => by
    have hN : cfg4.N = 5 := N_4
    have hB : ¬(⟨n + 1, h⟩ : Fin cfg4.N).val % 5 = 0 := by dsimp only; omega
    rw [outsAt4_B V c ⟨n + 1, h⟩ hB, out_B_3, out_B_4, out_B_5]
    show (k4_pay3 _ _ _, k4_pay4 _ _ _ (outsAt4 V c n _).2.1, k4_pay5 _ _ _ (outsAt4 V c n _).2.2)
      = (k4_pay3 _ _ _, k4_pay4 _ _ _ (acc4 V c n _), k4_pay5 _ _ _ (acc5 V c n _))
    rw [outsAt_eq c n]

end Cert.KernelIdeal.R4
-- ==== Proof.KPay0_L1.lean ====
/-
  The arithmetic of the first kernel of a layer, at the exact values. From a tile `x` of 10000 rows, the weights `w` and
  the bias row `b` it stores the dense layer `x · w + b` of the tile, and adds to two running rows the column sums of that
  result and the column sums of its squares.
-/
import proofs.«113410_j5944234737805_1_alg».proof.Proof.Gen.KernelIdeal.Skeleton
import proofs.«113410_j5944234737805_1_alg».proof.Proof.LibDense
import proofs.«113410_j5944234737805_1_alg».proof.Proof.LibBatchNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPayL1

open Cert.KernelIdeal Cert.KernelIdeal.Gen Idealize.ShloMosaic Idealize.ShloMosaic.TcCoe Idealize.ShloMosaic.ValueIdx

/-- The dense layer of a tile. -/
theorem pay3_eq (x : Vec Ideal S10000x128 .f32) (w : Vec Ideal S128x128 .f32) (b : Vec Ideal S1x128 .f32) :
    k4_pay3 (F := Ideal) x w b = DenseSpec.dense x w b := by
  unfold k4_pay3
  dsimp only
  rw [shapeCast_self, shapeCast_self, shapeCast_self]
  exact DenseSpec.matmul_bias dot_S10000x128_S128x128_S10000x128_1_0_0_1_n_n_wf none
    (truncf .bf16 x bitsLt_bf16_f32) (truncf .bf16 w bitsLt_bf16_f32) b broadcasts_S1x128_S10000x128

/-- The column sums of a tile, added to the running row. -/
theorem pay4_apply (x : Vec Ideal S10000x128 .f32) (w : Vec Ideal S128x128 .f32) (b acc : Vec Ideal S1x128 .f32) (c : Fin 128) :
    k4_pay4 (F := Ideal) x w b acc (ix2 (0 : Fin 1) c)
      = acc (ix2 (0 : Fin 1) c) + ∑ q : Fin 10000, DenseSpec.dense x w b (ix2 q c) := by
  unfold k4_pay4
  dsimp only
  rw [addf_apply, shapeCast_self]
  refine congrArg (acc (ix2 (0 : Fin 1) c) + ·) ?_
  refine (DenseSpec.shapeCast_row_apply _ shapeCasts_S128_S1x128 (0 : Fin 1) c).trans ?_
  refine (Ideal.multiReduction_add_single (k4_pay3 (F := Ideal) x w b) 0x00000000#32 reduces_S10000x128_S128 (.inl rfl) rfl (ix1 c)).trans ?_
  rw [pay3_eq]
  exact Finset.sum_congr rfl fun q _ => congrArg _ (funext fun a => Fin.ext (by
    match a with
    | ⟨0, _⟩ => rfl
    | ⟨1, _⟩ => rfl))

/-- The column sums of the squares of a tile, added to the running row. -/
theorem pay5_apply (x : Vec Ideal S10000x128 .f32) (w : Vec Ideal S128x128 .f32) (b acc : Vec Ideal S1x128 .f32) (c : Fin 128) :
    k4_pay5 (F := Ideal) x w b acc (ix2 (0 : Fin 1) c)
      = acc (ix2 (0 : Fin 1) c) + ∑ q : Fin 10000, DenseSpec.dense x w b (ix2 q c) * DenseSpec.dense x w b (ix2 q c) := by
  unfold k4_pay5
  dsimp only
  rw [addf_apply, shapeCast_self]
  refine congrArg (acc (ix2 (0 : Fin 1) c) + ·) ?_
  refine (DenseSpec.shapeCast_row_apply _ shapeCasts_S128_S1x128 (0 : Fin 1) c).trans ?_
  refine (Ideal.multiReduction_add_single (mulf (k4_pay3 (F := Ideal) x w b) (k4_pay3 (F := Ideal) x w b)) 0x00000000#32
    reduces_S10000x128_S128 (.inl rfl) rfl (ix1 c)).trans ?_
  rw [pay3_eq]
  exact Finset.sum_congr rfl fun q _ => by
    rw [mulf_apply]
    have e : (reduces_S10000x128_S128.lift (ix1 c) q : S10000x128.Idx) = ix2 q c := funext fun a => Fin.ext (by
      match a with
      | ⟨0, _⟩ => rfl
      | ⟨1, _⟩ => rfl)
    rw [e]
    rfl

/-- The row the first grid point starts the accumulation from is the zero row. -/
theorem pay1_apply (i : S1x128.Idx) : k4_pay1 (F := Ideal) i = 0 := by
  show Ideal.ofBits .f32 0x00000000#32 = 0
  exact Ideal.ofBits_zero_f32
theorem pay2_apply (i : S1x128.Idx) : k4_pay2 (F := Ideal) i = 0 := by
  show Ideal.ofBits .f32 0x00000000#32 = 0
  exact Ideal.ofBits_zero_f32

end Cert.KernelIdeal.KPayL1

end
-- ==== Proof.R4Array.lean ====
/-
  The first kernel of layer 1: what its three output arrays hold when the region ends, at the exact values. The grid has
  five points; point t reads rows 10000·t … 10000·t + 9999 of the input (every column), the whole weight matrix and the
  whole bias row, and writes back the same rows of the output. So the output array is the dense layer of the whole input,
  row by row. The two running rows are written back once, after the last point.
-/
import proofs.«113410_j5944234737805_1_alg».proof.Proof.R4Value
import proofs.«113410_j5944234737805_1_alg».proof.Proof.KPay0_L1
import proofs.«113410_j5944234737805_1_alg».proof.Proof.GinTiles
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.R4

open Cert.KernelIdeal Cert.KernelIdeal.Gen

variable (V : (c : Dev nD) → (b : Ref sig .tc) → Buf (Elt Ideal) ((c : Thread nD τ).loc b))

/-- The block indices of the six windows at each grid point: the row windows move with the point, the others stay. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Row q of the tile of point t. -/
abbrev rowK (t : Fin cfg4.N) (q : Fin 10000) : Fin 50000 :=
  ⟨10000 * t.val + q.val, by have := t.isLt; have hN : cfg4.N = 5 := N_4; have := q.isLt; omega⟩

/-- The input tile of point t, read through its window, is rows 10000·t + q of the input array. -/
theorem tile_apply (c : Dev nD) (t : Fin cfg4.N) (q : Fin 10000) (k : Fin 128) :
    iblk4 V c 0 t (ix2 q k) = V c main_v71 (ix2 (rowK t q) k) := by
  obtain ⟨e0, e1, -⟩ := idx_facts t
  unfold iblk4
  rw [View.read_apply]
  show V c main_v71 _ = V c main_v71 _
  congr 1
  funext a
  apply Fin.ext
  match a with
  | ⟨0, _⟩ => show win4_0.index t (0 : Fin 2) * 10000 + 1 * q.val = 10000 * t.val + q.val; rw [e0]; omega
  | ⟨1, _⟩ => show win4_0.index t (1 : Fin 2) * 128 + 1 * k.val = k.val; rw [e1]; omega

/-- The weights' block at every point is the whole weight matrix. -/
theorem w_blk (c : Dev nD) (t : Fin cfg4.N) : iblk4 V c 1 t = V c main_v97 := by
  obtain ⟨-, -, e2, e3, -⟩ := idx_facts t
  funext j
  unfold iblk4
  rw [View.read_apply]
  show V c main_v97 _ = V c main_v97 j
  congr 1
  funext a
  apply Fin.ext
  match a with
  | ⟨0, _⟩ => show win4_1.index t (0 : Fin 2) * 128 + 1 * (j 0).val = (j 0).val; rw [e2]; omega
  | ⟨1, _⟩ => show win4_1.index t (1 : Fin 2) * 128 + 1 * (j 1).val = (j 1).val; rw [e3]; omega

/-- The bias row's block at every point is the whole row. -/
theorem b_blk (c : Dev nD) (t : Fin cfg4.N) : iblk4 V c 2 t = V c main_v74 := by
  obtain ⟨-, -, -, -, e4, e5, -⟩ := idx_facts t
  funext j
  unfold iblk4
  rw [View.read_apply]
  show V c main_v74 _ = V c main_v74 j
  congr 1
  funext a
  apply Fin.ext
  match a with
  | ⟨0, _⟩ => show win4_2.index t (0 : Fin 2) * 1 + 1 * (j 0).val = (j 0).val; rw [e4]; omega
  | ⟨1, _⟩ => show win4_2.index t (1 : Fin 2) * 128 + 1 * (j 1).val = (j 1).val; rw [e5]; omega

/-- The dense layer of the whole input: what the first output array ends holding. -/
def X1 (c : Dev nD) : S50000x128.Idx → EReal := DenseSpec.dense (V c main_v71) (V c main_v97) (V c main_v74)

/-- What point t writes back is rows 10000·t … of the dense layer of the whole input. -/
theorem flushed3_eq (c : Dev nD) (t : Fin cfg4.N) :
    (dat4 V c).flushed 3 t = ((cfg4.win 3).blk t).view.read (Elt Ideal) (X1 V c) := by
  obtain ⟨-, -, -, -, -, -, e6, e7, -⟩ := idx_facts t
  show (cfg4.win 3).cut (grid4.coords t) ((dat4 V c).after 3 t) = _
  rw [after4_3, outsAt_eq V c t.val t.isLt]
  funext j
  obtain ⟨q, k, rfl⟩ : ∃ (q : Fin 10000) (k : Fin 128), j = ix2 q k := ⟨j 0, j 1, eq_ix2 j⟩
  show k4_pay3 (iblk4 V c 0 t) (iblk4 V c 1 t) (iblk4 V c 2 t) (ix2 q k) = X1 V c (((cfg4.win 3).blk t).view.emb (ix2 q k))
  rw [KPayL1.pay3_eq, w_blk, b_blk]
  have hemb : ((cfg4.win 3).blk t).view.emb (ix2 q k) = ix2 (rowK t q) k := by
    funext a
    apply Fin.ext
    match a with
    | ⟨0, _⟩ => show win4_3.index t (0 : Fin 2) * 10000 + 1 * q.val = 10000 * t.val + q.val; rw [e6]; omega
    | ⟨1, _⟩ => show win4_3.index t (1 : Fin 2) * 128 + 1 * k.val = k.val; rw [e7]; omega
  rw [hemb]
  exact DenseSpec.dense_rows (V c main_v71) (iblk4 V c 0 t) (V c main_v97) (V c main_v74) (rowK t q) q
    (fun k' => tile_apply V c t q k') k

/-- An index of the output array is in point t's block iff each coordinate is in the block's range. -/
theorem mem_blk3 (t : Fin cfg4.N) (i : S50000x128.Idx) :
    i ∈ ((cfg4.win 3).blk t).view.set ↔ ∀ a : Fin 2, win4_3.index t a * S10000x128.size a ≤ (i a).val
      ∧ (i a).val < win4_3.index t a * S10000x128.size a + S10000x128.size a := by
  show i ∈ ((View.whole main_v98_0).slice (win4_3.rect t)).set ↔ _
  rw [View.set_slice_whole, Rect.mem_set_unit]
  exact Iff.rfl

/-- The first output array when the region ends: the dense layer of the whole input. -/
theorem final3 (c : Dev nD) : (dat4 V c).arrAt 3 cfg4.N = X1 V c :=
  (dat4 V c).arrAt_eq_of_cover 3 (X1 V c) (fun t _ => flushed3_eq V c t) fun i => by
    have hi0 : (i 0).val < 50000 := (i 0).isLt
    have hi1 : (i 1).val < 128 := (i 1).isLt
    have hN : cfg4.N = 5 := N_4
    obtain ⟨-, -, -, -, -, -, e6, e7, -⟩ := idx_facts ⟨(i 0).val / 10000, by omega⟩
    refine ⟨⟨(i 0).val / 10000, by omega⟩, flush4_3 _, ?_⟩
    rw [mem_blk3]
    intro a
    match a with
    | ⟨0, _⟩ =>
      show win4_3.index ⟨(i 0).val / 10000, _⟩ (0 : Fin 2) * 10000 ≤ (i 0).val
        ∧ (i 0).val < win4_3.index ⟨(i 0).val / 10000, _⟩ (0 : Fin 2) * 10000 + 10000
      rw [e6]; dsimp only; omega
    | ⟨1, _⟩ =>
      show win4_3.index ⟨(i 0).val / 10000, _⟩ (1 : Fin 2) * 128 ≤ (i 1).val
        ∧ (i 1).val < win4_3.index ⟨(i 0).val / 10000, _⟩ (1 : Fin 2) * 128 + 128
      rw [e7]; omega

/-! ## The two running rows -/

/-- The last grid point. -/
abbrev tLast : Fin cfg4.N := ⟨4, by rw [show cfg4.N = 5 from N_4]; decide⟩

/-- Point 4 is a point of the grid. -/
theorem h4 : 4 < cfg4.N := tLast.isLt

/-- An index of running row 4's array is in point t's block iff each coordinate is in the block's range. -/
theorem mem_blk4 (t : Fin cfg4.N) (i : S1x128.Idx) :
    i ∈ ((cfg4.win 4).blk t).view.set ↔ ∀ a : Fin 2, win4_4.index t a * S1x128.size a ≤ (i a).val
      ∧ (i a).val < win4_4.index t a * S1x128.size a + S1x128.size a := by
  show i ∈ ((View.whole main_v98_1).slice (win4_4.rect t)).set ↔ _
  rw [View.set_slice_whole, Rect.mem_set_unit]
  exact Iff.rfl

/-- The one write-back of running row 4, after the last point, writes the row as it stands after point 4. -/
theorem flushed4_eq (c : Dev nD) (t : Fin cfg4.N) (hf : (cfg4.win 4).flush t = true) :
    (dat4 V c).flushed 4 t = ((cfg4.win 4).blk t).view.read (Elt Ideal) (acc4 V c 4 h4) := by
  have hN : cfg4.N = 5 := N_4
  have ht : t.val = 4 := by have := (flush4_4 t).mp hf; have := t.isLt; omega
  obtain rfl : t = tLast := Fin.ext ht
  obtain ⟨-, -, -, -, -, -, -, -, ea, eb, -⟩ := idx_facts tLast
  show (cfg4.win 4).cut (grid4.coords tLast) ((dat4 V c).after 4 tLast) = _
  rw [after4_4, outsAt_eq V c tLast.val tLast.isLt]
  funext j
  show acc4 V c 4 _ j = acc4 V c 4 _ (((cfg4.win 4).blk tLast).view.emb j)
  congr 1
  funext a
  apply Fin.ext
  match a with
  | ⟨0, _⟩ => show (j 0).val = win4_4.index tLast (0 : Fin 2) * 1 + 1 * (j 0).val; rw [ea]; omega
  | ⟨1, _⟩ => show (j 1).val = win4_4.index tLast (1 : Fin 2) * 128 + 1 * (j 1).val; rw [eb]; omega

/-- Running row 4's array when the region ends. -/
theorem final4 (c : Dev nD) : (dat4 V c).arrAt 4 cfg4.N = acc4 V c 4 h4 :=
  (dat4 V c).arrAt_eq_of_cover 4 (acc4 V c 4 h4) (flushed4_eq V c) fun i => by
    have hi0 : (i 0).val < 1 := (i 0).isLt
    have hi1 : (i 1).val < 128 := (i 1).isLt
    obtain ⟨-, -, -, -, -, -, -, -, ea, eb, -⟩ := idx_facts tLast
    refine ⟨tLast, (flush4_4 tLast).mpr rfl, ?_⟩
    rw [mem_blk4]
    intro a
    match a with
    | ⟨0, _⟩ =>
      show win4_4.index tLast (0 : Fin 2) * 1 ≤ (i 0).val ∧ (i 0).val < win4_4.index tLast (0 : Fin 2) * 1 + 1
      rw [ea]; omega
    | ⟨1, _⟩ =>
      show win4_4.index tLast (1 : Fin 2) * 128 ≤ (i 1).val ∧ (i 1).val < win4_4.index tLast (1 : Fin 2) * 128 + 128
      rw [eb]; omega

/-- An index of running row 5's array is in point t's block iff each coordinate is in the block's range. -/
theorem mem_blk5 (t : Fin cfg4.N) (i : S1x128.Idx) :
    i ∈ ((cfg4.win 5).blk t).view.set ↔ ∀ a : Fin 2, win4_5.index t a * S1x128.size a ≤ (i a).val
      ∧ (i a).val < win4_5.index t a * S1x128.size a + S1x128.size a := by
  show i ∈ ((View.whole main_v98_2).slice (win4_5.rect t)).set ↔ _
  rw [View.set_slice_whole, Rect.mem_set_unit]
  exact Iff.rfl

/-- The one write-back of running row 5, after the last point, writes the row as it stands after point 4. -/
theorem flushed5_eq (c : Dev nD) (t : Fin cfg4.N) (hf : (cfg4.win 5).flush t = true) :
    (dat4 V c).flushed 5 t = ((cfg4.win 5).blk t).view.read (Elt Ideal) (acc5 V c 4 h4) := by
  have hN : cfg4.N = 5 := N_4
  have ht : t.val = 4 := by have := (flush4_5 t).mp hf; have := t.isLt; omega
  obtain rfl : t = tLast := Fin.ext ht
  obtain ⟨-, -, -, -, -, -, -, -, -, -, ea, eb⟩ := idx_facts tLast
  show (cfg4.win 5).cut (grid4.coords tLast) ((dat4 V c).after 5 tLast) = _
  rw [after4_5, outsAt_eq V c tLast.val tLast.isLt]
  funext j
  show acc5 V c 4 _ j = acc5 V c 4 _ (((cfg4.win 5).blk tLast).view.emb j)
  congr 1
  funext a
  apply Fin.ext
  match a with
  | ⟨0, _⟩ => show (j 0).val = win4_5.index tLast (0 : Fin 2) * 1 + 1 * (j 0).val; rw [ea]; omega
  | ⟨1, _⟩ => show (j 1).val = win4_5.index tLast (1 : Fin 2) * 128 + 1 * (j 1).val; rw [eb]; omega

/-- Running row 5's array when the region ends. -/
theorem final5 (c : Dev nD) : (dat4 V c).arrAt 5 cfg4.N = acc5 V c 4 h4 :=
  (dat4 V c).arrAt_eq_of_cover 5 (acc5 V c 4 h4) (flushed5_eq V c) fun i => by
    have hi0 : (i 0).val < 1 := (i 0).isLt
    have hi1 : (i 1).val < 128 := (i 1).isLt
    obtain ⟨-, -, -, -, -, -, -, -, -, -, ea, eb⟩ := idx_facts tLast
    refine ⟨tLast, (flush4_5 tLast).mpr rfl, ?_⟩
    rw [mem_blk5]
    intro a
    match a with
    | ⟨0, _⟩ =>
      show win4_5.index tLast (0 : Fin 2) * 1 ≤ (i 0).val ∧ (i 0).val < win4_5.index tLast (0 : Fin 2) * 1 + 1
      rw [ea]; omega
    | ⟨1, _⟩ =>
      show win4_5.index tLast (1 : Fin 2) * 128 ≤ (i 1).val ∧ (i 1).val < win4_5.index tLast (1 : Fin 2) * 128 + 128
      rw [eb]; omega

/-! ## The running rows are the column sums -/

/-- The dense layer of a tile is the matching rows of the dense layer of the whole input. -/
theorem tile_dense (c : Dev nD) (t : Fin cfg4.N) (q : Fin 10000) (k : Fin 128) :
    DenseSpec.dense (iblk4 V c 0 t) (iblk4 V c 1 t) (iblk4 V c 2 t) (ix2 q k) = X1 V c (ix2 (rowK t q) k) := by
  rw [w_blk, b_blk]
  exact DenseSpec.dense_rows (V c main_v71) (iblk4 V c 0 t) (V c main_v97) (V c main_v74) (rowK t q) q
    (fun k' => tile_apply V c t q k') k

/-- Running row 4 at column cc, as a sequence in the point (zero past the last point). -/
def A4 (c : Dev nD) (cc : Fin 128) (n : ℕ) : EReal :=
  if h : n < cfg4.N then acc4 V c n h (ix2 (0 : Fin 1) cc) else 0

/-- After the last point, running row 4 holds the column sums of the dense layer of the whole input. -/
theorem acc4_eq (c : Dev nD) (cc : Fin 128) :
    acc4 V c 4 h4 (ix2 (0 : Fin 1) cc) = BatchNormSpec.colSum (X1 V c) cc := by
  have hN : cfg4.N = 5 := N_4
  have key := GinTiles.acc_eq_colSum (X1 V c) cc (A4 V c cc) ?h0 ?hs
  · rw [← key]
    unfold A4
    rw [dif_pos h4]
  case h0 =>
    unfold A4
    rw [dif_pos (by omega : 0 < cfg4.N)]
    refine (KPayL1.pay4_apply (iblk4 V c 0 ⟨0, by omega⟩) (iblk4 V c 1 ⟨0, by omega⟩) (iblk4 V c 2 ⟨0, by omega⟩) (k4_pay1 (F := Ideal)) cc).trans ?_
    rw [KPayL1.pay1_apply]
    refine congrArg ((0 : EReal) + ·) ?_
    unfold GinTiles.tileSum
    rw [dif_pos (by norm_num : 0 < 5)]
    exact Finset.sum_congr rfl fun q _ => tile_dense V c ⟨0, by omega⟩ q cc
  case hs =>
    intro n hn
    unfold A4
    rw [dif_pos (by omega : n + 1 < cfg4.N), dif_pos (by omega : n < cfg4.N)]
    refine (KPayL1.pay4_apply (iblk4 V c 0 ⟨n + 1, by omega⟩) (iblk4 V c 1 ⟨n + 1, by omega⟩) (iblk4 V c 2 ⟨n + 1, by omega⟩)
      (acc4 V c n (by omega)) cc).trans ?_
    refine congrArg (acc4 V c n (by omega) (ix2 (0 : Fin 1) cc) + ·) ?_
    unfold GinTiles.tileSum
    rw [dif_pos hn]
    exact Finset.sum_congr rfl fun q _ => tile_dense V c ⟨n + 1, by omega⟩ q cc

/-- Running row 5 at column cc, as a sequence in the point (zero past the last point). -/
def A5 (c : Dev nD) (cc : Fin 128) (n : ℕ) : EReal :=
  if h : n < cfg4.N then acc5 V c n h (ix2 (0 : Fin 1) cc) else 0

/-- After the last point, running row 5 holds the column sums of squares of the dense layer of the whole input. -/
theorem acc5_eq (c : Dev nD) (cc : Fin 128) :
    acc5 V c 4 h4 (ix2 (0 : Fin 1) cc) = BatchNormSpec.colSumSq (X1 V c) cc := by
  have hN : cfg4.N = 5 := N_4
  have key := GinTiles.acc_eq_colSumSq (X1 V c) cc (A5 V c cc) ?h0 ?hs
  · rw [← key]
    unfold A5
    rw [dif_pos h4]
  case h0 =>
    unfold A5
    rw [dif_pos (by omega : 0 < cfg4.N)]
    refine (KPayL1.pay5_apply (iblk4 V c 0 ⟨0, by omega⟩) (iblk4 V c 1 ⟨0, by omega⟩) (iblk4 V c 2 ⟨0, by omega⟩) (k4_pay2 (F := Ideal)) cc).trans ?_
    rw [KPayL1.pay2_apply]
    refine congrArg ((0 : EReal) + ·) ?_
    unfold GinTiles.tileSum
    rw [dif_pos (by norm_num : 0 < 5)]
    exact Finset.sum_congr rfl fun q _ =>
      congrArg₂ (· * ·) (tile_dense V c ⟨0, by omega⟩ q cc) (tile_dense V c ⟨0, by omega⟩ q cc)
  case hs =>
    intro n hn
    unfold A5
    rw [dif_pos (by omega : n + 1 < cfg4.N), dif_pos (by omega : n < cfg4.N)]
    refine (KPayL1.pay5_apply (iblk4 V c 0 ⟨n + 1, by omega⟩) (iblk4 V c 1 ⟨n + 1, by omega⟩) (iblk4 V c 2 ⟨n + 1, by omega⟩)
      (acc5 V c n (by omega)) cc).trans ?_
    refine congrArg (acc5 V c n (by omega) (ix2 (0 : Fin 1) cc) + ·) ?_
    unfold GinTiles.tileSum
    rw [dif_pos hn]
    exact Finset.sum_congr rfl fun q _ =>
      congrArg₂ (· * ·) (tile_dense V c ⟨n + 1, by omega⟩ q cc) (tile_dense V c ⟨n + 1, by omega⟩ q cc)

end Cert.KernelIdeal.R4

end
-- ==== Proof.R5Value.lean ====
/-
  The second kernel of layer 1, read as values, at any float instance. At each of its five grid points the kernel
  normalises and rectifies the point's tile of 10000 rows, stores the second dense layer of that, and keeps two running
  rows: at the first point the zero row plus the stored tile's column sums (and the column sums of its squares); at every
  later point what the point before left plus the same. So after point n the three output buffers hold the second dense
  layer of tile n and the two accumulations over tiles 0..n (by induction on the point).
-/
import proofs.«113410_j5944234737805_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R5

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem out_A_7 (c : Dev nD) (i : grid5.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond5_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) :
    out5_A_7 c i a1 h1 a2 h2 a3 h3 a4 h4 a5 h5 a6 h6 a7 h7 a8 h8 a9 h9 a10 h10 hc x0 x1 x2 x3 x4 x5 x6 = k5_pay5 x0 x2 x3 x1 x4 x5 x6 := by
  unfold out5_A_7
  rw [View.read_writes_eq_canon _ _ _ (cover5_A_7 c i a1 h1 a2 h2 a3 h3 a4 h4 a5 h5 a6 h6 a7 h7 a8 h8 a9 h9 a10 h10 hc x0 x1 x2 x3 x4 x5 x6)]
  unfold kernelRun5_A
  dsimp only
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_A_8 (c : Dev nD) (i : grid5.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond5_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) :
    out5_A_8 c i a1 h1 a2 h2 a3 h3 a4 h4 a5 h5 a6 h6 a7 h7 a8 h8 a9 h9 a10 h10 hc x0 x1 x2 x3 x4 x5 x6 = k5_pay1 (k5_pay5 x0 x2 x3 x1 x4 x5 x6) k5_pay3 := by
  unfold out5_A_8
  rw [View.read_writes_eq_canon _ _ _ (cover5_A_8 c i a1 h1 a2 h2 a3 h3 a4 h4 a5 h5 a6 h6 a7 h7 a8 h8 a9 h9 a10 h10 hc x0 x1 x2 x3 x4 x5 x6)]
  unfold kernelRun5_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_A_9 (c : Dev nD) (i : grid5.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond5_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) :
    out5_A_9 c i a1 h1 a2 h2 a3 h3 a4 h4 a5 h5 a6 h6 a7 h7 a8 h8 a9 h9 a10 h10 hc x0 x1 x2 x3 x4 x5 x6 = k5_pay2 (k5_pay5 x0 x2 x3 x1 x4 x5 x6) k5_pay4 := by
  unfold out5_A_9
  rw [View.read_writes_eq_canon _ _ _ (cover5_A_9 c i a1 h1 a2 h2 a3 h3 a4 h4 a5 h5 a6 h6 a7 h7 a8 h8 a9 h9 a10 h10 hc x0 x1 x2 x3 x4 x5 x6)]
  unfold kernelRun5_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_B_7 (c : Dev nD) (i : grid5.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond5_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out5_B_7 c i a1 h1 a2 h2 a3 h3 a4 h4 a5 h5 a6 h6 a7 h7 a8 h8 a9 h9 a10 h10 hc x0 x1 x2 x3 x4 x5 x6 xo8 xo9 = k5_pay5 x0 x2 x3 x1 x4 x5 x6 := by
  unfold out5_B_7
  rw [View.read_writes_eq_canon _ _ _ (cover5_B_7 c i a1 h1 a2 h2 a3 h3 a4 h4 a5 h5 a6 h6 a7 h7 a8 h8 a9 h9 a10 h10 hc x0 x1 x2 x3 x4 x5 x6 xo8 xo9)]
  unfold kernelRun5_B
  dsimp only
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_B_8 (c : Dev nD) (i : grid5.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond5_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out5_B_8 c i a1 h1 a2 h2 a3 h3 a4 h4 a5 h5 a6 h6 a7 h7 a8 h8 a9 h9 a10 h10 hc x0 x1 x2 x3 x4 x5 x6 xo8 xo9 = k5_pay1 (k5_pay5 x0 x2 x3 x1 x4 x5 x6) xo8 := by
  unfold out5_B_8
  rw [View.read_writes_eq_canon _ _ _ (cover5_B_8 c i a1 h1 a2 h2 a3 h3 a4 h4 a5 h5 a6 h6 a7 h7 a8 h8 a9 h9 a10 h10 hc x0 x1 x2 x3 x4 x5 x6 xo8 xo9)]
  unfold kernelRun5_B
  dsimp only
  rw [View.canon_unit_zero hz]
  sl_unfold_words
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_B_9 (c : Dev nD) (i : grid5.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond5_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out5_B_9 c i a1 h1 a2 h2 a3 h3 a4 h4 a5 h5 a6 h6 a7 h7 a8 h8 a9 h9 a10 h10 hc x0 x1 x2 x3 x4 x5 x6 xo8 xo9 = k5_pay2 (k5_pay5 x0 x2 x3 x1 x4 x5 x6) xo9 := by
  unfold out5_B_9
  rw [View.read_writes_eq_canon _ _ _ (cover5_B_9 c i a1 h1 a2 h2 a3 h3 a4 h4 a5 h5 a6 h6 a7 h7 a8 h8 a9 h9 a10 h10 hc x0 x1 x2 x3 x4 x5 x6 xo8 xo9)]
  unfold kernelRun5_B
  dsimp only
  rw [View.canon_unit_zero hz]
  sl_unfold_words
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

/-- The first running row after point n. -/
def acc8 (c : Dev nD) : (n : ℕ) → n < cfg5.N → Vec F S1x128 .f32
  | 0, h => k5_pay1 (k5_pay5 (iblk5 V c 0 ⟨0, h⟩) (iblk5 V c 2 ⟨0, h⟩) (iblk5 V c 3 ⟨0, h⟩) (iblk5 V c 1 ⟨0, h⟩) (iblk5 V c 4 ⟨0, h⟩) (iblk5 V c 5 ⟨0, h⟩) (iblk5 V c 6 ⟨0, h⟩)) k5_pay3
  | n + 1, h => k5_pay1 (k5_pay5 (iblk5 V c 0 ⟨n + 1, h⟩) (iblk5 V c 2 ⟨n + 1, h⟩) (iblk5 V c 3 ⟨n + 1, h⟩) (iblk5 V c 1 ⟨n + 1, h⟩) (iblk5 V c 4 ⟨n + 1, h⟩) (iblk5 V c 5 ⟨n + 1, h⟩) (iblk5 V c 6 ⟨n + 1, h⟩)) (acc8 c n (Nat.lt_of_succ_lt h))

/-- The second running row after point n. -/
def acc9 (c : Dev nD) : (n : ℕ) → n < cfg5.N → Vec F S1x128 .f32
  | 0, h => k5_pay2 (k5_pay5 (iblk5 V c 0 ⟨0, h⟩) (iblk5 V c 2 ⟨0, h⟩) (iblk5 V c 3 ⟨0, h⟩) (iblk5 V c 1 ⟨0, h⟩) (iblk5 V c 4 ⟨0, h⟩) (iblk5 V c 5 ⟨0, h⟩) (iblk5 V c 6 ⟨0, h⟩)) k5_pay4
  | n + 1, h => k5_pay2 (k5_pay5 (iblk5 V c 0 ⟨n + 1, h⟩) (iblk5 V c 2 ⟨n + 1, h⟩) (iblk5 V c 3 ⟨n + 1, h⟩) (iblk5 V c 1 ⟨n + 1, h⟩) (iblk5 V c 4 ⟨n + 1, h⟩) (iblk5 V c 5 ⟨n + 1, h⟩) (iblk5 V c 6 ⟨n + 1, h⟩)) (acc9 c n (Nat.lt_of_succ_lt h))

/-- After point n the three output buffers hold the tile's result and the two running rows. By induction on the point. -/
theorem outsAt_eq (c : Dev nD) : ∀ (n : ℕ) (h : n < cfg5.N),
    outsAt5 V c n h = (k5_pay5 (iblk5 V c 0 ⟨n, h⟩) (iblk5 V c 2 ⟨n, h⟩) (iblk5 V c 3 ⟨n, h⟩) (iblk5 V c 1 ⟨n, h⟩) (iblk5 V c 4 ⟨n, h⟩) (iblk5 V c 5 ⟨n, h⟩) (iblk5 V c 6 ⟨n, h⟩), acc8 V c n h, acc9 V c n h)
  | 0, h => (outsAt5_A V c ⟨0, h⟩ rfl).trans (by
      rw [out_A_7, out_A_8, out_A_9]
      rfl)
  | n + 1, h => by
    have hN : cfg5.N = 5 := N_5
    have hB : ¬(⟨n + 1, h⟩ : Fin cfg5.N).val % 5 = 0 := by dsimp only; omega
    rw [outsAt5_B V c ⟨n + 1, h⟩ hB, out_B_7, out_B_8, out_B_9]
    show (k5_pay5 _ _ _ _ _ _ _, k5_pay1 _ (outsAt5 V c n _).2.1, k5_pay2 _ (outsAt5 V c n _).2.2)
      = (k5_pay5 _ _ _ _ _ _ _, k5_pay1 _ (acc8 V c n _), k5_pay2 _ (acc9 V c n _))
    rw [outsAt_eq c n]

end Cert.KernelIdeal.R5
-- ==== Proof.KPay1_L1.lean ====
/-
  The arithmetic of the second, third and fourth kernels of a layer, at the exact values. Each takes a tile `x` of the
  previous stage's output and the rows of its column means, column variances, scale and shift, and forms the normalised
  and rectified tile `max (g · (x − μ) · rsqrt(v + ε) + β) 0`. The second kernel stores the second dense layer of that
  tile; the third stores the tile itself; both add to two running rows the column sums of what they store and of its
  squares. The fourth stores the tile: the layer's output rows.
-/
import proofs.«113410_j5944234737805_1_alg».proof.Proof.Gen.KernelIdeal.Skeleton
import proofs.«113410_j5944234737805_1_alg».proof.Proof.KPay1
import proofs.«113410_j5944234737805_1_alg».proof.Proof.LibDense
import proofs.«113410_j5944234737805_1_alg».proof.Proof.LibBatchNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPayL1

open Cert.KernelIdeal Cert.KernelIdeal.Gen Idealize.ShloMosaic Idealize.ShloMosaic.TcCoe Idealize.ShloMosaic.ValueIdx
open Cert.KernelIdeal.KPay (rowAt normTile colAcc_apply colAccSq_apply)

/-- The second dense layer of the normalised and rectified tile. -/
theorem k1pay5_eq (x : Vec Ideal S10000x128 .f32) (v g μ β : Vec Ideal S1x128 .f32) (w : Vec Ideal S128x128 .f32)
    (b : Vec Ideal S1x128 .f32) :
    k5_pay5 (F := Ideal) x v g μ β w b = DenseSpec.dense (normTile x μ v g β) w b := by
  unfold k5_pay5
  dsimp only
  simp only [shapeCast_self]
  refine (DenseSpec.matmul_bias dot_S10000x128_S128x128_S10000x128_1_0_0_1_n_n_wf none _ _ b broadcasts_S1x128_S10000x128).trans ?_
  refine congrArg (fun a : BatchNormSpec.Mat 10000 128 => DenseSpec.dense a w b) ?_
  funext i
  obtain ⟨r, c, rfl⟩ : ∃ (r : Fin 10000) (c : Fin 128), i = ix2 r c := ⟨i 0, i 1, eq_ix2 i⟩
  unfold normTile
  rw [BatchNormSpec.normRelu_apply, truncf_apply, maximumf_apply, addf_apply, mulf_apply, mulf_apply, subf_apply,
    broadcastTo_1b_ab_apply g _ r c, broadcastTo_1b_ab_apply μ _ r c, broadcastTo_1b_ab_apply _ _ r c,
    broadcastTo_1b_ab_apply β _ r c]
  rfl

/-- The second kernel's two accumulations, over the tile `y` it has just stored. -/
theorem k1pay1_apply (y : FVec Ideal S10000x128 .f32) (acc : Vec Ideal S1x128 .f32) (c : Fin 128) :
    k5_pay1 (F := Ideal) y acc (ix2 (0 : Fin 1) c) = acc (ix2 (0 : Fin 1) c) + ∑ q : Fin 10000, y (ix2 q c) := by
  unfold k5_pay1
  exact colAcc_apply y acc c
theorem k1pay2_apply (y : FVec Ideal S10000x128 .f32) (acc : Vec Ideal S1x128 .f32) (c : Fin 128) :
    k5_pay2 (F := Ideal) y acc (ix2 (0 : Fin 1) c) = acc (ix2 (0 : Fin 1) c) + ∑ q : Fin 10000, y (ix2 q c) * y (ix2 q c) := by
  unfold k5_pay2
  exact colAccSq_apply y acc c
theorem k1pay3_apply (i : S1x128.Idx) : k5_pay3 (F := Ideal) i = 0 := by
  show Ideal.ofBits .f32 0x00000000#32 = 0
  exact Ideal.ofBits_zero_f32
theorem k1pay4_apply (i : S1x128.Idx) : k5_pay4 (F := Ideal) i = 0 := by
  show Ideal.ofBits .f32 0x00000000#32 = 0
  exact Ideal.ofBits_zero_f32

/-- The third kernel stores the normalised and rectified tile itself … -/
theorem k2pay4_eq (x : Vec Ideal S10000x128 .f32) (v g μ β : Vec Ideal S1x128 .f32) :
    k6_pay4 (F := Ideal) x v g μ β = normTile x μ v g β := by
  unfold k6_pay4
  dsimp only
  simp only [shapeCast_self]
  funext i
  obtain ⟨r, c, rfl⟩ : ∃ (r : Fin 10000) (c : Fin 128), i = ix2 r c := ⟨i 0, i 1, eq_ix2 i⟩
  unfold normTile
  rw [BatchNormSpec.normRelu_apply, maximumf_apply, addf_apply, mulf_apply, mulf_apply, subf_apply,
    broadcastTo_1b_ab_apply g _ r c, broadcastTo_1b_ab_apply μ _ r c, broadcastTo_1b_ab_apply _ _ r c,
    broadcastTo_1b_ab_apply β _ r c]
  rfl

/-- … and accumulates its column sums and the column sums of its squares. -/
theorem k2pay5_apply (x : Vec Ideal S10000x128 .f32) (v g μ β acc : Vec Ideal S1x128 .f32) (c : Fin 128) :
    k6_pay5 (F := Ideal) x v g μ β acc (ix2 (0 : Fin 1) c)
      = acc (ix2 (0 : Fin 1) c) + ∑ q : Fin 10000, normTile x μ v g β (ix2 q c) := by
  unfold k6_pay5
  dsimp only
  rw [k2pay4_eq]
  exact colAcc_apply (normTile x μ v g β) acc c
theorem k2pay1_apply (y : FVec Ideal S10000x128 .f32) (acc : Vec Ideal S1x128 .f32) (c : Fin 128) :
    k6_pay1 (F := Ideal) y acc (ix2 (0 : Fin 1) c) = acc (ix2 (0 : Fin 1) c) + ∑ q : Fin 10000, y (ix2 q c) * y (ix2 q c) := by
  unfold k6_pay1
  exact colAccSq_apply y acc c
theorem k2pay2_apply (i : S1x128.Idx) : k6_pay2 (F := Ideal) i = 0 := by
  show Ideal.ofBits .f32 0x00000000#32 = 0
  exact Ideal.ofBits_zero_f32
theorem k2pay3_apply (i : S1x128.Idx) : k6_pay3 (F := Ideal) i = 0 := by
  show Ideal.ofBits .f32 0x00000000#32 = 0
  exact Ideal.ofBits_zero_f32

/-- The fourth kernel stores the normalised and rectified tile: the layer's output rows. -/
theorem k3pay1_eq (x : Vec Ideal S10000x128 .f32) (v g μ β : Vec Ideal S1x128 .f32) :
    k7_pay1 (F := Ideal) x v g μ β = normTile x μ v g β := by
  unfold k7_pay1
  dsimp only
  simp only [shapeCast_self]
  funext i
  obtain ⟨r, c, rfl⟩ : ∃ (r : Fin 10000) (c : Fin 128), i = ix2 r c := ⟨i 0, i 1, eq_ix2 i⟩
  unfold normTile
  rw [BatchNormSpec.normRelu_apply, maximumf_apply, addf_apply, mulf_apply, mulf_apply, subf_apply,
    broadcastTo_1b_ab_apply g _ r c, broadcastTo_1b_ab_apply μ _ r c, broadcastTo_1b_ab_apply _ _ r c,
    broadcastTo_1b_ab_apply β _ r c]
  rfl

end Cert.KernelIdeal.KPayL1

end
-- ==== Proof.R5Array.lean ====
/-
  The second kernel of layer 1: what its three output arrays hold when the region ends, at the exact values. Point t reads
  rows 10000·t … of the first dense layer's output, the four statistics and parameter rows, the whole second weight
  matrix and its bias row, and writes back the same rows of the output: the second dense layer of the normalised and
  rectified rows. Normalising is row by row, so the output array is the second dense layer of the normalised and
  rectified whole array. The two running rows, written back once after the last point, are that array's column sums
  and column sums of squares.
-/
import proofs.«113410_j5944234737805_1_alg».proof.Proof.R5Value
import proofs.«113410_j5944234737805_1_alg».proof.Proof.KPay1_L1
import proofs.«113410_j5944234737805_1_alg».proof.Proof.GinTiles
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.R5

open Cert.KernelIdeal Cert.KernelIdeal.Gen

variable (V : (c : Dev nD) → (b : Ref sig .tc) → Buf (Elt Ideal) ((c : Thread nD τ).loc b))

/-- The block indices of the ten windows at each grid point: the two row-tile windows move with the point, the others stay. -/
theorem idx_facts : ∀ t : Fin cfg5.N,
    win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = t.val
    ∧ win5_7.index t (1 : Fin 2) = 0
    ∧ win5_8.index t (0 : Fin 2) = 0
    ∧ win5_8.index t (1 : Fin 2) = 0
    ∧ win5_9.index t (0 : Fin 2) = 0
    ∧ win5_9.index t (1 : Fin 2) = 0 :=
  (by decide +kernel : ∀ t : Fin grid5.N, _)

/-- Row q of the tile of point t. -/
abbrev rowK (t : Fin cfg5.N) (q : Fin 10000) : Fin 50000 :=
  ⟨10000 * t.val + q.val, by have := t.isLt; have hN : cfg5.N = 5 := N_5; have := q.isLt; omega⟩

/-- The input tile of point t is rows 10000·t + q of the first dense layer's output. -/
theorem tile_apply (c : Dev nD) (t : Fin cfg5.N) (q : Fin 10000) (k : Fin 128) :
    iblk5 V c 0 t (ix2 q k) = V c main_v98_0 (ix2 (rowK t q) k) := by
  obtain ⟨e0, e1, -⟩ := idx_facts t
  unfold iblk5
  rw [View.read_apply]
  show V c main_v98_0 _ = V c main_v98_0 _
  congr 1
  funext a
  apply Fin.ext
  match a with
  | ⟨0, _⟩ => show win5_0.index t (0 : Fin 2) * 10000 + 1 * q.val = 10000 * t.val + q.val; rw [e0]; omega
  | ⟨1, _⟩ => show win5_0.index t (1 : Fin 2) * 128 + 1 * k.val = k.val; rw [e1]; omega

/-! The statistics and parameter rows, and the bias row: each window's block at every point is the whole row. -/

theorem row_blk1 (c : Dev nD) (t : Fin cfg5.N) : iblk5 V c 1 t = V c main_v100 := by
  obtain ⟨-, -, ea, eb, -⟩ := idx_facts t
  funext j
  unfold iblk5
  rw [View.read_apply]
  show V c main_v100 _ = V c main_v100 j
  congr 1
  funext a
  apply Fin.ext
  match a with
  | ⟨0, _⟩ => show win5_1.index t (0 : Fin 2) * 1 + 1 * (j 0).val = (j 0).val; rw [ea]; omega
  | ⟨1, _⟩ => show win5_1.index t (1 : Fin 2) * 128 + 1 * (j 1).val = (j 1).val; rw [eb]; omega

theorem row_blk2 (c : Dev nD) (t : Fin cfg5.N) : iblk5 V c 2 t = V c main_v104 := by
  obtain ⟨-, -, -, -, ea, eb, -⟩ := idx_facts t
  funext j
  unfold iblk5
  rw [View.read_apply]
  show V c main_v104 _ = V c main_v104 j
  congr 1
  funext a
  apply Fin.ext
  match a with
  | ⟨0, _⟩ => show win5_2.index t (0 : Fin 2) * 1 + 1 * (j 0).val = (j 0).val; rw [ea]; omega
  | ⟨1, _⟩ => show win5_2.index t (1 : Fin 2) * 128 + 1 * (j 1).val = (j 1).val; rw [eb]; omega

theorem row_blk3 (c : Dev nD) (t : Fin cfg5.N) : iblk5 V c 3 t = V c main_v80 := by
  obtain ⟨-, -, -, -, -, -, ea, eb, -⟩ := idx_facts t
  funext j
  unfold iblk5
  rw [View.read_apply]
  show V c main_v80 _ = V c main_v80 j
  congr 1
  funext a
  apply Fin.ext
  match a with
  | ⟨0, _⟩ => show win5_3.index t (0 : Fin 2) * 1 + 1 * (j 0).val = (j 0).val; rw [ea]; omega
  | ⟨1, _⟩ => show win5_3.index t (1 : Fin 2) * 128 + 1 * (j 1).val = (j 1).val; rw [eb]; omega

theorem row_blk4 (c : Dev nD) (t : Fin cfg5.N) : iblk5 V c 4 t = V c main_v83 := by
  obtain ⟨-, -, -, -, -, -, -, -, ea, eb, -⟩ := idx_facts t
  funext j
  unfold iblk5
  rw [View.read_apply]
  show V c main_v83 _ = V c main_v83 j
  congr 1
  funext a
  apply Fin.ext
  match a with
  | ⟨0, _⟩ => show win5_4.index t (0 : Fin 2) * 1 + 1 * (j 0).val = (j 0).val; rw [ea]; omega
  | ⟨1, _⟩ => show win5_4.index t (1 : Fin 2) * 128 + 1 * (j 1).val = (j 1).val; rw [eb]; omega

theorem row_blk6 (c : Dev nD) (t : Fin cfg5.N) : iblk5 V c 6 t = V c main_v77 := by
  obtain ⟨-, -, -, -, -, -, -, -, -, -, -, -, ea, eb, -⟩ := idx_facts t
  funext j
  unfold iblk5
  rw [View.read_apply]
  show V c main_v77 _ = V c main_v77 j
  congr 1
  funext a
  apply Fin.ext
  match a with
  | ⟨0, _⟩ => show win5_6.index t (0 : Fin 2) * 1 + 1 * (j 0).val = (j 0).val; rw [ea]; omega
  | ⟨1, _⟩ => show win5_6.index t (1 : Fin 2) * 128 + 1 * (j 1).val = (j 1).val; rw [eb]; omega

/-- The weights' block at every point is the whole weight matrix. -/
theorem w_blk (c : Dev nD) (t : Fin cfg5.N) : iblk5 V c 5 t = V c main_v106 := by
  obtain ⟨-, -, -, -, -, -, -, -, -, -, ea, eb, -⟩ := idx_facts t
  funext j
  unfold iblk5
  rw [View.read_apply]
  show V c main_v106 _ = V c main_v106 j
  congr 1
  funext a
  apply Fin.ext
  match a with
  | ⟨0, _⟩ => show win5_5.index t (0 : Fin 2) * 128 + 1 * (j 0).val = (j 0).val; rw [ea]; omega
  | ⟨1, _⟩ => show win5_5.index t (1 : Fin 2) * 128 + 1 * (j 1).val = (j 1).val; rw [eb]; omega

/-- The first dense layer's output, normalised and rectified: the whole array. -/
def A1 (c : Dev nD) : BatchNormSpec.Mat 50000 128 :=
  BatchNormSpec.normRelu (Ideal.ofBits .f32 0x3727C5AC#32) (Ideal.ofBits .f32 0x00000000#32) (V c main_v98_0)
    (KPay.rowAt (V c main_v100)) (KPay.rowAt (V c main_v104)) (KPay.rowAt (V c main_v80)) (KPay.rowAt (V c main_v83))

/-- The second dense layer of it: what the first output array ends holding. -/
def X2 (c : Dev nD) : S50000x128.Idx → EReal := DenseSpec.dense (A1 V c) (V c main_v106) (V c main_v77)

/-- The second dense layer of the normalised tile is the matching rows of the second dense layer of the whole array. -/
theorem tile_dense (c : Dev nD) (t : Fin cfg5.N) (q : Fin 10000) (k : Fin 128) :
    k5_pay5 (F := Ideal) (iblk5 V c 0 t) (iblk5 V c 2 t) (iblk5 V c 3 t) (iblk5 V c 1 t) (iblk5 V c 4 t) (iblk5 V c 5 t) (iblk5 V c 6 t) (ix2 q k) = X2 V c (ix2 (rowK t q) k) := by
  rw [KPayL1.k1pay5_eq, row_blk1, row_blk2, row_blk3, row_blk4, row_blk6, w_blk]
  refine DenseSpec.dense_rows (A1 V c) _ (V c main_v106) (V c main_v77) (rowK t q) q (fun k' => ?_) k
  unfold A1 KPay.normTile
  rw [BatchNormSpec.normRelu_apply, BatchNormSpec.normRelu_apply, tile_apply V c t q k']

/-- What point t writes back is rows 10000·t … of the second dense layer of the whole array. -/
theorem flushed7_eq (c : Dev nD) (t : Fin cfg5.N) :
    (dat5 V c).flushed 7 t = ((cfg5.win 7).blk t).view.read (Elt Ideal) (X2 V c) := by
  obtain ⟨-, -, -, -, -, -, -, -, -, -, -, -, -, -, ea, eb, -⟩ := idx_facts t
  show (cfg5.win 7).cut (grid5.coords t) ((dat5 V c).after 7 t) = _
  rw [after5_7, outsAt_eq V c t.val t.isLt]
  funext j
  obtain ⟨q, k, rfl⟩ : ∃ (q : Fin 10000) (k : Fin 128), j = ix2 q k := ⟨j 0, j 1, eq_ix2 j⟩
  show k5_pay5 (F := Ideal) (iblk5 V c 0 t) (iblk5 V c 2 t) (iblk5 V c 3 t) (iblk5 V c 1 t) (iblk5 V c 4 t) (iblk5 V c 5 t) (iblk5 V c 6 t) (ix2 q k) = X2 V c (((cfg5.win 7).blk t).view.emb (ix2 q k))
  have hemb : ((cfg5.win 7).blk t).view.emb (ix2 q k) = ix2 (rowK t q) k := by
    funext a
    apply Fin.ext
    match a with
    | ⟨0, _⟩ => show win5_7.index t (0 : Fin 2) * 10000 + 1 * q.val = 10000 * t.val + q.val; rw [ea]; omega
    | ⟨1, _⟩ => show win5_7.index t (1 : Fin 2) * 128 + 1 * k.val = k.val; rw [eb]; omega
  rw [hemb]
  exact tile_dense V c t q k

theorem mem_blk7 (t : Fin cfg5.N) (i : S50000x128.Idx) :
    i ∈ ((cfg5.win 7).blk t).view.set ↔ ∀ a : Fin 2, win5_7.index t a * S10000x128.size a ≤ (i a).val
      ∧ (i a).val < win5_7.index t a * S10000x128.size a + S10000x128.size a := by
  show i ∈ ((View.whole main_v107_0).slice (win5_7.rect t)).set ↔ _
  rw [View.set_slice_whole, Rect.mem_set_unit]
  exact Iff.rfl

/-- The first output array when the region ends: the second dense layer of the normalised and rectified whole array. -/
theorem final7 (c : Dev nD) : (dat5 V c).arrAt 7 cfg5.N = X2 V c :=
  (dat5 V c).arrAt_eq_of_cover 7 (X2 V c) (fun t _ => flushed7_eq V c t) fun i => by
    have hi0 : (i 0).val < 50000 := (i 0).isLt
    have hi1 : (i 1).val < 128 := (i 1).isLt
    have hN : cfg5.N = 5 := N_5
    obtain ⟨-, -, -, -, -, -, -, -, -, -, -, -, -, -, ea, eb, -⟩ := idx_facts ⟨(i 0).val / 10000, by omega⟩
    refine ⟨⟨(i 0).val / 10000, by omega⟩, flush5_7 _, ?_⟩
    rw [mem_blk7]
    intro a
    match a with
    | ⟨0, _⟩ =>
      show win5_7.index ⟨(i 0).val / 10000, _⟩ (0 : Fin 2) * 10000 ≤ (i 0).val
        ∧ (i 0).val < win5_7.index ⟨(i 0).val / 10000, _⟩ (0 : Fin 2) * 10000 + 10000
      rw [ea]; dsimp only; omega
    | ⟨1, _⟩ =>
      show win5_7.index ⟨(i 0).val / 10000, _⟩ (1 : Fin 2) * 128 ≤ (i 1).val
        ∧ (i 1).val < win5_7.index ⟨(i 0).val / 10000, _⟩ (1 : Fin 2) * 128 + 128
      rw [eb]; omega

/-! ## The two running rows -/

/-- The last grid point. -/
abbrev tLast : Fin cfg5.N := ⟨4, by rw [show cfg5.N = 5 from N_5]; decide⟩

theorem h4 : 4 < cfg5.N := tLast.isLt

theorem mem_blk8 (t : Fin cfg5.N) (i : S1x128.Idx) :
    i ∈ ((cfg5.win 8).blk t).view.set ↔ ∀ a : Fin 2, win5_8.index t a * S1x128.size a ≤ (i a).val
      ∧ (i a).val < win5_8.index t a * S1x128.size a + S1x128.size a := by
  show i ∈ ((View.whole main_v107_1).slice (win5_8.rect t)).set ↔ _
  rw [View.set_slice_whole, Rect.mem_set_unit]
  exact Iff.rfl

/-- The one write-back of running row 8, after the last point, writes the row as it stands after point 4. -/
theorem flushed8_eq (c : Dev nD) (t : Fin cfg5.N) (hf : (cfg5.win 8).flush t = true) :
    (dat5 V c).flushed 8 t = ((cfg5.win 8).blk t).view.read (Elt Ideal) (acc8 V c 4 h4) := by
  have hN : cfg5.N = 5 := N_5
  have ht : t.val = 4 := by have := (flush5_8 t).mp hf; have := t.isLt; omega
  obtain rfl : t = tLast := Fin.ext ht
  obtain ⟨-, -, -, -, -, -, -, -, -, -, -, -, -, -, -, -, ea, eb, -⟩ := idx_facts tLast
  show (cfg5.win 8).cut (grid5.coords tLast) ((dat5 V c).after 8 tLast) = _
  rw [after5_8, outsAt_eq V c tLast.val tLast.isLt]
  funext j
  show acc8 V c 4 _ j = acc8 V c 4 _ (((cfg5.win 8).blk tLast).view.emb j)
  congr 1
  funext a
  apply Fin.ext
  match a with
  | ⟨0, _⟩ => show (j 0).val = win5_8.index tLast (0 : Fin 2) * 1 + 1 * (j 0).val; rw [ea]; omega
  | ⟨1, _⟩ => show (j 1).val = win5_8.index tLast (1 : Fin 2) * 128 + 1 * (j 1).val; rw [eb]; omega

/-- Running row 8's array when the region ends. -/
theorem final8 (c : Dev nD) : (dat5 V c).arrAt 8 cfg5.N = acc8 V c 4 h4 :=
  (dat5 V c).arrAt_eq_of_cover 8 (acc8 V c 4 h4) (flushed8_eq V c) fun i => by
    have hi0 : (i 0).val < 1 := (i 0).isLt
    have hi1 : (i 1).val < 128 := (i 1).isLt
    obtain ⟨-, -, -, -, -, -, -, -, -, -, -, -, -, -, -, -, ea, eb, -⟩ := idx_facts tLast
    refine ⟨tLast, (flush5_8 tLast).mpr rfl, ?_⟩
    rw [mem_blk8]
    intro a
    match a with
    | ⟨0, _⟩ =>
      show win5_8.index tLast (0 : Fin 2) * 1 ≤ (i 0).val ∧ (i 0).val < win5_8.index tLast (0 : Fin 2) * 1 + 1
      rw [ea]; omega
    | ⟨1, _⟩ =>
      show win5_8.index tLast (1 : Fin 2) * 128 ≤ (i 1).val ∧ (i 1).val < win5_8.index tLast (1 : Fin 2) * 128 + 128
      rw [eb]; omega

theorem mem_blk9 (t : Fin cfg5.N) (i : S1x128.Idx) :
    i ∈ ((cfg5.win 9).blk t).view.set ↔ ∀ a : Fin 2, win5_9.index t a * S1x128.size a ≤ (i a).val
      ∧ (i a).val < win5_9.index t a * S1x128.size a + S1x128.size a := by
  show i ∈ ((View.whole main_v107_2).slice (win5_9.rect t)).set ↔ _
  rw [View.set_slice_whole, Rect.mem_set_unit]
  exact Iff.rfl

/-- The one write-back of running row 9, after the last point, writes the row as it stands after point 4. -/
theorem flushed9_eq (c : Dev nD) (t : Fin cfg5.N) (hf : (cfg5.win 9).flush t = true) :
    (dat5 V c).flushed 9 t = ((cfg5.win 9).blk t).view.read (Elt Ideal) (acc9 V c 4 h4) := by
  have hN : cfg5.N = 5 := N_5
  have ht : t.val = 4 := by have := (flush5_9 t).mp hf; have := t.isLt; omega
  obtain rfl : t = tLast := Fin.ext ht
  obtain ⟨-, -, -, -, -, -, -, -, -, -, -, -, -, -, -, -, -, -, ea, eb⟩ := idx_facts tLast
  show (cfg5.win 9).cut (grid5.coords tLast) ((dat5 V c).after 9 tLast) = _
  rw [after5_9, outsAt_eq V c tLast.val tLast.isLt]
  funext j
  show acc9 V c 4 _ j = acc9 V c 4 _ (((cfg5.win 9).blk tLast).view.emb j)
  congr 1
  funext a
  apply Fin.ext
  match a with
  | ⟨0, _⟩ => show (j 0).val = win5_9.index tLast (0 : Fin 2) * 1 + 1 * (j 0).val; rw [ea]; omega
  | ⟨1, _⟩ => show (j 1).val = win5_9.index tLast (1 : Fin 2) * 128 + 1 * (j 1).val; rw [eb]; omega

/-- Running row 9's array when the region ends. -/
theorem final9 (c : Dev nD) : (dat5 V c).arrAt 9 cfg5.N = acc9 V c 4 h4 :=
  (dat5 V c).arrAt_eq_of_cover 9 (acc9 V c 4 h4) (flushed9_eq V c) fun i => by
    have hi0 : (i 0).val < 1 := (i 0).isLt
    have hi1 : (i 1).val < 128 := (i 1).isLt
    obtain ⟨-, -, -, -, -, -, -, -, -, -, -, -, -, -, -, -, -, -, ea, eb⟩ := idx_facts tLast
    refine ⟨tLast, (flush5_9 tLast).mpr rfl, ?_⟩
    rw [mem_blk9]
    intro a
    match a with
    | ⟨0, _⟩ =>
      show win5_9.index tLast (0 : Fin 2) * 1 ≤ (i 0).val ∧ (i 0).val < win5_9.index tLast (0 : Fin 2) * 1 + 1
      rw [ea]; omega
    | ⟨1, _⟩ =>
      show win5_9.index tLast (1 : Fin 2) * 128 ≤ (i 1).val ∧ (i 1).val < win5_9.index tLast (1 : Fin 2) * 128 + 128
      rw [eb]; omega

/-! ## The running rows are the column sums -/

/-- Running row 8 at column cc, as a sequence in the point (zero past the last point). -/
def A8 (c : Dev nD) (cc : Fin 128) (n : ℕ) : EReal :=
  if h : n < cfg5.N then acc8 V c n h (ix2 (0 : Fin 1) cc) else 0

/-- After the last point, running row 8 holds the column sums of the second dense layer. -/
theorem acc8_eq (c : Dev nD) (cc : Fin 128) :
    acc8 V c 4 h4 (ix2 (0 : Fin 1) cc) = BatchNormSpec.colSum (X2 V c) cc := by
  have hN : cfg5.N = 5 := N_5
  have key := GinTiles.acc_eq_colSum (X2 V c) cc (A8 V c cc) ?h0 ?hs
  · rw [← key]
    unfold A8
    rw [dif_pos h4]
  case h0 =>
    unfold A8
    rw [dif_pos (by omega : 0 < cfg5.N)]
    refine (KPayL1.k1pay1_apply (k5_pay5 (F := Ideal) (iblk5 V c 0 ⟨0, by omega⟩) (iblk5 V c 2 ⟨0, by omega⟩) (iblk5 V c 3 ⟨0, by omega⟩) (iblk5 V c 1 ⟨0, by omega⟩) (iblk5 V c 4 ⟨0, by omega⟩) (iblk5 V c 5 ⟨0, by omega⟩) (iblk5 V c 6 ⟨0, by omega⟩)) (k5_pay3 (F := Ideal)) cc).trans ?_
    rw [KPayL1.k1pay3_apply]
    refine congrArg ((0 : EReal) + ·) ?_
    unfold GinTiles.tileSum
    rw [dif_pos (by norm_num : 0 < 5)]
    exact Finset.sum_congr rfl fun q _ => tile_dense V c ⟨0, by omega⟩ q cc
  case hs =>
    intro n hn
    unfold A8
    rw [dif_pos (by omega : n + 1 < cfg5.N), dif_pos (by omega : n < cfg5.N)]
    refine (KPayL1.k1pay1_apply (k5_pay5 (F := Ideal) (iblk5 V c 0 ⟨n + 1, by omega⟩) (iblk5 V c 2 ⟨n + 1, by omega⟩) (iblk5 V c 3 ⟨n + 1, by omega⟩) (iblk5 V c 1 ⟨n + 1, by omega⟩) (iblk5 V c 4 ⟨n + 1, by omega⟩) (iblk5 V c 5 ⟨n + 1, by omega⟩) (iblk5 V c 6 ⟨n + 1, by omega⟩)) (acc8 V c n (by omega)) cc).trans ?_
    refine congrArg (acc8 V c n (by omega) (ix2 (0 : Fin 1) cc) + ·) ?_
    unfold GinTiles.tileSum
    rw [dif_pos hn]
    exact Finset.sum_congr rfl fun q _ => tile_dense V c ⟨n + 1, by omega⟩ q cc

/-- Running row 9 at column cc, as a sequence in the point (zero past the last point). -/
def A9 (c : Dev nD) (cc : Fin 128) (n : ℕ) : EReal :=
  if h : n < cfg5.N then acc9 V c n h (ix2 (0 : Fin 1) cc) else 0

/-- After the last point, running row 9 holds the column sums of squares of the second dense layer. -/
theorem acc9_eq (c : Dev nD) (cc : Fin 128) :
    acc9 V c 4 h4 (ix2 (0 : Fin 1) cc) = BatchNormSpec.colSumSq (X2 V c) cc := by
  have hN : cfg5.N = 5 := N_5
  have key := GinTiles.acc_eq_colSumSq (X2 V c) cc (A9 V c cc) ?h0 ?hs
  · rw [← key]
    unfold A9
    rw [dif_pos h4]
  case h0 =>
    unfold A9
    rw [dif_pos (by omega : 0 < cfg5.N)]
    refine (KPayL1.k1pay2_apply (k5_pay5 (F := Ideal) (iblk5 V c 0 ⟨0, by omega⟩) (iblk5 V c 2 ⟨0, by omega⟩) (iblk5 V c 3 ⟨0, by omega⟩) (iblk5 V c 1 ⟨0, by omega⟩) (iblk5 V c 4 ⟨0, by omega⟩) (iblk5 V c 5 ⟨0, by omega⟩) (iblk5 V c 6 ⟨0, by omega⟩)) (k5_pay4 (F := Ideal)) cc).trans ?_
    rw [KPayL1.k1pay4_apply]
    refine congrArg ((0 : EReal) + ·) ?_
    unfold GinTiles.tileSum
    rw [dif_pos (by norm_num : 0 < 5)]
    exact Finset.sum_congr rfl fun q _ => congrArg₂ (· * ·) (tile_dense V c ⟨0, by omega⟩ q cc) (tile_dense V c ⟨0, by omega⟩ q cc)
  case hs =>
    intro n hn
    unfold A9
    rw [dif_pos (by omega : n + 1 < cfg5.N), dif_pos (by omega : n < cfg5.N)]
    refine (KPayL1.k1pay2_apply (k5_pay5 (F := Ideal) (iblk5 V c 0 ⟨n + 1, by omega⟩) (iblk5 V c 2 ⟨n + 1, by omega⟩) (iblk5 V c 3 ⟨n + 1, by omega⟩) (iblk5 V c 1 ⟨n + 1, by omega⟩) (iblk5 V c 4 ⟨n + 1, by omega⟩) (iblk5 V c 5 ⟨n + 1, by omega⟩) (iblk5 V c 6 ⟨n + 1, by omega⟩)) (acc9 V c n (by omega)) cc).trans ?_
    refine congrArg (acc9 V c n (by omega) (ix2 (0 : Fin 1) cc) + ·) ?_
    unfold GinTiles.tileSum
    rw [dif_pos hn]
    exact Finset.sum_congr rfl fun q _ => congrArg₂ (· * ·) (tile_dense V c ⟨n + 1, by omega⟩ q cc) (tile_dense V c ⟨n + 1, by omega⟩ q cc)

end Cert.KernelIdeal.R5

end
-- ==== Proof.R6Value.lean ====
/- The third kernel of layer 2 of the five, read as values, at any float instance. At each of its five grid points the kernel
   normalises, scales, shifts and rectifies the point's tile of 10000 rows with the four statistics rows and stores the
   tile, and keeps two running rows: at the first point it sets them to the zero row plus the column sums of the stored
   tile and of its squares; at every later point it adds the tile's column sums to what the point before left. So after
   point n the three output buffers hold tile n's result and the two accumulations over tiles 0..n, by induction on
   the point. -/
import proofs.«113410_j5944234737805_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R6

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem out_A_5 (c : Dev nD) (i : grid6.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond6_0 i)
    (x0 : Vec F S10000x128 .f32) (x1 : Vec F S1x128 .f32) (x2 : Vec F S1x128 .f32) (x3 : Vec F S1x128 .f32) (x4 : Vec F S1x128 .f32) :
    out6_A_5 c i a1 h1 a2 h2 a3 h3 a4 h4 a5 h5 a6 h6 a7 h7 a8 h8 hc x0 x1 x2 x3 x4 = k6_pay4 x0 x2 x3 x1 x4 := by
  unfold out6_A_5
  rw [View.read_writes_eq_canon _ _ _ (cover6_A_5 c i a1 h1 a2 h2 a3 h3 a4 h4 a5 h5 a6 h6 a7 h7 a8 h8 hc x0 x1 x2 x3 x4)]
  unfold kernelRun6_A
  dsimp only
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_A_6 (c : Dev nD) (i : grid6.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond6_0 i)
    (x0 : Vec F S10000x128 .f32) (x1 : Vec F S1x128 .f32) (x2 : Vec F S1x128 .f32) (x3 : Vec F S1x128 .f32) (x4 : Vec F S1x128 .f32) :
    out6_A_6 c i a1 h1 a2 h2 a3 h3 a4 h4 a5 h5 a6 h6 a7 h7 a8 h8 hc x0 x1 x2 x3 x4 = k6_pay5 x0 x2 x3 x1 x4 k6_pay2 := by
  unfold out6_A_6
  rw [View.read_writes_eq_canon _ _ _ (cover6_A_6 c i a1 h1 a2 h2 a3 h3 a4 h4 a5 h5 a6 h6 a7 h7 a8 h8 hc x0 x1 x2 x3 x4)]
  unfold kernelRun6_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_A_7 (c : Dev nD) (i : grid6.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond6_0 i)
    (x0 : Vec F S10000x128 .f32) (x1 : Vec F S1x128 .f32) (x2 : Vec F S1x128 .f32) (x3 : Vec F S1x128 .f32) (x4 : Vec F S1x128 .f32) :
    out6_A_7 c i a1 h1 a2 h2 a3 h3 a4 h4 a5 h5 a6 h6 a7 h7 a8 h8 hc x0 x1 x2 x3 x4 = k6_pay1 (k6_pay4 x0 x2 x3 x1 x4) k6_pay3 := by
  unfold out6_A_7
  rw [View.read_writes_eq_canon _ _ _ (cover6_A_7 c i a1 h1 a2 h2 a3 h3 a4 h4 a5 h5 a6 h6 a7 h7 a8 h8 hc x0 x1 x2 x3 x4)]
  unfold kernelRun6_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_B_5 (c : Dev nD) (i : grid6.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond6_0 i)
    (x0 : Vec F S10000x128 .f32) (x1 : Vec F S1x128 .f32) (x2 : Vec F S1x128 .f32) (x3 : Vec F S1x128 .f32) (x4 : Vec F S1x128 .f32) (xo6 xo7 : Vec F S1x128 .f32) :
    out6_B_5 c i a1 h1 a2 h2 a3 h3 a4 h4 a5 h5 a6 h6 a7 h7 a8 h8 hc x0 x1 x2 x3 x4 xo6 xo7 = k6_pay4 x0 x2 x3 x1 x4 := by
  unfold out6_B_5
  rw [View.read_writes_eq_canon _ _ _ (cover6_B_5 c i a1 h1 a2 h2 a3 h3 a4 h4 a5 h5 a6 h6 a7 h7 a8 h8 hc x0 x1 x2 x3 x4 xo6 xo7)]
  unfold kernelRun6_B
  dsimp only
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_B_6 (c : Dev nD) (i : grid6.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond6_0 i)
    (x0 : Vec F S10000x128 .f32) (x1 : Vec F S1x128 .f32) (x2 : Vec F S1x128 .f32) (x3 : Vec F S1x128 .f32) (x4 : Vec F S1x128 .f32) (xo6 xo7 : Vec F S1x128 .f32) :
    out6_B_6 c i a1 h1 a2 h2 a3 h3 a4 h4 a5 h5 a6 h6 a7 h7 a8 h8 hc x0 x1 x2 x3 x4 xo6 xo7 = k6_pay5 x0 x2 x3 x1 x4 xo6 := by
  unfold out6_B_6
  rw [View.read_writes_eq_canon _ _ _ (cover6_B_6 c i a1 h1 a2 h2 a3 h3 a4 h4 a5 h5 a6 h6 a7 h7 a8 h8 hc x0 x1 x2 x3 x4 xo6 xo7)]
  unfold kernelRun6_B
  dsimp only
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_B_7 (c : Dev nD) (i : grid6.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond6_0 i)
    (x0 : Vec F S10000x128 .f32) (x1 : Vec F S1x128 .f32) (x2 : Vec F S1x128 .f32) (x3 : Vec F S1x128 .f32) (x4 : Vec F S1x128 .f32) (xo6 xo7 : Vec F S1x128 .f32) :
    out6_B_7 c i a1 h1 a2 h2 a3 h3 a4 h4 a5 h5 a6 h6 a7 h7 a8 h8 hc x0 x1 x2 x3 x4 xo6 xo7 = k6_pay1 (k6_pay4 x0 x2 x3 x1 x4) xo7 := by
  unfold out6_B_7
  rw [View.read_writes_eq_canon _ _ _ (cover6_B_7 c i a1 h1 a2 h2 a3 h3 a4 h4 a5 h5 a6 h6 a7 h7 a8 h8 hc x0 x1 x2 x3 x4 xo6 xo7)]
  unfold kernelRun6_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

/-- The first running row after point n. -/
def acc6 (c : Dev nD) : (n : ℕ) → n < cfg6.N → Vec F S1x128 .f32
  | 0, h => k6_pay5 (iblk6 V c 0 ⟨0, h⟩) (iblk6 V c 2 ⟨0, h⟩) (iblk6 V c 3 ⟨0, h⟩) (iblk6 V c 1 ⟨0, h⟩) (iblk6 V c 4 ⟨0, h⟩) k6_pay2
  | n + 1, h => k6_pay5 (iblk6 V c 0 ⟨n + 1, h⟩) (iblk6 V c 2 ⟨n + 1, h⟩) (iblk6 V c 3 ⟨n + 1, h⟩) (iblk6 V c 1 ⟨n + 1, h⟩) (iblk6 V c 4 ⟨n + 1, h⟩) (acc6 c n (Nat.lt_of_succ_lt h))

/-- The second running row after point n. -/
def acc7 (c : Dev nD) : (n : ℕ) → n < cfg6.N → Vec F S1x128 .f32
  | 0, h => k6_pay1 (k6_pay4 (iblk6 V c 0 ⟨0, h⟩) (iblk6 V c 2 ⟨0, h⟩) (iblk6 V c 3 ⟨0, h⟩) (iblk6 V c 1 ⟨0, h⟩) (iblk6 V c 4 ⟨0, h⟩)) k6_pay3
  | n + 1, h => k6_pay1 (k6_pay4 (iblk6 V c 0 ⟨n + 1, h⟩) (iblk6 V c 2 ⟨n + 1, h⟩) (iblk6 V c 3 ⟨n + 1, h⟩) (iblk6 V c 1 ⟨n + 1, h⟩) (iblk6 V c 4 ⟨n + 1, h⟩)) (acc7 c n (Nat.lt_of_succ_lt h))

/-- After point n the three output buffers hold the tile's result and the two running rows. By induction on the point. -/
theorem outsAt_eq (c : Dev nD) : ∀ (n : ℕ) (h : n < cfg6.N),
    outsAt6 V c n h = (k6_pay4 (iblk6 V c 0 ⟨n, h⟩) (iblk6 V c 2 ⟨n, h⟩) (iblk6 V c 3 ⟨n, h⟩) (iblk6 V c 1 ⟨n, h⟩) (iblk6 V c 4 ⟨n, h⟩), acc6 V c n h, acc7 V c n h)
  | 0, h => (outsAt6_A V c ⟨0, h⟩ rfl).trans (by
      rw [out_A_5, out_A_6, out_A_7]
      rfl)
  | n + 1, h => by
    have hN : cfg6.N = 5 := N_6
    have hB : ¬(⟨n + 1, h⟩ : Fin cfg6.N).val % 5 = 0 := by dsimp only; omega
    rw [outsAt6_B V c ⟨n + 1, h⟩ hB, out_B_5, out_B_6, out_B_7]
    show (k6_pay4 _ _ _ _ _, k6_pay5 _ _ _ _ _ (outsAt6 V c n _).2.1, k6_pay1 (k6_pay4 _ _ _ _ _) (outsAt6 V c n _).2.2)
      = (k6_pay4 _ _ _ _ _, k6_pay5 _ _ _ _ _ (acc6 V c n _), k6_pay1 (k6_pay4 _ _ _ _ _) (acc7 V c n _))
    rw [outsAt_eq c n]

end Cert.KernelIdeal.R6
-- ==== Proof.R7Value.lean ====
/- Region 3 of the idealized kernel program: the fourth kernel of layer 2 of the five, read as one function of the arrays
   it finds.

   The kernel's grid has five points; point t loads rows 10000·t … 10000·t + 9999 of the 50000 × 128 source and the
   four 1 × 128 rows (mean, variance, scale, shift), whole at every point, and stores one 10000 × 128 tile: entry
   (q, k) is `max (scale(k) · (x(q,k) − mean(k)) · rsqrt (variance(k) + ε) + shift(k)) 0`. The single store covers the
   staging buffer, so what the body leaves there is its payload (`out_eq`). Tile t is written back to rows
   10000·t … of the output, and every row r of the output belongs to tile r / 10000, so after the five points the
   output array is the normalise-scale-shift-rectify function of the whole source and the four rows, entry by entry
   (`final5`): an entry of a tile reads the source at the same row of the whole array and each statistics row at the
   same column. The five input arrays are left as found (`arr_in`). -/
import proofs.«113410_j5944234737805_1_alg».proof.Proof.Gen.KernelIdeal.Frame
import proofs.«113410_j5944234737805_1_alg».proof.Proof.KPay1_L1
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R7

open Cert.KernelIdeal Cert.KernelIdeal.Gen Idealize.ShloMosaic.ValueIdx

theorem hz : (![0, 0] : Fin 2 → Nat) = fun _ => 0 := funext fun a => by fin_cases a <;> rfl

section AnyValues

variable {F : FTy → Type} [FloatOps F]
variable (V : (c : Dev nD) → (b : Ref sig .tc) → Buf (Elt F) ((c : Thread nD τ).loc b))

/-- The body's one store covers the staging buffer, so the buffer ends holding the store's payload of the loaded
    blocks. -/
theorem out_eq (x0 : Vec F S10000x128 .f32) (x1 x2 x3 x4 : Vec F S1x128 .f32) :
    out7_5 x0 x1 x2 x3 x4 = k7_pay1 x0 x2 x3 x1 x4 := by
  unfold out7_5
  rw [View.canon_unit_zero hz]
  simp only [View.ld_unit_zero (S := S10000x128) hz, View.ld_unit_zero (S := S1x128) hz]

/-- The input windows' arrays end as the region found them. -/
theorem arr_in (c : Dev nD) (w : Fin cfg7.W) (hin : (cfg7.win w).isOut = false) :
    (dat7 V c).arrAt w cfg7.N = V c (Pipeline.arrRef spec7 w) :=
  ((dat7 V c).arrAt_in w hin _).trans (A_eq7 V c w)

theorem arr_in0 (c : Dev nD) : (dat7 V c).arrAt 0 cfg7.N = V c (Pipeline.arrRef spec7 0) := arr_in V c 0 rfl
theorem arr_in1 (c : Dev nD) : (dat7 V c).arrAt 1 cfg7.N = V c (Pipeline.arrRef spec7 1) := arr_in V c 1 rfl
theorem arr_in2 (c : Dev nD) : (dat7 V c).arrAt 2 cfg7.N = V c (Pipeline.arrRef spec7 2) := arr_in V c 2 rfl
theorem arr_in3 (c : Dev nD) : (dat7 V c).arrAt 3 cfg7.N = V c (Pipeline.arrRef spec7 3) := arr_in V c 3 rfl
theorem arr_in4 (c : Dev nD) : (dat7 V c).arrAt 4 cfg7.N = V c (Pipeline.arrRef spec7 4) := arr_in V c 4 rfl

end AnyValues

/-- The printed index maps over the five points: the source tile moves with the output tile, which is tile `t`; every
    row window sits at block (0, 0). -/
theorem idx_facts : ∀ t : Fin cfg7.N, win7_0.index t (0 : Fin 2) = win7_5.index t (0 : Fin 2)
    ∧ win7_0.index t (1 : Fin 2) = 0 ∧ win7_5.index t (1 : Fin 2) = 0 ∧ win7_5.index t (0 : Fin 2) = t.val
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- Normalise-scale-shift-rectify at an entry depends on the data at that entry and on the four rows at its column. -/
theorem normRelu_congr {N N' D : Nat} (e z : EReal) (x : BatchNormSpec.Mat N D) (x' : BatchNormSpec.Mat N' D)
    (μ v g b μ' v' g' b' : Fin D → EReal) (i : (⟨2, ![N, D]⟩ : Shape).Idx) (i' : (⟨2, ![N', D]⟩ : Shape).Idx)
    (hx : x i = x' i') (hμ : μ (i 1) = μ' (i' 1)) (hv : v (i 1) = v' (i' 1)) (hg : g (i 1) = g' (i' 1))
    (hb : b (i 1) = b' (i' 1)) :
    BatchNormSpec.normRelu e z x μ v g b i = BatchNormSpec.normRelu e z x' μ' v' g' b' i' := by
  unfold BatchNormSpec.normRelu
  rw [hx, hμ, hv, hg, hb]

section Exact

variable (V : (c : Dev nD) → (b : Ref sig .tc) → Buf (Elt Ideal) ((c : Thread nD τ).loc b))

/-- What the output array ends holding: the normalised, scaled, shifted and rectified source, with the four rows. -/
abbrev G (c : Dev nD) : BatchNormSpec.Mat 50000 128 :=
  BatchNormSpec.normRelu (Ideal.ofBits .f32 0x3727C5AC#32) (Ideal.ofBits .f32 0x00000000#32) (V c main_v114_0)
    (KPay.rowAt (V c main_v116)) (KPay.rowAt (V c main_v120)) (KPay.rowAt (V c main_v92)) (KPay.rowAt (V c main_v95))

/-- What point `t` writes back is tile `t` of that function. -/
theorem flushed5_eq (c : Dev nD) (t : Fin cfg7.N) :
    (dat7 V c).flushed 5 t = ((cfg7.win 5).blk t).view.read (Elt Ideal) (G V c) := by
  show (cfg7.win 5).cut (grid7.coords t) ((dat7 V c).after 5 t) = _
  rw [after7_5, out_eq, KPayL1.k3pay1_eq]
  obtain ⟨f0, f1, f5, ft, a10, a11, a20, a21, a30, a31, a40, a41⟩ := idx_facts t
  funext j
  show KPay.normTile (iblk7 V c 0 t) (iblk7 V c 1 t) (iblk7 V c 2 t) (iblk7 V c 3 t) (iblk7 V c 4 t) j
    = G V c (((cfg7.win 5).blk t).view.emb j)
  refine normRelu_congr _ _ _ _ _ _ _ _ _ _ _ _ j (((cfg7.win 5).blk t).view.emb j) ?_ ?_ ?_ ?_ ?_
  · show V c main_v114_0 (((cfg7.win 0).blk t).view.emb j) = V c main_v114_0 (((cfg7.win 5).blk t).view.emb j)
    refine congrArg _ (funext fun a => Fin.ext ?_)
    match a with
    | ⟨0, _⟩ =>
      show win7_0.index t (0 : Fin 2) * 10000 + 1 * (j 0).val = win7_5.index t (0 : Fin 2) * 10000 + 1 * (j 0).val
      omega
    | ⟨1, _⟩ =>
      show win7_0.index t (1 : Fin 2) * 128 + 1 * (j 1).val = win7_5.index t (1 : Fin 2) * 128 + 1 * (j 1).val
      omega
  · show V c main_v116 (((cfg7.win 1).blk t).view.emb (ix2 (0 : Fin 1) (j 1)))
      = V c main_v116 (ix2 (0 : Fin 1) ((((cfg7.win 5).blk t).view.emb j) 1))
    refine congrArg _ (funext fun a => Fin.ext ?_)
    match a with
    | ⟨0, _⟩ => show win7_1.index t (0 : Fin 2) * 1 + 1 * 0 = 0; omega
    | ⟨1, _⟩ =>
      show win7_1.index t (1 : Fin 2) * 128 + 1 * (j 1).val = win7_5.index t (1 : Fin 2) * 128 + 1 * (j 1).val
      omega
  · show V c main_v120 (((cfg7.win 2).blk t).view.emb (ix2 (0 : Fin 1) (j 1)))
      = V c main_v120 (ix2 (0 : Fin 1) ((((cfg7.win 5).blk t).view.emb j) 1))
    refine congrArg _ (funext fun a => Fin.ext ?_)
    match a with
    | ⟨0, _⟩ => show win7_2.index t (0 : Fin 2) * 1 + 1 * 0 = 0; omega
    | ⟨1, _⟩ =>
      show win7_2.index t (1 : Fin 2) * 128 + 1 * (j 1).val = win7_5.index t (1 : Fin 2) * 128 + 1 * (j 1).val
      omega
  · show V c main_v92 (((cfg7.win 3).blk t).view.emb (ix2 (0 : Fin 1) (j 1)))
      = V c main_v92 (ix2 (0 : Fin 1) ((((cfg7.win 5).blk t).view.emb j) 1))
    refine congrArg _ (funext fun a => Fin.ext ?_)
    match a with
    | ⟨0, _⟩ => show win7_3.index t (0 : Fin 2) * 1 + 1 * 0 = 0; omega
    | ⟨1, _⟩ =>
      show win7_3.index t (1 : Fin 2) * 128 + 1 * (j 1).val = win7_5.index t (1 : Fin 2) * 128 + 1 * (j 1).val
      omega
  · show V c main_v95 (((cfg7.win 4).blk t).view.emb (ix2 (0 : Fin 1) (j 1)))
      = V c main_v95 (ix2 (0 : Fin 1) ((((cfg7.win 5).blk t).view.emb j) 1))
    refine congrArg _ (funext fun a => Fin.ext ?_)
    match a with
    | ⟨0, _⟩ => show win7_4.index t (0 : Fin 2) * 1 + 1 * 0 = 0; omega
    | ⟨1, _⟩ =>
      show win7_4.index t (1 : Fin 2) * 128 + 1 * (j 1).val = win7_5.index t (1 : Fin 2) * 128 + 1 * (j 1).val
      omega

/-- An index of the output array is in point `t`'s tile iff each coordinate is in the tile's range on its axis. -/
theorem mem_blk5 (t : Fin cfg7.N) (i : S50000x128.Idx) :
    i ∈ ((cfg7.win 5).blk t).view.set ↔ ∀ a : Fin 2, win7_5.index t a * S10000x128.size a ≤ (i a).val
      ∧ (i a).val < win7_5.index t a * S10000x128.size a + S10000x128.size a := by
  show i ∈ ((View.whole main_v121).slice (win7_5.rect t)).set ↔ _
  rw [View.set_slice_whole, Rect.mem_set_unit]
  exact Iff.rfl

/-- Every entry of the output array is in some point's tile: row `r` is in tile `r / 10000`. -/
theorem cover5 (i : S50000x128.Idx) :
    ∃ t : Fin cfg7.N, (cfg7.win 5).flush t = true ∧ i ∈ ((cfg7.win 5).blk t).view.set := by
  have hi0 : (i 0).val < 50000 := (i 0).isLt
  have hi1 : (i 1).val < 128 := (i 1).isLt
  have hN : grid7.N = 5 := N_7
  let t : Fin cfg7.N := ⟨(i 0).val / 10000, by show (i 0).val / 10000 < grid7.N; omega⟩
  obtain ⟨f0, f1, f5, ft, -⟩ := idx_facts t
  have htv : t.val = (i 0).val / 10000 := rfl
  refine ⟨t, flush7_5 t, ?_⟩
  rw [mem_blk5]
  intro a
  match a with
  | ⟨0, _⟩ =>
    show win7_5.index t (0 : Fin 2) * 10000 ≤ (i 0).val ∧ (i 0).val < win7_5.index t (0 : Fin 2) * 10000 + 10000
    omega
  | ⟨1, _⟩ =>
    show win7_5.index t (1 : Fin 2) * 128 ≤ (i 1).val ∧ (i 1).val < win7_5.index t (1 : Fin 2) * 128 + 128
    omega

/-- THE OUTPUT ARRAY after the region: the normalised, scaled, shifted and rectified source, entry by entry. -/
theorem final5 (c : Dev nD) : (dat7 V c).arrAt 5 cfg7.N = G V c :=
  (dat7 V c).arrAt_eq_of_cover 5 (G V c) (fun t _ => flushed5_eq V c t) (cover5)

end Exact

end Cert.KernelIdeal.R7

end
-- ==== Proof.R6Array.lean ====
/- The third kernel of layer 2 of the five: what its three output arrays hold when the region ends, at the exact values.

   The grid has five points; point t reads rows 10000·t … 10000·t + 9999 of the source and the four statistics rows,
   whole at every point, and writes back the same rows of the first output. An entry of a tile's result depends on the
   source at that entry and on the rows at its column, so tile t's result is rows 10000·t … of the normalise-scale-
   shift-rectify function of the whole source; the tiles cover the array, which therefore ends holding that function.
   The two running rows are written back once, after the last point, as they stand then: tile by tile they started from
   the zero row and added each tile's column sums (of the result, and of its squares), and a sum over the 50000 rows is
   the sum over the five tiles of the tiles' sums, so they end at the column sums and the column sums of squares of the
   whole result. -/
import proofs.«113410_j5944234737805_1_alg».proof.Proof.R6Value
import proofs.«113410_j5944234737805_1_alg».proof.Proof.R7Value
import proofs.«113410_j5944234737805_1_alg».proof.Proof.KPay1_L1
import proofs.«113410_j5944234737805_1_alg».proof.Proof.GinTiles
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.R6

open Cert.KernelIdeal Cert.KernelIdeal.Gen

variable (V : (c : Dev nD) → (b : Ref sig .tc) → Buf (Elt Ideal) ((c : Thread nD τ).loc b))

/-- The block indices of the eight windows at each grid point: the two tile windows move with the point, the rows stay. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

/-- Row q of the tile of point t. -/
abbrev rowK (t : Fin cfg6.N) (q : Fin 10000) : Fin 50000 :=
  ⟨10000 * t.val + q.val, by have := t.isLt; have hN : cfg6.N = 5 := N_6; have := q.isLt; omega⟩

/-- The source tile of point t, read through its window, is rows 10000·t + q of the source array. -/
theorem tile_apply (c : Dev nD) (t : Fin cfg6.N) (q : Fin 10000) (k : Fin 128) :
    iblk6 V c 0 t (ix2 q k) = V c main_v107_0 (ix2 (rowK t q) k) := by
  obtain ⟨e0, e1, -⟩ := idx_facts t
  unfold iblk6
  rw [View.read_apply]
  show V c main_v107_0 _ = V c main_v107_0 _
  congr 1
  funext a
  apply Fin.ext
  match a with
  | ⟨0, _⟩ => show win6_0.index t (0 : Fin 2) * 10000 + 1 * q.val = 10000 * t.val + q.val; rw [e0]; omega
  | ⟨1, _⟩ => show win6_0.index t (1 : Fin 2) * 128 + 1 * k.val = k.val; rw [e1]; omega

/-- Window 1's block at every point is its whole row. -/
theorem row_blk1 (c : Dev nD) (t : Fin cfg6.N) : iblk6 V c 1 t = V c main_v109 := by
  obtain ⟨-, -, e10, e11, e20, e21, e30, e31, e40, e41, -⟩ := idx_facts t
  funext j
  unfold iblk6
  rw [View.read_apply]
  show V c main_v109 _ = V c main_v109 j
  congr 1
  funext a
  apply Fin.ext
  match a with
  | ⟨0, _⟩ => show win6_1.index t (0 : Fin 2) * 1 + 1 * (j 0).val = (j 0).val; rw [e10]; omega
  | ⟨1, _⟩ => show win6_1.index t (1 : Fin 2) * 128 + 1 * (j 1).val = (j 1).val; rw [e11]; omega

/-- Window 2's block at every point is its whole row. -/
theorem row_blk2 (c : Dev nD) (t : Fin cfg6.N) : iblk6 V c 2 t = V c main_v113 := by
  obtain ⟨-, -, e10, e11, e20, e21, e30, e31, e40, e41, -⟩ := idx_facts t
  funext j
  unfold iblk6
  rw [View.read_apply]
  show V c main_v113 _ = V c main_v113 j
  congr 1
  funext a
  apply Fin.ext
  match a with
  | ⟨0, _⟩ => show win6_2.index t (0 : Fin 2) * 1 + 1 * (j 0).val = (j 0).val; rw [e20]; omega
  | ⟨1, _⟩ => show win6_2.index t (1 : Fin 2) * 128 + 1 * (j 1).val = (j 1).val; rw [e21]; omega

/-- Window 3's block at every point is its whole row. -/
theorem row_blk3 (c : Dev nD) (t : Fin cfg6.N) : iblk6 V c 3 t = V c main_v86 := by
  obtain ⟨-, -, e10, e11, e20, e21, e30, e31, e40, e41, -⟩ := idx_facts t
  funext j
  unfold iblk6
  rw [View.read_apply]
  show V c main_v86 _ = V c main_v86 j
  congr 1
  funext a
  apply Fin.ext
  match a with
  | ⟨0, _⟩ => show win6_3.index t (0 : Fin 2) * 1 + 1 * (j 0).val = (j 0).val; rw [e30]; omega
  | ⟨1, _⟩ => show win6_3.index t (1 : Fin 2) * 128 + 1 * (j 1).val = (j 1).val; rw [e31]; omega

/-- Window 4's block at every point is its whole row. -/
theorem row_blk4 (c : Dev nD) (t : Fin cfg6.N) : iblk6 V c 4 t = V c main_v89 := by
  obtain ⟨-, -, e10, e11, e20, e21, e30, e31, e40, e41, -⟩ := idx_facts t
  funext j
  unfold iblk6
  rw [View.read_apply]
  show V c main_v89 _ = V c main_v89 j
  congr 1
  funext a
  apply Fin.ext
  match a with
  | ⟨0, _⟩ => show win6_4.index t (0 : Fin 2) * 1 + 1 * (j 0).val = (j 0).val; rw [e40]; omega
  | ⟨1, _⟩ => show win6_4.index t (1 : Fin 2) * 128 + 1 * (j 1).val = (j 1).val; rw [e41]; omega

/-- What the first output array ends holding: the normalised, scaled, shifted and rectified source. -/
abbrev A2 (c : Dev nD) : BatchNormSpec.Mat 50000 128 :=
  BatchNormSpec.normRelu (Ideal.ofBits .f32 0x3727C5AC#32) (Ideal.ofBits .f32 0x00000000#32) (V c main_v107_0)
    (KPay.rowAt (V c main_v109)) (KPay.rowAt (V c main_v113)) (KPay.rowAt (V c main_v86)) (KPay.rowAt (V c main_v89))

/-- The result on a tile is the matching rows of the result on the whole source. -/
theorem tile_norm (c : Dev nD) (t : Fin cfg6.N) (q : Fin 10000) (k : Fin 128) :
    KPay.normTile (iblk6 V c 0 t) (iblk6 V c 1 t) (iblk6 V c 2 t) (iblk6 V c 3 t) (iblk6 V c 4 t) (ix2 q k)
      = A2 V c (ix2 (rowK t q) k) := by
  rw [row_blk1, row_blk2, row_blk3, row_blk4]
  exact R7.normRelu_congr _ _ _ _ _ _ _ _ _ _ _ _ (ix2 q k) (ix2 (rowK t q) k) (tile_apply V c t q k) rfl rfl rfl rfl

/-- What point t writes back to the first output is rows 10000·t … of that function. -/
theorem flushed5_eq (c : Dev nD) (t : Fin cfg6.N) :
    (dat6 V c).flushed 5 t = ((cfg6.win 5).blk t).view.read (Elt Ideal) (A2 V c) := by
  obtain ⟨-, -, -, -, -, -, -, -, -, -, e50, e51, -⟩ := idx_facts t
  show (cfg6.win 5).cut (grid6.coords t) ((dat6 V c).after 5 t) = _
  rw [after6_5, outsAt_eq V c t.val t.isLt]
  funext j
  obtain ⟨q, k, rfl⟩ : ∃ (q : Fin 10000) (k : Fin 128), j = ix2 q k := ⟨j 0, j 1, eq_ix2 j⟩
  show k6_pay4 (iblk6 V c 0 t) (iblk6 V c 2 t) (iblk6 V c 3 t) (iblk6 V c 1 t) (iblk6 V c 4 t) (ix2 q k) = A2 V c (((cfg6.win 5).blk t).view.emb (ix2 q k))
  rw [KPayL1.k2pay4_eq]
  have hemb : ((cfg6.win 5).blk t).view.emb (ix2 q k) = ix2 (rowK t q) k := by
    funext a
    apply Fin.ext
    match a with
    | ⟨0, _⟩ => show win6_5.index t (0 : Fin 2) * 10000 + 1 * q.val = 10000 * t.val + q.val; rw [e50]; omega
    | ⟨1, _⟩ => show win6_5.index t (1 : Fin 2) * 128 + 1 * k.val = k.val; rw [e51]; omega
  rw [hemb]
  exact tile_norm V c t q k

/-- An index of the first output array is in point t's block iff each coordinate is in the block's range. -/
theorem mem_blk5 (t : Fin cfg6.N) (i : S50000x128.Idx) :
    i ∈ ((cfg6.win 5).blk t).view.set ↔ ∀ a : Fin 2, win6_5.index t a * S10000x128.size a ≤ (i a).val
      ∧ (i a).val < win6_5.index t a * S10000x128.size a + S10000x128.size a := by
  show i ∈ ((View.whole main_v114_0).slice (win6_5.rect t)).set ↔ _
  rw [View.set_slice_whole, Rect.mem_set_unit]
  exact Iff.rfl

/-- The first output array when the region ends. -/
theorem final5 (c : Dev nD) : (dat6 V c).arrAt 5 cfg6.N = A2 V c :=
  (dat6 V c).arrAt_eq_of_cover 5 (A2 V c) (fun t _ => flushed5_eq V c t) fun i => by
    have hi0 : (i 0).val < 50000 := (i 0).isLt
    have hi1 : (i 1).val < 128 := (i 1).isLt
    have hN : cfg6.N = 5 := N_6
    obtain ⟨-, -, -, -, -, -, -, -, -, -, e50, e51, -⟩ := idx_facts ⟨(i 0).val / 10000, by omega⟩
    refine ⟨⟨(i 0).val / 10000, by omega⟩, flush6_5 _, ?_⟩
    rw [mem_blk5]
    intro a
    match a with
    | ⟨0, _⟩ =>
      show win6_5.index ⟨(i 0).val / 10000, _⟩ (0 : Fin 2) * 10000 ≤ (i 0).val
        ∧ (i 0).val < win6_5.index ⟨(i 0).val / 10000, _⟩ (0 : Fin 2) * 10000 + 10000
      rw [e50]; dsimp only; omega
    | ⟨1, _⟩ =>
      show win6_5.index ⟨(i 0).val / 10000, _⟩ (1 : Fin 2) * 128 ≤ (i 1).val
        ∧ (i 1).val < win6_5.index ⟨(i 0).val / 10000, _⟩ (1 : Fin 2) * 128 + 128
      rw [e51]; omega

/-! ## The two running rows -/

/-- The last grid point. -/
abbrev tLast : Fin cfg6.N := ⟨4, by rw [show cfg6.N = 5 from N_6]; decide⟩

/-- Point 4 is a point of the grid. -/
theorem h4 : 4 < cfg6.N := tLast.isLt

/-- An index of running row 6's array is in point t's block iff each coordinate is in the block's range. -/
theorem mem_blk6 (t : Fin cfg6.N) (i : S1x128.Idx) :
    i ∈ ((cfg6.win 6).blk t).view.set ↔ ∀ a : Fin 2, win6_6.index t a * S1x128.size a ≤ (i a).val
      ∧ (i a).val < win6_6.index t a * S1x128.size a + S1x128.size a := by
  show i ∈ ((View.whole main_v114_1).slice (win6_6.rect t)).set ↔ _
  rw [View.set_slice_whole, Rect.mem_set_unit]
  exact Iff.rfl

/-- The one write-back of running row 6, after the last point, writes the row as it stands after point 4. -/
theorem flushed6_eq (c : Dev nD) (t : Fin cfg6.N) (hf : (cfg6.win 6).flush t = true) :
    (dat6 V c).flushed 6 t = ((cfg6.win 6).blk t).view.read (Elt Ideal) (acc6 V c 4 h4) := by
  have hN : cfg6.N = 5 := N_6
  have ht : t.val = 4 := by have := (flush6_6 t).mp hf; have := t.isLt; omega
  obtain rfl : t = tLast := Fin.ext ht
  obtain ⟨-, -, -, -, -, -, -, -, -, -, -, -, e60, e61, e70, e71⟩ := idx_facts tLast
  show (cfg6.win 6).cut (grid6.coords tLast) ((dat6 V c).after 6 tLast) = _
  rw [after6_6, outsAt_eq V c tLast.val tLast.isLt]
  funext j
  show acc6 V c 4 _ j = acc6 V c 4 _ (((cfg6.win 6).blk tLast).view.emb j)
  congr 1
  funext a
  apply Fin.ext
  match a with
  | ⟨0, _⟩ => show (j 0).val = win6_6.index tLast (0 : Fin 2) * 1 + 1 * (j 0).val; rw [e60]; omega
  | ⟨1, _⟩ => show (j 1).val = win6_6.index tLast (1 : Fin 2) * 128 + 1 * (j 1).val; rw [e61]; omega

/-- Running row 6's array when the region ends. -/
theorem final6 (c : Dev nD) : (dat6 V c).arrAt 6 cfg6.N = acc6 V c 4 h4 :=
  (dat6 V c).arrAt_eq_of_cover 6 (acc6 V c 4 h4) (flushed6_eq V c) fun i => by
    have hi0 : (i 0).val < 1 := (i 0).isLt
    have hi1 : (i 1).val < 128 := (i 1).isLt
    obtain ⟨-, -, -, -, -, -, -, -, -, -, -, -, e60, e61, e70, e71⟩ := idx_facts tLast
    refine ⟨tLast, (flush6_6 tLast).mpr rfl, ?_⟩
    rw [mem_blk6]
    intro a
    match a with
    | ⟨0, _⟩ =>
      show win6_6.index tLast (0 : Fin 2) * 1 ≤ (i 0).val ∧ (i 0).val < win6_6.index tLast (0 : Fin 2) * 1 + 1
      rw [e60]; omega
    | ⟨1, _⟩ =>
      show win6_6.index tLast (1 : Fin 2) * 128 ≤ (i 1).val ∧ (i 1).val < win6_6.index tLast (1 : Fin 2) * 128 + 128
      rw [e61]; omega

/-- An index of running row 7's array is in point t's block iff each coordinate is in the block's range. -/
theorem mem_blk7 (t : Fin cfg6.N) (i : S1x128.Idx) :
    i ∈ ((cfg6.win 7).blk t).view.set ↔ ∀ a : Fin 2, win6_7.index t a * S1x128.size a ≤ (i a).val
      ∧ (i a).val < win6_7.index t a * S1x128.size a + S1x128.size a := by
  show i ∈ ((View.whole main_v114_2).slice (win6_7.rect t)).set ↔ _
  rw [View.set_slice_whole, Rect.mem_set_unit]
  exact Iff.rfl

/-- The one write-back of running row 7, after the last point, writes the row as it stands after point 4. -/
theorem flushed7_eq (c : Dev nD) (t : Fin cfg6.N) (hf : (cfg6.win 7).flush t = true) :
    (dat6 V c).flushed 7 t = ((cfg6.win 7).blk t).view.read (Elt Ideal) (acc7 V c 4 h4) := by
  have hN : cfg6.N = 5 := N_6
  have ht : t.val = 4 := by have := (flush6_7 t).mp hf; have := t.isLt; omega
  obtain rfl : t = tLast := Fin.ext ht
  obtain ⟨-, -, -, -, -, -, -, -, -, -, -, -, e60, e61, e70, e71⟩ := idx_facts tLast
  show (cfg6.win 7).cut (grid6.coords tLast) ((dat6 V c).after 7 tLast) = _
  rw [after6_7, outsAt_eq V c tLast.val tLast.isLt]
  funext j
  show acc7 V c 4 _ j = acc7 V c 4 _ (((cfg6.win 7).blk tLast).view.emb j)
  congr 1
  funext a
  apply Fin.ext
  match a with
  | ⟨0, _⟩ => show (j 0).val = win6_7.index tLast (0 : Fin 2) * 1 + 1 * (j 0).val; rw [e70]; omega
  | ⟨1, _⟩ => show (j 1).val = win6_7.index tLast (1 : Fin 2) * 128 + 1 * (j 1).val; rw [e71]; omega

/-- Running row 7's array when the region ends. -/
theorem final7 (c : Dev nD) : (dat6 V c).arrAt 7 cfg6.N = acc7 V c 4 h4 :=
  (dat6 V c).arrAt_eq_of_cover 7 (acc7 V c 4 h4) (flushed7_eq V c) fun i => by
    have hi0 : (i 0).val < 1 := (i 0).isLt
    have hi1 : (i 1).val < 128 := (i 1).isLt
    obtain ⟨-, -, -, -, -, -, -, -, -, -, -, -, e60, e61, e70, e71⟩ := idx_facts tLast
    refine ⟨tLast, (flush6_7 tLast).mpr rfl, ?_⟩
    rw [mem_blk7]
    intro a
    match a with
    | ⟨0, _⟩ =>
      show win6_7.index tLast (0 : Fin 2) * 1 ≤ (i 0).val ∧ (i 0).val < win6_7.index tLast (0 : Fin 2) * 1 + 1
      rw [e70]; omega
    | ⟨1, _⟩ =>
      show win6_7.index tLast (1 : Fin 2) * 128 ≤ (i 1).val ∧ (i 1).val < win6_7.index tLast (1 : Fin 2) * 128 + 128
      rw [e71]; omega

/-! ## The running rows are the column sums -/

/-- Running row 6 at column cc, as a sequence in the point (zero past the last point). -/
def A6 (c : Dev nD) (cc : Fin 128) (n : ℕ) : EReal :=
  if h : n < cfg6.N then acc6 V c n h (ix2 (0 : Fin 1) cc) else 0

/-- After the last point, running row 6 holds the column sums of the whole result. -/
theorem acc6_eq (c : Dev nD) (cc : Fin 128) :
    acc6 V c 4 h4 (ix2 (0 : Fin 1) cc) = BatchNormSpec.colSum (A2 V c) cc := by
  have hN : cfg6.N = 5 := N_6
  have key := GinTiles.acc_eq_colSum (A2 V c) cc (A6 V c cc) ?h0 ?hs
  · rw [← key]
    unfold A6
    rw [dif_pos h4]
  case h0 =>
    unfold A6
    rw [dif_pos (by omega : 0 < cfg6.N)]
    refine (KPayL1.k2pay5_apply (iblk6 V c 0 ⟨0, by omega⟩) (iblk6 V c 2 ⟨0, by omega⟩) (iblk6 V c 3 ⟨0, by omega⟩) (iblk6 V c 1 ⟨0, by omega⟩) (iblk6 V c 4 ⟨0, by omega⟩) (k6_pay2 (F := Ideal)) cc).trans ?_
    rw [KPayL1.k2pay2_apply]
    refine congrArg ((0 : EReal) + ·) ?_
    unfold GinTiles.tileSum
    rw [dif_pos (by norm_num : 0 < 5)]
    exact Finset.sum_congr rfl fun q _ => tile_norm V c ⟨0, by omega⟩ q cc
  case hs =>
    intro n hn
    unfold A6
    rw [dif_pos (by omega : n + 1 < cfg6.N), dif_pos (by omega : n < cfg6.N)]
    refine (KPayL1.k2pay5_apply (iblk6 V c 0 ⟨n + 1, by omega⟩) (iblk6 V c 2 ⟨n + 1, by omega⟩) (iblk6 V c 3 ⟨n + 1, by omega⟩) (iblk6 V c 1 ⟨n + 1, by omega⟩) (iblk6 V c 4 ⟨n + 1, by omega⟩) (acc6 V c n (by omega)) cc).trans ?_
    refine congrArg (acc6 V c n (by omega) (ix2 (0 : Fin 1) cc) + ·) ?_
    unfold GinTiles.tileSum
    rw [dif_pos hn]
    exact Finset.sum_congr rfl fun q _ => tile_norm V c ⟨n + 1, by omega⟩ q cc

/-- Running row 7 at column cc, as a sequence in the point (zero past the last point). -/
def A7 (c : Dev nD) (cc : Fin 128) (n : ℕ) : EReal :=
  if h : n < cfg6.N then acc7 V c n h (ix2 (0 : Fin 1) cc) else 0

/-- After the last point, running row 7 holds the column sums of squares of the whole result. -/
theorem acc7_eq (c : Dev nD) (cc : Fin 128) :
    acc7 V c 4 h4 (ix2 (0 : Fin 1) cc) = BatchNormSpec.colSumSq (A2 V c) cc := by
  have hN : cfg6.N = 5 := N_6
  have key := GinTiles.acc_eq_colSumSq (A2 V c) cc (A7 V c cc) ?h0 ?hs
  · rw [← key]
    unfold A7
    rw [dif_pos h4]
  case h0 =>
    unfold A7
    rw [dif_pos (by omega : 0 < cfg6.N)]
    refine (KPayL1.k2pay1_apply (k6_pay4 (iblk6 V c 0 ⟨0, by omega⟩) (iblk6 V c 2 ⟨0, by omega⟩) (iblk6 V c 3 ⟨0, by omega⟩) (iblk6 V c 1 ⟨0, by omega⟩) (iblk6 V c 4 ⟨0, by omega⟩)) (k6_pay3 (F := Ideal)) cc).trans ?_
    rw [KPayL1.k2pay3_apply, KPayL1.k2pay4_eq]
    refine congrArg ((0 : EReal) + ·) ?_
    unfold GinTiles.tileSum
    rw [dif_pos (by norm_num : 0 < 5)]
    exact Finset.sum_congr rfl fun q _ =>
      congrArg₂ (· * ·) (tile_norm V c ⟨0, by omega⟩ q cc) (tile_norm V c ⟨0, by omega⟩ q cc)
  case hs =>
    intro n hn
    unfold A7
    rw [dif_pos (by omega : n + 1 < cfg6.N), dif_pos (by omega : n < cfg6.N)]
    refine (KPayL1.k2pay1_apply (k6_pay4 (iblk6 V c 0 ⟨n + 1, by omega⟩) (iblk6 V c 2 ⟨n + 1, by omega⟩) (iblk6 V c 3 ⟨n + 1, by omega⟩) (iblk6 V c 1 ⟨n + 1, by omega⟩) (iblk6 V c 4 ⟨n + 1, by omega⟩)) (acc7 V c n (by omega)) cc).trans ?_
    rw [KPayL1.k2pay4_eq]
    refine congrArg (acc7 V c n (by omega) (ix2 (0 : Fin 1) cc) + ·) ?_
    unfold GinTiles.tileSum
    rw [dif_pos hn]
    exact Finset.sum_congr rfl fun q _ =>
      congrArg₂ (· * ·) (tile_norm V c ⟨n + 1, by omega⟩ q cc) (tile_norm V c ⟨n + 1, by omega⟩ q cc)

/-- The input windows' arrays end as the region found them. -/
theorem arr_in (c : Dev nD) (w : Fin cfg6.W) (hin : (cfg6.win w).isOut = false) :
    (dat6 V c).arrAt w cfg6.N = V c (Pipeline.arrRef spec6 w) :=
  ((dat6 V c).arrAt_in w hin _).trans (A_eq6 V c w)

theorem arr_in0 (c : Dev nD) : (dat6 V c).arrAt 0 cfg6.N = V c (Pipeline.arrRef spec6 0) := arr_in V c 0 rfl
theorem arr_in1 (c : Dev nD) : (dat6 V c).arrAt 1 cfg6.N = V c (Pipeline.arrRef spec6 1) := arr_in V c 1 rfl
theorem arr_in2 (c : Dev nD) : (dat6 V c).arrAt 2 cfg6.N = V c (Pipeline.arrRef spec6 2) := arr_in V c 2 rfl
theorem arr_in3 (c : Dev nD) : (dat6 V c).arrAt 3 cfg6.N = V c (Pipeline.arrRef spec6 3) := arr_in V c 3 rfl
theorem arr_in4 (c : Dev nD) : (dat6 V c).arrAt 4 cfg6.N = V c (Pipeline.arrRef spec6 4) := arr_in V c 4 rfl

end Cert.KernelIdeal.R6

end
-- ==== Proof.KHostRows.lean ====
/- Row l of a stacked parameter, as the kernel program's host stretches spell it, for any row number.

   Each layer's first host stretch slices row l out of every stacked parameter: a 5 × 128 array gives a 1 × 128 slice,
   flattened to 128 entries and made a one-row matrix again; a 5 × 128 × 128 array gives a 1 × 128 × 128 slice reshaped to
   a 128 × 128 matrix. Row 0 is the first layer's. -/
import proofs.«113410_j5944234737805_1_alg».proof.Proof.KHost

noncomputable section

namespace Cert.KernelIdeal.KHost

open Cert.KernelIdeal Cert.KernelIdeal.Gen Idealize.ShloMosaic Idealize.ShloMosaic.TcCoe Idealize.SL.Sem

variable {F : FTy → Type} [FloatOps F]

/-- Row `l` of five stacked vectors, as a 1 × 128 array (sliced, flattened, and made a row again). -/
def rowL (l : ℕ) (hs : S5x128.Slices ![l, 0] S1x128) (p : (⟨S5x128, .f32⟩ : BufTy).Contents (Elt F)) : Row F :=
  shapeCast S1x128 (shapeCast S128 (extractStridedSlice S1x128 ![l, 0] p hs) shapeCasts_S1x128_S128)
    shapeCasts_S128_S1x128

/-- Matrix `l` of five stacked 128 × 128 matrices. -/
def matL (l : ℕ) (hs : S5x128x128.Slices ![l, 0, 0] S1x128x128) (p : (⟨S5x128x128, .f32⟩ : BufTy).Contents (Elt F)) :
    (⟨S128x128, .f32⟩ : BufTy).Contents (Elt F) :=
  shapeCast S128x128 (extractStridedSlice S1x128x128 ![l, 0, 0] p hs) shapeCasts_S1x128x128_S128x128

/-- Row 0 and matrix 0 are the case `l = 0`. -/
theorem row0_eq_rowL (p : (⟨S5x128, .f32⟩ : BufTy).Contents (Elt F)) : row0 p = rowL 0 slices_S5x128_S1x128_0_0 p := rfl
theorem mat0_eq_matL (p : (⟨S5x128x128, .f32⟩ : BufTy).Contents (Elt F)) :
    mat0 p = matL 0 slices_S5x128x128_S1x128x128_0_0_0 p := rfl

end Cert.KernelIdeal.KHost

end
-- ==== Proof.KHost_L1.lean ====
/-
  The host operations between the kernel regions of layer 1, as functions of the buffer contents they start from.
  After each of the first three regions the program divides the region's two accumulated rows (the column sums and the
  column sums of squares) by the row count 50000, giving the column means, and subtracts the squared mean from the mean
  square, giving the column variances in their moment form.
-/
import proofs.«113410_j5944234737805_1_alg».proof.Proof.Gen.KernelIdeal.Launch
import proofs.«113410_j5944234737805_1_alg».proof.Proof.KHostRows
import Idealize.ShloMosaic.Lib.StableHlo.Run
import Idealize.ShloMosaic.Lib.ValueIdx
import proofs.«113410_j5944234737805_1_alg».proof.Proof.LibBatchNorm
import proofs.«113410_j5944234737805_1_alg».proof.Proof.GinConsts

noncomputable section

namespace Cert.KernelIdeal.KHostL1

open Cert.KernelIdeal Cert.KernelIdeal.Gen Idealize.ShloMosaic Idealize.ShloMosaic.TcCoe Idealize.SL.Sem
open Idealize.ShloMosaic.StableHlo
open Cert.KernelIdeal.KHost (Row rowMean rowVar Mat Ix srcIx rst rowL matL)

variable {F : FTy → Type} [FloatOps F]

/-- After region 4: the means of the first dense layer's columns. -/
theorem mean1_eq (W : Valuation τ sig (Elt F)) :
    after hostOps5 W (Proc.devRef .tc main_v100) = rowMean (W (Proc.devRef .tc main_v98_1)) := by
  after_results
  rfl

/-- After region 4: their variances. -/
theorem var1_eq (W : Valuation τ sig (Elt F)) :
    after hostOps5 W (Proc.devRef .tc main_v104)
      = rowVar (W (Proc.devRef .tc main_v98_1)) (W (Proc.devRef .tc main_v98_2)) := by
  after_results
  rfl

/-- After region 5: the means of the second dense layer's columns. -/
theorem mean2_eq (W : Valuation τ sig (Elt F)) :
    after hostOps6 W (Proc.devRef .tc main_v109) = rowMean (W (Proc.devRef .tc main_v107_1)) := by
  after_results
  rfl

/-- After region 5: their variances. -/
theorem var2_eq (W : Valuation τ sig (Elt F)) :
    after hostOps6 W (Proc.devRef .tc main_v113)
      = rowVar (W (Proc.devRef .tc main_v107_1)) (W (Proc.devRef .tc main_v107_2)) := by
  after_results
  rfl

/-- After region 6: the means of the rectified columns. -/
theorem mean3_eq (W : Valuation τ sig (Elt F)) :
    after hostOps7 W (Proc.devRef .tc main_v116) = rowMean (W (Proc.devRef .tc main_v114_1)) := by
  after_results
  rfl

/-- After region 6: their variances. -/
theorem var3_eq (W : Valuation τ sig (Elt F)) :
    after hostOps7 W (Proc.devRef .tc main_v120)
      = rowVar (W (Proc.devRef .tc main_v114_1)) (W (Proc.devRef .tc main_v114_2)) := by
  after_results
  rfl

/-! ## The first stretch of layer 1: the neighbour sum and row 1 of every stacked parameter -/

set_option maxHeartbeats 2000000 in
/-- Region 4's first operand: the features plus their neighbour sum. -/
theorem rst0_eq (W : Valuation τ sig (Elt F)) :
    after hostOps4 W (Proc.devRef .tc main_v71)
      = rst (W (Proc.devRef .tc main_v60)) (W (Proc.devRef .tc main_arg1)) (W (Proc.devRef .tc main_arg2)) := by
  after_results
  rfl

/-- Region 4's weights and bias row. -/
theorem w1_0_eq (W : Valuation τ sig (Elt F)) :
    after hostOps4 W (Proc.devRef .tc main_v97) = matL 1 slices_S5x128x128_S1x128x128_1_0_0 (W (Proc.devRef .tc main_arg3)) := by
  after_results
  rfl
theorem b1_0_eq (W : Valuation τ sig (Elt F)) :
    after hostOps4 W (Proc.devRef .tc main_v74) = rowL 1 slices_S5x128_S1x128_1_0 (W (Proc.devRef .tc main_arg4)) := by
  after_results
  rfl

/-- The other parameter rows of layer 1, each row 1 of its stacked argument. -/
theorem b2_0_eq (W : Valuation τ sig (Elt F)) :
    after hostOps4 W (Proc.devRef .tc main_v77) = rowL 1 slices_S5x128_S1x128_1_0 (W (Proc.devRef .tc main_arg6)) := by
  after_results
  rfl
theorem g1_0_eq (W : Valuation τ sig (Elt F)) :
    after hostOps4 W (Proc.devRef .tc main_v80) = rowL 1 slices_S5x128_S1x128_1_0 (W (Proc.devRef .tc main_arg7)) := by
  after_results
  rfl
theorem be1_0_eq (W : Valuation τ sig (Elt F)) :
    after hostOps4 W (Proc.devRef .tc main_v83) = rowL 1 slices_S5x128_S1x128_1_0 (W (Proc.devRef .tc main_arg8)) := by
  after_results
  rfl
theorem g2_0_eq (W : Valuation τ sig (Elt F)) :
    after hostOps4 W (Proc.devRef .tc main_v86) = rowL 1 slices_S5x128_S1x128_1_0 (W (Proc.devRef .tc main_arg9)) := by
  after_results
  rfl
theorem be2_0_eq (W : Valuation τ sig (Elt F)) :
    after hostOps4 W (Proc.devRef .tc main_v89) = rowL 1 slices_S5x128_S1x128_1_0 (W (Proc.devRef .tc main_arg10)) := by
  after_results
  rfl
theorem g3_0_eq (W : Valuation τ sig (Elt F)) :
    after hostOps4 W (Proc.devRef .tc main_v92) = rowL 1 slices_S5x128_S1x128_1_0 (W (Proc.devRef .tc main_arg11)) := by
  after_results
  rfl
theorem be3_0_eq (W : Valuation τ sig (Elt F)) :
    after hostOps4 W (Proc.devRef .tc main_v95) = rowL 1 slices_S5x128_S1x128_1_0 (W (Proc.devRef .tc main_arg12)) := by
  after_results
  rfl

/-- The second dense layer's weights, sliced after region 4. -/
theorem w2_0_eq (W : Valuation τ sig (Elt F)) :
    after hostOps5 W (Proc.devRef .tc main_v106) = matL 1 slices_S5x128x128_S1x128x128_1_0_0 (W (Proc.devRef .tc main_arg5)) := by
  after_results
  rfl

/-! ## What the stretches leave alone: a buffer no operation of a stretch writes keeps its contents across it -/

theorem keep_hostOps1_main_v37_0 (W : Valuation τ sig (Elt F)) :
    after hostOps5 W (Proc.devRef .tc main_v98_0) = W (Proc.devRef .tc main_v98_0) := by
  after_results
theorem keep_hostOps1_main_v19 (W : Valuation τ sig (Elt F)) :
    after hostOps5 W (Proc.devRef .tc main_v80) = W (Proc.devRef .tc main_v80) := by
  after_results
theorem keep_hostOps1_main_v22 (W : Valuation τ sig (Elt F)) :
    after hostOps5 W (Proc.devRef .tc main_v83) = W (Proc.devRef .tc main_v83) := by
  after_results
theorem keep_hostOps1_main_v16 (W : Valuation τ sig (Elt F)) :
    after hostOps5 W (Proc.devRef .tc main_v77) = W (Proc.devRef .tc main_v77) := by
  after_results
theorem keep_hostOps1_main_v25 (W : Valuation τ sig (Elt F)) :
    after hostOps5 W (Proc.devRef .tc main_v86) = W (Proc.devRef .tc main_v86) := by
  after_results
theorem keep_hostOps1_main_v28 (W : Valuation τ sig (Elt F)) :
    after hostOps5 W (Proc.devRef .tc main_v89) = W (Proc.devRef .tc main_v89) := by
  after_results
theorem keep_hostOps1_main_v31 (W : Valuation τ sig (Elt F)) :
    after hostOps5 W (Proc.devRef .tc main_v92) = W (Proc.devRef .tc main_v92) := by
  after_results
theorem keep_hostOps1_main_v34 (W : Valuation τ sig (Elt F)) :
    after hostOps5 W (Proc.devRef .tc main_v95) = W (Proc.devRef .tc main_v95) := by
  after_results

theorem keep_hostOps2_main_v46_0 (W : Valuation τ sig (Elt F)) :
    after hostOps6 W (Proc.devRef .tc main_v107_0) = W (Proc.devRef .tc main_v107_0) := by
  after_results
theorem keep_hostOps2_main_v25 (W : Valuation τ sig (Elt F)) :
    after hostOps6 W (Proc.devRef .tc main_v86) = W (Proc.devRef .tc main_v86) := by
  after_results
theorem keep_hostOps2_main_v28 (W : Valuation τ sig (Elt F)) :
    after hostOps6 W (Proc.devRef .tc main_v89) = W (Proc.devRef .tc main_v89) := by
  after_results
theorem keep_hostOps2_main_v31 (W : Valuation τ sig (Elt F)) :
    after hostOps6 W (Proc.devRef .tc main_v92) = W (Proc.devRef .tc main_v92) := by
  after_results
theorem keep_hostOps2_main_v34 (W : Valuation τ sig (Elt F)) :
    after hostOps6 W (Proc.devRef .tc main_v95) = W (Proc.devRef .tc main_v95) := by
  after_results

theorem keep_hostOps3_main_v53_0 (W : Valuation τ sig (Elt F)) :
    after hostOps7 W (Proc.devRef .tc main_v114_0) = W (Proc.devRef .tc main_v114_0) := by
  after_results
theorem keep_hostOps3_main_v31 (W : Valuation τ sig (Elt F)) :
    after hostOps7 W (Proc.devRef .tc main_v92) = W (Proc.devRef .tc main_v92) := by
  after_results
theorem keep_hostOps3_main_v34 (W : Valuation τ sig (Elt F)) :
    after hostOps7 W (Proc.devRef .tc main_v95) = W (Proc.devRef .tc main_v95) := by
  after_results

end Cert.KernelIdeal.KHostL1

end
-- ==== Proof.Layer1.lean ====
/-
  Layer 1 (counting from zero) of the idealized kernel program, through the segment boundaries from the end of the previous layer's last region to the end of this layer's fourth region.
  The first stretch of host operations forms the features plus their neighbour sum and slices row 1 out of every stacked
  parameter; the layer's first region computes the first dense layer and its column sums; the next stretch turns the sums into column
  means and moment variances; its second region normalises, rectifies and applies the second dense layer; and so on. Each
  region's arrays at its exit are what its write-backs leave, every other buffer is as it was at the region's entry, and
  a buffer no operation of a stretch writes keeps its contents across it. Composed, the features after the fourth region
  are the layer function with moment variances of the contents at the layer's entry.
-/
import proofs.«113410_j5944234737805_1_alg».proof.Proof.R4Array
import proofs.«113410_j5944234737805_1_alg».proof.Proof.R5Array
import proofs.«113410_j5944234737805_1_alg».proof.Proof.R6Array
import proofs.«113410_j5944234737805_1_alg».proof.Proof.R7Value
import proofs.«113410_j5944234737805_1_alg».proof.Proof.KHost
import proofs.«113410_j5944234737805_1_alg».proof.Proof.KHostRows
import proofs.«113410_j5944234737805_1_alg».proof.Proof.KHost_L1
import proofs.«113410_j5944234737805_1_alg».proof.Proof.GinSpec

noncomputable section

open Idealize.ShloMosaic Idealize.ShloMosaic.TcCoe Idealize.SL.Sem Idealize.ShloMosaic.ValueIdx
open Idealize.ShloMosaic.StableHlo

namespace Cert.KernelIdeal.Layer1

open Cert.KernelIdeal Cert.KernelIdeal.Gen

variable (m : (ℓ : Loc nD τ sig) → Buf (Elt Ideal) ℓ) (ρ : Dev nD → PrngReg)

/-- The epsilon and the zero of the normalisations. -/
abbrev eps : EReal := Ideal.ofBits .f32 0x3727C5AC#32
abbrev zero : EReal := Ideal.ofBits .f32 0x00000000#32

/-- The row count as a real. -/
theorem N_cast : ((GinSpec.N : ℕ) : ℝ) = (50000 : ℝ) := by norm_num [GinSpec.N]

/-- The first stretch writes no argument. -/
theorem keep0_main_arg1 (W : Valuation τ sig (Elt Ideal)) :
    after hostOps4 W (Proc.devRef .tc main_arg1) = W (Proc.devRef .tc main_arg1) := by
  after_results
theorem keep0_main_arg2 (W : Valuation τ sig (Elt Ideal)) :
    after hostOps4 W (Proc.devRef .tc main_arg2) = W (Proc.devRef .tc main_arg2) := by
  after_results
theorem keep0_main_arg3 (W : Valuation τ sig (Elt Ideal)) :
    after hostOps4 W (Proc.devRef .tc main_arg3) = W (Proc.devRef .tc main_arg3) := by
  after_results
theorem keep0_main_arg4 (W : Valuation τ sig (Elt Ideal)) :
    after hostOps4 W (Proc.devRef .tc main_arg4) = W (Proc.devRef .tc main_arg4) := by
  after_results
theorem keep0_main_arg5 (W : Valuation τ sig (Elt Ideal)) :
    after hostOps4 W (Proc.devRef .tc main_arg5) = W (Proc.devRef .tc main_arg5) := by
  after_results
theorem keep0_main_arg6 (W : Valuation τ sig (Elt Ideal)) :
    after hostOps4 W (Proc.devRef .tc main_arg6) = W (Proc.devRef .tc main_arg6) := by
  after_results
theorem keep0_main_arg7 (W : Valuation τ sig (Elt Ideal)) :
    after hostOps4 W (Proc.devRef .tc main_arg7) = W (Proc.devRef .tc main_arg7) := by
  after_results
theorem keep0_main_arg8 (W : Valuation τ sig (Elt Ideal)) :
    after hostOps4 W (Proc.devRef .tc main_arg8) = W (Proc.devRef .tc main_arg8) := by
  after_results
theorem keep0_main_arg9 (W : Valuation τ sig (Elt Ideal)) :
    after hostOps4 W (Proc.devRef .tc main_arg9) = W (Proc.devRef .tc main_arg9) := by
  after_results
theorem keep0_main_arg10 (W : Valuation τ sig (Elt Ideal)) :
    after hostOps4 W (Proc.devRef .tc main_arg10) = W (Proc.devRef .tc main_arg10) := by
  after_results
theorem keep0_main_arg11 (W : Valuation τ sig (Elt Ideal)) :
    after hostOps4 W (Proc.devRef .tc main_arg11) = W (Proc.devRef .tc main_arg11) := by
  after_results
theorem keep0_main_arg12 (W : Valuation τ sig (Elt Ideal)) :
    after hostOps4 W (Proc.devRef .tc main_arg12) = W (Proc.devRef .tc main_arg12) := by
  after_results

/-- The layer's parameters: matrix 1 and row 1 of the stacked arguments as the layer finds them. -/
def P0 (c : Dev nD) : GinSpec.Params where
  W1 := (KHost.matL 1 slices_S5x128x128_S1x128x128_1_0_0) (W8 m ρ c (Proc.devRef .tc main_arg3))
  b1 := (KHost.rowL 1 slices_S5x128_S1x128_1_0) (W8 m ρ c (Proc.devRef .tc main_arg4))
  W2 := (KHost.matL 1 slices_S5x128x128_S1x128x128_1_0_0) (W8 m ρ c (Proc.devRef .tc main_arg5))
  b2 := (KHost.rowL 1 slices_S5x128_S1x128_1_0) (W8 m ρ c (Proc.devRef .tc main_arg6))
  g1 := KPay.rowAt ((KHost.rowL 1 slices_S5x128_S1x128_1_0) (W8 m ρ c (Proc.devRef .tc main_arg7)))
  β1 := KPay.rowAt ((KHost.rowL 1 slices_S5x128_S1x128_1_0) (W8 m ρ c (Proc.devRef .tc main_arg8)))
  g2 := KPay.rowAt ((KHost.rowL 1 slices_S5x128_S1x128_1_0) (W8 m ρ c (Proc.devRef .tc main_arg9)))
  β2 := KPay.rowAt ((KHost.rowL 1 slices_S5x128_S1x128_1_0) (W8 m ρ c (Proc.devRef .tc main_arg10)))
  g3 := KPay.rowAt ((KHost.rowL 1 slices_S5x128_S1x128_1_0) (W8 m ρ c (Proc.devRef .tc main_arg11)))
  β3 := KPay.rowAt ((KHost.rowL 1 slices_S5x128_S1x128_1_0) (W8 m ρ c (Proc.devRef .tc main_arg12)))

/-- The features plus their neighbour sum, of the contents at the layer's entry. -/
def Y0 (c : Dev nD) : BatchNormSpec.Mat 50000 128 :=
  KHost.rst (W8 m ρ c (Proc.devRef .tc main_v60)) (W8 m ρ c (Proc.devRef .tc main_arg1)) (W8 m ρ c (Proc.devRef .tc main_arg2))

/-! ## Region 0 -/

/-- The first dense layer. -/
def X1 (c : Dev nD) : BatchNormSpec.Mat 50000 128 := DenseSpec.dense (Y0 m ρ c) (P0 m ρ c).W1 (P0 m ρ c).b1

theorem x1_eq (c : Dev nD) : R4.X1 (V9 m ρ) c = X1 m ρ c := by
  have e1 : V9 m ρ c main_v71 = Y0 m ρ c := KHostL1.rst0_eq (W8 m ρ c)
  have e2 : V9 m ρ c main_v97 = (KHost.matL 1 slices_S5x128x128_S1x128x128_1_0_0) (W8 m ρ c (Proc.devRef .tc main_arg3)) := KHostL1.w1_0_eq (W8 m ρ c)
  have e3 : V9 m ρ c main_v74 = (KHost.rowL 1 slices_S5x128_S1x128_1_0) (W8 m ρ c (Proc.devRef .tc main_arg4)) := KHostL1.b1_0_eq (W8 m ρ c)
  unfold R4.X1 X1 P0
  rw [e1, e2, e3]

/-! ## Region 1's entry -/

theorem in37 (c : Dev nD) : V11 m ρ c main_v98_0 = X1 m ρ c :=
  (KHostL1.keep_hostOps1_main_v37_0 (W10 m ρ c)).trans
    (((W10_arr m ρ c 3).trans (R4.final3 (V9 m ρ) c)).trans (x1_eq m ρ c))

theorem s1 (c : Dev nD) (cc : Fin 128) :
    W10 m ρ c (Proc.devRef .tc main_v98_1) (ix2 (0 : Fin 1) cc) = BatchNormSpec.colSum (X1 m ρ c) cc := by
  rw [(W10_arr m ρ c 4).trans (R4.final4 (V9 m ρ) c), R4.acc4_eq, x1_eq]

theorem q1 (c : Dev nD) (cc : Fin 128) :
    W10 m ρ c (Proc.devRef .tc main_v98_2) (ix2 (0 : Fin 1) cc) = BatchNormSpec.colSumSq (X1 m ρ c) cc := by
  rw [(W10_arr m ρ c 5).trans (R4.final5 (V9 m ρ) c), R4.acc5_eq, x1_eq]

theorem mean39 (c : Dev nD) : KPay.rowAt (V11 m ρ c main_v100) = BatchNormSpec.mean (GinSpec.N : ℝ) (X1 m ρ c) := by
  funext cc
  rw [N_cast]
  show V11 m ρ c main_v100 (ix2 (0 : Fin 1) cc) = _
  rw [show V11 m ρ c main_v100 = KHost.rowMean (W10 m ρ c (Proc.devRef .tc main_v98_1)) from KHostL1.mean1_eq (W10 m ρ c)]
  exact KHost.rowMean_of_colSum (X1 m ρ c) _ cc (s1 m ρ c cc)

theorem var43 (c : Dev nD) : KPay.rowAt (V11 m ρ c main_v104) = BatchNormSpec.varMoment (GinSpec.N : ℝ) (X1 m ρ c) := by
  funext cc
  rw [N_cast]
  show V11 m ρ c main_v104 (ix2 (0 : Fin 1) cc) = _
  rw [show V11 m ρ c main_v104 = KHost.rowVar (W10 m ρ c (Proc.devRef .tc main_v98_1)) (W10 m ρ c (Proc.devRef .tc main_v98_2))
    from KHostL1.var1_eq (W10 m ρ c)]
  exact KHost.rowVar_of_colSums (X1 m ρ c) _ _ cc (s1 m ρ c cc) (q1 m ρ c cc)

theorem g19 (c : Dev nD) : V11 m ρ c main_v80 = (KHost.rowL 1 slices_S5x128_S1x128_1_0) (W8 m ρ c (Proc.devRef .tc main_arg7)) :=
  (KHostL1.keep_hostOps1_main_v19 (W10 m ρ c)).trans ((W10_of_ne m ρ c main_v80 (by decide)).trans (KHostL1.g1_0_eq (W8 m ρ c)))
theorem be22 (c : Dev nD) : V11 m ρ c main_v83 = (KHost.rowL 1 slices_S5x128_S1x128_1_0) (W8 m ρ c (Proc.devRef .tc main_arg8)) :=
  (KHostL1.keep_hostOps1_main_v22 (W10 m ρ c)).trans ((W10_of_ne m ρ c main_v83 (by decide)).trans (KHostL1.be1_0_eq (W8 m ρ c)))
theorem b16 (c : Dev nD) : V11 m ρ c main_v77 = (KHost.rowL 1 slices_S5x128_S1x128_1_0) (W8 m ρ c (Proc.devRef .tc main_arg6)) :=
  (KHostL1.keep_hostOps1_main_v16 (W10 m ρ c)).trans ((W10_of_ne m ρ c main_v77 (by decide)).trans (KHostL1.b2_0_eq (W8 m ρ c)))
theorem w45 (c : Dev nD) : V11 m ρ c main_v106 = (KHost.matL 1 slices_S5x128x128_S1x128x128_1_0_0) (W8 m ρ c (Proc.devRef .tc main_arg5)) :=
  (KHostL1.w2_0_eq (W10 m ρ c)).trans (congrArg (KHost.matL 1 slices_S5x128x128_S1x128x128_1_0_0)
    ((W10_of_ne m ρ c main_arg5 (by decide)).trans (keep0_main_arg5 (W8 m ρ c))))

/-! ## Region 1 -/

/-- The second dense layer of the normalised and rectified first one. -/
def X2 (c : Dev nD) : BatchNormSpec.Mat 50000 128 :=
  DenseSpec.dense (GinSpec.bnM eps zero (X1 m ρ c) (P0 m ρ c).g1 (P0 m ρ c).β1) (P0 m ρ c).W2 (P0 m ρ c).b2

theorem x2_eq (c : Dev nD) : R5.X2 (V11 m ρ) c = X2 m ρ c := by
  unfold R5.X2 R5.A1 X2 GinSpec.bnM P0
  rw [in37, mean39, var43, g19, be22, b16, w45]

/-! ## Region 2's entry -/

theorem in46 (c : Dev nD) : V13 m ρ c main_v107_0 = X2 m ρ c :=
  (KHostL1.keep_hostOps2_main_v46_0 (W12 m ρ c)).trans
    (((W12_arr m ρ c 7).trans (R5.final7 (V11 m ρ) c)).trans (x2_eq m ρ c))

theorem s2 (c : Dev nD) (cc : Fin 128) :
    W12 m ρ c (Proc.devRef .tc main_v107_1) (ix2 (0 : Fin 1) cc) = BatchNormSpec.colSum (X2 m ρ c) cc := by
  rw [(W12_arr m ρ c 8).trans (R5.final8 (V11 m ρ) c), R5.acc8_eq, x2_eq]

theorem q2 (c : Dev nD) (cc : Fin 128) :
    W12 m ρ c (Proc.devRef .tc main_v107_2) (ix2 (0 : Fin 1) cc) = BatchNormSpec.colSumSq (X2 m ρ c) cc := by
  rw [(W12_arr m ρ c 9).trans (R5.final9 (V11 m ρ) c), R5.acc9_eq, x2_eq]

theorem mean48 (c : Dev nD) : KPay.rowAt (V13 m ρ c main_v109) = BatchNormSpec.mean (GinSpec.N : ℝ) (X2 m ρ c) := by
  funext cc
  rw [N_cast]
  show V13 m ρ c main_v109 (ix2 (0 : Fin 1) cc) = _
  rw [show V13 m ρ c main_v109 = KHost.rowMean (W12 m ρ c (Proc.devRef .tc main_v107_1)) from KHostL1.mean2_eq (W12 m ρ c)]
  exact KHost.rowMean_of_colSum (X2 m ρ c) _ cc (s2 m ρ c cc)

theorem var52 (c : Dev nD) : KPay.rowAt (V13 m ρ c main_v113) = BatchNormSpec.varMoment (GinSpec.N : ℝ) (X2 m ρ c) := by
  funext cc
  rw [N_cast]
  show V13 m ρ c main_v113 (ix2 (0 : Fin 1) cc) = _
  rw [show V13 m ρ c main_v113 = KHost.rowVar (W12 m ρ c (Proc.devRef .tc main_v107_1)) (W12 m ρ c (Proc.devRef .tc main_v107_2))
    from KHostL1.var2_eq (W12 m ρ c)]
  exact KHost.rowVar_of_colSums (X2 m ρ c) _ _ cc (s2 m ρ c cc) (q2 m ρ c cc)

theorem g25 (c : Dev nD) : V13 m ρ c main_v86 = (KHost.rowL 1 slices_S5x128_S1x128_1_0) (W8 m ρ c (Proc.devRef .tc main_arg9)) :=
  (KHostL1.keep_hostOps2_main_v25 (W12 m ρ c)).trans ((W12_of_ne m ρ c main_v86 (by decide)).trans
    ((KHostL1.keep_hostOps1_main_v25 (W10 m ρ c)).trans ((W10_of_ne m ρ c main_v86 (by decide)).trans (KHostL1.g2_0_eq (W8 m ρ c)))))
theorem be28 (c : Dev nD) : V13 m ρ c main_v89 = (KHost.rowL 1 slices_S5x128_S1x128_1_0) (W8 m ρ c (Proc.devRef .tc main_arg10)) :=
  (KHostL1.keep_hostOps2_main_v28 (W12 m ρ c)).trans ((W12_of_ne m ρ c main_v89 (by decide)).trans
    ((KHostL1.keep_hostOps1_main_v28 (W10 m ρ c)).trans ((W10_of_ne m ρ c main_v89 (by decide)).trans (KHostL1.be2_0_eq (W8 m ρ c)))))

/-! ## Region 2 -/

/-- The second dense layer, normalised and rectified. -/
def A2 (c : Dev nD) : BatchNormSpec.Mat 50000 128 := GinSpec.bnM eps zero (X2 m ρ c) (P0 m ρ c).g2 (P0 m ρ c).β2

theorem a2_eq (c : Dev nD) : R6.A2 (V13 m ρ) c = A2 m ρ c := by
  unfold A2 GinSpec.bnM P0
  show BatchNormSpec.normRelu _ _ (V13 m ρ c main_v107_0) (KPay.rowAt (V13 m ρ c main_v109)) (KPay.rowAt (V13 m ρ c main_v113))
    (KPay.rowAt (V13 m ρ c main_v86)) (KPay.rowAt (V13 m ρ c main_v89)) = _
  rw [in46, mean48, var52, g25, be28]

/-! ## Region 3's entry -/

theorem in53 (c : Dev nD) : V15 m ρ c main_v114_0 = A2 m ρ c :=
  (KHostL1.keep_hostOps3_main_v53_0 (W14 m ρ c)).trans
    (((W14_arr m ρ c 5).trans (R6.final5 (V13 m ρ) c)).trans (a2_eq m ρ c))

theorem s3 (c : Dev nD) (cc : Fin 128) :
    W14 m ρ c (Proc.devRef .tc main_v114_1) (ix2 (0 : Fin 1) cc) = BatchNormSpec.colSum (A2 m ρ c) cc := by
  rw [(W14_arr m ρ c 6).trans (R6.final6 (V13 m ρ) c), R6.acc6_eq, a2_eq]

theorem q3 (c : Dev nD) (cc : Fin 128) :
    W14 m ρ c (Proc.devRef .tc main_v114_2) (ix2 (0 : Fin 1) cc) = BatchNormSpec.colSumSq (A2 m ρ c) cc := by
  rw [(W14_arr m ρ c 7).trans (R6.final7 (V13 m ρ) c), R6.acc7_eq, a2_eq]

theorem mean55 (c : Dev nD) : KPay.rowAt (V15 m ρ c main_v116) = BatchNormSpec.mean (GinSpec.N : ℝ) (A2 m ρ c) := by
  funext cc
  rw [N_cast]
  show V15 m ρ c main_v116 (ix2 (0 : Fin 1) cc) = _
  rw [show V15 m ρ c main_v116 = KHost.rowMean (W14 m ρ c (Proc.devRef .tc main_v114_1)) from KHostL1.mean3_eq (W14 m ρ c)]
  exact KHost.rowMean_of_colSum (A2 m ρ c) _ cc (s3 m ρ c cc)

theorem var59 (c : Dev nD) : KPay.rowAt (V15 m ρ c main_v120) = BatchNormSpec.varMoment (GinSpec.N : ℝ) (A2 m ρ c) := by
  funext cc
  rw [N_cast]
  show V15 m ρ c main_v120 (ix2 (0 : Fin 1) cc) = _
  rw [show V15 m ρ c main_v120 = KHost.rowVar (W14 m ρ c (Proc.devRef .tc main_v114_1)) (W14 m ρ c (Proc.devRef .tc main_v114_2))
    from KHostL1.var3_eq (W14 m ρ c)]
  exact KHost.rowVar_of_colSums (A2 m ρ c) _ _ cc (s3 m ρ c cc) (q3 m ρ c cc)

theorem g31 (c : Dev nD) : V15 m ρ c main_v92 = (KHost.rowL 1 slices_S5x128_S1x128_1_0) (W8 m ρ c (Proc.devRef .tc main_arg11)) :=
  (KHostL1.keep_hostOps3_main_v31 (W14 m ρ c)).trans ((W14_of_ne m ρ c main_v92 (by decide)).trans
    ((KHostL1.keep_hostOps2_main_v31 (W12 m ρ c)).trans ((W12_of_ne m ρ c main_v92 (by decide)).trans
      ((KHostL1.keep_hostOps1_main_v31 (W10 m ρ c)).trans ((W10_of_ne m ρ c main_v92 (by decide)).trans (KHostL1.g3_0_eq (W8 m ρ c)))))))
theorem be34 (c : Dev nD) : V15 m ρ c main_v95 = (KHost.rowL 1 slices_S5x128_S1x128_1_0) (W8 m ρ c (Proc.devRef .tc main_arg12)) :=
  (KHostL1.keep_hostOps3_main_v34 (W14 m ρ c)).trans ((W14_of_ne m ρ c main_v95 (by decide)).trans
    ((KHostL1.keep_hostOps2_main_v34 (W12 m ρ c)).trans ((W12_of_ne m ρ c main_v95 (by decide)).trans
      ((KHostL1.keep_hostOps1_main_v34 (W10 m ρ c)).trans ((W10_of_ne m ρ c main_v95 (by decide)).trans (KHostL1.be3_0_eq (W8 m ρ c)))))))

/-! ## The layer -/

/-- After the fourth region the features buffer holds the layer function, with moment variances, of the launch contents. -/
theorem layer_out (c : Dev nD) :
    W16 m ρ c (Proc.devRef .tc main_v121) = GinSpec.layerM eps zero (P0 m ρ c) (Y0 m ρ c) := by
  refine ((W16_arr m ρ c 5).trans (R7.final5 (V15 m ρ) c)).trans ?_
  show BatchNormSpec.normRelu _ _ (V15 m ρ c main_v114_0) (KPay.rowAt (V15 m ρ c main_v116)) (KPay.rowAt (V15 m ρ c main_v120))
    (KPay.rowAt (V15 m ρ c main_v92)) (KPay.rowAt (V15 m ρ c main_v95)) = _
  rw [in53, mean55, var59, g31, be34]
  rfl

/-! ## The arguments read at the layer's end as at its start -/

theorem keep1_main_arg1 (W : Valuation τ sig (Elt Ideal)) :
    after hostOps5 W (Proc.devRef .tc main_arg1) = W (Proc.devRef .tc main_arg1) := by
  after_results
theorem keep1_main_arg2 (W : Valuation τ sig (Elt Ideal)) :
    after hostOps5 W (Proc.devRef .tc main_arg2) = W (Proc.devRef .tc main_arg2) := by
  after_results
theorem keep1_main_arg3 (W : Valuation τ sig (Elt Ideal)) :
    after hostOps5 W (Proc.devRef .tc main_arg3) = W (Proc.devRef .tc main_arg3) := by
  after_results
theorem keep1_main_arg4 (W : Valuation τ sig (Elt Ideal)) :
    after hostOps5 W (Proc.devRef .tc main_arg4) = W (Proc.devRef .tc main_arg4) := by
  after_results
theorem keep1_main_arg5 (W : Valuation τ sig (Elt Ideal)) :
    after hostOps5 W (Proc.devRef .tc main_arg5) = W (Proc.devRef .tc main_arg5) := by
  after_results
theorem keep1_main_arg6 (W : Valuation τ sig (Elt Ideal)) :
    after hostOps5 W (Proc.devRef .tc main_arg6) = W (Proc.devRef .tc main_arg6) := by
  after_results
theorem keep1_main_arg7 (W : Valuation τ sig (Elt Ideal)) :
    after hostOps5 W (Proc.devRef .tc main_arg7) = W (Proc.devRef .tc main_arg7) := by
  after_results
theorem keep1_main_arg8 (W : Valuation τ sig (Elt Ideal)) :
    after hostOps5 W (Proc.devRef .tc main_arg8) = W (Proc.devRef .tc main_arg8) := by
  after_results
theorem keep1_main_arg9 (W : Valuation τ sig (Elt Ideal)) :
    after hostOps5 W (Proc.devRef .tc main_arg9) = W (Proc.devRef .tc main_arg9) := by
  after_results
theorem keep1_main_arg10 (W : Valuation τ sig (Elt Ideal)) :
    after hostOps5 W (Proc.devRef .tc main_arg10) = W (Proc.devRef .tc main_arg10) := by
  after_results
theorem keep1_main_arg11 (W : Valuation τ sig (Elt Ideal)) :
    after hostOps5 W (Proc.devRef .tc main_arg11) = W (Proc.devRef .tc main_arg11) := by
  after_results
theorem keep1_main_arg12 (W : Valuation τ sig (Elt Ideal)) :
    after hostOps5 W (Proc.devRef .tc main_arg12) = W (Proc.devRef .tc main_arg12) := by
  after_results
theorem keep2_main_arg1 (W : Valuation τ sig (Elt Ideal)) :
    after hostOps6 W (Proc.devRef .tc main_arg1) = W (Proc.devRef .tc main_arg1) := by
  after_results
theorem keep2_main_arg2 (W : Valuation τ sig (Elt Ideal)) :
    after hostOps6 W (Proc.devRef .tc main_arg2) = W (Proc.devRef .tc main_arg2) := by
  after_results
theorem keep2_main_arg3 (W : Valuation τ sig (Elt Ideal)) :
    after hostOps6 W (Proc.devRef .tc main_arg3) = W (Proc.devRef .tc main_arg3) := by
  after_results
theorem keep2_main_arg4 (W : Valuation τ sig (Elt Ideal)) :
    after hostOps6 W (Proc.devRef .tc main_arg4) = W (Proc.devRef .tc main_arg4) := by
  after_results
theorem keep2_main_arg5 (W : Valuation τ sig (Elt Ideal)) :
    after hostOps6 W (Proc.devRef .tc main_arg5) = W (Proc.devRef .tc main_arg5) := by
  after_results
theorem keep2_main_arg6 (W : Valuation τ sig (Elt Ideal)) :
    after hostOps6 W (Proc.devRef .tc main_arg6) = W (Proc.devRef .tc main_arg6) := by
  after_results
theorem keep2_main_arg7 (W : Valuation τ sig (Elt Ideal)) :
    after hostOps6 W (Proc.devRef .tc main_arg7) = W (Proc.devRef .tc main_arg7) := by
  after_results
theorem keep2_main_arg8 (W : Valuation τ sig (Elt Ideal)) :
    after hostOps6 W (Proc.devRef .tc main_arg8) = W (Proc.devRef .tc main_arg8) := by
  after_results
theorem keep2_main_arg9 (W : Valuation τ sig (Elt Ideal)) :
    after hostOps6 W (Proc.devRef .tc main_arg9) = W (Proc.devRef .tc main_arg9) := by
  after_results
theorem keep2_main_arg10 (W : Valuation τ sig (Elt Ideal)) :
    after hostOps6 W (Proc.devRef .tc main_arg10) = W (Proc.devRef .tc main_arg10) := by
  after_results
theorem keep2_main_arg11 (W : Valuation τ sig (Elt Ideal)) :
    after hostOps6 W (Proc.devRef .tc main_arg11) = W (Proc.devRef .tc main_arg11) := by
  after_results
theorem keep2_main_arg12 (W : Valuation τ sig (Elt Ideal)) :
    after hostOps6 W (Proc.devRef .tc main_arg12) = W (Proc.devRef .tc main_arg12) := by
  after_results
theorem keep3_main_arg1 (W : Valuation τ sig (Elt Ideal)) :
    after hostOps7 W (Proc.devRef .tc main_arg1) = W (Proc.devRef .tc main_arg1) := by
  after_results
theorem keep3_main_arg2 (W : Valuation τ sig (Elt Ideal)) :
    after hostOps7 W (Proc.devRef .tc main_arg2) = W (Proc.devRef .tc main_arg2) := by
  after_results
theorem keep3_main_arg3 (W : Valuation τ sig (Elt Ideal)) :
    after hostOps7 W (Proc.devRef .tc main_arg3) = W (Proc.devRef .tc main_arg3) := by
  after_results
theorem keep3_main_arg4 (W : Valuation τ sig (Elt Ideal)) :
    after hostOps7 W (Proc.devRef .tc main_arg4) = W (Proc.devRef .tc main_arg4) := by
  after_results
theorem keep3_main_arg5 (W : Valuation τ sig (Elt Ideal)) :
    after hostOps7 W (Proc.devRef .tc main_arg5) = W (Proc.devRef .tc main_arg5) := by
  after_results
theorem keep3_main_arg6 (W : Valuation τ sig (Elt Ideal)) :
    after hostOps7 W (Proc.devRef .tc main_arg6) = W (Proc.devRef .tc main_arg6) := by
  after_results
theorem keep3_main_arg7 (W : Valuation τ sig (Elt Ideal)) :
    after hostOps7 W (Proc.devRef .tc main_arg7) = W (Proc.devRef .tc main_arg7) := by
  after_results
theorem keep3_main_arg8 (W : Valuation τ sig (Elt Ideal)) :
    after hostOps7 W (Proc.devRef .tc main_arg8) = W (Proc.devRef .tc main_arg8) := by
  after_results
theorem keep3_main_arg9 (W : Valuation τ sig (Elt Ideal)) :
    after hostOps7 W (Proc.devRef .tc main_arg9) = W (Proc.devRef .tc main_arg9) := by
  after_results
theorem keep3_main_arg10 (W : Valuation τ sig (Elt Ideal)) :
    after hostOps7 W (Proc.devRef .tc main_arg10) = W (Proc.devRef .tc main_arg10) := by
  after_results
theorem keep3_main_arg11 (W : Valuation τ sig (Elt Ideal)) :
    after hostOps7 W (Proc.devRef .tc main_arg11) = W (Proc.devRef .tc main_arg11) := by
  after_results
theorem keep3_main_arg12 (W : Valuation τ sig (Elt Ideal)) :
    after hostOps7 W (Proc.devRef .tc main_arg12) = W (Proc.devRef .tc main_arg12) := by
  after_results
theorem args_main_arg1 (c : Dev nD) : W16 m ρ c (Proc.devRef .tc main_arg1) = W8 m ρ c (Proc.devRef .tc main_arg1) :=
  (W16_of_ne m ρ c main_arg1 (by decide)).trans ((keep3_main_arg1 (W14 m ρ c)).trans ((W14_of_ne m ρ c main_arg1 (by decide)).trans
    ((keep2_main_arg1 (W12 m ρ c)).trans ((W12_of_ne m ρ c main_arg1 (by decide)).trans
      ((keep1_main_arg1 (W10 m ρ c)).trans ((W10_of_ne m ρ c main_arg1 (by decide)).trans (keep0_main_arg1 (W8 m ρ c))))))))
theorem args_main_arg2 (c : Dev nD) : W16 m ρ c (Proc.devRef .tc main_arg2) = W8 m ρ c (Proc.devRef .tc main_arg2) :=
  (W16_of_ne m ρ c main_arg2 (by decide)).trans ((keep3_main_arg2 (W14 m ρ c)).trans ((W14_of_ne m ρ c main_arg2 (by decide)).trans
    ((keep2_main_arg2 (W12 m ρ c)).trans ((W12_of_ne m ρ c main_arg2 (by decide)).trans
      ((keep1_main_arg2 (W10 m ρ c)).trans ((W10_of_ne m ρ c main_arg2 (by decide)).trans (keep0_main_arg2 (W8 m ρ c))))))))
theorem args_main_arg3 (c : Dev nD) : W16 m ρ c (Proc.devRef .tc main_arg3) = W8 m ρ c (Proc.devRef .tc main_arg3) :=
  (W16_of_ne m ρ c main_arg3 (by decide)).trans ((keep3_main_arg3 (W14 m ρ c)).trans ((W14_of_ne m ρ c main_arg3 (by decide)).trans
    ((keep2_main_arg3 (W12 m ρ c)).trans ((W12_of_ne m ρ c main_arg3 (by decide)).trans
      ((keep1_main_arg3 (W10 m ρ c)).trans ((W10_of_ne m ρ c main_arg3 (by decide)).trans (keep0_main_arg3 (W8 m ρ c))))))))
theorem args_main_arg4 (c : Dev nD) : W16 m ρ c (Proc.devRef .tc main_arg4) = W8 m ρ c (Proc.devRef .tc main_arg4) :=
  (W16_of_ne m ρ c main_arg4 (by decide)).trans ((keep3_main_arg4 (W14 m ρ c)).trans ((W14_of_ne m ρ c main_arg4 (by decide)).trans
    ((keep2_main_arg4 (W12 m ρ c)).trans ((W12_of_ne m ρ c main_arg4 (by decide)).trans
      ((keep1_main_arg4 (W10 m ρ c)).trans ((W10_of_ne m ρ c main_arg4 (by decide)).trans (keep0_main_arg4 (W8 m ρ c))))))))
theorem args_main_arg5 (c : Dev nD) : W16 m ρ c (Proc.devRef .tc main_arg5) = W8 m ρ c (Proc.devRef .tc main_arg5) :=
  (W16_of_ne m ρ c main_arg5 (by decide)).trans ((keep3_main_arg5 (W14 m ρ c)).trans ((W14_of_ne m ρ c main_arg5 (by decide)).trans
    ((keep2_main_arg5 (W12 m ρ c)).trans ((W12_of_ne m ρ c main_arg5 (by decide)).trans
      ((keep1_main_arg5 (W10 m ρ c)).trans ((W10_of_ne m ρ c main_arg5 (by decide)).trans (keep0_main_arg5 (W8 m ρ c))))))))
theorem args_main_arg6 (c : Dev nD) : W16 m ρ c (Proc.devRef .tc main_arg6) = W8 m ρ c (Proc.devRef .tc main_arg6) :=
  (W16_of_ne m ρ c main_arg6 (by decide)).trans ((keep3_main_arg6 (W14 m ρ c)).trans ((W14_of_ne m ρ c main_arg6 (by decide)).trans
    ((keep2_main_arg6 (W12 m ρ c)).trans ((W12_of_ne m ρ c main_arg6 (by decide)).trans
      ((keep1_main_arg6 (W10 m ρ c)).trans ((W10_of_ne m ρ c main_arg6 (by decide)).trans (keep0_main_arg6 (W8 m ρ c))))))))
theorem args_main_arg7 (c : Dev nD) : W16 m ρ c (Proc.devRef .tc main_arg7) = W8 m ρ c (Proc.devRef .tc main_arg7) :=
  (W16_of_ne m ρ c main_arg7 (by decide)).trans ((keep3_main_arg7 (W14 m ρ c)).trans ((W14_of_ne m ρ c main_arg7 (by decide)).trans
    ((keep2_main_arg7 (W12 m ρ c)).trans ((W12_of_ne m ρ c main_arg7 (by decide)).trans
      ((keep1_main_arg7 (W10 m ρ c)).trans ((W10_of_ne m ρ c main_arg7 (by decide)).trans (keep0_main_arg7 (W8 m ρ c))))))))
theorem args_main_arg8 (c : Dev nD) : W16 m ρ c (Proc.devRef .tc main_arg8) = W8 m ρ c (Proc.devRef .tc main_arg8) :=
  (W16_of_ne m ρ c main_arg8 (by decide)).trans ((keep3_main_arg8 (W14 m ρ c)).trans ((W14_of_ne m ρ c main_arg8 (by decide)).trans
    ((keep2_main_arg8 (W12 m ρ c)).trans ((W12_of_ne m ρ c main_arg8 (by decide)).trans
      ((keep1_main_arg8 (W10 m ρ c)).trans ((W10_of_ne m ρ c main_arg8 (by decide)).trans (keep0_main_arg8 (W8 m ρ c))))))))
theorem args_main_arg9 (c : Dev nD) : W16 m ρ c (Proc.devRef .tc main_arg9) = W8 m ρ c (Proc.devRef .tc main_arg9) :=
  (W16_of_ne m ρ c main_arg9 (by decide)).trans ((keep3_main_arg9 (W14 m ρ c)).trans ((W14_of_ne m ρ c main_arg9 (by decide)).trans
    ((keep2_main_arg9 (W12 m ρ c)).trans ((W12_of_ne m ρ c main_arg9 (by decide)).trans
      ((keep1_main_arg9 (W10 m ρ c)).trans ((W10_of_ne m ρ c main_arg9 (by decide)).trans (keep0_main_arg9 (W8 m ρ c))))))))
theorem args_main_arg10 (c : Dev nD) : W16 m ρ c (Proc.devRef .tc main_arg10) = W8 m ρ c (Proc.devRef .tc main_arg10) :=
  (W16_of_ne m ρ c main_arg10 (by decide)).trans ((keep3_main_arg10 (W14 m ρ c)).trans ((W14_of_ne m ρ c main_arg10 (by decide)).trans
    ((keep2_main_arg10 (W12 m ρ c)).trans ((W12_of_ne m ρ c main_arg10 (by decide)).trans
      ((keep1_main_arg10 (W10 m ρ c)).trans ((W10_of_ne m ρ c main_arg10 (by decide)).trans (keep0_main_arg10 (W8 m ρ c))))))))
theorem args_main_arg11 (c : Dev nD) : W16 m ρ c (Proc.devRef .tc main_arg11) = W8 m ρ c (Proc.devRef .tc main_arg11) :=
  (W16_of_ne m ρ c main_arg11 (by decide)).trans ((keep3_main_arg11 (W14 m ρ c)).trans ((W14_of_ne m ρ c main_arg11 (by decide)).trans
    ((keep2_main_arg11 (W12 m ρ c)).trans ((W12_of_ne m ρ c main_arg11 (by decide)).trans
      ((keep1_main_arg11 (W10 m ρ c)).trans ((W10_of_ne m ρ c main_arg11 (by decide)).trans (keep0_main_arg11 (W8 m ρ c))))))))
theorem args_main_arg12 (c : Dev nD) : W16 m ρ c (Proc.devRef .tc main_arg12) = W8 m ρ c (Proc.devRef .tc main_arg12) :=
  (W16_of_ne m ρ c main_arg12 (by decide)).trans ((keep3_main_arg12 (W14 m ρ c)).trans ((W14_of_ne m ρ c main_arg12 (by decide)).trans
    ((keep2_main_arg12 (W12 m ρ c)).trans ((W12_of_ne m ρ c main_arg12 (by decide)).trans
      ((keep1_main_arg12 (W10 m ρ c)).trans ((W10_of_ne m ρ c main_arg12 (by decide)).trans (keep0_main_arg12 (W8 m ρ c))))))))

end Cert.KernelIdeal.Layer1

end
-- ==== Proof.R8Value.lean ====
/-
  The first kernel of layer 2, read as values, at any float instance. At each of its five grid points the kernel stores the
  dense layer of the point's tile of 10000 rows, and keeps two running rows: at the first point it sets them to the zero
  row plus the tile's column sums (of the result, and of its squares); at every later point it adds the tile's column sums
  to what the point before left. So after point n the three output buffers hold the dense layer of tile n and the two
  accumulations over tiles 0..n (by induction on the point).
-/
import proofs.«113410_j5944234737805_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R8

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem out_A_3 (c : Dev nD) (i : grid8.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond8_0 i)
    (x0 : Vec F S10000x128 .f32) (x1 : Vec F S128x128 .f32) (x2 : Vec F S1x128 .f32) :
    out8_A_3 c i a1 h1 a2 h2 a3 h3 a4 h4 a5 h5 a6 h6 hc x0 x1 x2 = k8_pay3 x0 x1 x2 := by
  unfold out8_A_3
  rw [View.read_writes_eq_canon _ _ _ (cover8_A_3 c i a1 h1 a2 h2 a3 h3 a4 h4 a5 h5 a6 h6 hc x0 x1 x2)]
  unfold kernelRun8_A
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

theorem out_A_4 (c : Dev nD) (i : grid8.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond8_0 i)
    (x0 : Vec F S10000x128 .f32) (x1 : Vec F S128x128 .f32) (x2 : Vec F S1x128 .f32) :
    out8_A_4 c i a1 h1 a2 h2 a3 h3 a4 h4 a5 h5 a6 h6 hc x0 x1 x2 = k8_pay4 x0 x1 x2 k8_pay1 := by
  unfold out8_A_4
  rw [View.read_writes_eq_canon _ _ _ (cover8_A_4 c i a1 h1 a2 h2 a3 h3 a4 h4 a5 h5 a6 h6 hc x0 x1 x2)]
  unfold kernelRun8_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S10000x128) hz, View.ld_unit_zero (S := S128x128) hz, View.ld_unit_zero (S := S1x128) hz]

theorem out_A_5 (c : Dev nD) (i : grid8.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond8_0 i)
    (x0 : Vec F S10000x128 .f32) (x1 : Vec F S128x128 .f32) (x2 : Vec F S1x128 .f32) :
    out8_A_5 c i a1 h1 a2 h2 a3 h3 a4 h4 a5 h5 a6 h6 hc x0 x1 x2 = k8_pay5 x0 x1 x2 k8_pay2 := by
  unfold out8_A_5
  rw [View.read_writes_eq_canon _ _ _ (cover8_A_5 c i a1 h1 a2 h2 a3 h3 a4 h4 a5 h5 a6 h6 hc x0 x1 x2)]
  unfold kernelRun8_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S10000x128) hz, View.ld_unit_zero (S := S128x128) hz, View.ld_unit_zero (S := S1x128) hz]

theorem out_B_3 (c : Dev nD) (i : grid8.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond8_0 i)
    (x0 : Vec F S10000x128 .f32) (x1 : Vec F S128x128 .f32) (x2 : Vec F S1x128 .f32) (xo4 xo5 : Vec F S1x128 .f32) :
    out8_B_3 c i a1 h1 a2 h2 a3 h3 a4 h4 a5 h5 a6 h6 hc x0 x1 x2 xo4 xo5 = k8_pay3 x0 x1 x2 := by
  unfold out8_B_3
  rw [View.read_writes_eq_canon _ _ _ (cover8_B_3 c i a1 h1 a2 h2 a3 h3 a4 h4 a5 h5 a6 h6 hc x0 x1 x2 xo4 xo5)]
  unfold kernelRun8_B
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

theorem out_B_4 (c : Dev nD) (i : grid8.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond8_0 i)
    (x0 : Vec F S10000x128 .f32) (x1 : Vec F S128x128 .f32) (x2 : Vec F S1x128 .f32) (xo4 xo5 : Vec F S1x128 .f32) :
    out8_B_4 c i a1 h1 a2 h2 a3 h3 a4 h4 a5 h5 a6 h6 hc x0 x1 x2 xo4 xo5 = k8_pay4 x0 x1 x2 xo4 := by
  unfold out8_B_4
  rw [View.read_writes_eq_canon _ _ _ (cover8_B_4 c i a1 h1 a2 h2 a3 h3 a4 h4 a5 h5 a6 h6 hc x0 x1 x2 xo4 xo5)]
  unfold kernelRun8_B
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

theorem out_B_5 (c : Dev nD) (i : grid8.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond8_0 i)
    (x0 : Vec F S10000x128 .f32) (x1 : Vec F S128x128 .f32) (x2 : Vec F S1x128 .f32) (xo4 xo5 : Vec F S1x128 .f32) :
    out8_B_5 c i a1 h1 a2 h2 a3 h3 a4 h4 a5 h5 a6 h6 hc x0 x1 x2 xo4 xo5 = k8_pay5 x0 x1 x2 xo5 := by
  unfold out8_B_5
  rw [View.read_writes_eq_canon _ _ _ (cover8_B_5 c i a1 h1 a2 h2 a3 h3 a4 h4 a5 h5 a6 h6 hc x0 x1 x2 xo4 xo5)]
  unfold kernelRun8_B
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

/-- The running column sums of the rows seen so far: tile 0 added to the zero row, then one tile per point. -/
def acc4 (c : Dev nD) : (n : ℕ) → n < cfg8.N → Vec F S1x128 .f32
  | 0, h => k8_pay4 (iblk8 V c 0 ⟨0, h⟩) (iblk8 V c 1 ⟨0, h⟩) (iblk8 V c 2 ⟨0, h⟩) k8_pay1
  | n + 1, h => k8_pay4 (iblk8 V c 0 ⟨n + 1, h⟩) (iblk8 V c 1 ⟨n + 1, h⟩) (iblk8 V c 2 ⟨n + 1, h⟩) (acc4 c n (Nat.lt_of_succ_lt h))

/-- The same for the squares. -/
def acc5 (c : Dev nD) : (n : ℕ) → n < cfg8.N → Vec F S1x128 .f32
  | 0, h => k8_pay5 (iblk8 V c 0 ⟨0, h⟩) (iblk8 V c 1 ⟨0, h⟩) (iblk8 V c 2 ⟨0, h⟩) k8_pay2
  | n + 1, h => k8_pay5 (iblk8 V c 0 ⟨n + 1, h⟩) (iblk8 V c 1 ⟨n + 1, h⟩) (iblk8 V c 2 ⟨n + 1, h⟩) (acc5 c n (Nat.lt_of_succ_lt h))

/-- After point n the three output buffers hold: the dense layer of tile n; the column sums of tiles 0..n; the column sums
    of their squares. By induction on the point. -/
theorem outsAt_eq (c : Dev nD) : ∀ (n : ℕ) (h : n < cfg8.N),
    outsAt8 V c n h = (k8_pay3 (iblk8 V c 0 ⟨n, h⟩) (iblk8 V c 1 ⟨n, h⟩) (iblk8 V c 2 ⟨n, h⟩), acc4 V c n h, acc5 V c n h)
  | 0, h => (outsAt8_A V c ⟨0, h⟩ rfl).trans (by
      rw [out_A_3, out_A_4, out_A_5]
      rfl)
  | n + 1, h => by
    have hN : cfg8.N = 5 := N_8
    have hB : ¬(⟨n + 1, h⟩ : Fin cfg8.N).val % 5 = 0 := by dsimp only; omega
    rw [outsAt8_B V c ⟨n + 1, h⟩ hB, out_B_3, out_B_4, out_B_5]
    show (k8_pay3 _ _ _, k8_pay4 _ _ _ (outsAt8 V c n _).2.1, k8_pay5 _ _ _ (outsAt8 V c n _).2.2)
      = (k8_pay3 _ _ _, k8_pay4 _ _ _ (acc4 V c n _), k8_pay5 _ _ _ (acc5 V c n _))
    rw [outsAt_eq c n]

end Cert.KernelIdeal.R8
-- ==== Proof.KPay0_L2.lean ====
/-
  The arithmetic of the first kernel of a layer, at the exact values. From a tile `x` of 10000 rows, the weights `w` and
  the bias row `b` it stores the dense layer `x · w + b` of the tile, and adds to two running rows the column sums of that
  result and the column sums of its squares.
-/
import proofs.«113410_j5944234737805_1_alg».proof.Proof.Gen.KernelIdeal.Skeleton
import proofs.«113410_j5944234737805_1_alg».proof.Proof.LibDense
import proofs.«113410_j5944234737805_1_alg».proof.Proof.LibBatchNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPayL2

open Cert.KernelIdeal Cert.KernelIdeal.Gen Idealize.ShloMosaic Idealize.ShloMosaic.TcCoe Idealize.ShloMosaic.ValueIdx

/-- The dense layer of a tile. -/
theorem pay3_eq (x : Vec Ideal S10000x128 .f32) (w : Vec Ideal S128x128 .f32) (b : Vec Ideal S1x128 .f32) :
    k8_pay3 (F := Ideal) x w b = DenseSpec.dense x w b := by
  unfold k8_pay3
  dsimp only
  rw [shapeCast_self, shapeCast_self, shapeCast_self]
  exact DenseSpec.matmul_bias dot_S10000x128_S128x128_S10000x128_1_0_0_1_n_n_wf none
    (truncf .bf16 x bitsLt_bf16_f32) (truncf .bf16 w bitsLt_bf16_f32) b broadcasts_S1x128_S10000x128

/-- The column sums of a tile, added to the running row. -/
theorem pay4_apply (x : Vec Ideal S10000x128 .f32) (w : Vec Ideal S128x128 .f32) (b acc : Vec Ideal S1x128 .f32) (c : Fin 128) :
    k8_pay4 (F := Ideal) x w b acc (ix2 (0 : Fin 1) c)
      = acc (ix2 (0 : Fin 1) c) + ∑ q : Fin 10000, DenseSpec.dense x w b (ix2 q c) := by
  unfold k8_pay4
  dsimp only
  rw [addf_apply, shapeCast_self]
  refine congrArg (acc (ix2 (0 : Fin 1) c) + ·) ?_
  refine (DenseSpec.shapeCast_row_apply _ shapeCasts_S128_S1x128 (0 : Fin 1) c).trans ?_
  refine (Ideal.multiReduction_add_single (k8_pay3 (F := Ideal) x w b) 0x00000000#32 reduces_S10000x128_S128 (.inl rfl) rfl (ix1 c)).trans ?_
  rw [pay3_eq]
  exact Finset.sum_congr rfl fun q _ => congrArg _ (funext fun a => Fin.ext (by
    match a with
    | ⟨0, _⟩ => rfl
    | ⟨1, _⟩ => rfl))

/-- The column sums of the squares of a tile, added to the running row. -/
theorem pay5_apply (x : Vec Ideal S10000x128 .f32) (w : Vec Ideal S128x128 .f32) (b acc : Vec Ideal S1x128 .f32) (c : Fin 128) :
    k8_pay5 (F := Ideal) x w b acc (ix2 (0 : Fin 1) c)
      = acc (ix2 (0 : Fin 1) c) + ∑ q : Fin 10000, DenseSpec.dense x w b (ix2 q c) * DenseSpec.dense x w b (ix2 q c) := by
  unfold k8_pay5
  dsimp only
  rw [addf_apply, shapeCast_self]
  refine congrArg (acc (ix2 (0 : Fin 1) c) + ·) ?_
  refine (DenseSpec.shapeCast_row_apply _ shapeCasts_S128_S1x128 (0 : Fin 1) c).trans ?_
  refine (Ideal.multiReduction_add_single (mulf (k8_pay3 (F := Ideal) x w b) (k8_pay3 (F := Ideal) x w b)) 0x00000000#32
    reduces_S10000x128_S128 (.inl rfl) rfl (ix1 c)).trans ?_
  rw [pay3_eq]
  exact Finset.sum_congr rfl fun q _ => by
    rw [mulf_apply]
    have e : (reduces_S10000x128_S128.lift (ix1 c) q : S10000x128.Idx) = ix2 q c := funext fun a => Fin.ext (by
      match a with
      | ⟨0, _⟩ => rfl
      | ⟨1, _⟩ => rfl)
    rw [e]
    rfl

/-- The row the first grid point starts the accumulation from is the zero row. -/
theorem pay1_apply (i : S1x128.Idx) : k8_pay1 (F := Ideal) i = 0 := by
  show Ideal.ofBits .f32 0x00000000#32 = 0
  exact Ideal.ofBits_zero_f32
theorem pay2_apply (i : S1x128.Idx) : k8_pay2 (F := Ideal) i = 0 := by
  show Ideal.ofBits .f32 0x00000000#32 = 0
  exact Ideal.ofBits_zero_f32

end Cert.KernelIdeal.KPayL2

end
-- ==== Proof.R8Array.lean ====
/-
  The first kernel of layer 2: what its three output arrays hold when the region ends, at the exact values. The grid has
  five points; point t reads rows 10000·t … 10000·t + 9999 of the input (every column), the whole weight matrix and the
  whole bias row, and writes back the same rows of the output. So the output array is the dense layer of the whole input,
  row by row. The two running rows are written back once, after the last point.
-/
import proofs.«113410_j5944234737805_1_alg».proof.Proof.R8Value
import proofs.«113410_j5944234737805_1_alg».proof.Proof.KPay0_L2
import proofs.«113410_j5944234737805_1_alg».proof.Proof.GinTiles
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.R8

open Cert.KernelIdeal Cert.KernelIdeal.Gen

variable (V : (c : Dev nD) → (b : Ref sig .tc) → Buf (Elt Ideal) ((c : Thread nD τ).loc b))

/-- The block indices of the six windows at each grid point: the row windows move with the point, the others stay. -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0 :=
  (by decide +kernel : ∀ t : Fin grid8.N, _)

/-- Row q of the tile of point t. -/
abbrev rowK (t : Fin cfg8.N) (q : Fin 10000) : Fin 50000 :=
  ⟨10000 * t.val + q.val, by have := t.isLt; have hN : cfg8.N = 5 := N_8; have := q.isLt; omega⟩

/-- The input tile of point t, read through its window, is rows 10000·t + q of the input array. -/
theorem tile_apply (c : Dev nD) (t : Fin cfg8.N) (q : Fin 10000) (k : Fin 128) :
    iblk8 V c 0 t (ix2 q k) = V c main_v132 (ix2 (rowK t q) k) := by
  obtain ⟨e0, e1, -⟩ := idx_facts t
  unfold iblk8
  rw [View.read_apply]
  show V c main_v132 _ = V c main_v132 _
  congr 1
  funext a
  apply Fin.ext
  match a with
  | ⟨0, _⟩ => show win8_0.index t (0 : Fin 2) * 10000 + 1 * q.val = 10000 * t.val + q.val; rw [e0]; omega
  | ⟨1, _⟩ => show win8_0.index t (1 : Fin 2) * 128 + 1 * k.val = k.val; rw [e1]; omega

/-- The weights' block at every point is the whole weight matrix. -/
theorem w_blk (c : Dev nD) (t : Fin cfg8.N) : iblk8 V c 1 t = V c main_v158 := by
  obtain ⟨-, -, e2, e3, -⟩ := idx_facts t
  funext j
  unfold iblk8
  rw [View.read_apply]
  show V c main_v158 _ = V c main_v158 j
  congr 1
  funext a
  apply Fin.ext
  match a with
  | ⟨0, _⟩ => show win8_1.index t (0 : Fin 2) * 128 + 1 * (j 0).val = (j 0).val; rw [e2]; omega
  | ⟨1, _⟩ => show win8_1.index t (1 : Fin 2) * 128 + 1 * (j 1).val = (j 1).val; rw [e3]; omega

/-- The bias row's block at every point is the whole row. -/
theorem b_blk (c : Dev nD) (t : Fin cfg8.N) : iblk8 V c 2 t = V c main_v135 := by
  obtain ⟨-, -, -, -, e4, e5, -⟩ := idx_facts t
  funext j
  unfold iblk8
  rw [View.read_apply]
  show V c main_v135 _ = V c main_v135 j
  congr 1
  funext a
  apply Fin.ext
  match a with
  | ⟨0, _⟩ => show win8_2.index t (0 : Fin 2) * 1 + 1 * (j 0).val = (j 0).val; rw [e4]; omega
  | ⟨1, _⟩ => show win8_2.index t (1 : Fin 2) * 128 + 1 * (j 1).val = (j 1).val; rw [e5]; omega

/-- The dense layer of the whole input: what the first output array ends holding. -/
def X1 (c : Dev nD) : S50000x128.Idx → EReal := DenseSpec.dense (V c main_v132) (V c main_v158) (V c main_v135)

/-- What point t writes back is rows 10000·t … of the dense layer of the whole input. -/
theorem flushed3_eq (c : Dev nD) (t : Fin cfg8.N) :
    (dat8 V c).flushed 3 t = ((cfg8.win 3).blk t).view.read (Elt Ideal) (X1 V c) := by
  obtain ⟨-, -, -, -, -, -, e6, e7, -⟩ := idx_facts t
  show (cfg8.win 3).cut (grid8.coords t) ((dat8 V c).after 3 t) = _
  rw [after8_3, outsAt_eq V c t.val t.isLt]
  funext j
  obtain ⟨q, k, rfl⟩ : ∃ (q : Fin 10000) (k : Fin 128), j = ix2 q k := ⟨j 0, j 1, eq_ix2 j⟩
  show k8_pay3 (iblk8 V c 0 t) (iblk8 V c 1 t) (iblk8 V c 2 t) (ix2 q k) = X1 V c (((cfg8.win 3).blk t).view.emb (ix2 q k))
  rw [KPayL2.pay3_eq, w_blk, b_blk]
  have hemb : ((cfg8.win 3).blk t).view.emb (ix2 q k) = ix2 (rowK t q) k := by
    funext a
    apply Fin.ext
    match a with
    | ⟨0, _⟩ => show win8_3.index t (0 : Fin 2) * 10000 + 1 * q.val = 10000 * t.val + q.val; rw [e6]; omega
    | ⟨1, _⟩ => show win8_3.index t (1 : Fin 2) * 128 + 1 * k.val = k.val; rw [e7]; omega
  rw [hemb]
  exact DenseSpec.dense_rows (V c main_v132) (iblk8 V c 0 t) (V c main_v158) (V c main_v135) (rowK t q) q
    (fun k' => tile_apply V c t q k') k

/-- An index of the output array is in point t's block iff each coordinate is in the block's range. -/
theorem mem_blk3 (t : Fin cfg8.N) (i : S50000x128.Idx) :
    i ∈ ((cfg8.win 3).blk t).view.set ↔ ∀ a : Fin 2, win8_3.index t a * S10000x128.size a ≤ (i a).val
      ∧ (i a).val < win8_3.index t a * S10000x128.size a + S10000x128.size a := by
  show i ∈ ((View.whole main_v159_0).slice (win8_3.rect t)).set ↔ _
  rw [View.set_slice_whole, Rect.mem_set_unit]
  exact Iff.rfl

/-- The first output array when the region ends: the dense layer of the whole input. -/
theorem final3 (c : Dev nD) : (dat8 V c).arrAt 3 cfg8.N = X1 V c :=
  (dat8 V c).arrAt_eq_of_cover 3 (X1 V c) (fun t _ => flushed3_eq V c t) fun i => by
    have hi0 : (i 0).val < 50000 := (i 0).isLt
    have hi1 : (i 1).val < 128 := (i 1).isLt
    have hN : cfg8.N = 5 := N_8
    obtain ⟨-, -, -, -, -, -, e6, e7, -⟩ := idx_facts ⟨(i 0).val / 10000, by omega⟩
    refine ⟨⟨(i 0).val / 10000, by omega⟩, flush8_3 _, ?_⟩
    rw [mem_blk3]
    intro a
    match a with
    | ⟨0, _⟩ =>
      show win8_3.index ⟨(i 0).val / 10000, _⟩ (0 : Fin 2) * 10000 ≤ (i 0).val
        ∧ (i 0).val < win8_3.index ⟨(i 0).val / 10000, _⟩ (0 : Fin 2) * 10000 + 10000
      rw [e6]; dsimp only; omega
    | ⟨1, _⟩ =>
      show win8_3.index ⟨(i 0).val / 10000, _⟩ (1 : Fin 2) * 128 ≤ (i 1).val
        ∧ (i 1).val < win8_3.index ⟨(i 0).val / 10000, _⟩ (1 : Fin 2) * 128 + 128
      rw [e7]; omega

/-! ## The two running rows -/

/-- The last grid point. -/
abbrev tLast : Fin cfg8.N := ⟨4, by rw [show cfg8.N = 5 from N_8]; decide⟩

/-- Point 4 is a point of the grid. -/
theorem h4 : 4 < cfg8.N := tLast.isLt

/-- An index of running row 4's array is in point t's block iff each coordinate is in the block's range. -/
theorem mem_blk4 (t : Fin cfg8.N) (i : S1x128.Idx) :
    i ∈ ((cfg8.win 4).blk t).view.set ↔ ∀ a : Fin 2, win8_4.index t a * S1x128.size a ≤ (i a).val
      ∧ (i a).val < win8_4.index t a * S1x128.size a + S1x128.size a := by
  show i ∈ ((View.whole main_v159_1).slice (win8_4.rect t)).set ↔ _
  rw [View.set_slice_whole, Rect.mem_set_unit]
  exact Iff.rfl

/-- The one write-back of running row 4, after the last point, writes the row as it stands after point 4. -/
theorem flushed4_eq (c : Dev nD) (t : Fin cfg8.N) (hf : (cfg8.win 4).flush t = true) :
    (dat8 V c).flushed 4 t = ((cfg8.win 4).blk t).view.read (Elt Ideal) (acc4 V c 4 h4) := by
  have hN : cfg8.N = 5 := N_8
  have ht : t.val = 4 := by have := (flush8_4 t).mp hf; have := t.isLt; omega
  obtain rfl : t = tLast := Fin.ext ht
  obtain ⟨-, -, -, -, -, -, -, -, ea, eb, -⟩ := idx_facts tLast
  show (cfg8.win 4).cut (grid8.coords tLast) ((dat8 V c).after 4 tLast) = _
  rw [after8_4, outsAt_eq V c tLast.val tLast.isLt]
  funext j
  show acc4 V c 4 _ j = acc4 V c 4 _ (((cfg8.win 4).blk tLast).view.emb j)
  congr 1
  funext a
  apply Fin.ext
  match a with
  | ⟨0, _⟩ => show (j 0).val = win8_4.index tLast (0 : Fin 2) * 1 + 1 * (j 0).val; rw [ea]; omega
  | ⟨1, _⟩ => show (j 1).val = win8_4.index tLast (1 : Fin 2) * 128 + 1 * (j 1).val; rw [eb]; omega

/-- Running row 4's array when the region ends. -/
theorem final4 (c : Dev nD) : (dat8 V c).arrAt 4 cfg8.N = acc4 V c 4 h4 :=
  (dat8 V c).arrAt_eq_of_cover 4 (acc4 V c 4 h4) (flushed4_eq V c) fun i => by
    have hi0 : (i 0).val < 1 := (i 0).isLt
    have hi1 : (i 1).val < 128 := (i 1).isLt
    obtain ⟨-, -, -, -, -, -, -, -, ea, eb, -⟩ := idx_facts tLast
    refine ⟨tLast, (flush8_4 tLast).mpr rfl, ?_⟩
    rw [mem_blk4]
    intro a
    match a with
    | ⟨0, _⟩ =>
      show win8_4.index tLast (0 : Fin 2) * 1 ≤ (i 0).val ∧ (i 0).val < win8_4.index tLast (0 : Fin 2) * 1 + 1
      rw [ea]; omega
    | ⟨1, _⟩ =>
      show win8_4.index tLast (1 : Fin 2) * 128 ≤ (i 1).val ∧ (i 1).val < win8_4.index tLast (1 : Fin 2) * 128 + 128
      rw [eb]; omega

/-- An index of running row 5's array is in point t's block iff each coordinate is in the block's range. -/
theorem mem_blk5 (t : Fin cfg8.N) (i : S1x128.Idx) :
    i ∈ ((cfg8.win 5).blk t).view.set ↔ ∀ a : Fin 2, win8_5.index t a * S1x128.size a ≤ (i a).val
      ∧ (i a).val < win8_5.index t a * S1x128.size a + S1x128.size a := by
  show i ∈ ((View.whole main_v159_2).slice (win8_5.rect t)).set ↔ _
  rw [View.set_slice_whole, Rect.mem_set_unit]
  exact Iff.rfl

/-- The one write-back of running row 5, after the last point, writes the row as it stands after point 4. -/
theorem flushed5_eq (c : Dev nD) (t : Fin cfg8.N) (hf : (cfg8.win 5).flush t = true) :
    (dat8 V c).flushed 5 t = ((cfg8.win 5).blk t).view.read (Elt Ideal) (acc5 V c 4 h4) := by
  have hN : cfg8.N = 5 := N_8
  have ht : t.val = 4 := by have := (flush8_5 t).mp hf; have := t.isLt; omega
  obtain rfl : t = tLast := Fin.ext ht
  obtain ⟨-, -, -, -, -, -, -, -, -, -, ea, eb⟩ := idx_facts tLast
  show (cfg8.win 5).cut (grid8.coords tLast) ((dat8 V c).after 5 tLast) = _
  rw [after8_5, outsAt_eq V c tLast.val tLast.isLt]
  funext j
  show acc5 V c 4 _ j = acc5 V c 4 _ (((cfg8.win 5).blk tLast).view.emb j)
  congr 1
  funext a
  apply Fin.ext
  match a with
  | ⟨0, _⟩ => show (j 0).val = win8_5.index tLast (0 : Fin 2) * 1 + 1 * (j 0).val; rw [ea]; omega
  | ⟨1, _⟩ => show (j 1).val = win8_5.index tLast (1 : Fin 2) * 128 + 1 * (j 1).val; rw [eb]; omega

/-- Running row 5's array when the region ends. -/
theorem final5 (c : Dev nD) : (dat8 V c).arrAt 5 cfg8.N = acc5 V c 4 h4 :=
  (dat8 V c).arrAt_eq_of_cover 5 (acc5 V c 4 h4) (flushed5_eq V c) fun i => by
    have hi0 : (i 0).val < 1 := (i 0).isLt
    have hi1 : (i 1).val < 128 := (i 1).isLt
    obtain ⟨-, -, -, -, -, -, -, -, -, -, ea, eb⟩ := idx_facts tLast
    refine ⟨tLast, (flush8_5 tLast).mpr rfl, ?_⟩
    rw [mem_blk5]
    intro a
    match a with
    | ⟨0, _⟩ =>
      show win8_5.index tLast (0 : Fin 2) * 1 ≤ (i 0).val ∧ (i 0).val < win8_5.index tLast (0 : Fin 2) * 1 + 1
      rw [ea]; omega
    | ⟨1, _⟩ =>
      show win8_5.index tLast (1 : Fin 2) * 128 ≤ (i 1).val ∧ (i 1).val < win8_5.index tLast (1 : Fin 2) * 128 + 128
      rw [eb]; omega

/-! ## The running rows are the column sums -/

/-- The dense layer of a tile is the matching rows of the dense layer of the whole input. -/
theorem tile_dense (c : Dev nD) (t : Fin cfg8.N) (q : Fin 10000) (k : Fin 128) :
    DenseSpec.dense (iblk8 V c 0 t) (iblk8 V c 1 t) (iblk8 V c 2 t) (ix2 q k) = X1 V c (ix2 (rowK t q) k) := by
  rw [w_blk, b_blk]
  exact DenseSpec.dense_rows (V c main_v132) (iblk8 V c 0 t) (V c main_v158) (V c main_v135) (rowK t q) q
    (fun k' => tile_apply V c t q k') k

/-- Running row 4 at column cc, as a sequence in the point (zero past the last point). -/
def A4 (c : Dev nD) (cc : Fin 128) (n : ℕ) : EReal :=
  if h : n < cfg8.N then acc4 V c n h (ix2 (0 : Fin 1) cc) else 0

/-- After the last point, running row 4 holds the column sums of the dense layer of the whole input. -/
theorem acc4_eq (c : Dev nD) (cc : Fin 128) :
    acc4 V c 4 h4 (ix2 (0 : Fin 1) cc) = BatchNormSpec.colSum (X1 V c) cc := by
  have hN : cfg8.N = 5 := N_8
  have key := GinTiles.acc_eq_colSum (X1 V c) cc (A4 V c cc) ?h0 ?hs
  · rw [← key]
    unfold A4
    rw [dif_pos h4]
  case h0 =>
    unfold A4
    rw [dif_pos (by omega : 0 < cfg8.N)]
    refine (KPayL2.pay4_apply (iblk8 V c 0 ⟨0, by omega⟩) (iblk8 V c 1 ⟨0, by omega⟩) (iblk8 V c 2 ⟨0, by omega⟩) (k8_pay1 (F := Ideal)) cc).trans ?_
    rw [KPayL2.pay1_apply]
    refine congrArg ((0 : EReal) + ·) ?_
    unfold GinTiles.tileSum
    rw [dif_pos (by norm_num : 0 < 5)]
    exact Finset.sum_congr rfl fun q _ => tile_dense V c ⟨0, by omega⟩ q cc
  case hs =>
    intro n hn
    unfold A4
    rw [dif_pos (by omega : n + 1 < cfg8.N), dif_pos (by omega : n < cfg8.N)]
    refine (KPayL2.pay4_apply (iblk8 V c 0 ⟨n + 1, by omega⟩) (iblk8 V c 1 ⟨n + 1, by omega⟩) (iblk8 V c 2 ⟨n + 1, by omega⟩)
      (acc4 V c n (by omega)) cc).trans ?_
    refine congrArg (acc4 V c n (by omega) (ix2 (0 : Fin 1) cc) + ·) ?_
    unfold GinTiles.tileSum
    rw [dif_pos hn]
    exact Finset.sum_congr rfl fun q _ => tile_dense V c ⟨n + 1, by omega⟩ q cc

/-- Running row 5 at column cc, as a sequence in the point (zero past the last point). -/
def A5 (c : Dev nD) (cc : Fin 128) (n : ℕ) : EReal :=
  if h : n < cfg8.N then acc5 V c n h (ix2 (0 : Fin 1) cc) else 0

/-- After the last point, running row 5 holds the column sums of squares of the dense layer of the whole input. -/
theorem acc5_eq (c : Dev nD) (cc : Fin 128) :
    acc5 V c 4 h4 (ix2 (0 : Fin 1) cc) = BatchNormSpec.colSumSq (X1 V c) cc := by
  have hN : cfg8.N = 5 := N_8
  have key := GinTiles.acc_eq_colSumSq (X1 V c) cc (A5 V c cc) ?h0 ?hs
  · rw [← key]
    unfold A5
    rw [dif_pos h4]
  case h0 =>
    unfold A5
    rw [dif_pos (by omega : 0 < cfg8.N)]
    refine (KPayL2.pay5_apply (iblk8 V c 0 ⟨0, by omega⟩) (iblk8 V c 1 ⟨0, by omega⟩) (iblk8 V c 2 ⟨0, by omega⟩) (k8_pay2 (F := Ideal)) cc).trans ?_
    rw [KPayL2.pay2_apply]
    refine congrArg ((0 : EReal) + ·) ?_
    unfold GinTiles.tileSum
    rw [dif_pos (by norm_num : 0 < 5)]
    exact Finset.sum_congr rfl fun q _ =>
      congrArg₂ (· * ·) (tile_dense V c ⟨0, by omega⟩ q cc) (tile_dense V c ⟨0, by omega⟩ q cc)
  case hs =>
    intro n hn
    unfold A5
    rw [dif_pos (by omega : n + 1 < cfg8.N), dif_pos (by omega : n < cfg8.N)]
    refine (KPayL2.pay5_apply (iblk8 V c 0 ⟨n + 1, by omega⟩) (iblk8 V c 1 ⟨n + 1, by omega⟩) (iblk8 V c 2 ⟨n + 1, by omega⟩)
      (acc5 V c n (by omega)) cc).trans ?_
    refine congrArg (acc5 V c n (by omega) (ix2 (0 : Fin 1) cc) + ·) ?_
    unfold GinTiles.tileSum
    rw [dif_pos hn]
    exact Finset.sum_congr rfl fun q _ =>
      congrArg₂ (· * ·) (tile_dense V c ⟨n + 1, by omega⟩ q cc) (tile_dense V c ⟨n + 1, by omega⟩ q cc)

end Cert.KernelIdeal.R8

end
-- ==== Proof.R9Value.lean ====
/-
  The second kernel of layer 2, read as values, at any float instance. At each of its five grid points the kernel
  normalises and rectifies the point's tile of 10000 rows, stores the second dense layer of that, and keeps two running
  rows: at the first point the zero row plus the stored tile's column sums (and the column sums of its squares); at every
  later point what the point before left plus the same. So after point n the three output buffers hold the second dense
  layer of tile n and the two accumulations over tiles 0..n (by induction on the point).
-/
import proofs.«113410_j5944234737805_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R9

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem out_A_7 (c : Dev nD) (i : grid9.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond9_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) :
    out9_A_7 c i a1 h1 a2 h2 a3 h3 a4 h4 a5 h5 a6 h6 a7 h7 a8 h8 a9 h9 a10 h10 hc x0 x1 x2 x3 x4 x5 x6 = k9_pay5 x0 x2 x3 x1 x4 x5 x6 := by
  unfold out9_A_7
  rw [View.read_writes_eq_canon _ _ _ (cover9_A_7 c i a1 h1 a2 h2 a3 h3 a4 h4 a5 h5 a6 h6 a7 h7 a8 h8 a9 h9 a10 h10 hc x0 x1 x2 x3 x4 x5 x6)]
  unfold kernelRun9_A
  dsimp only
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_A_8 (c : Dev nD) (i : grid9.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond9_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) :
    out9_A_8 c i a1 h1 a2 h2 a3 h3 a4 h4 a5 h5 a6 h6 a7 h7 a8 h8 a9 h9 a10 h10 hc x0 x1 x2 x3 x4 x5 x6 = k9_pay1 (k9_pay5 x0 x2 x3 x1 x4 x5 x6) k9_pay3 := by
  unfold out9_A_8
  rw [View.read_writes_eq_canon _ _ _ (cover9_A_8 c i a1 h1 a2 h2 a3 h3 a4 h4 a5 h5 a6 h6 a7 h7 a8 h8 a9 h9 a10 h10 hc x0 x1 x2 x3 x4 x5 x6)]
  unfold kernelRun9_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_A_9 (c : Dev nD) (i : grid9.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond9_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) :
    out9_A_9 c i a1 h1 a2 h2 a3 h3 a4 h4 a5 h5 a6 h6 a7 h7 a8 h8 a9 h9 a10 h10 hc x0 x1 x2 x3 x4 x5 x6 = k9_pay2 (k9_pay5 x0 x2 x3 x1 x4 x5 x6) k9_pay4 := by
  unfold out9_A_9
  rw [View.read_writes_eq_canon _ _ _ (cover9_A_9 c i a1 h1 a2 h2 a3 h3 a4 h4 a5 h5 a6 h6 a7 h7 a8 h8 a9 h9 a10 h10 hc x0 x1 x2 x3 x4 x5 x6)]
  unfold kernelRun9_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_B_7 (c : Dev nD) (i : grid9.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond9_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out9_B_7 c i a1 h1 a2 h2 a3 h3 a4 h4 a5 h5 a6 h6 a7 h7 a8 h8 a9 h9 a10 h10 hc x0 x1 x2 x3 x4 x5 x6 xo8 xo9 = k9_pay5 x0 x2 x3 x1 x4 x5 x6 := by
  unfold out9_B_7
  rw [View.read_writes_eq_canon _ _ _ (cover9_B_7 c i a1 h1 a2 h2 a3 h3 a4 h4 a5 h5 a6 h6 a7 h7 a8 h8 a9 h9 a10 h10 hc x0 x1 x2 x3 x4 x5 x6 xo8 xo9)]
  unfold kernelRun9_B
  dsimp only
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_B_8 (c : Dev nD) (i : grid9.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond9_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out9_B_8 c i a1 h1 a2 h2 a3 h3 a4 h4 a5 h5 a6 h6 a7 h7 a8 h8 a9 h9 a10 h10 hc x0 x1 x2 x3 x4 x5 x6 xo8 xo9 = k9_pay1 (k9_pay5 x0 x2 x3 x1 x4 x5 x6) xo8 := by
  unfold out9_B_8
  rw [View.read_writes_eq_canon _ _ _ (cover9_B_8 c i a1 h1 a2 h2 a3 h3 a4 h4 a5 h5 a6 h6 a7 h7 a8 h8 a9 h9 a10 h10 hc x0 x1 x2 x3 x4 x5 x6 xo8 xo9)]
  unfold kernelRun9_B
  dsimp only
  rw [View.canon_unit_zero hz]
  sl_unfold_words
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_B_9 (c : Dev nD) (i : grid9.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond9_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out9_B_9 c i a1 h1 a2 h2 a3 h3 a4 h4 a5 h5 a6 h6 a7 h7 a8 h8 a9 h9 a10 h10 hc x0 x1 x2 x3 x4 x5 x6 xo8 xo9 = k9_pay2 (k9_pay5 x0 x2 x3 x1 x4 x5 x6) xo9 := by
  unfold out9_B_9
  rw [View.read_writes_eq_canon _ _ _ (cover9_B_9 c i a1 h1 a2 h2 a3 h3 a4 h4 a5 h5 a6 h6 a7 h7 a8 h8 a9 h9 a10 h10 hc x0 x1 x2 x3 x4 x5 x6 xo8 xo9)]
  unfold kernelRun9_B
  dsimp only
  rw [View.canon_unit_zero hz]
  sl_unfold_words
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

/-- The first running row after point n. -/
def acc8 (c : Dev nD) : (n : ℕ) → n < cfg9.N → Vec F S1x128 .f32
  | 0, h => k9_pay1 (k9_pay5 (iblk9 V c 0 ⟨0, h⟩) (iblk9 V c 2 ⟨0, h⟩) (iblk9 V c 3 ⟨0, h⟩) (iblk9 V c 1 ⟨0, h⟩) (iblk9 V c 4 ⟨0, h⟩) (iblk9 V c 5 ⟨0, h⟩) (iblk9 V c 6 ⟨0, h⟩)) k9_pay3
  | n + 1, h => k9_pay1 (k9_pay5 (iblk9 V c 0 ⟨n + 1, h⟩) (iblk9 V c 2 ⟨n + 1, h⟩) (iblk9 V c 3 ⟨n + 1, h⟩) (iblk9 V c 1 ⟨n + 1, h⟩) (iblk9 V c 4 ⟨n + 1, h⟩) (iblk9 V c 5 ⟨n + 1, h⟩) (iblk9 V c 6 ⟨n + 1, h⟩)) (acc8 c n (Nat.lt_of_succ_lt h))

/-- The second running row after point n. -/
def acc9 (c : Dev nD) : (n : ℕ) → n < cfg9.N → Vec F S1x128 .f32
  | 0, h => k9_pay2 (k9_pay5 (iblk9 V c 0 ⟨0, h⟩) (iblk9 V c 2 ⟨0, h⟩) (iblk9 V c 3 ⟨0, h⟩) (iblk9 V c 1 ⟨0, h⟩) (iblk9 V c 4 ⟨0, h⟩) (iblk9 V c 5 ⟨0, h⟩) (iblk9 V c 6 ⟨0, h⟩)) k9_pay4
  | n + 1, h => k9_pay2 (k9_pay5 (iblk9 V c 0 ⟨n + 1, h⟩) (iblk9 V c 2 ⟨n + 1, h⟩) (iblk9 V c 3 ⟨n + 1, h⟩) (iblk9 V c 1 ⟨n + 1, h⟩) (iblk9 V c 4 ⟨n + 1, h⟩) (iblk9 V c 5 ⟨n + 1, h⟩) (iblk9 V c 6 ⟨n + 1, h⟩)) (acc9 c n (Nat.lt_of_succ_lt h))

/-- After point n the three output buffers hold the tile's result and the two running rows. By induction on the point. -/
theorem outsAt_eq (c : Dev nD) : ∀ (n : ℕ) (h : n < cfg9.N),
    outsAt9 V c n h = (k9_pay5 (iblk9 V c 0 ⟨n, h⟩) (iblk9 V c 2 ⟨n, h⟩) (iblk9 V c 3 ⟨n, h⟩) (iblk9 V c 1 ⟨n, h⟩) (iblk9 V c 4 ⟨n, h⟩) (iblk9 V c 5 ⟨n, h⟩) (iblk9 V c 6 ⟨n, h⟩), acc8 V c n h, acc9 V c n h)
  | 0, h => (outsAt9_A V c ⟨0, h⟩ rfl).trans (by
      rw [out_A_7, out_A_8, out_A_9]
      rfl)
  | n + 1, h => by
    have hN : cfg9.N = 5 := N_9
    have hB : ¬(⟨n + 1, h⟩ : Fin cfg9.N).val % 5 = 0 := by dsimp only; omega
    rw [outsAt9_B V c ⟨n + 1, h⟩ hB, out_B_7, out_B_8, out_B_9]
    show (k9_pay5 _ _ _ _ _ _ _, k9_pay1 _ (outsAt9 V c n _).2.1, k9_pay2 _ (outsAt9 V c n _).2.2)
      = (k9_pay5 _ _ _ _ _ _ _, k9_pay1 _ (acc8 V c n _), k9_pay2 _ (acc9 V c n _))
    rw [outsAt_eq c n]

end Cert.KernelIdeal.R9
-- ==== Proof.KPay1_L2.lean ====
/-
  The arithmetic of the second, third and fourth kernels of a layer, at the exact values. Each takes a tile `x` of the
  previous stage's output and the rows of its column means, column variances, scale and shift, and forms the normalised
  and rectified tile `max (g · (x − μ) · rsqrt(v + ε) + β) 0`. The second kernel stores the second dense layer of that
  tile; the third stores the tile itself; both add to two running rows the column sums of what they store and of its
  squares. The fourth stores the tile: the layer's output rows.
-/
import proofs.«113410_j5944234737805_1_alg».proof.Proof.Gen.KernelIdeal.Skeleton
import proofs.«113410_j5944234737805_1_alg».proof.Proof.KPay1
import proofs.«113410_j5944234737805_1_alg».proof.Proof.LibDense
import proofs.«113410_j5944234737805_1_alg».proof.Proof.LibBatchNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPayL2

open Cert.KernelIdeal Cert.KernelIdeal.Gen Idealize.ShloMosaic Idealize.ShloMosaic.TcCoe Idealize.ShloMosaic.ValueIdx
open Cert.KernelIdeal.KPay (rowAt normTile colAcc_apply colAccSq_apply)

/-- The second dense layer of the normalised and rectified tile. -/
theorem k1pay5_eq (x : Vec Ideal S10000x128 .f32) (v g μ β : Vec Ideal S1x128 .f32) (w : Vec Ideal S128x128 .f32)
    (b : Vec Ideal S1x128 .f32) :
    k9_pay5 (F := Ideal) x v g μ β w b = DenseSpec.dense (normTile x μ v g β) w b := by
  unfold k9_pay5
  dsimp only
  simp only [shapeCast_self]
  refine (DenseSpec.matmul_bias dot_S10000x128_S128x128_S10000x128_1_0_0_1_n_n_wf none _ _ b broadcasts_S1x128_S10000x128).trans ?_
  refine congrArg (fun a : BatchNormSpec.Mat 10000 128 => DenseSpec.dense a w b) ?_
  funext i
  obtain ⟨r, c, rfl⟩ : ∃ (r : Fin 10000) (c : Fin 128), i = ix2 r c := ⟨i 0, i 1, eq_ix2 i⟩
  unfold normTile
  rw [BatchNormSpec.normRelu_apply, truncf_apply, maximumf_apply, addf_apply, mulf_apply, mulf_apply, subf_apply,
    broadcastTo_1b_ab_apply g _ r c, broadcastTo_1b_ab_apply μ _ r c, broadcastTo_1b_ab_apply _ _ r c,
    broadcastTo_1b_ab_apply β _ r c]
  rfl

/-- The second kernel's two accumulations, over the tile `y` it has just stored. -/
theorem k1pay1_apply (y : FVec Ideal S10000x128 .f32) (acc : Vec Ideal S1x128 .f32) (c : Fin 128) :
    k9_pay1 (F := Ideal) y acc (ix2 (0 : Fin 1) c) = acc (ix2 (0 : Fin 1) c) + ∑ q : Fin 10000, y (ix2 q c) := by
  unfold k9_pay1
  exact colAcc_apply y acc c
theorem k1pay2_apply (y : FVec Ideal S10000x128 .f32) (acc : Vec Ideal S1x128 .f32) (c : Fin 128) :
    k9_pay2 (F := Ideal) y acc (ix2 (0 : Fin 1) c) = acc (ix2 (0 : Fin 1) c) + ∑ q : Fin 10000, y (ix2 q c) * y (ix2 q c) := by
  unfold k9_pay2
  exact colAccSq_apply y acc c
theorem k1pay3_apply (i : S1x128.Idx) : k9_pay3 (F := Ideal) i = 0 := by
  show Ideal.ofBits .f32 0x00000000#32 = 0
  exact Ideal.ofBits_zero_f32
theorem k1pay4_apply (i : S1x128.Idx) : k9_pay4 (F := Ideal) i = 0 := by
  show Ideal.ofBits .f32 0x00000000#32 = 0
  exact Ideal.ofBits_zero_f32

/-- The third kernel stores the normalised and rectified tile itself … -/
theorem k2pay4_eq (x : Vec Ideal S10000x128 .f32) (v g μ β : Vec Ideal S1x128 .f32) :
    k10_pay4 (F := Ideal) x v g μ β = normTile x μ v g β := by
  unfold k10_pay4
  dsimp only
  simp only [shapeCast_self]
  funext i
  obtain ⟨r, c, rfl⟩ : ∃ (r : Fin 10000) (c : Fin 128), i = ix2 r c := ⟨i 0, i 1, eq_ix2 i⟩
  unfold normTile
  rw [BatchNormSpec.normRelu_apply, maximumf_apply, addf_apply, mulf_apply, mulf_apply, subf_apply,
    broadcastTo_1b_ab_apply g _ r c, broadcastTo_1b_ab_apply μ _ r c, broadcastTo_1b_ab_apply _ _ r c,
    broadcastTo_1b_ab_apply β _ r c]
  rfl

/-- … and accumulates its column sums and the column sums of its squares. -/
theorem k2pay5_apply (x : Vec Ideal S10000x128 .f32) (v g μ β acc : Vec Ideal S1x128 .f32) (c : Fin 128) :
    k10_pay5 (F := Ideal) x v g μ β acc (ix2 (0 : Fin 1) c)
      = acc (ix2 (0 : Fin 1) c) + ∑ q : Fin 10000, normTile x μ v g β (ix2 q c) := by
  unfold k10_pay5
  dsimp only
  rw [k2pay4_eq]
  exact colAcc_apply (normTile x μ v g β) acc c
theorem k2pay1_apply (y : FVec Ideal S10000x128 .f32) (acc : Vec Ideal S1x128 .f32) (c : Fin 128) :
    k10_pay1 (F := Ideal) y acc (ix2 (0 : Fin 1) c) = acc (ix2 (0 : Fin 1) c) + ∑ q : Fin 10000, y (ix2 q c) * y (ix2 q c) := by
  unfold k10_pay1
  exact colAccSq_apply y acc c
theorem k2pay2_apply (i : S1x128.Idx) : k10_pay2 (F := Ideal) i = 0 := by
  show Ideal.ofBits .f32 0x00000000#32 = 0
  exact Ideal.ofBits_zero_f32
theorem k2pay3_apply (i : S1x128.Idx) : k10_pay3 (F := Ideal) i = 0 := by
  show Ideal.ofBits .f32 0x00000000#32 = 0
  exact Ideal.ofBits_zero_f32

/-- The fourth kernel stores the normalised and rectified tile: the layer's output rows. -/
theorem k3pay1_eq (x : Vec Ideal S10000x128 .f32) (v g μ β : Vec Ideal S1x128 .f32) :
    k11_pay1 (F := Ideal) x v g μ β = normTile x μ v g β := by
  unfold k11_pay1
  dsimp only
  simp only [shapeCast_self]
  funext i
  obtain ⟨r, c, rfl⟩ : ∃ (r : Fin 10000) (c : Fin 128), i = ix2 r c := ⟨i 0, i 1, eq_ix2 i⟩
  unfold normTile
  rw [BatchNormSpec.normRelu_apply, maximumf_apply, addf_apply, mulf_apply, mulf_apply, subf_apply,
    broadcastTo_1b_ab_apply g _ r c, broadcastTo_1b_ab_apply μ _ r c, broadcastTo_1b_ab_apply _ _ r c,
    broadcastTo_1b_ab_apply β _ r c]
  rfl

end Cert.KernelIdeal.KPayL2

end
-- ==== Proof.R9Array.lean ====
/-
  The second kernel of layer 2: what its three output arrays hold when the region ends, at the exact values. Point t reads
  rows 10000·t … of the first dense layer's output, the four statistics and parameter rows, the whole second weight
  matrix and its bias row, and writes back the same rows of the output: the second dense layer of the normalised and
  rectified rows. Normalising is row by row, so the output array is the second dense layer of the normalised and
  rectified whole array. The two running rows, written back once after the last point, are that array's column sums
  and column sums of squares.
-/
import proofs.«113410_j5944234737805_1_alg».proof.Proof.R9Value
import proofs.«113410_j5944234737805_1_alg».proof.Proof.KPay1_L2
import proofs.«113410_j5944234737805_1_alg».proof.Proof.GinTiles
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.R9

open Cert.KernelIdeal Cert.KernelIdeal.Gen

variable (V : (c : Dev nD) → (b : Ref sig .tc) → Buf (Elt Ideal) ((c : Thread nD τ).loc b))

/-- The block indices of the ten windows at each grid point: the two row-tile windows move with the point, the others stay. -/
theorem idx_facts : ∀ t : Fin cfg9.N,
    win9_0.index t (0 : Fin 2) = t.val
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (0 : Fin 2) = 0
    ∧ win9_4.index t (1 : Fin 2) = 0
    ∧ win9_5.index t (0 : Fin 2) = 0
    ∧ win9_5.index t (1 : Fin 2) = 0
    ∧ win9_6.index t (0 : Fin 2) = 0
    ∧ win9_6.index t (1 : Fin 2) = 0
    ∧ win9_7.index t (0 : Fin 2) = t.val
    ∧ win9_7.index t (1 : Fin 2) = 0
    ∧ win9_8.index t (0 : Fin 2) = 0
    ∧ win9_8.index t (1 : Fin 2) = 0
    ∧ win9_9.index t (0 : Fin 2) = 0
    ∧ win9_9.index t (1 : Fin 2) = 0 :=
  (by decide +kernel : ∀ t : Fin grid9.N, _)

/-- Row q of the tile of point t. -/
abbrev rowK (t : Fin cfg9.N) (q : Fin 10000) : Fin 50000 :=
  ⟨10000 * t.val + q.val, by have := t.isLt; have hN : cfg9.N = 5 := N_9; have := q.isLt; omega⟩

/-- The input tile of point t is rows 10000·t + q of the first dense layer's output. -/
theorem tile_apply (c : Dev nD) (t : Fin cfg9.N) (q : Fin 10000) (k : Fin 128) :
    iblk9 V c 0 t (ix2 q k) = V c main_v159_0 (ix2 (rowK t q) k) := by
  obtain ⟨e0, e1, -⟩ := idx_facts t
  unfold iblk9
  rw [View.read_apply]
  show V c main_v159_0 _ = V c main_v159_0 _
  congr 1
  funext a
  apply Fin.ext
  match a with
  | ⟨0, _⟩ => show win9_0.index t (0 : Fin 2) * 10000 + 1 * q.val = 10000 * t.val + q.val; rw [e0]; omega
  | ⟨1, _⟩ => show win9_0.index t (1 : Fin 2) * 128 + 1 * k.val = k.val; rw [e1]; omega

/-! The statistics and parameter rows, and the bias row: each window's block at every point is the whole row. -/

theorem row_blk1 (c : Dev nD) (t : Fin cfg9.N) : iblk9 V c 1 t = V c main_v161 := by
  obtain ⟨-, -, ea, eb, -⟩ := idx_facts t
  funext j
  unfold iblk9
  rw [View.read_apply]
  show V c main_v161 _ = V c main_v161 j
  congr 1
  funext a
  apply Fin.ext
  match a with
  | ⟨0, _⟩ => show win9_1.index t (0 : Fin 2) * 1 + 1 * (j 0).val = (j 0).val; rw [ea]; omega
  | ⟨1, _⟩ => show win9_1.index t (1 : Fin 2) * 128 + 1 * (j 1).val = (j 1).val; rw [eb]; omega

theorem row_blk2 (c : Dev nD) (t : Fin cfg9.N) : iblk9 V c 2 t = V c main_v165 := by
  obtain ⟨-, -, -, -, ea, eb, -⟩ := idx_facts t
  funext j
  unfold iblk9
  rw [View.read_apply]
  show V c main_v165 _ = V c main_v165 j
  congr 1
  funext a
  apply Fin.ext
  match a with
  | ⟨0, _⟩ => show win9_2.index t (0 : Fin 2) * 1 + 1 * (j 0).val = (j 0).val; rw [ea]; omega
  | ⟨1, _⟩ => show win9_2.index t (1 : Fin 2) * 128 + 1 * (j 1).val = (j 1).val; rw [eb]; omega

theorem row_blk3 (c : Dev nD) (t : Fin cfg9.N) : iblk9 V c 3 t = V c main_v141 := by
  obtain ⟨-, -, -, -, -, -, ea, eb, -⟩ := idx_facts t
  funext j
  unfold iblk9
  rw [View.read_apply]
  show V c main_v141 _ = V c main_v141 j
  congr 1
  funext a
  apply Fin.ext
  match a with
  | ⟨0, _⟩ => show win9_3.index t (0 : Fin 2) * 1 + 1 * (j 0).val = (j 0).val; rw [ea]; omega
  | ⟨1, _⟩ => show win9_3.index t (1 : Fin 2) * 128 + 1 * (j 1).val = (j 1).val; rw [eb]; omega

theorem row_blk4 (c : Dev nD) (t : Fin cfg9.N) : iblk9 V c 4 t = V c main_v144 := by
  obtain ⟨-, -, -, -, -, -, -, -, ea, eb, -⟩ := idx_facts t
  funext j
  unfold iblk9
  rw [View.read_apply]
  show V c main_v144 _ = V c main_v144 j
  congr 1
  funext a
  apply Fin.ext
  match a with
  | ⟨0, _⟩ => show win9_4.index t (0 : Fin 2) * 1 + 1 * (j 0).val = (j 0).val; rw [ea]; omega
  | ⟨1, _⟩ => show win9_4.index t (1 : Fin 2) * 128 + 1 * (j 1).val = (j 1).val; rw [eb]; omega

theorem row_blk6 (c : Dev nD) (t : Fin cfg9.N) : iblk9 V c 6 t = V c main_v138 := by
  obtain ⟨-, -, -, -, -, -, -, -, -, -, -, -, ea, eb, -⟩ := idx_facts t
  funext j
  unfold iblk9
  rw [View.read_apply]
  show V c main_v138 _ = V c main_v138 j
  congr 1
  funext a
  apply Fin.ext
  match a with
  | ⟨0, _⟩ => show win9_6.index t (0 : Fin 2) * 1 + 1 * (j 0).val = (j 0).val; rw [ea]; omega
  | ⟨1, _⟩ => show win9_6.index t (1 : Fin 2) * 128 + 1 * (j 1).val = (j 1).val; rw [eb]; omega

/-- The weights' block at every point is the whole weight matrix. -/
theorem w_blk (c : Dev nD) (t : Fin cfg9.N) : iblk9 V c 5 t = V c main_v167 := by
  obtain ⟨-, -, -, -, -, -, -, -, -, -, ea, eb, -⟩ := idx_facts t
  funext j
  unfold iblk9
  rw [View.read_apply]
  show V c main_v167 _ = V c main_v167 j
  congr 1
  funext a
  apply Fin.ext
  match a with
  | ⟨0, _⟩ => show win9_5.index t (0 : Fin 2) * 128 + 1 * (j 0).val = (j 0).val; rw [ea]; omega
  | ⟨1, _⟩ => show win9_5.index t (1 : Fin 2) * 128 + 1 * (j 1).val = (j 1).val; rw [eb]; omega

/-- The first dense layer's output, normalised and rectified: the whole array. -/
def A1 (c : Dev nD) : BatchNormSpec.Mat 50000 128 :=
  BatchNormSpec.normRelu (Ideal.ofBits .f32 0x3727C5AC#32) (Ideal.ofBits .f32 0x00000000#32) (V c main_v159_0)
    (KPay.rowAt (V c main_v161)) (KPay.rowAt (V c main_v165)) (KPay.rowAt (V c main_v141)) (KPay.rowAt (V c main_v144))

/-- The second dense layer of it: what the first output array ends holding. -/
def X2 (c : Dev nD) : S50000x128.Idx → EReal := DenseSpec.dense (A1 V c) (V c main_v167) (V c main_v138)

/-- The second dense layer of the normalised tile is the matching rows of the second dense layer of the whole array. -/
theorem tile_dense (c : Dev nD) (t : Fin cfg9.N) (q : Fin 10000) (k : Fin 128) :
    k9_pay5 (F := Ideal) (iblk9 V c 0 t) (iblk9 V c 2 t) (iblk9 V c 3 t) (iblk9 V c 1 t) (iblk9 V c 4 t) (iblk9 V c 5 t) (iblk9 V c 6 t) (ix2 q k) = X2 V c (ix2 (rowK t q) k) := by
  rw [KPayL2.k1pay5_eq, row_blk1, row_blk2, row_blk3, row_blk4, row_blk6, w_blk]
  refine DenseSpec.dense_rows (A1 V c) _ (V c main_v167) (V c main_v138) (rowK t q) q (fun k' => ?_) k
  unfold A1 KPay.normTile
  rw [BatchNormSpec.normRelu_apply, BatchNormSpec.normRelu_apply, tile_apply V c t q k']

/-- What point t writes back is rows 10000·t … of the second dense layer of the whole array. -/
theorem flushed7_eq (c : Dev nD) (t : Fin cfg9.N) :
    (dat9 V c).flushed 7 t = ((cfg9.win 7).blk t).view.read (Elt Ideal) (X2 V c) := by
  obtain ⟨-, -, -, -, -, -, -, -, -, -, -, -, -, -, ea, eb, -⟩ := idx_facts t
  show (cfg9.win 7).cut (grid9.coords t) ((dat9 V c).after 7 t) = _
  rw [after9_7, outsAt_eq V c t.val t.isLt]
  funext j
  obtain ⟨q, k, rfl⟩ : ∃ (q : Fin 10000) (k : Fin 128), j = ix2 q k := ⟨j 0, j 1, eq_ix2 j⟩
  show k9_pay5 (F := Ideal) (iblk9 V c 0 t) (iblk9 V c 2 t) (iblk9 V c 3 t) (iblk9 V c 1 t) (iblk9 V c 4 t) (iblk9 V c 5 t) (iblk9 V c 6 t) (ix2 q k) = X2 V c (((cfg9.win 7).blk t).view.emb (ix2 q k))
  have hemb : ((cfg9.win 7).blk t).view.emb (ix2 q k) = ix2 (rowK t q) k := by
    funext a
    apply Fin.ext
    match a with
    | ⟨0, _⟩ => show win9_7.index t (0 : Fin 2) * 10000 + 1 * q.val = 10000 * t.val + q.val; rw [ea]; omega
    | ⟨1, _⟩ => show win9_7.index t (1 : Fin 2) * 128 + 1 * k.val = k.val; rw [eb]; omega
  rw [hemb]
  exact tile_dense V c t q k

theorem mem_blk7 (t : Fin cfg9.N) (i : S50000x128.Idx) :
    i ∈ ((cfg9.win 7).blk t).view.set ↔ ∀ a : Fin 2, win9_7.index t a * S10000x128.size a ≤ (i a).val
      ∧ (i a).val < win9_7.index t a * S10000x128.size a + S10000x128.size a := by
  show i ∈ ((View.whole main_v168_0).slice (win9_7.rect t)).set ↔ _
  rw [View.set_slice_whole, Rect.mem_set_unit]
  exact Iff.rfl

/-- The first output array when the region ends: the second dense layer of the normalised and rectified whole array. -/
theorem final7 (c : Dev nD) : (dat9 V c).arrAt 7 cfg9.N = X2 V c :=
  (dat9 V c).arrAt_eq_of_cover 7 (X2 V c) (fun t _ => flushed7_eq V c t) fun i => by
    have hi0 : (i 0).val < 50000 := (i 0).isLt
    have hi1 : (i 1).val < 128 := (i 1).isLt
    have hN : cfg9.N = 5 := N_9
    obtain ⟨-, -, -, -, -, -, -, -, -, -, -, -, -, -, ea, eb, -⟩ := idx_facts ⟨(i 0).val / 10000, by omega⟩
    refine ⟨⟨(i 0).val / 10000, by omega⟩, flush9_7 _, ?_⟩
    rw [mem_blk7]
    intro a
    match a with
    | ⟨0, _⟩ =>
      show win9_7.index ⟨(i 0).val / 10000, _⟩ (0 : Fin 2) * 10000 ≤ (i 0).val
        ∧ (i 0).val < win9_7.index ⟨(i 0).val / 10000, _⟩ (0 : Fin 2) * 10000 + 10000
      rw [ea]; dsimp only; omega
    | ⟨1, _⟩ =>
      show win9_7.index ⟨(i 0).val / 10000, _⟩ (1 : Fin 2) * 128 ≤ (i 1).val
        ∧ (i 1).val < win9_7.index ⟨(i 0).val / 10000, _⟩ (1 : Fin 2) * 128 + 128
      rw [eb]; omega

/-! ## The two running rows -/

/-- The last grid point. -/
abbrev tLast : Fin cfg9.N := ⟨4, by rw [show cfg9.N = 5 from N_9]; decide⟩

theorem h4 : 4 < cfg9.N := tLast.isLt

theorem mem_blk8 (t : Fin cfg9.N) (i : S1x128.Idx) :
    i ∈ ((cfg9.win 8).blk t).view.set ↔ ∀ a : Fin 2, win9_8.index t a * S1x128.size a ≤ (i a).val
      ∧ (i a).val < win9_8.index t a * S1x128.size a + S1x128.size a := by
  show i ∈ ((View.whole main_v168_1).slice (win9_8.rect t)).set ↔ _
  rw [View.set_slice_whole, Rect.mem_set_unit]
  exact Iff.rfl

/-- The one write-back of running row 8, after the last point, writes the row as it stands after point 4. -/
theorem flushed8_eq (c : Dev nD) (t : Fin cfg9.N) (hf : (cfg9.win 8).flush t = true) :
    (dat9 V c).flushed 8 t = ((cfg9.win 8).blk t).view.read (Elt Ideal) (acc8 V c 4 h4) := by
  have hN : cfg9.N = 5 := N_9
  have ht : t.val = 4 := by have := (flush9_8 t).mp hf; have := t.isLt; omega
  obtain rfl : t = tLast := Fin.ext ht
  obtain ⟨-, -, -, -, -, -, -, -, -, -, -, -, -, -, -, -, ea, eb, -⟩ := idx_facts tLast
  show (cfg9.win 8).cut (grid9.coords tLast) ((dat9 V c).after 8 tLast) = _
  rw [after9_8, outsAt_eq V c tLast.val tLast.isLt]
  funext j
  show acc8 V c 4 _ j = acc8 V c 4 _ (((cfg9.win 8).blk tLast).view.emb j)
  congr 1
  funext a
  apply Fin.ext
  match a with
  | ⟨0, _⟩ => show (j 0).val = win9_8.index tLast (0 : Fin 2) * 1 + 1 * (j 0).val; rw [ea]; omega
  | ⟨1, _⟩ => show (j 1).val = win9_8.index tLast (1 : Fin 2) * 128 + 1 * (j 1).val; rw [eb]; omega

/-- Running row 8's array when the region ends. -/
theorem final8 (c : Dev nD) : (dat9 V c).arrAt 8 cfg9.N = acc8 V c 4 h4 :=
  (dat9 V c).arrAt_eq_of_cover 8 (acc8 V c 4 h4) (flushed8_eq V c) fun i => by
    have hi0 : (i 0).val < 1 := (i 0).isLt
    have hi1 : (i 1).val < 128 := (i 1).isLt
    obtain ⟨-, -, -, -, -, -, -, -, -, -, -, -, -, -, -, -, ea, eb, -⟩ := idx_facts tLast
    refine ⟨tLast, (flush9_8 tLast).mpr rfl, ?_⟩
    rw [mem_blk8]
    intro a
    match a with
    | ⟨0, _⟩ =>
      show win9_8.index tLast (0 : Fin 2) * 1 ≤ (i 0).val ∧ (i 0).val < win9_8.index tLast (0 : Fin 2) * 1 + 1
      rw [ea]; omega
    | ⟨1, _⟩ =>
      show win9_8.index tLast (1 : Fin 2) * 128 ≤ (i 1).val ∧ (i 1).val < win9_8.index tLast (1 : Fin 2) * 128 + 128
      rw [eb]; omega

theorem mem_blk9 (t : Fin cfg9.N) (i : S1x128.Idx) :
    i ∈ ((cfg9.win 9).blk t).view.set ↔ ∀ a : Fin 2, win9_9.index t a * S1x128.size a ≤ (i a).val
      ∧ (i a).val < win9_9.index t a * S1x128.size a + S1x128.size a := by
  show i ∈ ((View.whole main_v168_2).slice (win9_9.rect t)).set ↔ _
  rw [View.set_slice_whole, Rect.mem_set_unit]
  exact Iff.rfl

/-- The one write-back of running row 9, after the last point, writes the row as it stands after point 4. -/
theorem flushed9_eq (c : Dev nD) (t : Fin cfg9.N) (hf : (cfg9.win 9).flush t = true) :
    (dat9 V c).flushed 9 t = ((cfg9.win 9).blk t).view.read (Elt Ideal) (acc9 V c 4 h4) := by
  have hN : cfg9.N = 5 := N_9
  have ht : t.val = 4 := by have := (flush9_9 t).mp hf; have := t.isLt; omega
  obtain rfl : t = tLast := Fin.ext ht
  obtain ⟨-, -, -, -, -, -, -, -, -, -, -, -, -, -, -, -, -, -, ea, eb⟩ := idx_facts tLast
  show (cfg9.win 9).cut (grid9.coords tLast) ((dat9 V c).after 9 tLast) = _
  rw [after9_9, outsAt_eq V c tLast.val tLast.isLt]
  funext j
  show acc9 V c 4 _ j = acc9 V c 4 _ (((cfg9.win 9).blk tLast).view.emb j)
  congr 1
  funext a
  apply Fin.ext
  match a with
  | ⟨0, _⟩ => show (j 0).val = win9_9.index tLast (0 : Fin 2) * 1 + 1 * (j 0).val; rw [ea]; omega
  | ⟨1, _⟩ => show (j 1).val = win9_9.index tLast (1 : Fin 2) * 128 + 1 * (j 1).val; rw [eb]; omega

/-- Running row 9's array when the region ends. -/
theorem final9 (c : Dev nD) : (dat9 V c).arrAt 9 cfg9.N = acc9 V c 4 h4 :=
  (dat9 V c).arrAt_eq_of_cover 9 (acc9 V c 4 h4) (flushed9_eq V c) fun i => by
    have hi0 : (i 0).val < 1 := (i 0).isLt
    have hi1 : (i 1).val < 128 := (i 1).isLt
    obtain ⟨-, -, -, -, -, -, -, -, -, -, -, -, -, -, -, -, -, -, ea, eb⟩ := idx_facts tLast
    refine ⟨tLast, (flush9_9 tLast).mpr rfl, ?_⟩
    rw [mem_blk9]
    intro a
    match a with
    | ⟨0, _⟩ =>
      show win9_9.index tLast (0 : Fin 2) * 1 ≤ (i 0).val ∧ (i 0).val < win9_9.index tLast (0 : Fin 2) * 1 + 1
      rw [ea]; omega
    | ⟨1, _⟩ =>
      show win9_9.index tLast (1 : Fin 2) * 128 ≤ (i 1).val ∧ (i 1).val < win9_9.index tLast (1 : Fin 2) * 128 + 128
      rw [eb]; omega

/-! ## The running rows are the column sums -/

/-- Running row 8 at column cc, as a sequence in the point (zero past the last point). -/
def A8 (c : Dev nD) (cc : Fin 128) (n : ℕ) : EReal :=
  if h : n < cfg9.N then acc8 V c n h (ix2 (0 : Fin 1) cc) else 0

/-- After the last point, running row 8 holds the column sums of the second dense layer. -/
theorem acc8_eq (c : Dev nD) (cc : Fin 128) :
    acc8 V c 4 h4 (ix2 (0 : Fin 1) cc) = BatchNormSpec.colSum (X2 V c) cc := by
  have hN : cfg9.N = 5 := N_9
  have key := GinTiles.acc_eq_colSum (X2 V c) cc (A8 V c cc) ?h0 ?hs
  · rw [← key]
    unfold A8
    rw [dif_pos h4]
  case h0 =>
    unfold A8
    rw [dif_pos (by omega : 0 < cfg9.N)]
    refine (KPayL2.k1pay1_apply (k9_pay5 (F := Ideal) (iblk9 V c 0 ⟨0, by omega⟩) (iblk9 V c 2 ⟨0, by omega⟩) (iblk9 V c 3 ⟨0, by omega⟩) (iblk9 V c 1 ⟨0, by omega⟩) (iblk9 V c 4 ⟨0, by omega⟩) (iblk9 V c 5 ⟨0, by omega⟩) (iblk9 V c 6 ⟨0, by omega⟩)) (k9_pay3 (F := Ideal)) cc).trans ?_
    rw [KPayL2.k1pay3_apply]
    refine congrArg ((0 : EReal) + ·) ?_
    unfold GinTiles.tileSum
    rw [dif_pos (by norm_num : 0 < 5)]
    exact Finset.sum_congr rfl fun q _ => tile_dense V c ⟨0, by omega⟩ q cc
  case hs =>
    intro n hn
    unfold A8
    rw [dif_pos (by omega : n + 1 < cfg9.N), dif_pos (by omega : n < cfg9.N)]
    refine (KPayL2.k1pay1_apply (k9_pay5 (F := Ideal) (iblk9 V c 0 ⟨n + 1, by omega⟩) (iblk9 V c 2 ⟨n + 1, by omega⟩) (iblk9 V c 3 ⟨n + 1, by omega⟩) (iblk9 V c 1 ⟨n + 1, by omega⟩) (iblk9 V c 4 ⟨n + 1, by omega⟩) (iblk9 V c 5 ⟨n + 1, by omega⟩) (iblk9 V c 6 ⟨n + 1, by omega⟩)) (acc8 V c n (by omega)) cc).trans ?_
    refine congrArg (acc8 V c n (by omega) (ix2 (0 : Fin 1) cc) + ·) ?_
    unfold GinTiles.tileSum
    rw [dif_pos hn]
    exact Finset.sum_congr rfl fun q _ => tile_dense V c ⟨n + 1, by omega⟩ q cc

/-- Running row 9 at column cc, as a sequence in the point (zero past the last point). -/
def A9 (c : Dev nD) (cc : Fin 128) (n : ℕ) : EReal :=
  if h : n < cfg9.N then acc9 V c n h (ix2 (0 : Fin 1) cc) else 0

/-- After the last point, running row 9 holds the column sums of squares of the second dense layer. -/
theorem acc9_eq (c : Dev nD) (cc : Fin 128) :
    acc9 V c 4 h4 (ix2 (0 : Fin 1) cc) = BatchNormSpec.colSumSq (X2 V c) cc := by
  have hN : cfg9.N = 5 := N_9
  have key := GinTiles.acc_eq_colSumSq (X2 V c) cc (A9 V c cc) ?h0 ?hs
  · rw [← key]
    unfold A9
    rw [dif_pos h4]
  case h0 =>
    unfold A9
    rw [dif_pos (by omega : 0 < cfg9.N)]
    refine (KPayL2.k1pay2_apply (k9_pay5 (F := Ideal) (iblk9 V c 0 ⟨0, by omega⟩) (iblk9 V c 2 ⟨0, by omega⟩) (iblk9 V c 3 ⟨0, by omega⟩) (iblk9 V c 1 ⟨0, by omega⟩) (iblk9 V c 4 ⟨0, by omega⟩) (iblk9 V c 5 ⟨0, by omega⟩) (iblk9 V c 6 ⟨0, by omega⟩)) (k9_pay4 (F := Ideal)) cc).trans ?_
    rw [KPayL2.k1pay4_apply]
    refine congrArg ((0 : EReal) + ·) ?_
    unfold GinTiles.tileSum
    rw [dif_pos (by norm_num : 0 < 5)]
    exact Finset.sum_congr rfl fun q _ => congrArg₂ (· * ·) (tile_dense V c ⟨0, by omega⟩ q cc) (tile_dense V c ⟨0, by omega⟩ q cc)
  case hs =>
    intro n hn
    unfold A9
    rw [dif_pos (by omega : n + 1 < cfg9.N), dif_pos (by omega : n < cfg9.N)]
    refine (KPayL2.k1pay2_apply (k9_pay5 (F := Ideal) (iblk9 V c 0 ⟨n + 1, by omega⟩) (iblk9 V c 2 ⟨n + 1, by omega⟩) (iblk9 V c 3 ⟨n + 1, by omega⟩) (iblk9 V c 1 ⟨n + 1, by omega⟩) (iblk9 V c 4 ⟨n + 1, by omega⟩) (iblk9 V c 5 ⟨n + 1, by omega⟩) (iblk9 V c 6 ⟨n + 1, by omega⟩)) (acc9 V c n (by omega)) cc).trans ?_
    refine congrArg (acc9 V c n (by omega) (ix2 (0 : Fin 1) cc) + ·) ?_
    unfold GinTiles.tileSum
    rw [dif_pos hn]
    exact Finset.sum_congr rfl fun q _ => congrArg₂ (· * ·) (tile_dense V c ⟨n + 1, by omega⟩ q cc) (tile_dense V c ⟨n + 1, by omega⟩ q cc)

end Cert.KernelIdeal.R9

end
-- ==== Proof.R10Value.lean ====
/- The third kernel of layer 3 of the five, read as values, at any float instance. At each of its five grid points the kernel
   normalises, scales, shifts and rectifies the point's tile of 10000 rows with the four statistics rows and stores the
   tile, and keeps two running rows: at the first point it sets them to the zero row plus the column sums of the stored
   tile and of its squares; at every later point it adds the tile's column sums to what the point before left. So after
   point n the three output buffers hold tile n's result and the two accumulations over tiles 0..n, by induction on
   the point. -/
import proofs.«113410_j5944234737805_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R10

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem out_A_5 (c : Dev nD) (i : grid10.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond10_0 i)
    (x0 : Vec F S10000x128 .f32) (x1 : Vec F S1x128 .f32) (x2 : Vec F S1x128 .f32) (x3 : Vec F S1x128 .f32) (x4 : Vec F S1x128 .f32) :
    out10_A_5 c i a1 h1 a2 h2 a3 h3 a4 h4 a5 h5 a6 h6 a7 h7 a8 h8 hc x0 x1 x2 x3 x4 = k10_pay4 x0 x2 x3 x1 x4 := by
  unfold out10_A_5
  rw [View.read_writes_eq_canon _ _ _ (cover10_A_5 c i a1 h1 a2 h2 a3 h3 a4 h4 a5 h5 a6 h6 a7 h7 a8 h8 hc x0 x1 x2 x3 x4)]
  unfold kernelRun10_A
  dsimp only
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_A_6 (c : Dev nD) (i : grid10.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond10_0 i)
    (x0 : Vec F S10000x128 .f32) (x1 : Vec F S1x128 .f32) (x2 : Vec F S1x128 .f32) (x3 : Vec F S1x128 .f32) (x4 : Vec F S1x128 .f32) :
    out10_A_6 c i a1 h1 a2 h2 a3 h3 a4 h4 a5 h5 a6 h6 a7 h7 a8 h8 hc x0 x1 x2 x3 x4 = k10_pay5 x0 x2 x3 x1 x4 k10_pay2 := by
  unfold out10_A_6
  rw [View.read_writes_eq_canon _ _ _ (cover10_A_6 c i a1 h1 a2 h2 a3 h3 a4 h4 a5 h5 a6 h6 a7 h7 a8 h8 hc x0 x1 x2 x3 x4)]
  unfold kernelRun10_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_A_7 (c : Dev nD) (i : grid10.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond10_0 i)
    (x0 : Vec F S10000x128 .f32) (x1 : Vec F S1x128 .f32) (x2 : Vec F S1x128 .f32) (x3 : Vec F S1x128 .f32) (x4 : Vec F S1x128 .f32) :
    out10_A_7 c i a1 h1 a2 h2 a3 h3 a4 h4 a5 h5 a6 h6 a7 h7 a8 h8 hc x0 x1 x2 x3 x4 = k10_pay1 (k10_pay4 x0 x2 x3 x1 x4) k10_pay3 := by
  unfold out10_A_7
  rw [View.read_writes_eq_canon _ _ _ (cover10_A_7 c i a1 h1 a2 h2 a3 h3 a4 h4 a5 h5 a6 h6 a7 h7 a8 h8 hc x0 x1 x2 x3 x4)]
  unfold kernelRun10_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_B_5 (c : Dev nD) (i : grid10.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond10_0 i)
    (x0 : Vec F S10000x128 .f32) (x1 : Vec F S1x128 .f32) (x2 : Vec F S1x128 .f32) (x3 : Vec F S1x128 .f32) (x4 : Vec F S1x128 .f32) (xo6 xo7 : Vec F S1x128 .f32) :
    out10_B_5 c i a1 h1 a2 h2 a3 h3 a4 h4 a5 h5 a6 h6 a7 h7 a8 h8 hc x0 x1 x2 x3 x4 xo6 xo7 = k10_pay4 x0 x2 x3 x1 x4 := by
  unfold out10_B_5
  rw [View.read_writes_eq_canon _ _ _ (cover10_B_5 c i a1 h1 a2 h2 a3 h3 a4 h4 a5 h5 a6 h6 a7 h7 a8 h8 hc x0 x1 x2 x3 x4 xo6 xo7)]
  unfold kernelRun10_B
  dsimp only
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_B_6 (c : Dev nD) (i : grid10.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond10_0 i)
    (x0 : Vec F S10000x128 .f32) (x1 : Vec F S1x128 .f32) (x2 : Vec F S1x128 .f32) (x3 : Vec F S1x128 .f32) (x4 : Vec F S1x128 .f32) (xo6 xo7 : Vec F S1x128 .f32) :
    out10_B_6 c i a1 h1 a2 h2 a3 h3 a4 h4 a5 h5 a6 h6 a7 h7 a8 h8 hc x0 x1 x2 x3 x4 xo6 xo7 = k10_pay5 x0 x2 x3 x1 x4 xo6 := by
  unfold out10_B_6
  rw [View.read_writes_eq_canon _ _ _ (cover10_B_6 c i a1 h1 a2 h2 a3 h3 a4 h4 a5 h5 a6 h6 a7 h7 a8 h8 hc x0 x1 x2 x3 x4 xo6 xo7)]
  unfold kernelRun10_B
  dsimp only
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_B_7 (c : Dev nD) (i : grid10.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond10_0 i)
    (x0 : Vec F S10000x128 .f32) (x1 : Vec F S1x128 .f32) (x2 : Vec F S1x128 .f32) (x3 : Vec F S1x128 .f32) (x4 : Vec F S1x128 .f32) (xo6 xo7 : Vec F S1x128 .f32) :
    out10_B_7 c i a1 h1 a2 h2 a3 h3 a4 h4 a5 h5 a6 h6 a7 h7 a8 h8 hc x0 x1 x2 x3 x4 xo6 xo7 = k10_pay1 (k10_pay4 x0 x2 x3 x1 x4) xo7 := by
  unfold out10_B_7
  rw [View.read_writes_eq_canon _ _ _ (cover10_B_7 c i a1 h1 a2 h2 a3 h3 a4 h4 a5 h5 a6 h6 a7 h7 a8 h8 hc x0 x1 x2 x3 x4 xo6 xo7)]
  unfold kernelRun10_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

/-- The first running row after point n. -/
def acc6 (c : Dev nD) : (n : ℕ) → n < cfg10.N → Vec F S1x128 .f32
  | 0, h => k10_pay5 (iblk10 V c 0 ⟨0, h⟩) (iblk10 V c 2 ⟨0, h⟩) (iblk10 V c 3 ⟨0, h⟩) (iblk10 V c 1 ⟨0, h⟩) (iblk10 V c 4 ⟨0, h⟩) k10_pay2
  | n + 1, h => k10_pay5 (iblk10 V c 0 ⟨n + 1, h⟩) (iblk10 V c 2 ⟨n + 1, h⟩) (iblk10 V c 3 ⟨n + 1, h⟩) (iblk10 V c 1 ⟨n + 1, h⟩) (iblk10 V c 4 ⟨n + 1, h⟩) (acc6 c n (Nat.lt_of_succ_lt h))

/-- The second running row after point n. -/
def acc7 (c : Dev nD) : (n : ℕ) → n < cfg10.N → Vec F S1x128 .f32
  | 0, h => k10_pay1 (k10_pay4 (iblk10 V c 0 ⟨0, h⟩) (iblk10 V c 2 ⟨0, h⟩) (iblk10 V c 3 ⟨0, h⟩) (iblk10 V c 1 ⟨0, h⟩) (iblk10 V c 4 ⟨0, h⟩)) k10_pay3
  | n + 1, h => k10_pay1 (k10_pay4 (iblk10 V c 0 ⟨n + 1, h⟩) (iblk10 V c 2 ⟨n + 1, h⟩) (iblk10 V c 3 ⟨n + 1, h⟩) (iblk10 V c 1 ⟨n + 1, h⟩) (iblk10 V c 4 ⟨n + 1, h⟩)) (acc7 c n (Nat.lt_of_succ_lt h))

/-- After point n the three output buffers hold the tile's result and the two running rows. By induction on the point. -/
theorem outsAt_eq (c : Dev nD) : ∀ (n : ℕ) (h : n < cfg10.N),
    outsAt10 V c n h = (k10_pay4 (iblk10 V c 0 ⟨n, h⟩) (iblk10 V c 2 ⟨n, h⟩) (iblk10 V c 3 ⟨n, h⟩) (iblk10 V c 1 ⟨n, h⟩) (iblk10 V c 4 ⟨n, h⟩), acc6 V c n h, acc7 V c n h)
  | 0, h => (outsAt10_A V c ⟨0, h⟩ rfl).trans (by
      rw [out_A_5, out_A_6, out_A_7]
      rfl)
  | n + 1, h => by
    have hN : cfg10.N = 5 := N_10
    have hB : ¬(⟨n + 1, h⟩ : Fin cfg10.N).val % 5 = 0 := by dsimp only; omega
    rw [outsAt10_B V c ⟨n + 1, h⟩ hB, out_B_5, out_B_6, out_B_7]
    show (k10_pay4 _ _ _ _ _, k10_pay5 _ _ _ _ _ (outsAt10 V c n _).2.1, k10_pay1 (k10_pay4 _ _ _ _ _) (outsAt10 V c n _).2.2)
      = (k10_pay4 _ _ _ _ _, k10_pay5 _ _ _ _ _ (acc6 V c n _), k10_pay1 (k10_pay4 _ _ _ _ _) (acc7 V c n _))
    rw [outsAt_eq c n]

end Cert.KernelIdeal.R10
-- ==== Proof.R11Value.lean ====
/- Region 3 of the idealized kernel program: the fourth kernel of layer 3 of the five, read as one function of the arrays
   it finds.

   The kernel's grid has five points; point t loads rows 10000·t … 10000·t + 9999 of the 50000 × 128 source and the
   four 1 × 128 rows (mean, variance, scale, shift), whole at every point, and stores one 10000 × 128 tile: entry
   (q, k) is `max (scale(k) · (x(q,k) − mean(k)) · rsqrt (variance(k) + ε) + shift(k)) 0`. The single store covers the
   staging buffer, so what the body leaves there is its payload (`out_eq`). Tile t is written back to rows
   10000·t … of the output, and every row r of the output belongs to tile r / 10000, so after the five points the
   output array is the normalise-scale-shift-rectify function of the whole source and the four rows, entry by entry
   (`final5`): an entry of a tile reads the source at the same row of the whole array and each statistics row at the
   same column. The five input arrays are left as found (`arr_in`). -/
import proofs.«113410_j5944234737805_1_alg».proof.Proof.Gen.KernelIdeal.Frame
import proofs.«113410_j5944234737805_1_alg».proof.Proof.KPay1_L2
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R11

open Cert.KernelIdeal Cert.KernelIdeal.Gen Idealize.ShloMosaic.ValueIdx

theorem hz : (![0, 0] : Fin 2 → Nat) = fun _ => 0 := funext fun a => by fin_cases a <;> rfl

section AnyValues

variable {F : FTy → Type} [FloatOps F]
variable (V : (c : Dev nD) → (b : Ref sig .tc) → Buf (Elt F) ((c : Thread nD τ).loc b))

/-- The body's one store covers the staging buffer, so the buffer ends holding the store's payload of the loaded
    blocks. -/
theorem out_eq (x0 : Vec F S10000x128 .f32) (x1 x2 x3 x4 : Vec F S1x128 .f32) :
    out11_5 x0 x1 x2 x3 x4 = k11_pay1 x0 x2 x3 x1 x4 := by
  unfold out11_5
  rw [View.canon_unit_zero hz]
  simp only [View.ld_unit_zero (S := S10000x128) hz, View.ld_unit_zero (S := S1x128) hz]

/-- The input windows' arrays end as the region found them. -/
theorem arr_in (c : Dev nD) (w : Fin cfg11.W) (hin : (cfg11.win w).isOut = false) :
    (dat11 V c).arrAt w cfg11.N = V c (Pipeline.arrRef spec11 w) :=
  ((dat11 V c).arrAt_in w hin _).trans (A_eq11 V c w)

theorem arr_in0 (c : Dev nD) : (dat11 V c).arrAt 0 cfg11.N = V c (Pipeline.arrRef spec11 0) := arr_in V c 0 rfl
theorem arr_in1 (c : Dev nD) : (dat11 V c).arrAt 1 cfg11.N = V c (Pipeline.arrRef spec11 1) := arr_in V c 1 rfl
theorem arr_in2 (c : Dev nD) : (dat11 V c).arrAt 2 cfg11.N = V c (Pipeline.arrRef spec11 2) := arr_in V c 2 rfl
theorem arr_in3 (c : Dev nD) : (dat11 V c).arrAt 3 cfg11.N = V c (Pipeline.arrRef spec11 3) := arr_in V c 3 rfl
theorem arr_in4 (c : Dev nD) : (dat11 V c).arrAt 4 cfg11.N = V c (Pipeline.arrRef spec11 4) := arr_in V c 4 rfl

end AnyValues

/-- The printed index maps over the five points: the source tile moves with the output tile, which is tile `t`; every
    row window sits at block (0, 0). -/
theorem idx_facts : ∀ t : Fin cfg11.N, win11_0.index t (0 : Fin 2) = win11_5.index t (0 : Fin 2)
    ∧ win11_0.index t (1 : Fin 2) = 0 ∧ win11_5.index t (1 : Fin 2) = 0 ∧ win11_5.index t (0 : Fin 2) = t.val
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0 :=
  (by decide +kernel : ∀ t : Fin grid11.N, _)

/-- Normalise-scale-shift-rectify at an entry depends on the data at that entry and on the four rows at its column. -/
theorem normRelu_congr {N N' D : Nat} (e z : EReal) (x : BatchNormSpec.Mat N D) (x' : BatchNormSpec.Mat N' D)
    (μ v g b μ' v' g' b' : Fin D → EReal) (i : (⟨2, ![N, D]⟩ : Shape).Idx) (i' : (⟨2, ![N', D]⟩ : Shape).Idx)
    (hx : x i = x' i') (hμ : μ (i 1) = μ' (i' 1)) (hv : v (i 1) = v' (i' 1)) (hg : g (i 1) = g' (i' 1))
    (hb : b (i 1) = b' (i' 1)) :
    BatchNormSpec.normRelu e z x μ v g b i = BatchNormSpec.normRelu e z x' μ' v' g' b' i' := by
  unfold BatchNormSpec.normRelu
  rw [hx, hμ, hv, hg, hb]

section Exact

variable (V : (c : Dev nD) → (b : Ref sig .tc) → Buf (Elt Ideal) ((c : Thread nD τ).loc b))

/-- What the output array ends holding: the normalised, scaled, shifted and rectified source, with the four rows. -/
abbrev G (c : Dev nD) : BatchNormSpec.Mat 50000 128 :=
  BatchNormSpec.normRelu (Ideal.ofBits .f32 0x3727C5AC#32) (Ideal.ofBits .f32 0x00000000#32) (V c main_v175_0)
    (KPay.rowAt (V c main_v177)) (KPay.rowAt (V c main_v181)) (KPay.rowAt (V c main_v153)) (KPay.rowAt (V c main_v156))

/-- What point `t` writes back is tile `t` of that function. -/
theorem flushed5_eq (c : Dev nD) (t : Fin cfg11.N) :
    (dat11 V c).flushed 5 t = ((cfg11.win 5).blk t).view.read (Elt Ideal) (G V c) := by
  show (cfg11.win 5).cut (grid11.coords t) ((dat11 V c).after 5 t) = _
  rw [after11_5, out_eq, KPayL2.k3pay1_eq]
  obtain ⟨f0, f1, f5, ft, a10, a11, a20, a21, a30, a31, a40, a41⟩ := idx_facts t
  funext j
  show KPay.normTile (iblk11 V c 0 t) (iblk11 V c 1 t) (iblk11 V c 2 t) (iblk11 V c 3 t) (iblk11 V c 4 t) j
    = G V c (((cfg11.win 5).blk t).view.emb j)
  refine normRelu_congr _ _ _ _ _ _ _ _ _ _ _ _ j (((cfg11.win 5).blk t).view.emb j) ?_ ?_ ?_ ?_ ?_
  · show V c main_v175_0 (((cfg11.win 0).blk t).view.emb j) = V c main_v175_0 (((cfg11.win 5).blk t).view.emb j)
    refine congrArg _ (funext fun a => Fin.ext ?_)
    match a with
    | ⟨0, _⟩ =>
      show win11_0.index t (0 : Fin 2) * 10000 + 1 * (j 0).val = win11_5.index t (0 : Fin 2) * 10000 + 1 * (j 0).val
      omega
    | ⟨1, _⟩ =>
      show win11_0.index t (1 : Fin 2) * 128 + 1 * (j 1).val = win11_5.index t (1 : Fin 2) * 128 + 1 * (j 1).val
      omega
  · show V c main_v177 (((cfg11.win 1).blk t).view.emb (ix2 (0 : Fin 1) (j 1)))
      = V c main_v177 (ix2 (0 : Fin 1) ((((cfg11.win 5).blk t).view.emb j) 1))
    refine congrArg _ (funext fun a => Fin.ext ?_)
    match a with
    | ⟨0, _⟩ => show win11_1.index t (0 : Fin 2) * 1 + 1 * 0 = 0; omega
    | ⟨1, _⟩ =>
      show win11_1.index t (1 : Fin 2) * 128 + 1 * (j 1).val = win11_5.index t (1 : Fin 2) * 128 + 1 * (j 1).val
      omega
  · show V c main_v181 (((cfg11.win 2).blk t).view.emb (ix2 (0 : Fin 1) (j 1)))
      = V c main_v181 (ix2 (0 : Fin 1) ((((cfg11.win 5).blk t).view.emb j) 1))
    refine congrArg _ (funext fun a => Fin.ext ?_)
    match a with
    | ⟨0, _⟩ => show win11_2.index t (0 : Fin 2) * 1 + 1 * 0 = 0; omega
    | ⟨1, _⟩ =>
      show win11_2.index t (1 : Fin 2) * 128 + 1 * (j 1).val = win11_5.index t (1 : Fin 2) * 128 + 1 * (j 1).val
      omega
  · show V c main_v153 (((cfg11.win 3).blk t).view.emb (ix2 (0 : Fin 1) (j 1)))
      = V c main_v153 (ix2 (0 : Fin 1) ((((cfg11.win 5).blk t).view.emb j) 1))
    refine congrArg _ (funext fun a => Fin.ext ?_)
    match a with
    | ⟨0, _⟩ => show win11_3.index t (0 : Fin 2) * 1 + 1 * 0 = 0; omega
    | ⟨1, _⟩ =>
      show win11_3.index t (1 : Fin 2) * 128 + 1 * (j 1).val = win11_5.index t (1 : Fin 2) * 128 + 1 * (j 1).val
      omega
  · show V c main_v156 (((cfg11.win 4).blk t).view.emb (ix2 (0 : Fin 1) (j 1)))
      = V c main_v156 (ix2 (0 : Fin 1) ((((cfg11.win 5).blk t).view.emb j) 1))
    refine congrArg _ (funext fun a => Fin.ext ?_)
    match a with
    | ⟨0, _⟩ => show win11_4.index t (0 : Fin 2) * 1 + 1 * 0 = 0; omega
    | ⟨1, _⟩ =>
      show win11_4.index t (1 : Fin 2) * 128 + 1 * (j 1).val = win11_5.index t (1 : Fin 2) * 128 + 1 * (j 1).val
      omega

/-- An index of the output array is in point `t`'s tile iff each coordinate is in the tile's range on its axis. -/
theorem mem_blk5 (t : Fin cfg11.N) (i : S50000x128.Idx) :
    i ∈ ((cfg11.win 5).blk t).view.set ↔ ∀ a : Fin 2, win11_5.index t a * S10000x128.size a ≤ (i a).val
      ∧ (i a).val < win11_5.index t a * S10000x128.size a + S10000x128.size a := by
  show i ∈ ((View.whole main_v182).slice (win11_5.rect t)).set ↔ _
  rw [View.set_slice_whole, Rect.mem_set_unit]
  exact Iff.rfl

/-- Every entry of the output array is in some point's tile: row `r` is in tile `r / 10000`. -/
theorem cover5 (i : S50000x128.Idx) :
    ∃ t : Fin cfg11.N, (cfg11.win 5).flush t = true ∧ i ∈ ((cfg11.win 5).blk t).view.set := by
  have hi0 : (i 0).val < 50000 := (i 0).isLt
  have hi1 : (i 1).val < 128 := (i 1).isLt
  have hN : grid11.N = 5 := N_11
  let t : Fin cfg11.N := ⟨(i 0).val / 10000, by show (i 0).val / 10000 < grid11.N; omega⟩
  obtain ⟨f0, f1, f5, ft, -⟩ := idx_facts t
  have htv : t.val = (i 0).val / 10000 := rfl
  refine ⟨t, flush11_5 t, ?_⟩
  rw [mem_blk5]
  intro a
  match a with
  | ⟨0, _⟩ =>
    show win11_5.index t (0 : Fin 2) * 10000 ≤ (i 0).val ∧ (i 0).val < win11_5.index t (0 : Fin 2) * 10000 + 10000
    omega
  | ⟨1, _⟩ =>
    show win11_5.index t (1 : Fin 2) * 128 ≤ (i 1).val ∧ (i 1).val < win11_5.index t (1 : Fin 2) * 128 + 128
    omega

/-- THE OUTPUT ARRAY after the region: the normalised, scaled, shifted and rectified source, entry by entry. -/
theorem final5 (c : Dev nD) : (dat11 V c).arrAt 5 cfg11.N = G V c :=
  (dat11 V c).arrAt_eq_of_cover 5 (G V c) (fun t _ => flushed5_eq V c t) (cover5)

end Exact

end Cert.KernelIdeal.R11

end
-- ==== Proof.R10Array.lean ====
/- The third kernel of layer 3 of the five: what its three output arrays hold when the region ends, at the exact values.

   The grid has five points; point t reads rows 10000·t … 10000·t + 9999 of the source and the four statistics rows,
   whole at every point, and writes back the same rows of the first output. An entry of a tile's result depends on the
   source at that entry and on the rows at its column, so tile t's result is rows 10000·t … of the normalise-scale-
   shift-rectify function of the whole source; the tiles cover the array, which therefore ends holding that function.
   The two running rows are written back once, after the last point, as they stand then: tile by tile they started from
   the zero row and added each tile's column sums (of the result, and of its squares), and a sum over the 50000 rows is
   the sum over the five tiles of the tiles' sums, so they end at the column sums and the column sums of squares of the
   whole result. -/
import proofs.«113410_j5944234737805_1_alg».proof.Proof.R10Value
import proofs.«113410_j5944234737805_1_alg».proof.Proof.R11Value
import proofs.«113410_j5944234737805_1_alg».proof.Proof.KPay1_L2
import proofs.«113410_j5944234737805_1_alg».proof.Proof.GinTiles
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.R10

open Cert.KernelIdeal Cert.KernelIdeal.Gen

variable (V : (c : Dev nD) → (b : Ref sig .tc) → Buf (Elt Ideal) ((c : Thread nD τ).loc b))

/-- The block indices of the eight windows at each grid point: the two tile windows move with the point, the rows stay. -/
theorem idx_facts : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0
    ∧ win10_6.index t (0 : Fin 2) = 0 ∧ win10_6.index t (1 : Fin 2) = 0
    ∧ win10_7.index t (0 : Fin 2) = 0 ∧ win10_7.index t (1 : Fin 2) = 0 :=
  (by decide +kernel : ∀ t : Fin grid10.N, _)

/-- Row q of the tile of point t. -/
abbrev rowK (t : Fin cfg10.N) (q : Fin 10000) : Fin 50000 :=
  ⟨10000 * t.val + q.val, by have := t.isLt; have hN : cfg10.N = 5 := N_10; have := q.isLt; omega⟩

/-- The source tile of point t, read through its window, is rows 10000·t + q of the source array. -/
theorem tile_apply (c : Dev nD) (t : Fin cfg10.N) (q : Fin 10000) (k : Fin 128) :
    iblk10 V c 0 t (ix2 q k) = V c main_v168_0 (ix2 (rowK t q) k) := by
  obtain ⟨e0, e1, -⟩ := idx_facts t
  unfold iblk10
  rw [View.read_apply]
  show V c main_v168_0 _ = V c main_v168_0 _
  congr 1
  funext a
  apply Fin.ext
  match a with
  | ⟨0, _⟩ => show win10_0.index t (0 : Fin 2) * 10000 + 1 * q.val = 10000 * t.val + q.val; rw [e0]; omega
  | ⟨1, _⟩ => show win10_0.index t (1 : Fin 2) * 128 + 1 * k.val = k.val; rw [e1]; omega

/-- Window 1's block at every point is its whole row. -/
theorem row_blk1 (c : Dev nD) (t : Fin cfg10.N) : iblk10 V c 1 t = V c main_v170 := by
  obtain ⟨-, -, e10, e11, e20, e21, e30, e31, e40, e41, -⟩ := idx_facts t
  funext j
  unfold iblk10
  rw [View.read_apply]
  show V c main_v170 _ = V c main_v170 j
  congr 1
  funext a
  apply Fin.ext
  match a with
  | ⟨0, _⟩ => show win10_1.index t (0 : Fin 2) * 1 + 1 * (j 0).val = (j 0).val; rw [e10]; omega
  | ⟨1, _⟩ => show win10_1.index t (1 : Fin 2) * 128 + 1 * (j 1).val = (j 1).val; rw [e11]; omega

/-- Window 2's block at every point is its whole row. -/
theorem row_blk2 (c : Dev nD) (t : Fin cfg10.N) : iblk10 V c 2 t = V c main_v174 := by
  obtain ⟨-, -, e10, e11, e20, e21, e30, e31, e40, e41, -⟩ := idx_facts t
  funext j
  unfold iblk10
  rw [View.read_apply]
  show V c main_v174 _ = V c main_v174 j
  congr 1
  funext a
  apply Fin.ext
  match a with
  | ⟨0, _⟩ => show win10_2.index t (0 : Fin 2) * 1 + 1 * (j 0).val = (j 0).val; rw [e20]; omega
  | ⟨1, _⟩ => show win10_2.index t (1 : Fin 2) * 128 + 1 * (j 1).val = (j 1).val; rw [e21]; omega

/-- Window 3's block at every point is its whole row. -/
theorem row_blk3 (c : Dev nD) (t : Fin cfg10.N) : iblk10 V c 3 t = V c main_v147 := by
  obtain ⟨-, -, e10, e11, e20, e21, e30, e31, e40, e41, -⟩ := idx_facts t
  funext j
  unfold iblk10
  rw [View.read_apply]
  show V c main_v147 _ = V c main_v147 j
  congr 1
  funext a
  apply Fin.ext
  match a with
  | ⟨0, _⟩ => show win10_3.index t (0 : Fin 2) * 1 + 1 * (j 0).val = (j 0).val; rw [e30]; omega
  | ⟨1, _⟩ => show win10_3.index t (1 : Fin 2) * 128 + 1 * (j 1).val = (j 1).val; rw [e31]; omega

/-- Window 4's block at every point is its whole row. -/
theorem row_blk4 (c : Dev nD) (t : Fin cfg10.N) : iblk10 V c 4 t = V c main_v150 := by
  obtain ⟨-, -, e10, e11, e20, e21, e30, e31, e40, e41, -⟩ := idx_facts t
  funext j
  unfold iblk10
  rw [View.read_apply]
  show V c main_v150 _ = V c main_v150 j
  congr 1
  funext a
  apply Fin.ext
  match a with
  | ⟨0, _⟩ => show win10_4.index t (0 : Fin 2) * 1 + 1 * (j 0).val = (j 0).val; rw [e40]; omega
  | ⟨1, _⟩ => show win10_4.index t (1 : Fin 2) * 128 + 1 * (j 1).val = (j 1).val; rw [e41]; omega

/-- What the first output array ends holding: the normalised, scaled, shifted and rectified source. -/
abbrev A2 (c : Dev nD) : BatchNormSpec.Mat 50000 128 :=
  BatchNormSpec.normRelu (Ideal.ofBits .f32 0x3727C5AC#32) (Ideal.ofBits .f32 0x00000000#32) (V c main_v168_0)
    (KPay.rowAt (V c main_v170)) (KPay.rowAt (V c main_v174)) (KPay.rowAt (V c main_v147)) (KPay.rowAt (V c main_v150))

/-- The result on a tile is the matching rows of the result on the whole source. -/
theorem tile_norm (c : Dev nD) (t : Fin cfg10.N) (q : Fin 10000) (k : Fin 128) :
    KPay.normTile (iblk10 V c 0 t) (iblk10 V c 1 t) (iblk10 V c 2 t) (iblk10 V c 3 t) (iblk10 V c 4 t) (ix2 q k)
      = A2 V c (ix2 (rowK t q) k) := by
  rw [row_blk1, row_blk2, row_blk3, row_blk4]
  exact R11.normRelu_congr _ _ _ _ _ _ _ _ _ _ _ _ (ix2 q k) (ix2 (rowK t q) k) (tile_apply V c t q k) rfl rfl rfl rfl

/-- What point t writes back to the first output is rows 10000·t … of that function. -/
theorem flushed5_eq (c : Dev nD) (t : Fin cfg10.N) :
    (dat10 V c).flushed 5 t = ((cfg10.win 5).blk t).view.read (Elt Ideal) (A2 V c) := by
  obtain ⟨-, -, -, -, -, -, -, -, -, -, e50, e51, -⟩ := idx_facts t
  show (cfg10.win 5).cut (grid10.coords t) ((dat10 V c).after 5 t) = _
  rw [after10_5, outsAt_eq V c t.val t.isLt]
  funext j
  obtain ⟨q, k, rfl⟩ : ∃ (q : Fin 10000) (k : Fin 128), j = ix2 q k := ⟨j 0, j 1, eq_ix2 j⟩
  show k10_pay4 (iblk10 V c 0 t) (iblk10 V c 2 t) (iblk10 V c 3 t) (iblk10 V c 1 t) (iblk10 V c 4 t) (ix2 q k) = A2 V c (((cfg10.win 5).blk t).view.emb (ix2 q k))
  rw [KPayL2.k2pay4_eq]
  have hemb : ((cfg10.win 5).blk t).view.emb (ix2 q k) = ix2 (rowK t q) k := by
    funext a
    apply Fin.ext
    match a with
    | ⟨0, _⟩ => show win10_5.index t (0 : Fin 2) * 10000 + 1 * q.val = 10000 * t.val + q.val; rw [e50]; omega
    | ⟨1, _⟩ => show win10_5.index t (1 : Fin 2) * 128 + 1 * k.val = k.val; rw [e51]; omega
  rw [hemb]
  exact tile_norm V c t q k

/-- An index of the first output array is in point t's block iff each coordinate is in the block's range. -/
theorem mem_blk5 (t : Fin cfg10.N) (i : S50000x128.Idx) :
    i ∈ ((cfg10.win 5).blk t).view.set ↔ ∀ a : Fin 2, win10_5.index t a * S10000x128.size a ≤ (i a).val
      ∧ (i a).val < win10_5.index t a * S10000x128.size a + S10000x128.size a := by
  show i ∈ ((View.whole main_v175_0).slice (win10_5.rect t)).set ↔ _
  rw [View.set_slice_whole, Rect.mem_set_unit]
  exact Iff.rfl

/-- The first output array when the region ends. -/
theorem final5 (c : Dev nD) : (dat10 V c).arrAt 5 cfg10.N = A2 V c :=
  (dat10 V c).arrAt_eq_of_cover 5 (A2 V c) (fun t _ => flushed5_eq V c t) fun i => by
    have hi0 : (i 0).val < 50000 := (i 0).isLt
    have hi1 : (i 1).val < 128 := (i 1).isLt
    have hN : cfg10.N = 5 := N_10
    obtain ⟨-, -, -, -, -, -, -, -, -, -, e50, e51, -⟩ := idx_facts ⟨(i 0).val / 10000, by omega⟩
    refine ⟨⟨(i 0).val / 10000, by omega⟩, flush10_5 _, ?_⟩
    rw [mem_blk5]
    intro a
    match a with
    | ⟨0, _⟩ =>
      show win10_5.index ⟨(i 0).val / 10000, _⟩ (0 : Fin 2) * 10000 ≤ (i 0).val
        ∧ (i 0).val < win10_5.index ⟨(i 0).val / 10000, _⟩ (0 : Fin 2) * 10000 + 10000
      rw [e50]; dsimp only; omega
    | ⟨1, _⟩ =>
      show win10_5.index ⟨(i 0).val / 10000, _⟩ (1 : Fin 2) * 128 ≤ (i 1).val
        ∧ (i 1).val < win10_5.index ⟨(i 0).val / 10000, _⟩ (1 : Fin 2) * 128 + 128
      rw [e51]; omega

/-! ## The two running rows -/

/-- The last grid point. -/
abbrev tLast : Fin cfg10.N := ⟨4, by rw [show cfg10.N = 5 from N_10]; decide⟩

/-- Point 4 is a point of the grid. -/
theorem h4 : 4 < cfg10.N := tLast.isLt

/-- An index of running row 6's array is in point t's block iff each coordinate is in the block's range. -/
theorem mem_blk6 (t : Fin cfg10.N) (i : S1x128.Idx) :
    i ∈ ((cfg10.win 6).blk t).view.set ↔ ∀ a : Fin 2, win10_6.index t a * S1x128.size a ≤ (i a).val
      ∧ (i a).val < win10_6.index t a * S1x128.size a + S1x128.size a := by
  show i ∈ ((View.whole main_v175_1).slice (win10_6.rect t)).set ↔ _
  rw [View.set_slice_whole, Rect.mem_set_unit]
  exact Iff.rfl

/-- The one write-back of running row 6, after the last point, writes the row as it stands after point 4. -/
theorem flushed6_eq (c : Dev nD) (t : Fin cfg10.N) (hf : (cfg10.win 6).flush t = true) :
    (dat10 V c).flushed 6 t = ((cfg10.win 6).blk t).view.read (Elt Ideal) (acc6 V c 4 h4) := by
  have hN : cfg10.N = 5 := N_10
  have ht : t.val = 4 := by have := (flush10_6 t).mp hf; have := t.isLt; omega
  obtain rfl : t = tLast := Fin.ext ht
  obtain ⟨-, -, -, -, -, -, -, -, -, -, -, -, e60, e61, e70, e71⟩ := idx_facts tLast
  show (cfg10.win 6).cut (grid10.coords tLast) ((dat10 V c).after 6 tLast) = _
  rw [after10_6, outsAt_eq V c tLast.val tLast.isLt]
  funext j
  show acc6 V c 4 _ j = acc6 V c 4 _ (((cfg10.win 6).blk tLast).view.emb j)
  congr 1
  funext a
  apply Fin.ext
  match a with
  | ⟨0, _⟩ => show (j 0).val = win10_6.index tLast (0 : Fin 2) * 1 + 1 * (j 0).val; rw [e60]; omega
  | ⟨1, _⟩ => show (j 1).val = win10_6.index tLast (1 : Fin 2) * 128 + 1 * (j 1).val; rw [e61]; omega

/-- Running row 6's array when the region ends. -/
theorem final6 (c : Dev nD) : (dat10 V c).arrAt 6 cfg10.N = acc6 V c 4 h4 :=
  (dat10 V c).arrAt_eq_of_cover 6 (acc6 V c 4 h4) (flushed6_eq V c) fun i => by
    have hi0 : (i 0).val < 1 := (i 0).isLt
    have hi1 : (i 1).val < 128 := (i 1).isLt
    obtain ⟨-, -, -, -, -, -, -, -, -, -, -, -, e60, e61, e70, e71⟩ := idx_facts tLast
    refine ⟨tLast, (flush10_6 tLast).mpr rfl, ?_⟩
    rw [mem_blk6]
    intro a
    match a with
    | ⟨0, _⟩ =>
      show win10_6.index tLast (0 : Fin 2) * 1 ≤ (i 0).val ∧ (i 0).val < win10_6.index tLast (0 : Fin 2) * 1 + 1
      rw [e60]; omega
    | ⟨1, _⟩ =>
      show win10_6.index tLast (1 : Fin 2) * 128 ≤ (i 1).val ∧ (i 1).val < win10_6.index tLast (1 : Fin 2) * 128 + 128
      rw [e61]; omega

/-- An index of running row 7's array is in point t's block iff each coordinate is in the block's range. -/
theorem mem_blk7 (t : Fin cfg10.N) (i : S1x128.Idx) :
    i ∈ ((cfg10.win 7).blk t).view.set ↔ ∀ a : Fin 2, win10_7.index t a * S1x128.size a ≤ (i a).val
      ∧ (i a).val < win10_7.index t a * S1x128.size a + S1x128.size a := by
  show i ∈ ((View.whole main_v175_2).slice (win10_7.rect t)).set ↔ _
  rw [View.set_slice_whole, Rect.mem_set_unit]
  exact Iff.rfl

/-- The one write-back of running row 7, after the last point, writes the row as it stands after point 4. -/
theorem flushed7_eq (c : Dev nD) (t : Fin cfg10.N) (hf : (cfg10.win 7).flush t = true) :
    (dat10 V c).flushed 7 t = ((cfg10.win 7).blk t).view.read (Elt Ideal) (acc7 V c 4 h4) := by
  have hN : cfg10.N = 5 := N_10
  have ht : t.val = 4 := by have := (flush10_7 t).mp hf; have := t.isLt; omega
  obtain rfl : t = tLast := Fin.ext ht
  obtain ⟨-, -, -, -, -, -, -, -, -, -, -, -, e60, e61, e70, e71⟩ := idx_facts tLast
  show (cfg10.win 7).cut (grid10.coords tLast) ((dat10 V c).after 7 tLast) = _
  rw [after10_7, outsAt_eq V c tLast.val tLast.isLt]
  funext j
  show acc7 V c 4 _ j = acc7 V c 4 _ (((cfg10.win 7).blk tLast).view.emb j)
  congr 1
  funext a
  apply Fin.ext
  match a with
  | ⟨0, _⟩ => show (j 0).val = win10_7.index tLast (0 : Fin 2) * 1 + 1 * (j 0).val; rw [e70]; omega
  | ⟨1, _⟩ => show (j 1).val = win10_7.index tLast (1 : Fin 2) * 128 + 1 * (j 1).val; rw [e71]; omega

/-- Running row 7's array when the region ends. -/
theorem final7 (c : Dev nD) : (dat10 V c).arrAt 7 cfg10.N = acc7 V c 4 h4 :=
  (dat10 V c).arrAt_eq_of_cover 7 (acc7 V c 4 h4) (flushed7_eq V c) fun i => by
    have hi0 : (i 0).val < 1 := (i 0).isLt
    have hi1 : (i 1).val < 128 := (i 1).isLt
    obtain ⟨-, -, -, -, -, -, -, -, -, -, -, -, e60, e61, e70, e71⟩ := idx_facts tLast
    refine ⟨tLast, (flush10_7 tLast).mpr rfl, ?_⟩
    rw [mem_blk7]
    intro a
    match a with
    | ⟨0, _⟩ =>
      show win10_7.index tLast (0 : Fin 2) * 1 ≤ (i 0).val ∧ (i 0).val < win10_7.index tLast (0 : Fin 2) * 1 + 1
      rw [e70]; omega
    | ⟨1, _⟩ =>
      show win10_7.index tLast (1 : Fin 2) * 128 ≤ (i 1).val ∧ (i 1).val < win10_7.index tLast (1 : Fin 2) * 128 + 128
      rw [e71]; omega

/-! ## The running rows are the column sums -/

/-- Running row 6 at column cc, as a sequence in the point (zero past the last point). -/
def A6 (c : Dev nD) (cc : Fin 128) (n : ℕ) : EReal :=
  if h : n < cfg10.N then acc6 V c n h (ix2 (0 : Fin 1) cc) else 0

/-- After the last point, running row 6 holds the column sums of the whole result. -/
theorem acc6_eq (c : Dev nD) (cc : Fin 128) :
    acc6 V c 4 h4 (ix2 (0 : Fin 1) cc) = BatchNormSpec.colSum (A2 V c) cc := by
  have hN : cfg10.N = 5 := N_10
  have key := GinTiles.acc_eq_colSum (A2 V c) cc (A6 V c cc) ?h0 ?hs
  · rw [← key]
    unfold A6
    rw [dif_pos h4]
  case h0 =>
    unfold A6
    rw [dif_pos (by omega : 0 < cfg10.N)]
    refine (KPayL2.k2pay5_apply (iblk10 V c 0 ⟨0, by omega⟩) (iblk10 V c 2 ⟨0, by omega⟩) (iblk10 V c 3 ⟨0, by omega⟩) (iblk10 V c 1 ⟨0, by omega⟩) (iblk10 V c 4 ⟨0, by omega⟩) (k10_pay2 (F := Ideal)) cc).trans ?_
    rw [KPayL2.k2pay2_apply]
    refine congrArg ((0 : EReal) + ·) ?_
    unfold GinTiles.tileSum
    rw [dif_pos (by norm_num : 0 < 5)]
    exact Finset.sum_congr rfl fun q _ => tile_norm V c ⟨0, by omega⟩ q cc
  case hs =>
    intro n hn
    unfold A6
    rw [dif_pos (by omega : n + 1 < cfg10.N), dif_pos (by omega : n < cfg10.N)]
    refine (KPayL2.k2pay5_apply (iblk10 V c 0 ⟨n + 1, by omega⟩) (iblk10 V c 2 ⟨n + 1, by omega⟩) (iblk10 V c 3 ⟨n + 1, by omega⟩) (iblk10 V c 1 ⟨n + 1, by omega⟩) (iblk10 V c 4 ⟨n + 1, by omega⟩) (acc6 V c n (by omega)) cc).trans ?_
    refine congrArg (acc6 V c n (by omega) (ix2 (0 : Fin 1) cc) + ·) ?_
    unfold GinTiles.tileSum
    rw [dif_pos hn]
    exact Finset.sum_congr rfl fun q _ => tile_norm V c ⟨n + 1, by omega⟩ q cc

/-- Running row 7 at column cc, as a sequence in the point (zero past the last point). -/
def A7 (c : Dev nD) (cc : Fin 128) (n : ℕ) : EReal :=
  if h : n < cfg10.N then acc7 V c n h (ix2 (0 : Fin 1) cc) else 0

/-- After the last point, running row 7 holds the column sums of squares of the whole result. -/
theorem acc7_eq (c : Dev nD) (cc : Fin 128) :
    acc7 V c 4 h4 (ix2 (0 : Fin 1) cc) = BatchNormSpec.colSumSq (A2 V c) cc := by
  have hN : cfg10.N = 5 := N_10
  have key := GinTiles.acc_eq_colSumSq (A2 V c) cc (A7 V c cc) ?h0 ?hs
  · rw [← key]
    unfold A7
    rw [dif_pos h4]
  case h0 =>
    unfold A7
    rw [dif_pos (by omega : 0 < cfg10.N)]
    refine (KPayL2.k2pay1_apply (k10_pay4 (iblk10 V c 0 ⟨0, by omega⟩) (iblk10 V c 2 ⟨0, by omega⟩) (iblk10 V c 3 ⟨0, by omega⟩) (iblk10 V c 1 ⟨0, by omega⟩) (iblk10 V c 4 ⟨0, by omega⟩)) (k10_pay3 (F := Ideal)) cc).trans ?_
    rw [KPayL2.k2pay3_apply, KPayL2.k2pay4_eq]
    refine congrArg ((0 : EReal) + ·) ?_
    unfold GinTiles.tileSum
    rw [dif_pos (by norm_num : 0 < 5)]
    exact Finset.sum_congr rfl fun q _ =>
      congrArg₂ (· * ·) (tile_norm V c ⟨0, by omega⟩ q cc) (tile_norm V c ⟨0, by omega⟩ q cc)
  case hs =>
    intro n hn
    unfold A7
    rw [dif_pos (by omega : n + 1 < cfg10.N), dif_pos (by omega : n < cfg10.N)]
    refine (KPayL2.k2pay1_apply (k10_pay4 (iblk10 V c 0 ⟨n + 1, by omega⟩) (iblk10 V c 2 ⟨n + 1, by omega⟩) (iblk10 V c 3 ⟨n + 1, by omega⟩) (iblk10 V c 1 ⟨n + 1, by omega⟩) (iblk10 V c 4 ⟨n + 1, by omega⟩)) (acc7 V c n (by omega)) cc).trans ?_
    rw [KPayL2.k2pay4_eq]
    refine congrArg (acc7 V c n (by omega) (ix2 (0 : Fin 1) cc) + ·) ?_
    unfold GinTiles.tileSum
    rw [dif_pos hn]
    exact Finset.sum_congr rfl fun q _ =>
      congrArg₂ (· * ·) (tile_norm V c ⟨n + 1, by omega⟩ q cc) (tile_norm V c ⟨n + 1, by omega⟩ q cc)

/-- The input windows' arrays end as the region found them. -/
theorem arr_in (c : Dev nD) (w : Fin cfg10.W) (hin : (cfg10.win w).isOut = false) :
    (dat10 V c).arrAt w cfg10.N = V c (Pipeline.arrRef spec10 w) :=
  ((dat10 V c).arrAt_in w hin _).trans (A_eq10 V c w)

theorem arr_in0 (c : Dev nD) : (dat10 V c).arrAt 0 cfg10.N = V c (Pipeline.arrRef spec10 0) := arr_in V c 0 rfl
theorem arr_in1 (c : Dev nD) : (dat10 V c).arrAt 1 cfg10.N = V c (Pipeline.arrRef spec10 1) := arr_in V c 1 rfl
theorem arr_in2 (c : Dev nD) : (dat10 V c).arrAt 2 cfg10.N = V c (Pipeline.arrRef spec10 2) := arr_in V c 2 rfl
theorem arr_in3 (c : Dev nD) : (dat10 V c).arrAt 3 cfg10.N = V c (Pipeline.arrRef spec10 3) := arr_in V c 3 rfl
theorem arr_in4 (c : Dev nD) : (dat10 V c).arrAt 4 cfg10.N = V c (Pipeline.arrRef spec10 4) := arr_in V c 4 rfl

end Cert.KernelIdeal.R10

end
-- ==== Proof.KHost_L2.lean ====
/-
  The host operations between the kernel regions of layer 2, as functions of the buffer contents they start from.
  After each of the first three regions the program divides the region's two accumulated rows (the column sums and the
  column sums of squares) by the row count 50000, giving the column means, and subtracts the squared mean from the mean
  square, giving the column variances in their moment form.
-/
import proofs.«113410_j5944234737805_1_alg».proof.Proof.Gen.KernelIdeal.Launch
import proofs.«113410_j5944234737805_1_alg».proof.Proof.KHostRows
import Idealize.ShloMosaic.Lib.StableHlo.Run
import Idealize.ShloMosaic.Lib.ValueIdx
import proofs.«113410_j5944234737805_1_alg».proof.Proof.LibBatchNorm
import proofs.«113410_j5944234737805_1_alg».proof.Proof.GinConsts

noncomputable section

namespace Cert.KernelIdeal.KHostL2

open Cert.KernelIdeal Cert.KernelIdeal.Gen Idealize.ShloMosaic Idealize.ShloMosaic.TcCoe Idealize.SL.Sem
open Idealize.ShloMosaic.StableHlo
open Cert.KernelIdeal.KHost (Row rowMean rowVar Mat Ix srcIx rst rowL matL)

variable {F : FTy → Type} [FloatOps F]

/-- After region 8: the means of the first dense layer's columns. -/
theorem mean1_eq (W : Valuation τ sig (Elt F)) :
    after hostOps9 W (Proc.devRef .tc main_v161) = rowMean (W (Proc.devRef .tc main_v159_1)) := by
  after_results
  rfl

/-- After region 8: their variances. -/
theorem var1_eq (W : Valuation τ sig (Elt F)) :
    after hostOps9 W (Proc.devRef .tc main_v165)
      = rowVar (W (Proc.devRef .tc main_v159_1)) (W (Proc.devRef .tc main_v159_2)) := by
  after_results
  rfl

/-- After region 9: the means of the second dense layer's columns. -/
theorem mean2_eq (W : Valuation τ sig (Elt F)) :
    after hostOps10 W (Proc.devRef .tc main_v170) = rowMean (W (Proc.devRef .tc main_v168_1)) := by
  after_results
  rfl

/-- After region 9: their variances. -/
theorem var2_eq (W : Valuation τ sig (Elt F)) :
    after hostOps10 W (Proc.devRef .tc main_v174)
      = rowVar (W (Proc.devRef .tc main_v168_1)) (W (Proc.devRef .tc main_v168_2)) := by
  after_results
  rfl

/-- After region 10: the means of the rectified columns. -/
theorem mean3_eq (W : Valuation τ sig (Elt F)) :
    after hostOps11 W (Proc.devRef .tc main_v177) = rowMean (W (Proc.devRef .tc main_v175_1)) := by
  after_results
  rfl

/-- After region 10: their variances. -/
theorem var3_eq (W : Valuation τ sig (Elt F)) :
    after hostOps11 W (Proc.devRef .tc main_v181)
      = rowVar (W (Proc.devRef .tc main_v175_1)) (W (Proc.devRef .tc main_v175_2)) := by
  after_results
  rfl

/-! ## The first stretch of layer 2: the neighbour sum and row 2 of every stacked parameter -/

set_option maxHeartbeats 2000000 in
/-- Region 8's first operand: the features plus their neighbour sum. -/
theorem rst0_eq (W : Valuation τ sig (Elt F)) :
    after hostOps8 W (Proc.devRef .tc main_v132)
      = rst (W (Proc.devRef .tc main_v121)) (W (Proc.devRef .tc main_arg1)) (W (Proc.devRef .tc main_arg2)) := by
  after_results
  rfl

/-- Region 8's weights and bias row. -/
theorem w1_0_eq (W : Valuation τ sig (Elt F)) :
    after hostOps8 W (Proc.devRef .tc main_v158) = matL 2 slices_S5x128x128_S1x128x128_2_0_0 (W (Proc.devRef .tc main_arg3)) := by
  after_results
  rfl
theorem b1_0_eq (W : Valuation τ sig (Elt F)) :
    after hostOps8 W (Proc.devRef .tc main_v135) = rowL 2 slices_S5x128_S1x128_2_0 (W (Proc.devRef .tc main_arg4)) := by
  after_results
  rfl

/-- The other parameter rows of layer 2, each row 2 of its stacked argument. -/
theorem b2_0_eq (W : Valuation τ sig (Elt F)) :
    after hostOps8 W (Proc.devRef .tc main_v138) = rowL 2 slices_S5x128_S1x128_2_0 (W (Proc.devRef .tc main_arg6)) := by
  after_results
  rfl
theorem g1_0_eq (W : Valuation τ sig (Elt F)) :
    after hostOps8 W (Proc.devRef .tc main_v141) = rowL 2 slices_S5x128_S1x128_2_0 (W (Proc.devRef .tc main_arg7)) := by
  after_results
  rfl
theorem be1_0_eq (W : Valuation τ sig (Elt F)) :
    after hostOps8 W (Proc.devRef .tc main_v144) = rowL 2 slices_S5x128_S1x128_2_0 (W (Proc.devRef .tc main_arg8)) := by
  after_results
  rfl
theorem g2_0_eq (W : Valuation τ sig (Elt F)) :
    after hostOps8 W (Proc.devRef .tc main_v147) = rowL 2 slices_S5x128_S1x128_2_0 (W (Proc.devRef .tc main_arg9)) := by
  after_results
  rfl
theorem be2_0_eq (W : Valuation τ sig (Elt F)) :
    after hostOps8 W (Proc.devRef .tc main_v150) = rowL 2 slices_S5x128_S1x128_2_0 (W (Proc.devRef .tc main_arg10)) := by
  after_results
  rfl
theorem g3_0_eq (W : Valuation τ sig (Elt F)) :
    after hostOps8 W (Proc.devRef .tc main_v153) = rowL 2 slices_S5x128_S1x128_2_0 (W (Proc.devRef .tc main_arg11)) := by
  after_results
  rfl
theorem be3_0_eq (W : Valuation τ sig (Elt F)) :
    after hostOps8 W (Proc.devRef .tc main_v156) = rowL 2 slices_S5x128_S1x128_2_0 (W (Proc.devRef .tc main_arg12)) := by
  after_results
  rfl

/-- The second dense layer's weights, sliced after region 8. -/
theorem w2_0_eq (W : Valuation τ sig (Elt F)) :
    after hostOps9 W (Proc.devRef .tc main_v167) = matL 2 slices_S5x128x128_S1x128x128_2_0_0 (W (Proc.devRef .tc main_arg5)) := by
  after_results
  rfl

/-! ## What the stretches leave alone: a buffer no operation of a stretch writes keeps its contents across it -/

theorem keep_hostOps1_main_v37_0 (W : Valuation τ sig (Elt F)) :
    after hostOps9 W (Proc.devRef .tc main_v159_0) = W (Proc.devRef .tc main_v159_0) := by
  after_results
theorem keep_hostOps1_main_v19 (W : Valuation τ sig (Elt F)) :
    after hostOps9 W (Proc.devRef .tc main_v141) = W (Proc.devRef .tc main_v141) := by
  after_results
theorem keep_hostOps1_main_v22 (W : Valuation τ sig (Elt F)) :
    after hostOps9 W (Proc.devRef .tc main_v144) = W (Proc.devRef .tc main_v144) := by
  after_results
theorem keep_hostOps1_main_v16 (W : Valuation τ sig (Elt F)) :
    after hostOps9 W (Proc.devRef .tc main_v138) = W (Proc.devRef .tc main_v138) := by
  after_results
theorem keep_hostOps1_main_v25 (W : Valuation τ sig (Elt F)) :
    after hostOps9 W (Proc.devRef .tc main_v147) = W (Proc.devRef .tc main_v147) := by
  after_results
theorem keep_hostOps1_main_v28 (W : Valuation τ sig (Elt F)) :
    after hostOps9 W (Proc.devRef .tc main_v150) = W (Proc.devRef .tc main_v150) := by
  after_results
theorem keep_hostOps1_main_v31 (W : Valuation τ sig (Elt F)) :
    after hostOps9 W (Proc.devRef .tc main_v153) = W (Proc.devRef .tc main_v153) := by
  after_results
theorem keep_hostOps1_main_v34 (W : Valuation τ sig (Elt F)) :
    after hostOps9 W (Proc.devRef .tc main_v156) = W (Proc.devRef .tc main_v156) := by
  after_results

theorem keep_hostOps2_main_v46_0 (W : Valuation τ sig (Elt F)) :
    after hostOps10 W (Proc.devRef .tc main_v168_0) = W (Proc.devRef .tc main_v168_0) := by
  after_results
theorem keep_hostOps2_main_v25 (W : Valuation τ sig (Elt F)) :
    after hostOps10 W (Proc.devRef .tc main_v147) = W (Proc.devRef .tc main_v147) := by
  after_results
theorem keep_hostOps2_main_v28 (W : Valuation τ sig (Elt F)) :
    after hostOps10 W (Proc.devRef .tc main_v150) = W (Proc.devRef .tc main_v150) := by
  after_results
theorem keep_hostOps2_main_v31 (W : Valuation τ sig (Elt F)) :
    after hostOps10 W (Proc.devRef .tc main_v153) = W (Proc.devRef .tc main_v153) := by
  after_results
theorem keep_hostOps2_main_v34 (W : Valuation τ sig (Elt F)) :
    after hostOps10 W (Proc.devRef .tc main_v156) = W (Proc.devRef .tc main_v156) := by
  after_results

theorem keep_hostOps3_main_v53_0 (W : Valuation τ sig (Elt F)) :
    after hostOps11 W (Proc.devRef .tc main_v175_0) = W (Proc.devRef .tc main_v175_0) := by
  after_results
theorem keep_hostOps3_main_v31 (W : Valuation τ sig (Elt F)) :
    after hostOps11 W (Proc.devRef .tc main_v153) = W (Proc.devRef .tc main_v153) := by
  after_results
theorem keep_hostOps3_main_v34 (W : Valuation τ sig (Elt F)) :
    after hostOps11 W (Proc.devRef .tc main_v156) = W (Proc.devRef .tc main_v156) := by
  after_results

end Cert.KernelIdeal.KHostL2

end
-- ==== Proof.Layer2.lean ====
/-
  Layer 2 (counting from zero) of the idealized kernel program, through the segment boundaries from the end of the previous layer's last region to the end of this layer's fourth region.
  The first stretch of host operations forms the features plus their neighbour sum and slices row 2 out of every stacked
  parameter; the layer's first region computes the first dense layer and its column sums; the next stretch turns the sums into column
  means and moment variances; its second region normalises, rectifies and applies the second dense layer; and so on. Each
  region's arrays at its exit are what its write-backs leave, every other buffer is as it was at the region's entry, and
  a buffer no operation of a stretch writes keeps its contents across it. Composed, the features after the fourth region
  are the layer function with moment variances of the contents at the layer's entry.
-/
import proofs.«113410_j5944234737805_1_alg».proof.Proof.R8Array
import proofs.«113410_j5944234737805_1_alg».proof.Proof.R9Array
import proofs.«113410_j5944234737805_1_alg».proof.Proof.R10Array
import proofs.«113410_j5944234737805_1_alg».proof.Proof.R11Value
import proofs.«113410_j5944234737805_1_alg».proof.Proof.KHost
import proofs.«113410_j5944234737805_1_alg».proof.Proof.KHostRows
import proofs.«113410_j5944234737805_1_alg».proof.Proof.KHost_L2
import proofs.«113410_j5944234737805_1_alg».proof.Proof.GinSpec

noncomputable section

open Idealize.ShloMosaic Idealize.ShloMosaic.TcCoe Idealize.SL.Sem Idealize.ShloMosaic.ValueIdx
open Idealize.ShloMosaic.StableHlo

namespace Cert.KernelIdeal.Layer2

open Cert.KernelIdeal Cert.KernelIdeal.Gen

variable (m : (ℓ : Loc nD τ sig) → Buf (Elt Ideal) ℓ) (ρ : Dev nD → PrngReg)

/-- The epsilon and the zero of the normalisations. -/
abbrev eps : EReal := Ideal.ofBits .f32 0x3727C5AC#32
abbrev zero : EReal := Ideal.ofBits .f32 0x00000000#32

/-- The row count as a real. -/
theorem N_cast : ((GinSpec.N : ℕ) : ℝ) = (50000 : ℝ) := by norm_num [GinSpec.N]

/-- The first stretch writes no argument. -/
theorem keep0_main_arg1 (W : Valuation τ sig (Elt Ideal)) :
    after hostOps8 W (Proc.devRef .tc main_arg1) = W (Proc.devRef .tc main_arg1) := by
  after_results
theorem keep0_main_arg2 (W : Valuation τ sig (Elt Ideal)) :
    after hostOps8 W (Proc.devRef .tc main_arg2) = W (Proc.devRef .tc main_arg2) := by
  after_results
theorem keep0_main_arg3 (W : Valuation τ sig (Elt Ideal)) :
    after hostOps8 W (Proc.devRef .tc main_arg3) = W (Proc.devRef .tc main_arg3) := by
  after_results
theorem keep0_main_arg4 (W : Valuation τ sig (Elt Ideal)) :
    after hostOps8 W (Proc.devRef .tc main_arg4) = W (Proc.devRef .tc main_arg4) := by
  after_results
theorem keep0_main_arg5 (W : Valuation τ sig (Elt Ideal)) :
    after hostOps8 W (Proc.devRef .tc main_arg5) = W (Proc.devRef .tc main_arg5) := by
  after_results
theorem keep0_main_arg6 (W : Valuation τ sig (Elt Ideal)) :
    after hostOps8 W (Proc.devRef .tc main_arg6) = W (Proc.devRef .tc main_arg6) := by
  after_results
theorem keep0_main_arg7 (W : Valuation τ sig (Elt Ideal)) :
    after hostOps8 W (Proc.devRef .tc main_arg7) = W (Proc.devRef .tc main_arg7) := by
  after_results
theorem keep0_main_arg8 (W : Valuation τ sig (Elt Ideal)) :
    after hostOps8 W (Proc.devRef .tc main_arg8) = W (Proc.devRef .tc main_arg8) := by
  after_results
theorem keep0_main_arg9 (W : Valuation τ sig (Elt Ideal)) :
    after hostOps8 W (Proc.devRef .tc main_arg9) = W (Proc.devRef .tc main_arg9) := by
  after_results
theorem keep0_main_arg10 (W : Valuation τ sig (Elt Ideal)) :
    after hostOps8 W (Proc.devRef .tc main_arg10) = W (Proc.devRef .tc main_arg10) := by
  after_results
theorem keep0_main_arg11 (W : Valuation τ sig (Elt Ideal)) :
    after hostOps8 W (Proc.devRef .tc main_arg11) = W (Proc.devRef .tc main_arg11) := by
  after_results
theorem keep0_main_arg12 (W : Valuation τ sig (Elt Ideal)) :
    after hostOps8 W (Proc.devRef .tc main_arg12) = W (Proc.devRef .tc main_arg12) := by
  after_results

/-- The layer's parameters: matrix 2 and row 2 of the stacked arguments as the layer finds them. -/
def P0 (c : Dev nD) : GinSpec.Params where
  W1 := (KHost.matL 2 slices_S5x128x128_S1x128x128_2_0_0) (W16 m ρ c (Proc.devRef .tc main_arg3))
  b1 := (KHost.rowL 2 slices_S5x128_S1x128_2_0) (W16 m ρ c (Proc.devRef .tc main_arg4))
  W2 := (KHost.matL 2 slices_S5x128x128_S1x128x128_2_0_0) (W16 m ρ c (Proc.devRef .tc main_arg5))
  b2 := (KHost.rowL 2 slices_S5x128_S1x128_2_0) (W16 m ρ c (Proc.devRef .tc main_arg6))
  g1 := KPay.rowAt ((KHost.rowL 2 slices_S5x128_S1x128_2_0) (W16 m ρ c (Proc.devRef .tc main_arg7)))
  β1 := KPay.rowAt ((KHost.rowL 2 slices_S5x128_S1x128_2_0) (W16 m ρ c (Proc.devRef .tc main_arg8)))
  g2 := KPay.rowAt ((KHost.rowL 2 slices_S5x128_S1x128_2_0) (W16 m ρ c (Proc.devRef .tc main_arg9)))
  β2 := KPay.rowAt ((KHost.rowL 2 slices_S5x128_S1x128_2_0) (W16 m ρ c (Proc.devRef .tc main_arg10)))
  g3 := KPay.rowAt ((KHost.rowL 2 slices_S5x128_S1x128_2_0) (W16 m ρ c (Proc.devRef .tc main_arg11)))
  β3 := KPay.rowAt ((KHost.rowL 2 slices_S5x128_S1x128_2_0) (W16 m ρ c (Proc.devRef .tc main_arg12)))

/-- The features plus their neighbour sum, of the contents at the layer's entry. -/
def Y0 (c : Dev nD) : BatchNormSpec.Mat 50000 128 :=
  KHost.rst (W16 m ρ c (Proc.devRef .tc main_v121)) (W16 m ρ c (Proc.devRef .tc main_arg1)) (W16 m ρ c (Proc.devRef .tc main_arg2))

/-! ## Region 0 -/

/-- The first dense layer. -/
def X1 (c : Dev nD) : BatchNormSpec.Mat 50000 128 := DenseSpec.dense (Y0 m ρ c) (P0 m ρ c).W1 (P0 m ρ c).b1

theorem x1_eq (c : Dev nD) : R8.X1 (V17 m ρ) c = X1 m ρ c := by
  have e1 : V17 m ρ c main_v132 = Y0 m ρ c := KHostL2.rst0_eq (W16 m ρ c)
  have e2 : V17 m ρ c main_v158 = (KHost.matL 2 slices_S5x128x128_S1x128x128_2_0_0) (W16 m ρ c (Proc.devRef .tc main_arg3)) := KHostL2.w1_0_eq (W16 m ρ c)
  have e3 : V17 m ρ c main_v135 = (KHost.rowL 2 slices_S5x128_S1x128_2_0) (W16 m ρ c (Proc.devRef .tc main_arg4)) := KHostL2.b1_0_eq (W16 m ρ c)
  unfold R8.X1 X1 P0
  rw [e1, e2, e3]

/-! ## Region 1's entry -/

theorem in37 (c : Dev nD) : V19 m ρ c main_v159_0 = X1 m ρ c :=
  (KHostL2.keep_hostOps1_main_v37_0 (W18 m ρ c)).trans
    (((W18_arr m ρ c 3).trans (R8.final3 (V17 m ρ) c)).trans (x1_eq m ρ c))

theorem s1 (c : Dev nD) (cc : Fin 128) :
    W18 m ρ c (Proc.devRef .tc main_v159_1) (ix2 (0 : Fin 1) cc) = BatchNormSpec.colSum (X1 m ρ c) cc := by
  rw [(W18_arr m ρ c 4).trans (R8.final4 (V17 m ρ) c), R8.acc4_eq, x1_eq]

theorem q1 (c : Dev nD) (cc : Fin 128) :
    W18 m ρ c (Proc.devRef .tc main_v159_2) (ix2 (0 : Fin 1) cc) = BatchNormSpec.colSumSq (X1 m ρ c) cc := by
  rw [(W18_arr m ρ c 5).trans (R8.final5 (V17 m ρ) c), R8.acc5_eq, x1_eq]

theorem mean39 (c : Dev nD) : KPay.rowAt (V19 m ρ c main_v161) = BatchNormSpec.mean (GinSpec.N : ℝ) (X1 m ρ c) := by
  funext cc
  rw [N_cast]
  show V19 m ρ c main_v161 (ix2 (0 : Fin 1) cc) = _
  rw [show V19 m ρ c main_v161 = KHost.rowMean (W18 m ρ c (Proc.devRef .tc main_v159_1)) from KHostL2.mean1_eq (W18 m ρ c)]
  exact KHost.rowMean_of_colSum (X1 m ρ c) _ cc (s1 m ρ c cc)

theorem var43 (c : Dev nD) : KPay.rowAt (V19 m ρ c main_v165) = BatchNormSpec.varMoment (GinSpec.N : ℝ) (X1 m ρ c) := by
  funext cc
  rw [N_cast]
  show V19 m ρ c main_v165 (ix2 (0 : Fin 1) cc) = _
  rw [show V19 m ρ c main_v165 = KHost.rowVar (W18 m ρ c (Proc.devRef .tc main_v159_1)) (W18 m ρ c (Proc.devRef .tc main_v159_2))
    from KHostL2.var1_eq (W18 m ρ c)]
  exact KHost.rowVar_of_colSums (X1 m ρ c) _ _ cc (s1 m ρ c cc) (q1 m ρ c cc)

theorem g19 (c : Dev nD) : V19 m ρ c main_v141 = (KHost.rowL 2 slices_S5x128_S1x128_2_0) (W16 m ρ c (Proc.devRef .tc main_arg7)) :=
  (KHostL2.keep_hostOps1_main_v19 (W18 m ρ c)).trans ((W18_of_ne m ρ c main_v141 (by decide)).trans (KHostL2.g1_0_eq (W16 m ρ c)))
theorem be22 (c : Dev nD) : V19 m ρ c main_v144 = (KHost.rowL 2 slices_S5x128_S1x128_2_0) (W16 m ρ c (Proc.devRef .tc main_arg8)) :=
  (KHostL2.keep_hostOps1_main_v22 (W18 m ρ c)).trans ((W18_of_ne m ρ c main_v144 (by decide)).trans (KHostL2.be1_0_eq (W16 m ρ c)))
theorem b16 (c : Dev nD) : V19 m ρ c main_v138 = (KHost.rowL 2 slices_S5x128_S1x128_2_0) (W16 m ρ c (Proc.devRef .tc main_arg6)) :=
  (KHostL2.keep_hostOps1_main_v16 (W18 m ρ c)).trans ((W18_of_ne m ρ c main_v138 (by decide)).trans (KHostL2.b2_0_eq (W16 m ρ c)))
theorem w45 (c : Dev nD) : V19 m ρ c main_v167 = (KHost.matL 2 slices_S5x128x128_S1x128x128_2_0_0) (W16 m ρ c (Proc.devRef .tc main_arg5)) :=
  (KHostL2.w2_0_eq (W18 m ρ c)).trans (congrArg (KHost.matL 2 slices_S5x128x128_S1x128x128_2_0_0)
    ((W18_of_ne m ρ c main_arg5 (by decide)).trans (keep0_main_arg5 (W16 m ρ c))))

/-! ## Region 1 -/

/-- The second dense layer of the normalised and rectified first one. -/
def X2 (c : Dev nD) : BatchNormSpec.Mat 50000 128 :=
  DenseSpec.dense (GinSpec.bnM eps zero (X1 m ρ c) (P0 m ρ c).g1 (P0 m ρ c).β1) (P0 m ρ c).W2 (P0 m ρ c).b2

theorem x2_eq (c : Dev nD) : R9.X2 (V19 m ρ) c = X2 m ρ c := by
  unfold R9.X2 R9.A1 X2 GinSpec.bnM P0
  rw [in37, mean39, var43, g19, be22, b16, w45]

/-! ## Region 2's entry -/

theorem in46 (c : Dev nD) : V21 m ρ c main_v168_0 = X2 m ρ c :=
  (KHostL2.keep_hostOps2_main_v46_0 (W20 m ρ c)).trans
    (((W20_arr m ρ c 7).trans (R9.final7 (V19 m ρ) c)).trans (x2_eq m ρ c))

theorem s2 (c : Dev nD) (cc : Fin 128) :
    W20 m ρ c (Proc.devRef .tc main_v168_1) (ix2 (0 : Fin 1) cc) = BatchNormSpec.colSum (X2 m ρ c) cc := by
  rw [(W20_arr m ρ c 8).trans (R9.final8 (V19 m ρ) c), R9.acc8_eq, x2_eq]

theorem q2 (c : Dev nD) (cc : Fin 128) :
    W20 m ρ c (Proc.devRef .tc main_v168_2) (ix2 (0 : Fin 1) cc) = BatchNormSpec.colSumSq (X2 m ρ c) cc := by
  rw [(W20_arr m ρ c 9).trans (R9.final9 (V19 m ρ) c), R9.acc9_eq, x2_eq]

theorem mean48 (c : Dev nD) : KPay.rowAt (V21 m ρ c main_v170) = BatchNormSpec.mean (GinSpec.N : ℝ) (X2 m ρ c) := by
  funext cc
  rw [N_cast]
  show V21 m ρ c main_v170 (ix2 (0 : Fin 1) cc) = _
  rw [show V21 m ρ c main_v170 = KHost.rowMean (W20 m ρ c (Proc.devRef .tc main_v168_1)) from KHostL2.mean2_eq (W20 m ρ c)]
  exact KHost.rowMean_of_colSum (X2 m ρ c) _ cc (s2 m ρ c cc)

theorem var52 (c : Dev nD) : KPay.rowAt (V21 m ρ c main_v174) = BatchNormSpec.varMoment (GinSpec.N : ℝ) (X2 m ρ c) := by
  funext cc
  rw [N_cast]
  show V21 m ρ c main_v174 (ix2 (0 : Fin 1) cc) = _
  rw [show V21 m ρ c main_v174 = KHost.rowVar (W20 m ρ c (Proc.devRef .tc main_v168_1)) (W20 m ρ c (Proc.devRef .tc main_v168_2))
    from KHostL2.var2_eq (W20 m ρ c)]
  exact KHost.rowVar_of_colSums (X2 m ρ c) _ _ cc (s2 m ρ c cc) (q2 m ρ c cc)

theorem g25 (c : Dev nD) : V21 m ρ c main_v147 = (KHost.rowL 2 slices_S5x128_S1x128_2_0) (W16 m ρ c (Proc.devRef .tc main_arg9)) :=
  (KHostL2.keep_hostOps2_main_v25 (W20 m ρ c)).trans ((W20_of_ne m ρ c main_v147 (by decide)).trans
    ((KHostL2.keep_hostOps1_main_v25 (W18 m ρ c)).trans ((W18_of_ne m ρ c main_v147 (by decide)).trans (KHostL2.g2_0_eq (W16 m ρ c)))))
theorem be28 (c : Dev nD) : V21 m ρ c main_v150 = (KHost.rowL 2 slices_S5x128_S1x128_2_0) (W16 m ρ c (Proc.devRef .tc main_arg10)) :=
  (KHostL2.keep_hostOps2_main_v28 (W20 m ρ c)).trans ((W20_of_ne m ρ c main_v150 (by decide)).trans
    ((KHostL2.keep_hostOps1_main_v28 (W18 m ρ c)).trans ((W18_of_ne m ρ c main_v150 (by decide)).trans (KHostL2.be2_0_eq (W16 m ρ c)))))

/-! ## Region 2 -/

/-- The second dense layer, normalised and rectified. -/
def A2 (c : Dev nD) : BatchNormSpec.Mat 50000 128 := GinSpec.bnM eps zero (X2 m ρ c) (P0 m ρ c).g2 (P0 m ρ c).β2

theorem a2_eq (c : Dev nD) : R10.A2 (V21 m ρ) c = A2 m ρ c := by
  unfold A2 GinSpec.bnM P0
  show BatchNormSpec.normRelu _ _ (V21 m ρ c main_v168_0) (KPay.rowAt (V21 m ρ c main_v170)) (KPay.rowAt (V21 m ρ c main_v174))
    (KPay.rowAt (V21 m ρ c main_v147)) (KPay.rowAt (V21 m ρ c main_v150)) = _
  rw [in46, mean48, var52, g25, be28]

/-! ## Region 3's entry -/

theorem in53 (c : Dev nD) : V23 m ρ c main_v175_0 = A2 m ρ c :=
  (KHostL2.keep_hostOps3_main_v53_0 (W22 m ρ c)).trans
    (((W22_arr m ρ c 5).trans (R10.final5 (V21 m ρ) c)).trans (a2_eq m ρ c))

theorem s3 (c : Dev nD) (cc : Fin 128) :
    W22 m ρ c (Proc.devRef .tc main_v175_1) (ix2 (0 : Fin 1) cc) = BatchNormSpec.colSum (A2 m ρ c) cc := by
  rw [(W22_arr m ρ c 6).trans (R10.final6 (V21 m ρ) c), R10.acc6_eq, a2_eq]

theorem q3 (c : Dev nD) (cc : Fin 128) :
    W22 m ρ c (Proc.devRef .tc main_v175_2) (ix2 (0 : Fin 1) cc) = BatchNormSpec.colSumSq (A2 m ρ c) cc := by
  rw [(W22_arr m ρ c 7).trans (R10.final7 (V21 m ρ) c), R10.acc7_eq, a2_eq]

theorem mean55 (c : Dev nD) : KPay.rowAt (V23 m ρ c main_v177) = BatchNormSpec.mean (GinSpec.N : ℝ) (A2 m ρ c) := by
  funext cc
  rw [N_cast]
  show V23 m ρ c main_v177 (ix2 (0 : Fin 1) cc) = _
  rw [show V23 m ρ c main_v177 = KHost.rowMean (W22 m ρ c (Proc.devRef .tc main_v175_1)) from KHostL2.mean3_eq (W22 m ρ c)]
  exact KHost.rowMean_of_colSum (A2 m ρ c) _ cc (s3 m ρ c cc)

theorem var59 (c : Dev nD) : KPay.rowAt (V23 m ρ c main_v181) = BatchNormSpec.varMoment (GinSpec.N : ℝ) (A2 m ρ c) := by
  funext cc
  rw [N_cast]
  show V23 m ρ c main_v181 (ix2 (0 : Fin 1) cc) = _
  rw [show V23 m ρ c main_v181 = KHost.rowVar (W22 m ρ c (Proc.devRef .tc main_v175_1)) (W22 m ρ c (Proc.devRef .tc main_v175_2))
    from KHostL2.var3_eq (W22 m ρ c)]
  exact KHost.rowVar_of_colSums (A2 m ρ c) _ _ cc (s3 m ρ c cc) (q3 m ρ c cc)

theorem g31 (c : Dev nD) : V23 m ρ c main_v153 = (KHost.rowL 2 slices_S5x128_S1x128_2_0) (W16 m ρ c (Proc.devRef .tc main_arg11)) :=
  (KHostL2.keep_hostOps3_main_v31 (W22 m ρ c)).trans ((W22_of_ne m ρ c main_v153 (by decide)).trans
    ((KHostL2.keep_hostOps2_main_v31 (W20 m ρ c)).trans ((W20_of_ne m ρ c main_v153 (by decide)).trans
      ((KHostL2.keep_hostOps1_main_v31 (W18 m ρ c)).trans ((W18_of_ne m ρ c main_v153 (by decide)).trans (KHostL2.g3_0_eq (W16 m ρ c)))))))
theorem be34 (c : Dev nD) : V23 m ρ c main_v156 = (KHost.rowL 2 slices_S5x128_S1x128_2_0) (W16 m ρ c (Proc.devRef .tc main_arg12)) :=
  (KHostL2.keep_hostOps3_main_v34 (W22 m ρ c)).trans ((W22_of_ne m ρ c main_v156 (by decide)).trans
    ((KHostL2.keep_hostOps2_main_v34 (W20 m ρ c)).trans ((W20_of_ne m ρ c main_v156 (by decide)).trans
      ((KHostL2.keep_hostOps1_main_v34 (W18 m ρ c)).trans ((W18_of_ne m ρ c main_v156 (by decide)).trans (KHostL2.be3_0_eq (W16 m ρ c)))))))

/-! ## The layer -/

/-- After the fourth region the features buffer holds the layer function, with moment variances, of the launch contents. -/
theorem layer_out (c : Dev nD) :
    W24 m ρ c (Proc.devRef .tc main_v182) = GinSpec.layerM eps zero (P0 m ρ c) (Y0 m ρ c) := by
  refine ((W24_arr m ρ c 5).trans (R11.final5 (V23 m ρ) c)).trans ?_
  show BatchNormSpec.normRelu _ _ (V23 m ρ c main_v175_0) (KPay.rowAt (V23 m ρ c main_v177)) (KPay.rowAt (V23 m ρ c main_v181))
    (KPay.rowAt (V23 m ρ c main_v153)) (KPay.rowAt (V23 m ρ c main_v156)) = _
  rw [in53, mean55, var59, g31, be34]
  rfl

/-! ## The arguments read at the layer's end as at its start -/

theorem keep1_main_arg1 (W : Valuation τ sig (Elt Ideal)) :
    after hostOps9 W (Proc.devRef .tc main_arg1) = W (Proc.devRef .tc main_arg1) := by
  after_results
theorem keep1_main_arg2 (W : Valuation τ sig (Elt Ideal)) :
    after hostOps9 W (Proc.devRef .tc main_arg2) = W (Proc.devRef .tc main_arg2) := by
  after_results
theorem keep1_main_arg3 (W : Valuation τ sig (Elt Ideal)) :
    after hostOps9 W (Proc.devRef .tc main_arg3) = W (Proc.devRef .tc main_arg3) := by
  after_results
theorem keep1_main_arg4 (W : Valuation τ sig (Elt Ideal)) :
    after hostOps9 W (Proc.devRef .tc main_arg4) = W (Proc.devRef .tc main_arg4) := by
  after_results
theorem keep1_main_arg5 (W : Valuation τ sig (Elt Ideal)) :
    after hostOps9 W (Proc.devRef .tc main_arg5) = W (Proc.devRef .tc main_arg5) := by
  after_results
theorem keep1_main_arg6 (W : Valuation τ sig (Elt Ideal)) :
    after hostOps9 W (Proc.devRef .tc main_arg6) = W (Proc.devRef .tc main_arg6) := by
  after_results
theorem keep1_main_arg7 (W : Valuation τ sig (Elt Ideal)) :
    after hostOps9 W (Proc.devRef .tc main_arg7) = W (Proc.devRef .tc main_arg7) := by
  after_results
theorem keep1_main_arg8 (W : Valuation τ sig (Elt Ideal)) :
    after hostOps9 W (Proc.devRef .tc main_arg8) = W (Proc.devRef .tc main_arg8) := by
  after_results
theorem keep1_main_arg9 (W : Valuation τ sig (Elt Ideal)) :
    after hostOps9 W (Proc.devRef .tc main_arg9) = W (Proc.devRef .tc main_arg9) := by
  after_results
theorem keep1_main_arg10 (W : Valuation τ sig (Elt Ideal)) :
    after hostOps9 W (Proc.devRef .tc main_arg10) = W (Proc.devRef .tc main_arg10) := by
  after_results
theorem keep1_main_arg11 (W : Valuation τ sig (Elt Ideal)) :
    after hostOps9 W (Proc.devRef .tc main_arg11) = W (Proc.devRef .tc main_arg11) := by
  after_results
theorem keep1_main_arg12 (W : Valuation τ sig (Elt Ideal)) :
    after hostOps9 W (Proc.devRef .tc main_arg12) = W (Proc.devRef .tc main_arg12) := by
  after_results
theorem keep2_main_arg1 (W : Valuation τ sig (Elt Ideal)) :
    after hostOps10 W (Proc.devRef .tc main_arg1) = W (Proc.devRef .tc main_arg1) := by
  after_results
theorem keep2_main_arg2 (W : Valuation τ sig (Elt Ideal)) :
    after hostOps10 W (Proc.devRef .tc main_arg2) = W (Proc.devRef .tc main_arg2) := by
  after_results
theorem keep2_main_arg3 (W : Valuation τ sig (Elt Ideal)) :
    after hostOps10 W (Proc.devRef .tc main_arg3) = W (Proc.devRef .tc main_arg3) := by
  after_results
theorem keep2_main_arg4 (W : Valuation τ sig (Elt Ideal)) :
    after hostOps10 W (Proc.devRef .tc main_arg4) = W (Proc.devRef .tc main_arg4) := by
  after_results
theorem keep2_main_arg5 (W : Valuation τ sig (Elt Ideal)) :
    after hostOps10 W (Proc.devRef .tc main_arg5) = W (Proc.devRef .tc main_arg5) := by
  after_results
theorem keep2_main_arg6 (W : Valuation τ sig (Elt Ideal)) :
    after hostOps10 W (Proc.devRef .tc main_arg6) = W (Proc.devRef .tc main_arg6) := by
  after_results
theorem keep2_main_arg7 (W : Valuation τ sig (Elt Ideal)) :
    after hostOps10 W (Proc.devRef .tc main_arg7) = W (Proc.devRef .tc main_arg7) := by
  after_results
theorem keep2_main_arg8 (W : Valuation τ sig (Elt Ideal)) :
    after hostOps10 W (Proc.devRef .tc main_arg8) = W (Proc.devRef .tc main_arg8) := by
  after_results
theorem keep2_main_arg9 (W : Valuation τ sig (Elt Ideal)) :
    after hostOps10 W (Proc.devRef .tc main_arg9) = W (Proc.devRef .tc main_arg9) := by
  after_results
theorem keep2_main_arg10 (W : Valuation τ sig (Elt Ideal)) :
    after hostOps10 W (Proc.devRef .tc main_arg10) = W (Proc.devRef .tc main_arg10) := by
  after_results
theorem keep2_main_arg11 (W : Valuation τ sig (Elt Ideal)) :
    after hostOps10 W (Proc.devRef .tc main_arg11) = W (Proc.devRef .tc main_arg11) := by
  after_results
theorem keep2_main_arg12 (W : Valuation τ sig (Elt Ideal)) :
    after hostOps10 W (Proc.devRef .tc main_arg12) = W (Proc.devRef .tc main_arg12) := by
  after_results
theorem keep3_main_arg1 (W : Valuation τ sig (Elt Ideal)) :
    after hostOps11 W (Proc.devRef .tc main_arg1) = W (Proc.devRef .tc main_arg1) := by
  after_results
theorem keep3_main_arg2 (W : Valuation τ sig (Elt Ideal)) :
    after hostOps11 W (Proc.devRef .tc main_arg2) = W (Proc.devRef .tc main_arg2) := by
  after_results
theorem keep3_main_arg3 (W : Valuation τ sig (Elt Ideal)) :
    after hostOps11 W (Proc.devRef .tc main_arg3) = W (Proc.devRef .tc main_arg3) := by
  after_results
theorem keep3_main_arg4 (W : Valuation τ sig (Elt Ideal)) :
    after hostOps11 W (Proc.devRef .tc main_arg4) = W (Proc.devRef .tc main_arg4) := by
  after_results
theorem keep3_main_arg5 (W : Valuation τ sig (Elt Ideal)) :
    after hostOps11 W (Proc.devRef .tc main_arg5) = W (Proc.devRef .tc main_arg5) := by
  after_results
theorem keep3_main_arg6 (W : Valuation τ sig (Elt Ideal)) :
    after hostOps11 W (Proc.devRef .tc main_arg6) = W (Proc.devRef .tc main_arg6) := by
  after_results
theorem keep3_main_arg7 (W : Valuation τ sig (Elt Ideal)) :
    after hostOps11 W (Proc.devRef .tc main_arg7) = W (Proc.devRef .tc main_arg7) := by
  after_results
theorem keep3_main_arg8 (W : Valuation τ sig (Elt Ideal)) :
    after hostOps11 W (Proc.devRef .tc main_arg8) = W (Proc.devRef .tc main_arg8) := by
  after_results
theorem keep3_main_arg9 (W : Valuation τ sig (Elt Ideal)) :
    after hostOps11 W (Proc.devRef .tc main_arg9) = W (Proc.devRef .tc main_arg9) := by
  after_results
theorem keep3_main_arg10 (W : Valuation τ sig (Elt Ideal)) :
    after hostOps11 W (Proc.devRef .tc main_arg10) = W (Proc.devRef .tc main_arg10) := by
  after_results
theorem keep3_main_arg11 (W : Valuation τ sig (Elt Ideal)) :
    after hostOps11 W (Proc.devRef .tc main_arg11) = W (Proc.devRef .tc main_arg11) := by
  after_results
theorem keep3_main_arg12 (W : Valuation τ sig (Elt Ideal)) :
    after hostOps11 W (Proc.devRef .tc main_arg12) = W (Proc.devRef .tc main_arg12) := by
  after_results
theorem args_main_arg1 (c : Dev nD) : W24 m ρ c (Proc.devRef .tc main_arg1) = W16 m ρ c (Proc.devRef .tc main_arg1) :=
  (W24_of_ne m ρ c main_arg1 (by decide)).trans ((keep3_main_arg1 (W22 m ρ c)).trans ((W22_of_ne m ρ c main_arg1 (by decide)).trans
    ((keep2_main_arg1 (W20 m ρ c)).trans ((W20_of_ne m ρ c main_arg1 (by decide)).trans
      ((keep1_main_arg1 (W18 m ρ c)).trans ((W18_of_ne m ρ c main_arg1 (by decide)).trans (keep0_main_arg1 (W16 m ρ c))))))))
theorem args_main_arg2 (c : Dev nD) : W24 m ρ c (Proc.devRef .tc main_arg2) = W16 m ρ c (Proc.devRef .tc main_arg2) :=
  (W24_of_ne m ρ c main_arg2 (by decide)).trans ((keep3_main_arg2 (W22 m ρ c)).trans ((W22_of_ne m ρ c main_arg2 (by decide)).trans
    ((keep2_main_arg2 (W20 m ρ c)).trans ((W20_of_ne m ρ c main_arg2 (by decide)).trans
      ((keep1_main_arg2 (W18 m ρ c)).trans ((W18_of_ne m ρ c main_arg2 (by decide)).trans (keep0_main_arg2 (W16 m ρ c))))))))
theorem args_main_arg3 (c : Dev nD) : W24 m ρ c (Proc.devRef .tc main_arg3) = W16 m ρ c (Proc.devRef .tc main_arg3) :=
  (W24_of_ne m ρ c main_arg3 (by decide)).trans ((keep3_main_arg3 (W22 m ρ c)).trans ((W22_of_ne m ρ c main_arg3 (by decide)).trans
    ((keep2_main_arg3 (W20 m ρ c)).trans ((W20_of_ne m ρ c main_arg3 (by decide)).trans
      ((keep1_main_arg3 (W18 m ρ c)).trans ((W18_of_ne m ρ c main_arg3 (by decide)).trans (keep0_main_arg3 (W16 m ρ c))))))))
theorem args_main_arg4 (c : Dev nD) : W24 m ρ c (Proc.devRef .tc main_arg4) = W16 m ρ c (Proc.devRef .tc main_arg4) :=
  (W24_of_ne m ρ c main_arg4 (by decide)).trans ((keep3_main_arg4 (W22 m ρ c)).trans ((W22_of_ne m ρ c main_arg4 (by decide)).trans
    ((keep2_main_arg4 (W20 m ρ c)).trans ((W20_of_ne m ρ c main_arg4 (by decide)).trans
      ((keep1_main_arg4 (W18 m ρ c)).trans ((W18_of_ne m ρ c main_arg4 (by decide)).trans (keep0_main_arg4 (W16 m ρ c))))))))
theorem args_main_arg5 (c : Dev nD) : W24 m ρ c (Proc.devRef .tc main_arg5) = W16 m ρ c (Proc.devRef .tc main_arg5) :=
  (W24_of_ne m ρ c main_arg5 (by decide)).trans ((keep3_main_arg5 (W22 m ρ c)).trans ((W22_of_ne m ρ c main_arg5 (by decide)).trans
    ((keep2_main_arg5 (W20 m ρ c)).trans ((W20_of_ne m ρ c main_arg5 (by decide)).trans
      ((keep1_main_arg5 (W18 m ρ c)).trans ((W18_of_ne m ρ c main_arg5 (by decide)).trans (keep0_main_arg5 (W16 m ρ c))))))))
theorem args_main_arg6 (c : Dev nD) : W24 m ρ c (Proc.devRef .tc main_arg6) = W16 m ρ c (Proc.devRef .tc main_arg6) :=
  (W24_of_ne m ρ c main_arg6 (by decide)).trans ((keep3_main_arg6 (W22 m ρ c)).trans ((W22_of_ne m ρ c main_arg6 (by decide)).trans
    ((keep2_main_arg6 (W20 m ρ c)).trans ((W20_of_ne m ρ c main_arg6 (by decide)).trans
      ((keep1_main_arg6 (W18 m ρ c)).trans ((W18_of_ne m ρ c main_arg6 (by decide)).trans (keep0_main_arg6 (W16 m ρ c))))))))
theorem args_main_arg7 (c : Dev nD) : W24 m ρ c (Proc.devRef .tc main_arg7) = W16 m ρ c (Proc.devRef .tc main_arg7) :=
  (W24_of_ne m ρ c main_arg7 (by decide)).trans ((keep3_main_arg7 (W22 m ρ c)).trans ((W22_of_ne m ρ c main_arg7 (by decide)).trans
    ((keep2_main_arg7 (W20 m ρ c)).trans ((W20_of_ne m ρ c main_arg7 (by decide)).trans
      ((keep1_main_arg7 (W18 m ρ c)).trans ((W18_of_ne m ρ c main_arg7 (by decide)).trans (keep0_main_arg7 (W16 m ρ c))))))))
theorem args_main_arg8 (c : Dev nD) : W24 m ρ c (Proc.devRef .tc main_arg8) = W16 m ρ c (Proc.devRef .tc main_arg8) :=
  (W24_of_ne m ρ c main_arg8 (by decide)).trans ((keep3_main_arg8 (W22 m ρ c)).trans ((W22_of_ne m ρ c main_arg8 (by decide)).trans
    ((keep2_main_arg8 (W20 m ρ c)).trans ((W20_of_ne m ρ c main_arg8 (by decide)).trans
      ((keep1_main_arg8 (W18 m ρ c)).trans ((W18_of_ne m ρ c main_arg8 (by decide)).trans (keep0_main_arg8 (W16 m ρ c))))))))
theorem args_main_arg9 (c : Dev nD) : W24 m ρ c (Proc.devRef .tc main_arg9) = W16 m ρ c (Proc.devRef .tc main_arg9) :=
  (W24_of_ne m ρ c main_arg9 (by decide)).trans ((keep3_main_arg9 (W22 m ρ c)).trans ((W22_of_ne m ρ c main_arg9 (by decide)).trans
    ((keep2_main_arg9 (W20 m ρ c)).trans ((W20_of_ne m ρ c main_arg9 (by decide)).trans
      ((keep1_main_arg9 (W18 m ρ c)).trans ((W18_of_ne m ρ c main_arg9 (by decide)).trans (keep0_main_arg9 (W16 m ρ c))))))))
theorem args_main_arg10 (c : Dev nD) : W24 m ρ c (Proc.devRef .tc main_arg10) = W16 m ρ c (Proc.devRef .tc main_arg10) :=
  (W24_of_ne m ρ c main_arg10 (by decide)).trans ((keep3_main_arg10 (W22 m ρ c)).trans ((W22_of_ne m ρ c main_arg10 (by decide)).trans
    ((keep2_main_arg10 (W20 m ρ c)).trans ((W20_of_ne m ρ c main_arg10 (by decide)).trans
      ((keep1_main_arg10 (W18 m ρ c)).trans ((W18_of_ne m ρ c main_arg10 (by decide)).trans (keep0_main_arg10 (W16 m ρ c))))))))
theorem args_main_arg11 (c : Dev nD) : W24 m ρ c (Proc.devRef .tc main_arg11) = W16 m ρ c (Proc.devRef .tc main_arg11) :=
  (W24_of_ne m ρ c main_arg11 (by decide)).trans ((keep3_main_arg11 (W22 m ρ c)).trans ((W22_of_ne m ρ c main_arg11 (by decide)).trans
    ((keep2_main_arg11 (W20 m ρ c)).trans ((W20_of_ne m ρ c main_arg11 (by decide)).trans
      ((keep1_main_arg11 (W18 m ρ c)).trans ((W18_of_ne m ρ c main_arg11 (by decide)).trans (keep0_main_arg11 (W16 m ρ c))))))))
theorem args_main_arg12 (c : Dev nD) : W24 m ρ c (Proc.devRef .tc main_arg12) = W16 m ρ c (Proc.devRef .tc main_arg12) :=
  (W24_of_ne m ρ c main_arg12 (by decide)).trans ((keep3_main_arg12 (W22 m ρ c)).trans ((W22_of_ne m ρ c main_arg12 (by decide)).trans
    ((keep2_main_arg12 (W20 m ρ c)).trans ((W20_of_ne m ρ c main_arg12 (by decide)).trans
      ((keep1_main_arg12 (W18 m ρ c)).trans ((W18_of_ne m ρ c main_arg12 (by decide)).trans (keep0_main_arg12 (W16 m ρ c))))))))

end Cert.KernelIdeal.Layer2

end
-- ==== Proof.R12Value.lean ====
/-
  The first kernel of layer 3, read as values, at any float instance. At each of its five grid points the kernel stores the
  dense layer of the point's tile of 10000 rows, and keeps two running rows: at the first point it sets them to the zero
  row plus the tile's column sums (of the result, and of its squares); at every later point it adds the tile's column sums
  to what the point before left. So after point n the three output buffers hold the dense layer of tile n and the two
  accumulations over tiles 0..n (by induction on the point).
-/
import proofs.«113410_j5944234737805_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R12

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem out_A_3 (c : Dev nD) (i : grid12.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond12_0 i)
    (x0 : Vec F S10000x128 .f32) (x1 : Vec F S128x128 .f32) (x2 : Vec F S1x128 .f32) :
    out12_A_3 c i a1 h1 a2 h2 a3 h3 a4 h4 a5 h5 a6 h6 hc x0 x1 x2 = k12_pay3 x0 x1 x2 := by
  unfold out12_A_3
  rw [View.read_writes_eq_canon _ _ _ (cover12_A_3 c i a1 h1 a2 h2 a3 h3 a4 h4 a5 h5 a6 h6 hc x0 x1 x2)]
  unfold kernelRun12_A
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

theorem out_A_4 (c : Dev nD) (i : grid12.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond12_0 i)
    (x0 : Vec F S10000x128 .f32) (x1 : Vec F S128x128 .f32) (x2 : Vec F S1x128 .f32) :
    out12_A_4 c i a1 h1 a2 h2 a3 h3 a4 h4 a5 h5 a6 h6 hc x0 x1 x2 = k12_pay4 x0 x1 x2 k12_pay1 := by
  unfold out12_A_4
  rw [View.read_writes_eq_canon _ _ _ (cover12_A_4 c i a1 h1 a2 h2 a3 h3 a4 h4 a5 h5 a6 h6 hc x0 x1 x2)]
  unfold kernelRun12_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S10000x128) hz, View.ld_unit_zero (S := S128x128) hz, View.ld_unit_zero (S := S1x128) hz]

theorem out_A_5 (c : Dev nD) (i : grid12.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond12_0 i)
    (x0 : Vec F S10000x128 .f32) (x1 : Vec F S128x128 .f32) (x2 : Vec F S1x128 .f32) :
    out12_A_5 c i a1 h1 a2 h2 a3 h3 a4 h4 a5 h5 a6 h6 hc x0 x1 x2 = k12_pay5 x0 x1 x2 k12_pay2 := by
  unfold out12_A_5
  rw [View.read_writes_eq_canon _ _ _ (cover12_A_5 c i a1 h1 a2 h2 a3 h3 a4 h4 a5 h5 a6 h6 hc x0 x1 x2)]
  unfold kernelRun12_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S10000x128) hz, View.ld_unit_zero (S := S128x128) hz, View.ld_unit_zero (S := S1x128) hz]

theorem out_B_3 (c : Dev nD) (i : grid12.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond12_0 i)
    (x0 : Vec F S10000x128 .f32) (x1 : Vec F S128x128 .f32) (x2 : Vec F S1x128 .f32) (xo4 xo5 : Vec F S1x128 .f32) :
    out12_B_3 c i a1 h1 a2 h2 a3 h3 a4 h4 a5 h5 a6 h6 hc x0 x1 x2 xo4 xo5 = k12_pay3 x0 x1 x2 := by
  unfold out12_B_3
  rw [View.read_writes_eq_canon _ _ _ (cover12_B_3 c i a1 h1 a2 h2 a3 h3 a4 h4 a5 h5 a6 h6 hc x0 x1 x2 xo4 xo5)]
  unfold kernelRun12_B
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

theorem out_B_4 (c : Dev nD) (i : grid12.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond12_0 i)
    (x0 : Vec F S10000x128 .f32) (x1 : Vec F S128x128 .f32) (x2 : Vec F S1x128 .f32) (xo4 xo5 : Vec F S1x128 .f32) :
    out12_B_4 c i a1 h1 a2 h2 a3 h3 a4 h4 a5 h5 a6 h6 hc x0 x1 x2 xo4 xo5 = k12_pay4 x0 x1 x2 xo4 := by
  unfold out12_B_4
  rw [View.read_writes_eq_canon _ _ _ (cover12_B_4 c i a1 h1 a2 h2 a3 h3 a4 h4 a5 h5 a6 h6 hc x0 x1 x2 xo4 xo5)]
  unfold kernelRun12_B
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

theorem out_B_5 (c : Dev nD) (i : grid12.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond12_0 i)
    (x0 : Vec F S10000x128 .f32) (x1 : Vec F S128x128 .f32) (x2 : Vec F S1x128 .f32) (xo4 xo5 : Vec F S1x128 .f32) :
    out12_B_5 c i a1 h1 a2 h2 a3 h3 a4 h4 a5 h5 a6 h6 hc x0 x1 x2 xo4 xo5 = k12_pay5 x0 x1 x2 xo5 := by
  unfold out12_B_5
  rw [View.read_writes_eq_canon _ _ _ (cover12_B_5 c i a1 h1 a2 h2 a3 h3 a4 h4 a5 h5 a6 h6 hc x0 x1 x2 xo4 xo5)]
  unfold kernelRun12_B
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

/-- The running column sums of the rows seen so far: tile 0 added to the zero row, then one tile per point. -/
def acc4 (c : Dev nD) : (n : ℕ) → n < cfg12.N → Vec F S1x128 .f32
  | 0, h => k12_pay4 (iblk12 V c 0 ⟨0, h⟩) (iblk12 V c 1 ⟨0, h⟩) (iblk12 V c 2 ⟨0, h⟩) k12_pay1
  | n + 1, h => k12_pay4 (iblk12 V c 0 ⟨n + 1, h⟩) (iblk12 V c 1 ⟨n + 1, h⟩) (iblk12 V c 2 ⟨n + 1, h⟩) (acc4 c n (Nat.lt_of_succ_lt h))

/-- The same for the squares. -/
def acc5 (c : Dev nD) : (n : ℕ) → n < cfg12.N → Vec F S1x128 .f32
  | 0, h => k12_pay5 (iblk12 V c 0 ⟨0, h⟩) (iblk12 V c 1 ⟨0, h⟩) (iblk12 V c 2 ⟨0, h⟩) k12_pay2
  | n + 1, h => k12_pay5 (iblk12 V c 0 ⟨n + 1, h⟩) (iblk12 V c 1 ⟨n + 1, h⟩) (iblk12 V c 2 ⟨n + 1, h⟩) (acc5 c n (Nat.lt_of_succ_lt h))

/-- After point n the three output buffers hold: the dense layer of tile n; the column sums of tiles 0..n; the column sums
    of their squares. By induction on the point. -/
theorem outsAt_eq (c : Dev nD) : ∀ (n : ℕ) (h : n < cfg12.N),
    outsAt12 V c n h = (k12_pay3 (iblk12 V c 0 ⟨n, h⟩) (iblk12 V c 1 ⟨n, h⟩) (iblk12 V c 2 ⟨n, h⟩), acc4 V c n h, acc5 V c n h)
  | 0, h => (outsAt12_A V c ⟨0, h⟩ rfl).trans (by
      rw [out_A_3, out_A_4, out_A_5]
      rfl)
  | n + 1, h => by
    have hN : cfg12.N = 5 := N_12
    have hB : ¬(⟨n + 1, h⟩ : Fin cfg12.N).val % 5 = 0 := by dsimp only; omega
    rw [outsAt12_B V c ⟨n + 1, h⟩ hB, out_B_3, out_B_4, out_B_5]
    show (k12_pay3 _ _ _, k12_pay4 _ _ _ (outsAt12 V c n _).2.1, k12_pay5 _ _ _ (outsAt12 V c n _).2.2)
      = (k12_pay3 _ _ _, k12_pay4 _ _ _ (acc4 V c n _), k12_pay5 _ _ _ (acc5 V c n _))
    rw [outsAt_eq c n]

end Cert.KernelIdeal.R12
-- ==== Proof.KPay0_L3.lean ====
/-
  The arithmetic of the first kernel of a layer, at the exact values. From a tile `x` of 10000 rows, the weights `w` and
  the bias row `b` it stores the dense layer `x · w + b` of the tile, and adds to two running rows the column sums of that
  result and the column sums of its squares.
-/
import proofs.«113410_j5944234737805_1_alg».proof.Proof.Gen.KernelIdeal.Skeleton
import proofs.«113410_j5944234737805_1_alg».proof.Proof.LibDense
import proofs.«113410_j5944234737805_1_alg».proof.Proof.LibBatchNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPayL3

open Cert.KernelIdeal Cert.KernelIdeal.Gen Idealize.ShloMosaic Idealize.ShloMosaic.TcCoe Idealize.ShloMosaic.ValueIdx

/-- The dense layer of a tile. -/
theorem pay3_eq (x : Vec Ideal S10000x128 .f32) (w : Vec Ideal S128x128 .f32) (b : Vec Ideal S1x128 .f32) :
    k12_pay3 (F := Ideal) x w b = DenseSpec.dense x w b := by
  unfold k12_pay3
  dsimp only
  rw [shapeCast_self, shapeCast_self, shapeCast_self]
  exact DenseSpec.matmul_bias dot_S10000x128_S128x128_S10000x128_1_0_0_1_n_n_wf none
    (truncf .bf16 x bitsLt_bf16_f32) (truncf .bf16 w bitsLt_bf16_f32) b broadcasts_S1x128_S10000x128

/-- The column sums of a tile, added to the running row. -/
theorem pay4_apply (x : Vec Ideal S10000x128 .f32) (w : Vec Ideal S128x128 .f32) (b acc : Vec Ideal S1x128 .f32) (c : Fin 128) :
    k12_pay4 (F := Ideal) x w b acc (ix2 (0 : Fin 1) c)
      = acc (ix2 (0 : Fin 1) c) + ∑ q : Fin 10000, DenseSpec.dense x w b (ix2 q c) := by
  unfold k12_pay4
  dsimp only
  rw [addf_apply, shapeCast_self]
  refine congrArg (acc (ix2 (0 : Fin 1) c) + ·) ?_
  refine (DenseSpec.shapeCast_row_apply _ shapeCasts_S128_S1x128 (0 : Fin 1) c).trans ?_
  refine (Ideal.multiReduction_add_single (k12_pay3 (F := Ideal) x w b) 0x00000000#32 reduces_S10000x128_S128 (.inl rfl) rfl (ix1 c)).trans ?_
  rw [pay3_eq]
  exact Finset.sum_congr rfl fun q _ => congrArg _ (funext fun a => Fin.ext (by
    match a with
    | ⟨0, _⟩ => rfl
    | ⟨1, _⟩ => rfl))

/-- The column sums of the squares of a tile, added to the running row. -/
theorem pay5_apply (x : Vec Ideal S10000x128 .f32) (w : Vec Ideal S128x128 .f32) (b acc : Vec Ideal S1x128 .f32) (c : Fin 128) :
    k12_pay5 (F := Ideal) x w b acc (ix2 (0 : Fin 1) c)
      = acc (ix2 (0 : Fin 1) c) + ∑ q : Fin 10000, DenseSpec.dense x w b (ix2 q c) * DenseSpec.dense x w b (ix2 q c) := by
  unfold k12_pay5
  dsimp only
  rw [addf_apply, shapeCast_self]
  refine congrArg (acc (ix2 (0 : Fin 1) c) + ·) ?_
  refine (DenseSpec.shapeCast_row_apply _ shapeCasts_S128_S1x128 (0 : Fin 1) c).trans ?_
  refine (Ideal.multiReduction_add_single (mulf (k12_pay3 (F := Ideal) x w b) (k12_pay3 (F := Ideal) x w b)) 0x00000000#32
    reduces_S10000x128_S128 (.inl rfl) rfl (ix1 c)).trans ?_
  rw [pay3_eq]
  exact Finset.sum_congr rfl fun q _ => by
    rw [mulf_apply]
    have e : (reduces_S10000x128_S128.lift (ix1 c) q : S10000x128.Idx) = ix2 q c := funext fun a => Fin.ext (by
      match a with
      | ⟨0, _⟩ => rfl
      | ⟨1, _⟩ => rfl)
    rw [e]
    rfl

/-- The row the first grid point starts the accumulation from is the zero row. -/
theorem pay1_apply (i : S1x128.Idx) : k12_pay1 (F := Ideal) i = 0 := by
  show Ideal.ofBits .f32 0x00000000#32 = 0
  exact Ideal.ofBits_zero_f32
theorem pay2_apply (i : S1x128.Idx) : k12_pay2 (F := Ideal) i = 0 := by
  show Ideal.ofBits .f32 0x00000000#32 = 0
  exact Ideal.ofBits_zero_f32

end Cert.KernelIdeal.KPayL3

end
-- ==== Proof.R12Array.lean ====
/-
  The first kernel of layer 3: what its three output arrays hold when the region ends, at the exact values. The grid has
  five points; point t reads rows 10000·t … 10000·t + 9999 of the input (every column), the whole weight matrix and the
  whole bias row, and writes back the same rows of the output. So the output array is the dense layer of the whole input,
  row by row. The two running rows are written back once, after the last point.
-/
import proofs.«113410_j5944234737805_1_alg».proof.Proof.R12Value
import proofs.«113410_j5944234737805_1_alg».proof.Proof.KPay0_L3
import proofs.«113410_j5944234737805_1_alg».proof.Proof.GinTiles
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.R12

open Cert.KernelIdeal Cert.KernelIdeal.Gen

variable (V : (c : Dev nD) → (b : Ref sig .tc) → Buf (Elt Ideal) ((c : Thread nD τ).loc b))

/-- The block indices of the six windows at each grid point: the row windows move with the point, the others stay. -/
theorem idx_facts : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0 :=
  (by decide +kernel : ∀ t : Fin grid12.N, _)

/-- Row q of the tile of point t. -/
abbrev rowK (t : Fin cfg12.N) (q : Fin 10000) : Fin 50000 :=
  ⟨10000 * t.val + q.val, by have := t.isLt; have hN : cfg12.N = 5 := N_12; have := q.isLt; omega⟩

/-- The input tile of point t, read through its window, is rows 10000·t + q of the input array. -/
theorem tile_apply (c : Dev nD) (t : Fin cfg12.N) (q : Fin 10000) (k : Fin 128) :
    iblk12 V c 0 t (ix2 q k) = V c main_v193 (ix2 (rowK t q) k) := by
  obtain ⟨e0, e1, -⟩ := idx_facts t
  unfold iblk12
  rw [View.read_apply]
  show V c main_v193 _ = V c main_v193 _
  congr 1
  funext a
  apply Fin.ext
  match a with
  | ⟨0, _⟩ => show win12_0.index t (0 : Fin 2) * 10000 + 1 * q.val = 10000 * t.val + q.val; rw [e0]; omega
  | ⟨1, _⟩ => show win12_0.index t (1 : Fin 2) * 128 + 1 * k.val = k.val; rw [e1]; omega

/-- The weights' block at every point is the whole weight matrix. -/
theorem w_blk (c : Dev nD) (t : Fin cfg12.N) : iblk12 V c 1 t = V c main_v219 := by
  obtain ⟨-, -, e2, e3, -⟩ := idx_facts t
  funext j
  unfold iblk12
  rw [View.read_apply]
  show V c main_v219 _ = V c main_v219 j
  congr 1
  funext a
  apply Fin.ext
  match a with
  | ⟨0, _⟩ => show win12_1.index t (0 : Fin 2) * 128 + 1 * (j 0).val = (j 0).val; rw [e2]; omega
  | ⟨1, _⟩ => show win12_1.index t (1 : Fin 2) * 128 + 1 * (j 1).val = (j 1).val; rw [e3]; omega

/-- The bias row's block at every point is the whole row. -/
theorem b_blk (c : Dev nD) (t : Fin cfg12.N) : iblk12 V c 2 t = V c main_v196 := by
  obtain ⟨-, -, -, -, e4, e5, -⟩ := idx_facts t
  funext j
  unfold iblk12
  rw [View.read_apply]
  show V c main_v196 _ = V c main_v196 j
  congr 1
  funext a
  apply Fin.ext
  match a with
  | ⟨0, _⟩ => show win12_2.index t (0 : Fin 2) * 1 + 1 * (j 0).val = (j 0).val; rw [e4]; omega
  | ⟨1, _⟩ => show win12_2.index t (1 : Fin 2) * 128 + 1 * (j 1).val = (j 1).val; rw [e5]; omega

/-- The dense layer of the whole input: what the first output array ends holding. -/
def X1 (c : Dev nD) : S50000x128.Idx → EReal := DenseSpec.dense (V c main_v193) (V c main_v219) (V c main_v196)

/-- What point t writes back is rows 10000·t … of the dense layer of the whole input. -/
theorem flushed3_eq (c : Dev nD) (t : Fin cfg12.N) :
    (dat12 V c).flushed 3 t = ((cfg12.win 3).blk t).view.read (Elt Ideal) (X1 V c) := by
  obtain ⟨-, -, -, -, -, -, e6, e7, -⟩ := idx_facts t
  show (cfg12.win 3).cut (grid12.coords t) ((dat12 V c).after 3 t) = _
  rw [after12_3, outsAt_eq V c t.val t.isLt]
  funext j
  obtain ⟨q, k, rfl⟩ : ∃ (q : Fin 10000) (k : Fin 128), j = ix2 q k := ⟨j 0, j 1, eq_ix2 j⟩
  show k12_pay3 (iblk12 V c 0 t) (iblk12 V c 1 t) (iblk12 V c 2 t) (ix2 q k) = X1 V c (((cfg12.win 3).blk t).view.emb (ix2 q k))
  rw [KPayL3.pay3_eq, w_blk, b_blk]
  have hemb : ((cfg12.win 3).blk t).view.emb (ix2 q k) = ix2 (rowK t q) k := by
    funext a
    apply Fin.ext
    match a with
    | ⟨0, _⟩ => show win12_3.index t (0 : Fin 2) * 10000 + 1 * q.val = 10000 * t.val + q.val; rw [e6]; omega
    | ⟨1, _⟩ => show win12_3.index t (1 : Fin 2) * 128 + 1 * k.val = k.val; rw [e7]; omega
  rw [hemb]
  exact DenseSpec.dense_rows (V c main_v193) (iblk12 V c 0 t) (V c main_v219) (V c main_v196) (rowK t q) q
    (fun k' => tile_apply V c t q k') k

/-- An index of the output array is in point t's block iff each coordinate is in the block's range. -/
theorem mem_blk3 (t : Fin cfg12.N) (i : S50000x128.Idx) :
    i ∈ ((cfg12.win 3).blk t).view.set ↔ ∀ a : Fin 2, win12_3.index t a * S10000x128.size a ≤ (i a).val
      ∧ (i a).val < win12_3.index t a * S10000x128.size a + S10000x128.size a := by
  show i ∈ ((View.whole main_v220_0).slice (win12_3.rect t)).set ↔ _
  rw [View.set_slice_whole, Rect.mem_set_unit]
  exact Iff.rfl

/-- The first output array when the region ends: the dense layer of the whole input. -/
theorem final3 (c : Dev nD) : (dat12 V c).arrAt 3 cfg12.N = X1 V c :=
  (dat12 V c).arrAt_eq_of_cover 3 (X1 V c) (fun t _ => flushed3_eq V c t) fun i => by
    have hi0 : (i 0).val < 50000 := (i 0).isLt
    have hi1 : (i 1).val < 128 := (i 1).isLt
    have hN : cfg12.N = 5 := N_12
    obtain ⟨-, -, -, -, -, -, e6, e7, -⟩ := idx_facts ⟨(i 0).val / 10000, by omega⟩
    refine ⟨⟨(i 0).val / 10000, by omega⟩, flush12_3 _, ?_⟩
    rw [mem_blk3]
    intro a
    match a with
    | ⟨0, _⟩ =>
      show win12_3.index ⟨(i 0).val / 10000, _⟩ (0 : Fin 2) * 10000 ≤ (i 0).val
        ∧ (i 0).val < win12_3.index ⟨(i 0).val / 10000, _⟩ (0 : Fin 2) * 10000 + 10000
      rw [e6]; dsimp only; omega
    | ⟨1, _⟩ =>
      show win12_3.index ⟨(i 0).val / 10000, _⟩ (1 : Fin 2) * 128 ≤ (i 1).val
        ∧ (i 1).val < win12_3.index ⟨(i 0).val / 10000, _⟩ (1 : Fin 2) * 128 + 128
      rw [e7]; omega

/-! ## The two running rows -/

/-- The last grid point. -/
abbrev tLast : Fin cfg12.N := ⟨4, by rw [show cfg12.N = 5 from N_12]; decide⟩

/-- Point 4 is a point of the grid. -/
theorem h4 : 4 < cfg12.N := tLast.isLt

/-- An index of running row 4's array is in point t's block iff each coordinate is in the block's range. -/
theorem mem_blk4 (t : Fin cfg12.N) (i : S1x128.Idx) :
    i ∈ ((cfg12.win 4).blk t).view.set ↔ ∀ a : Fin 2, win12_4.index t a * S1x128.size a ≤ (i a).val
      ∧ (i a).val < win12_4.index t a * S1x128.size a + S1x128.size a := by
  show i ∈ ((View.whole main_v220_1).slice (win12_4.rect t)).set ↔ _
  rw [View.set_slice_whole, Rect.mem_set_unit]
  exact Iff.rfl

/-- The one write-back of running row 4, after the last point, writes the row as it stands after point 4. -/
theorem flushed4_eq (c : Dev nD) (t : Fin cfg12.N) (hf : (cfg12.win 4).flush t = true) :
    (dat12 V c).flushed 4 t = ((cfg12.win 4).blk t).view.read (Elt Ideal) (acc4 V c 4 h4) := by
  have hN : cfg12.N = 5 := N_12
  have ht : t.val = 4 := by have := (flush12_4 t).mp hf; have := t.isLt; omega
  obtain rfl : t = tLast := Fin.ext ht
  obtain ⟨-, -, -, -, -, -, -, -, ea, eb, -⟩ := idx_facts tLast
  show (cfg12.win 4).cut (grid12.coords tLast) ((dat12 V c).after 4 tLast) = _
  rw [after12_4, outsAt_eq V c tLast.val tLast.isLt]
  funext j
  show acc4 V c 4 _ j = acc4 V c 4 _ (((cfg12.win 4).blk tLast).view.emb j)
  congr 1
  funext a
  apply Fin.ext
  match a with
  | ⟨0, _⟩ => show (j 0).val = win12_4.index tLast (0 : Fin 2) * 1 + 1 * (j 0).val; rw [ea]; omega
  | ⟨1, _⟩ => show (j 1).val = win12_4.index tLast (1 : Fin 2) * 128 + 1 * (j 1).val; rw [eb]; omega

/-- Running row 4's array when the region ends. -/
theorem final4 (c : Dev nD) : (dat12 V c).arrAt 4 cfg12.N = acc4 V c 4 h4 :=
  (dat12 V c).arrAt_eq_of_cover 4 (acc4 V c 4 h4) (flushed4_eq V c) fun i => by
    have hi0 : (i 0).val < 1 := (i 0).isLt
    have hi1 : (i 1).val < 128 := (i 1).isLt
    obtain ⟨-, -, -, -, -, -, -, -, ea, eb, -⟩ := idx_facts tLast
    refine ⟨tLast, (flush12_4 tLast).mpr rfl, ?_⟩
    rw [mem_blk4]
    intro a
    match a with
    | ⟨0, _⟩ =>
      show win12_4.index tLast (0 : Fin 2) * 1 ≤ (i 0).val ∧ (i 0).val < win12_4.index tLast (0 : Fin 2) * 1 + 1
      rw [ea]; omega
    | ⟨1, _⟩ =>
      show win12_4.index tLast (1 : Fin 2) * 128 ≤ (i 1).val ∧ (i 1).val < win12_4.index tLast (1 : Fin 2) * 128 + 128
      rw [eb]; omega

/-- An index of running row 5's array is in point t's block iff each coordinate is in the block's range. -/
theorem mem_blk5 (t : Fin cfg12.N) (i : S1x128.Idx) :
    i ∈ ((cfg12.win 5).blk t).view.set ↔ ∀ a : Fin 2, win12_5.index t a * S1x128.size a ≤ (i a).val
      ∧ (i a).val < win12_5.index t a * S1x128.size a + S1x128.size a := by
  show i ∈ ((View.whole main_v220_2).slice (win12_5.rect t)).set ↔ _
  rw [View.set_slice_whole, Rect.mem_set_unit]
  exact Iff.rfl

/-- The one write-back of running row 5, after the last point, writes the row as it stands after point 4. -/
theorem flushed5_eq (c : Dev nD) (t : Fin cfg12.N) (hf : (cfg12.win 5).flush t = true) :
    (dat12 V c).flushed 5 t = ((cfg12.win 5).blk t).view.read (Elt Ideal) (acc5 V c 4 h4) := by
  have hN : cfg12.N = 5 := N_12
  have ht : t.val = 4 := by have := (flush12_5 t).mp hf; have := t.isLt; omega
  obtain rfl : t = tLast := Fin.ext ht
  obtain ⟨-, -, -, -, -, -, -, -, -, -, ea, eb⟩ := idx_facts tLast
  show (cfg12.win 5).cut (grid12.coords tLast) ((dat12 V c).after 5 tLast) = _
  rw [after12_5, outsAt_eq V c tLast.val tLast.isLt]
  funext j
  show acc5 V c 4 _ j = acc5 V c 4 _ (((cfg12.win 5).blk tLast).view.emb j)
  congr 1
  funext a
  apply Fin.ext
  match a with
  | ⟨0, _⟩ => show (j 0).val = win12_5.index tLast (0 : Fin 2) * 1 + 1 * (j 0).val; rw [ea]; omega
  | ⟨1, _⟩ => show (j 1).val = win12_5.index tLast (1 : Fin 2) * 128 + 1 * (j 1).val; rw [eb]; omega

/-- Running row 5's array when the region ends. -/
theorem final5 (c : Dev nD) : (dat12 V c).arrAt 5 cfg12.N = acc5 V c 4 h4 :=
  (dat12 V c).arrAt_eq_of_cover 5 (acc5 V c 4 h4) (flushed5_eq V c) fun i => by
    have hi0 : (i 0).val < 1 := (i 0).isLt
    have hi1 : (i 1).val < 128 := (i 1).isLt
    obtain ⟨-, -, -, -, -, -, -, -, -, -, ea, eb⟩ := idx_facts tLast
    refine ⟨tLast, (flush12_5 tLast).mpr rfl, ?_⟩
    rw [mem_blk5]
    intro a
    match a with
    | ⟨0, _⟩ =>
      show win12_5.index tLast (0 : Fin 2) * 1 ≤ (i 0).val ∧ (i 0).val < win12_5.index tLast (0 : Fin 2) * 1 + 1
      rw [ea]; omega
    | ⟨1, _⟩ =>
      show win12_5.index tLast (1 : Fin 2) * 128 ≤ (i 1).val ∧ (i 1).val < win12_5.index tLast (1 : Fin 2) * 128 + 128
      rw [eb]; omega

/-! ## The running rows are the column sums -/

/-- The dense layer of a tile is the matching rows of the dense layer of the whole input. -/
theorem tile_dense (c : Dev nD) (t : Fin cfg12.N) (q : Fin 10000) (k : Fin 128) :
    DenseSpec.dense (iblk12 V c 0 t) (iblk12 V c 1 t) (iblk12 V c 2 t) (ix2 q k) = X1 V c (ix2 (rowK t q) k) := by
  rw [w_blk, b_blk]
  exact DenseSpec.dense_rows (V c main_v193) (iblk12 V c 0 t) (V c main_v219) (V c main_v196) (rowK t q) q
    (fun k' => tile_apply V c t q k') k

/-- Running row 4 at column cc, as a sequence in the point (zero past the last point). -/
def A4 (c : Dev nD) (cc : Fin 128) (n : ℕ) : EReal :=
  if h : n < cfg12.N then acc4 V c n h (ix2 (0 : Fin 1) cc) else 0

/-- After the last point, running row 4 holds the column sums of the dense layer of the whole input. -/
theorem acc4_eq (c : Dev nD) (cc : Fin 128) :
    acc4 V c 4 h4 (ix2 (0 : Fin 1) cc) = BatchNormSpec.colSum (X1 V c) cc := by
  have hN : cfg12.N = 5 := N_12
  have key := GinTiles.acc_eq_colSum (X1 V c) cc (A4 V c cc) ?h0 ?hs
  · rw [← key]
    unfold A4
    rw [dif_pos h4]
  case h0 =>
    unfold A4
    rw [dif_pos (by omega : 0 < cfg12.N)]
    refine (KPayL3.pay4_apply (iblk12 V c 0 ⟨0, by omega⟩) (iblk12 V c 1 ⟨0, by omega⟩) (iblk12 V c 2 ⟨0, by omega⟩) (k12_pay1 (F := Ideal)) cc).trans ?_
    rw [KPayL3.pay1_apply]
    refine congrArg ((0 : EReal) + ·) ?_
    unfold GinTiles.tileSum
    rw [dif_pos (by norm_num : 0 < 5)]
    exact Finset.sum_congr rfl fun q _ => tile_dense V c ⟨0, by omega⟩ q cc
  case hs =>
    intro n hn
    unfold A4
    rw [dif_pos (by omega : n + 1 < cfg12.N), dif_pos (by omega : n < cfg12.N)]
    refine (KPayL3.pay4_apply (iblk12 V c 0 ⟨n + 1, by omega⟩) (iblk12 V c 1 ⟨n + 1, by omega⟩) (iblk12 V c 2 ⟨n + 1, by omega⟩)
      (acc4 V c n (by omega)) cc).trans ?_
    refine congrArg (acc4 V c n (by omega) (ix2 (0 : Fin 1) cc) + ·) ?_
    unfold GinTiles.tileSum
    rw [dif_pos hn]
    exact Finset.sum_congr rfl fun q _ => tile_dense V c ⟨n + 1, by omega⟩ q cc

/-- Running row 5 at column cc, as a sequence in the point (zero past the last point). -/
def A5 (c : Dev nD) (cc : Fin 128) (n : ℕ) : EReal :=
  if h : n < cfg12.N then acc5 V c n h (ix2 (0 : Fin 1) cc) else 0

/-- After the last point, running row 5 holds the column sums of squares of the dense layer of the whole input. -/
theorem acc5_eq (c : Dev nD) (cc : Fin 128) :
    acc5 V c 4 h4 (ix2 (0 : Fin 1) cc) = BatchNormSpec.colSumSq (X1 V c) cc := by
  have hN : cfg12.N = 5 := N_12
  have key := GinTiles.acc_eq_colSumSq (X1 V c) cc (A5 V c cc) ?h0 ?hs
  · rw [← key]
    unfold A5
    rw [dif_pos h4]
  case h0 =>
    unfold A5
    rw [dif_pos (by omega : 0 < cfg12.N)]
    refine (KPayL3.pay5_apply (iblk12 V c 0 ⟨0, by omega⟩) (iblk12 V c 1 ⟨0, by omega⟩) (iblk12 V c 2 ⟨0, by omega⟩) (k12_pay2 (F := Ideal)) cc).trans ?_
    rw [KPayL3.pay2_apply]
    refine congrArg ((0 : EReal) + ·) ?_
    unfold GinTiles.tileSum
    rw [dif_pos (by norm_num : 0 < 5)]
    exact Finset.sum_congr rfl fun q _ =>
      congrArg₂ (· * ·) (tile_dense V c ⟨0, by omega⟩ q cc) (tile_dense V c ⟨0, by omega⟩ q cc)
  case hs =>
    intro n hn
    unfold A5
    rw [dif_pos (by omega : n + 1 < cfg12.N), dif_pos (by omega : n < cfg12.N)]
    refine (KPayL3.pay5_apply (iblk12 V c 0 ⟨n + 1, by omega⟩) (iblk12 V c 1 ⟨n + 1, by omega⟩) (iblk12 V c 2 ⟨n + 1, by omega⟩)
      (acc5 V c n (by omega)) cc).trans ?_
    refine congrArg (acc5 V c n (by omega) (ix2 (0 : Fin 1) cc) + ·) ?_
    unfold GinTiles.tileSum
    rw [dif_pos hn]
    exact Finset.sum_congr rfl fun q _ =>
      congrArg₂ (· * ·) (tile_dense V c ⟨n + 1, by omega⟩ q cc) (tile_dense V c ⟨n + 1, by omega⟩ q cc)

end Cert.KernelIdeal.R12

end
-- ==== Proof.R13Value.lean ====
/-
  The second kernel of layer 3, read as values, at any float instance. At each of its five grid points the kernel
  normalises and rectifies the point's tile of 10000 rows, stores the second dense layer of that, and keeps two running
  rows: at the first point the zero row plus the stored tile's column sums (and the column sums of its squares); at every
  later point what the point before left plus the same. So after point n the three output buffers hold the second dense
  layer of tile n and the two accumulations over tiles 0..n (by induction on the point).
-/
import proofs.«113410_j5944234737805_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R13

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem out_A_7 (c : Dev nD) (i : grid13.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond13_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) :
    out13_A_7 c i a1 h1 a2 h2 a3 h3 a4 h4 a5 h5 a6 h6 a7 h7 a8 h8 a9 h9 a10 h10 hc x0 x1 x2 x3 x4 x5 x6 = k13_pay5 x0 x2 x3 x1 x4 x5 x6 := by
  unfold out13_A_7
  rw [View.read_writes_eq_canon _ _ _ (cover13_A_7 c i a1 h1 a2 h2 a3 h3 a4 h4 a5 h5 a6 h6 a7 h7 a8 h8 a9 h9 a10 h10 hc x0 x1 x2 x3 x4 x5 x6)]
  unfold kernelRun13_A
  dsimp only
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_A_8 (c : Dev nD) (i : grid13.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond13_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) :
    out13_A_8 c i a1 h1 a2 h2 a3 h3 a4 h4 a5 h5 a6 h6 a7 h7 a8 h8 a9 h9 a10 h10 hc x0 x1 x2 x3 x4 x5 x6 = k13_pay1 (k13_pay5 x0 x2 x3 x1 x4 x5 x6) k13_pay3 := by
  unfold out13_A_8
  rw [View.read_writes_eq_canon _ _ _ (cover13_A_8 c i a1 h1 a2 h2 a3 h3 a4 h4 a5 h5 a6 h6 a7 h7 a8 h8 a9 h9 a10 h10 hc x0 x1 x2 x3 x4 x5 x6)]
  unfold kernelRun13_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_A_9 (c : Dev nD) (i : grid13.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond13_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) :
    out13_A_9 c i a1 h1 a2 h2 a3 h3 a4 h4 a5 h5 a6 h6 a7 h7 a8 h8 a9 h9 a10 h10 hc x0 x1 x2 x3 x4 x5 x6 = k13_pay2 (k13_pay5 x0 x2 x3 x1 x4 x5 x6) k13_pay4 := by
  unfold out13_A_9
  rw [View.read_writes_eq_canon _ _ _ (cover13_A_9 c i a1 h1 a2 h2 a3 h3 a4 h4 a5 h5 a6 h6 a7 h7 a8 h8 a9 h9 a10 h10 hc x0 x1 x2 x3 x4 x5 x6)]
  unfold kernelRun13_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_B_7 (c : Dev nD) (i : grid13.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond13_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out13_B_7 c i a1 h1 a2 h2 a3 h3 a4 h4 a5 h5 a6 h6 a7 h7 a8 h8 a9 h9 a10 h10 hc x0 x1 x2 x3 x4 x5 x6 xo8 xo9 = k13_pay5 x0 x2 x3 x1 x4 x5 x6 := by
  unfold out13_B_7
  rw [View.read_writes_eq_canon _ _ _ (cover13_B_7 c i a1 h1 a2 h2 a3 h3 a4 h4 a5 h5 a6 h6 a7 h7 a8 h8 a9 h9 a10 h10 hc x0 x1 x2 x3 x4 x5 x6 xo8 xo9)]
  unfold kernelRun13_B
  dsimp only
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_B_8 (c : Dev nD) (i : grid13.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond13_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out13_B_8 c i a1 h1 a2 h2 a3 h3 a4 h4 a5 h5 a6 h6 a7 h7 a8 h8 a9 h9 a10 h10 hc x0 x1 x2 x3 x4 x5 x6 xo8 xo9 = k13_pay1 (k13_pay5 x0 x2 x3 x1 x4 x5 x6) xo8 := by
  unfold out13_B_8
  rw [View.read_writes_eq_canon _ _ _ (cover13_B_8 c i a1 h1 a2 h2 a3 h3 a4 h4 a5 h5 a6 h6 a7 h7 a8 h8 a9 h9 a10 h10 hc x0 x1 x2 x3 x4 x5 x6 xo8 xo9)]
  unfold kernelRun13_B
  dsimp only
  rw [View.canon_unit_zero hz]
  sl_unfold_words
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_B_9 (c : Dev nD) (i : grid13.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond13_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out13_B_9 c i a1 h1 a2 h2 a3 h3 a4 h4 a5 h5 a6 h6 a7 h7 a8 h8 a9 h9 a10 h10 hc x0 x1 x2 x3 x4 x5 x6 xo8 xo9 = k13_pay2 (k13_pay5 x0 x2 x3 x1 x4 x5 x6) xo9 := by
  unfold out13_B_9
  rw [View.read_writes_eq_canon _ _ _ (cover13_B_9 c i a1 h1 a2 h2 a3 h3 a4 h4 a5 h5 a6 h6 a7 h7 a8 h8 a9 h9 a10 h10 hc x0 x1 x2 x3 x4 x5 x6 xo8 xo9)]
  unfold kernelRun13_B
  dsimp only
  rw [View.canon_unit_zero hz]
  sl_unfold_words
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

/-- The first running row after point n. -/
def acc8 (c : Dev nD) : (n : ℕ) → n < cfg13.N → Vec F S1x128 .f32
  | 0, h => k13_pay1 (k13_pay5 (iblk13 V c 0 ⟨0, h⟩) (iblk13 V c 2 ⟨0, h⟩) (iblk13 V c 3 ⟨0, h⟩) (iblk13 V c 1 ⟨0, h⟩) (iblk13 V c 4 ⟨0, h⟩) (iblk13 V c 5 ⟨0, h⟩) (iblk13 V c 6 ⟨0, h⟩)) k13_pay3
  | n + 1, h => k13_pay1 (k13_pay5 (iblk13 V c 0 ⟨n + 1, h⟩) (iblk13 V c 2 ⟨n + 1, h⟩) (iblk13 V c 3 ⟨n + 1, h⟩) (iblk13 V c 1 ⟨n + 1, h⟩) (iblk13 V c 4 ⟨n + 1, h⟩) (iblk13 V c 5 ⟨n + 1, h⟩) (iblk13 V c 6 ⟨n + 1, h⟩)) (acc8 c n (Nat.lt_of_succ_lt h))

/-- The second running row after point n. -/
def acc9 (c : Dev nD) : (n : ℕ) → n < cfg13.N → Vec F S1x128 .f32
  | 0, h => k13_pay2 (k13_pay5 (iblk13 V c 0 ⟨0, h⟩) (iblk13 V c 2 ⟨0, h⟩) (iblk13 V c 3 ⟨0, h⟩) (iblk13 V c 1 ⟨0, h⟩) (iblk13 V c 4 ⟨0, h⟩) (iblk13 V c 5 ⟨0, h⟩) (iblk13 V c 6 ⟨0, h⟩)) k13_pay4
  | n + 1, h => k13_pay2 (k13_pay5 (iblk13 V c 0 ⟨n + 1, h⟩) (iblk13 V c 2 ⟨n + 1, h⟩) (iblk13 V c 3 ⟨n + 1, h⟩) (iblk13 V c 1 ⟨n + 1, h⟩) (iblk13 V c 4 ⟨n + 1, h⟩) (iblk13 V c 5 ⟨n + 1, h⟩) (iblk13 V c 6 ⟨n + 1, h⟩)) (acc9 c n (Nat.lt_of_succ_lt h))

/-- After point n the three output buffers hold the tile's result and the two running rows. By induction on the point. -/
theorem outsAt_eq (c : Dev nD) : ∀ (n : ℕ) (h : n < cfg13.N),
    outsAt13 V c n h = (k13_pay5 (iblk13 V c 0 ⟨n, h⟩) (iblk13 V c 2 ⟨n, h⟩) (iblk13 V c 3 ⟨n, h⟩) (iblk13 V c 1 ⟨n, h⟩) (iblk13 V c 4 ⟨n, h⟩) (iblk13 V c 5 ⟨n, h⟩) (iblk13 V c 6 ⟨n, h⟩), acc8 V c n h, acc9 V c n h)
  | 0, h => (outsAt13_A V c ⟨0, h⟩ rfl).trans (by
      rw [out_A_7, out_A_8, out_A_9]
      rfl)
  | n + 1, h => by
    have hN : cfg13.N = 5 := N_13
    have hB : ¬(⟨n + 1, h⟩ : Fin cfg13.N).val % 5 = 0 := by dsimp only; omega
    rw [outsAt13_B V c ⟨n + 1, h⟩ hB, out_B_7, out_B_8, out_B_9]
    show (k13_pay5 _ _ _ _ _ _ _, k13_pay1 _ (outsAt13 V c n _).2.1, k13_pay2 _ (outsAt13 V c n _).2.2)
      = (k13_pay5 _ _ _ _ _ _ _, k13_pay1 _ (acc8 V c n _), k13_pay2 _ (acc9 V c n _))
    rw [outsAt_eq c n]

end Cert.KernelIdeal.R13
-- ==== Proof.KPay1_L3.lean ====
/-
  The arithmetic of the second, third and fourth kernels of a layer, at the exact values. Each takes a tile `x` of the
  previous stage's output and the rows of its column means, column variances, scale and shift, and forms the normalised
  and rectified tile `max (g · (x − μ) · rsqrt(v + ε) + β) 0`. The second kernel stores the second dense layer of that
  tile; the third stores the tile itself; both add to two running rows the column sums of what they store and of its
  squares. The fourth stores the tile: the layer's output rows.
-/
import proofs.«113410_j5944234737805_1_alg».proof.Proof.Gen.KernelIdeal.Skeleton
import proofs.«113410_j5944234737805_1_alg».proof.Proof.KPay1
import proofs.«113410_j5944234737805_1_alg».proof.Proof.LibDense
import proofs.«113410_j5944234737805_1_alg».proof.Proof.LibBatchNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPayL3

open Cert.KernelIdeal Cert.KernelIdeal.Gen Idealize.ShloMosaic Idealize.ShloMosaic.TcCoe Idealize.ShloMosaic.ValueIdx
open Cert.KernelIdeal.KPay (rowAt normTile colAcc_apply colAccSq_apply)

/-- The second dense layer of the normalised and rectified tile. -/
theorem k1pay5_eq (x : Vec Ideal S10000x128 .f32) (v g μ β : Vec Ideal S1x128 .f32) (w : Vec Ideal S128x128 .f32)
    (b : Vec Ideal S1x128 .f32) :
    k13_pay5 (F := Ideal) x v g μ β w b = DenseSpec.dense (normTile x μ v g β) w b := by
  unfold k13_pay5
  dsimp only
  simp only [shapeCast_self]
  refine (DenseSpec.matmul_bias dot_S10000x128_S128x128_S10000x128_1_0_0_1_n_n_wf none _ _ b broadcasts_S1x128_S10000x128).trans ?_
  refine congrArg (fun a : BatchNormSpec.Mat 10000 128 => DenseSpec.dense a w b) ?_
  funext i
  obtain ⟨r, c, rfl⟩ : ∃ (r : Fin 10000) (c : Fin 128), i = ix2 r c := ⟨i 0, i 1, eq_ix2 i⟩
  unfold normTile
  rw [BatchNormSpec.normRelu_apply, truncf_apply, maximumf_apply, addf_apply, mulf_apply, mulf_apply, subf_apply,
    broadcastTo_1b_ab_apply g _ r c, broadcastTo_1b_ab_apply μ _ r c, broadcastTo_1b_ab_apply _ _ r c,
    broadcastTo_1b_ab_apply β _ r c]
  rfl

/-- The second kernel's two accumulations, over the tile `y` it has just stored. -/
theorem k1pay1_apply (y : FVec Ideal S10000x128 .f32) (acc : Vec Ideal S1x128 .f32) (c : Fin 128) :
    k13_pay1 (F := Ideal) y acc (ix2 (0 : Fin 1) c) = acc (ix2 (0 : Fin 1) c) + ∑ q : Fin 10000, y (ix2 q c) := by
  unfold k13_pay1
  exact colAcc_apply y acc c
theorem k1pay2_apply (y : FVec Ideal S10000x128 .f32) (acc : Vec Ideal S1x128 .f32) (c : Fin 128) :
    k13_pay2 (F := Ideal) y acc (ix2 (0 : Fin 1) c) = acc (ix2 (0 : Fin 1) c) + ∑ q : Fin 10000, y (ix2 q c) * y (ix2 q c) := by
  unfold k13_pay2
  exact colAccSq_apply y acc c
theorem k1pay3_apply (i : S1x128.Idx) : k13_pay3 (F := Ideal) i = 0 := by
  show Ideal.ofBits .f32 0x00000000#32 = 0
  exact Ideal.ofBits_zero_f32
theorem k1pay4_apply (i : S1x128.Idx) : k13_pay4 (F := Ideal) i = 0 := by
  show Ideal.ofBits .f32 0x00000000#32 = 0
  exact Ideal.ofBits_zero_f32

/-- The third kernel stores the normalised and rectified tile itself … -/
theorem k2pay4_eq (x : Vec Ideal S10000x128 .f32) (v g μ β : Vec Ideal S1x128 .f32) :
    k14_pay4 (F := Ideal) x v g μ β = normTile x μ v g β := by
  unfold k14_pay4
  dsimp only
  simp only [shapeCast_self]
  funext i
  obtain ⟨r, c, rfl⟩ : ∃ (r : Fin 10000) (c : Fin 128), i = ix2 r c := ⟨i 0, i 1, eq_ix2 i⟩
  unfold normTile
  rw [BatchNormSpec.normRelu_apply, maximumf_apply, addf_apply, mulf_apply, mulf_apply, subf_apply,
    broadcastTo_1b_ab_apply g _ r c, broadcastTo_1b_ab_apply μ _ r c, broadcastTo_1b_ab_apply _ _ r c,
    broadcastTo_1b_ab_apply β _ r c]
  rfl

/-- … and accumulates its column sums and the column sums of its squares. -/
theorem k2pay5_apply (x : Vec Ideal S10000x128 .f32) (v g μ β acc : Vec Ideal S1x128 .f32) (c : Fin 128) :
    k14_pay5 (F := Ideal) x v g μ β acc (ix2 (0 : Fin 1) c)
      = acc (ix2 (0 : Fin 1) c) + ∑ q : Fin 10000, normTile x μ v g β (ix2 q c) := by
  unfold k14_pay5
  dsimp only
  rw [k2pay4_eq]
  exact colAcc_apply (normTile x μ v g β) acc c
theorem k2pay1_apply (y : FVec Ideal S10000x128 .f32) (acc : Vec Ideal S1x128 .f32) (c : Fin 128) :
    k14_pay1 (F := Ideal) y acc (ix2 (0 : Fin 1) c) = acc (ix2 (0 : Fin 1) c) + ∑ q : Fin 10000, y (ix2 q c) * y (ix2 q c) := by
  unfold k14_pay1
  exact colAccSq_apply y acc c
theorem k2pay2_apply (i : S1x128.Idx) : k14_pay2 (F := Ideal) i = 0 := by
  show Ideal.ofBits .f32 0x00000000#32 = 0
  exact Ideal.ofBits_zero_f32
theorem k2pay3_apply (i : S1x128.Idx) : k14_pay3 (F := Ideal) i = 0 := by
  show Ideal.ofBits .f32 0x00000000#32 = 0
  exact Ideal.ofBits_zero_f32

/-- The fourth kernel stores the normalised and rectified tile: the layer's output rows. -/
theorem k3pay1_eq (x : Vec Ideal S10000x128 .f32) (v g μ β : Vec Ideal S1x128 .f32) :
    k15_pay1 (F := Ideal) x v g μ β = normTile x μ v g β := by
  unfold k15_pay1
  dsimp only
  simp only [shapeCast_self]
  funext i
  obtain ⟨r, c, rfl⟩ : ∃ (r : Fin 10000) (c : Fin 128), i = ix2 r c := ⟨i 0, i 1, eq_ix2 i⟩
  unfold normTile
  rw [BatchNormSpec.normRelu_apply, maximumf_apply, addf_apply, mulf_apply, mulf_apply, subf_apply,
    broadcastTo_1b_ab_apply g _ r c, broadcastTo_1b_ab_apply μ _ r c, broadcastTo_1b_ab_apply _ _ r c,
    broadcastTo_1b_ab_apply β _ r c]
  rfl

end Cert.KernelIdeal.KPayL3

end
-- ==== Proof.R13Array.lean ====
/-
  The second kernel of layer 3: what its three output arrays hold when the region ends, at the exact values. Point t reads
  rows 10000·t … of the first dense layer's output, the four statistics and parameter rows, the whole second weight
  matrix and its bias row, and writes back the same rows of the output: the second dense layer of the normalised and
  rectified rows. Normalising is row by row, so the output array is the second dense layer of the normalised and
  rectified whole array. The two running rows, written back once after the last point, are that array's column sums
  and column sums of squares.
-/
import proofs.«113410_j5944234737805_1_alg».proof.Proof.R13Value
import proofs.«113410_j5944234737805_1_alg».proof.Proof.KPay1_L3
import proofs.«113410_j5944234737805_1_alg».proof.Proof.GinTiles
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.R13

open Cert.KernelIdeal Cert.KernelIdeal.Gen

variable (V : (c : Dev nD) → (b : Ref sig .tc) → Buf (Elt Ideal) ((c : Thread nD τ).loc b))

/-- The block indices of the ten windows at each grid point: the two row-tile windows move with the point, the others stay. -/
theorem idx_facts : ∀ t : Fin cfg13.N,
    win13_0.index t (0 : Fin 2) = t.val
    ∧ win13_0.index t (1 : Fin 2) = 0
    ∧ win13_1.index t (0 : Fin 2) = 0
    ∧ win13_1.index t (1 : Fin 2) = 0
    ∧ win13_2.index t (0 : Fin 2) = 0
    ∧ win13_2.index t (1 : Fin 2) = 0
    ∧ win13_3.index t (0 : Fin 2) = 0
    ∧ win13_3.index t (1 : Fin 2) = 0
    ∧ win13_4.index t (0 : Fin 2) = 0
    ∧ win13_4.index t (1 : Fin 2) = 0
    ∧ win13_5.index t (0 : Fin 2) = 0
    ∧ win13_5.index t (1 : Fin 2) = 0
    ∧ win13_6.index t (0 : Fin 2) = 0
    ∧ win13_6.index t (1 : Fin 2) = 0
    ∧ win13_7.index t (0 : Fin 2) = t.val
    ∧ win13_7.index t (1 : Fin 2) = 0
    ∧ win13_8.index t (0 : Fin 2) = 0
    ∧ win13_8.index t (1 : Fin 2) = 0
    ∧ win13_9.index t (0 : Fin 2) = 0
    ∧ win13_9.index t (1 : Fin 2) = 0 :=
  (by decide +kernel : ∀ t : Fin grid13.N, _)

/-- Row q of the tile of point t. -/
abbrev rowK (t : Fin cfg13.N) (q : Fin 10000) : Fin 50000 :=
  ⟨10000 * t.val + q.val, by have := t.isLt; have hN : cfg13.N = 5 := N_13; have := q.isLt; omega⟩

/-- The input tile of point t is rows 10000·t + q of the first dense layer's output. -/
theorem tile_apply (c : Dev nD) (t : Fin cfg13.N) (q : Fin 10000) (k : Fin 128) :
    iblk13 V c 0 t (ix2 q k) = V c main_v220_0 (ix2 (rowK t q) k) := by
  obtain ⟨e0, e1, -⟩ := idx_facts t
  unfold iblk13
  rw [View.read_apply]
  show V c main_v220_0 _ = V c main_v220_0 _
  congr 1
  funext a
  apply Fin.ext
  match a with
  | ⟨0, _⟩ => show win13_0.index t (0 : Fin 2) * 10000 + 1 * q.val = 10000 * t.val + q.val; rw [e0]; omega
  | ⟨1, _⟩ => show win13_0.index t (1 : Fin 2) * 128 + 1 * k.val = k.val; rw [e1]; omega

/-! The statistics and parameter rows, and the bias row: each window's block at every point is the whole row. -/

theorem row_blk1 (c : Dev nD) (t : Fin cfg13.N) : iblk13 V c 1 t = V c main_v222 := by
  obtain ⟨-, -, ea, eb, -⟩ := idx_facts t
  funext j
  unfold iblk13
  rw [View.read_apply]
  show V c main_v222 _ = V c main_v222 j
  congr 1
  funext a
  apply Fin.ext
  match a with
  | ⟨0, _⟩ => show win13_1.index t (0 : Fin 2) * 1 + 1 * (j 0).val = (j 0).val; rw [ea]; omega
  | ⟨1, _⟩ => show win13_1.index t (1 : Fin 2) * 128 + 1 * (j 1).val = (j 1).val; rw [eb]; omega

theorem row_blk2 (c : Dev nD) (t : Fin cfg13.N) : iblk13 V c 2 t = V c main_v226 := by
  obtain ⟨-, -, -, -, ea, eb, -⟩ := idx_facts t
  funext j
  unfold iblk13
  rw [View.read_apply]
  show V c main_v226 _ = V c main_v226 j
  congr 1
  funext a
  apply Fin.ext
  match a with
  | ⟨0, _⟩ => show win13_2.index t (0 : Fin 2) * 1 + 1 * (j 0).val = (j 0).val; rw [ea]; omega
  | ⟨1, _⟩ => show win13_2.index t (1 : Fin 2) * 128 + 1 * (j 1).val = (j 1).val; rw [eb]; omega

theorem row_blk3 (c : Dev nD) (t : Fin cfg13.N) : iblk13 V c 3 t = V c main_v202 := by
  obtain ⟨-, -, -, -, -, -, ea, eb, -⟩ := idx_facts t
  funext j
  unfold iblk13
  rw [View.read_apply]
  show V c main_v202 _ = V c main_v202 j
  congr 1
  funext a
  apply Fin.ext
  match a with
  | ⟨0, _⟩ => show win13_3.index t (0 : Fin 2) * 1 + 1 * (j 0).val = (j 0).val; rw [ea]; omega
  | ⟨1, _⟩ => show win13_3.index t (1 : Fin 2) * 128 + 1 * (j 1).val = (j 1).val; rw [eb]; omega

theorem row_blk4 (c : Dev nD) (t : Fin cfg13.N) : iblk13 V c 4 t = V c main_v205 := by
  obtain ⟨-, -, -, -, -, -, -, -, ea, eb, -⟩ := idx_facts t
  funext j
  unfold iblk13
  rw [View.read_apply]
  show V c main_v205 _ = V c main_v205 j
  congr 1
  funext a
  apply Fin.ext
  match a with
  | ⟨0, _⟩ => show win13_4.index t (0 : Fin 2) * 1 + 1 * (j 0).val = (j 0).val; rw [ea]; omega
  | ⟨1, _⟩ => show win13_4.index t (1 : Fin 2) * 128 + 1 * (j 1).val = (j 1).val; rw [eb]; omega

theorem row_blk6 (c : Dev nD) (t : Fin cfg13.N) : iblk13 V c 6 t = V c main_v199 := by
  obtain ⟨-, -, -, -, -, -, -, -, -, -, -, -, ea, eb, -⟩ := idx_facts t
  funext j
  unfold iblk13
  rw [View.read_apply]
  show V c main_v199 _ = V c main_v199 j
  congr 1
  funext a
  apply Fin.ext
  match a with
  | ⟨0, _⟩ => show win13_6.index t (0 : Fin 2) * 1 + 1 * (j 0).val = (j 0).val; rw [ea]; omega
  | ⟨1, _⟩ => show win13_6.index t (1 : Fin 2) * 128 + 1 * (j 1).val = (j 1).val; rw [eb]; omega

/-- The weights' block at every point is the whole weight matrix. -/
theorem w_blk (c : Dev nD) (t : Fin cfg13.N) : iblk13 V c 5 t = V c main_v228 := by
  obtain ⟨-, -, -, -, -, -, -, -, -, -, ea, eb, -⟩ := idx_facts t
  funext j
  unfold iblk13
  rw [View.read_apply]
  show V c main_v228 _ = V c main_v228 j
  congr 1
  funext a
  apply Fin.ext
  match a with
  | ⟨0, _⟩ => show win13_5.index t (0 : Fin 2) * 128 + 1 * (j 0).val = (j 0).val; rw [ea]; omega
  | ⟨1, _⟩ => show win13_5.index t (1 : Fin 2) * 128 + 1 * (j 1).val = (j 1).val; rw [eb]; omega

/-- The first dense layer's output, normalised and rectified: the whole array. -/
def A1 (c : Dev nD) : BatchNormSpec.Mat 50000 128 :=
  BatchNormSpec.normRelu (Ideal.ofBits .f32 0x3727C5AC#32) (Ideal.ofBits .f32 0x00000000#32) (V c main_v220_0)
    (KPay.rowAt (V c main_v222)) (KPay.rowAt (V c main_v226)) (KPay.rowAt (V c main_v202)) (KPay.rowAt (V c main_v205))

/-- The second dense layer of it: what the first output array ends holding. -/
def X2 (c : Dev nD) : S50000x128.Idx → EReal := DenseSpec.dense (A1 V c) (V c main_v228) (V c main_v199)

/-- The second dense layer of the normalised tile is the matching rows of the second dense layer of the whole array. -/
theorem tile_dense (c : Dev nD) (t : Fin cfg13.N) (q : Fin 10000) (k : Fin 128) :
    k13_pay5 (F := Ideal) (iblk13 V c 0 t) (iblk13 V c 2 t) (iblk13 V c 3 t) (iblk13 V c 1 t) (iblk13 V c 4 t) (iblk13 V c 5 t) (iblk13 V c 6 t) (ix2 q k) = X2 V c (ix2 (rowK t q) k) := by
  rw [KPayL3.k1pay5_eq, row_blk1, row_blk2, row_blk3, row_blk4, row_blk6, w_blk]
  refine DenseSpec.dense_rows (A1 V c) _ (V c main_v228) (V c main_v199) (rowK t q) q (fun k' => ?_) k
  unfold A1 KPay.normTile
  rw [BatchNormSpec.normRelu_apply, BatchNormSpec.normRelu_apply, tile_apply V c t q k']

/-- What point t writes back is rows 10000·t … of the second dense layer of the whole array. -/
theorem flushed7_eq (c : Dev nD) (t : Fin cfg13.N) :
    (dat13 V c).flushed 7 t = ((cfg13.win 7).blk t).view.read (Elt Ideal) (X2 V c) := by
  obtain ⟨-, -, -, -, -, -, -, -, -, -, -, -, -, -, ea, eb, -⟩ := idx_facts t
  show (cfg13.win 7).cut (grid13.coords t) ((dat13 V c).after 7 t) = _
  rw [after13_7, outsAt_eq V c t.val t.isLt]
  funext j
  obtain ⟨q, k, rfl⟩ : ∃ (q : Fin 10000) (k : Fin 128), j = ix2 q k := ⟨j 0, j 1, eq_ix2 j⟩
  show k13_pay5 (F := Ideal) (iblk13 V c 0 t) (iblk13 V c 2 t) (iblk13 V c 3 t) (iblk13 V c 1 t) (iblk13 V c 4 t) (iblk13 V c 5 t) (iblk13 V c 6 t) (ix2 q k) = X2 V c (((cfg13.win 7).blk t).view.emb (ix2 q k))
  have hemb : ((cfg13.win 7).blk t).view.emb (ix2 q k) = ix2 (rowK t q) k := by
    funext a
    apply Fin.ext
    match a with
    | ⟨0, _⟩ => show win13_7.index t (0 : Fin 2) * 10000 + 1 * q.val = 10000 * t.val + q.val; rw [ea]; omega
    | ⟨1, _⟩ => show win13_7.index t (1 : Fin 2) * 128 + 1 * k.val = k.val; rw [eb]; omega
  rw [hemb]
  exact tile_dense V c t q k

theorem mem_blk7 (t : Fin cfg13.N) (i : S50000x128.Idx) :
    i ∈ ((cfg13.win 7).blk t).view.set ↔ ∀ a : Fin 2, win13_7.index t a * S10000x128.size a ≤ (i a).val
      ∧ (i a).val < win13_7.index t a * S10000x128.size a + S10000x128.size a := by
  show i ∈ ((View.whole main_v229_0).slice (win13_7.rect t)).set ↔ _
  rw [View.set_slice_whole, Rect.mem_set_unit]
  exact Iff.rfl

/-- The first output array when the region ends: the second dense layer of the normalised and rectified whole array. -/
theorem final7 (c : Dev nD) : (dat13 V c).arrAt 7 cfg13.N = X2 V c :=
  (dat13 V c).arrAt_eq_of_cover 7 (X2 V c) (fun t _ => flushed7_eq V c t) fun i => by
    have hi0 : (i 0).val < 50000 := (i 0).isLt
    have hi1 : (i 1).val < 128 := (i 1).isLt
    have hN : cfg13.N = 5 := N_13
    obtain ⟨-, -, -, -, -, -, -, -, -, -, -, -, -, -, ea, eb, -⟩ := idx_facts ⟨(i 0).val / 10000, by omega⟩
    refine ⟨⟨(i 0).val / 10000, by omega⟩, flush13_7 _, ?_⟩
    rw [mem_blk7]
    intro a
    match a with
    | ⟨0, _⟩ =>
      show win13_7.index ⟨(i 0).val / 10000, _⟩ (0 : Fin 2) * 10000 ≤ (i 0).val
        ∧ (i 0).val < win13_7.index ⟨(i 0).val / 10000, _⟩ (0 : Fin 2) * 10000 + 10000
      rw [ea]; dsimp only; omega
    | ⟨1, _⟩ =>
      show win13_7.index ⟨(i 0).val / 10000, _⟩ (1 : Fin 2) * 128 ≤ (i 1).val
        ∧ (i 1).val < win13_7.index ⟨(i 0).val / 10000, _⟩ (1 : Fin 2) * 128 + 128
      rw [eb]; omega

/-! ## The two running rows -/

/-- The last grid point. -/
abbrev tLast : Fin cfg13.N := ⟨4, by rw [show cfg13.N = 5 from N_13]; decide⟩

theorem h4 : 4 < cfg13.N := tLast.isLt

theorem mem_blk8 (t : Fin cfg13.N) (i : S1x128.Idx) :
    i ∈ ((cfg13.win 8).blk t).view.set ↔ ∀ a : Fin 2, win13_8.index t a * S1x128.size a ≤ (i a).val
      ∧ (i a).val < win13_8.index t a * S1x128.size a + S1x128.size a := by
  show i ∈ ((View.whole main_v229_1).slice (win13_8.rect t)).set ↔ _
  rw [View.set_slice_whole, Rect.mem_set_unit]
  exact Iff.rfl

/-- The one write-back of running row 8, after the last point, writes the row as it stands after point 4. -/
theorem flushed8_eq (c : Dev nD) (t : Fin cfg13.N) (hf : (cfg13.win 8).flush t = true) :
    (dat13 V c).flushed 8 t = ((cfg13.win 8).blk t).view.read (Elt Ideal) (acc8 V c 4 h4) := by
  have hN : cfg13.N = 5 := N_13
  have ht : t.val = 4 := by have := (flush13_8 t).mp hf; have := t.isLt; omega
  obtain rfl : t = tLast := Fin.ext ht
  obtain ⟨-, -, -, -, -, -, -, -, -, -, -, -, -, -, -, -, ea, eb, -⟩ := idx_facts tLast
  show (cfg13.win 8).cut (grid13.coords tLast) ((dat13 V c).after 8 tLast) = _
  rw [after13_8, outsAt_eq V c tLast.val tLast.isLt]
  funext j
  show acc8 V c 4 _ j = acc8 V c 4 _ (((cfg13.win 8).blk tLast).view.emb j)
  congr 1
  funext a
  apply Fin.ext
  match a with
  | ⟨0, _⟩ => show (j 0).val = win13_8.index tLast (0 : Fin 2) * 1 + 1 * (j 0).val; rw [ea]; omega
  | ⟨1, _⟩ => show (j 1).val = win13_8.index tLast (1 : Fin 2) * 128 + 1 * (j 1).val; rw [eb]; omega

/-- Running row 8's array when the region ends. -/
theorem final8 (c : Dev nD) : (dat13 V c).arrAt 8 cfg13.N = acc8 V c 4 h4 :=
  (dat13 V c).arrAt_eq_of_cover 8 (acc8 V c 4 h4) (flushed8_eq V c) fun i => by
    have hi0 : (i 0).val < 1 := (i 0).isLt
    have hi1 : (i 1).val < 128 := (i 1).isLt
    obtain ⟨-, -, -, -, -, -, -, -, -, -, -, -, -, -, -, -, ea, eb, -⟩ := idx_facts tLast
    refine ⟨tLast, (flush13_8 tLast).mpr rfl, ?_⟩
    rw [mem_blk8]
    intro a
    match a with
    | ⟨0, _⟩ =>
      show win13_8.index tLast (0 : Fin 2) * 1 ≤ (i 0).val ∧ (i 0).val < win13_8.index tLast (0 : Fin 2) * 1 + 1
      rw [ea]; omega
    | ⟨1, _⟩ =>
      show win13_8.index tLast (1 : Fin 2) * 128 ≤ (i 1).val ∧ (i 1).val < win13_8.index tLast (1 : Fin 2) * 128 + 128
      rw [eb]; omega

theorem mem_blk9 (t : Fin cfg13.N) (i : S1x128.Idx) :
    i ∈ ((cfg13.win 9).blk t).view.set ↔ ∀ a : Fin 2, win13_9.index t a * S1x128.size a ≤ (i a).val
      ∧ (i a).val < win13_9.index t a * S1x128.size a + S1x128.size a := by
  show i ∈ ((View.whole main_v229_2).slice (win13_9.rect t)).set ↔ _
  rw [View.set_slice_whole, Rect.mem_set_unit]
  exact Iff.rfl

/-- The one write-back of running row 9, after the last point, writes the row as it stands after point 4. -/
theorem flushed9_eq (c : Dev nD) (t : Fin cfg13.N) (hf : (cfg13.win 9).flush t = true) :
    (dat13 V c).flushed 9 t = ((cfg13.win 9).blk t).view.read (Elt Ideal) (acc9 V c 4 h4) := by
  have hN : cfg13.N = 5 := N_13
  have ht : t.val = 4 := by have := (flush13_9 t).mp hf; have := t.isLt; omega
  obtain rfl : t = tLast := Fin.ext ht
  obtain ⟨-, -, -, -, -, -, -, -, -, -, -, -, -, -, -, -, -, -, ea, eb⟩ := idx_facts tLast
  show (cfg13.win 9).cut (grid13.coords tLast) ((dat13 V c).after 9 tLast) = _
  rw [after13_9, outsAt_eq V c tLast.val tLast.isLt]
  funext j
  show acc9 V c 4 _ j = acc9 V c 4 _ (((cfg13.win 9).blk tLast).view.emb j)
  congr 1
  funext a
  apply Fin.ext
  match a with
  | ⟨0, _⟩ => show (j 0).val = win13_9.index tLast (0 : Fin 2) * 1 + 1 * (j 0).val; rw [ea]; omega
  | ⟨1, _⟩ => show (j 1).val = win13_9.index tLast (1 : Fin 2) * 128 + 1 * (j 1).val; rw [eb]; omega

/-- Running row 9's array when the region ends. -/
theorem final9 (c : Dev nD) : (dat13 V c).arrAt 9 cfg13.N = acc9 V c 4 h4 :=
  (dat13 V c).arrAt_eq_of_cover 9 (acc9 V c 4 h4) (flushed9_eq V c) fun i => by
    have hi0 : (i 0).val < 1 := (i 0).isLt
    have hi1 : (i 1).val < 128 := (i 1).isLt
    obtain ⟨-, -, -, -, -, -, -, -, -, -, -, -, -, -, -, -, -, -, ea, eb⟩ := idx_facts tLast
    refine ⟨tLast, (flush13_9 tLast).mpr rfl, ?_⟩
    rw [mem_blk9]
    intro a
    match a with
    | ⟨0, _⟩ =>
      show win13_9.index tLast (0 : Fin 2) * 1 ≤ (i 0).val ∧ (i 0).val < win13_9.index tLast (0 : Fin 2) * 1 + 1
      rw [ea]; omega
    | ⟨1, _⟩ =>
      show win13_9.index tLast (1 : Fin 2) * 128 ≤ (i 1).val ∧ (i 1).val < win13_9.index tLast (1 : Fin 2) * 128 + 128
      rw [eb]; omega

/-! ## The running rows are the column sums -/

/-- Running row 8 at column cc, as a sequence in the point (zero past the last point). -/
def A8 (c : Dev nD) (cc : Fin 128) (n : ℕ) : EReal :=
  if h : n < cfg13.N then acc8 V c n h (ix2 (0 : Fin 1) cc) else 0

/-- After the last point, running row 8 holds the column sums of the second dense layer. -/
theorem acc8_eq (c : Dev nD) (cc : Fin 128) :
    acc8 V c 4 h4 (ix2 (0 : Fin 1) cc) = BatchNormSpec.colSum (X2 V c) cc := by
  have hN : cfg13.N = 5 := N_13
  have key := GinTiles.acc_eq_colSum (X2 V c) cc (A8 V c cc) ?h0 ?hs
  · rw [← key]
    unfold A8
    rw [dif_pos h4]
  case h0 =>
    unfold A8
    rw [dif_pos (by omega : 0 < cfg13.N)]
    refine (KPayL3.k1pay1_apply (k13_pay5 (F := Ideal) (iblk13 V c 0 ⟨0, by omega⟩) (iblk13 V c 2 ⟨0, by omega⟩) (iblk13 V c 3 ⟨0, by omega⟩) (iblk13 V c 1 ⟨0, by omega⟩) (iblk13 V c 4 ⟨0, by omega⟩) (iblk13 V c 5 ⟨0, by omega⟩) (iblk13 V c 6 ⟨0, by omega⟩)) (k13_pay3 (F := Ideal)) cc).trans ?_
    rw [KPayL3.k1pay3_apply]
    refine congrArg ((0 : EReal) + ·) ?_
    unfold GinTiles.tileSum
    rw [dif_pos (by norm_num : 0 < 5)]
    exact Finset.sum_congr rfl fun q _ => tile_dense V c ⟨0, by omega⟩ q cc
  case hs =>
    intro n hn
    unfold A8
    rw [dif_pos (by omega : n + 1 < cfg13.N), dif_pos (by omega : n < cfg13.N)]
    refine (KPayL3.k1pay1_apply (k13_pay5 (F := Ideal) (iblk13 V c 0 ⟨n + 1, by omega⟩) (iblk13 V c 2 ⟨n + 1, by omega⟩) (iblk13 V c 3 ⟨n + 1, by omega⟩) (iblk13 V c 1 ⟨n + 1, by omega⟩) (iblk13 V c 4 ⟨n + 1, by omega⟩) (iblk13 V c 5 ⟨n + 1, by omega⟩) (iblk13 V c 6 ⟨n + 1, by omega⟩)) (acc8 V c n (by omega)) cc).trans ?_
    refine congrArg (acc8 V c n (by omega) (ix2 (0 : Fin 1) cc) + ·) ?_
    unfold GinTiles.tileSum
    rw [dif_pos hn]
    exact Finset.sum_congr rfl fun q _ => tile_dense V c ⟨n + 1, by omega⟩ q cc

/-- Running row 9 at column cc, as a sequence in the point (zero past the last point). -/
def A9 (c : Dev nD) (cc : Fin 128) (n : ℕ) : EReal :=
  if h : n < cfg13.N then acc9 V c n h (ix2 (0 : Fin 1) cc) else 0

/-- After the last point, running row 9 holds the column sums of squares of the second dense layer. -/
theorem acc9_eq (c : Dev nD) (cc : Fin 128) :
    acc9 V c 4 h4 (ix2 (0 : Fin 1) cc) = BatchNormSpec.colSumSq (X2 V c) cc := by
  have hN : cfg13.N = 5 := N_13
  have key := GinTiles.acc_eq_colSumSq (X2 V c) cc (A9 V c cc) ?h0 ?hs
  · rw [← key]
    unfold A9
    rw [dif_pos h4]
  case h0 =>
    unfold A9
    rw [dif_pos (by omega : 0 < cfg13.N)]
    refine (KPayL3.k1pay2_apply (k13_pay5 (F := Ideal) (iblk13 V c 0 ⟨0, by omega⟩) (iblk13 V c 2 ⟨0, by omega⟩) (iblk13 V c 3 ⟨0, by omega⟩) (iblk13 V c 1 ⟨0, by omega⟩) (iblk13 V c 4 ⟨0, by omega⟩) (iblk13 V c 5 ⟨0, by omega⟩) (iblk13 V c 6 ⟨0, by omega⟩)) (k13_pay4 (F := Ideal)) cc).trans ?_
    rw [KPayL3.k1pay4_apply]
    refine congrArg ((0 : EReal) + ·) ?_
    unfold GinTiles.tileSum
    rw [dif_pos (by norm_num : 0 < 5)]
    exact Finset.sum_congr rfl fun q _ => congrArg₂ (· * ·) (tile_dense V c ⟨0, by omega⟩ q cc) (tile_dense V c ⟨0, by omega⟩ q cc)
  case hs =>
    intro n hn
    unfold A9
    rw [dif_pos (by omega : n + 1 < cfg13.N), dif_pos (by omega : n < cfg13.N)]
    refine (KPayL3.k1pay2_apply (k13_pay5 (F := Ideal) (iblk13 V c 0 ⟨n + 1, by omega⟩) (iblk13 V c 2 ⟨n + 1, by omega⟩) (iblk13 V c 3 ⟨n + 1, by omega⟩) (iblk13 V c 1 ⟨n + 1, by omega⟩) (iblk13 V c 4 ⟨n + 1, by omega⟩) (iblk13 V c 5 ⟨n + 1, by omega⟩) (iblk13 V c 6 ⟨n + 1, by omega⟩)) (acc9 V c n (by omega)) cc).trans ?_
    refine congrArg (acc9 V c n (by omega) (ix2 (0 : Fin 1) cc) + ·) ?_
    unfold GinTiles.tileSum
    rw [dif_pos hn]
    exact Finset.sum_congr rfl fun q _ => congrArg₂ (· * ·) (tile_dense V c ⟨n + 1, by omega⟩ q cc) (tile_dense V c ⟨n + 1, by omega⟩ q cc)

end Cert.KernelIdeal.R13

end
-- ==== Proof.R14Value.lean ====
/- The third kernel of layer 4 of the five, read as values, at any float instance. At each of its five grid points the kernel
   normalises, scales, shifts and rectifies the point's tile of 10000 rows with the four statistics rows and stores the
   tile, and keeps two running rows: at the first point it sets them to the zero row plus the column sums of the stored
   tile and of its squares; at every later point it adds the tile's column sums to what the point before left. So after
   point n the three output buffers hold tile n's result and the two accumulations over tiles 0..n, by induction on
   the point. -/
import proofs.«113410_j5944234737805_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R14

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem out_A_5 (c : Dev nD) (i : grid14.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond14_0 i)
    (x0 : Vec F S10000x128 .f32) (x1 : Vec F S1x128 .f32) (x2 : Vec F S1x128 .f32) (x3 : Vec F S1x128 .f32) (x4 : Vec F S1x128 .f32) :
    out14_A_5 c i a1 h1 a2 h2 a3 h3 a4 h4 a5 h5 a6 h6 a7 h7 a8 h8 hc x0 x1 x2 x3 x4 = k14_pay4 x0 x2 x3 x1 x4 := by
  unfold out14_A_5
  rw [View.read_writes_eq_canon _ _ _ (cover14_A_5 c i a1 h1 a2 h2 a3 h3 a4 h4 a5 h5 a6 h6 a7 h7 a8 h8 hc x0 x1 x2 x3 x4)]
  unfold kernelRun14_A
  dsimp only
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_A_6 (c : Dev nD) (i : grid14.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond14_0 i)
    (x0 : Vec F S10000x128 .f32) (x1 : Vec F S1x128 .f32) (x2 : Vec F S1x128 .f32) (x3 : Vec F S1x128 .f32) (x4 : Vec F S1x128 .f32) :
    out14_A_6 c i a1 h1 a2 h2 a3 h3 a4 h4 a5 h5 a6 h6 a7 h7 a8 h8 hc x0 x1 x2 x3 x4 = k14_pay5 x0 x2 x3 x1 x4 k14_pay2 := by
  unfold out14_A_6
  rw [View.read_writes_eq_canon _ _ _ (cover14_A_6 c i a1 h1 a2 h2 a3 h3 a4 h4 a5 h5 a6 h6 a7 h7 a8 h8 hc x0 x1 x2 x3 x4)]
  unfold kernelRun14_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_A_7 (c : Dev nD) (i : grid14.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond14_0 i)
    (x0 : Vec F S10000x128 .f32) (x1 : Vec F S1x128 .f32) (x2 : Vec F S1x128 .f32) (x3 : Vec F S1x128 .f32) (x4 : Vec F S1x128 .f32) :
    out14_A_7 c i a1 h1 a2 h2 a3 h3 a4 h4 a5 h5 a6 h6 a7 h7 a8 h8 hc x0 x1 x2 x3 x4 = k14_pay1 (k14_pay4 x0 x2 x3 x1 x4) k14_pay3 := by
  unfold out14_A_7
  rw [View.read_writes_eq_canon _ _ _ (cover14_A_7 c i a1 h1 a2 h2 a3 h3 a4 h4 a5 h5 a6 h6 a7 h7 a8 h8 hc x0 x1 x2 x3 x4)]
  unfold kernelRun14_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_B_5 (c : Dev nD) (i : grid14.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond14_0 i)
    (x0 : Vec F S10000x128 .f32) (x1 : Vec F S1x128 .f32) (x2 : Vec F S1x128 .f32) (x3 : Vec F S1x128 .f32) (x4 : Vec F S1x128 .f32) (xo6 xo7 : Vec F S1x128 .f32) :
    out14_B_5 c i a1 h1 a2 h2 a3 h3 a4 h4 a5 h5 a6 h6 a7 h7 a8 h8 hc x0 x1 x2 x3 x4 xo6 xo7 = k14_pay4 x0 x2 x3 x1 x4 := by
  unfold out14_B_5
  rw [View.read_writes_eq_canon _ _ _ (cover14_B_5 c i a1 h1 a2 h2 a3 h3 a4 h4 a5 h5 a6 h6 a7 h7 a8 h8 hc x0 x1 x2 x3 x4 xo6 xo7)]
  unfold kernelRun14_B
  dsimp only
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_B_6 (c : Dev nD) (i : grid14.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond14_0 i)
    (x0 : Vec F S10000x128 .f32) (x1 : Vec F S1x128 .f32) (x2 : Vec F S1x128 .f32) (x3 : Vec F S1x128 .f32) (x4 : Vec F S1x128 .f32) (xo6 xo7 : Vec F S1x128 .f32) :
    out14_B_6 c i a1 h1 a2 h2 a3 h3 a4 h4 a5 h5 a6 h6 a7 h7 a8 h8 hc x0 x1 x2 x3 x4 xo6 xo7 = k14_pay5 x0 x2 x3 x1 x4 xo6 := by
  unfold out14_B_6
  rw [View.read_writes_eq_canon _ _ _ (cover14_B_6 c i a1 h1 a2 h2 a3 h3 a4 h4 a5 h5 a6 h6 a7 h7 a8 h8 hc x0 x1 x2 x3 x4 xo6 xo7)]
  unfold kernelRun14_B
  dsimp only
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_B_7 (c : Dev nD) (i : grid14.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond14_0 i)
    (x0 : Vec F S10000x128 .f32) (x1 : Vec F S1x128 .f32) (x2 : Vec F S1x128 .f32) (x3 : Vec F S1x128 .f32) (x4 : Vec F S1x128 .f32) (xo6 xo7 : Vec F S1x128 .f32) :
    out14_B_7 c i a1 h1 a2 h2 a3 h3 a4 h4 a5 h5 a6 h6 a7 h7 a8 h8 hc x0 x1 x2 x3 x4 xo6 xo7 = k14_pay1 (k14_pay4 x0 x2 x3 x1 x4) xo7 := by
  unfold out14_B_7
  rw [View.read_writes_eq_canon _ _ _ (cover14_B_7 c i a1 h1 a2 h2 a3 h3 a4 h4 a5 h5 a6 h6 a7 h7 a8 h8 hc x0 x1 x2 x3 x4 xo6 xo7)]
  unfold kernelRun14_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

/-- The first running row after point n. -/
def acc6 (c : Dev nD) : (n : ℕ) → n < cfg14.N → Vec F S1x128 .f32
  | 0, h => k14_pay5 (iblk14 V c 0 ⟨0, h⟩) (iblk14 V c 2 ⟨0, h⟩) (iblk14 V c 3 ⟨0, h⟩) (iblk14 V c 1 ⟨0, h⟩) (iblk14 V c 4 ⟨0, h⟩) k14_pay2
  | n + 1, h => k14_pay5 (iblk14 V c 0 ⟨n + 1, h⟩) (iblk14 V c 2 ⟨n + 1, h⟩) (iblk14 V c 3 ⟨n + 1, h⟩) (iblk14 V c 1 ⟨n + 1, h⟩) (iblk14 V c 4 ⟨n + 1, h⟩) (acc6 c n (Nat.lt_of_succ_lt h))

/-- The second running row after point n. -/
def acc7 (c : Dev nD) : (n : ℕ) → n < cfg14.N → Vec F S1x128 .f32
  | 0, h => k14_pay1 (k14_pay4 (iblk14 V c 0 ⟨0, h⟩) (iblk14 V c 2 ⟨0, h⟩) (iblk14 V c 3 ⟨0, h⟩) (iblk14 V c 1 ⟨0, h⟩) (iblk14 V c 4 ⟨0, h⟩)) k14_pay3
  | n + 1, h => k14_pay1 (k14_pay4 (iblk14 V c 0 ⟨n + 1, h⟩) (iblk14 V c 2 ⟨n + 1, h⟩) (iblk14 V c 3 ⟨n + 1, h⟩) (iblk14 V c 1 ⟨n + 1, h⟩) (iblk14 V c 4 ⟨n + 1, h⟩)) (acc7 c n (Nat.lt_of_succ_lt h))

/-- After point n the three output buffers hold the tile's result and the two running rows. By induction on the point. -/
theorem outsAt_eq (c : Dev nD) : ∀ (n : ℕ) (h : n < cfg14.N),
    outsAt14 V c n h = (k14_pay4 (iblk14 V c 0 ⟨n, h⟩) (iblk14 V c 2 ⟨n, h⟩) (iblk14 V c 3 ⟨n, h⟩) (iblk14 V c 1 ⟨n, h⟩) (iblk14 V c 4 ⟨n, h⟩), acc6 V c n h, acc7 V c n h)
  | 0, h => (outsAt14_A V c ⟨0, h⟩ rfl).trans (by
      rw [out_A_5, out_A_6, out_A_7]
      rfl)
  | n + 1, h => by
    have hN : cfg14.N = 5 := N_14
    have hB : ¬(⟨n + 1, h⟩ : Fin cfg14.N).val % 5 = 0 := by dsimp only; omega
    rw [outsAt14_B V c ⟨n + 1, h⟩ hB, out_B_5, out_B_6, out_B_7]
    show (k14_pay4 _ _ _ _ _, k14_pay5 _ _ _ _ _ (outsAt14 V c n _).2.1, k14_pay1 (k14_pay4 _ _ _ _ _) (outsAt14 V c n _).2.2)
      = (k14_pay4 _ _ _ _ _, k14_pay5 _ _ _ _ _ (acc6 V c n _), k14_pay1 (k14_pay4 _ _ _ _ _) (acc7 V c n _))
    rw [outsAt_eq c n]

end Cert.KernelIdeal.R14
-- ==== Proof.R15Value.lean ====
/- Region 3 of the idealized kernel program: the fourth kernel of layer 4 of the five, read as one function of the arrays
   it finds.

   The kernel's grid has five points; point t loads rows 10000·t … 10000·t + 9999 of the 50000 × 128 source and the
   four 1 × 128 rows (mean, variance, scale, shift), whole at every point, and stores one 10000 × 128 tile: entry
   (q, k) is `max (scale(k) · (x(q,k) − mean(k)) · rsqrt (variance(k) + ε) + shift(k)) 0`. The single store covers the
   staging buffer, so what the body leaves there is its payload (`out_eq`). Tile t is written back to rows
   10000·t … of the output, and every row r of the output belongs to tile r / 10000, so after the five points the
   output array is the normalise-scale-shift-rectify function of the whole source and the four rows, entry by entry
   (`final5`): an entry of a tile reads the source at the same row of the whole array and each statistics row at the
   same column. The five input arrays are left as found (`arr_in`). -/
import proofs.«113410_j5944234737805_1_alg».proof.Proof.Gen.KernelIdeal.Frame
import proofs.«113410_j5944234737805_1_alg».proof.Proof.KPay1_L3
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R15

open Cert.KernelIdeal Cert.KernelIdeal.Gen Idealize.ShloMosaic.ValueIdx

theorem hz : (![0, 0] : Fin 2 → Nat) = fun _ => 0 := funext fun a => by fin_cases a <;> rfl

section AnyValues

variable {F : FTy → Type} [FloatOps F]
variable (V : (c : Dev nD) → (b : Ref sig .tc) → Buf (Elt F) ((c : Thread nD τ).loc b))

/-- The body's one store covers the staging buffer, so the buffer ends holding the store's payload of the loaded
    blocks. -/
theorem out_eq (x0 : Vec F S10000x128 .f32) (x1 x2 x3 x4 : Vec F S1x128 .f32) :
    out15_5 x0 x1 x2 x3 x4 = k15_pay1 x0 x2 x3 x1 x4 := by
  unfold out15_5
  rw [View.canon_unit_zero hz]
  simp only [View.ld_unit_zero (S := S10000x128) hz, View.ld_unit_zero (S := S1x128) hz]

/-- The input windows' arrays end as the region found them. -/
theorem arr_in (c : Dev nD) (w : Fin cfg15.W) (hin : (cfg15.win w).isOut = false) :
    (dat15 V c).arrAt w cfg15.N = V c (Pipeline.arrRef spec15 w) :=
  ((dat15 V c).arrAt_in w hin _).trans (A_eq15 V c w)

theorem arr_in0 (c : Dev nD) : (dat15 V c).arrAt 0 cfg15.N = V c (Pipeline.arrRef spec15 0) := arr_in V c 0 rfl
theorem arr_in1 (c : Dev nD) : (dat15 V c).arrAt 1 cfg15.N = V c (Pipeline.arrRef spec15 1) := arr_in V c 1 rfl
theorem arr_in2 (c : Dev nD) : (dat15 V c).arrAt 2 cfg15.N = V c (Pipeline.arrRef spec15 2) := arr_in V c 2 rfl
theorem arr_in3 (c : Dev nD) : (dat15 V c).arrAt 3 cfg15.N = V c (Pipeline.arrRef spec15 3) := arr_in V c 3 rfl
theorem arr_in4 (c : Dev nD) : (dat15 V c).arrAt 4 cfg15.N = V c (Pipeline.arrRef spec15 4) := arr_in V c 4 rfl

end AnyValues

/-- The printed index maps over the five points: the source tile moves with the output tile, which is tile `t`; every
    row window sits at block (0, 0). -/
theorem idx_facts : ∀ t : Fin cfg15.N, win15_0.index t (0 : Fin 2) = win15_5.index t (0 : Fin 2)
    ∧ win15_0.index t (1 : Fin 2) = 0 ∧ win15_5.index t (1 : Fin 2) = 0 ∧ win15_5.index t (0 : Fin 2) = t.val
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0 :=
  (by decide +kernel : ∀ t : Fin grid15.N, _)

/-- Normalise-scale-shift-rectify at an entry depends on the data at that entry and on the four rows at its column. -/
theorem normRelu_congr {N N' D : Nat} (e z : EReal) (x : BatchNormSpec.Mat N D) (x' : BatchNormSpec.Mat N' D)
    (μ v g b μ' v' g' b' : Fin D → EReal) (i : (⟨2, ![N, D]⟩ : Shape).Idx) (i' : (⟨2, ![N', D]⟩ : Shape).Idx)
    (hx : x i = x' i') (hμ : μ (i 1) = μ' (i' 1)) (hv : v (i 1) = v' (i' 1)) (hg : g (i 1) = g' (i' 1))
    (hb : b (i 1) = b' (i' 1)) :
    BatchNormSpec.normRelu e z x μ v g b i = BatchNormSpec.normRelu e z x' μ' v' g' b' i' := by
  unfold BatchNormSpec.normRelu
  rw [hx, hμ, hv, hg, hb]

section Exact

variable (V : (c : Dev nD) → (b : Ref sig .tc) → Buf (Elt Ideal) ((c : Thread nD τ).loc b))

/-- What the output array ends holding: the normalised, scaled, shifted and rectified source, with the four rows. -/
abbrev G (c : Dev nD) : BatchNormSpec.Mat 50000 128 :=
  BatchNormSpec.normRelu (Ideal.ofBits .f32 0x3727C5AC#32) (Ideal.ofBits .f32 0x00000000#32) (V c main_v236_0)
    (KPay.rowAt (V c main_v238)) (KPay.rowAt (V c main_v242)) (KPay.rowAt (V c main_v214)) (KPay.rowAt (V c main_v217))

/-- What point `t` writes back is tile `t` of that function. -/
theorem flushed5_eq (c : Dev nD) (t : Fin cfg15.N) :
    (dat15 V c).flushed 5 t = ((cfg15.win 5).blk t).view.read (Elt Ideal) (G V c) := by
  show (cfg15.win 5).cut (grid15.coords t) ((dat15 V c).after 5 t) = _
  rw [after15_5, out_eq, KPayL3.k3pay1_eq]
  obtain ⟨f0, f1, f5, ft, a10, a11, a20, a21, a30, a31, a40, a41⟩ := idx_facts t
  funext j
  show KPay.normTile (iblk15 V c 0 t) (iblk15 V c 1 t) (iblk15 V c 2 t) (iblk15 V c 3 t) (iblk15 V c 4 t) j
    = G V c (((cfg15.win 5).blk t).view.emb j)
  refine normRelu_congr _ _ _ _ _ _ _ _ _ _ _ _ j (((cfg15.win 5).blk t).view.emb j) ?_ ?_ ?_ ?_ ?_
  · show V c main_v236_0 (((cfg15.win 0).blk t).view.emb j) = V c main_v236_0 (((cfg15.win 5).blk t).view.emb j)
    refine congrArg _ (funext fun a => Fin.ext ?_)
    match a with
    | ⟨0, _⟩ =>
      show win15_0.index t (0 : Fin 2) * 10000 + 1 * (j 0).val = win15_5.index t (0 : Fin 2) * 10000 + 1 * (j 0).val
      omega
    | ⟨1, _⟩ =>
      show win15_0.index t (1 : Fin 2) * 128 + 1 * (j 1).val = win15_5.index t (1 : Fin 2) * 128 + 1 * (j 1).val
      omega
  · show V c main_v238 (((cfg15.win 1).blk t).view.emb (ix2 (0 : Fin 1) (j 1)))
      = V c main_v238 (ix2 (0 : Fin 1) ((((cfg15.win 5).blk t).view.emb j) 1))
    refine congrArg _ (funext fun a => Fin.ext ?_)
    match a with
    | ⟨0, _⟩ => show win15_1.index t (0 : Fin 2) * 1 + 1 * 0 = 0; omega
    | ⟨1, _⟩ =>
      show win15_1.index t (1 : Fin 2) * 128 + 1 * (j 1).val = win15_5.index t (1 : Fin 2) * 128 + 1 * (j 1).val
      omega
  · show V c main_v242 (((cfg15.win 2).blk t).view.emb (ix2 (0 : Fin 1) (j 1)))
      = V c main_v242 (ix2 (0 : Fin 1) ((((cfg15.win 5).blk t).view.emb j) 1))
    refine congrArg _ (funext fun a => Fin.ext ?_)
    match a with
    | ⟨0, _⟩ => show win15_2.index t (0 : Fin 2) * 1 + 1 * 0 = 0; omega
    | ⟨1, _⟩ =>
      show win15_2.index t (1 : Fin 2) * 128 + 1 * (j 1).val = win15_5.index t (1 : Fin 2) * 128 + 1 * (j 1).val
      omega
  · show V c main_v214 (((cfg15.win 3).blk t).view.emb (ix2 (0 : Fin 1) (j 1)))
      = V c main_v214 (ix2 (0 : Fin 1) ((((cfg15.win 5).blk t).view.emb j) 1))
    refine congrArg _ (funext fun a => Fin.ext ?_)
    match a with
    | ⟨0, _⟩ => show win15_3.index t (0 : Fin 2) * 1 + 1 * 0 = 0; omega
    | ⟨1, _⟩ =>
      show win15_3.index t (1 : Fin 2) * 128 + 1 * (j 1).val = win15_5.index t (1 : Fin 2) * 128 + 1 * (j 1).val
      omega
  · show V c main_v217 (((cfg15.win 4).blk t).view.emb (ix2 (0 : Fin 1) (j 1)))
      = V c main_v217 (ix2 (0 : Fin 1) ((((cfg15.win 5).blk t).view.emb j) 1))
    refine congrArg _ (funext fun a => Fin.ext ?_)
    match a with
    | ⟨0, _⟩ => show win15_4.index t (0 : Fin 2) * 1 + 1 * 0 = 0; omega
    | ⟨1, _⟩ =>
      show win15_4.index t (1 : Fin 2) * 128 + 1 * (j 1).val = win15_5.index t (1 : Fin 2) * 128 + 1 * (j 1).val
      omega

/-- An index of the output array is in point `t`'s tile iff each coordinate is in the tile's range on its axis. -/
theorem mem_blk5 (t : Fin cfg15.N) (i : S50000x128.Idx) :
    i ∈ ((cfg15.win 5).blk t).view.set ↔ ∀ a : Fin 2, win15_5.index t a * S10000x128.size a ≤ (i a).val
      ∧ (i a).val < win15_5.index t a * S10000x128.size a + S10000x128.size a := by
  show i ∈ ((View.whole main_v243).slice (win15_5.rect t)).set ↔ _
  rw [View.set_slice_whole, Rect.mem_set_unit]
  exact Iff.rfl

/-- Every entry of the output array is in some point's tile: row `r` is in tile `r / 10000`. -/
theorem cover5 (i : S50000x128.Idx) :
    ∃ t : Fin cfg15.N, (cfg15.win 5).flush t = true ∧ i ∈ ((cfg15.win 5).blk t).view.set := by
  have hi0 : (i 0).val < 50000 := (i 0).isLt
  have hi1 : (i 1).val < 128 := (i 1).isLt
  have hN : grid15.N = 5 := N_15
  let t : Fin cfg15.N := ⟨(i 0).val / 10000, by show (i 0).val / 10000 < grid15.N; omega⟩
  obtain ⟨f0, f1, f5, ft, -⟩ := idx_facts t
  have htv : t.val = (i 0).val / 10000 := rfl
  refine ⟨t, flush15_5 t, ?_⟩
  rw [mem_blk5]
  intro a
  match a with
  | ⟨0, _⟩ =>
    show win15_5.index t (0 : Fin 2) * 10000 ≤ (i 0).val ∧ (i 0).val < win15_5.index t (0 : Fin 2) * 10000 + 10000
    omega
  | ⟨1, _⟩ =>
    show win15_5.index t (1 : Fin 2) * 128 ≤ (i 1).val ∧ (i 1).val < win15_5.index t (1 : Fin 2) * 128 + 128
    omega

/-- THE OUTPUT ARRAY after the region: the normalised, scaled, shifted and rectified source, entry by entry. -/
theorem final5 (c : Dev nD) : (dat15 V c).arrAt 5 cfg15.N = G V c :=
  (dat15 V c).arrAt_eq_of_cover 5 (G V c) (fun t _ => flushed5_eq V c t) (cover5)

end Exact

end Cert.KernelIdeal.R15

end
-- ==== Proof.R14Array.lean ====
/- The third kernel of layer 4 of the five: what its three output arrays hold when the region ends, at the exact values.

   The grid has five points; point t reads rows 10000·t … 10000·t + 9999 of the source and the four statistics rows,
   whole at every point, and writes back the same rows of the first output. An entry of a tile's result depends on the
   source at that entry and on the rows at its column, so tile t's result is rows 10000·t … of the normalise-scale-
   shift-rectify function of the whole source; the tiles cover the array, which therefore ends holding that function.
   The two running rows are written back once, after the last point, as they stand then: tile by tile they started from
   the zero row and added each tile's column sums (of the result, and of its squares), and a sum over the 50000 rows is
   the sum over the five tiles of the tiles' sums, so they end at the column sums and the column sums of squares of the
   whole result. -/
import proofs.«113410_j5944234737805_1_alg».proof.Proof.R14Value
import proofs.«113410_j5944234737805_1_alg».proof.Proof.R15Value
import proofs.«113410_j5944234737805_1_alg».proof.Proof.KPay1_L3
import proofs.«113410_j5944234737805_1_alg».proof.Proof.GinTiles
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.R14

open Cert.KernelIdeal Cert.KernelIdeal.Gen

variable (V : (c : Dev nD) → (b : Ref sig .tc) → Buf (Elt Ideal) ((c : Thread nD τ).loc b))

/-- The block indices of the eight windows at each grid point: the two tile windows move with the point, the rows stay. -/
theorem idx_facts : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0
    ∧ win14_6.index t (0 : Fin 2) = 0 ∧ win14_6.index t (1 : Fin 2) = 0
    ∧ win14_7.index t (0 : Fin 2) = 0 ∧ win14_7.index t (1 : Fin 2) = 0 :=
  (by decide +kernel : ∀ t : Fin grid14.N, _)

/-- Row q of the tile of point t. -/
abbrev rowK (t : Fin cfg14.N) (q : Fin 10000) : Fin 50000 :=
  ⟨10000 * t.val + q.val, by have := t.isLt; have hN : cfg14.N = 5 := N_14; have := q.isLt; omega⟩

/-- The source tile of point t, read through its window, is rows 10000·t + q of the source array. -/
theorem tile_apply (c : Dev nD) (t : Fin cfg14.N) (q : Fin 10000) (k : Fin 128) :
    iblk14 V c 0 t (ix2 q k) = V c main_v229_0 (ix2 (rowK t q) k) := by
  obtain ⟨e0, e1, -⟩ := idx_facts t
  unfold iblk14
  rw [View.read_apply]
  show V c main_v229_0 _ = V c main_v229_0 _
  congr 1
  funext a
  apply Fin.ext
  match a with
  | ⟨0, _⟩ => show win14_0.index t (0 : Fin 2) * 10000 + 1 * q.val = 10000 * t.val + q.val; rw [e0]; omega
  | ⟨1, _⟩ => show win14_0.index t (1 : Fin 2) * 128 + 1 * k.val = k.val; rw [e1]; omega

/-- Window 1's block at every point is its whole row. -/
theorem row_blk1 (c : Dev nD) (t : Fin cfg14.N) : iblk14 V c 1 t = V c main_v231 := by
  obtain ⟨-, -, e10, e11, e20, e21, e30, e31, e40, e41, -⟩ := idx_facts t
  funext j
  unfold iblk14
  rw [View.read_apply]
  show V c main_v231 _ = V c main_v231 j
  congr 1
  funext a
  apply Fin.ext
  match a with
  | ⟨0, _⟩ => show win14_1.index t (0 : Fin 2) * 1 + 1 * (j 0).val = (j 0).val; rw [e10]; omega
  | ⟨1, _⟩ => show win14_1.index t (1 : Fin 2) * 128 + 1 * (j 1).val = (j 1).val; rw [e11]; omega

/-- Window 2's block at every point is its whole row. -/
theorem row_blk2 (c : Dev nD) (t : Fin cfg14.N) : iblk14 V c 2 t = V c main_v235 := by
  obtain ⟨-, -, e10, e11, e20, e21, e30, e31, e40, e41, -⟩ := idx_facts t
  funext j
  unfold iblk14
  rw [View.read_apply]
  show V c main_v235 _ = V c main_v235 j
  congr 1
  funext a
  apply Fin.ext
  match a with
  | ⟨0, _⟩ => show win14_2.index t (0 : Fin 2) * 1 + 1 * (j 0).val = (j 0).val; rw [e20]; omega
  | ⟨1, _⟩ => show win14_2.index t (1 : Fin 2) * 128 + 1 * (j 1).val = (j 1).val; rw [e21]; omega

/-- Window 3's block at every point is its whole row. -/
theorem row_blk3 (c : Dev nD) (t : Fin cfg14.N) : iblk14 V c 3 t = V c main_v208 := by
  obtain ⟨-, -, e10, e11, e20, e21, e30, e31, e40, e41, -⟩ := idx_facts t
  funext j
  unfold iblk14
  rw [View.read_apply]
  show V c main_v208 _ = V c main_v208 j
  congr 1
  funext a
  apply Fin.ext
  match a with
  | ⟨0, _⟩ => show win14_3.index t (0 : Fin 2) * 1 + 1 * (j 0).val = (j 0).val; rw [e30]; omega
  | ⟨1, _⟩ => show win14_3.index t (1 : Fin 2) * 128 + 1 * (j 1).val = (j 1).val; rw [e31]; omega

/-- Window 4's block at every point is its whole row. -/
theorem row_blk4 (c : Dev nD) (t : Fin cfg14.N) : iblk14 V c 4 t = V c main_v211 := by
  obtain ⟨-, -, e10, e11, e20, e21, e30, e31, e40, e41, -⟩ := idx_facts t
  funext j
  unfold iblk14
  rw [View.read_apply]
  show V c main_v211 _ = V c main_v211 j
  congr 1
  funext a
  apply Fin.ext
  match a with
  | ⟨0, _⟩ => show win14_4.index t (0 : Fin 2) * 1 + 1 * (j 0).val = (j 0).val; rw [e40]; omega
  | ⟨1, _⟩ => show win14_4.index t (1 : Fin 2) * 128 + 1 * (j 1).val = (j 1).val; rw [e41]; omega

/-- What the first output array ends holding: the normalised, scaled, shifted and rectified source. -/
abbrev A2 (c : Dev nD) : BatchNormSpec.Mat 50000 128 :=
  BatchNormSpec.normRelu (Ideal.ofBits .f32 0x3727C5AC#32) (Ideal.ofBits .f32 0x00000000#32) (V c main_v229_0)
    (KPay.rowAt (V c main_v231)) (KPay.rowAt (V c main_v235)) (KPay.rowAt (V c main_v208)) (KPay.rowAt (V c main_v211))

/-- The result on a tile is the matching rows of the result on the whole source. -/
theorem tile_norm (c : Dev nD) (t : Fin cfg14.N) (q : Fin 10000) (k : Fin 128) :
    KPay.normTile (iblk14 V c 0 t) (iblk14 V c 1 t) (iblk14 V c 2 t) (iblk14 V c 3 t) (iblk14 V c 4 t) (ix2 q k)
      = A2 V c (ix2 (rowK t q) k) := by
  rw [row_blk1, row_blk2, row_blk3, row_blk4]
  exact R15.normRelu_congr _ _ _ _ _ _ _ _ _ _ _ _ (ix2 q k) (ix2 (rowK t q) k) (tile_apply V c t q k) rfl rfl rfl rfl

/-- What point t writes back to the first output is rows 10000·t … of that function. -/
theorem flushed5_eq (c : Dev nD) (t : Fin cfg14.N) :
    (dat14 V c).flushed 5 t = ((cfg14.win 5).blk t).view.read (Elt Ideal) (A2 V c) := by
  obtain ⟨-, -, -, -, -, -, -, -, -, -, e50, e51, -⟩ := idx_facts t
  show (cfg14.win 5).cut (grid14.coords t) ((dat14 V c).after 5 t) = _
  rw [after14_5, outsAt_eq V c t.val t.isLt]
  funext j
  obtain ⟨q, k, rfl⟩ : ∃ (q : Fin 10000) (k : Fin 128), j = ix2 q k := ⟨j 0, j 1, eq_ix2 j⟩
  show k14_pay4 (iblk14 V c 0 t) (iblk14 V c 2 t) (iblk14 V c 3 t) (iblk14 V c 1 t) (iblk14 V c 4 t) (ix2 q k) = A2 V c (((cfg14.win 5).blk t).view.emb (ix2 q k))
  rw [KPayL3.k2pay4_eq]
  have hemb : ((cfg14.win 5).blk t).view.emb (ix2 q k) = ix2 (rowK t q) k := by
    funext a
    apply Fin.ext
    match a with
    | ⟨0, _⟩ => show win14_5.index t (0 : Fin 2) * 10000 + 1 * q.val = 10000 * t.val + q.val; rw [e50]; omega
    | ⟨1, _⟩ => show win14_5.index t (1 : Fin 2) * 128 + 1 * k.val = k.val; rw [e51]; omega
  rw [hemb]
  exact tile_norm V c t q k

/-- An index of the first output array is in point t's block iff each coordinate is in the block's range. -/
theorem mem_blk5 (t : Fin cfg14.N) (i : S50000x128.Idx) :
    i ∈ ((cfg14.win 5).blk t).view.set ↔ ∀ a : Fin 2, win14_5.index t a * S10000x128.size a ≤ (i a).val
      ∧ (i a).val < win14_5.index t a * S10000x128.size a + S10000x128.size a := by
  show i ∈ ((View.whole main_v236_0).slice (win14_5.rect t)).set ↔ _
  rw [View.set_slice_whole, Rect.mem_set_unit]
  exact Iff.rfl

/-- The first output array when the region ends. -/
theorem final5 (c : Dev nD) : (dat14 V c).arrAt 5 cfg14.N = A2 V c :=
  (dat14 V c).arrAt_eq_of_cover 5 (A2 V c) (fun t _ => flushed5_eq V c t) fun i => by
    have hi0 : (i 0).val < 50000 := (i 0).isLt
    have hi1 : (i 1).val < 128 := (i 1).isLt
    have hN : cfg14.N = 5 := N_14
    obtain ⟨-, -, -, -, -, -, -, -, -, -, e50, e51, -⟩ := idx_facts ⟨(i 0).val / 10000, by omega⟩
    refine ⟨⟨(i 0).val / 10000, by omega⟩, flush14_5 _, ?_⟩
    rw [mem_blk5]
    intro a
    match a with
    | ⟨0, _⟩ =>
      show win14_5.index ⟨(i 0).val / 10000, _⟩ (0 : Fin 2) * 10000 ≤ (i 0).val
        ∧ (i 0).val < win14_5.index ⟨(i 0).val / 10000, _⟩ (0 : Fin 2) * 10000 + 10000
      rw [e50]; dsimp only; omega
    | ⟨1, _⟩ =>
      show win14_5.index ⟨(i 0).val / 10000, _⟩ (1 : Fin 2) * 128 ≤ (i 1).val
        ∧ (i 1).val < win14_5.index ⟨(i 0).val / 10000, _⟩ (1 : Fin 2) * 128 + 128
      rw [e51]; omega

/-! ## The two running rows -/

/-- The last grid point. -/
abbrev tLast : Fin cfg14.N := ⟨4, by rw [show cfg14.N = 5 from N_14]; decide⟩

/-- Point 4 is a point of the grid. -/
theorem h4 : 4 < cfg14.N := tLast.isLt

/-- An index of running row 6's array is in point t's block iff each coordinate is in the block's range. -/
theorem mem_blk6 (t : Fin cfg14.N) (i : S1x128.Idx) :
    i ∈ ((cfg14.win 6).blk t).view.set ↔ ∀ a : Fin 2, win14_6.index t a * S1x128.size a ≤ (i a).val
      ∧ (i a).val < win14_6.index t a * S1x128.size a + S1x128.size a := by
  show i ∈ ((View.whole main_v236_1).slice (win14_6.rect t)).set ↔ _
  rw [View.set_slice_whole, Rect.mem_set_unit]
  exact Iff.rfl

/-- The one write-back of running row 6, after the last point, writes the row as it stands after point 4. -/
theorem flushed6_eq (c : Dev nD) (t : Fin cfg14.N) (hf : (cfg14.win 6).flush t = true) :
    (dat14 V c).flushed 6 t = ((cfg14.win 6).blk t).view.read (Elt Ideal) (acc6 V c 4 h4) := by
  have hN : cfg14.N = 5 := N_14
  have ht : t.val = 4 := by have := (flush14_6 t).mp hf; have := t.isLt; omega
  obtain rfl : t = tLast := Fin.ext ht
  obtain ⟨-, -, -, -, -, -, -, -, -, -, -, -, e60, e61, e70, e71⟩ := idx_facts tLast
  show (cfg14.win 6).cut (grid14.coords tLast) ((dat14 V c).after 6 tLast) = _
  rw [after14_6, outsAt_eq V c tLast.val tLast.isLt]
  funext j
  show acc6 V c 4 _ j = acc6 V c 4 _ (((cfg14.win 6).blk tLast).view.emb j)
  congr 1
  funext a
  apply Fin.ext
  match a with
  | ⟨0, _⟩ => show (j 0).val = win14_6.index tLast (0 : Fin 2) * 1 + 1 * (j 0).val; rw [e60]; omega
  | ⟨1, _⟩ => show (j 1).val = win14_6.index tLast (1 : Fin 2) * 128 + 1 * (j 1).val; rw [e61]; omega

/-- Running row 6's array when the region ends. -/
theorem final6 (c : Dev nD) : (dat14 V c).arrAt 6 cfg14.N = acc6 V c 4 h4 :=
  (dat14 V c).arrAt_eq_of_cover 6 (acc6 V c 4 h4) (flushed6_eq V c) fun i => by
    have hi0 : (i 0).val < 1 := (i 0).isLt
    have hi1 : (i 1).val < 128 := (i 1).isLt
    obtain ⟨-, -, -, -, -, -, -, -, -, -, -, -, e60, e61, e70, e71⟩ := idx_facts tLast
    refine ⟨tLast, (flush14_6 tLast).mpr rfl, ?_⟩
    rw [mem_blk6]
    intro a
    match a with
    | ⟨0, _⟩ =>
      show win14_6.index tLast (0 : Fin 2) * 1 ≤ (i 0).val ∧ (i 0).val < win14_6.index tLast (0 : Fin 2) * 1 + 1
      rw [e60]; omega
    | ⟨1, _⟩ =>
      show win14_6.index tLast (1 : Fin 2) * 128 ≤ (i 1).val ∧ (i 1).val < win14_6.index tLast (1 : Fin 2) * 128 + 128
      rw [e61]; omega

/-- An index of running row 7's array is in point t's block iff each coordinate is in the block's range. -/
theorem mem_blk7 (t : Fin cfg14.N) (i : S1x128.Idx) :
    i ∈ ((cfg14.win 7).blk t).view.set ↔ ∀ a : Fin 2, win14_7.index t a * S1x128.size a ≤ (i a).val
      ∧ (i a).val < win14_7.index t a * S1x128.size a + S1x128.size a := by
  show i ∈ ((View.whole main_v236_2).slice (win14_7.rect t)).set ↔ _
  rw [View.set_slice_whole, Rect.mem_set_unit]
  exact Iff.rfl

/-- The one write-back of running row 7, after the last point, writes the row as it stands after point 4. -/
theorem flushed7_eq (c : Dev nD) (t : Fin cfg14.N) (hf : (cfg14.win 7).flush t = true) :
    (dat14 V c).flushed 7 t = ((cfg14.win 7).blk t).view.read (Elt Ideal) (acc7 V c 4 h4) := by
  have hN : cfg14.N = 5 := N_14
  have ht : t.val = 4 := by have := (flush14_7 t).mp hf; have := t.isLt; omega
  obtain rfl : t = tLast := Fin.ext ht
  obtain ⟨-, -, -, -, -, -, -, -, -, -, -, -, e60, e61, e70, e71⟩ := idx_facts tLast
  show (cfg14.win 7).cut (grid14.coords tLast) ((dat14 V c).after 7 tLast) = _
  rw [after14_7, outsAt_eq V c tLast.val tLast.isLt]
  funext j
  show acc7 V c 4 _ j = acc7 V c 4 _ (((cfg14.win 7).blk tLast).view.emb j)
  congr 1
  funext a
  apply Fin.ext
  match a with
  | ⟨0, _⟩ => show (j 0).val = win14_7.index tLast (0 : Fin 2) * 1 + 1 * (j 0).val; rw [e70]; omega
  | ⟨1, _⟩ => show (j 1).val = win14_7.index tLast (1 : Fin 2) * 128 + 1 * (j 1).val; rw [e71]; omega

/-- Running row 7's array when the region ends. -/
theorem final7 (c : Dev nD) : (dat14 V c).arrAt 7 cfg14.N = acc7 V c 4 h4 :=
  (dat14 V c).arrAt_eq_of_cover 7 (acc7 V c 4 h4) (flushed7_eq V c) fun i => by
    have hi0 : (i 0).val < 1 := (i 0).isLt
    have hi1 : (i 1).val < 128 := (i 1).isLt
    obtain ⟨-, -, -, -, -, -, -, -, -, -, -, -, e60, e61, e70, e71⟩ := idx_facts tLast
    refine ⟨tLast, (flush14_7 tLast).mpr rfl, ?_⟩
    rw [mem_blk7]
    intro a
    match a with
    | ⟨0, _⟩ =>
      show win14_7.index tLast (0 : Fin 2) * 1 ≤ (i 0).val ∧ (i 0).val < win14_7.index tLast (0 : Fin 2) * 1 + 1
      rw [e70]; omega
    | ⟨1, _⟩ =>
      show win14_7.index tLast (1 : Fin 2) * 128 ≤ (i 1).val ∧ (i 1).val < win14_7.index tLast (1 : Fin 2) * 128 + 128
      rw [e71]; omega

/-! ## The running rows are the column sums -/

/-- Running row 6 at column cc, as a sequence in the point (zero past the last point). -/
def A6 (c : Dev nD) (cc : Fin 128) (n : ℕ) : EReal :=
  if h : n < cfg14.N then acc6 V c n h (ix2 (0 : Fin 1) cc) else 0

/-- After the last point, running row 6 holds the column sums of the whole result. -/
theorem acc6_eq (c : Dev nD) (cc : Fin 128) :
    acc6 V c 4 h4 (ix2 (0 : Fin 1) cc) = BatchNormSpec.colSum (A2 V c) cc := by
  have hN : cfg14.N = 5 := N_14
  have key := GinTiles.acc_eq_colSum (A2 V c) cc (A6 V c cc) ?h0 ?hs
  · rw [← key]
    unfold A6
    rw [dif_pos h4]
  case h0 =>
    unfold A6
    rw [dif_pos (by omega : 0 < cfg14.N)]
    refine (KPayL3.k2pay5_apply (iblk14 V c 0 ⟨0, by omega⟩) (iblk14 V c 2 ⟨0, by omega⟩) (iblk14 V c 3 ⟨0, by omega⟩) (iblk14 V c 1 ⟨0, by omega⟩) (iblk14 V c 4 ⟨0, by omega⟩) (k14_pay2 (F := Ideal)) cc).trans ?_
    rw [KPayL3.k2pay2_apply]
    refine congrArg ((0 : EReal) + ·) ?_
    unfold GinTiles.tileSum
    rw [dif_pos (by norm_num : 0 < 5)]
    exact Finset.sum_congr rfl fun q _ => tile_norm V c ⟨0, by omega⟩ q cc
  case hs =>
    intro n hn
    unfold A6
    rw [dif_pos (by omega : n + 1 < cfg14.N), dif_pos (by omega : n < cfg14.N)]
    refine (KPayL3.k2pay5_apply (iblk14 V c 0 ⟨n + 1, by omega⟩) (iblk14 V c 2 ⟨n + 1, by omega⟩) (iblk14 V c 3 ⟨n + 1, by omega⟩) (iblk14 V c 1 ⟨n + 1, by omega⟩) (iblk14 V c 4 ⟨n + 1, by omega⟩) (acc6 V c n (by omega)) cc).trans ?_
    refine congrArg (acc6 V c n (by omega) (ix2 (0 : Fin 1) cc) + ·) ?_
    unfold GinTiles.tileSum
    rw [dif_pos hn]
    exact Finset.sum_congr rfl fun q _ => tile_norm V c ⟨n + 1, by omega⟩ q cc

/-- Running row 7 at column cc, as a sequence in the point (zero past the last point). -/
def A7 (c : Dev nD) (cc : Fin 128) (n : ℕ) : EReal :=
  if h : n < cfg14.N then acc7 V c n h (ix2 (0 : Fin 1) cc) else 0

/-- After the last point, running row 7 holds the column sums of squares of the whole result. -/
theorem acc7_eq (c : Dev nD) (cc : Fin 128) :
    acc7 V c 4 h4 (ix2 (0 : Fin 1) cc) = BatchNormSpec.colSumSq (A2 V c) cc := by
  have hN : cfg14.N = 5 := N_14
  have key := GinTiles.acc_eq_colSumSq (A2 V c) cc (A7 V c cc) ?h0 ?hs
  · rw [← key]
    unfold A7
    rw [dif_pos h4]
  case h0 =>
    unfold A7
    rw [dif_pos (by omega : 0 < cfg14.N)]
    refine (KPayL3.k2pay1_apply (k14_pay4 (iblk14 V c 0 ⟨0, by omega⟩) (iblk14 V c 2 ⟨0, by omega⟩) (iblk14 V c 3 ⟨0, by omega⟩) (iblk14 V c 1 ⟨0, by omega⟩) (iblk14 V c 4 ⟨0, by omega⟩)) (k14_pay3 (F := Ideal)) cc).trans ?_
    rw [KPayL3.k2pay3_apply, KPayL3.k2pay4_eq]
    refine congrArg ((0 : EReal) + ·) ?_
    unfold GinTiles.tileSum
    rw [dif_pos (by norm_num : 0 < 5)]
    exact Finset.sum_congr rfl fun q _ =>
      congrArg₂ (· * ·) (tile_norm V c ⟨0, by omega⟩ q cc) (tile_norm V c ⟨0, by omega⟩ q cc)
  case hs =>
    intro n hn
    unfold A7
    rw [dif_pos (by omega : n + 1 < cfg14.N), dif_pos (by omega : n < cfg14.N)]
    refine (KPayL3.k2pay1_apply (k14_pay4 (iblk14 V c 0 ⟨n + 1, by omega⟩) (iblk14 V c 2 ⟨n + 1, by omega⟩) (iblk14 V c 3 ⟨n + 1, by omega⟩) (iblk14 V c 1 ⟨n + 1, by omega⟩) (iblk14 V c 4 ⟨n + 1, by omega⟩)) (acc7 V c n (by omega)) cc).trans ?_
    rw [KPayL3.k2pay4_eq]
    refine congrArg (acc7 V c n (by omega) (ix2 (0 : Fin 1) cc) + ·) ?_
    unfold GinTiles.tileSum
    rw [dif_pos hn]
    exact Finset.sum_congr rfl fun q _ =>
      congrArg₂ (· * ·) (tile_norm V c ⟨n + 1, by omega⟩ q cc) (tile_norm V c ⟨n + 1, by omega⟩ q cc)

/-- The input windows' arrays end as the region found them. -/
theorem arr_in (c : Dev nD) (w : Fin cfg14.W) (hin : (cfg14.win w).isOut = false) :
    (dat14 V c).arrAt w cfg14.N = V c (Pipeline.arrRef spec14 w) :=
  ((dat14 V c).arrAt_in w hin _).trans (A_eq14 V c w)

theorem arr_in0 (c : Dev nD) : (dat14 V c).arrAt 0 cfg14.N = V c (Pipeline.arrRef spec14 0) := arr_in V c 0 rfl
theorem arr_in1 (c : Dev nD) : (dat14 V c).arrAt 1 cfg14.N = V c (Pipeline.arrRef spec14 1) := arr_in V c 1 rfl
theorem arr_in2 (c : Dev nD) : (dat14 V c).arrAt 2 cfg14.N = V c (Pipeline.arrRef spec14 2) := arr_in V c 2 rfl
theorem arr_in3 (c : Dev nD) : (dat14 V c).arrAt 3 cfg14.N = V c (Pipeline.arrRef spec14 3) := arr_in V c 3 rfl
theorem arr_in4 (c : Dev nD) : (dat14 V c).arrAt 4 cfg14.N = V c (Pipeline.arrRef spec14 4) := arr_in V c 4 rfl

end Cert.KernelIdeal.R14

end
-- ==== Proof.KHost_L3.lean ====
/-
  The host operations between the kernel regions of layer 3, as functions of the buffer contents they start from.
  After each of the first three regions the program divides the region's two accumulated rows (the column sums and the
  column sums of squares) by the row count 50000, giving the column means, and subtracts the squared mean from the mean
  square, giving the column variances in their moment form.
-/
import proofs.«113410_j5944234737805_1_alg».proof.Proof.Gen.KernelIdeal.Launch
import proofs.«113410_j5944234737805_1_alg».proof.Proof.KHostRows
import Idealize.ShloMosaic.Lib.StableHlo.Run
import Idealize.ShloMosaic.Lib.ValueIdx
import proofs.«113410_j5944234737805_1_alg».proof.Proof.LibBatchNorm
import proofs.«113410_j5944234737805_1_alg».proof.Proof.GinConsts

noncomputable section

namespace Cert.KernelIdeal.KHostL3

open Cert.KernelIdeal Cert.KernelIdeal.Gen Idealize.ShloMosaic Idealize.ShloMosaic.TcCoe Idealize.SL.Sem
open Idealize.ShloMosaic.StableHlo
open Cert.KernelIdeal.KHost (Row rowMean rowVar Mat Ix srcIx rst rowL matL)

variable {F : FTy → Type} [FloatOps F]

/-- After region 12: the means of the first dense layer's columns. -/
theorem mean1_eq (W : Valuation τ sig (Elt F)) :
    after hostOps13 W (Proc.devRef .tc main_v222) = rowMean (W (Proc.devRef .tc main_v220_1)) := by
  after_results
  rfl

/-- After region 12: their variances. -/
theorem var1_eq (W : Valuation τ sig (Elt F)) :
    after hostOps13 W (Proc.devRef .tc main_v226)
      = rowVar (W (Proc.devRef .tc main_v220_1)) (W (Proc.devRef .tc main_v220_2)) := by
  after_results
  rfl

/-- After region 13: the means of the second dense layer's columns. -/
theorem mean2_eq (W : Valuation τ sig (Elt F)) :
    after hostOps14 W (Proc.devRef .tc main_v231) = rowMean (W (Proc.devRef .tc main_v229_1)) := by
  after_results
  rfl

/-- After region 13: their variances. -/
theorem var2_eq (W : Valuation τ sig (Elt F)) :
    after hostOps14 W (Proc.devRef .tc main_v235)
      = rowVar (W (Proc.devRef .tc main_v229_1)) (W (Proc.devRef .tc main_v229_2)) := by
  after_results
  rfl

/-- After region 14: the means of the rectified columns. -/
theorem mean3_eq (W : Valuation τ sig (Elt F)) :
    after hostOps15 W (Proc.devRef .tc main_v238) = rowMean (W (Proc.devRef .tc main_v236_1)) := by
  after_results
  rfl

/-- After region 14: their variances. -/
theorem var3_eq (W : Valuation τ sig (Elt F)) :
    after hostOps15 W (Proc.devRef .tc main_v242)
      = rowVar (W (Proc.devRef .tc main_v236_1)) (W (Proc.devRef .tc main_v236_2)) := by
  after_results
  rfl

/-! ## The first stretch of layer 3: the neighbour sum and row 3 of every stacked parameter -/

set_option maxHeartbeats 2000000 in
/-- Region 12's first operand: the features plus their neighbour sum. -/
theorem rst0_eq (W : Valuation τ sig (Elt F)) :
    after hostOps12 W (Proc.devRef .tc main_v193)
      = rst (W (Proc.devRef .tc main_v182)) (W (Proc.devRef .tc main_arg1)) (W (Proc.devRef .tc main_arg2)) := by
  after_results
  rfl

/-- Region 12's weights and bias row. -/
theorem w1_0_eq (W : Valuation τ sig (Elt F)) :
    after hostOps12 W (Proc.devRef .tc main_v219) = matL 3 slices_S5x128x128_S1x128x128_3_0_0 (W (Proc.devRef .tc main_arg3)) := by
  after_results
  rfl
theorem b1_0_eq (W : Valuation τ sig (Elt F)) :
    after hostOps12 W (Proc.devRef .tc main_v196) = rowL 3 slices_S5x128_S1x128_3_0 (W (Proc.devRef .tc main_arg4)) := by
  after_results
  rfl

/-- The other parameter rows of layer 3, each row 3 of its stacked argument. -/
theorem b2_0_eq (W : Valuation τ sig (Elt F)) :
    after hostOps12 W (Proc.devRef .tc main_v199) = rowL 3 slices_S5x128_S1x128_3_0 (W (Proc.devRef .tc main_arg6)) := by
  after_results
  rfl
theorem g1_0_eq (W : Valuation τ sig (Elt F)) :
    after hostOps12 W (Proc.devRef .tc main_v202) = rowL 3 slices_S5x128_S1x128_3_0 (W (Proc.devRef .tc main_arg7)) := by
  after_results
  rfl
theorem be1_0_eq (W : Valuation τ sig (Elt F)) :
    after hostOps12 W (Proc.devRef .tc main_v205) = rowL 3 slices_S5x128_S1x128_3_0 (W (Proc.devRef .tc main_arg8)) := by
  after_results
  rfl
theorem g2_0_eq (W : Valuation τ sig (Elt F)) :
    after hostOps12 W (Proc.devRef .tc main_v208) = rowL 3 slices_S5x128_S1x128_3_0 (W (Proc.devRef .tc main_arg9)) := by
  after_results
  rfl
theorem be2_0_eq (W : Valuation τ sig (Elt F)) :
    after hostOps12 W (Proc.devRef .tc main_v211) = rowL 3 slices_S5x128_S1x128_3_0 (W (Proc.devRef .tc main_arg10)) := by
  after_results
  rfl
theorem g3_0_eq (W : Valuation τ sig (Elt F)) :
    after hostOps12 W (Proc.devRef .tc main_v214) = rowL 3 slices_S5x128_S1x128_3_0 (W (Proc.devRef .tc main_arg11)) := by
  after_results
  rfl
theorem be3_0_eq (W : Valuation τ sig (Elt F)) :
    after hostOps12 W (Proc.devRef .tc main_v217) = rowL 3 slices_S5x128_S1x128_3_0 (W (Proc.devRef .tc main_arg12)) := by
  after_results
  rfl

/-- The second dense layer's weights, sliced after region 12. -/
theorem w2_0_eq (W : Valuation τ sig (Elt F)) :
    after hostOps13 W (Proc.devRef .tc main_v228) = matL 3 slices_S5x128x128_S1x128x128_3_0_0 (W (Proc.devRef .tc main_arg5)) := by
  after_results
  rfl

/-! ## What the stretches leave alone: a buffer no operation of a stretch writes keeps its contents across it -/

theorem keep_hostOps1_main_v37_0 (W : Valuation τ sig (Elt F)) :
    after hostOps13 W (Proc.devRef .tc main_v220_0) = W (Proc.devRef .tc main_v220_0) := by
  after_results
theorem keep_hostOps1_main_v19 (W : Valuation τ sig (Elt F)) :
    after hostOps13 W (Proc.devRef .tc main_v202) = W (Proc.devRef .tc main_v202) := by
  after_results
theorem keep_hostOps1_main_v22 (W : Valuation τ sig (Elt F)) :
    after hostOps13 W (Proc.devRef .tc main_v205) = W (Proc.devRef .tc main_v205) := by
  after_results
theorem keep_hostOps1_main_v16 (W : Valuation τ sig (Elt F)) :
    after hostOps13 W (Proc.devRef .tc main_v199) = W (Proc.devRef .tc main_v199) := by
  after_results
theorem keep_hostOps1_main_v25 (W : Valuation τ sig (Elt F)) :
    after hostOps13 W (Proc.devRef .tc main_v208) = W (Proc.devRef .tc main_v208) := by
  after_results
theorem keep_hostOps1_main_v28 (W : Valuation τ sig (Elt F)) :
    after hostOps13 W (Proc.devRef .tc main_v211) = W (Proc.devRef .tc main_v211) := by
  after_results
theorem keep_hostOps1_main_v31 (W : Valuation τ sig (Elt F)) :
    after hostOps13 W (Proc.devRef .tc main_v214) = W (Proc.devRef .tc main_v214) := by
  after_results
theorem keep_hostOps1_main_v34 (W : Valuation τ sig (Elt F)) :
    after hostOps13 W (Proc.devRef .tc main_v217) = W (Proc.devRef .tc main_v217) := by
  after_results

theorem keep_hostOps2_main_v46_0 (W : Valuation τ sig (Elt F)) :
    after hostOps14 W (Proc.devRef .tc main_v229_0) = W (Proc.devRef .tc main_v229_0) := by
  after_results
theorem keep_hostOps2_main_v25 (W : Valuation τ sig (Elt F)) :
    after hostOps14 W (Proc.devRef .tc main_v208) = W (Proc.devRef .tc main_v208) := by
  after_results
theorem keep_hostOps2_main_v28 (W : Valuation τ sig (Elt F)) :
    after hostOps14 W (Proc.devRef .tc main_v211) = W (Proc.devRef .tc main_v211) := by
  after_results
theorem keep_hostOps2_main_v31 (W : Valuation τ sig (Elt F)) :
    after hostOps14 W (Proc.devRef .tc main_v214) = W (Proc.devRef .tc main_v214) := by
  after_results
theorem keep_hostOps2_main_v34 (W : Valuation τ sig (Elt F)) :
    after hostOps14 W (Proc.devRef .tc main_v217) = W (Proc.devRef .tc main_v217) := by
  after_results

theorem keep_hostOps3_main_v53_0 (W : Valuation τ sig (Elt F)) :
    after hostOps15 W (Proc.devRef .tc main_v236_0) = W (Proc.devRef .tc main_v236_0) := by
  after_results
theorem keep_hostOps3_main_v31 (W : Valuation τ sig (Elt F)) :
    after hostOps15 W (Proc.devRef .tc main_v214) = W (Proc.devRef .tc main_v214) := by
  after_results
theorem keep_hostOps3_main_v34 (W : Valuation τ sig (Elt F)) :
    after hostOps15 W (Proc.devRef .tc main_v217) = W (Proc.devRef .tc main_v217) := by
  after_results

end Cert.KernelIdeal.KHostL3

end
-- ==== Proof.Layer3.lean ====
/-
  Layer 3 (counting from zero) of the idealized kernel program, through the segment boundaries from the end of the previous layer's last region to the end of this layer's fourth region.
  The first stretch of host operations forms the features plus their neighbour sum and slices row 3 out of every stacked
  parameter; the layer's first region computes the first dense layer and its column sums; the next stretch turns the sums into column
  means and moment variances; its second region normalises, rectifies and applies the second dense layer; and so on. Each
  region's arrays at its exit are what its write-backs leave, every other buffer is as it was at the region's entry, and
  a buffer no operation of a stretch writes keeps its contents across it. Composed, the features after the fourth region
  are the layer function with moment variances of the contents at the layer's entry.
-/
import proofs.«113410_j5944234737805_1_alg».proof.Proof.R12Array
import proofs.«113410_j5944234737805_1_alg».proof.Proof.R13Array
import proofs.«113410_j5944234737805_1_alg».proof.Proof.R14Array
import proofs.«113410_j5944234737805_1_alg».proof.Proof.R15Value
import proofs.«113410_j5944234737805_1_alg».proof.Proof.KHost
import proofs.«113410_j5944234737805_1_alg».proof.Proof.KHostRows
import proofs.«113410_j5944234737805_1_alg».proof.Proof.KHost_L3
import proofs.«113410_j5944234737805_1_alg».proof.Proof.GinSpec

noncomputable section

open Idealize.ShloMosaic Idealize.ShloMosaic.TcCoe Idealize.SL.Sem Idealize.ShloMosaic.ValueIdx
open Idealize.ShloMosaic.StableHlo

namespace Cert.KernelIdeal.Layer3

open Cert.KernelIdeal Cert.KernelIdeal.Gen

variable (m : (ℓ : Loc nD τ sig) → Buf (Elt Ideal) ℓ) (ρ : Dev nD → PrngReg)

/-- The epsilon and the zero of the normalisations. -/
abbrev eps : EReal := Ideal.ofBits .f32 0x3727C5AC#32
abbrev zero : EReal := Ideal.ofBits .f32 0x00000000#32

/-- The row count as a real. -/
theorem N_cast : ((GinSpec.N : ℕ) : ℝ) = (50000 : ℝ) := by norm_num [GinSpec.N]

/-- The first stretch writes no argument. -/
theorem keep0_main_arg1 (W : Valuation τ sig (Elt Ideal)) :
    after hostOps12 W (Proc.devRef .tc main_arg1) = W (Proc.devRef .tc main_arg1) := by
  after_results
theorem keep0_main_arg2 (W : Valuation τ sig (Elt Ideal)) :
    after hostOps12 W (Proc.devRef .tc main_arg2) = W (Proc.devRef .tc main_arg2) := by
  after_results
theorem keep0_main_arg3 (W : Valuation τ sig (Elt Ideal)) :
    after hostOps12 W (Proc.devRef .tc main_arg3) = W (Proc.devRef .tc main_arg3) := by
  after_results
theorem keep0_main_arg4 (W : Valuation τ sig (Elt Ideal)) :
    after hostOps12 W (Proc.devRef .tc main_arg4) = W (Proc.devRef .tc main_arg4) := by
  after_results
theorem keep0_main_arg5 (W : Valuation τ sig (Elt Ideal)) :
    after hostOps12 W (Proc.devRef .tc main_arg5) = W (Proc.devRef .tc main_arg5) := by
  after_results
theorem keep0_main_arg6 (W : Valuation τ sig (Elt Ideal)) :
    after hostOps12 W (Proc.devRef .tc main_arg6) = W (Proc.devRef .tc main_arg6) := by
  after_results
theorem keep0_main_arg7 (W : Valuation τ sig (Elt Ideal)) :
    after hostOps12 W (Proc.devRef .tc main_arg7) = W (Proc.devRef .tc main_arg7) := by
  after_results
theorem keep0_main_arg8 (W : Valuation τ sig (Elt Ideal)) :
    after hostOps12 W (Proc.devRef .tc main_arg8) = W (Proc.devRef .tc main_arg8) := by
  after_results
theorem keep0_main_arg9 (W : Valuation τ sig (Elt Ideal)) :
    after hostOps12 W (Proc.devRef .tc main_arg9) = W (Proc.devRef .tc main_arg9) := by
  after_results
theorem keep0_main_arg10 (W : Valuation τ sig (Elt Ideal)) :
    after hostOps12 W (Proc.devRef .tc main_arg10) = W (Proc.devRef .tc main_arg10) := by
  after_results
theorem keep0_main_arg11 (W : Valuation τ sig (Elt Ideal)) :
    after hostOps12 W (Proc.devRef .tc main_arg11) = W (Proc.devRef .tc main_arg11) := by
  after_results
theorem keep0_main_arg12 (W : Valuation τ sig (Elt Ideal)) :
    after hostOps12 W (Proc.devRef .tc main_arg12) = W (Proc.devRef .tc main_arg12) := by
  after_results

/-- The layer's parameters: matrix 3 and row 3 of the stacked arguments as the layer finds them. -/
def P0 (c : Dev nD) : GinSpec.Params where
  W1 := (KHost.matL 3 slices_S5x128x128_S1x128x128_3_0_0) (W24 m ρ c (Proc.devRef .tc main_arg3))
  b1 := (KHost.rowL 3 slices_S5x128_S1x128_3_0) (W24 m ρ c (Proc.devRef .tc main_arg4))
  W2 := (KHost.matL 3 slices_S5x128x128_S1x128x128_3_0_0) (W24 m ρ c (Proc.devRef .tc main_arg5))
  b2 := (KHost.rowL 3 slices_S5x128_S1x128_3_0) (W24 m ρ c (Proc.devRef .tc main_arg6))
  g1 := KPay.rowAt ((KHost.rowL 3 slices_S5x128_S1x128_3_0) (W24 m ρ c (Proc.devRef .tc main_arg7)))
  β1 := KPay.rowAt ((KHost.rowL 3 slices_S5x128_S1x128_3_0) (W24 m ρ c (Proc.devRef .tc main_arg8)))
  g2 := KPay.rowAt ((KHost.rowL 3 slices_S5x128_S1x128_3_0) (W24 m ρ c (Proc.devRef .tc main_arg9)))
  β2 := KPay.rowAt ((KHost.rowL 3 slices_S5x128_S1x128_3_0) (W24 m ρ c (Proc.devRef .tc main_arg10)))
  g3 := KPay.rowAt ((KHost.rowL 3 slices_S5x128_S1x128_3_0) (W24 m ρ c (Proc.devRef .tc main_arg11)))
  β3 := KPay.rowAt ((KHost.rowL 3 slices_S5x128_S1x128_3_0) (W24 m ρ c (Proc.devRef .tc main_arg12)))

/-- The features plus their neighbour sum, of the contents at the layer's entry. -/
def Y0 (c : Dev nD) : BatchNormSpec.Mat 50000 128 :=
  KHost.rst (W24 m ρ c (Proc.devRef .tc main_v182)) (W24 m ρ c (Proc.devRef .tc main_arg1)) (W24 m ρ c (Proc.devRef .tc main_arg2))

/-! ## Region 0 -/

/-- The first dense layer. -/
def X1 (c : Dev nD) : BatchNormSpec.Mat 50000 128 := DenseSpec.dense (Y0 m ρ c) (P0 m ρ c).W1 (P0 m ρ c).b1

theorem x1_eq (c : Dev nD) : R12.X1 (V25 m ρ) c = X1 m ρ c := by
  have e1 : V25 m ρ c main_v193 = Y0 m ρ c := KHostL3.rst0_eq (W24 m ρ c)
  have e2 : V25 m ρ c main_v219 = (KHost.matL 3 slices_S5x128x128_S1x128x128_3_0_0) (W24 m ρ c (Proc.devRef .tc main_arg3)) := KHostL3.w1_0_eq (W24 m ρ c)
  have e3 : V25 m ρ c main_v196 = (KHost.rowL 3 slices_S5x128_S1x128_3_0) (W24 m ρ c (Proc.devRef .tc main_arg4)) := KHostL3.b1_0_eq (W24 m ρ c)
  unfold R12.X1 X1 P0
  rw [e1, e2, e3]

/-! ## Region 1's entry -/

theorem in37 (c : Dev nD) : V27 m ρ c main_v220_0 = X1 m ρ c :=
  (KHostL3.keep_hostOps1_main_v37_0 (W26 m ρ c)).trans
    (((W26_arr m ρ c 3).trans (R12.final3 (V25 m ρ) c)).trans (x1_eq m ρ c))

theorem s1 (c : Dev nD) (cc : Fin 128) :
    W26 m ρ c (Proc.devRef .tc main_v220_1) (ix2 (0 : Fin 1) cc) = BatchNormSpec.colSum (X1 m ρ c) cc := by
  rw [(W26_arr m ρ c 4).trans (R12.final4 (V25 m ρ) c), R12.acc4_eq, x1_eq]

theorem q1 (c : Dev nD) (cc : Fin 128) :
    W26 m ρ c (Proc.devRef .tc main_v220_2) (ix2 (0 : Fin 1) cc) = BatchNormSpec.colSumSq (X1 m ρ c) cc := by
  rw [(W26_arr m ρ c 5).trans (R12.final5 (V25 m ρ) c), R12.acc5_eq, x1_eq]

theorem mean39 (c : Dev nD) : KPay.rowAt (V27 m ρ c main_v222) = BatchNormSpec.mean (GinSpec.N : ℝ) (X1 m ρ c) := by
  funext cc
  rw [N_cast]
  show V27 m ρ c main_v222 (ix2 (0 : Fin 1) cc) = _
  rw [show V27 m ρ c main_v222 = KHost.rowMean (W26 m ρ c (Proc.devRef .tc main_v220_1)) from KHostL3.mean1_eq (W26 m ρ c)]
  exact KHost.rowMean_of_colSum (X1 m ρ c) _ cc (s1 m ρ c cc)

theorem var43 (c : Dev nD) : KPay.rowAt (V27 m ρ c main_v226) = BatchNormSpec.varMoment (GinSpec.N : ℝ) (X1 m ρ c) := by
  funext cc
  rw [N_cast]
  show V27 m ρ c main_v226 (ix2 (0 : Fin 1) cc) = _
  rw [show V27 m ρ c main_v226 = KHost.rowVar (W26 m ρ c (Proc.devRef .tc main_v220_1)) (W26 m ρ c (Proc.devRef .tc main_v220_2))
    from KHostL3.var1_eq (W26 m ρ c)]
  exact KHost.rowVar_of_colSums (X1 m ρ c) _ _ cc (s1 m ρ c cc) (q1 m ρ c cc)

theorem g19 (c : Dev nD) : V27 m ρ c main_v202 = (KHost.rowL 3 slices_S5x128_S1x128_3_0) (W24 m ρ c (Proc.devRef .tc main_arg7)) :=
  (KHostL3.keep_hostOps1_main_v19 (W26 m ρ c)).trans ((W26_of_ne m ρ c main_v202 (by decide)).trans (KHostL3.g1_0_eq (W24 m ρ c)))
theorem be22 (c : Dev nD) : V27 m ρ c main_v205 = (KHost.rowL 3 slices_S5x128_S1x128_3_0) (W24 m ρ c (Proc.devRef .tc main_arg8)) :=
  (KHostL3.keep_hostOps1_main_v22 (W26 m ρ c)).trans ((W26_of_ne m ρ c main_v205 (by decide)).trans (KHostL3.be1_0_eq (W24 m ρ c)))
theorem b16 (c : Dev nD) : V27 m ρ c main_v199 = (KHost.rowL 3 slices_S5x128_S1x128_3_0) (W24 m ρ c (Proc.devRef .tc main_arg6)) :=
  (KHostL3.keep_hostOps1_main_v16 (W26 m ρ c)).trans ((W26_of_ne m ρ c main_v199 (by decide)).trans (KHostL3.b2_0_eq (W24 m ρ c)))
theorem w45 (c : Dev nD) : V27 m ρ c main_v228 = (KHost.matL 3 slices_S5x128x128_S1x128x128_3_0_0) (W24 m ρ c (Proc.devRef .tc main_arg5)) :=
  (KHostL3.w2_0_eq (W26 m ρ c)).trans (congrArg (KHost.matL 3 slices_S5x128x128_S1x128x128_3_0_0)
    ((W26_of_ne m ρ c main_arg5 (by decide)).trans (keep0_main_arg5 (W24 m ρ c))))

/-! ## Region 1 -/

/-- The second dense layer of the normalised and rectified first one. -/
def X2 (c : Dev nD) : BatchNormSpec.Mat 50000 128 :=
  DenseSpec.dense (GinSpec.bnM eps zero (X1 m ρ c) (P0 m ρ c).g1 (P0 m ρ c).β1) (P0 m ρ c).W2 (P0 m ρ c).b2

theorem x2_eq (c : Dev nD) : R13.X2 (V27 m ρ) c = X2 m ρ c := by
  unfold R13.X2 R13.A1 X2 GinSpec.bnM P0
  rw [in37, mean39, var43, g19, be22, b16, w45]

/-! ## Region 2's entry -/

theorem in46 (c : Dev nD) : V29 m ρ c main_v229_0 = X2 m ρ c :=
  (KHostL3.keep_hostOps2_main_v46_0 (W28 m ρ c)).trans
    (((W28_arr m ρ c 7).trans (R13.final7 (V27 m ρ) c)).trans (x2_eq m ρ c))

theorem s2 (c : Dev nD) (cc : Fin 128) :
    W28 m ρ c (Proc.devRef .tc main_v229_1) (ix2 (0 : Fin 1) cc) = BatchNormSpec.colSum (X2 m ρ c) cc := by
  rw [(W28_arr m ρ c 8).trans (R13.final8 (V27 m ρ) c), R13.acc8_eq, x2_eq]

theorem q2 (c : Dev nD) (cc : Fin 128) :
    W28 m ρ c (Proc.devRef .tc main_v229_2) (ix2 (0 : Fin 1) cc) = BatchNormSpec.colSumSq (X2 m ρ c) cc := by
  rw [(W28_arr m ρ c 9).trans (R13.final9 (V27 m ρ) c), R13.acc9_eq, x2_eq]

theorem mean48 (c : Dev nD) : KPay.rowAt (V29 m ρ c main_v231) = BatchNormSpec.mean (GinSpec.N : ℝ) (X2 m ρ c) := by
  funext cc
  rw [N_cast]
  show V29 m ρ c main_v231 (ix2 (0 : Fin 1) cc) = _
  rw [show V29 m ρ c main_v231 = KHost.rowMean (W28 m ρ c (Proc.devRef .tc main_v229_1)) from KHostL3.mean2_eq (W28 m ρ c)]
  exact KHost.rowMean_of_colSum (X2 m ρ c) _ cc (s2 m ρ c cc)

theorem var52 (c : Dev nD) : KPay.rowAt (V29 m ρ c main_v235) = BatchNormSpec.varMoment (GinSpec.N : ℝ) (X2 m ρ c) := by
  funext cc
  rw [N_cast]
  show V29 m ρ c main_v235 (ix2 (0 : Fin 1) cc) = _
  rw [show V29 m ρ c main_v235 = KHost.rowVar (W28 m ρ c (Proc.devRef .tc main_v229_1)) (W28 m ρ c (Proc.devRef .tc main_v229_2))
    from KHostL3.var2_eq (W28 m ρ c)]
  exact KHost.rowVar_of_colSums (X2 m ρ c) _ _ cc (s2 m ρ c cc) (q2 m ρ c cc)

theorem g25 (c : Dev nD) : V29 m ρ c main_v208 = (KHost.rowL 3 slices_S5x128_S1x128_3_0) (W24 m ρ c (Proc.devRef .tc main_arg9)) :=
  (KHostL3.keep_hostOps2_main_v25 (W28 m ρ c)).trans ((W28_of_ne m ρ c main_v208 (by decide)).trans
    ((KHostL3.keep_hostOps1_main_v25 (W26 m ρ c)).trans ((W26_of_ne m ρ c main_v208 (by decide)).trans (KHostL3.g2_0_eq (W24 m ρ c)))))
theorem be28 (c : Dev nD) : V29 m ρ c main_v211 = (KHost.rowL 3 slices_S5x128_S1x128_3_0) (W24 m ρ c (Proc.devRef .tc main_arg10)) :=
  (KHostL3.keep_hostOps2_main_v28 (W28 m ρ c)).trans ((W28_of_ne m ρ c main_v211 (by decide)).trans
    ((KHostL3.keep_hostOps1_main_v28 (W26 m ρ c)).trans ((W26_of_ne m ρ c main_v211 (by decide)).trans (KHostL3.be2_0_eq (W24 m ρ c)))))

/-! ## Region 2 -/

/-- The second dense layer, normalised and rectified. -/
def A2 (c : Dev nD) : BatchNormSpec.Mat 50000 128 := GinSpec.bnM eps zero (X2 m ρ c) (P0 m ρ c).g2 (P0 m ρ c).β2

theorem a2_eq (c : Dev nD) : R14.A2 (V29 m ρ) c = A2 m ρ c := by
  unfold A2 GinSpec.bnM P0
  show BatchNormSpec.normRelu _ _ (V29 m ρ c main_v229_0) (KPay.rowAt (V29 m ρ c main_v231)) (KPay.rowAt (V29 m ρ c main_v235))
    (KPay.rowAt (V29 m ρ c main_v208)) (KPay.rowAt (V29 m ρ c main_v211)) = _
  rw [in46, mean48, var52, g25, be28]

/-! ## Region 3's entry -/

theorem in53 (c : Dev nD) : V31 m ρ c main_v236_0 = A2 m ρ c :=
  (KHostL3.keep_hostOps3_main_v53_0 (W30 m ρ c)).trans
    (((W30_arr m ρ c 5).trans (R14.final5 (V29 m ρ) c)).trans (a2_eq m ρ c))

theorem s3 (c : Dev nD) (cc : Fin 128) :
    W30 m ρ c (Proc.devRef .tc main_v236_1) (ix2 (0 : Fin 1) cc) = BatchNormSpec.colSum (A2 m ρ c) cc := by
  rw [(W30_arr m ρ c 6).trans (R14.final6 (V29 m ρ) c), R14.acc6_eq, a2_eq]

theorem q3 (c : Dev nD) (cc : Fin 128) :
    W30 m ρ c (Proc.devRef .tc main_v236_2) (ix2 (0 : Fin 1) cc) = BatchNormSpec.colSumSq (A2 m ρ c) cc := by
  rw [(W30_arr m ρ c 7).trans (R14.final7 (V29 m ρ) c), R14.acc7_eq, a2_eq]

theorem mean55 (c : Dev nD) : KPay.rowAt (V31 m ρ c main_v238) = BatchNormSpec.mean (GinSpec.N : ℝ) (A2 m ρ c) := by
  funext cc
  rw [N_cast]
  show V31 m ρ c main_v238 (ix2 (0 : Fin 1) cc) = _
  rw [show V31 m ρ c main_v238 = KHost.rowMean (W30 m ρ c (Proc.devRef .tc main_v236_1)) from KHostL3.mean3_eq (W30 m ρ c)]
  exact KHost.rowMean_of_colSum (A2 m ρ c) _ cc (s3 m ρ c cc)

theorem var59 (c : Dev nD) : KPay.rowAt (V31 m ρ c main_v242) = BatchNormSpec.varMoment (GinSpec.N : ℝ) (A2 m ρ c) := by
  funext cc
  rw [N_cast]
  show V31 m ρ c main_v242 (ix2 (0 : Fin 1) cc) = _
  rw [show V31 m ρ c main_v242 = KHost.rowVar (W30 m ρ c (Proc.devRef .tc main_v236_1)) (W30 m ρ c (Proc.devRef .tc main_v236_2))
    from KHostL3.var3_eq (W30 m ρ c)]
  exact KHost.rowVar_of_colSums (A2 m ρ c) _ _ cc (s3 m ρ c cc) (q3 m ρ c cc)

theorem g31 (c : Dev nD) : V31 m ρ c main_v214 = (KHost.rowL 3 slices_S5x128_S1x128_3_0) (W24 m ρ c (Proc.devRef .tc main_arg11)) :=
  (KHostL3.keep_hostOps3_main_v31 (W30 m ρ c)).trans ((W30_of_ne m ρ c main_v214 (by decide)).trans
    ((KHostL3.keep_hostOps2_main_v31 (W28 m ρ c)).trans ((W28_of_ne m ρ c main_v214 (by decide)).trans
      ((KHostL3.keep_hostOps1_main_v31 (W26 m ρ c)).trans ((W26_of_ne m ρ c main_v214 (by decide)).trans (KHostL3.g3_0_eq (W24 m ρ c)))))))
theorem be34 (c : Dev nD) : V31 m ρ c main_v217 = (KHost.rowL 3 slices_S5x128_S1x128_3_0) (W24 m ρ c (Proc.devRef .tc main_arg12)) :=
  (KHostL3.keep_hostOps3_main_v34 (W30 m ρ c)).trans ((W30_of_ne m ρ c main_v217 (by decide)).trans
    ((KHostL3.keep_hostOps2_main_v34 (W28 m ρ c)).trans ((W28_of_ne m ρ c main_v217 (by decide)).trans
      ((KHostL3.keep_hostOps1_main_v34 (W26 m ρ c)).trans ((W26_of_ne m ρ c main_v217 (by decide)).trans (KHostL3.be3_0_eq (W24 m ρ c)))))))

/-! ## The layer -/

/-- After the fourth region the features buffer holds the layer function, with moment variances, of the launch contents. -/
theorem layer_out (c : Dev nD) :
    W32 m ρ c (Proc.devRef .tc main_v243) = GinSpec.layerM eps zero (P0 m ρ c) (Y0 m ρ c) := by
  refine ((W32_arr m ρ c 5).trans (R15.final5 (V31 m ρ) c)).trans ?_
  show BatchNormSpec.normRelu _ _ (V31 m ρ c main_v236_0) (KPay.rowAt (V31 m ρ c main_v238)) (KPay.rowAt (V31 m ρ c main_v242))
    (KPay.rowAt (V31 m ρ c main_v214)) (KPay.rowAt (V31 m ρ c main_v217)) = _
  rw [in53, mean55, var59, g31, be34]
  rfl

/-! ## The arguments read at the layer's end as at its start -/

theorem keep1_main_arg1 (W : Valuation τ sig (Elt Ideal)) :
    after hostOps13 W (Proc.devRef .tc main_arg1) = W (Proc.devRef .tc main_arg1) := by
  after_results
theorem keep1_main_arg2 (W : Valuation τ sig (Elt Ideal)) :
    after hostOps13 W (Proc.devRef .tc main_arg2) = W (Proc.devRef .tc main_arg2) := by
  after_results
theorem keep1_main_arg3 (W : Valuation τ sig (Elt Ideal)) :
    after hostOps13 W (Proc.devRef .tc main_arg3) = W (Proc.devRef .tc main_arg3) := by
  after_results
theorem keep1_main_arg4 (W : Valuation τ sig (Elt Ideal)) :
    after hostOps13 W (Proc.devRef .tc main_arg4) = W (Proc.devRef .tc main_arg4) := by
  after_results
theorem keep1_main_arg5 (W : Valuation τ sig (Elt Ideal)) :
    after hostOps13 W (Proc.devRef .tc main_arg5) = W (Proc.devRef .tc main_arg5) := by
  after_results
theorem keep1_main_arg6 (W : Valuation τ sig (Elt Ideal)) :
    after hostOps13 W (Proc.devRef .tc main_arg6) = W (Proc.devRef .tc main_arg6) := by
  after_results
theorem keep1_main_arg7 (W : Valuation τ sig (Elt Ideal)) :
    after hostOps13 W (Proc.devRef .tc main_arg7) = W (Proc.devRef .tc main_arg7) := by
  after_results
theorem keep1_main_arg8 (W : Valuation τ sig (Elt Ideal)) :
    after hostOps13 W (Proc.devRef .tc main_arg8) = W (Proc.devRef .tc main_arg8) := by
  after_results
theorem keep1_main_arg9 (W : Valuation τ sig (Elt Ideal)) :
    after hostOps13 W (Proc.devRef .tc main_arg9) = W (Proc.devRef .tc main_arg9) := by
  after_results
theorem keep1_main_arg10 (W : Valuation τ sig (Elt Ideal)) :
    after hostOps13 W (Proc.devRef .tc main_arg10) = W (Proc.devRef .tc main_arg10) := by
  after_results
theorem keep1_main_arg11 (W : Valuation τ sig (Elt Ideal)) :
    after hostOps13 W (Proc.devRef .tc main_arg11) = W (Proc.devRef .tc main_arg11) := by
  after_results
theorem keep1_main_arg12 (W : Valuation τ sig (Elt Ideal)) :
    after hostOps13 W (Proc.devRef .tc main_arg12) = W (Proc.devRef .tc main_arg12) := by
  after_results
theorem keep2_main_arg1 (W : Valuation τ sig (Elt Ideal)) :
    after hostOps14 W (Proc.devRef .tc main_arg1) = W (Proc.devRef .tc main_arg1) := by
  after_results
theorem keep2_main_arg2 (W : Valuation τ sig (Elt Ideal)) :
    after hostOps14 W (Proc.devRef .tc main_arg2) = W (Proc.devRef .tc main_arg2) := by
  after_results
theorem keep2_main_arg3 (W : Valuation τ sig (Elt Ideal)) :
    after hostOps14 W (Proc.devRef .tc main_arg3) = W (Proc.devRef .tc main_arg3) := by
  after_results
theorem keep2_main_arg4 (W : Valuation τ sig (Elt Ideal)) :
    after hostOps14 W (Proc.devRef .tc main_arg4) = W (Proc.devRef .tc main_arg4) := by
  after_results
theorem keep2_main_arg5 (W : Valuation τ sig (Elt Ideal)) :
    after hostOps14 W (Proc.devRef .tc main_arg5) = W (Proc.devRef .tc main_arg5) := by
  after_results
theorem keep2_main_arg6 (W : Valuation τ sig (Elt Ideal)) :
    after hostOps14 W (Proc.devRef .tc main_arg6) = W (Proc.devRef .tc main_arg6) := by
  after_results
theorem keep2_main_arg7 (W : Valuation τ sig (Elt Ideal)) :
    after hostOps14 W (Proc.devRef .tc main_arg7) = W (Proc.devRef .tc main_arg7) := by
  after_results
theorem keep2_main_arg8 (W : Valuation τ sig (Elt Ideal)) :
    after hostOps14 W (Proc.devRef .tc main_arg8) = W (Proc.devRef .tc main_arg8) := by
  after_results
theorem keep2_main_arg9 (W : Valuation τ sig (Elt Ideal)) :
    after hostOps14 W (Proc.devRef .tc main_arg9) = W (Proc.devRef .tc main_arg9) := by
  after_results
theorem keep2_main_arg10 (W : Valuation τ sig (Elt Ideal)) :
    after hostOps14 W (Proc.devRef .tc main_arg10) = W (Proc.devRef .tc main_arg10) := by
  after_results
theorem keep2_main_arg11 (W : Valuation τ sig (Elt Ideal)) :
    after hostOps14 W (Proc.devRef .tc main_arg11) = W (Proc.devRef .tc main_arg11) := by
  after_results
theorem keep2_main_arg12 (W : Valuation τ sig (Elt Ideal)) :
    after hostOps14 W (Proc.devRef .tc main_arg12) = W (Proc.devRef .tc main_arg12) := by
  after_results
theorem keep3_main_arg1 (W : Valuation τ sig (Elt Ideal)) :
    after hostOps15 W (Proc.devRef .tc main_arg1) = W (Proc.devRef .tc main_arg1) := by
  after_results
theorem keep3_main_arg2 (W : Valuation τ sig (Elt Ideal)) :
    after hostOps15 W (Proc.devRef .tc main_arg2) = W (Proc.devRef .tc main_arg2) := by
  after_results
theorem keep3_main_arg3 (W : Valuation τ sig (Elt Ideal)) :
    after hostOps15 W (Proc.devRef .tc main_arg3) = W (Proc.devRef .tc main_arg3) := by
  after_results
theorem keep3_main_arg4 (W : Valuation τ sig (Elt Ideal)) :
    after hostOps15 W (Proc.devRef .tc main_arg4) = W (Proc.devRef .tc main_arg4) := by
  after_results
theorem keep3_main_arg5 (W : Valuation τ sig (Elt Ideal)) :
    after hostOps15 W (Proc.devRef .tc main_arg5) = W (Proc.devRef .tc main_arg5) := by
  after_results
theorem keep3_main_arg6 (W : Valuation τ sig (Elt Ideal)) :
    after hostOps15 W (Proc.devRef .tc main_arg6) = W (Proc.devRef .tc main_arg6) := by
  after_results
theorem keep3_main_arg7 (W : Valuation τ sig (Elt Ideal)) :
    after hostOps15 W (Proc.devRef .tc main_arg7) = W (Proc.devRef .tc main_arg7) := by
  after_results
theorem keep3_main_arg8 (W : Valuation τ sig (Elt Ideal)) :
    after hostOps15 W (Proc.devRef .tc main_arg8) = W (Proc.devRef .tc main_arg8) := by
  after_results
theorem keep3_main_arg9 (W : Valuation τ sig (Elt Ideal)) :
    after hostOps15 W (Proc.devRef .tc main_arg9) = W (Proc.devRef .tc main_arg9) := by
  after_results
theorem keep3_main_arg10 (W : Valuation τ sig (Elt Ideal)) :
    after hostOps15 W (Proc.devRef .tc main_arg10) = W (Proc.devRef .tc main_arg10) := by
  after_results
theorem keep3_main_arg11 (W : Valuation τ sig (Elt Ideal)) :
    after hostOps15 W (Proc.devRef .tc main_arg11) = W (Proc.devRef .tc main_arg11) := by
  after_results
theorem keep3_main_arg12 (W : Valuation τ sig (Elt Ideal)) :
    after hostOps15 W (Proc.devRef .tc main_arg12) = W (Proc.devRef .tc main_arg12) := by
  after_results
theorem args_main_arg1 (c : Dev nD) : W32 m ρ c (Proc.devRef .tc main_arg1) = W24 m ρ c (Proc.devRef .tc main_arg1) :=
  (W32_of_ne m ρ c main_arg1 (by decide)).trans ((keep3_main_arg1 (W30 m ρ c)).trans ((W30_of_ne m ρ c main_arg1 (by decide)).trans
    ((keep2_main_arg1 (W28 m ρ c)).trans ((W28_of_ne m ρ c main_arg1 (by decide)).trans
      ((keep1_main_arg1 (W26 m ρ c)).trans ((W26_of_ne m ρ c main_arg1 (by decide)).trans (keep0_main_arg1 (W24 m ρ c))))))))
theorem args_main_arg2 (c : Dev nD) : W32 m ρ c (Proc.devRef .tc main_arg2) = W24 m ρ c (Proc.devRef .tc main_arg2) :=
  (W32_of_ne m ρ c main_arg2 (by decide)).trans ((keep3_main_arg2 (W30 m ρ c)).trans ((W30_of_ne m ρ c main_arg2 (by decide)).trans
    ((keep2_main_arg2 (W28 m ρ c)).trans ((W28_of_ne m ρ c main_arg2 (by decide)).trans
      ((keep1_main_arg2 (W26 m ρ c)).trans ((W26_of_ne m ρ c main_arg2 (by decide)).trans (keep0_main_arg2 (W24 m ρ c))))))))
theorem args_main_arg3 (c : Dev nD) : W32 m ρ c (Proc.devRef .tc main_arg3) = W24 m ρ c (Proc.devRef .tc main_arg3) :=
  (W32_of_ne m ρ c main_arg3 (by decide)).trans ((keep3_main_arg3 (W30 m ρ c)).trans ((W30_of_ne m ρ c main_arg3 (by decide)).trans
    ((keep2_main_arg3 (W28 m ρ c)).trans ((W28_of_ne m ρ c main_arg3 (by decide)).trans
      ((keep1_main_arg3 (W26 m ρ c)).trans ((W26_of_ne m ρ c main_arg3 (by decide)).trans (keep0_main_arg3 (W24 m ρ c))))))))
theorem args_main_arg4 (c : Dev nD) : W32 m ρ c (Proc.devRef .tc main_arg4) = W24 m ρ c (Proc.devRef .tc main_arg4) :=
  (W32_of_ne m ρ c main_arg4 (by decide)).trans ((keep3_main_arg4 (W30 m ρ c)).trans ((W30_of_ne m ρ c main_arg4 (by decide)).trans
    ((keep2_main_arg4 (W28 m ρ c)).trans ((W28_of_ne m ρ c main_arg4 (by decide)).trans
      ((keep1_main_arg4 (W26 m ρ c)).trans ((W26_of_ne m ρ c main_arg4 (by decide)).trans (keep0_main_arg4 (W24 m ρ c))))))))
theorem args_main_arg5 (c : Dev nD) : W32 m ρ c (Proc.devRef .tc main_arg5) = W24 m ρ c (Proc.devRef .tc main_arg5) :=
  (W32_of_ne m ρ c main_arg5 (by decide)).trans ((keep3_main_arg5 (W30 m ρ c)).trans ((W30_of_ne m ρ c main_arg5 (by decide)).trans
    ((keep2_main_arg5 (W28 m ρ c)).trans ((W28_of_ne m ρ c main_arg5 (by decide)).trans
      ((keep1_main_arg5 (W26 m ρ c)).trans ((W26_of_ne m ρ c main_arg5 (by decide)).trans (keep0_main_arg5 (W24 m ρ c))))))))
theorem args_main_arg6 (c : Dev nD) : W32 m ρ c (Proc.devRef .tc main_arg6) = W24 m ρ c (Proc.devRef .tc main_arg6) :=
  (W32_of_ne m ρ c main_arg6 (by decide)).trans ((keep3_main_arg6 (W30 m ρ c)).trans ((W30_of_ne m ρ c main_arg6 (by decide)).trans
    ((keep2_main_arg6 (W28 m ρ c)).trans ((W28_of_ne m ρ c main_arg6 (by decide)).trans
      ((keep1_main_arg6 (W26 m ρ c)).trans ((W26_of_ne m ρ c main_arg6 (by decide)).trans (keep0_main_arg6 (W24 m ρ c))))))))
theorem args_main_arg7 (c : Dev nD) : W32 m ρ c (Proc.devRef .tc main_arg7) = W24 m ρ c (Proc.devRef .tc main_arg7) :=
  (W32_of_ne m ρ c main_arg7 (by decide)).trans ((keep3_main_arg7 (W30 m ρ c)).trans ((W30_of_ne m ρ c main_arg7 (by decide)).trans
    ((keep2_main_arg7 (W28 m ρ c)).trans ((W28_of_ne m ρ c main_arg7 (by decide)).trans
      ((keep1_main_arg7 (W26 m ρ c)).trans ((W26_of_ne m ρ c main_arg7 (by decide)).trans (keep0_main_arg7 (W24 m ρ c))))))))
theorem args_main_arg8 (c : Dev nD) : W32 m ρ c (Proc.devRef .tc main_arg8) = W24 m ρ c (Proc.devRef .tc main_arg8) :=
  (W32_of_ne m ρ c main_arg8 (by decide)).trans ((keep3_main_arg8 (W30 m ρ c)).trans ((W30_of_ne m ρ c main_arg8 (by decide)).trans
    ((keep2_main_arg8 (W28 m ρ c)).trans ((W28_of_ne m ρ c main_arg8 (by decide)).trans
      ((keep1_main_arg8 (W26 m ρ c)).trans ((W26_of_ne m ρ c main_arg8 (by decide)).trans (keep0_main_arg8 (W24 m ρ c))))))))
theorem args_main_arg9 (c : Dev nD) : W32 m ρ c (Proc.devRef .tc main_arg9) = W24 m ρ c (Proc.devRef .tc main_arg9) :=
  (W32_of_ne m ρ c main_arg9 (by decide)).trans ((keep3_main_arg9 (W30 m ρ c)).trans ((W30_of_ne m ρ c main_arg9 (by decide)).trans
    ((keep2_main_arg9 (W28 m ρ c)).trans ((W28_of_ne m ρ c main_arg9 (by decide)).trans
      ((keep1_main_arg9 (W26 m ρ c)).trans ((W26_of_ne m ρ c main_arg9 (by decide)).trans (keep0_main_arg9 (W24 m ρ c))))))))
theorem args_main_arg10 (c : Dev nD) : W32 m ρ c (Proc.devRef .tc main_arg10) = W24 m ρ c (Proc.devRef .tc main_arg10) :=
  (W32_of_ne m ρ c main_arg10 (by decide)).trans ((keep3_main_arg10 (W30 m ρ c)).trans ((W30_of_ne m ρ c main_arg10 (by decide)).trans
    ((keep2_main_arg10 (W28 m ρ c)).trans ((W28_of_ne m ρ c main_arg10 (by decide)).trans
      ((keep1_main_arg10 (W26 m ρ c)).trans ((W26_of_ne m ρ c main_arg10 (by decide)).trans (keep0_main_arg10 (W24 m ρ c))))))))
theorem args_main_arg11 (c : Dev nD) : W32 m ρ c (Proc.devRef .tc main_arg11) = W24 m ρ c (Proc.devRef .tc main_arg11) :=
  (W32_of_ne m ρ c main_arg11 (by decide)).trans ((keep3_main_arg11 (W30 m ρ c)).trans ((W30_of_ne m ρ c main_arg11 (by decide)).trans
    ((keep2_main_arg11 (W28 m ρ c)).trans ((W28_of_ne m ρ c main_arg11 (by decide)).trans
      ((keep1_main_arg11 (W26 m ρ c)).trans ((W26_of_ne m ρ c main_arg11 (by decide)).trans (keep0_main_arg11 (W24 m ρ c))))))))
theorem args_main_arg12 (c : Dev nD) : W32 m ρ c (Proc.devRef .tc main_arg12) = W24 m ρ c (Proc.devRef .tc main_arg12) :=
  (W32_of_ne m ρ c main_arg12 (by decide)).trans ((keep3_main_arg12 (W30 m ρ c)).trans ((W30_of_ne m ρ c main_arg12 (by decide)).trans
    ((keep2_main_arg12 (W28 m ρ c)).trans ((W28_of_ne m ρ c main_arg12 (by decide)).trans
      ((keep1_main_arg12 (W26 m ρ c)).trans ((W26_of_ne m ρ c main_arg12 (by decide)).trans (keep0_main_arg12 (W24 m ρ c))))))))

end Cert.KernelIdeal.Layer3

end
-- ==== Proof.R16Value.lean ====
/-
  The first kernel of layer 4, read as values, at any float instance. At each of its five grid points the kernel stores the
  dense layer of the point's tile of 10000 rows, and keeps two running rows: at the first point it sets them to the zero
  row plus the tile's column sums (of the result, and of its squares); at every later point it adds the tile's column sums
  to what the point before left. So after point n the three output buffers hold the dense layer of tile n and the two
  accumulations over tiles 0..n (by induction on the point).
-/
import proofs.«113410_j5944234737805_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R16

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem out_A_3 (c : Dev nD) (i : grid16.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond16_0 i)
    (x0 : Vec F S10000x128 .f32) (x1 : Vec F S128x128 .f32) (x2 : Vec F S1x128 .f32) :
    out16_A_3 c i a1 h1 a2 h2 a3 h3 a4 h4 a5 h5 a6 h6 hc x0 x1 x2 = k16_pay3 x0 x1 x2 := by
  unfold out16_A_3
  rw [View.read_writes_eq_canon _ _ _ (cover16_A_3 c i a1 h1 a2 h2 a3 h3 a4 h4 a5 h5 a6 h6 hc x0 x1 x2)]
  unfold kernelRun16_A
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

theorem out_A_4 (c : Dev nD) (i : grid16.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond16_0 i)
    (x0 : Vec F S10000x128 .f32) (x1 : Vec F S128x128 .f32) (x2 : Vec F S1x128 .f32) :
    out16_A_4 c i a1 h1 a2 h2 a3 h3 a4 h4 a5 h5 a6 h6 hc x0 x1 x2 = k16_pay4 x0 x1 x2 k16_pay1 := by
  unfold out16_A_4
  rw [View.read_writes_eq_canon _ _ _ (cover16_A_4 c i a1 h1 a2 h2 a3 h3 a4 h4 a5 h5 a6 h6 hc x0 x1 x2)]
  unfold kernelRun16_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S10000x128) hz, View.ld_unit_zero (S := S128x128) hz, View.ld_unit_zero (S := S1x128) hz]

theorem out_A_5 (c : Dev nD) (i : grid16.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : cond16_0 i)
    (x0 : Vec F S10000x128 .f32) (x1 : Vec F S128x128 .f32) (x2 : Vec F S1x128 .f32) :
    out16_A_5 c i a1 h1 a2 h2 a3 h3 a4 h4 a5 h5 a6 h6 hc x0 x1 x2 = k16_pay5 x0 x1 x2 k16_pay2 := by
  unfold out16_A_5
  rw [View.read_writes_eq_canon _ _ _ (cover16_A_5 c i a1 h1 a2 h2 a3 h3 a4 h4 a5 h5 a6 h6 hc x0 x1 x2)]
  unfold kernelRun16_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S10000x128) hz, View.ld_unit_zero (S := S128x128) hz, View.ld_unit_zero (S := S1x128) hz]

theorem out_B_3 (c : Dev nD) (i : grid16.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond16_0 i)
    (x0 : Vec F S10000x128 .f32) (x1 : Vec F S128x128 .f32) (x2 : Vec F S1x128 .f32) (xo4 xo5 : Vec F S1x128 .f32) :
    out16_B_3 c i a1 h1 a2 h2 a3 h3 a4 h4 a5 h5 a6 h6 hc x0 x1 x2 xo4 xo5 = k16_pay3 x0 x1 x2 := by
  unfold out16_B_3
  rw [View.read_writes_eq_canon _ _ _ (cover16_B_3 c i a1 h1 a2 h2 a3 h3 a4 h4 a5 h5 a6 h6 hc x0 x1 x2 xo4 xo5)]
  unfold kernelRun16_B
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

theorem out_B_4 (c : Dev nD) (i : grid16.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond16_0 i)
    (x0 : Vec F S10000x128 .f32) (x1 : Vec F S128x128 .f32) (x2 : Vec F S1x128 .f32) (xo4 xo5 : Vec F S1x128 .f32) :
    out16_B_4 c i a1 h1 a2 h2 a3 h3 a4 h4 a5 h5 a6 h6 hc x0 x1 x2 xo4 xo5 = k16_pay4 x0 x1 x2 xo4 := by
  unfold out16_B_4
  rw [View.read_writes_eq_canon _ _ _ (cover16_B_4 c i a1 h1 a2 h2 a3 h3 a4 h4 a5 h5 a6 h6 hc x0 x1 x2 xo4 xo5)]
  unfold kernelRun16_B
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

theorem out_B_5 (c : Dev nD) (i : grid16.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S10000x128 .f32) (h4 : a4.IsWhole) (a5 : Memref sig .tc .vmem S1x128 .f32) (h5 : a5.IsWhole) (a6 : Memref sig .tc .vmem S1x128 .f32) (h6 : a6.IsWhole) (hc : ¬cond16_0 i)
    (x0 : Vec F S10000x128 .f32) (x1 : Vec F S128x128 .f32) (x2 : Vec F S1x128 .f32) (xo4 xo5 : Vec F S1x128 .f32) :
    out16_B_5 c i a1 h1 a2 h2 a3 h3 a4 h4 a5 h5 a6 h6 hc x0 x1 x2 xo4 xo5 = k16_pay5 x0 x1 x2 xo5 := by
  unfold out16_B_5
  rw [View.read_writes_eq_canon _ _ _ (cover16_B_5 c i a1 h1 a2 h2 a3 h3 a4 h4 a5 h5 a6 h6 hc x0 x1 x2 xo4 xo5)]
  unfold kernelRun16_B
  dsimp only
  rw [View.canon_unit_zero hz]
  simp only [View.readAt_eq_ld, h1.read_unread, h2.read_unread, h3.read_unread, h5.read_unread, h6.read_unread, View.ld_unit_zero (S := S10000x128) hz, View.ld_unit_zero (S := S128x128) hz, View.ld_unit_zero (S := S1x128) hz]

/-- The running column sums of the rows seen so far: tile 0 added to the zero row, then one tile per point. -/
def acc4 (c : Dev nD) : (n : ℕ) → n < cfg16.N → Vec F S1x128 .f32
  | 0, h => k16_pay4 (iblk16 V c 0 ⟨0, h⟩) (iblk16 V c 1 ⟨0, h⟩) (iblk16 V c 2 ⟨0, h⟩) k16_pay1
  | n + 1, h => k16_pay4 (iblk16 V c 0 ⟨n + 1, h⟩) (iblk16 V c 1 ⟨n + 1, h⟩) (iblk16 V c 2 ⟨n + 1, h⟩) (acc4 c n (Nat.lt_of_succ_lt h))

/-- The same for the squares. -/
def acc5 (c : Dev nD) : (n : ℕ) → n < cfg16.N → Vec F S1x128 .f32
  | 0, h => k16_pay5 (iblk16 V c 0 ⟨0, h⟩) (iblk16 V c 1 ⟨0, h⟩) (iblk16 V c 2 ⟨0, h⟩) k16_pay2
  | n + 1, h => k16_pay5 (iblk16 V c 0 ⟨n + 1, h⟩) (iblk16 V c 1 ⟨n + 1, h⟩) (iblk16 V c 2 ⟨n + 1, h⟩) (acc5 c n (Nat.lt_of_succ_lt h))

/-- After point n the three output buffers hold: the dense layer of tile n; the column sums of tiles 0..n; the column sums
    of their squares. By induction on the point. -/
theorem outsAt_eq (c : Dev nD) : ∀ (n : ℕ) (h : n < cfg16.N),
    outsAt16 V c n h = (k16_pay3 (iblk16 V c 0 ⟨n, h⟩) (iblk16 V c 1 ⟨n, h⟩) (iblk16 V c 2 ⟨n, h⟩), acc4 V c n h, acc5 V c n h)
  | 0, h => (outsAt16_A V c ⟨0, h⟩ rfl).trans (by
      rw [out_A_3, out_A_4, out_A_5]
      rfl)
  | n + 1, h => by
    have hN : cfg16.N = 5 := N_16
    have hB : ¬(⟨n + 1, h⟩ : Fin cfg16.N).val % 5 = 0 := by dsimp only; omega
    rw [outsAt16_B V c ⟨n + 1, h⟩ hB, out_B_3, out_B_4, out_B_5]
    show (k16_pay3 _ _ _, k16_pay4 _ _ _ (outsAt16 V c n _).2.1, k16_pay5 _ _ _ (outsAt16 V c n _).2.2)
      = (k16_pay3 _ _ _, k16_pay4 _ _ _ (acc4 V c n _), k16_pay5 _ _ _ (acc5 V c n _))
    rw [outsAt_eq c n]

end Cert.KernelIdeal.R16
-- ==== Proof.KPay0_L4.lean ====
/-
  The arithmetic of the first kernel of a layer, at the exact values. From a tile `x` of 10000 rows, the weights `w` and
  the bias row `b` it stores the dense layer `x · w + b` of the tile, and adds to two running rows the column sums of that
  result and the column sums of its squares.
-/
import proofs.«113410_j5944234737805_1_alg».proof.Proof.Gen.KernelIdeal.Skeleton
import proofs.«113410_j5944234737805_1_alg».proof.Proof.LibDense
import proofs.«113410_j5944234737805_1_alg».proof.Proof.LibBatchNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPayL4

open Cert.KernelIdeal Cert.KernelIdeal.Gen Idealize.ShloMosaic Idealize.ShloMosaic.TcCoe Idealize.ShloMosaic.ValueIdx

/-- The dense layer of a tile. -/
theorem pay3_eq (x : Vec Ideal S10000x128 .f32) (w : Vec Ideal S128x128 .f32) (b : Vec Ideal S1x128 .f32) :
    k16_pay3 (F := Ideal) x w b = DenseSpec.dense x w b := by
  unfold k16_pay3
  dsimp only
  rw [shapeCast_self, shapeCast_self, shapeCast_self]
  exact DenseSpec.matmul_bias dot_S10000x128_S128x128_S10000x128_1_0_0_1_n_n_wf none
    (truncf .bf16 x bitsLt_bf16_f32) (truncf .bf16 w bitsLt_bf16_f32) b broadcasts_S1x128_S10000x128

/-- The column sums of a tile, added to the running row. -/
theorem pay4_apply (x : Vec Ideal S10000x128 .f32) (w : Vec Ideal S128x128 .f32) (b acc : Vec Ideal S1x128 .f32) (c : Fin 128) :
    k16_pay4 (F := Ideal) x w b acc (ix2 (0 : Fin 1) c)
      = acc (ix2 (0 : Fin 1) c) + ∑ q : Fin 10000, DenseSpec.dense x w b (ix2 q c) := by
  unfold k16_pay4
  dsimp only
  rw [addf_apply, shapeCast_self]
  refine congrArg (acc (ix2 (0 : Fin 1) c) + ·) ?_
  refine (DenseSpec.shapeCast_row_apply _ shapeCasts_S128_S1x128 (0 : Fin 1) c).trans ?_
  refine (Ideal.multiReduction_add_single (k16_pay3 (F := Ideal) x w b) 0x00000000#32 reduces_S10000x128_S128 (.inl rfl) rfl (ix1 c)).trans ?_
  rw [pay3_eq]
  exact Finset.sum_congr rfl fun q _ => congrArg _ (funext fun a => Fin.ext (by
    match a with
    | ⟨0, _⟩ => rfl
    | ⟨1, _⟩ => rfl))

/-- The column sums of the squares of a tile, added to the running row. -/
theorem pay5_apply (x : Vec Ideal S10000x128 .f32) (w : Vec Ideal S128x128 .f32) (b acc : Vec Ideal S1x128 .f32) (c : Fin 128) :
    k16_pay5 (F := Ideal) x w b acc (ix2 (0 : Fin 1) c)
      = acc (ix2 (0 : Fin 1) c) + ∑ q : Fin 10000, DenseSpec.dense x w b (ix2 q c) * DenseSpec.dense x w b (ix2 q c) := by
  unfold k16_pay5
  dsimp only
  rw [addf_apply, shapeCast_self]
  refine congrArg (acc (ix2 (0 : Fin 1) c) + ·) ?_
  refine (DenseSpec.shapeCast_row_apply _ shapeCasts_S128_S1x128 (0 : Fin 1) c).trans ?_
  refine (Ideal.multiReduction_add_single (mulf (k16_pay3 (F := Ideal) x w b) (k16_pay3 (F := Ideal) x w b)) 0x00000000#32
    reduces_S10000x128_S128 (.inl rfl) rfl (ix1 c)).trans ?_
  rw [pay3_eq]
  exact Finset.sum_congr rfl fun q _ => by
    rw [mulf_apply]
    have e : (reduces_S10000x128_S128.lift (ix1 c) q : S10000x128.Idx) = ix2 q c := funext fun a => Fin.ext (by
      match a with
      | ⟨0, _⟩ => rfl
      | ⟨1, _⟩ => rfl)
    rw [e]
    rfl

/-- The row the first grid point starts the accumulation from is the zero row. -/
theorem pay1_apply (i : S1x128.Idx) : k16_pay1 (F := Ideal) i = 0 := by
  show Ideal.ofBits .f32 0x00000000#32 = 0
  exact Ideal.ofBits_zero_f32
theorem pay2_apply (i : S1x128.Idx) : k16_pay2 (F := Ideal) i = 0 := by
  show Ideal.ofBits .f32 0x00000000#32 = 0
  exact Ideal.ofBits_zero_f32

end Cert.KernelIdeal.KPayL4

end
-- ==== Proof.R16Array.lean ====
/-
  The first kernel of layer 4: what its three output arrays hold when the region ends, at the exact values. The grid has
  five points; point t reads rows 10000·t … 10000·t + 9999 of the input (every column), the whole weight matrix and the
  whole bias row, and writes back the same rows of the output. So the output array is the dense layer of the whole input,
  row by row. The two running rows are written back once, after the last point.
-/
import proofs.«113410_j5944234737805_1_alg».proof.Proof.R16Value
import proofs.«113410_j5944234737805_1_alg».proof.Proof.KPay0_L4
import proofs.«113410_j5944234737805_1_alg».proof.Proof.GinTiles
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.R16

open Cert.KernelIdeal Cert.KernelIdeal.Gen

variable (V : (c : Dev nD) → (b : Ref sig .tc) → Buf (Elt Ideal) ((c : Thread nD τ).loc b))

/-- The block indices of the six windows at each grid point: the row windows move with the point, the others stay. -/
theorem idx_facts : ∀ t : Fin cfg16.N,
    win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = t.val ∧ win16_3.index t (1 : Fin 2) = 0
    ∧ win16_4.index t (0 : Fin 2) = 0 ∧ win16_4.index t (1 : Fin 2) = 0
    ∧ win16_5.index t (0 : Fin 2) = 0 ∧ win16_5.index t (1 : Fin 2) = 0 :=
  (by decide +kernel : ∀ t : Fin grid16.N, _)

/-- Row q of the tile of point t. -/
abbrev rowK (t : Fin cfg16.N) (q : Fin 10000) : Fin 50000 :=
  ⟨10000 * t.val + q.val, by have := t.isLt; have hN : cfg16.N = 5 := N_16; have := q.isLt; omega⟩

/-- The input tile of point t, read through its window, is rows 10000·t + q of the input array. -/
theorem tile_apply (c : Dev nD) (t : Fin cfg16.N) (q : Fin 10000) (k : Fin 128) :
    iblk16 V c 0 t (ix2 q k) = V c main_v254 (ix2 (rowK t q) k) := by
  obtain ⟨e0, e1, -⟩ := idx_facts t
  unfold iblk16
  rw [View.read_apply]
  show V c main_v254 _ = V c main_v254 _
  congr 1
  funext a
  apply Fin.ext
  match a with
  | ⟨0, _⟩ => show win16_0.index t (0 : Fin 2) * 10000 + 1 * q.val = 10000 * t.val + q.val; rw [e0]; omega
  | ⟨1, _⟩ => show win16_0.index t (1 : Fin 2) * 128 + 1 * k.val = k.val; rw [e1]; omega

/-- The weights' block at every point is the whole weight matrix. -/
theorem w_blk (c : Dev nD) (t : Fin cfg16.N) : iblk16 V c 1 t = V c main_v280 := by
  obtain ⟨-, -, e2, e3, -⟩ := idx_facts t
  funext j
  unfold iblk16
  rw [View.read_apply]
  show V c main_v280 _ = V c main_v280 j
  congr 1
  funext a
  apply Fin.ext
  match a with
  | ⟨0, _⟩ => show win16_1.index t (0 : Fin 2) * 128 + 1 * (j 0).val = (j 0).val; rw [e2]; omega
  | ⟨1, _⟩ => show win16_1.index t (1 : Fin 2) * 128 + 1 * (j 1).val = (j 1).val; rw [e3]; omega

/-- The bias row's block at every point is the whole row. -/
theorem b_blk (c : Dev nD) (t : Fin cfg16.N) : iblk16 V c 2 t = V c main_v257 := by
  obtain ⟨-, -, -, -, e4, e5, -⟩ := idx_facts t
  funext j
  unfold iblk16
  rw [View.read_apply]
  show V c main_v257 _ = V c main_v257 j
  congr 1
  funext a
  apply Fin.ext
  match a with
  | ⟨0, _⟩ => show win16_2.index t (0 : Fin 2) * 1 + 1 * (j 0).val = (j 0).val; rw [e4]; omega
  | ⟨1, _⟩ => show win16_2.index t (1 : Fin 2) * 128 + 1 * (j 1).val = (j 1).val; rw [e5]; omega

/-- The dense layer of the whole input: what the first output array ends holding. -/
def X1 (c : Dev nD) : S50000x128.Idx → EReal := DenseSpec.dense (V c main_v254) (V c main_v280) (V c main_v257)

/-- What point t writes back is rows 10000·t … of the dense layer of the whole input. -/
theorem flushed3_eq (c : Dev nD) (t : Fin cfg16.N) :
    (dat16 V c).flushed 3 t = ((cfg16.win 3).blk t).view.read (Elt Ideal) (X1 V c) := by
  obtain ⟨-, -, -, -, -, -, e6, e7, -⟩ := idx_facts t
  show (cfg16.win 3).cut (grid16.coords t) ((dat16 V c).after 3 t) = _
  rw [after16_3, outsAt_eq V c t.val t.isLt]
  funext j
  obtain ⟨q, k, rfl⟩ : ∃ (q : Fin 10000) (k : Fin 128), j = ix2 q k := ⟨j 0, j 1, eq_ix2 j⟩
  show k16_pay3 (iblk16 V c 0 t) (iblk16 V c 1 t) (iblk16 V c 2 t) (ix2 q k) = X1 V c (((cfg16.win 3).blk t).view.emb (ix2 q k))
  rw [KPayL4.pay3_eq, w_blk, b_blk]
  have hemb : ((cfg16.win 3).blk t).view.emb (ix2 q k) = ix2 (rowK t q) k := by
    funext a
    apply Fin.ext
    match a with
    | ⟨0, _⟩ => show win16_3.index t (0 : Fin 2) * 10000 + 1 * q.val = 10000 * t.val + q.val; rw [e6]; omega
    | ⟨1, _⟩ => show win16_3.index t (1 : Fin 2) * 128 + 1 * k.val = k.val; rw [e7]; omega
  rw [hemb]
  exact DenseSpec.dense_rows (V c main_v254) (iblk16 V c 0 t) (V c main_v280) (V c main_v257) (rowK t q) q
    (fun k' => tile_apply V c t q k') k

/-- An index of the output array is in point t's block iff each coordinate is in the block's range. -/
theorem mem_blk3 (t : Fin cfg16.N) (i : S50000x128.Idx) :
    i ∈ ((cfg16.win 3).blk t).view.set ↔ ∀ a : Fin 2, win16_3.index t a * S10000x128.size a ≤ (i a).val
      ∧ (i a).val < win16_3.index t a * S10000x128.size a + S10000x128.size a := by
  show i ∈ ((View.whole main_v281_0).slice (win16_3.rect t)).set ↔ _
  rw [View.set_slice_whole, Rect.mem_set_unit]
  exact Iff.rfl

/-- The first output array when the region ends: the dense layer of the whole input. -/
theorem final3 (c : Dev nD) : (dat16 V c).arrAt 3 cfg16.N = X1 V c :=
  (dat16 V c).arrAt_eq_of_cover 3 (X1 V c) (fun t _ => flushed3_eq V c t) fun i => by
    have hi0 : (i 0).val < 50000 := (i 0).isLt
    have hi1 : (i 1).val < 128 := (i 1).isLt
    have hN : cfg16.N = 5 := N_16
    obtain ⟨-, -, -, -, -, -, e6, e7, -⟩ := idx_facts ⟨(i 0).val / 10000, by omega⟩
    refine ⟨⟨(i 0).val / 10000, by omega⟩, flush16_3 _, ?_⟩
    rw [mem_blk3]
    intro a
    match a with
    | ⟨0, _⟩ =>
      show win16_3.index ⟨(i 0).val / 10000, _⟩ (0 : Fin 2) * 10000 ≤ (i 0).val
        ∧ (i 0).val < win16_3.index ⟨(i 0).val / 10000, _⟩ (0 : Fin 2) * 10000 + 10000
      rw [e6]; dsimp only; omega
    | ⟨1, _⟩ =>
      show win16_3.index ⟨(i 0).val / 10000, _⟩ (1 : Fin 2) * 128 ≤ (i 1).val
        ∧ (i 1).val < win16_3.index ⟨(i 0).val / 10000, _⟩ (1 : Fin 2) * 128 + 128
      rw [e7]; omega

/-! ## The two running rows -/

/-- The last grid point. -/
abbrev tLast : Fin cfg16.N := ⟨4, by rw [show cfg16.N = 5 from N_16]; decide⟩

/-- Point 4 is a point of the grid. -/
theorem h4 : 4 < cfg16.N := tLast.isLt

/-- An index of running row 4's array is in point t's block iff each coordinate is in the block's range. -/
theorem mem_blk4 (t : Fin cfg16.N) (i : S1x128.Idx) :
    i ∈ ((cfg16.win 4).blk t).view.set ↔ ∀ a : Fin 2, win16_4.index t a * S1x128.size a ≤ (i a).val
      ∧ (i a).val < win16_4.index t a * S1x128.size a + S1x128.size a := by
  show i ∈ ((View.whole main_v281_1).slice (win16_4.rect t)).set ↔ _
  rw [View.set_slice_whole, Rect.mem_set_unit]
  exact Iff.rfl

/-- The one write-back of running row 4, after the last point, writes the row as it stands after point 4. -/
theorem flushed4_eq (c : Dev nD) (t : Fin cfg16.N) (hf : (cfg16.win 4).flush t = true) :
    (dat16 V c).flushed 4 t = ((cfg16.win 4).blk t).view.read (Elt Ideal) (acc4 V c 4 h4) := by
  have hN : cfg16.N = 5 := N_16
  have ht : t.val = 4 := by have := (flush16_4 t).mp hf; have := t.isLt; omega
  obtain rfl : t = tLast := Fin.ext ht
  obtain ⟨-, -, -, -, -, -, -, -, ea, eb, -⟩ := idx_facts tLast
  show (cfg16.win 4).cut (grid16.coords tLast) ((dat16 V c).after 4 tLast) = _
  rw [after16_4, outsAt_eq V c tLast.val tLast.isLt]
  funext j
  show acc4 V c 4 _ j = acc4 V c 4 _ (((cfg16.win 4).blk tLast).view.emb j)
  congr 1
  funext a
  apply Fin.ext
  match a with
  | ⟨0, _⟩ => show (j 0).val = win16_4.index tLast (0 : Fin 2) * 1 + 1 * (j 0).val; rw [ea]; omega
  | ⟨1, _⟩ => show (j 1).val = win16_4.index tLast (1 : Fin 2) * 128 + 1 * (j 1).val; rw [eb]; omega

/-- Running row 4's array when the region ends. -/
theorem final4 (c : Dev nD) : (dat16 V c).arrAt 4 cfg16.N = acc4 V c 4 h4 :=
  (dat16 V c).arrAt_eq_of_cover 4 (acc4 V c 4 h4) (flushed4_eq V c) fun i => by
    have hi0 : (i 0).val < 1 := (i 0).isLt
    have hi1 : (i 1).val < 128 := (i 1).isLt
    obtain ⟨-, -, -, -, -, -, -, -, ea, eb, -⟩ := idx_facts tLast
    refine ⟨tLast, (flush16_4 tLast).mpr rfl, ?_⟩
    rw [mem_blk4]
    intro a
    match a with
    | ⟨0, _⟩ =>
      show win16_4.index tLast (0 : Fin 2) * 1 ≤ (i 0).val ∧ (i 0).val < win16_4.index tLast (0 : Fin 2) * 1 + 1
      rw [ea]; omega
    | ⟨1, _⟩ =>
      show win16_4.index tLast (1 : Fin 2) * 128 ≤ (i 1).val ∧ (i 1).val < win16_4.index tLast (1 : Fin 2) * 128 + 128
      rw [eb]; omega

/-- An index of running row 5's array is in point t's block iff each coordinate is in the block's range. -/
theorem mem_blk5 (t : Fin cfg16.N) (i : S1x128.Idx) :
    i ∈ ((cfg16.win 5).blk t).view.set ↔ ∀ a : Fin 2, win16_5.index t a * S1x128.size a ≤ (i a).val
      ∧ (i a).val < win16_5.index t a * S1x128.size a + S1x128.size a := by
  show i ∈ ((View.whole main_v281_2).slice (win16_5.rect t)).set ↔ _
  rw [View.set_slice_whole, Rect.mem_set_unit]
  exact Iff.rfl

/-- The one write-back of running row 5, after the last point, writes the row as it stands after point 4. -/
theorem flushed5_eq (c : Dev nD) (t : Fin cfg16.N) (hf : (cfg16.win 5).flush t = true) :
    (dat16 V c).flushed 5 t = ((cfg16.win 5).blk t).view.read (Elt Ideal) (acc5 V c 4 h4) := by
  have hN : cfg16.N = 5 := N_16
  have ht : t.val = 4 := by have := (flush16_5 t).mp hf; have := t.isLt; omega
  obtain rfl : t = tLast := Fin.ext ht
  obtain ⟨-, -, -, -, -, -, -, -, -, -, ea, eb⟩ := idx_facts tLast
  show (cfg16.win 5).cut (grid16.coords tLast) ((dat16 V c).after 5 tLast) = _
  rw [after16_5, outsAt_eq V c tLast.val tLast.isLt]
  funext j
  show acc5 V c 4 _ j = acc5 V c 4 _ (((cfg16.win 5).blk tLast).view.emb j)
  congr 1
  funext a
  apply Fin.ext
  match a with
  | ⟨0, _⟩ => show (j 0).val = win16_5.index tLast (0 : Fin 2) * 1 + 1 * (j 0).val; rw [ea]; omega
  | ⟨1, _⟩ => show (j 1).val = win16_5.index tLast (1 : Fin 2) * 128 + 1 * (j 1).val; rw [eb]; omega

/-- Running row 5's array when the region ends. -/
theorem final5 (c : Dev nD) : (dat16 V c).arrAt 5 cfg16.N = acc5 V c 4 h4 :=
  (dat16 V c).arrAt_eq_of_cover 5 (acc5 V c 4 h4) (flushed5_eq V c) fun i => by
    have hi0 : (i 0).val < 1 := (i 0).isLt
    have hi1 : (i 1).val < 128 := (i 1).isLt
    obtain ⟨-, -, -, -, -, -, -, -, -, -, ea, eb⟩ := idx_facts tLast
    refine ⟨tLast, (flush16_5 tLast).mpr rfl, ?_⟩
    rw [mem_blk5]
    intro a
    match a with
    | ⟨0, _⟩ =>
      show win16_5.index tLast (0 : Fin 2) * 1 ≤ (i 0).val ∧ (i 0).val < win16_5.index tLast (0 : Fin 2) * 1 + 1
      rw [ea]; omega
    | ⟨1, _⟩ =>
      show win16_5.index tLast (1 : Fin 2) * 128 ≤ (i 1).val ∧ (i 1).val < win16_5.index tLast (1 : Fin 2) * 128 + 128
      rw [eb]; omega

/-! ## The running rows are the column sums -/

/-- The dense layer of a tile is the matching rows of the dense layer of the whole input. -/
theorem tile_dense (c : Dev nD) (t : Fin cfg16.N) (q : Fin 10000) (k : Fin 128) :
    DenseSpec.dense (iblk16 V c 0 t) (iblk16 V c 1 t) (iblk16 V c 2 t) (ix2 q k) = X1 V c (ix2 (rowK t q) k) := by
  rw [w_blk, b_blk]
  exact DenseSpec.dense_rows (V c main_v254) (iblk16 V c 0 t) (V c main_v280) (V c main_v257) (rowK t q) q
    (fun k' => tile_apply V c t q k') k

/-- Running row 4 at column cc, as a sequence in the point (zero past the last point). -/
def A4 (c : Dev nD) (cc : Fin 128) (n : ℕ) : EReal :=
  if h : n < cfg16.N then acc4 V c n h (ix2 (0 : Fin 1) cc) else 0

/-- After the last point, running row 4 holds the column sums of the dense layer of the whole input. -/
theorem acc4_eq (c : Dev nD) (cc : Fin 128) :
    acc4 V c 4 h4 (ix2 (0 : Fin 1) cc) = BatchNormSpec.colSum (X1 V c) cc := by
  have hN : cfg16.N = 5 := N_16
  have key := GinTiles.acc_eq_colSum (X1 V c) cc (A4 V c cc) ?h0 ?hs
  · rw [← key]
    unfold A4
    rw [dif_pos h4]
  case h0 =>
    unfold A4
    rw [dif_pos (by omega : 0 < cfg16.N)]
    refine (KPayL4.pay4_apply (iblk16 V c 0 ⟨0, by omega⟩) (iblk16 V c 1 ⟨0, by omega⟩) (iblk16 V c 2 ⟨0, by omega⟩) (k16_pay1 (F := Ideal)) cc).trans ?_
    rw [KPayL4.pay1_apply]
    refine congrArg ((0 : EReal) + ·) ?_
    unfold GinTiles.tileSum
    rw [dif_pos (by norm_num : 0 < 5)]
    exact Finset.sum_congr rfl fun q _ => tile_dense V c ⟨0, by omega⟩ q cc
  case hs =>
    intro n hn
    unfold A4
    rw [dif_pos (by omega : n + 1 < cfg16.N), dif_pos (by omega : n < cfg16.N)]
    refine (KPayL4.pay4_apply (iblk16 V c 0 ⟨n + 1, by omega⟩) (iblk16 V c 1 ⟨n + 1, by omega⟩) (iblk16 V c 2 ⟨n + 1, by omega⟩)
      (acc4 V c n (by omega)) cc).trans ?_
    refine congrArg (acc4 V c n (by omega) (ix2 (0 : Fin 1) cc) + ·) ?_
    unfold GinTiles.tileSum
    rw [dif_pos hn]
    exact Finset.sum_congr rfl fun q _ => tile_dense V c ⟨n + 1, by omega⟩ q cc

/-- Running row 5 at column cc, as a sequence in the point (zero past the last point). -/
def A5 (c : Dev nD) (cc : Fin 128) (n : ℕ) : EReal :=
  if h : n < cfg16.N then acc5 V c n h (ix2 (0 : Fin 1) cc) else 0

/-- After the last point, running row 5 holds the column sums of squares of the dense layer of the whole input. -/
theorem acc5_eq (c : Dev nD) (cc : Fin 128) :
    acc5 V c 4 h4 (ix2 (0 : Fin 1) cc) = BatchNormSpec.colSumSq (X1 V c) cc := by
  have hN : cfg16.N = 5 := N_16
  have key := GinTiles.acc_eq_colSumSq (X1 V c) cc (A5 V c cc) ?h0 ?hs
  · rw [← key]
    unfold A5
    rw [dif_pos h4]
  case h0 =>
    unfold A5
    rw [dif_pos (by omega : 0 < cfg16.N)]
    refine (KPayL4.pay5_apply (iblk16 V c 0 ⟨0, by omega⟩) (iblk16 V c 1 ⟨0, by omega⟩) (iblk16 V c 2 ⟨0, by omega⟩) (k16_pay2 (F := Ideal)) cc).trans ?_
    rw [KPayL4.pay2_apply]
    refine congrArg ((0 : EReal) + ·) ?_
    unfold GinTiles.tileSum
    rw [dif_pos (by norm_num : 0 < 5)]
    exact Finset.sum_congr rfl fun q _ =>
      congrArg₂ (· * ·) (tile_dense V c ⟨0, by omega⟩ q cc) (tile_dense V c ⟨0, by omega⟩ q cc)
  case hs =>
    intro n hn
    unfold A5
    rw [dif_pos (by omega : n + 1 < cfg16.N), dif_pos (by omega : n < cfg16.N)]
    refine (KPayL4.pay5_apply (iblk16 V c 0 ⟨n + 1, by omega⟩) (iblk16 V c 1 ⟨n + 1, by omega⟩) (iblk16 V c 2 ⟨n + 1, by omega⟩)
      (acc5 V c n (by omega)) cc).trans ?_
    refine congrArg (acc5 V c n (by omega) (ix2 (0 : Fin 1) cc) + ·) ?_
    unfold GinTiles.tileSum
    rw [dif_pos hn]
    exact Finset.sum_congr rfl fun q _ =>
      congrArg₂ (· * ·) (tile_dense V c ⟨n + 1, by omega⟩ q cc) (tile_dense V c ⟨n + 1, by omega⟩ q cc)

end Cert.KernelIdeal.R16

end
-- ==== Proof.R17Value.lean ====
/-
  The second kernel of layer 4, read as values, at any float instance. At each of its five grid points the kernel
  normalises and rectifies the point's tile of 10000 rows, stores the second dense layer of that, and keeps two running
  rows: at the first point the zero row plus the stored tile's column sums (and the column sums of its squares); at every
  later point what the point before left plus the same. So after point n the three output buffers hold the second dense
  layer of tile n and the two accumulations over tiles 0..n (by induction on the point).
-/
import proofs.«113410_j5944234737805_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R17

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem out_A_7 (c : Dev nD) (i : grid17.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond17_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) :
    out17_A_7 c i a1 h1 a2 h2 a3 h3 a4 h4 a5 h5 a6 h6 a7 h7 a8 h8 a9 h9 a10 h10 hc x0 x1 x2 x3 x4 x5 x6 = k17_pay5 x0 x2 x3 x1 x4 x5 x6 := by
  unfold out17_A_7
  rw [View.read_writes_eq_canon _ _ _ (cover17_A_7 c i a1 h1 a2 h2 a3 h3 a4 h4 a5 h5 a6 h6 a7 h7 a8 h8 a9 h9 a10 h10 hc x0 x1 x2 x3 x4 x5 x6)]
  unfold kernelRun17_A
  dsimp only
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_A_8 (c : Dev nD) (i : grid17.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond17_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) :
    out17_A_8 c i a1 h1 a2 h2 a3 h3 a4 h4 a5 h5 a6 h6 a7 h7 a8 h8 a9 h9 a10 h10 hc x0 x1 x2 x3 x4 x5 x6 = k17_pay1 (k17_pay5 x0 x2 x3 x1 x4 x5 x6) k17_pay3 := by
  unfold out17_A_8
  rw [View.read_writes_eq_canon _ _ _ (cover17_A_8 c i a1 h1 a2 h2 a3 h3 a4 h4 a5 h5 a6 h6 a7 h7 a8 h8 a9 h9 a10 h10 hc x0 x1 x2 x3 x4 x5 x6)]
  unfold kernelRun17_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_A_9 (c : Dev nD) (i : grid17.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : cond17_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) :
    out17_A_9 c i a1 h1 a2 h2 a3 h3 a4 h4 a5 h5 a6 h6 a7 h7 a8 h8 a9 h9 a10 h10 hc x0 x1 x2 x3 x4 x5 x6 = k17_pay2 (k17_pay5 x0 x2 x3 x1 x4 x5 x6) k17_pay4 := by
  unfold out17_A_9
  rw [View.read_writes_eq_canon _ _ _ (cover17_A_9 c i a1 h1 a2 h2 a3 h3 a4 h4 a5 h5 a6 h6 a7 h7 a8 h8 a9 h9 a10 h10 hc x0 x1 x2 x3 x4 x5 x6)]
  unfold kernelRun17_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_B_7 (c : Dev nD) (i : grid17.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond17_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out17_B_7 c i a1 h1 a2 h2 a3 h3 a4 h4 a5 h5 a6 h6 a7 h7 a8 h8 a9 h9 a10 h10 hc x0 x1 x2 x3 x4 x5 x6 xo8 xo9 = k17_pay5 x0 x2 x3 x1 x4 x5 x6 := by
  unfold out17_B_7
  rw [View.read_writes_eq_canon _ _ _ (cover17_B_7 c i a1 h1 a2 h2 a3 h3 a4 h4 a5 h5 a6 h6 a7 h7 a8 h8 a9 h9 a10 h10 hc x0 x1 x2 x3 x4 x5 x6 xo8 xo9)]
  unfold kernelRun17_B
  dsimp only
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_B_8 (c : Dev nD) (i : grid17.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond17_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out17_B_8 c i a1 h1 a2 h2 a3 h3 a4 h4 a5 h5 a6 h6 a7 h7 a8 h8 a9 h9 a10 h10 hc x0 x1 x2 x3 x4 x5 x6 xo8 xo9 = k17_pay1 (k17_pay5 x0 x2 x3 x1 x4 x5 x6) xo8 := by
  unfold out17_B_8
  rw [View.read_writes_eq_canon _ _ _ (cover17_B_8 c i a1 h1 a2 h2 a3 h3 a4 h4 a5 h5 a6 h6 a7 h7 a8 h8 a9 h9 a10 h10 hc x0 x1 x2 x3 x4 x5 x6 xo8 xo9)]
  unfold kernelRun17_B
  dsimp only
  rw [View.canon_unit_zero hz]
  sl_unfold_words
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

theorem out_B_9 (c : Dev nD) (i : grid17.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (a9 : Memref sig .tc .vmem S1x128 .f32) (h9 : a9.IsWhole) (a10 : Memref sig .tc .vmem S1x128 .f32) (h10 : a10.IsWhole) (hc : ¬cond17_0 i)
    (x0 : Vec F S10000x128 .f32) (x1 : Vec F S1x128 .f32) (x2 : Vec F S1x128 .f32) (x3 : Vec F S1x128 .f32) (x4 : Vec F S1x128 .f32) (x5 : Vec F S128x128 .f32) (x6 : Vec F S1x128 .f32) (xo8 xo9 : Vec F S1x128 .f32) :
    out17_B_9 c i a1 h1 a2 h2 a3 h3 a4 h4 a5 h5 a6 h6 a7 h7 a8 h8 a9 h9 a10 h10 hc x0 x1 x2 x3 x4 x5 x6 xo8 xo9 = k17_pay2 (k17_pay5 x0 x2 x3 x1 x4 x5 x6) xo9 := by
  unfold out17_B_9
  rw [View.read_writes_eq_canon _ _ _ (cover17_B_9 c i a1 h1 a2 h2 a3 h3 a4 h4 a5 h5 a6 h6 a7 h7 a8 h8 a9 h9 a10 h10 hc x0 x1 x2 x3 x4 x5 x6 xo8 xo9)]
  unfold kernelRun17_B
  dsimp only
  rw [View.canon_unit_zero hz]
  sl_unfold_words
  simp only [View.readAt_eq_ld, h1.read_unread, h2.read_unread, h3.read_unread, h4.read_unread, h5.read_unread, h6.read_unread, h7.read_unread, h8.read_unread, h9.read_unread, h10.read_unread, View.ld_unit_zero (S := S10000x128) hz, View.ld_unit_zero (S := S128x128) hz, View.ld_unit_zero (S := S1x128) hz]

/-- The first running row after point n. -/
def acc8 (c : Dev nD) : (n : ℕ) → n < cfg17.N → Vec F S1x128 .f32
  | 0, h => k17_pay1 (k17_pay5 (iblk17 V c 0 ⟨0, h⟩) (iblk17 V c 2 ⟨0, h⟩) (iblk17 V c 3 ⟨0, h⟩) (iblk17 V c 1 ⟨0, h⟩) (iblk17 V c 4 ⟨0, h⟩) (iblk17 V c 5 ⟨0, h⟩) (iblk17 V c 6 ⟨0, h⟩)) k17_pay3
  | n + 1, h => k17_pay1 (k17_pay5 (iblk17 V c 0 ⟨n + 1, h⟩) (iblk17 V c 2 ⟨n + 1, h⟩) (iblk17 V c 3 ⟨n + 1, h⟩) (iblk17 V c 1 ⟨n + 1, h⟩) (iblk17 V c 4 ⟨n + 1, h⟩) (iblk17 V c 5 ⟨n + 1, h⟩) (iblk17 V c 6 ⟨n + 1, h⟩)) (acc8 c n (Nat.lt_of_succ_lt h))

/-- The second running row after point n. -/
def acc9 (c : Dev nD) : (n : ℕ) → n < cfg17.N → Vec F S1x128 .f32
  | 0, h => k17_pay2 (k17_pay5 (iblk17 V c 0 ⟨0, h⟩) (iblk17 V c 2 ⟨0, h⟩) (iblk17 V c 3 ⟨0, h⟩) (iblk17 V c 1 ⟨0, h⟩) (iblk17 V c 4 ⟨0, h⟩) (iblk17 V c 5 ⟨0, h⟩) (iblk17 V c 6 ⟨0, h⟩)) k17_pay4
  | n + 1, h => k17_pay2 (k17_pay5 (iblk17 V c 0 ⟨n + 1, h⟩) (iblk17 V c 2 ⟨n + 1, h⟩) (iblk17 V c 3 ⟨n + 1, h⟩) (iblk17 V c 1 ⟨n + 1, h⟩) (iblk17 V c 4 ⟨n + 1, h⟩) (iblk17 V c 5 ⟨n + 1, h⟩) (iblk17 V c 6 ⟨n + 1, h⟩)) (acc9 c n (Nat.lt_of_succ_lt h))

/-- After point n the three output buffers hold the tile's result and the two running rows. By induction on the point. -/
theorem outsAt_eq (c : Dev nD) : ∀ (n : ℕ) (h : n < cfg17.N),
    outsAt17 V c n h = (k17_pay5 (iblk17 V c 0 ⟨n, h⟩) (iblk17 V c 2 ⟨n, h⟩) (iblk17 V c 3 ⟨n, h⟩) (iblk17 V c 1 ⟨n, h⟩) (iblk17 V c 4 ⟨n, h⟩) (iblk17 V c 5 ⟨n, h⟩) (iblk17 V c 6 ⟨n, h⟩), acc8 V c n h, acc9 V c n h)
  | 0, h => (outsAt17_A V c ⟨0, h⟩ rfl).trans (by
      rw [out_A_7, out_A_8, out_A_9]
      rfl)
  | n + 1, h => by
    have hN : cfg17.N = 5 := N_17
    have hB : ¬(⟨n + 1, h⟩ : Fin cfg17.N).val % 5 = 0 := by dsimp only; omega
    rw [outsAt17_B V c ⟨n + 1, h⟩ hB, out_B_7, out_B_8, out_B_9]
    show (k17_pay5 _ _ _ _ _ _ _, k17_pay1 _ (outsAt17 V c n _).2.1, k17_pay2 _ (outsAt17 V c n _).2.2)
      = (k17_pay5 _ _ _ _ _ _ _, k17_pay1 _ (acc8 V c n _), k17_pay2 _ (acc9 V c n _))
    rw [outsAt_eq c n]

end Cert.KernelIdeal.R17
-- ==== Proof.KPay1_L4.lean ====
/-
  The arithmetic of the second, third and fourth kernels of a layer, at the exact values. Each takes a tile `x` of the
  previous stage's output and the rows of its column means, column variances, scale and shift, and forms the normalised
  and rectified tile `max (g · (x − μ) · rsqrt(v + ε) + β) 0`. The second kernel stores the second dense layer of that
  tile; the third stores the tile itself; both add to two running rows the column sums of what they store and of its
  squares. The fourth stores the tile: the layer's output rows.
-/
import proofs.«113410_j5944234737805_1_alg».proof.Proof.Gen.KernelIdeal.Skeleton
import proofs.«113410_j5944234737805_1_alg».proof.Proof.KPay1
import proofs.«113410_j5944234737805_1_alg».proof.Proof.LibDense
import proofs.«113410_j5944234737805_1_alg».proof.Proof.LibBatchNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPayL4

open Cert.KernelIdeal Cert.KernelIdeal.Gen Idealize.ShloMosaic Idealize.ShloMosaic.TcCoe Idealize.ShloMosaic.ValueIdx
open Cert.KernelIdeal.KPay (rowAt normTile colAcc_apply colAccSq_apply)

/-- The second dense layer of the normalised and rectified tile. -/
theorem k1pay5_eq (x : Vec Ideal S10000x128 .f32) (v g μ β : Vec Ideal S1x128 .f32) (w : Vec Ideal S128x128 .f32)
    (b : Vec Ideal S1x128 .f32) :
    k17_pay5 (F := Ideal) x v g μ β w b = DenseSpec.dense (normTile x μ v g β) w b := by
  unfold k17_pay5
  dsimp only
  simp only [shapeCast_self]
  refine (DenseSpec.matmul_bias dot_S10000x128_S128x128_S10000x128_1_0_0_1_n_n_wf none _ _ b broadcasts_S1x128_S10000x128).trans ?_
  refine congrArg (fun a : BatchNormSpec.Mat 10000 128 => DenseSpec.dense a w b) ?_
  funext i
  obtain ⟨r, c, rfl⟩ : ∃ (r : Fin 10000) (c : Fin 128), i = ix2 r c := ⟨i 0, i 1, eq_ix2 i⟩
  unfold normTile
  rw [BatchNormSpec.normRelu_apply, truncf_apply, maximumf_apply, addf_apply, mulf_apply, mulf_apply, subf_apply,
    broadcastTo_1b_ab_apply g _ r c, broadcastTo_1b_ab_apply μ _ r c, broadcastTo_1b_ab_apply _ _ r c,
    broadcastTo_1b_ab_apply β _ r c]
  rfl

/-- The second kernel's two accumulations, over the tile `y` it has just stored. -/
theorem k1pay1_apply (y : FVec Ideal S10000x128 .f32) (acc : Vec Ideal S1x128 .f32) (c : Fin 128) :
    k17_pay1 (F := Ideal) y acc (ix2 (0 : Fin 1) c) = acc (ix2 (0 : Fin 1) c) + ∑ q : Fin 10000, y (ix2 q c) := by
  unfold k17_pay1
  exact colAcc_apply y acc c
theorem k1pay2_apply (y : FVec Ideal S10000x128 .f32) (acc : Vec Ideal S1x128 .f32) (c : Fin 128) :
    k17_pay2 (F := Ideal) y acc (ix2 (0 : Fin 1) c) = acc (ix2 (0 : Fin 1) c) + ∑ q : Fin 10000, y (ix2 q c) * y (ix2 q c) := by
  unfold k17_pay2
  exact colAccSq_apply y acc c
theorem k1pay3_apply (i : S1x128.Idx) : k17_pay3 (F := Ideal) i = 0 := by
  show Ideal.ofBits .f32 0x00000000#32 = 0
  exact Ideal.ofBits_zero_f32
theorem k1pay4_apply (i : S1x128.Idx) : k17_pay4 (F := Ideal) i = 0 := by
  show Ideal.ofBits .f32 0x00000000#32 = 0
  exact Ideal.ofBits_zero_f32

/-- The third kernel stores the normalised and rectified tile itself … -/
theorem k2pay4_eq (x : Vec Ideal S10000x128 .f32) (v g μ β : Vec Ideal S1x128 .f32) :
    k18_pay4 (F := Ideal) x v g μ β = normTile x μ v g β := by
  unfold k18_pay4
  dsimp only
  simp only [shapeCast_self]
  funext i
  obtain ⟨r, c, rfl⟩ : ∃ (r : Fin 10000) (c : Fin 128), i = ix2 r c := ⟨i 0, i 1, eq_ix2 i⟩
  unfold normTile
  rw [BatchNormSpec.normRelu_apply, maximumf_apply, addf_apply, mulf_apply, mulf_apply, subf_apply,
    broadcastTo_1b_ab_apply g _ r c, broadcastTo_1b_ab_apply μ _ r c, broadcastTo_1b_ab_apply _ _ r c,
    broadcastTo_1b_ab_apply β _ r c]
  rfl

/-- … and accumulates its column sums and the column sums of its squares. -/
theorem k2pay5_apply (x : Vec Ideal S10000x128 .f32) (v g μ β acc : Vec Ideal S1x128 .f32) (c : Fin 128) :
    k18_pay5 (F := Ideal) x v g μ β acc (ix2 (0 : Fin 1) c)
      = acc (ix2 (0 : Fin 1) c) + ∑ q : Fin 10000, normTile x μ v g β (ix2 q c) := by
  unfold k18_pay5
  dsimp only
  rw [k2pay4_eq]
  exact colAcc_apply (normTile x μ v g β) acc c
theorem k2pay1_apply (y : FVec Ideal S10000x128 .f32) (acc : Vec Ideal S1x128 .f32) (c : Fin 128) :
    k18_pay1 (F := Ideal) y acc (ix2 (0 : Fin 1) c) = acc (ix2 (0 : Fin 1) c) + ∑ q : Fin 10000, y (ix2 q c) * y (ix2 q c) := by
  unfold k18_pay1
  exact colAccSq_apply y acc c
theorem k2pay2_apply (i : S1x128.Idx) : k18_pay2 (F := Ideal) i = 0 := by
  show Ideal.ofBits .f32 0x00000000#32 = 0
  exact Ideal.ofBits_zero_f32
theorem k2pay3_apply (i : S1x128.Idx) : k18_pay3 (F := Ideal) i = 0 := by
  show Ideal.ofBits .f32 0x00000000#32 = 0
  exact Ideal.ofBits_zero_f32

/-- The fourth kernel stores the normalised and rectified tile: the layer's output rows. -/
theorem k3pay1_eq (x : Vec Ideal S10000x128 .f32) (v g μ β : Vec Ideal S1x128 .f32) :
    k19_pay1 (F := Ideal) x v g μ β = normTile x μ v g β := by
  unfold k19_pay1
  dsimp only
  simp only [shapeCast_self]
  funext i
  obtain ⟨r, c, rfl⟩ : ∃ (r : Fin 10000) (c : Fin 128), i = ix2 r c := ⟨i 0, i 1, eq_ix2 i⟩
  unfold normTile
  rw [BatchNormSpec.normRelu_apply, maximumf_apply, addf_apply, mulf_apply, mulf_apply, subf_apply,
    broadcastTo_1b_ab_apply g _ r c, broadcastTo_1b_ab_apply μ _ r c, broadcastTo_1b_ab_apply _ _ r c,
    broadcastTo_1b_ab_apply β _ r c]
  rfl

end Cert.KernelIdeal.KPayL4

end
-- ==== Proof.R17Array.lean ====
/-
  The second kernel of layer 4: what its three output arrays hold when the region ends, at the exact values. Point t reads
  rows 10000·t … of the first dense layer's output, the four statistics and parameter rows, the whole second weight
  matrix and its bias row, and writes back the same rows of the output: the second dense layer of the normalised and
  rectified rows. Normalising is row by row, so the output array is the second dense layer of the normalised and
  rectified whole array. The two running rows, written back once after the last point, are that array's column sums
  and column sums of squares.
-/
import proofs.«113410_j5944234737805_1_alg».proof.Proof.R17Value
import proofs.«113410_j5944234737805_1_alg».proof.Proof.KPay1_L4
import proofs.«113410_j5944234737805_1_alg».proof.Proof.GinTiles
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.R17

open Cert.KernelIdeal Cert.KernelIdeal.Gen

variable (V : (c : Dev nD) → (b : Ref sig .tc) → Buf (Elt Ideal) ((c : Thread nD τ).loc b))

/-- The block indices of the ten windows at each grid point: the two row-tile windows move with the point, the others stay. -/
theorem idx_facts : ∀ t : Fin cfg17.N,
    win17_0.index t (0 : Fin 2) = t.val
    ∧ win17_0.index t (1 : Fin 2) = 0
    ∧ win17_1.index t (0 : Fin 2) = 0
    ∧ win17_1.index t (1 : Fin 2) = 0
    ∧ win17_2.index t (0 : Fin 2) = 0
    ∧ win17_2.index t (1 : Fin 2) = 0
    ∧ win17_3.index t (0 : Fin 2) = 0
    ∧ win17_3.index t (1 : Fin 2) = 0
    ∧ win17_4.index t (0 : Fin 2) = 0
    ∧ win17_4.index t (1 : Fin 2) = 0
    ∧ win17_5.index t (0 : Fin 2) = 0
    ∧ win17_5.index t (1 : Fin 2) = 0
    ∧ win17_6.index t (0 : Fin 2) = 0
    ∧ win17_6.index t (1 : Fin 2) = 0
    ∧ win17_7.index t (0 : Fin 2) = t.val
    ∧ win17_7.index t (1 : Fin 2) = 0
    ∧ win17_8.index t (0 : Fin 2) = 0
    ∧ win17_8.index t (1 : Fin 2) = 0
    ∧ win17_9.index t (0 : Fin 2) = 0
    ∧ win17_9.index t (1 : Fin 2) = 0 :=
  (by decide +kernel : ∀ t : Fin grid17.N, _)

/-- Row q of the tile of point t. -/
abbrev rowK (t : Fin cfg17.N) (q : Fin 10000) : Fin 50000 :=
  ⟨10000 * t.val + q.val, by have := t.isLt; have hN : cfg17.N = 5 := N_17; have := q.isLt; omega⟩

/-- The input tile of point t is rows 10000·t + q of the first dense layer's output. -/
theorem tile_apply (c : Dev nD) (t : Fin cfg17.N) (q : Fin 10000) (k : Fin 128) :
    iblk17 V c 0 t (ix2 q k) = V c main_v281_0 (ix2 (rowK t q) k) := by
  obtain ⟨e0, e1, -⟩ := idx_facts t
  unfold iblk17
  rw [View.read_apply]
  show V c main_v281_0 _ = V c main_v281_0 _
  congr 1
  funext a
  apply Fin.ext
  match a with
  | ⟨0, _⟩ => show win17_0.index t (0 : Fin 2) * 10000 + 1 * q.val = 10000 * t.val + q.val; rw [e0]; omega
  | ⟨1, _⟩ => show win17_0.index t (1 : Fin 2) * 128 + 1 * k.val = k.val; rw [e1]; omega

/-! The statistics and parameter rows, and the bias row: each window's block at every point is the whole row. -/

theorem row_blk1 (c : Dev nD) (t : Fin cfg17.N) : iblk17 V c 1 t = V c main_v283 := by
  obtain ⟨-, -, ea, eb, -⟩ := idx_facts t
  funext j
  unfold iblk17
  rw [View.read_apply]
  show V c main_v283 _ = V c main_v283 j
  congr 1
  funext a
  apply Fin.ext
  match a with
  | ⟨0, _⟩ => show win17_1.index t (0 : Fin 2) * 1 + 1 * (j 0).val = (j 0).val; rw [ea]; omega
  | ⟨1, _⟩ => show win17_1.index t (1 : Fin 2) * 128 + 1 * (j 1).val = (j 1).val; rw [eb]; omega

theorem row_blk2 (c : Dev nD) (t : Fin cfg17.N) : iblk17 V c 2 t = V c main_v287 := by
  obtain ⟨-, -, -, -, ea, eb, -⟩ := idx_facts t
  funext j
  unfold iblk17
  rw [View.read_apply]
  show V c main_v287 _ = V c main_v287 j
  congr 1
  funext a
  apply Fin.ext
  match a with
  | ⟨0, _⟩ => show win17_2.index t (0 : Fin 2) * 1 + 1 * (j 0).val = (j 0).val; rw [ea]; omega
  | ⟨1, _⟩ => show win17_2.index t (1 : Fin 2) * 128 + 1 * (j 1).val = (j 1).val; rw [eb]; omega

theorem row_blk3 (c : Dev nD) (t : Fin cfg17.N) : iblk17 V c 3 t = V c main_v263 := by
  obtain ⟨-, -, -, -, -, -, ea, eb, -⟩ := idx_facts t
  funext j
  unfold iblk17
  rw [View.read_apply]
  show V c main_v263 _ = V c main_v263 j
  congr 1
  funext a
  apply Fin.ext
  match a with
  | ⟨0, _⟩ => show win17_3.index t (0 : Fin 2) * 1 + 1 * (j 0).val = (j 0).val; rw [ea]; omega
  | ⟨1, _⟩ => show win17_3.index t (1 : Fin 2) * 128 + 1 * (j 1).val = (j 1).val; rw [eb]; omega

theorem row_blk4 (c : Dev nD) (t : Fin cfg17.N) : iblk17 V c 4 t = V c main_v266 := by
  obtain ⟨-, -, -, -, -, -, -, -, ea, eb, -⟩ := idx_facts t
  funext j
  unfold iblk17
  rw [View.read_apply]
  show V c main_v266 _ = V c main_v266 j
  congr 1
  funext a
  apply Fin.ext
  match a with
  | ⟨0, _⟩ => show win17_4.index t (0 : Fin 2) * 1 + 1 * (j 0).val = (j 0).val; rw [ea]; omega
  | ⟨1, _⟩ => show win17_4.index t (1 : Fin 2) * 128 + 1 * (j 1).val = (j 1).val; rw [eb]; omega

theorem row_blk6 (c : Dev nD) (t : Fin cfg17.N) : iblk17 V c 6 t = V c main_v260 := by
  obtain ⟨-, -, -, -, -, -, -, -, -, -, -, -, ea, eb, -⟩ := idx_facts t
  funext j
  unfold iblk17
  rw [View.read_apply]
  show V c main_v260 _ = V c main_v260 j
  congr 1
  funext a
  apply Fin.ext
  match a with
  | ⟨0, _⟩ => show win17_6.index t (0 : Fin 2) * 1 + 1 * (j 0).val = (j 0).val; rw [ea]; omega
  | ⟨1, _⟩ => show win17_6.index t (1 : Fin 2) * 128 + 1 * (j 1).val = (j 1).val; rw [eb]; omega

/-- The weights' block at every point is the whole weight matrix. -/
theorem w_blk (c : Dev nD) (t : Fin cfg17.N) : iblk17 V c 5 t = V c main_v289 := by
  obtain ⟨-, -, -, -, -, -, -, -, -, -, ea, eb, -⟩ := idx_facts t
  funext j
  unfold iblk17
  rw [View.read_apply]
  show V c main_v289 _ = V c main_v289 j
  congr 1
  funext a
  apply Fin.ext
  match a with
  | ⟨0, _⟩ => show win17_5.index t (0 : Fin 2) * 128 + 1 * (j 0).val = (j 0).val; rw [ea]; omega
  | ⟨1, _⟩ => show win17_5.index t (1 : Fin 2) * 128 + 1 * (j 1).val = (j 1).val; rw [eb]; omega

/-- The first dense layer's output, normalised and rectified: the whole array. -/
def A1 (c : Dev nD) : BatchNormSpec.Mat 50000 128 :=
  BatchNormSpec.normRelu (Ideal.ofBits .f32 0x3727C5AC#32) (Ideal.ofBits .f32 0x00000000#32) (V c main_v281_0)
    (KPay.rowAt (V c main_v283)) (KPay.rowAt (V c main_v287)) (KPay.rowAt (V c main_v263)) (KPay.rowAt (V c main_v266))

/-- The second dense layer of it: what the first output array ends holding. -/
def X2 (c : Dev nD) : S50000x128.Idx → EReal := DenseSpec.dense (A1 V c) (V c main_v289) (V c main_v260)

/-- The second dense layer of the normalised tile is the matching rows of the second dense layer of the whole array. -/
theorem tile_dense (c : Dev nD) (t : Fin cfg17.N) (q : Fin 10000) (k : Fin 128) :
    k17_pay5 (F := Ideal) (iblk17 V c 0 t) (iblk17 V c 2 t) (iblk17 V c 3 t) (iblk17 V c 1 t) (iblk17 V c 4 t) (iblk17 V c 5 t) (iblk17 V c 6 t) (ix2 q k) = X2 V c (ix2 (rowK t q) k) := by
  rw [KPayL4.k1pay5_eq, row_blk1, row_blk2, row_blk3, row_blk4, row_blk6, w_blk]
  refine DenseSpec.dense_rows (A1 V c) _ (V c main_v289) (V c main_v260) (rowK t q) q (fun k' => ?_) k
  unfold A1 KPay.normTile
  rw [BatchNormSpec.normRelu_apply, BatchNormSpec.normRelu_apply, tile_apply V c t q k']

/-- What point t writes back is rows 10000·t … of the second dense layer of the whole array. -/
theorem flushed7_eq (c : Dev nD) (t : Fin cfg17.N) :
    (dat17 V c).flushed 7 t = ((cfg17.win 7).blk t).view.read (Elt Ideal) (X2 V c) := by
  obtain ⟨-, -, -, -, -, -, -, -, -, -, -, -, -, -, ea, eb, -⟩ := idx_facts t
  show (cfg17.win 7).cut (grid17.coords t) ((dat17 V c).after 7 t) = _
  rw [after17_7, outsAt_eq V c t.val t.isLt]
  funext j
  obtain ⟨q, k, rfl⟩ : ∃ (q : Fin 10000) (k : Fin 128), j = ix2 q k := ⟨j 0, j 1, eq_ix2 j⟩
  show k17_pay5 (F := Ideal) (iblk17 V c 0 t) (iblk17 V c 2 t) (iblk17 V c 3 t) (iblk17 V c 1 t) (iblk17 V c 4 t) (iblk17 V c 5 t) (iblk17 V c 6 t) (ix2 q k) = X2 V c (((cfg17.win 7).blk t).view.emb (ix2 q k))
  have hemb : ((cfg17.win 7).blk t).view.emb (ix2 q k) = ix2 (rowK t q) k := by
    funext a
    apply Fin.ext
    match a with
    | ⟨0, _⟩ => show win17_7.index t (0 : Fin 2) * 10000 + 1 * q.val = 10000 * t.val + q.val; rw [ea]; omega
    | ⟨1, _⟩ => show win17_7.index t (1 : Fin 2) * 128 + 1 * k.val = k.val; rw [eb]; omega
  rw [hemb]
  exact tile_dense V c t q k

theorem mem_blk7 (t : Fin cfg17.N) (i : S50000x128.Idx) :
    i ∈ ((cfg17.win 7).blk t).view.set ↔ ∀ a : Fin 2, win17_7.index t a * S10000x128.size a ≤ (i a).val
      ∧ (i a).val < win17_7.index t a * S10000x128.size a + S10000x128.size a := by
  show i ∈ ((View.whole main_v290_0).slice (win17_7.rect t)).set ↔ _
  rw [View.set_slice_whole, Rect.mem_set_unit]
  exact Iff.rfl

/-- The first output array when the region ends: the second dense layer of the normalised and rectified whole array. -/
theorem final7 (c : Dev nD) : (dat17 V c).arrAt 7 cfg17.N = X2 V c :=
  (dat17 V c).arrAt_eq_of_cover 7 (X2 V c) (fun t _ => flushed7_eq V c t) fun i => by
    have hi0 : (i 0).val < 50000 := (i 0).isLt
    have hi1 : (i 1).val < 128 := (i 1).isLt
    have hN : cfg17.N = 5 := N_17
    obtain ⟨-, -, -, -, -, -, -, -, -, -, -, -, -, -, ea, eb, -⟩ := idx_facts ⟨(i 0).val / 10000, by omega⟩
    refine ⟨⟨(i 0).val / 10000, by omega⟩, flush17_7 _, ?_⟩
    rw [mem_blk7]
    intro a
    match a with
    | ⟨0, _⟩ =>
      show win17_7.index ⟨(i 0).val / 10000, _⟩ (0 : Fin 2) * 10000 ≤ (i 0).val
        ∧ (i 0).val < win17_7.index ⟨(i 0).val / 10000, _⟩ (0 : Fin 2) * 10000 + 10000
      rw [ea]; dsimp only; omega
    | ⟨1, _⟩ =>
      show win17_7.index ⟨(i 0).val / 10000, _⟩ (1 : Fin 2) * 128 ≤ (i 1).val
        ∧ (i 1).val < win17_7.index ⟨(i 0).val / 10000, _⟩ (1 : Fin 2) * 128 + 128
      rw [eb]; omega

/-! ## The two running rows -/

/-- The last grid point. -/
abbrev tLast : Fin cfg17.N := ⟨4, by rw [show cfg17.N = 5 from N_17]; decide⟩

theorem h4 : 4 < cfg17.N := tLast.isLt

theorem mem_blk8 (t : Fin cfg17.N) (i : S1x128.Idx) :
    i ∈ ((cfg17.win 8).blk t).view.set ↔ ∀ a : Fin 2, win17_8.index t a * S1x128.size a ≤ (i a).val
      ∧ (i a).val < win17_8.index t a * S1x128.size a + S1x128.size a := by
  show i ∈ ((View.whole main_v290_1).slice (win17_8.rect t)).set ↔ _
  rw [View.set_slice_whole, Rect.mem_set_unit]
  exact Iff.rfl

/-- The one write-back of running row 8, after the last point, writes the row as it stands after point 4. -/
theorem flushed8_eq (c : Dev nD) (t : Fin cfg17.N) (hf : (cfg17.win 8).flush t = true) :
    (dat17 V c).flushed 8 t = ((cfg17.win 8).blk t).view.read (Elt Ideal) (acc8 V c 4 h4) := by
  have hN : cfg17.N = 5 := N_17
  have ht : t.val = 4 := by have := (flush17_8 t).mp hf; have := t.isLt; omega
  obtain rfl : t = tLast := Fin.ext ht
  obtain ⟨-, -, -, -, -, -, -, -, -, -, -, -, -, -, -, -, ea, eb, -⟩ := idx_facts tLast
  show (cfg17.win 8).cut (grid17.coords tLast) ((dat17 V c).after 8 tLast) = _
  rw [after17_8, outsAt_eq V c tLast.val tLast.isLt]
  funext j
  show acc8 V c 4 _ j = acc8 V c 4 _ (((cfg17.win 8).blk tLast).view.emb j)
  congr 1
  funext a
  apply Fin.ext
  match a with
  | ⟨0, _⟩ => show (j 0).val = win17_8.index tLast (0 : Fin 2) * 1 + 1 * (j 0).val; rw [ea]; omega
  | ⟨1, _⟩ => show (j 1).val = win17_8.index tLast (1 : Fin 2) * 128 + 1 * (j 1).val; rw [eb]; omega

/-- Running row 8's array when the region ends. -/
theorem final8 (c : Dev nD) : (dat17 V c).arrAt 8 cfg17.N = acc8 V c 4 h4 :=
  (dat17 V c).arrAt_eq_of_cover 8 (acc8 V c 4 h4) (flushed8_eq V c) fun i => by
    have hi0 : (i 0).val < 1 := (i 0).isLt
    have hi1 : (i 1).val < 128 := (i 1).isLt
    obtain ⟨-, -, -, -, -, -, -, -, -, -, -, -, -, -, -, -, ea, eb, -⟩ := idx_facts tLast
    refine ⟨tLast, (flush17_8 tLast).mpr rfl, ?_⟩
    rw [mem_blk8]
    intro a
    match a with
    | ⟨0, _⟩ =>
      show win17_8.index tLast (0 : Fin 2) * 1 ≤ (i 0).val ∧ (i 0).val < win17_8.index tLast (0 : Fin 2) * 1 + 1
      rw [ea]; omega
    | ⟨1, _⟩ =>
      show win17_8.index tLast (1 : Fin 2) * 128 ≤ (i 1).val ∧ (i 1).val < win17_8.index tLast (1 : Fin 2) * 128 + 128
      rw [eb]; omega

theorem mem_blk9 (t : Fin cfg17.N) (i : S1x128.Idx) :
    i ∈ ((cfg17.win 9).blk t).view.set ↔ ∀ a : Fin 2, win17_9.index t a * S1x128.size a ≤ (i a).val
      ∧ (i a).val < win17_9.index t a * S1x128.size a + S1x128.size a := by
  show i ∈ ((View.whole main_v290_2).slice (win17_9.rect t)).set ↔ _
  rw [View.set_slice_whole, Rect.mem_set_unit]
  exact Iff.rfl

/-- The one write-back of running row 9, after the last point, writes the row as it stands after point 4. -/
theorem flushed9_eq (c : Dev nD) (t : Fin cfg17.N) (hf : (cfg17.win 9).flush t = true) :
    (dat17 V c).flushed 9 t = ((cfg17.win 9).blk t).view.read (Elt Ideal) (acc9 V c 4 h4) := by
  have hN : cfg17.N = 5 := N_17
  have ht : t.val = 4 := by have := (flush17_9 t).mp hf; have := t.isLt; omega
  obtain rfl : t = tLast := Fin.ext ht
  obtain ⟨-, -, -, -, -, -, -, -, -, -, -, -, -, -, -, -, -, -, ea, eb⟩ := idx_facts tLast
  show (cfg17.win 9).cut (grid17.coords tLast) ((dat17 V c).after 9 tLast) = _
  rw [after17_9, outsAt_eq V c tLast.val tLast.isLt]
  funext j
  show acc9 V c 4 _ j = acc9 V c 4 _ (((cfg17.win 9).blk tLast).view.emb j)
  congr 1
  funext a
  apply Fin.ext
  match a with
  | ⟨0, _⟩ => show (j 0).val = win17_9.index tLast (0 : Fin 2) * 1 + 1 * (j 0).val; rw [ea]; omega
  | ⟨1, _⟩ => show (j 1).val = win17_9.index tLast (1 : Fin 2) * 128 + 1 * (j 1).val; rw [eb]; omega

/-- Running row 9's array when the region ends. -/
theorem final9 (c : Dev nD) : (dat17 V c).arrAt 9 cfg17.N = acc9 V c 4 h4 :=
  (dat17 V c).arrAt_eq_of_cover 9 (acc9 V c 4 h4) (flushed9_eq V c) fun i => by
    have hi0 : (i 0).val < 1 := (i 0).isLt
    have hi1 : (i 1).val < 128 := (i 1).isLt
    obtain ⟨-, -, -, -, -, -, -, -, -, -, -, -, -, -, -, -, -, -, ea, eb⟩ := idx_facts tLast
    refine ⟨tLast, (flush17_9 tLast).mpr rfl, ?_⟩
    rw [mem_blk9]
    intro a
    match a with
    | ⟨0, _⟩ =>
      show win17_9.index tLast (0 : Fin 2) * 1 ≤ (i 0).val ∧ (i 0).val < win17_9.index tLast (0 : Fin 2) * 1 + 1
      rw [ea]; omega
    | ⟨1, _⟩ =>
      show win17_9.index tLast (1 : Fin 2) * 128 ≤ (i 1).val ∧ (i 1).val < win17_9.index tLast (1 : Fin 2) * 128 + 128
      rw [eb]; omega

/-! ## The running rows are the column sums -/

/-- Running row 8 at column cc, as a sequence in the point (zero past the last point). -/
def A8 (c : Dev nD) (cc : Fin 128) (n : ℕ) : EReal :=
  if h : n < cfg17.N then acc8 V c n h (ix2 (0 : Fin 1) cc) else 0

/-- After the last point, running row 8 holds the column sums of the second dense layer. -/
theorem acc8_eq (c : Dev nD) (cc : Fin 128) :
    acc8 V c 4 h4 (ix2 (0 : Fin 1) cc) = BatchNormSpec.colSum (X2 V c) cc := by
  have hN : cfg17.N = 5 := N_17
  have key := GinTiles.acc_eq_colSum (X2 V c) cc (A8 V c cc) ?h0 ?hs
  · rw [← key]
    unfold A8
    rw [dif_pos h4]
  case h0 =>
    unfold A8
    rw [dif_pos (by omega : 0 < cfg17.N)]
    refine (KPayL4.k1pay1_apply (k17_pay5 (F := Ideal) (iblk17 V c 0 ⟨0, by omega⟩) (iblk17 V c 2 ⟨0, by omega⟩) (iblk17 V c 3 ⟨0, by omega⟩) (iblk17 V c 1 ⟨0, by omega⟩) (iblk17 V c 4 ⟨0, by omega⟩) (iblk17 V c 5 ⟨0, by omega⟩) (iblk17 V c 6 ⟨0, by omega⟩)) (k17_pay3 (F := Ideal)) cc).trans ?_
    rw [KPayL4.k1pay3_apply]
    refine congrArg ((0 : EReal) + ·) ?_
    unfold GinTiles.tileSum
    rw [dif_pos (by norm_num : 0 < 5)]
    exact Finset.sum_congr rfl fun q _ => tile_dense V c ⟨0, by omega⟩ q cc
  case hs =>
    intro n hn
    unfold A8
    rw [dif_pos (by omega : n + 1 < cfg17.N), dif_pos (by omega : n < cfg17.N)]
    refine (KPayL4.k1pay1_apply (k17_pay5 (F := Ideal) (iblk17 V c 0 ⟨n + 1, by omega⟩) (iblk17 V c 2 ⟨n + 1, by omega⟩) (iblk17 V c 3 ⟨n + 1, by omega⟩) (iblk17 V c 1 ⟨n + 1, by omega⟩) (iblk17 V c 4 ⟨n + 1, by omega⟩) (iblk17 V c 5 ⟨n + 1, by omega⟩) (iblk17 V c 6 ⟨n + 1, by omega⟩)) (acc8 V c n (by omega)) cc).trans ?_
    refine congrArg (acc8 V c n (by omega) (ix2 (0 : Fin 1) cc) + ·) ?_
    unfold GinTiles.tileSum
    rw [dif_pos hn]
    exact Finset.sum_congr rfl fun q _ => tile_dense V c ⟨n + 1, by omega⟩ q cc

/-- Running row 9 at column cc, as a sequence in the point (zero past the last point). -/
def A9 (c : Dev nD) (cc : Fin 128) (n : ℕ) : EReal :=
  if h : n < cfg17.N then acc9 V c n h (ix2 (0 : Fin 1) cc) else 0

/-- After the last point, running row 9 holds the column sums of squares of the second dense layer. -/
theorem acc9_eq (c : Dev nD) (cc : Fin 128) :
    acc9 V c 4 h4 (ix2 (0 : Fin 1) cc) = BatchNormSpec.colSumSq (X2 V c) cc := by
  have hN : cfg17.N = 5 := N_17
  have key := GinTiles.acc_eq_colSumSq (X2 V c) cc (A9 V c cc) ?h0 ?hs
  · rw [← key]
    unfold A9
    rw [dif_pos h4]
  case h0 =>
    unfold A9
    rw [dif_pos (by omega : 0 < cfg17.N)]
    refine (KPayL4.k1pay2_apply (k17_pay5 (F := Ideal) (iblk17 V c 0 ⟨0, by omega⟩) (iblk17 V c 2 ⟨0, by omega⟩) (iblk17 V c 3 ⟨0, by omega⟩) (iblk17 V c 1 ⟨0, by omega⟩) (iblk17 V c 4 ⟨0, by omega⟩) (iblk17 V c 5 ⟨0, by omega⟩) (iblk17 V c 6 ⟨0, by omega⟩)) (k17_pay4 (F := Ideal)) cc).trans ?_
    rw [KPayL4.k1pay4_apply]
    refine congrArg ((0 : EReal) + ·) ?_
    unfold GinTiles.tileSum
    rw [dif_pos (by norm_num : 0 < 5)]
    exact Finset.sum_congr rfl fun q _ => congrArg₂ (· * ·) (tile_dense V c ⟨0, by omega⟩ q cc) (tile_dense V c ⟨0, by omega⟩ q cc)
  case hs =>
    intro n hn
    unfold A9
    rw [dif_pos (by omega : n + 1 < cfg17.N), dif_pos (by omega : n < cfg17.N)]
    refine (KPayL4.k1pay2_apply (k17_pay5 (F := Ideal) (iblk17 V c 0 ⟨n + 1, by omega⟩) (iblk17 V c 2 ⟨n + 1, by omega⟩) (iblk17 V c 3 ⟨n + 1, by omega⟩) (iblk17 V c 1 ⟨n + 1, by omega⟩) (iblk17 V c 4 ⟨n + 1, by omega⟩) (iblk17 V c 5 ⟨n + 1, by omega⟩) (iblk17 V c 6 ⟨n + 1, by omega⟩)) (acc9 V c n (by omega)) cc).trans ?_
    refine congrArg (acc9 V c n (by omega) (ix2 (0 : Fin 1) cc) + ·) ?_
    unfold GinTiles.tileSum
    rw [dif_pos hn]
    exact Finset.sum_congr rfl fun q _ => congrArg₂ (· * ·) (tile_dense V c ⟨n + 1, by omega⟩ q cc) (tile_dense V c ⟨n + 1, by omega⟩ q cc)

end Cert.KernelIdeal.R17

end
-- ==== Proof.R18Value.lean ====
/- The third kernel of layer 5 of the five, read as values, at any float instance. At each of its five grid points the kernel
   normalises, scales, shifts and rectifies the point's tile of 10000 rows with the four statistics rows and stores the
   tile, and keeps two running rows: at the first point it sets them to the zero row plus the column sums of the stored
   tile and of its squares; at every later point it adds the tile's column sums to what the point before left. So after
   point n the three output buffers hold tile n's result and the two accumulations over tiles 0..n, by induction on
   the point. -/
import proofs.«113410_j5944234737805_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R18

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem out_A_5 (c : Dev nD) (i : grid18.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond18_0 i)
    (x0 : Vec F S10000x128 .f32) (x1 : Vec F S1x128 .f32) (x2 : Vec F S1x128 .f32) (x3 : Vec F S1x128 .f32) (x4 : Vec F S1x128 .f32) :
    out18_A_5 c i a1 h1 a2 h2 a3 h3 a4 h4 a5 h5 a6 h6 a7 h7 a8 h8 hc x0 x1 x2 x3 x4 = k18_pay4 x0 x2 x3 x1 x4 := by
  unfold out18_A_5
  rw [View.read_writes_eq_canon _ _ _ (cover18_A_5 c i a1 h1 a2 h2 a3 h3 a4 h4 a5 h5 a6 h6 a7 h7 a8 h8 hc x0 x1 x2 x3 x4)]
  unfold kernelRun18_A
  dsimp only
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_A_6 (c : Dev nD) (i : grid18.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond18_0 i)
    (x0 : Vec F S10000x128 .f32) (x1 : Vec F S1x128 .f32) (x2 : Vec F S1x128 .f32) (x3 : Vec F S1x128 .f32) (x4 : Vec F S1x128 .f32) :
    out18_A_6 c i a1 h1 a2 h2 a3 h3 a4 h4 a5 h5 a6 h6 a7 h7 a8 h8 hc x0 x1 x2 x3 x4 = k18_pay5 x0 x2 x3 x1 x4 k18_pay2 := by
  unfold out18_A_6
  rw [View.read_writes_eq_canon _ _ _ (cover18_A_6 c i a1 h1 a2 h2 a3 h3 a4 h4 a5 h5 a6 h6 a7 h7 a8 h8 hc x0 x1 x2 x3 x4)]
  unfold kernelRun18_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_A_7 (c : Dev nD) (i : grid18.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : cond18_0 i)
    (x0 : Vec F S10000x128 .f32) (x1 : Vec F S1x128 .f32) (x2 : Vec F S1x128 .f32) (x3 : Vec F S1x128 .f32) (x4 : Vec F S1x128 .f32) :
    out18_A_7 c i a1 h1 a2 h2 a3 h3 a4 h4 a5 h5 a6 h6 a7 h7 a8 h8 hc x0 x1 x2 x3 x4 = k18_pay1 (k18_pay4 x0 x2 x3 x1 x4) k18_pay3 := by
  unfold out18_A_7
  rw [View.read_writes_eq_canon _ _ _ (cover18_A_7 c i a1 h1 a2 h2 a3 h3 a4 h4 a5 h5 a6 h6 a7 h7 a8 h8 hc x0 x1 x2 x3 x4)]
  unfold kernelRun18_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_B_5 (c : Dev nD) (i : grid18.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond18_0 i)
    (x0 : Vec F S10000x128 .f32) (x1 : Vec F S1x128 .f32) (x2 : Vec F S1x128 .f32) (x3 : Vec F S1x128 .f32) (x4 : Vec F S1x128 .f32) (xo6 xo7 : Vec F S1x128 .f32) :
    out18_B_5 c i a1 h1 a2 h2 a3 h3 a4 h4 a5 h5 a6 h6 a7 h7 a8 h8 hc x0 x1 x2 x3 x4 xo6 xo7 = k18_pay4 x0 x2 x3 x1 x4 := by
  unfold out18_B_5
  rw [View.read_writes_eq_canon _ _ _ (cover18_B_5 c i a1 h1 a2 h2 a3 h3 a4 h4 a5 h5 a6 h6 a7 h7 a8 h8 hc x0 x1 x2 x3 x4 xo6 xo7)]
  unfold kernelRun18_B
  dsimp only
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_B_6 (c : Dev nD) (i : grid18.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond18_0 i)
    (x0 : Vec F S10000x128 .f32) (x1 : Vec F S1x128 .f32) (x2 : Vec F S1x128 .f32) (x3 : Vec F S1x128 .f32) (x4 : Vec F S1x128 .f32) (xo6 xo7 : Vec F S1x128 .f32) :
    out18_B_6 c i a1 h1 a2 h2 a3 h3 a4 h4 a5 h5 a6 h6 a7 h7 a8 h8 hc x0 x1 x2 x3 x4 xo6 xo7 = k18_pay5 x0 x2 x3 x1 x4 xo6 := by
  unfold out18_B_6
  rw [View.read_writes_eq_canon _ _ _ (cover18_B_6 c i a1 h1 a2 h2 a3 h3 a4 h4 a5 h5 a6 h6 a7 h7 a8 h8 hc x0 x1 x2 x3 x4 xo6 xo7)]
  unfold kernelRun18_B
  dsimp only
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

theorem out_B_7 (c : Dev nD) (i : grid18.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S10000x128 .f32) (h6 : a6.IsWhole) (a7 : Memref sig .tc .vmem S1x128 .f32) (h7 : a7.IsWhole) (a8 : Memref sig .tc .vmem S1x128 .f32) (h8 : a8.IsWhole) (hc : ¬cond18_0 i)
    (x0 : Vec F S10000x128 .f32) (x1 : Vec F S1x128 .f32) (x2 : Vec F S1x128 .f32) (x3 : Vec F S1x128 .f32) (x4 : Vec F S1x128 .f32) (xo6 xo7 : Vec F S1x128 .f32) :
    out18_B_7 c i a1 h1 a2 h2 a3 h3 a4 h4 a5 h5 a6 h6 a7 h7 a8 h8 hc x0 x1 x2 x3 x4 xo6 xo7 = k18_pay1 (k18_pay4 x0 x2 x3 x1 x4) xo7 := by
  unfold out18_B_7
  rw [View.read_writes_eq_canon _ _ _ (cover18_B_7 c i a1 h1 a2 h2 a3 h3 a4 h4 a5 h5 a6 h6 a7 h7 a8 h8 hc x0 x1 x2 x3 x4 xo6 xo7)]
  unfold kernelRun18_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S10000x128) hz, View.ld_unit_zero (S := S1x128) hz]

/-- The first running row after point n. -/
def acc6 (c : Dev nD) : (n : ℕ) → n < cfg18.N → Vec F S1x128 .f32
  | 0, h => k18_pay5 (iblk18 V c 0 ⟨0, h⟩) (iblk18 V c 2 ⟨0, h⟩) (iblk18 V c 3 ⟨0, h⟩) (iblk18 V c 1 ⟨0, h⟩) (iblk18 V c 4 ⟨0, h⟩) k18_pay2
  | n + 1, h => k18_pay5 (iblk18 V c 0 ⟨n + 1, h⟩) (iblk18 V c 2 ⟨n + 1, h⟩) (iblk18 V c 3 ⟨n + 1, h⟩) (iblk18 V c 1 ⟨n + 1, h⟩) (iblk18 V c 4 ⟨n + 1, h⟩) (acc6 c n (Nat.lt_of_succ_lt h))

/-- The second running row after point n. -/
def acc7 (c : Dev nD) : (n : ℕ) → n < cfg18.N → Vec F S1x128 .f32
  | 0, h => k18_pay1 (k18_pay4 (iblk18 V c 0 ⟨0, h⟩) (iblk18 V c 2 ⟨0, h⟩) (iblk18 V c 3 ⟨0, h⟩) (iblk18 V c 1 ⟨0, h⟩) (iblk18 V c 4 ⟨0, h⟩)) k18_pay3
  | n + 1, h => k18_pay1 (k18_pay4 (iblk18 V c 0 ⟨n + 1, h⟩) (iblk18 V c 2 ⟨n + 1, h⟩) (iblk18 V c 3 ⟨n + 1, h⟩) (iblk18 V c 1 ⟨n + 1, h⟩) (iblk18 V c 4 ⟨n + 1, h⟩)) (acc7 c n (Nat.lt_of_succ_lt h))

/-- After point n the three output buffers hold the tile's result and the two running rows. By induction on the point. -/
theorem outsAt_eq (c : Dev nD) : ∀ (n : ℕ) (h : n < cfg18.N),
    outsAt18 V c n h = (k18_pay4 (iblk18 V c 0 ⟨n, h⟩) (iblk18 V c 2 ⟨n, h⟩) (iblk18 V c 3 ⟨n, h⟩) (iblk18 V c 1 ⟨n, h⟩) (iblk18 V c 4 ⟨n, h⟩), acc6 V c n h, acc7 V c n h)
  | 0, h => (outsAt18_A V c ⟨0, h⟩ rfl).trans (by
      rw [out_A_5, out_A_6, out_A_7]
      rfl)
  | n + 1, h => by
    have hN : cfg18.N = 5 := N_18
    have hB : ¬(⟨n + 1, h⟩ : Fin cfg18.N).val % 5 = 0 := by dsimp only; omega
    rw [outsAt18_B V c ⟨n + 1, h⟩ hB, out_B_5, out_B_6, out_B_7]
    show (k18_pay4 _ _ _ _ _, k18_pay5 _ _ _ _ _ (outsAt18 V c n _).2.1, k18_pay1 (k18_pay4 _ _ _ _ _) (outsAt18 V c n _).2.2)
      = (k18_pay4 _ _ _ _ _, k18_pay5 _ _ _ _ _ (acc6 V c n _), k18_pay1 (k18_pay4 _ _ _ _ _) (acc7 V c n _))
    rw [outsAt_eq c n]

end Cert.KernelIdeal.R18
-- ==== Proof.R19Value.lean ====
/- Region 3 of the idealized kernel program: the fourth kernel of layer 5 of the five, read as one function of the arrays
   it finds.

   The kernel's grid has five points; point t loads rows 10000·t … 10000·t + 9999 of the 50000 × 128 source and the
   four 1 × 128 rows (mean, variance, scale, shift), whole at every point, and stores one 10000 × 128 tile: entry
   (q, k) is `max (scale(k) · (x(q,k) − mean(k)) · rsqrt (variance(k) + ε) + shift(k)) 0`. The single store covers the
   staging buffer, so what the body leaves there is its payload (`out_eq`). Tile t is written back to rows
   10000·t … of the output, and every row r of the output belongs to tile r / 10000, so after the five points the
   output array is the normalise-scale-shift-rectify function of the whole source and the four rows, entry by entry
   (`final5`): an entry of a tile reads the source at the same row of the whole array and each statistics row at the
   same column. The five input arrays are left as found (`arr_in`). -/
import proofs.«113410_j5944234737805_1_alg».proof.Proof.Gen.KernelIdeal.Frame
import proofs.«113410_j5944234737805_1_alg».proof.Proof.KPay1_L4
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R19

open Cert.KernelIdeal Cert.KernelIdeal.Gen Idealize.ShloMosaic.ValueIdx

theorem hz : (![0, 0] : Fin 2 → Nat) = fun _ => 0 := funext fun a => by fin_cases a <;> rfl

section AnyValues

variable {F : FTy → Type} [FloatOps F]
variable (V : (c : Dev nD) → (b : Ref sig .tc) → Buf (Elt F) ((c : Thread nD τ).loc b))

/-- The body's one store covers the staging buffer, so the buffer ends holding the store's payload of the loaded
    blocks. -/
theorem out_eq (x0 : Vec F S10000x128 .f32) (x1 x2 x3 x4 : Vec F S1x128 .f32) :
    out19_5 x0 x1 x2 x3 x4 = k19_pay1 x0 x2 x3 x1 x4 := by
  unfold out19_5
  rw [View.canon_unit_zero hz]
  simp only [View.ld_unit_zero (S := S10000x128) hz, View.ld_unit_zero (S := S1x128) hz]

/-- The input windows' arrays end as the region found them. -/
theorem arr_in (c : Dev nD) (w : Fin cfg19.W) (hin : (cfg19.win w).isOut = false) :
    (dat19 V c).arrAt w cfg19.N = V c (Pipeline.arrRef spec19 w) :=
  ((dat19 V c).arrAt_in w hin _).trans (A_eq19 V c w)

theorem arr_in0 (c : Dev nD) : (dat19 V c).arrAt 0 cfg19.N = V c (Pipeline.arrRef spec19 0) := arr_in V c 0 rfl
theorem arr_in1 (c : Dev nD) : (dat19 V c).arrAt 1 cfg19.N = V c (Pipeline.arrRef spec19 1) := arr_in V c 1 rfl
theorem arr_in2 (c : Dev nD) : (dat19 V c).arrAt 2 cfg19.N = V c (Pipeline.arrRef spec19 2) := arr_in V c 2 rfl
theorem arr_in3 (c : Dev nD) : (dat19 V c).arrAt 3 cfg19.N = V c (Pipeline.arrRef spec19 3) := arr_in V c 3 rfl
theorem arr_in4 (c : Dev nD) : (dat19 V c).arrAt 4 cfg19.N = V c (Pipeline.arrRef spec19 4) := arr_in V c 4 rfl

end AnyValues

/-- The printed index maps over the five points: the source tile moves with the output tile, which is tile `t`; every
    row window sits at block (0, 0). -/
theorem idx_facts : ∀ t : Fin cfg19.N, win19_0.index t (0 : Fin 2) = win19_5.index t (0 : Fin 2)
    ∧ win19_0.index t (1 : Fin 2) = 0 ∧ win19_5.index t (1 : Fin 2) = 0 ∧ win19_5.index t (0 : Fin 2) = t.val
    ∧ win19_1.index t (0 : Fin 2) = 0 ∧ win19_1.index t (1 : Fin 2) = 0
    ∧ win19_2.index t (0 : Fin 2) = 0 ∧ win19_2.index t (1 : Fin 2) = 0
    ∧ win19_3.index t (0 : Fin 2) = 0 ∧ win19_3.index t (1 : Fin 2) = 0
    ∧ win19_4.index t (0 : Fin 2) = 0 ∧ win19_4.index t (1 : Fin 2) = 0 :=
  (by decide +kernel : ∀ t : Fin grid19.N, _)

/-- Normalise-scale-shift-rectify at an entry depends on the data at that entry and on the four rows at its column. -/
theorem normRelu_congr {N N' D : Nat} (e z : EReal) (x : BatchNormSpec.Mat N D) (x' : BatchNormSpec.Mat N' D)
    (μ v g b μ' v' g' b' : Fin D → EReal) (i : (⟨2, ![N, D]⟩ : Shape).Idx) (i' : (⟨2, ![N', D]⟩ : Shape).Idx)
    (hx : x i = x' i') (hμ : μ (i 1) = μ' (i' 1)) (hv : v (i 1) = v' (i' 1)) (hg : g (i 1) = g' (i' 1))
    (hb : b (i 1) = b' (i' 1)) :
    BatchNormSpec.normRelu e z x μ v g b i = BatchNormSpec.normRelu e z x' μ' v' g' b' i' := by
  unfold BatchNormSpec.normRelu
  rw [hx, hμ, hv, hg, hb]

section Exact

variable (V : (c : Dev nD) → (b : Ref sig .tc) → Buf (Elt Ideal) ((c : Thread nD τ).loc b))

/-- What the output array ends holding: the normalised, scaled, shifted and rectified source, with the four rows. -/
abbrev G (c : Dev nD) : BatchNormSpec.Mat 50000 128 :=
  BatchNormSpec.normRelu (Ideal.ofBits .f32 0x3727C5AC#32) (Ideal.ofBits .f32 0x00000000#32) (V c main_v297_0)
    (KPay.rowAt (V c main_v299)) (KPay.rowAt (V c main_v303)) (KPay.rowAt (V c main_v275)) (KPay.rowAt (V c main_v278))

/-- What point `t` writes back is tile `t` of that function. -/
theorem flushed5_eq (c : Dev nD) (t : Fin cfg19.N) :
    (dat19 V c).flushed 5 t = ((cfg19.win 5).blk t).view.read (Elt Ideal) (G V c) := by
  show (cfg19.win 5).cut (grid19.coords t) ((dat19 V c).after 5 t) = _
  rw [after19_5, out_eq, KPayL4.k3pay1_eq]
  obtain ⟨f0, f1, f5, ft, a10, a11, a20, a21, a30, a31, a40, a41⟩ := idx_facts t
  funext j
  show KPay.normTile (iblk19 V c 0 t) (iblk19 V c 1 t) (iblk19 V c 2 t) (iblk19 V c 3 t) (iblk19 V c 4 t) j
    = G V c (((cfg19.win 5).blk t).view.emb j)
  refine normRelu_congr _ _ _ _ _ _ _ _ _ _ _ _ j (((cfg19.win 5).blk t).view.emb j) ?_ ?_ ?_ ?_ ?_
  · show V c main_v297_0 (((cfg19.win 0).blk t).view.emb j) = V c main_v297_0 (((cfg19.win 5).blk t).view.emb j)
    refine congrArg _ (funext fun a => Fin.ext ?_)
    match a with
    | ⟨0, _⟩ =>
      show win19_0.index t (0 : Fin 2) * 10000 + 1 * (j 0).val = win19_5.index t (0 : Fin 2) * 10000 + 1 * (j 0).val
      omega
    | ⟨1, _⟩ =>
      show win19_0.index t (1 : Fin 2) * 128 + 1 * (j 1).val = win19_5.index t (1 : Fin 2) * 128 + 1 * (j 1).val
      omega
  · show V c main_v299 (((cfg19.win 1).blk t).view.emb (ix2 (0 : Fin 1) (j 1)))
      = V c main_v299 (ix2 (0 : Fin 1) ((((cfg19.win 5).blk t).view.emb j) 1))
    refine congrArg _ (funext fun a => Fin.ext ?_)
    match a with
    | ⟨0, _⟩ => show win19_1.index t (0 : Fin 2) * 1 + 1 * 0 = 0; omega
    | ⟨1, _⟩ =>
      show win19_1.index t (1 : Fin 2) * 128 + 1 * (j 1).val = win19_5.index t (1 : Fin 2) * 128 + 1 * (j 1).val
      omega
  · show V c main_v303 (((cfg19.win 2).blk t).view.emb (ix2 (0 : Fin 1) (j 1)))
      = V c main_v303 (ix2 (0 : Fin 1) ((((cfg19.win 5).blk t).view.emb j) 1))
    refine congrArg _ (funext fun a => Fin.ext ?_)
    match a with
    | ⟨0, _⟩ => show win19_2.index t (0 : Fin 2) * 1 + 1 * 0 = 0; omega
    | ⟨1, _⟩ =>
      show win19_2.index t (1 : Fin 2) * 128 + 1 * (j 1).val = win19_5.index t (1 : Fin 2) * 128 + 1 * (j 1).val
      omega
  · show V c main_v275 (((cfg19.win 3).blk t).view.emb (ix2 (0 : Fin 1) (j 1)))
      = V c main_v275 (ix2 (0 : Fin 1) ((((cfg19.win 5).blk t).view.emb j) 1))
    refine congrArg _ (funext fun a => Fin.ext ?_)
    match a with
    | ⟨0, _⟩ => show win19_3.index t (0 : Fin 2) * 1 + 1 * 0 = 0; omega
    | ⟨1, _⟩ =>
      show win19_3.index t (1 : Fin 2) * 128 + 1 * (j 1).val = win19_5.index t (1 : Fin 2) * 128 + 1 * (j 1).val
      omega
  · show V c main_v278 (((cfg19.win 4).blk t).view.emb (ix2 (0 : Fin 1) (j 1)))
      = V c main_v278 (ix2 (0 : Fin 1) ((((cfg19.win 5).blk t).view.emb j) 1))
    refine congrArg _ (funext fun a => Fin.ext ?_)
    match a with
    | ⟨0, _⟩ => show win19_4.index t (0 : Fin 2) * 1 + 1 * 0 = 0; omega
    | ⟨1, _⟩ =>
      show win19_4.index t (1 : Fin 2) * 128 + 1 * (j 1).val = win19_5.index t (1 : Fin 2) * 128 + 1 * (j 1).val
      omega

/-- An index of the output array is in point `t`'s tile iff each coordinate is in the tile's range on its axis. -/
theorem mem_blk5 (t : Fin cfg19.N) (i : S50000x128.Idx) :
    i ∈ ((cfg19.win 5).blk t).view.set ↔ ∀ a : Fin 2, win19_5.index t a * S10000x128.size a ≤ (i a).val
      ∧ (i a).val < win19_5.index t a * S10000x128.size a + S10000x128.size a := by
  show i ∈ ((View.whole main_v304).slice (win19_5.rect t)).set ↔ _
  rw [View.set_slice_whole, Rect.mem_set_unit]
  exact Iff.rfl

/-- Every entry of the output array is in some point's tile: row `r` is in tile `r / 10000`. -/
theorem cover5 (i : S50000x128.Idx) :
    ∃ t : Fin cfg19.N, (cfg19.win 5).flush t = true ∧ i ∈ ((cfg19.win 5).blk t).view.set := by
  have hi0 : (i 0).val < 50000 := (i 0).isLt
  have hi1 : (i 1).val < 128 := (i 1).isLt
  have hN : grid19.N = 5 := N_19
  let t : Fin cfg19.N := ⟨(i 0).val / 10000, by show (i 0).val / 10000 < grid19.N; omega⟩
  obtain ⟨f0, f1, f5, ft, -⟩ := idx_facts t
  have htv : t.val = (i 0).val / 10000 := rfl
  refine ⟨t, flush19_5 t, ?_⟩
  rw [mem_blk5]
  intro a
  match a with
  | ⟨0, _⟩ =>
    show win19_5.index t (0 : Fin 2) * 10000 ≤ (i 0).val ∧ (i 0).val < win19_5.index t (0 : Fin 2) * 10000 + 10000
    omega
  | ⟨1, _⟩ =>
    show win19_5.index t (1 : Fin 2) * 128 ≤ (i 1).val ∧ (i 1).val < win19_5.index t (1 : Fin 2) * 128 + 128
    omega

/-- THE OUTPUT ARRAY after the region: the normalised, scaled, shifted and rectified source, entry by entry. -/
theorem final5 (c : Dev nD) : (dat19 V c).arrAt 5 cfg19.N = G V c :=
  (dat19 V c).arrAt_eq_of_cover 5 (G V c) (fun t _ => flushed5_eq V c t) (cover5)

end Exact

end Cert.KernelIdeal.R19

end
-- ==== Proof.R18Array.lean ====
/- The third kernel of layer 5 of the five: what its three output arrays hold when the region ends, at the exact values.

   The grid has five points; point t reads rows 10000·t … 10000·t + 9999 of the source and the four statistics rows,
   whole at every point, and writes back the same rows of the first output. An entry of a tile's result depends on the
   source at that entry and on the rows at its column, so tile t's result is rows 10000·t … of the normalise-scale-
   shift-rectify function of the whole source; the tiles cover the array, which therefore ends holding that function.
   The two running rows are written back once, after the last point, as they stand then: tile by tile they started from
   the zero row and added each tile's column sums (of the result, and of its squares), and a sum over the 50000 rows is
   the sum over the five tiles of the tiles' sums, so they end at the column sums and the column sums of squares of the
   whole result. -/
import proofs.«113410_j5944234737805_1_alg».proof.Proof.R18Value
import proofs.«113410_j5944234737805_1_alg».proof.Proof.R19Value
import proofs.«113410_j5944234737805_1_alg».proof.Proof.KPay1_L4
import proofs.«113410_j5944234737805_1_alg».proof.Proof.GinTiles
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.R18

open Cert.KernelIdeal Cert.KernelIdeal.Gen

variable (V : (c : Dev nD) → (b : Ref sig .tc) → Buf (Elt Ideal) ((c : Thread nD τ).loc b))

/-- The block indices of the eight windows at each grid point: the two tile windows move with the point, the rows stay. -/
theorem idx_facts : ∀ t : Fin cfg18.N,
    win18_0.index t (0 : Fin 2) = t.val ∧ win18_0.index t (1 : Fin 2) = 0
    ∧ win18_1.index t (0 : Fin 2) = 0 ∧ win18_1.index t (1 : Fin 2) = 0
    ∧ win18_2.index t (0 : Fin 2) = 0 ∧ win18_2.index t (1 : Fin 2) = 0
    ∧ win18_3.index t (0 : Fin 2) = 0 ∧ win18_3.index t (1 : Fin 2) = 0
    ∧ win18_4.index t (0 : Fin 2) = 0 ∧ win18_4.index t (1 : Fin 2) = 0
    ∧ win18_5.index t (0 : Fin 2) = t.val ∧ win18_5.index t (1 : Fin 2) = 0
    ∧ win18_6.index t (0 : Fin 2) = 0 ∧ win18_6.index t (1 : Fin 2) = 0
    ∧ win18_7.index t (0 : Fin 2) = 0 ∧ win18_7.index t (1 : Fin 2) = 0 :=
  (by decide +kernel : ∀ t : Fin grid18.N, _)

/-- Row q of the tile of point t. -/
abbrev rowK (t : Fin cfg18.N) (q : Fin 10000) : Fin 50000 :=
  ⟨10000 * t.val + q.val, by have := t.isLt; have hN : cfg18.N = 5 := N_18; have := q.isLt; omega⟩

/-- The source tile of point t, read through its window, is rows 10000·t + q of the source array. -/
theorem tile_apply (c : Dev nD) (t : Fin cfg18.N) (q : Fin 10000) (k : Fin 128) :
    iblk18 V c 0 t (ix2 q k) = V c main_v290_0 (ix2 (rowK t q) k) := by
  obtain ⟨e0, e1, -⟩ := idx_facts t
  unfold iblk18
  rw [View.read_apply]
  show V c main_v290_0 _ = V c main_v290_0 _
  congr 1
  funext a
  apply Fin.ext
  match a with
  | ⟨0, _⟩ => show win18_0.index t (0 : Fin 2) * 10000 + 1 * q.val = 10000 * t.val + q.val; rw [e0]; omega
  | ⟨1, _⟩ => show win18_0.index t (1 : Fin 2) * 128 + 1 * k.val = k.val; rw [e1]; omega

/-- Window 1's block at every point is its whole row. -/
theorem row_blk1 (c : Dev nD) (t : Fin cfg18.N) : iblk18 V c 1 t = V c main_v292 := by
  obtain ⟨-, -, e10, e11, e20, e21, e30, e31, e40, e41, -⟩ := idx_facts t
  funext j
  unfold iblk18
  rw [View.read_apply]
  show V c main_v292 _ = V c main_v292 j
  congr 1
  funext a
  apply Fin.ext
  match a with
  | ⟨0, _⟩ => show win18_1.index t (0 : Fin 2) * 1 + 1 * (j 0).val = (j 0).val; rw [e10]; omega
  | ⟨1, _⟩ => show win18_1.index t (1 : Fin 2) * 128 + 1 * (j 1).val = (j 1).val; rw [e11]; omega

/-- Window 2's block at every point is its whole row. -/
theorem row_blk2 (c : Dev nD) (t : Fin cfg18.N) : iblk18 V c 2 t = V c main_v296 := by
  obtain ⟨-, -, e10, e11, e20, e21, e30, e31, e40, e41, -⟩ := idx_facts t
  funext j
  unfold iblk18
  rw [View.read_apply]
  show V c main_v296 _ = V c main_v296 j
  congr 1
  funext a
  apply Fin.ext
  match a with
  | ⟨0, _⟩ => show win18_2.index t (0 : Fin 2) * 1 + 1 * (j 0).val = (j 0).val; rw [e20]; omega
  | ⟨1, _⟩ => show win18_2.index t (1 : Fin 2) * 128 + 1 * (j 1).val = (j 1).val; rw [e21]; omega

/-- Window 3's block at every point is its whole row. -/
theorem row_blk3 (c : Dev nD) (t : Fin cfg18.N) : iblk18 V c 3 t = V c main_v269 := by
  obtain ⟨-, -, e10, e11, e20, e21, e30, e31, e40, e41, -⟩ := idx_facts t
  funext j
  unfold iblk18
  rw [View.read_apply]
  show V c main_v269 _ = V c main_v269 j
  congr 1
  funext a
  apply Fin.ext
  match a with
  | ⟨0, _⟩ => show win18_3.index t (0 : Fin 2) * 1 + 1 * (j 0).val = (j 0).val; rw [e30]; omega
  | ⟨1, _⟩ => show win18_3.index t (1 : Fin 2) * 128 + 1 * (j 1).val = (j 1).val; rw [e31]; omega

/-- Window 4's block at every point is its whole row. -/
theorem row_blk4 (c : Dev nD) (t : Fin cfg18.N) : iblk18 V c 4 t = V c main_v272 := by
  obtain ⟨-, -, e10, e11, e20, e21, e30, e31, e40, e41, -⟩ := idx_facts t
  funext j
  unfold iblk18
  rw [View.read_apply]
  show V c main_v272 _ = V c main_v272 j
  congr 1
  funext a
  apply Fin.ext
  match a with
  | ⟨0, _⟩ => show win18_4.index t (0 : Fin 2) * 1 + 1 * (j 0).val = (j 0).val; rw [e40]; omega
  | ⟨1, _⟩ => show win18_4.index t (1 : Fin 2) * 128 + 1 * (j 1).val = (j 1).val; rw [e41]; omega

/-- What the first output array ends holding: the normalised, scaled, shifted and rectified source. -/
abbrev A2 (c : Dev nD) : BatchNormSpec.Mat 50000 128 :=
  BatchNormSpec.normRelu (Ideal.ofBits .f32 0x3727C5AC#32) (Ideal.ofBits .f32 0x00000000#32) (V c main_v290_0)
    (KPay.rowAt (V c main_v292)) (KPay.rowAt (V c main_v296)) (KPay.rowAt (V c main_v269)) (KPay.rowAt (V c main_v272))

/-- The result on a tile is the matching rows of the result on the whole source. -/
theorem tile_norm (c : Dev nD) (t : Fin cfg18.N) (q : Fin 10000) (k : Fin 128) :
    KPay.normTile (iblk18 V c 0 t) (iblk18 V c 1 t) (iblk18 V c 2 t) (iblk18 V c 3 t) (iblk18 V c 4 t) (ix2 q k)
      = A2 V c (ix2 (rowK t q) k) := by
  rw [row_blk1, row_blk2, row_blk3, row_blk4]
  exact R19.normRelu_congr _ _ _ _ _ _ _ _ _ _ _ _ (ix2 q k) (ix2 (rowK t q) k) (tile_apply V c t q k) rfl rfl rfl rfl

/-- What point t writes back to the first output is rows 10000·t … of that function. -/
theorem flushed5_eq (c : Dev nD) (t : Fin cfg18.N) :
    (dat18 V c).flushed 5 t = ((cfg18.win 5).blk t).view.read (Elt Ideal) (A2 V c) := by
  obtain ⟨-, -, -, -, -, -, -, -, -, -, e50, e51, -⟩ := idx_facts t
  show (cfg18.win 5).cut (grid18.coords t) ((dat18 V c).after 5 t) = _
  rw [after18_5, outsAt_eq V c t.val t.isLt]
  funext j
  obtain ⟨q, k, rfl⟩ : ∃ (q : Fin 10000) (k : Fin 128), j = ix2 q k := ⟨j 0, j 1, eq_ix2 j⟩
  show k18_pay4 (iblk18 V c 0 t) (iblk18 V c 2 t) (iblk18 V c 3 t) (iblk18 V c 1 t) (iblk18 V c 4 t) (ix2 q k) = A2 V c (((cfg18.win 5).blk t).view.emb (ix2 q k))
  rw [KPayL4.k2pay4_eq]
  have hemb : ((cfg18.win 5).blk t).view.emb (ix2 q k) = ix2 (rowK t q) k := by
    funext a
    apply Fin.ext
    match a with
    | ⟨0, _⟩ => show win18_5.index t (0 : Fin 2) * 10000 + 1 * q.val = 10000 * t.val + q.val; rw [e50]; omega
    | ⟨1, _⟩ => show win18_5.index t (1 : Fin 2) * 128 + 1 * k.val = k.val; rw [e51]; omega
  rw [hemb]
  exact tile_norm V c t q k

/-- An index of the first output array is in point t's block iff each coordinate is in the block's range. -/
theorem mem_blk5 (t : Fin cfg18.N) (i : S50000x128.Idx) :
    i ∈ ((cfg18.win 5).blk t).view.set ↔ ∀ a : Fin 2, win18_5.index t a * S10000x128.size a ≤ (i a).val
      ∧ (i a).val < win18_5.index t a * S10000x128.size a + S10000x128.size a := by
  show i ∈ ((View.whole main_v297_0).slice (win18_5.rect t)).set ↔ _
  rw [View.set_slice_whole, Rect.mem_set_unit]
  exact Iff.rfl

/-- The first output array when the region ends. -/
theorem final5 (c : Dev nD) : (dat18 V c).arrAt 5 cfg18.N = A2 V c :=
  (dat18 V c).arrAt_eq_of_cover 5 (A2 V c) (fun t _ => flushed5_eq V c t) fun i => by
    have hi0 : (i 0).val < 50000 := (i 0).isLt
    have hi1 : (i 1).val < 128 := (i 1).isLt
    have hN : cfg18.N = 5 := N_18
    obtain ⟨-, -, -, -, -, -, -, -, -, -, e50, e51, -⟩ := idx_facts ⟨(i 0).val / 10000, by omega⟩
    refine ⟨⟨(i 0).val / 10000, by omega⟩, flush18_5 _, ?_⟩
    rw [mem_blk5]
    intro a
    match a with
    | ⟨0, _⟩ =>
      show win18_5.index ⟨(i 0).val / 10000, _⟩ (0 : Fin 2) * 10000 ≤ (i 0).val
        ∧ (i 0).val < win18_5.index ⟨(i 0).val / 10000, _⟩ (0 : Fin 2) * 10000 + 10000
      rw [e50]; dsimp only; omega
    | ⟨1, _⟩ =>
      show win18_5.index ⟨(i 0).val / 10000, _⟩ (1 : Fin 2) * 128 ≤ (i 1).val
        ∧ (i 1).val < win18_5.index ⟨(i 0).val / 10000, _⟩ (1 : Fin 2) * 128 + 128
      rw [e51]; omega

/-! ## The two running rows -/

/-- The last grid point. -/
abbrev tLast : Fin cfg18.N := ⟨4, by rw [show cfg18.N = 5 from N_18]; decide⟩

/-- Point 4 is a point of the grid. -/
theorem h4 : 4 < cfg18.N := tLast.isLt

/-- An index of running row 6's array is in point t's block iff each coordinate is in the block's range. -/
theorem mem_blk6 (t : Fin cfg18.N) (i : S1x128.Idx) :
    i ∈ ((cfg18.win 6).blk t).view.set ↔ ∀ a : Fin 2, win18_6.index t a * S1x128.size a ≤ (i a).val
      ∧ (i a).val < win18_6.index t a * S1x128.size a + S1x128.size a := by
  show i ∈ ((View.whole main_v297_1).slice (win18_6.rect t)).set ↔ _
  rw [View.set_slice_whole, Rect.mem_set_unit]
  exact Iff.rfl

/-- The one write-back of running row 6, after the last point, writes the row as it stands after point 4. -/
theorem flushed6_eq (c : Dev nD) (t : Fin cfg18.N) (hf : (cfg18.win 6).flush t = true) :
    (dat18 V c).flushed 6 t = ((cfg18.win 6).blk t).view.read (Elt Ideal) (acc6 V c 4 h4) := by
  have hN : cfg18.N = 5 := N_18
  have ht : t.val = 4 := by have := (flush18_6 t).mp hf; have := t.isLt; omega
  obtain rfl : t = tLast := Fin.ext ht
  obtain ⟨-, -, -, -, -, -, -, -, -, -, -, -, e60, e61, e70, e71⟩ := idx_facts tLast
  show (cfg18.win 6).cut (grid18.coords tLast) ((dat18 V c).after 6 tLast) = _
  rw [after18_6, outsAt_eq V c tLast.val tLast.isLt]
  funext j
  show acc6 V c 4 _ j = acc6 V c 4 _ (((cfg18.win 6).blk tLast).view.emb j)
  congr 1
  funext a
  apply Fin.ext
  match a with
  | ⟨0, _⟩ => show (j 0).val = win18_6.index tLast (0 : Fin 2) * 1 + 1 * (j 0).val; rw [e60]; omega
  | ⟨1, _⟩ => show (j 1).val = win18_6.index tLast (1 : Fin 2) * 128 + 1 * (j 1).val; rw [e61]; omega

/-- Running row 6's array when the region ends. -/
theorem final6 (c : Dev nD) : (dat18 V c).arrAt 6 cfg18.N = acc6 V c 4 h4 :=
  (dat18 V c).arrAt_eq_of_cover 6 (acc6 V c 4 h4) (flushed6_eq V c) fun i => by
    have hi0 : (i 0).val < 1 := (i 0).isLt
    have hi1 : (i 1).val < 128 := (i 1).isLt
    obtain ⟨-, -, -, -, -, -, -, -, -, -, -, -, e60, e61, e70, e71⟩ := idx_facts tLast
    refine ⟨tLast, (flush18_6 tLast).mpr rfl, ?_⟩
    rw [mem_blk6]
    intro a
    match a with
    | ⟨0, _⟩ =>
      show win18_6.index tLast (0 : Fin 2) * 1 ≤ (i 0).val ∧ (i 0).val < win18_6.index tLast (0 : Fin 2) * 1 + 1
      rw [e60]; omega
    | ⟨1, _⟩ =>
      show win18_6.index tLast (1 : Fin 2) * 128 ≤ (i 1).val ∧ (i 1).val < win18_6.index tLast (1 : Fin 2) * 128 + 128
      rw [e61]; omega

/-- An index of running row 7's array is in point t's block iff each coordinate is in the block's range. -/
theorem mem_blk7 (t : Fin cfg18.N) (i : S1x128.Idx) :
    i ∈ ((cfg18.win 7).blk t).view.set ↔ ∀ a : Fin 2, win18_7.index t a * S1x128.size a ≤ (i a).val
      ∧ (i a).val < win18_7.index t a * S1x128.size a + S1x128.size a := by
  show i ∈ ((View.whole main_v297_2).slice (win18_7.rect t)).set ↔ _
  rw [View.set_slice_whole, Rect.mem_set_unit]
  exact Iff.rfl

/-- The one write-back of running row 7, after the last point, writes the row as it stands after point 4. -/
theorem flushed7_eq (c : Dev nD) (t : Fin cfg18.N) (hf : (cfg18.win 7).flush t = true) :
    (dat18 V c).flushed 7 t = ((cfg18.win 7).blk t).view.read (Elt Ideal) (acc7 V c 4 h4) := by
  have hN : cfg18.N = 5 := N_18
  have ht : t.val = 4 := by have := (flush18_7 t).mp hf; have := t.isLt; omega
  obtain rfl : t = tLast := Fin.ext ht
  obtain ⟨-, -, -, -, -, -, -, -, -, -, -, -, e60, e61, e70, e71⟩ := idx_facts tLast
  show (cfg18.win 7).cut (grid18.coords tLast) ((dat18 V c).after 7 tLast) = _
  rw [after18_7, outsAt_eq V c tLast.val tLast.isLt]
  funext j
  show acc7 V c 4 _ j = acc7 V c 4 _ (((cfg18.win 7).blk tLast).view.emb j)
  congr 1
  funext a
  apply Fin.ext
  match a with
  | ⟨0, _⟩ => show (j 0).val = win18_7.index tLast (0 : Fin 2) * 1 + 1 * (j 0).val; rw [e70]; omega
  | ⟨1, _⟩ => show (j 1).val = win18_7.index tLast (1 : Fin 2) * 128 + 1 * (j 1).val; rw [e71]; omega

/-- Running row 7's array when the region ends. -/
theorem final7 (c : Dev nD) : (dat18 V c).arrAt 7 cfg18.N = acc7 V c 4 h4 :=
  (dat18 V c).arrAt_eq_of_cover 7 (acc7 V c 4 h4) (flushed7_eq V c) fun i => by
    have hi0 : (i 0).val < 1 := (i 0).isLt
    have hi1 : (i 1).val < 128 := (i 1).isLt
    obtain ⟨-, -, -, -, -, -, -, -, -, -, -, -, e60, e61, e70, e71⟩ := idx_facts tLast
    refine ⟨tLast, (flush18_7 tLast).mpr rfl, ?_⟩
    rw [mem_blk7]
    intro a
    match a with
    | ⟨0, _⟩ =>
      show win18_7.index tLast (0 : Fin 2) * 1 ≤ (i 0).val ∧ (i 0).val < win18_7.index tLast (0 : Fin 2) * 1 + 1
      rw [e70]; omega
    | ⟨1, _⟩ =>
      show win18_7.index tLast (1 : Fin 2) * 128 ≤ (i 1).val ∧ (i 1).val < win18_7.index tLast (1 : Fin 2) * 128 + 128
      rw [e71]; omega

/-! ## The running rows are the column sums -/

/-- Running row 6 at column cc, as a sequence in the point (zero past the last point). -/
def A6 (c : Dev nD) (cc : Fin 128) (n : ℕ) : EReal :=
  if h : n < cfg18.N then acc6 V c n h (ix2 (0 : Fin 1) cc) else 0

/-- After the last point, running row 6 holds the column sums of the whole result. -/
theorem acc6_eq (c : Dev nD) (cc : Fin 128) :
    acc6 V c 4 h4 (ix2 (0 : Fin 1) cc) = BatchNormSpec.colSum (A2 V c) cc := by
  have hN : cfg18.N = 5 := N_18
  have key := GinTiles.acc_eq_colSum (A2 V c) cc (A6 V c cc) ?h0 ?hs
  · rw [← key]
    unfold A6
    rw [dif_pos h4]
  case h0 =>
    unfold A6
    rw [dif_pos (by omega : 0 < cfg18.N)]
    refine (KPayL4.k2pay5_apply (iblk18 V c 0 ⟨0, by omega⟩) (iblk18 V c 2 ⟨0, by omega⟩) (iblk18 V c 3 ⟨0, by omega⟩) (iblk18 V c 1 ⟨0, by omega⟩) (iblk18 V c 4 ⟨0, by omega⟩) (k18_pay2 (F := Ideal)) cc).trans ?_
    rw [KPayL4.k2pay2_apply]
    refine congrArg ((0 : EReal) + ·) ?_
    unfold GinTiles.tileSum
    rw [dif_pos (by norm_num : 0 < 5)]
    exact Finset.sum_congr rfl fun q _ => tile_norm V c ⟨0, by omega⟩ q cc
  case hs =>
    intro n hn
    unfold A6
    rw [dif_pos (by omega : n + 1 < cfg18.N), dif_pos (by omega : n < cfg18.N)]
    refine (KPayL4.k2pay5_apply (iblk18 V c 0 ⟨n + 1, by omega⟩) (iblk18 V c 2 ⟨n + 1, by omega⟩) (iblk18 V c 3 ⟨n + 1, by omega⟩) (iblk18 V c 1 ⟨n + 1, by omega⟩) (iblk18 V c 4 ⟨n + 1, by omega⟩) (acc6 V c n (by omega)) cc).trans ?_
    refine congrArg (acc6 V c n (by omega) (ix2 (0 : Fin 1) cc) + ·) ?_
    unfold GinTiles.tileSum
    rw [dif_pos hn]
    exact Finset.sum_congr rfl fun q _ => tile_norm V c ⟨n + 1, by omega⟩ q cc

/-- Running row 7 at column cc, as a sequence in the point (zero past the last point). -/
def A7 (c : Dev nD) (cc : Fin 128) (n : ℕ) : EReal :=
  if h : n < cfg18.N then acc7 V c n h (ix2 (0 : Fin 1) cc) else 0

/-- After the last point, running row 7 holds the column sums of squares of the whole result. -/
theorem acc7_eq (c : Dev nD) (cc : Fin 128) :
    acc7 V c 4 h4 (ix2 (0 : Fin 1) cc) = BatchNormSpec.colSumSq (A2 V c) cc := by
  have hN : cfg18.N = 5 := N_18
  have key := GinTiles.acc_eq_colSumSq (A2 V c) cc (A7 V c cc) ?h0 ?hs
  · rw [← key]
    unfold A7
    rw [dif_pos h4]
  case h0 =>
    unfold A7
    rw [dif_pos (by omega : 0 < cfg18.N)]
    refine (KPayL4.k2pay1_apply (k18_pay4 (iblk18 V c 0 ⟨0, by omega⟩) (iblk18 V c 2 ⟨0, by omega⟩) (iblk18 V c 3 ⟨0, by omega⟩) (iblk18 V c 1 ⟨0, by omega⟩) (iblk18 V c 4 ⟨0, by omega⟩)) (k18_pay3 (F := Ideal)) cc).trans ?_
    rw [KPayL4.k2pay3_apply, KPayL4.k2pay4_eq]
    refine congrArg ((0 : EReal) + ·) ?_
    unfold GinTiles.tileSum
    rw [dif_pos (by norm_num : 0 < 5)]
    exact Finset.sum_congr rfl fun q _ =>
      congrArg₂ (· * ·) (tile_norm V c ⟨0, by omega⟩ q cc) (tile_norm V c ⟨0, by omega⟩ q cc)
  case hs =>
    intro n hn
    unfold A7
    rw [dif_pos (by omega : n + 1 < cfg18.N), dif_pos (by omega : n < cfg18.N)]
    refine (KPayL4.k2pay1_apply (k18_pay4 (iblk18 V c 0 ⟨n + 1, by omega⟩) (iblk18 V c 2 ⟨n + 1, by omega⟩) (iblk18 V c 3 ⟨n + 1, by omega⟩) (iblk18 V c 1 ⟨n + 1, by omega⟩) (iblk18 V c 4 ⟨n + 1, by omega⟩)) (acc7 V c n (by omega)) cc).trans ?_
    rw [KPayL4.k2pay4_eq]
    refine congrArg (acc7 V c n (by omega) (ix2 (0 : Fin 1) cc) + ·) ?_
    unfold GinTiles.tileSum
    rw [dif_pos hn]
    exact Finset.sum_congr rfl fun q _ =>
      congrArg₂ (· * ·) (tile_norm V c ⟨n + 1, by omega⟩ q cc) (tile_norm V c ⟨n + 1, by omega⟩ q cc)

/-- The input windows' arrays end as the region found them. -/
theorem arr_in (c : Dev nD) (w : Fin cfg18.W) (hin : (cfg18.win w).isOut = false) :
    (dat18 V c).arrAt w cfg18.N = V c (Pipeline.arrRef spec18 w) :=
  ((dat18 V c).arrAt_in w hin _).trans (A_eq18 V c w)

theorem arr_in0 (c : Dev nD) : (dat18 V c).arrAt 0 cfg18.N = V c (Pipeline.arrRef spec18 0) := arr_in V c 0 rfl
theorem arr_in1 (c : Dev nD) : (dat18 V c).arrAt 1 cfg18.N = V c (Pipeline.arrRef spec18 1) := arr_in V c 1 rfl
theorem arr_in2 (c : Dev nD) : (dat18 V c).arrAt 2 cfg18.N = V c (Pipeline.arrRef spec18 2) := arr_in V c 2 rfl
theorem arr_in3 (c : Dev nD) : (dat18 V c).arrAt 3 cfg18.N = V c (Pipeline.arrRef spec18 3) := arr_in V c 3 rfl
theorem arr_in4 (c : Dev nD) : (dat18 V c).arrAt 4 cfg18.N = V c (Pipeline.arrRef spec18 4) := arr_in V c 4 rfl

end Cert.KernelIdeal.R18

end
-- ==== Proof.KHost_L4.lean ====
/-
  The host operations between the kernel regions of layer 4, as functions of the buffer contents they start from.
  After each of the first three regions the program divides the region's two accumulated rows (the column sums and the
  column sums of squares) by the row count 50000, giving the column means, and subtracts the squared mean from the mean
  square, giving the column variances in their moment form.
-/
import proofs.«113410_j5944234737805_1_alg».proof.Proof.Gen.KernelIdeal.Launch
import proofs.«113410_j5944234737805_1_alg».proof.Proof.KHostRows
import Idealize.ShloMosaic.Lib.StableHlo.Run
import Idealize.ShloMosaic.Lib.ValueIdx
import proofs.«113410_j5944234737805_1_alg».proof.Proof.LibBatchNorm
import proofs.«113410_j5944234737805_1_alg».proof.Proof.GinConsts

noncomputable section

namespace Cert.KernelIdeal.KHostL4

open Cert.KernelIdeal Cert.KernelIdeal.Gen Idealize.ShloMosaic Idealize.ShloMosaic.TcCoe Idealize.SL.Sem
open Idealize.ShloMosaic.StableHlo
open Cert.KernelIdeal.KHost (Row rowMean rowVar Mat Ix srcIx rst rowL matL)

variable {F : FTy → Type} [FloatOps F]

/-- After region 16: the means of the first dense layer's columns. -/
theorem mean1_eq (W : Valuation τ sig (Elt F)) :
    after hostOps17 W (Proc.devRef .tc main_v283) = rowMean (W (Proc.devRef .tc main_v281_1)) := by
  after_results
  rfl

/-- After region 16: their variances. -/
theorem var1_eq (W : Valuation τ sig (Elt F)) :
    after hostOps17 W (Proc.devRef .tc main_v287)
      = rowVar (W (Proc.devRef .tc main_v281_1)) (W (Proc.devRef .tc main_v281_2)) := by
  after_results
  rfl

/-- After region 17: the means of the second dense layer's columns. -/
theorem mean2_eq (W : Valuation τ sig (Elt F)) :
    after hostOps18 W (Proc.devRef .tc main_v292) = rowMean (W (Proc.devRef .tc main_v290_1)) := by
  after_results
  rfl

/-- After region 17: their variances. -/
theorem var2_eq (W : Valuation τ sig (Elt F)) :
    after hostOps18 W (Proc.devRef .tc main_v296)
      = rowVar (W (Proc.devRef .tc main_v290_1)) (W (Proc.devRef .tc main_v290_2)) := by
  after_results
  rfl

/-- After region 18: the means of the rectified columns. -/
theorem mean3_eq (W : Valuation τ sig (Elt F)) :
    after hostOps19 W (Proc.devRef .tc main_v299) = rowMean (W (Proc.devRef .tc main_v297_1)) := by
  after_results
  rfl

/-- After region 18: their variances. -/
theorem var3_eq (W : Valuation τ sig (Elt F)) :
    after hostOps19 W (Proc.devRef .tc main_v303)
      = rowVar (W (Proc.devRef .tc main_v297_1)) (W (Proc.devRef .tc main_v297_2)) := by
  after_results
  rfl

/-! ## The first stretch of layer 4: the neighbour sum and row 4 of every stacked parameter -/

set_option maxHeartbeats 2000000 in
/-- Region 16's first operand: the features plus their neighbour sum. -/
theorem rst0_eq (W : Valuation τ sig (Elt F)) :
    after hostOps16 W (Proc.devRef .tc main_v254)
      = rst (W (Proc.devRef .tc main_v243)) (W (Proc.devRef .tc main_arg1)) (W (Proc.devRef .tc main_arg2)) := by
  after_results
  rfl

/-- Region 16's weights and bias row. -/
theorem w1_0_eq (W : Valuation τ sig (Elt F)) :
    after hostOps16 W (Proc.devRef .tc main_v280) = matL 4 slices_S5x128x128_S1x128x128_4_0_0 (W (Proc.devRef .tc main_arg3)) := by
  after_results
  rfl
theorem b1_0_eq (W : Valuation τ sig (Elt F)) :
    after hostOps16 W (Proc.devRef .tc main_v257) = rowL 4 slices_S5x128_S1x128_4_0 (W (Proc.devRef .tc main_arg4)) := by
  after_results
  rfl

/-- The other parameter rows of layer 4, each row 4 of its stacked argument. -/
theorem b2_0_eq (W : Valuation τ sig (Elt F)) :
    after hostOps16 W (Proc.devRef .tc main_v260) = rowL 4 slices_S5x128_S1x128_4_0 (W (Proc.devRef .tc main_arg6)) := by
  after_results
  rfl
theorem g1_0_eq (W : Valuation τ sig (Elt F)) :
    after hostOps16 W (Proc.devRef .tc main_v263) = rowL 4 slices_S5x128_S1x128_4_0 (W (Proc.devRef .tc main_arg7)) := by
  after_results
  rfl
theorem be1_0_eq (W : Valuation τ sig (Elt F)) :
    after hostOps16 W (Proc.devRef .tc main_v266) = rowL 4 slices_S5x128_S1x128_4_0 (W (Proc.devRef .tc main_arg8)) := by
  after_results
  rfl
theorem g2_0_eq (W : Valuation τ sig (Elt F)) :
    after hostOps16 W (Proc.devRef .tc main_v269) = rowL 4 slices_S5x128_S1x128_4_0 (W (Proc.devRef .tc main_arg9)) := by
  after_results
  rfl
theorem be2_0_eq (W : Valuation τ sig (Elt F)) :
    after hostOps16 W (Proc.devRef .tc main_v272) = rowL 4 slices_S5x128_S1x128_4_0 (W (Proc.devRef .tc main_arg10)) := by
  after_results
  rfl
theorem g3_0_eq (W : Valuation τ sig (Elt F)) :
    after hostOps16 W (Proc.devRef .tc main_v275) = rowL 4 slices_S5x128_S1x128_4_0 (W (Proc.devRef .tc main_arg11)) := by
  after_results
  rfl
theorem be3_0_eq (W : Valuation τ sig (Elt F)) :
    after hostOps16 W (Proc.devRef .tc main_v278) = rowL 4 slices_S5x128_S1x128_4_0 (W (Proc.devRef .tc main_arg12)) := by
  after_results
  rfl

/-- The second dense layer's weights, sliced after region 16. -/
theorem w2_0_eq (W : Valuation τ sig (Elt F)) :
    after hostOps17 W (Proc.devRef .tc main_v289) = matL 4 slices_S5x128x128_S1x128x128_4_0_0 (W (Proc.devRef .tc main_arg5)) := by
  after_results
  rfl

/-! ## What the stretches leave alone: a buffer no operation of a stretch writes keeps its contents across it -/

theorem keep_hostOps1_main_v37_0 (W : Valuation τ sig (Elt F)) :
    after hostOps17 W (Proc.devRef .tc main_v281_0) = W (Proc.devRef .tc main_v281_0) := by
  after_results
theorem keep_hostOps1_main_v19 (W : Valuation τ sig (Elt F)) :
    after hostOps17 W (Proc.devRef .tc main_v263) = W (Proc.devRef .tc main_v263) := by
  after_results
theorem keep_hostOps1_main_v22 (W : Valuation τ sig (Elt F)) :
    after hostOps17 W (Proc.devRef .tc main_v266) = W (Proc.devRef .tc main_v266) := by
  after_results
theorem keep_hostOps1_main_v16 (W : Valuation τ sig (Elt F)) :
    after hostOps17 W (Proc.devRef .tc main_v260) = W (Proc.devRef .tc main_v260) := by
  after_results
theorem keep_hostOps1_main_v25 (W : Valuation τ sig (Elt F)) :
    after hostOps17 W (Proc.devRef .tc main_v269) = W (Proc.devRef .tc main_v269) := by
  after_results
theorem keep_hostOps1_main_v28 (W : Valuation τ sig (Elt F)) :
    after hostOps17 W (Proc.devRef .tc main_v272) = W (Proc.devRef .tc main_v272) := by
  after_results
theorem keep_hostOps1_main_v31 (W : Valuation τ sig (Elt F)) :
    after hostOps17 W (Proc.devRef .tc main_v275) = W (Proc.devRef .tc main_v275) := by
  after_results
theorem keep_hostOps1_main_v34 (W : Valuation τ sig (Elt F)) :
    after hostOps17 W (Proc.devRef .tc main_v278) = W (Proc.devRef .tc main_v278) := by
  after_results

theorem keep_hostOps2_main_v46_0 (W : Valuation τ sig (Elt F)) :
    after hostOps18 W (Proc.devRef .tc main_v290_0) = W (Proc.devRef .tc main_v290_0) := by
  after_results
theorem keep_hostOps2_main_v25 (W : Valuation τ sig (Elt F)) :
    after hostOps18 W (Proc.devRef .tc main_v269) = W (Proc.devRef .tc main_v269) := by
  after_results
theorem keep_hostOps2_main_v28 (W : Valuation τ sig (Elt F)) :
    after hostOps18 W (Proc.devRef .tc main_v272) = W (Proc.devRef .tc main_v272) := by
  after_results
theorem keep_hostOps2_main_v31 (W : Valuation τ sig (Elt F)) :
    after hostOps18 W (Proc.devRef .tc main_v275) = W (Proc.devRef .tc main_v275) := by
  after_results
theorem keep_hostOps2_main_v34 (W : Valuation τ sig (Elt F)) :
    after hostOps18 W (Proc.devRef .tc main_v278) = W (Proc.devRef .tc main_v278) := by
  after_results

theorem keep_hostOps3_main_v53_0 (W : Valuation τ sig (Elt F)) :
    after hostOps19 W (Proc.devRef .tc main_v297_0) = W (Proc.devRef .tc main_v297_0) := by
  after_results
theorem keep_hostOps3_main_v31 (W : Valuation τ sig (Elt F)) :
    after hostOps19 W (Proc.devRef .tc main_v275) = W (Proc.devRef .tc main_v275) := by
  after_results
theorem keep_hostOps3_main_v34 (W : Valuation τ sig (Elt F)) :
    after hostOps19 W (Proc.devRef .tc main_v278) = W (Proc.devRef .tc main_v278) := by
  after_results

end Cert.KernelIdeal.KHostL4

end
-- ==== Proof.Layer4.lean ====
/-
  Layer 4 (counting from zero) of the idealized kernel program, through the segment boundaries from the end of the previous layer's last region to the end of this layer's fourth region.
  The first stretch of host operations forms the features plus their neighbour sum and slices row 4 out of every stacked
  parameter; the layer's first region computes the first dense layer and its column sums; the next stretch turns the sums into column
  means and moment variances; its second region normalises, rectifies and applies the second dense layer; and so on. Each
  region's arrays at its exit are what its write-backs leave, every other buffer is as it was at the region's entry, and
  a buffer no operation of a stretch writes keeps its contents across it. Composed, the features after the fourth region
  are the layer function with moment variances of the contents at the layer's entry.
-/
import proofs.«113410_j5944234737805_1_alg».proof.Proof.R16Array
import proofs.«113410_j5944234737805_1_alg».proof.Proof.R17Array
import proofs.«113410_j5944234737805_1_alg».proof.Proof.R18Array
import proofs.«113410_j5944234737805_1_alg».proof.Proof.R19Value
import proofs.«113410_j5944234737805_1_alg».proof.Proof.KHost
import proofs.«113410_j5944234737805_1_alg».proof.Proof.KHostRows
import proofs.«113410_j5944234737805_1_alg».proof.Proof.KHost_L4
import proofs.«113410_j5944234737805_1_alg».proof.Proof.GinSpec

noncomputable section

open Idealize.ShloMosaic Idealize.ShloMosaic.TcCoe Idealize.SL.Sem Idealize.ShloMosaic.ValueIdx
open Idealize.ShloMosaic.StableHlo

namespace Cert.KernelIdeal.Layer4

open Cert.KernelIdeal Cert.KernelIdeal.Gen

variable (m : (ℓ : Loc nD τ sig) → Buf (Elt Ideal) ℓ) (ρ : Dev nD → PrngReg)

/-- The epsilon and the zero of the normalisations. -/
abbrev eps : EReal := Ideal.ofBits .f32 0x3727C5AC#32
abbrev zero : EReal := Ideal.ofBits .f32 0x00000000#32

/-- The row count as a real. -/
theorem N_cast : ((GinSpec.N : ℕ) : ℝ) = (50000 : ℝ) := by norm_num [GinSpec.N]

/-- The first stretch writes no argument. -/
theorem keep0_main_arg1 (W : Valuation τ sig (Elt Ideal)) :
    after hostOps16 W (Proc.devRef .tc main_arg1) = W (Proc.devRef .tc main_arg1) := by
  after_results
theorem keep0_main_arg2 (W : Valuation τ sig (Elt Ideal)) :
    after hostOps16 W (Proc.devRef .tc main_arg2) = W (Proc.devRef .tc main_arg2) := by
  after_results
theorem keep0_main_arg3 (W : Valuation τ sig (Elt Ideal)) :
    after hostOps16 W (Proc.devRef .tc main_arg3) = W (Proc.devRef .tc main_arg3) := by
  after_results
theorem keep0_main_arg4 (W : Valuation τ sig (Elt Ideal)) :
    after hostOps16 W (Proc.devRef .tc main_arg4) = W (Proc.devRef .tc main_arg4) := by
  after_results
theorem keep0_main_arg5 (W : Valuation τ sig (Elt Ideal)) :
    after hostOps16 W (Proc.devRef .tc main_arg5) = W (Proc.devRef .tc main_arg5) := by
  after_results
theorem keep0_main_arg6 (W : Valuation τ sig (Elt Ideal)) :
    after hostOps16 W (Proc.devRef .tc main_arg6) = W (Proc.devRef .tc main_arg6) := by
  after_results
theorem keep0_main_arg7 (W : Valuation τ sig (Elt Ideal)) :
    after hostOps16 W (Proc.devRef .tc main_arg7) = W (Proc.devRef .tc main_arg7) := by
  after_results
theorem keep0_main_arg8 (W : Valuation τ sig (Elt Ideal)) :
    after hostOps16 W (Proc.devRef .tc main_arg8) = W (Proc.devRef .tc main_arg8) := by
  after_results
theorem keep0_main_arg9 (W : Valuation τ sig (Elt Ideal)) :
    after hostOps16 W (Proc.devRef .tc main_arg9) = W (Proc.devRef .tc main_arg9) := by
  after_results
theorem keep0_main_arg10 (W : Valuation τ sig (Elt Ideal)) :
    after hostOps16 W (Proc.devRef .tc main_arg10) = W (Proc.devRef .tc main_arg10) := by
  after_results
theorem keep0_main_arg11 (W : Valuation τ sig (Elt Ideal)) :
    after hostOps16 W (Proc.devRef .tc main_arg11) = W (Proc.devRef .tc main_arg11) := by
  after_results
theorem keep0_main_arg12 (W : Valuation τ sig (Elt Ideal)) :
    after hostOps16 W (Proc.devRef .tc main_arg12) = W (Proc.devRef .tc main_arg12) := by
  after_results

/-- The layer's parameters: matrix 4 and row 4 of the stacked arguments as the layer finds them. -/
def P0 (c : Dev nD) : GinSpec.Params where
  W1 := (KHost.matL 4 slices_S5x128x128_S1x128x128_4_0_0) (W32 m ρ c (Proc.devRef .tc main_arg3))
  b1 := (KHost.rowL 4 slices_S5x128_S1x128_4_0) (W32 m ρ c (Proc.devRef .tc main_arg4))
  W2 := (KHost.matL 4 slices_S5x128x128_S1x128x128_4_0_0) (W32 m ρ c (Proc.devRef .tc main_arg5))
  b2 := (KHost.rowL 4 slices_S5x128_S1x128_4_0) (W32 m ρ c (Proc.devRef .tc main_arg6))
  g1 := KPay.rowAt ((KHost.rowL 4 slices_S5x128_S1x128_4_0) (W32 m ρ c (Proc.devRef .tc main_arg7)))
  β1 := KPay.rowAt ((KHost.rowL 4 slices_S5x128_S1x128_4_0) (W32 m ρ c (Proc.devRef .tc main_arg8)))
  g2 := KPay.rowAt ((KHost.rowL 4 slices_S5x128_S1x128_4_0) (W32 m ρ c (Proc.devRef .tc main_arg9)))
  β2 := KPay.rowAt ((KHost.rowL 4 slices_S5x128_S1x128_4_0) (W32 m ρ c (Proc.devRef .tc main_arg10)))
  g3 := KPay.rowAt ((KHost.rowL 4 slices_S5x128_S1x128_4_0) (W32 m ρ c (Proc.devRef .tc main_arg11)))
  β3 := KPay.rowAt ((KHost.rowL 4 slices_S5x128_S1x128_4_0) (W32 m ρ c (Proc.devRef .tc main_arg12)))

/-- The features plus their neighbour sum, of the contents at the layer's entry. -/
def Y0 (c : Dev nD) : BatchNormSpec.Mat 50000 128 :=
  KHost.rst (W32 m ρ c (Proc.devRef .tc main_v243)) (W32 m ρ c (Proc.devRef .tc main_arg1)) (W32 m ρ c (Proc.devRef .tc main_arg2))

/-! ## Region 0 -/

/-- The first dense layer. -/
def X1 (c : Dev nD) : BatchNormSpec.Mat 50000 128 := DenseSpec.dense (Y0 m ρ c) (P0 m ρ c).W1 (P0 m ρ c).b1

theorem x1_eq (c : Dev nD) : R16.X1 (V33 m ρ) c = X1 m ρ c := by
  have e1 : V33 m ρ c main_v254 = Y0 m ρ c := KHostL4.rst0_eq (W32 m ρ c)
  have e2 : V33 m ρ c main_v280 = (KHost.matL 4 slices_S5x128x128_S1x128x128_4_0_0) (W32 m ρ c (Proc.devRef .tc main_arg3)) := KHostL4.w1_0_eq (W32 m ρ c)
  have e3 : V33 m ρ c main_v257 = (KHost.rowL 4 slices_S5x128_S1x128_4_0) (W32 m ρ c (Proc.devRef .tc main_arg4)) := KHostL4.b1_0_eq (W32 m ρ c)
  unfold R16.X1 X1 P0
  rw [e1, e2, e3]

/-! ## Region 1's entry -/

theorem in37 (c : Dev nD) : V35 m ρ c main_v281_0 = X1 m ρ c :=
  (KHostL4.keep_hostOps1_main_v37_0 (W34 m ρ c)).trans
    (((W34_arr m ρ c 3).trans (R16.final3 (V33 m ρ) c)).trans (x1_eq m ρ c))

theorem s1 (c : Dev nD) (cc : Fin 128) :
    W34 m ρ c (Proc.devRef .tc main_v281_1) (ix2 (0 : Fin 1) cc) = BatchNormSpec.colSum (X1 m ρ c) cc := by
  rw [(W34_arr m ρ c 4).trans (R16.final4 (V33 m ρ) c), R16.acc4_eq, x1_eq]

theorem q1 (c : Dev nD) (cc : Fin 128) :
    W34 m ρ c (Proc.devRef .tc main_v281_2) (ix2 (0 : Fin 1) cc) = BatchNormSpec.colSumSq (X1 m ρ c) cc := by
  rw [(W34_arr m ρ c 5).trans (R16.final5 (V33 m ρ) c), R16.acc5_eq, x1_eq]

theorem mean39 (c : Dev nD) : KPay.rowAt (V35 m ρ c main_v283) = BatchNormSpec.mean (GinSpec.N : ℝ) (X1 m ρ c) := by
  funext cc
  rw [N_cast]
  show V35 m ρ c main_v283 (ix2 (0 : Fin 1) cc) = _
  rw [show V35 m ρ c main_v283 = KHost.rowMean (W34 m ρ c (Proc.devRef .tc main_v281_1)) from KHostL4.mean1_eq (W34 m ρ c)]
  exact KHost.rowMean_of_colSum (X1 m ρ c) _ cc (s1 m ρ c cc)

theorem var43 (c : Dev nD) : KPay.rowAt (V35 m ρ c main_v287) = BatchNormSpec.varMoment (GinSpec.N : ℝ) (X1 m ρ c) := by
  funext cc
  rw [N_cast]
  show V35 m ρ c main_v287 (ix2 (0 : Fin 1) cc) = _
  rw [show V35 m ρ c main_v287 = KHost.rowVar (W34 m ρ c (Proc.devRef .tc main_v281_1)) (W34 m ρ c (Proc.devRef .tc main_v281_2))
    from KHostL4.var1_eq (W34 m ρ c)]
  exact KHost.rowVar_of_colSums (X1 m ρ c) _ _ cc (s1 m ρ c cc) (q1 m ρ c cc)

theorem g19 (c : Dev nD) : V35 m ρ c main_v263 = (KHost.rowL 4 slices_S5x128_S1x128_4_0) (W32 m ρ c (Proc.devRef .tc main_arg7)) :=
  (KHostL4.keep_hostOps1_main_v19 (W34 m ρ c)).trans ((W34_of_ne m ρ c main_v263 (by decide)).trans (KHostL4.g1_0_eq (W32 m ρ c)))
theorem be22 (c : Dev nD) : V35 m ρ c main_v266 = (KHost.rowL 4 slices_S5x128_S1x128_4_0) (W32 m ρ c (Proc.devRef .tc main_arg8)) :=
  (KHostL4.keep_hostOps1_main_v22 (W34 m ρ c)).trans ((W34_of_ne m ρ c main_v266 (by decide)).trans (KHostL4.be1_0_eq (W32 m ρ c)))
theorem b16 (c : Dev nD) : V35 m ρ c main_v260 = (KHost.rowL 4 slices_S5x128_S1x128_4_0) (W32 m ρ c (Proc.devRef .tc main_arg6)) :=
  (KHostL4.keep_hostOps1_main_v16 (W34 m ρ c)).trans ((W34_of_ne m ρ c main_v260 (by decide)).trans (KHostL4.b2_0_eq (W32 m ρ c)))
theorem w45 (c : Dev nD) : V35 m ρ c main_v289 = (KHost.matL 4 slices_S5x128x128_S1x128x128_4_0_0) (W32 m ρ c (Proc.devRef .tc main_arg5)) :=
  (KHostL4.w2_0_eq (W34 m ρ c)).trans (congrArg (KHost.matL 4 slices_S5x128x128_S1x128x128_4_0_0)
    ((W34_of_ne m ρ c main_arg5 (by decide)).trans (keep0_main_arg5 (W32 m ρ c))))

/-! ## Region 1 -/

/-- The second dense layer of the normalised and rectified first one. -/
def X2 (c : Dev nD) : BatchNormSpec.Mat 50000 128 :=
  DenseSpec.dense (GinSpec.bnM eps zero (X1 m ρ c) (P0 m ρ c).g1 (P0 m ρ c).β1) (P0 m ρ c).W2 (P0 m ρ c).b2

theorem x2_eq (c : Dev nD) : R17.X2 (V35 m ρ) c = X2 m ρ c := by
  unfold R17.X2 R17.A1 X2 GinSpec.bnM P0
  rw [in37, mean39, var43, g19, be22, b16, w45]

/-! ## Region 2's entry -/

theorem in46 (c : Dev nD) : V37 m ρ c main_v290_0 = X2 m ρ c :=
  (KHostL4.keep_hostOps2_main_v46_0 (W36 m ρ c)).trans
    (((W36_arr m ρ c 7).trans (R17.final7 (V35 m ρ) c)).trans (x2_eq m ρ c))

theorem s2 (c : Dev nD) (cc : Fin 128) :
    W36 m ρ c (Proc.devRef .tc main_v290_1) (ix2 (0 : Fin 1) cc) = BatchNormSpec.colSum (X2 m ρ c) cc := by
  rw [(W36_arr m ρ c 8).trans (R17.final8 (V35 m ρ) c), R17.acc8_eq, x2_eq]

theorem q2 (c : Dev nD) (cc : Fin 128) :
    W36 m ρ c (Proc.devRef .tc main_v290_2) (ix2 (0 : Fin 1) cc) = BatchNormSpec.colSumSq (X2 m ρ c) cc := by
  rw [(W36_arr m ρ c 9).trans (R17.final9 (V35 m ρ) c), R17.acc9_eq, x2_eq]

theorem mean48 (c : Dev nD) : KPay.rowAt (V37 m ρ c main_v292) = BatchNormSpec.mean (GinSpec.N : ℝ) (X2 m ρ c) := by
  funext cc
  rw [N_cast]
  show V37 m ρ c main_v292 (ix2 (0 : Fin 1) cc) = _
  rw [show V37 m ρ c main_v292 = KHost.rowMean (W36 m ρ c (Proc.devRef .tc main_v290_1)) from KHostL4.mean2_eq (W36 m ρ c)]
  exact KHost.rowMean_of_colSum (X2 m ρ c) _ cc (s2 m ρ c cc)

theorem var52 (c : Dev nD) : KPay.rowAt (V37 m ρ c main_v296) = BatchNormSpec.varMoment (GinSpec.N : ℝ) (X2 m ρ c) := by
  funext cc
  rw [N_cast]
  show V37 m ρ c main_v296 (ix2 (0 : Fin 1) cc) = _
  rw [show V37 m ρ c main_v296 = KHost.rowVar (W36 m ρ c (Proc.devRef .tc main_v290_1)) (W36 m ρ c (Proc.devRef .tc main_v290_2))
    from KHostL4.var2_eq (W36 m ρ c)]
  exact KHost.rowVar_of_colSums (X2 m ρ c) _ _ cc (s2 m ρ c cc) (q2 m ρ c cc)

theorem g25 (c : Dev nD) : V37 m ρ c main_v269 = (KHost.rowL 4 slices_S5x128_S1x128_4_0) (W32 m ρ c (Proc.devRef .tc main_arg9)) :=
  (KHostL4.keep_hostOps2_main_v25 (W36 m ρ c)).trans ((W36_of_ne m ρ c main_v269 (by decide)).trans
    ((KHostL4.keep_hostOps1_main_v25 (W34 m ρ c)).trans ((W34_of_ne m ρ c main_v269 (by decide)).trans (KHostL4.g2_0_eq (W32 m ρ c)))))
theorem be28 (c : Dev nD) : V37 m ρ c main_v272 = (KHost.rowL 4 slices_S5x128_S1x128_4_0) (W32 m ρ c (Proc.devRef .tc main_arg10)) :=
  (KHostL4.keep_hostOps2_main_v28 (W36 m ρ c)).trans ((W36_of_ne m ρ c main_v272 (by decide)).trans
    ((KHostL4.keep_hostOps1_main_v28 (W34 m ρ c)).trans ((W34_of_ne m ρ c main_v272 (by decide)).trans (KHostL4.be2_0_eq (W32 m ρ c)))))

/-! ## Region 2 -/

/-- The second dense layer, normalised and rectified. -/
def A2 (c : Dev nD) : BatchNormSpec.Mat 50000 128 := GinSpec.bnM eps zero (X2 m ρ c) (P0 m ρ c).g2 (P0 m ρ c).β2

theorem a2_eq (c : Dev nD) : R18.A2 (V37 m ρ) c = A2 m ρ c := by
  unfold A2 GinSpec.bnM P0
  show BatchNormSpec.normRelu _ _ (V37 m ρ c main_v290_0) (KPay.rowAt (V37 m ρ c main_v292)) (KPay.rowAt (V37 m ρ c main_v296))
    (KPay.rowAt (V37 m ρ c main_v269)) (KPay.rowAt (V37 m ρ c main_v272)) = _
  rw [in46, mean48, var52, g25, be28]

/-! ## Region 3's entry -/

theorem in53 (c : Dev nD) : V39 m ρ c main_v297_0 = A2 m ρ c :=
  (KHostL4.keep_hostOps3_main_v53_0 (W38 m ρ c)).trans
    (((W38_arr m ρ c 5).trans (R18.final5 (V37 m ρ) c)).trans (a2_eq m ρ c))

theorem s3 (c : Dev nD) (cc : Fin 128) :
    W38 m ρ c (Proc.devRef .tc main_v297_1) (ix2 (0 : Fin 1) cc) = BatchNormSpec.colSum (A2 m ρ c) cc := by
  rw [(W38_arr m ρ c 6).trans (R18.final6 (V37 m ρ) c), R18.acc6_eq, a2_eq]

theorem q3 (c : Dev nD) (cc : Fin 128) :
    W38 m ρ c (Proc.devRef .tc main_v297_2) (ix2 (0 : Fin 1) cc) = BatchNormSpec.colSumSq (A2 m ρ c) cc := by
  rw [(W38_arr m ρ c 7).trans (R18.final7 (V37 m ρ) c), R18.acc7_eq, a2_eq]

theorem mean55 (c : Dev nD) : KPay.rowAt (V39 m ρ c main_v299) = BatchNormSpec.mean (GinSpec.N : ℝ) (A2 m ρ c) := by
  funext cc
  rw [N_cast]
  show V39 m ρ c main_v299 (ix2 (0 : Fin 1) cc) = _
  rw [show V39 m ρ c main_v299 = KHost.rowMean (W38 m ρ c (Proc.devRef .tc main_v297_1)) from KHostL4.mean3_eq (W38 m ρ c)]
  exact KHost.rowMean_of_colSum (A2 m ρ c) _ cc (s3 m ρ c cc)

theorem var59 (c : Dev nD) : KPay.rowAt (V39 m ρ c main_v303) = BatchNormSpec.varMoment (GinSpec.N : ℝ) (A2 m ρ c) := by
  funext cc
  rw [N_cast]
  show V39 m ρ c main_v303 (ix2 (0 : Fin 1) cc) = _
  rw [show V39 m ρ c main_v303 = KHost.rowVar (W38 m ρ c (Proc.devRef .tc main_v297_1)) (W38 m ρ c (Proc.devRef .tc main_v297_2))
    from KHostL4.var3_eq (W38 m ρ c)]
  exact KHost.rowVar_of_colSums (A2 m ρ c) _ _ cc (s3 m ρ c cc) (q3 m ρ c cc)

theorem g31 (c : Dev nD) : V39 m ρ c main_v275 = (KHost.rowL 4 slices_S5x128_S1x128_4_0) (W32 m ρ c (Proc.devRef .tc main_arg11)) :=
  (KHostL4.keep_hostOps3_main_v31 (W38 m ρ c)).trans ((W38_of_ne m ρ c main_v275 (by decide)).trans
    ((KHostL4.keep_hostOps2_main_v31 (W36 m ρ c)).trans ((W36_of_ne m ρ c main_v275 (by decide)).trans
      ((KHostL4.keep_hostOps1_main_v31 (W34 m ρ c)).trans ((W34_of_ne m ρ c main_v275 (by decide)).trans (KHostL4.g3_0_eq (W32 m ρ c)))))))
theorem be34 (c : Dev nD) : V39 m ρ c main_v278 = (KHost.rowL 4 slices_S5x128_S1x128_4_0) (W32 m ρ c (Proc.devRef .tc main_arg12)) :=
  (KHostL4.keep_hostOps3_main_v34 (W38 m ρ c)).trans ((W38_of_ne m ρ c main_v278 (by decide)).trans
    ((KHostL4.keep_hostOps2_main_v34 (W36 m ρ c)).trans ((W36_of_ne m ρ c main_v278 (by decide)).trans
      ((KHostL4.keep_hostOps1_main_v34 (W34 m ρ c)).trans ((W34_of_ne m ρ c main_v278 (by decide)).trans (KHostL4.be3_0_eq (W32 m ρ c)))))))

/-! ## The layer -/

/-- After the fourth region the features buffer holds the layer function, with moment variances, of the launch contents. -/
theorem layer_out (c : Dev nD) :
    W40 m ρ c (Proc.devRef .tc main_v304) = GinSpec.layerM eps zero (P0 m ρ c) (Y0 m ρ c) := by
  refine ((W40_arr m ρ c 5).trans (R19.final5 (V39 m ρ) c)).trans ?_
  show BatchNormSpec.normRelu _ _ (V39 m ρ c main_v297_0) (KPay.rowAt (V39 m ρ c main_v299)) (KPay.rowAt (V39 m ρ c main_v303))
    (KPay.rowAt (V39 m ρ c main_v275)) (KPay.rowAt (V39 m ρ c main_v278)) = _
  rw [in53, mean55, var59, g31, be34]
  rfl

/-! ## The arguments read at the layer's end as at its start -/

theorem keep1_main_arg1 (W : Valuation τ sig (Elt Ideal)) :
    after hostOps17 W (Proc.devRef .tc main_arg1) = W (Proc.devRef .tc main_arg1) := by
  after_results
theorem keep1_main_arg2 (W : Valuation τ sig (Elt Ideal)) :
    after hostOps17 W (Proc.devRef .tc main_arg2) = W (Proc.devRef .tc main_arg2) := by
  after_results
theorem keep1_main_arg3 (W : Valuation τ sig (Elt Ideal)) :
    after hostOps17 W (Proc.devRef .tc main_arg3) = W (Proc.devRef .tc main_arg3) := by
  after_results
theorem keep1_main_arg4 (W : Valuation τ sig (Elt Ideal)) :
    after hostOps17 W (Proc.devRef .tc main_arg4) = W (Proc.devRef .tc main_arg4) := by
  after_results
theorem keep1_main_arg5 (W : Valuation τ sig (Elt Ideal)) :
    after hostOps17 W (Proc.devRef .tc main_arg5) = W (Proc.devRef .tc main_arg5) := by
  after_results
theorem keep1_main_arg6 (W : Valuation τ sig (Elt Ideal)) :
    after hostOps17 W (Proc.devRef .tc main_arg6) = W (Proc.devRef .tc main_arg6) := by
  after_results
theorem keep1_main_arg7 (W : Valuation τ sig (Elt Ideal)) :
    after hostOps17 W (Proc.devRef .tc main_arg7) = W (Proc.devRef .tc main_arg7) := by
  after_results
theorem keep1_main_arg8 (W : Valuation τ sig (Elt Ideal)) :
    after hostOps17 W (Proc.devRef .tc main_arg8) = W (Proc.devRef .tc main_arg8) := by
  after_results
theorem keep1_main_arg9 (W : Valuation τ sig (Elt Ideal)) :
    after hostOps17 W (Proc.devRef .tc main_arg9) = W (Proc.devRef .tc main_arg9) := by
  after_results
theorem keep1_main_arg10 (W : Valuation τ sig (Elt Ideal)) :
    after hostOps17 W (Proc.devRef .tc main_arg10) = W (Proc.devRef .tc main_arg10) := by
  after_results
theorem keep1_main_arg11 (W : Valuation τ sig (Elt Ideal)) :
    after hostOps17 W (Proc.devRef .tc main_arg11) = W (Proc.devRef .tc main_arg11) := by
  after_results
theorem keep1_main_arg12 (W : Valuation τ sig (Elt Ideal)) :
    after hostOps17 W (Proc.devRef .tc main_arg12) = W (Proc.devRef .tc main_arg12) := by
  after_results
theorem keep2_main_arg1 (W : Valuation τ sig (Elt Ideal)) :
    after hostOps18 W (Proc.devRef .tc main_arg1) = W (Proc.devRef .tc main_arg1) := by
  after_results
theorem keep2_main_arg2 (W : Valuation τ sig (Elt Ideal)) :
    after hostOps18 W (Proc.devRef .tc main_arg2) = W (Proc.devRef .tc main_arg2) := by
  after_results
theorem keep2_main_arg3 (W : Valuation τ sig (Elt Ideal)) :
    after hostOps18 W (Proc.devRef .tc main_arg3) = W (Proc.devRef .tc main_arg3) := by
  after_results
theorem keep2_main_arg4 (W : Valuation τ sig (Elt Ideal)) :
    after hostOps18 W (Proc.devRef .tc main_arg4) = W (Proc.devRef .tc main_arg4) := by
  after_results
theorem keep2_main_arg5 (W : Valuation τ sig (Elt Ideal)) :
    after hostOps18 W (Proc.devRef .tc main_arg5) = W (Proc.devRef .tc main_arg5) := by
  after_results
theorem keep2_main_arg6 (W : Valuation τ sig (Elt Ideal)) :
    after hostOps18 W (Proc.devRef .tc main_arg6) = W (Proc.devRef .tc main_arg6) := by
  after_results
theorem keep2_main_arg7 (W : Valuation τ sig (Elt Ideal)) :
    after hostOps18 W (Proc.devRef .tc main_arg7) = W (Proc.devRef .tc main_arg7) := by
  after_results
theorem keep2_main_arg8 (W : Valuation τ sig (Elt Ideal)) :
    after hostOps18 W (Proc.devRef .tc main_arg8) = W (Proc.devRef .tc main_arg8) := by
  after_results
theorem keep2_main_arg9 (W : Valuation τ sig (Elt Ideal)) :
    after hostOps18 W (Proc.devRef .tc main_arg9) = W (Proc.devRef .tc main_arg9) := by
  after_results
theorem keep2_main_arg10 (W : Valuation τ sig (Elt Ideal)) :
    after hostOps18 W (Proc.devRef .tc main_arg10) = W (Proc.devRef .tc main_arg10) := by
  after_results
theorem keep2_main_arg11 (W : Valuation τ sig (Elt Ideal)) :
    after hostOps18 W (Proc.devRef .tc main_arg11) = W (Proc.devRef .tc main_arg11) := by
  after_results
theorem keep2_main_arg12 (W : Valuation τ sig (Elt Ideal)) :
    after hostOps18 W (Proc.devRef .tc main_arg12) = W (Proc.devRef .tc main_arg12) := by
  after_results
theorem keep3_main_arg1 (W : Valuation τ sig (Elt Ideal)) :
    after hostOps19 W (Proc.devRef .tc main_arg1) = W (Proc.devRef .tc main_arg1) := by
  after_results
theorem keep3_main_arg2 (W : Valuation τ sig (Elt Ideal)) :
    after hostOps19 W (Proc.devRef .tc main_arg2) = W (Proc.devRef .tc main_arg2) := by
  after_results
theorem keep3_main_arg3 (W : Valuation τ sig (Elt Ideal)) :
    after hostOps19 W (Proc.devRef .tc main_arg3) = W (Proc.devRef .tc main_arg3) := by
  after_results
theorem keep3_main_arg4 (W : Valuation τ sig (Elt Ideal)) :
    after hostOps19 W (Proc.devRef .tc main_arg4) = W (Proc.devRef .tc main_arg4) := by
  after_results
theorem keep3_main_arg5 (W : Valuation τ sig (Elt Ideal)) :
    after hostOps19 W (Proc.devRef .tc main_arg5) = W (Proc.devRef .tc main_arg5) := by
  after_results
theorem keep3_main_arg6 (W : Valuation τ sig (Elt Ideal)) :
    after hostOps19 W (Proc.devRef .tc main_arg6) = W (Proc.devRef .tc main_arg6) := by
  after_results
theorem keep3_main_arg7 (W : Valuation τ sig (Elt Ideal)) :
    after hostOps19 W (Proc.devRef .tc main_arg7) = W (Proc.devRef .tc main_arg7) := by
  after_results
theorem keep3_main_arg8 (W : Valuation τ sig (Elt Ideal)) :
    after hostOps19 W (Proc.devRef .tc main_arg8) = W (Proc.devRef .tc main_arg8) := by
  after_results
theorem keep3_main_arg9 (W : Valuation τ sig (Elt Ideal)) :
    after hostOps19 W (Proc.devRef .tc main_arg9) = W (Proc.devRef .tc main_arg9) := by
  after_results
theorem keep3_main_arg10 (W : Valuation τ sig (Elt Ideal)) :
    after hostOps19 W (Proc.devRef .tc main_arg10) = W (Proc.devRef .tc main_arg10) := by
  after_results
theorem keep3_main_arg11 (W : Valuation τ sig (Elt Ideal)) :
    after hostOps19 W (Proc.devRef .tc main_arg11) = W (Proc.devRef .tc main_arg11) := by
  after_results
theorem keep3_main_arg12 (W : Valuation τ sig (Elt Ideal)) :
    after hostOps19 W (Proc.devRef .tc main_arg12) = W (Proc.devRef .tc main_arg12) := by
  after_results
theorem args_main_arg1 (c : Dev nD) : W40 m ρ c (Proc.devRef .tc main_arg1) = W32 m ρ c (Proc.devRef .tc main_arg1) :=
  (W40_of_ne m ρ c main_arg1 (by decide)).trans ((keep3_main_arg1 (W38 m ρ c)).trans ((W38_of_ne m ρ c main_arg1 (by decide)).trans
    ((keep2_main_arg1 (W36 m ρ c)).trans ((W36_of_ne m ρ c main_arg1 (by decide)).trans
      ((keep1_main_arg1 (W34 m ρ c)).trans ((W34_of_ne m ρ c main_arg1 (by decide)).trans (keep0_main_arg1 (W32 m ρ c))))))))
theorem args_main_arg2 (c : Dev nD) : W40 m ρ c (Proc.devRef .tc main_arg2) = W32 m ρ c (Proc.devRef .tc main_arg2) :=
  (W40_of_ne m ρ c main_arg2 (by decide)).trans ((keep3_main_arg2 (W38 m ρ c)).trans ((W38_of_ne m ρ c main_arg2 (by decide)).trans
    ((keep2_main_arg2 (W36 m ρ c)).trans ((W36_of_ne m ρ c main_arg2 (by decide)).trans
      ((keep1_main_arg2 (W34 m ρ c)).trans ((W34_of_ne m ρ c main_arg2 (by decide)).trans (keep0_main_arg2 (W32 m ρ c))))))))
theorem args_main_arg3 (c : Dev nD) : W40 m ρ c (Proc.devRef .tc main_arg3) = W32 m ρ c (Proc.devRef .tc main_arg3) :=
  (W40_of_ne m ρ c main_arg3 (by decide)).trans ((keep3_main_arg3 (W38 m ρ c)).trans ((W38_of_ne m ρ c main_arg3 (by decide)).trans
    ((keep2_main_arg3 (W36 m ρ c)).trans ((W36_of_ne m ρ c main_arg3 (by decide)).trans
      ((keep1_main_arg3 (W34 m ρ c)).trans ((W34_of_ne m ρ c main_arg3 (by decide)).trans (keep0_main_arg3 (W32 m ρ c))))))))
theorem args_main_arg4 (c : Dev nD) : W40 m ρ c (Proc.devRef .tc main_arg4) = W32 m ρ c (Proc.devRef .tc main_arg4) :=
  (W40_of_ne m ρ c main_arg4 (by decide)).trans ((keep3_main_arg4 (W38 m ρ c)).trans ((W38_of_ne m ρ c main_arg4 (by decide)).trans
    ((keep2_main_arg4 (W36 m ρ c)).trans ((W36_of_ne m ρ c main_arg4 (by decide)).trans
      ((keep1_main_arg4 (W34 m ρ c)).trans ((W34_of_ne m ρ c main_arg4 (by decide)).trans (keep0_main_arg4 (W32 m ρ c))))))))
theorem args_main_arg5 (c : Dev nD) : W40 m ρ c (Proc.devRef .tc main_arg5) = W32 m ρ c (Proc.devRef .tc main_arg5) :=
  (W40_of_ne m ρ c main_arg5 (by decide)).trans ((keep3_main_arg5 (W38 m ρ c)).trans ((W38_of_ne m ρ c main_arg5 (by decide)).trans
    ((keep2_main_arg5 (W36 m ρ c)).trans ((W36_of_ne m ρ c main_arg5 (by decide)).trans
      ((keep1_main_arg5 (W34 m ρ c)).trans ((W34_of_ne m ρ c main_arg5 (by decide)).trans (keep0_main_arg5 (W32 m ρ c))))))))
theorem args_main_arg6 (c : Dev nD) : W40 m ρ c (Proc.devRef .tc main_arg6) = W32 m ρ c (Proc.devRef .tc main_arg6) :=
  (W40_of_ne m ρ c main_arg6 (by decide)).trans ((keep3_main_arg6 (W38 m ρ c)).trans ((W38_of_ne m ρ c main_arg6 (by decide)).trans
    ((keep2_main_arg6 (W36 m ρ c)).trans ((W36_of_ne m ρ c main_arg6 (by decide)).trans
      ((keep1_main_arg6 (W34 m ρ c)).trans ((W34_of_ne m ρ c main_arg6 (by decide)).trans (keep0_main_arg6 (W32 m ρ c))))))))
theorem args_main_arg7 (c : Dev nD) : W40 m ρ c (Proc.devRef .tc main_arg7) = W32 m ρ c (Proc.devRef .tc main_arg7) :=
  (W40_of_ne m ρ c main_arg7 (by decide)).trans ((keep3_main_arg7 (W38 m ρ c)).trans ((W38_of_ne m ρ c main_arg7 (by decide)).trans
    ((keep2_main_arg7 (W36 m ρ c)).trans ((W36_of_ne m ρ c main_arg7 (by decide)).trans
      ((keep1_main_arg7 (W34 m ρ c)).trans ((W34_of_ne m ρ c main_arg7 (by decide)).trans (keep0_main_arg7 (W32 m ρ c))))))))
theorem args_main_arg8 (c : Dev nD) : W40 m ρ c (Proc.devRef .tc main_arg8) = W32 m ρ c (Proc.devRef .tc main_arg8) :=
  (W40_of_ne m ρ c main_arg8 (by decide)).trans ((keep3_main_arg8 (W38 m ρ c)).trans ((W38_of_ne m ρ c main_arg8 (by decide)).trans
    ((keep2_main_arg8 (W36 m ρ c)).trans ((W36_of_ne m ρ c main_arg8 (by decide)).trans
      ((keep1_main_arg8 (W34 m ρ c)).trans ((W34_of_ne m ρ c main_arg8 (by decide)).trans (keep0_main_arg8 (W32 m ρ c))))))))
theorem args_main_arg9 (c : Dev nD) : W40 m ρ c (Proc.devRef .tc main_arg9) = W32 m ρ c (Proc.devRef .tc main_arg9) :=
  (W40_of_ne m ρ c main_arg9 (by decide)).trans ((keep3_main_arg9 (W38 m ρ c)).trans ((W38_of_ne m ρ c main_arg9 (by decide)).trans
    ((keep2_main_arg9 (W36 m ρ c)).trans ((W36_of_ne m ρ c main_arg9 (by decide)).trans
      ((keep1_main_arg9 (W34 m ρ c)).trans ((W34_of_ne m ρ c main_arg9 (by decide)).trans (keep0_main_arg9 (W32 m ρ c))))))))
theorem args_main_arg10 (c : Dev nD) : W40 m ρ c (Proc.devRef .tc main_arg10) = W32 m ρ c (Proc.devRef .tc main_arg10) :=
  (W40_of_ne m ρ c main_arg10 (by decide)).trans ((keep3_main_arg10 (W38 m ρ c)).trans ((W38_of_ne m ρ c main_arg10 (by decide)).trans
    ((keep2_main_arg10 (W36 m ρ c)).trans ((W36_of_ne m ρ c main_arg10 (by decide)).trans
      ((keep1_main_arg10 (W34 m ρ c)).trans ((W34_of_ne m ρ c main_arg10 (by decide)).trans (keep0_main_arg10 (W32 m ρ c))))))))
theorem args_main_arg11 (c : Dev nD) : W40 m ρ c (Proc.devRef .tc main_arg11) = W32 m ρ c (Proc.devRef .tc main_arg11) :=
  (W40_of_ne m ρ c main_arg11 (by decide)).trans ((keep3_main_arg11 (W38 m ρ c)).trans ((W38_of_ne m ρ c main_arg11 (by decide)).trans
    ((keep2_main_arg11 (W36 m ρ c)).trans ((W36_of_ne m ρ c main_arg11 (by decide)).trans
      ((keep1_main_arg11 (W34 m ρ c)).trans ((W34_of_ne m ρ c main_arg11 (by decide)).trans (keep0_main_arg11 (W32 m ρ c))))))))
theorem args_main_arg12 (c : Dev nD) : W40 m ρ c (Proc.devRef .tc main_arg12) = W32 m ρ c (Proc.devRef .tc main_arg12) :=
  (W40_of_ne m ρ c main_arg12 (by decide)).trans ((keep3_main_arg12 (W38 m ρ c)).trans ((W38_of_ne m ρ c main_arg12 (by decide)).trans
    ((keep2_main_arg12 (W36 m ρ c)).trans ((W36_of_ne m ρ c main_arg12 (by decide)).trans
      ((keep1_main_arg12 (W34 m ρ c)).trans ((W34_of_ne m ρ c main_arg12 (by decide)).trans (keep0_main_arg12 (W32 m ρ c))))))))

end Cert.KernelIdeal.Layer4

end
-- ==== Proof.RefStages.lean ====
/- The reference network's layer as a composition of named whole-array stages, each spelt with the same library
   operations, in the same order and with the same constants, as the reference program spells it.

   Node features are a 50000 × 128 array `h`; edges are two index vectors `src`, `dst` of length 800000; the
   parameters of the five layers are stacked along a leading axis of length 5 and layer `l` reads row `l`.
   * `refRow`, `refMat`: row `l` of a stacked 5 × 128 (5 × 128 × 128) parameter, as a vector (matrix).
   * `refRowB v`: the vector `v` repeated down the 50000 rows.
   * `refSrcIx`: the source indices with negative ones wrapped by +50000, as a column of gather indices.
   * `refAgg h src dst`: the zero array with row `src e` of `h` added into row `dst e`, for every edge `e`.
   * `refRst`: `h + refAgg h`.       * `refLinear x W b`: `x · W + b` (the product contracts the 128 columns).
   * `refMean x`: column sums over the 50000 rows divided by 50000.
   * `refVar x`: the biased column variance as the variance helper computes it: the column mean (sum broadcast to one
     row, divided by 50000), the squared deviations, their column sums divided by `50000 - 0`, guarded by a select
     that yields the NaN pattern were `50000 - 0` not positive.
   * `refBN x g b`: `g · (x - mean x) · rsqrt (var x + 1e-5) + b`, the vectors repeated down the rows.
   * `refRelu x`: the elementwise maximum with the zero array.
   * `RefLayer`: `relu (BN₃ (relu (BN₂ (linear₂ (relu (BN₁ (linear₁ (h + agg h))))))))` at row `l` of the parameters. -/
import proofs.«113410_j5944234737805_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A 50000 × 128 array of floats. -/
abbrev Mat (F : FTy → Type) : Type := (⟨S50000x128, .f32⟩ : BufTy).Contents (Elt F)
/-- A vector of 128 floats. -/
abbrev Vec (F : FTy → Type) : Type := (⟨S128, .f32⟩ : BufTy).Contents (Elt F)
/-- A 128 × 128 matrix of floats. -/
abbrev Sq (F : FTy → Type) : Type := (⟨S128x128, .f32⟩ : BufTy).Contents (Elt F)
/-- Five stacked vectors of 128 floats. -/
abbrev Vec5 (F : FTy → Type) : Type := (⟨S5x128, .f32⟩ : BufTy).Contents (Elt F)
/-- Five stacked 128 × 128 matrices of floats. -/
abbrev Sq5 (F : FTy → Type) : Type := (⟨S5x128x128, .f32⟩ : BufTy).Contents (Elt F)
/-- 800000 edge endpoints. -/
abbrev Ix (F : FTy → Type) : Type := (⟨S800000, .i32⟩ : BufTy).Contents (Elt F)

/-- Row `l` of five stacked vectors. -/
def refRow (l : ℕ) (hs : S5x128.Slices ![l, 0] S1x128) (p : Vec5 F) : Vec F :=
  shapeCast S128 (extractStridedSlice S1x128 ![l, 0] p hs) shapeCasts_S1x128_S128

/-- Matrix `l` of five stacked matrices. -/
def refMat (l : ℕ) (hs : S5x128x128.Slices ![l, 0, 0] S1x128x128) (p : Sq5 F) : Sq F :=
  shapeCast S128x128 (extractStridedSlice S1x128x128 ![l, 0, 0] p hs) shapeCasts_S1x128x128_S128x128

/-- A vector repeated down the 50000 rows. -/
def refRowB (v : Vec F) : Mat F :=
  broadcastInDim S50000x128 ![0, 1] bcast_S1x128_S50000x128_0_1 (broadcastInDim S1x128 ![1] bcast_S128_S1x128_1 v)

/-- The edge sources as gather indices: a negative index wrapped by adding 50000, then made a column. -/
def refSrcIx (src : Ix F) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The neighbour sum: starting from zeros, row `src e` of `h` is added into row `dst e` for every edge `e`. -/
def refAgg (h : Mat F) (src dst : Ix F) : Mat F :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h (refSrcIx src))

/-- The features plus their neighbour sum. -/
def refRst (h : Mat F) (src dst : Ix F) : Mat F := addf h (refAgg h src dst)

/-- `x · W + b`. -/
def refLinear (x : Mat F) (W : Sq F) (b : Vec F) : Mat F :=
  addf (Host.dotGeneral dot_S50000x128_S128x128_S50000x128_1_0_0_1_n_n none x W) (refRowB b)

/-- The column sums over the 50000 rows. -/
def refColSum (x : Mat F) : Vec F :=
  Host.reduceAdd x (constant S_ .f32 0x00000000#32) reducesTo_S50000x128_S128_d0 h_S_

/-- The column means: the column sums divided by 50000. -/
def refMean (x : Mat F) : Vec F :=
  Host.divf (refColSum x) (broadcastInDim S128 ![] bcast_S_S128 (constant S_ .f32 0x47435000#32))

/-- The variance helper's divisor `50000 - ddof` at `ddof = 0`, a scalar. -/
def refVarDen : (⟨S_, .f32⟩ : BufTy).Contents (Elt F) :=
  subf (constant S_ .f32 0x47435000#32) (sitofp .f32 (constantI S_ 32 0#32))

/-- The deviations from the column mean, the mean computed as the variance helper does (on one broadcast row). -/
def refCentred (x : Mat F) : Mat F :=
  subf x (broadcastInDim S50000x128 ![0, 1] bcast_S1x128_S50000x128_0_1
    (Host.divf (broadcastInDim S1x128 ![1] bcast_S128_S1x128_1 (refColSum x))
      (broadcastInDim S1x128 ![] bcast_S_S1x128 (constant S_ .f32 0x47435000#32))))

/-- The biased column variance, as the variance helper computes it. -/
def refVar (x : Mat F) : Vec F :=
  select (broadcastInDim S128 ![] bcast_S_S128 (cmpf .ogt (refVarDen (F := F)) (constant S_ .f32 0x00000000#32)))
    (Host.divf (refColSum (mulf (refCentred x) (refCentred x))) (broadcastInDim S128 ![] bcast_S_S128 (refVarDen (F := F))))
    (broadcastInDim S128 ![] bcast_S_S128 (id (constant S_ .f32 0x7FC00000#32)))

/-- Batch normalisation over the rows with scale `g` and shift `b`. -/
def refBN (x : Mat F) (g b : Vec F) : Mat F :=
  addf (mulf (mulf (refRowB g) (subf x (refRowB (refMean x))))
      (refRowB (Host.rsqrt (addf (refVar x) (broadcastInDim S128 ![] bcast_S_S128 (constant S_ .f32 0x3727C5AC#32))))))
    (refRowB b)

/-- The rectifier. -/
def refRelu (x : Mat F) : Mat F :=
  maximumf x (broadcastInDim S50000x128 ![] bcast_S_S50000x128 (constant S_ .f32 0x00000000#32))

/-- One layer of the network at row `l` of the stacked parameters. -/
def RefLayer (l : ℕ) (hs2 : S5x128.Slices ![l, 0] S1x128) (hs3 : S5x128x128.Slices ![l, 0, 0] S1x128x128)
    (h : Mat F) (src dst : Ix F) (W1 : Sq5 F) (b1 : Vec5 F) (W2 : Sq5 F) (b2 g1 be1 g2 be2 g3 be3 : Vec5 F) : Mat F :=
  refRelu (refBN (refRelu (refBN (refLinear (refRelu (refBN (refLinear (refRst h src dst)
      (refMat l hs3 W1) (refRow l hs2 b1)) (refRow l hs2 g1) (refRow l hs2 be1)))
      (refMat l hs3 W2) (refRow l hs2 b2)) (refRow l hs2 g2) (refRow l hs2 be2)))
      (refRow l hs2 g3) (refRow l hs2 be3))

end Cert.ReferenceIdeal.RefRun

end
-- ==== Proof.Join.lean ====
/-
  The kernel program's host stages and the reference's are the same functions. The two programs are printed in separate
  namespaces, each with its own copy of the shapes and of the gather, scatter and slice records; the copies have the same
  fields, so the stages built from them agree.
-/
import proofs.«113410_j5944234737805_1_alg».proof.Proof.KHost
import proofs.«113410_j5944234737805_1_alg».proof.Proof.RefStages
import proofs.«113410_j5944234737805_1_alg».proof.Proof.LibDense

noncomputable section

namespace Cert.Join

open Idealize.ShloMosaic Idealize.ShloMosaic.TcCoe

variable {F : FTy → Type} [FloatOps F]

/-- The features plus their neighbour sum, in both spellings. -/
theorem rst_eq (h : Cert.KernelIdeal.KHost.Mat F) (src dst : Cert.KernelIdeal.KHost.Ix F) :
    Cert.KernelIdeal.KHost.rst h src dst = Cert.ReferenceIdeal.RefRun.refRst h src dst := rfl

/-- Matrix 0 of a stacked parameter, in both spellings. -/
theorem mat0_eq (p : (⟨Cert.KernelIdeal.S5x128x128, .f32⟩ : BufTy).Contents (Elt F)) :
    Cert.KernelIdeal.KHost.mat0 p
      = Cert.ReferenceIdeal.RefRun.refMat 0 Cert.ReferenceIdeal.Gen.slices_S5x128x128_S1x128x128_0_0_0 p := rfl

section Rows

open Idealize.ShloMosaic.ValueIdx

/-- Row 0 of a stacked parameter as a 1 × 128 array: the kernel program's flatten-and-reshape is the reference's row made a
    one-row matrix. -/
theorem row0_eq_bias (p : (⟨Cert.KernelIdeal.S5x128, .f32⟩ : BufTy).Contents (Elt Ideal)) :
    Cert.KernelIdeal.KHost.row0 p
      = broadcastInDim Cert.ReferenceIdeal.S1x128 ![1] Cert.ReferenceIdeal.Gen.bcast_S128_S1x128_1
          (Cert.ReferenceIdeal.RefRun.refRow 0 Cert.ReferenceIdeal.Gen.slices_S5x128_S1x128_0_0 p) :=
  (DenseSpec.broadcastInDim_row_eq_shapeCast _ Cert.KernelIdeal.Gen.shapeCasts_S128_S1x128 _).symm

/-- The same row read at a column. -/
theorem row0_apply (p : (⟨Cert.KernelIdeal.S5x128, .f32⟩ : BufTy).Contents (Elt Ideal)) (c : Fin 128) :
    Cert.KernelIdeal.KHost.row0 p (ix2 (0 : Fin 1) c)
      = Cert.ReferenceIdeal.RefRun.refRow 0 Cert.ReferenceIdeal.Gen.slices_S5x128_S1x128_0_0 p (ix1 c) :=
  DenseSpec.shapeCast_row_apply _ Cert.KernelIdeal.Gen.shapeCasts_S128_S1x128 (0 : Fin 1) c

end Rows

end Cert.Join

end
-- ==== Proof.JoinRows.lean ====
/- Row l of a stacked parameter in the kernel program's spelling and in the reference's are the same arrays, for any
   row number: the kernel program flattens the 1 × 128 slice and makes it a row again, the reference flattens it and
   broadcasts it to one row; read at column c both are the slice at c. The matrices are spelt alike. -/
import proofs.«113410_j5944234737805_1_alg».proof.Proof.KHostRows
import proofs.«113410_j5944234737805_1_alg».proof.Proof.Join

noncomputable section

namespace Cert.Join

open Idealize.ShloMosaic Idealize.ShloMosaic.TcCoe

variable {F : FTy → Type} [FloatOps F]

/-- Matrix `l` of a stacked parameter, in both spellings. -/
theorem matL_eq (l : ℕ) (hs : Cert.KernelIdeal.S5x128x128.Slices ![l, 0, 0] Cert.KernelIdeal.S1x128x128)
    (hs' : Cert.ReferenceIdeal.S5x128x128.Slices ![l, 0, 0] Cert.ReferenceIdeal.S1x128x128)
    (p : (⟨Cert.KernelIdeal.S5x128x128, .f32⟩ : BufTy).Contents (Elt F)) :
    Cert.KernelIdeal.KHost.matL l hs p = Cert.ReferenceIdeal.RefRun.refMat l hs' p := rfl

section Rows

open Idealize.ShloMosaic.ValueIdx

/-- Row `l` of a stacked parameter as a 1 × 128 array: the kernel program's flatten-and-reshape is the reference's row made
    a one-row matrix. -/
theorem rowL_eq_bias (l : ℕ) (hs : Cert.KernelIdeal.S5x128.Slices ![l, 0] Cert.KernelIdeal.S1x128)
    (hs' : Cert.ReferenceIdeal.S5x128.Slices ![l, 0] Cert.ReferenceIdeal.S1x128)
    (p : (⟨Cert.KernelIdeal.S5x128, .f32⟩ : BufTy).Contents (Elt Ideal)) :
    Cert.KernelIdeal.KHost.rowL l hs p
      = broadcastInDim Cert.ReferenceIdeal.S1x128 ![1] Cert.ReferenceIdeal.Gen.bcast_S128_S1x128_1
          (Cert.ReferenceIdeal.RefRun.refRow l hs' p) :=
  (DenseSpec.broadcastInDim_row_eq_shapeCast _ Cert.KernelIdeal.Gen.shapeCasts_S128_S1x128 _).symm

/-- The same row read at a column. -/
theorem rowL_apply (l : ℕ) (hs : Cert.KernelIdeal.S5x128.Slices ![l, 0] Cert.KernelIdeal.S1x128)
    (hs' : Cert.ReferenceIdeal.S5x128.Slices ![l, 0] Cert.ReferenceIdeal.S1x128)
    (p : (⟨Cert.KernelIdeal.S5x128, .f32⟩ : BufTy).Contents (Elt Ideal)) (c : Fin 128) :
    Cert.KernelIdeal.KHost.rowL l hs p (ix2 (0 : Fin 1) c) = Cert.ReferenceIdeal.RefRun.refRow l hs' p (ix1 c) :=
  DenseSpec.shapeCast_row_apply _ Cert.KernelIdeal.Gen.shapeCasts_S128_S1x128 (0 : Fin 1) c

end Rows

end Cert.Join

end
-- ==== Proof.RefReadLinear.lean ====
/- The reference's linear stage at the exact (extended-real) values, read as a dense layer.

   At the exact values a matrix product has no rounding and no order of accumulation: entry (r, c) of `x · W` is the
   plain sum over k of `x(r, k) · W(k, c)`. The stage adds the bias vector, first made a one-row matrix and then
   repeated down the 50000 rows, so entry (r, c) of the stage is that sum plus `b(c)`: the dense layer of `x`, `W` and
   the one-row bias. The program's record of the product's dimension numbers (contract the left operand's columns
   with the right operand's rows, no batch axis) is the plain rows-by-columns record. -/
import proofs.«113410_j5944234737805_1_alg».proof.Proof.RefStages
import proofs.«113410_j5944234737805_1_alg».proof.Proof.LibDense

noncomputable section

namespace Cert.ReferenceIdeal.RefRead

open Cert.ReferenceIdeal Cert.ReferenceIdeal.Gen Cert.ReferenceIdeal.RefRun Idealize.ShloMosaic Idealize.ShloMosaic.ValueIdx

/-- The program's dimension numbers for the 50000 × 128 by 128 × 128 product are the plain rows-by-columns ones. -/
theorem dot_eq : dot_S50000x128_S128x128_S50000x128_1_0_0_1_n_n = PlainProduct.plainDims 50000 128 128 dot_S50000x128_S128x128_S50000x128_1_0_0_1_n_n_wf := rfl

/-- The linear stage is the dense layer of its operand, the weights and the bias as a one-row matrix. -/
theorem refLinear_eq (x : Mat Ideal) (W : Sq Ideal) (b : Vec Ideal) :
    refLinear x W b = DenseSpec.dense x W (broadcastInDim S1x128 ![1] bcast_S128_S1x128_1 b) := by
  unfold refLinear refRowB
  rw [dot_eq]
  exact DenseSpec.dotGeneral_bias dot_S50000x128_S128x128_S50000x128_1_0_0_1_n_n_wf none x W (broadcastInDim S1x128 ![1] bcast_S128_S1x128_1 b)
    bcast_S1x128_S50000x128_0_1

end Cert.ReferenceIdeal.RefRead

end
-- ==== Proof.RefReadNorm.lean ====
/- The reference's normalisation stages at the exact (extended-real) values, read entry by entry.

   A vector repeated down the rows reads, at (r, c), the vector at c. A column sum over the 50000 rows, started from
   the zero word, is the plain sum of the column. So the stage's column mean at c is the column sum divided by the
   real 50000 (the word 0x47435000). The variance helper divides by `50000 - ddof` with `ddof` the integer 0
   converted to a float, which is the real 50000 again; its guard `50000 - 0 > 0` holds, so its select returns the
   quotient: the sum over the rows of the squared deviations from the column mean, divided by 50000 — the centred
   variance. Batch normalisation followed by the rectifier is then, entry by entry,
   `max (g(c) · (x(r,c) − mean(c)) · rsqrt (var(c) + ε) + b(c)) 0`, with ε the value of the word 0x3727C5AC and the
   reciprocal square root the exact one. -/
import proofs.«113410_j5944234737805_1_alg».proof.Proof.RefStages
import proofs.«113410_j5944234737805_1_alg».proof.Proof.LibBatchNorm
import proofs.«113410_j5944234737805_1_alg».proof.Proof.GinConsts
import Idealize.ShloMosaic.Lib.Pipeline.Value

noncomputable section

namespace Cert.ReferenceIdeal.RefRead

open Cert.ReferenceIdeal Cert.ReferenceIdeal.Gen Cert.ReferenceIdeal.RefRun Idealize.ShloMosaic Idealize.ShloMosaic.ValueIdx
open Cert.LibMoments

/-- A vector of 128 made a one-row matrix reads, at (u, c), the vector at c. -/
theorem row1_apply (v : Vec Ideal) (u : Fin 1) (c : Fin 128) :
    broadcastInDim S1x128 ![1] bcast_S128_S1x128_1 v (ix2 u c) = v (ix1 c) := by
  refine broadcastInDim_apply _ bcast_S128_S1x128_1 v (ix2 u c) (ix1 c) fun ax => ?_
  match ax with
  | ⟨0, _⟩ => rfl

/-- A one-row matrix repeated down the 50000 rows reads, at (r, c), the row at c. -/
theorem rows_apply (y : (⟨S1x128, .f32⟩ : BufTy).Contents (Elt Ideal)) (r : Fin 50000) (c : Fin 128) :
    broadcastInDim S50000x128 ![0, 1] bcast_S1x128_S50000x128_0_1 y (ix2 r c) = y (ix2 (0 : Fin 1) c) := by
  refine broadcastInDim_apply _ bcast_S1x128_S50000x128_0_1 y (ix2 r c) (ix2 (0 : Fin 1) c) fun ax => ?_
  match ax with
  | ⟨0, _⟩ => rfl
  | ⟨1, _⟩ => rfl

/-- A vector repeated down the rows reads, at (r, c), the vector at c. -/
theorem refRowB_apply (v : Vec Ideal) (r : Fin 50000) (c : Fin 128) : refRowB v (ix2 r c) = v (ix1 c) := by
  unfold refRowB
  rw [rows_apply, row1_apply]

/-- The column sums, started from the zero word, are the plain column sums. -/
theorem refColSum_apply (x : Mat Ideal) (c : Fin 128) : refColSum x (ix1 c) = BatchNormSpec.colSum x c := by
  have h : S50000x128.Reduces [0] S128 := by decide
  show Ideal.hostReduceAdd reducesTo_S50000x128_S128_d0 x (Ideal.ofBits .f32 0x00000000#32) (ix1 c) = _
  rw [Ideal.hostReduceAdd_single reducesTo_S50000x128_S128_d0 h, Ideal.ofBits_zero_f32, zero_add]
  unfold BatchNormSpec.colSum
  exact Finset.sum_congr rfl fun k _ => congrArg x (funext fun a => Fin.ext (by
    match a with
    | ⟨0, _⟩ => rfl
    | ⟨1, _⟩ => rfl))

/-- The stage's column mean is the column sum divided by the real 50000. -/
theorem refMean_apply (x : Mat Ideal) (c : Fin 128) : refMean x (ix1 c) = BatchNormSpec.mean 50000 x c := by
  show Ideal.div (refColSum x (ix1 c)) (Ideal.ofBits .f32 0x47435000#32) = _
  rw [refColSum_apply, GinConsts.ofBits_50000]
  rfl

/-- The variance helper's divisor `50000 - 0` is the real 50000, at whatever index the scalar is read. -/
theorem refVarDen_apply (i : S_.Idx) : refVarDen (F := Ideal) i = ((50000 : ℝ) : EReal) := by
  show Ideal.ofBits .f32 0x47435000#32 - (((0#32 : BitVec 32).toInt : ℝ) : EReal) = _
  rw [GinConsts.ofBits_50000]
  simp

/-- The deviations from the column mean, entry by entry. -/
theorem refCentred_apply (x : Mat Ideal) (r : Fin 50000) (c : Fin 128) :
    refCentred x (ix2 r c) = x (ix2 r c) - BatchNormSpec.mean 50000 x c := by
  unfold refCentred
  rw [subf_apply, rows_apply]
  show x (ix2 r c) - Ideal.div (broadcastInDim S1x128 ![1] bcast_S128_S1x128_1 (refColSum x) (ix2 (0 : Fin 1) c))
    (Ideal.ofBits .f32 0x47435000#32) = _
  rw [row1_apply, refColSum_apply, GinConsts.ofBits_50000]
  rfl

/-- The variance helper's result is the centred variance with count 50000. -/
theorem refVar_apply (x : Mat Ideal) (c : Fin 128) : refVar x (ix1 c) = BatchNormSpec.varCentred 50000 x c := by
  unfold refVar
  rw [select_apply]
  have hg : broadcastInDim S128 ![] bcast_S_S128
      (cmpf (F := Ideal) .ogt (refVarDen (F := Ideal)) (constant (F := Ideal) S_ .f32 0x00000000#32)) (ix1 c) = 1#1 := by
    show Ideal.cmp .ogt (refVarDen (F := Ideal) _) (Ideal.ofBits .f32 0x00000000#32) = 1#1
    rw [refVarDen_apply, Ideal.ofBits_zero_f32]
    unfold Ideal.cmp
    simp
  rw [hg, select_one]
  show Ideal.div (refColSum (mulf (refCentred x) (refCentred x)) (ix1 c)) (refVarDen (F := Ideal) _) = _
  rw [refVarDen_apply, refColSum_apply]
  unfold BatchNormSpec.varCentred BatchNormSpec.colSum
  have hs : ∀ r : Fin 50000, mulf (refCentred x) (refCentred x) (ix2 r c)
      = (x (ix2 r c) - BatchNormSpec.mean 50000 x c) * (x (ix2 r c) - BatchNormSpec.mean 50000 x c) := fun r => by
    rw [mulf_apply, refCentred_apply]
  simp only [hs]

/-- Batch normalisation followed by the rectifier, entry by entry. -/
theorem refRelu_refBN_eq (x : Mat Ideal) (g b : Vec Ideal) :
    refRelu (refBN x g b)
      = BatchNormSpec.normRelu (Ideal.ofBits .f32 0x3727C5AC#32) (Ideal.ofBits .f32 0x00000000#32) x
          (fun c => refMean x (ix1 c)) (fun c => refVar x (ix1 c)) (fun c => g (ix1 c)) (fun c => b (ix1 c)) := by
  funext i
  obtain ⟨r, c, rfl⟩ : ∃ (r : Fin 50000) (c : Fin 128), i = ix2 r c := ⟨i 0, i 1, eq_ix2 i⟩
  rw [BatchNormSpec.normRelu_apply]
  unfold refRelu refBN
  rw [maximumf_apply, addf_apply, mulf_apply, mulf_apply, subf_apply, refRowB_apply, refRowB_apply, refRowB_apply,
    refRowB_apply]
  rfl

end Cert.ReferenceIdeal.RefRead

end
-- ==== Proof.RefReal.lean ====
/- Realness: the reference's stages keep arrays of real numbers real.

   At the exact values every stage is built from sums, differences, products, maxima, a division by the real 50000 and
   a reciprocal square root of a positive real, applied to entries of its operands; a slice, a reshape, a broadcast and a
   gather only read an operand at some index. So a dense layer of real arrays is real; the neighbour sum (zeros plus a
   finite sum of gathered rows) of a real array is real, and so is the array plus its neighbour sum; a column mean of a
   real array is real and its centred variance a nonnegative real, so normalising with a positive epsilon, scaling,
   shifting and rectifying real data with real parameters stays real. A row (matrix) of a stacked real parameter is
   real. Hence a whole layer maps real features and real parameters to real features. -/
import proofs.«113410_j5944234737805_1_alg».proof.Proof.RefReadLinear
import proofs.«113410_j5944234737805_1_alg».proof.Proof.RefReadNorm

noncomputable section

namespace Cert.ReferenceIdeal.RefRead

open Cert.ReferenceIdeal Cert.ReferenceIdeal.Gen Cert.ReferenceIdeal.RefRun Idealize.ShloMosaic Idealize.ShloMosaic.ValueIdx
open Cert.LibMoments

/-- A row of five stacked real vectors is real. -/
theorem refRow_isReal (l : ℕ) (hs : S5x128.Slices ![l, 0] S1x128) (p : Vec5 Ideal) (hp : ∀ i, IsReal (p i)) (i) :
    IsReal (refRow l hs p i) := by
  unfold refRow shapeCast extractStridedSlice
  exact hp _

/-- A matrix of five stacked real matrices is real. -/
theorem refMat_isReal (l : ℕ) (hs : S5x128x128.Slices ![l, 0, 0] S1x128x128) (p : Sq5 Ideal) (hp : ∀ i, IsReal (p i)) (i) :
    IsReal (refMat l hs p i) := by
  unfold refMat shapeCast extractStridedSlice
  exact hp _

/-- The linear stage of real arrays is real. -/
theorem refLinear_isReal (x : Mat Ideal) (W : Sq Ideal) (b : Vec Ideal) (hx : ∀ i, IsReal (x i)) (hW : ∀ i, IsReal (W i))
    (hb : ∀ i, IsReal (b i)) (i) : IsReal (refLinear x W b i) := by
  rw [refLinear_eq]
  obtain ⟨r, c, rfl⟩ : ∃ (r : Fin 50000) (c : Fin 128), i = ix2 r c := ⟨i 0, i 1, eq_ix2 i⟩
  rw [DenseSpec.dense_apply, row1_apply]
  exact (IsReal.fintype_sum _ fun k => (hx _).mul (hW _)).add (hb _)

/-- An accumulating scatter of real updates into a real array is real, whatever the shapes: each entry is the operand's
    entry plus a finite sum of update entries. -/
theorem scatterAdd_isReal {s si u : Shape} {w : Nat} (d : ScatterDims s si u) (z : FVec Ideal s .f32) (idx : IVec si w)
    (upd : FVec Ideal u .f32) (hz : ∀ i, IsReal (z i)) (hu : ∀ j, IsReal (upd j)) (i : s.Idx) :
    IsReal (Host.scatterAdd d z idx upd i) :=
  IsReal.hostScatterAdd d z idx upd hz hu i

/-- A splat of the zero word is real, whatever the shape. -/
theorem zeros_isReal {s : Shape} (hb : S_.BroadcastsInDim s (![] : Fin 0 → Fin s.rank)) (j : s.Idx) :
    IsReal (broadcastInDim s ![] hb (constant (F := Ideal) S_ .f32 0x00000000#32) j) := by
  show IsReal (Ideal.ofBits .f32 0x00000000#32)
  rw [Ideal.ofBits_zero_f32]
  exact IsReal.zero

/-- The neighbour sum of a real array is real: zeros plus a finite sum of entries of the array. -/
theorem refAgg_isReal (h : Mat Ideal) (src dst : Ix Ideal) (hh : ∀ i, IsReal (h i)) (i) : IsReal (refAgg h src dst i) := by
  unfold refAgg
  exact scatterAdd_isReal _ _ _ _ (zeros_isReal _) (fun j => IsReal.gather _ _ _ hh j) i

/-- The features plus their neighbour sum are real when the features are. -/
theorem refRst_isReal (h : Mat Ideal) (src dst : Ix Ideal) (hh : ∀ i, IsReal (h i)) (i) : IsReal (refRst h src dst i) := by
  unfold refRst
  rw [addf_apply]
  exact (hh i).add (refAgg_isReal h src dst hh i)

/-- Batch normalisation followed by the rectifier keeps real data with real scale and shift real. -/
theorem refRelu_refBN_isReal (x : Mat Ideal) (g b : Vec Ideal) (hx : ∀ i, IsReal (x i)) (hg : ∀ i, IsReal (g i))
    (hb : ∀ i, IsReal (b i)) (i) : IsReal (refRelu (refBN x g b) i) := by
  rw [refRelu_refBN_eq]
  refine BatchNormSpec.normRelu_isReal GinConsts.ofBits_eps ?_ x _ _ _ _ hx (fun c => ?_) (fun c => ?_) (fun c => hg _)
    (fun c => hb _) i
  · rw [Ideal.ofBits_zero_f32]
    exact IsReal.zero
  · rw [refMean_apply]
    exact BatchNormSpec.mean_isReal (by norm_num) x hx c
  · rw [refVar_apply]
    exact BatchNormSpec.varCentred_nonneg (by norm_num) x hx c

/-- A layer maps real features and real parameters to real features. -/
theorem RefLayer_isReal (l : ℕ) (hs2 : S5x128.Slices ![l, 0] S1x128) (hs3 : S5x128x128.Slices ![l, 0, 0] S1x128x128)
    (h : Mat Ideal) (src dst : Ix Ideal) (W1 : Sq5 Ideal) (b1 : Vec5 Ideal) (W2 : Sq5 Ideal) (b2 g1 be1 g2 be2 g3 be3 : Vec5 Ideal)
    (hh : ∀ i, IsReal (h i)) (hW1 : ∀ i, IsReal (W1 i)) (hb1 : ∀ i, IsReal (b1 i)) (hW2 : ∀ i, IsReal (W2 i))
    (hb2 : ∀ i, IsReal (b2 i)) (hg1 : ∀ i, IsReal (g1 i)) (hbe1 : ∀ i, IsReal (be1 i)) (hg2 : ∀ i, IsReal (g2 i))
    (hbe2 : ∀ i, IsReal (be2 i)) (hg3 : ∀ i, IsReal (g3 i)) (hbe3 : ∀ i, IsReal (be3 i)) (i) :
    IsReal (RefLayer l hs2 hs3 h src dst W1 b1 W2 b2 g1 be1 g2 be2 g3 be3 i) := by
  unfold RefLayer
  have r0 := refRst_isReal h src dst hh
  have x1 := refLinear_isReal _ _ _ r0 (refMat_isReal l hs3 W1 hW1) (refRow_isReal l hs2 b1 hb1)
  have a1 := refRelu_refBN_isReal _ _ _ x1 (refRow_isReal l hs2 g1 hg1) (refRow_isReal l hs2 be1 hbe1)
  have x2 := refLinear_isReal _ _ _ a1 (refMat_isReal l hs3 W2 hW2) (refRow_isReal l hs2 b2 hb2)
  have a2 := refRelu_refBN_isReal _ _ _ x2 (refRow_isReal l hs2 g2 hg2) (refRow_isReal l hs2 be2 hbe2)
  exact refRelu_refBN_isReal _ _ _ a2 (refRow_isReal l hs2 g3 hg3) (refRow_isReal l hs2 be3 hbe3) i

end Cert.ReferenceIdeal.RefRead

end
-- ==== Proof.RefSpec.lean ====
/- The reference's layer as the specification-level layer, and realness layer by layer through the network.

   One layer of the reference is: dense layer, normalise-and-rectify, dense layer, normalise-and-rectify,
   normalise-and-rectify, applied to the features plus their neighbour sum. Read at the exact values, each linear
   stage is the dense layer of its operand with row `l` of the stacked weights and bias, and each normalisation with
   rectifier is the entrywise formula with the column mean and the centred column variance over the 50000 rows, with
   row `l` of the stacked scales and shifts; so the layer is the specification's layer with centred variances at the
   parameters read off row `l` (`refParams`). Real features and real parameters give real parameters rows and a real
   neighbour sum, hence a real layer output; feeding each layer's output to the next, every intermediate feature
   array of the five-layer network is real when the inputs are. -/
import proofs.«113410_j5944234737805_1_alg».proof.Proof.RefReal
import proofs.«113410_j5944234737805_1_alg».proof.Proof.GinSpec

noncomputable section

namespace Cert.ReferenceIdeal.RefRead

open Cert.ReferenceIdeal Cert.ReferenceIdeal.Gen Cert.ReferenceIdeal.RefRun Idealize.ShloMosaic Idealize.ShloMosaic.ValueIdx
open Cert.LibMoments

/-- The layer's parameters at row `l` of the stacked arguments: the weight matrices, the biases as one-row matrices,
    the scales and shifts as functions of the column. -/
def refParams (l : ℕ) (hs2 : S5x128.Slices ![l, 0] S1x128) (hs3 : S5x128x128.Slices ![l, 0, 0] S1x128x128)
    (W1 : Sq5 Ideal) (b1 : Vec5 Ideal) (W2 : Sq5 Ideal) (b2 g1 be1 g2 be2 g3 be3 : Vec5 Ideal) : GinSpec.Params where
  W1 := refMat l hs3 W1
  b1 := broadcastInDim S1x128 ![1] bcast_S128_S1x128_1 (refRow l hs2 b1)
  W2 := refMat l hs3 W2
  b2 := broadcastInDim S1x128 ![1] bcast_S128_S1x128_1 (refRow l hs2 b2)
  g1 := fun c => refRow l hs2 g1 (ix1 c)
  β1 := fun c => refRow l hs2 be1 (ix1 c)
  g2 := fun c => refRow l hs2 g2 (ix1 c)
  β2 := fun c => refRow l hs2 be2 (ix1 c)
  g3 := fun c => refRow l hs2 g3 (ix1 c)
  β3 := fun c => refRow l hs2 be3 (ix1 c)

/-- The row count as a real, in its two spellings. -/
theorem N_cast : ((GinSpec.N : ℕ) : ℝ) = (50000 : ℝ) := by norm_num

/-- Normalise-and-rectify, in the specification's form: the mean and the centred variance over the 50000 rows. -/
theorem refRelu_refBN_eq_bnC (x : Mat Ideal) (g b : Vec Ideal) :
    refRelu (refBN x g b)
      = GinSpec.bnC (Ideal.ofBits .f32 0x3727C5AC#32) (Ideal.ofBits .f32 0x00000000#32) x
          (fun c => g (ix1 c)) (fun c => b (ix1 c)) := by
  rw [refRelu_refBN_eq]
  unfold GinSpec.bnC
  rw [N_cast]
  have hm : (fun c => refMean x (ix1 c)) = BatchNormSpec.mean 50000 x := funext fun c => refMean_apply x c
  have hv : (fun c => refVar x (ix1 c)) = BatchNormSpec.varCentred 50000 x := funext fun c => refVar_apply x c
  rw [hm, hv]

/-- One layer of the reference is the specification's layer, with centred variances, at row `l` of the parameters. -/
theorem refLayer_eq (l : ℕ) (hs2 : S5x128.Slices ![l, 0] S1x128) (hs3 : S5x128x128.Slices ![l, 0, 0] S1x128x128)
    (h : Mat Ideal) (src dst : Ix Ideal) (W1 : Sq5 Ideal) (b1 : Vec5 Ideal) (W2 : Sq5 Ideal) (b2 g1 be1 g2 be2 g3 be3 : Vec5 Ideal) :
    RefLayer l hs2 hs3 h src dst W1 b1 W2 b2 g1 be1 g2 be2 g3 be3
      = GinSpec.layerC (Ideal.ofBits .f32 0x3727C5AC#32) (Ideal.ofBits .f32 0x00000000#32)
          (refParams l hs2 hs3 W1 b1 W2 b2 g1 be1 g2 be2 g3 be3) (refRst h src dst) := by
  unfold RefLayer GinSpec.layerC
  rw [refRelu_refBN_eq_bnC, refRelu_refBN_eq_bnC, refRelu_refBN_eq_bnC, refLinear_eq, refLinear_eq]
  rfl

/-- A real vector made a one-row matrix is real. -/
theorem row1_isReal (v : Vec Ideal) (hv : ∀ i, IsReal (v i)) (i) :
    IsReal (broadcastInDim S1x128 ![1] bcast_S128_S1x128_1 v i) := by
  unfold broadcastInDim
  exact hv _

/-- Real stacked arguments give real parameters. -/
theorem refParams_real (l : ℕ) (hs2 : S5x128.Slices ![l, 0] S1x128) (hs3 : S5x128x128.Slices ![l, 0, 0] S1x128x128)
    (W1 : Sq5 Ideal) (b1 : Vec5 Ideal) (W2 : Sq5 Ideal) (b2 g1 be1 g2 be2 g3 be3 : Vec5 Ideal)
    (hW1 : ∀ i, IsReal (W1 i)) (hb1 : ∀ i, IsReal (b1 i)) (hW2 : ∀ i, IsReal (W2 i)) (hb2 : ∀ i, IsReal (b2 i))
    (hg1 : ∀ i, IsReal (g1 i)) (hbe1 : ∀ i, IsReal (be1 i)) (hg2 : ∀ i, IsReal (g2 i)) (hbe2 : ∀ i, IsReal (be2 i))
    (hg3 : ∀ i, IsReal (g3 i)) (hbe3 : ∀ i, IsReal (be3 i)) :
    (refParams l hs2 hs3 W1 b1 W2 b2 g1 be1 g2 be2 g3 be3).Real := by
  unfold refParams
  exact
    { W1 := refMat_isReal l hs3 W1 hW1
      b1 := row1_isReal _ (refRow_isReal l hs2 b1 hb1)
      W2 := refMat_isReal l hs3 W2 hW2
      b2 := row1_isReal _ (refRow_isReal l hs2 b2 hb2)
      g1 := fun c => refRow_isReal l hs2 g1 hg1 _
      β1 := fun c => refRow_isReal l hs2 be1 hbe1 _
      g2 := fun c => refRow_isReal l hs2 g2 hg2 _
      β2 := fun c => refRow_isReal l hs2 be2 hbe2 _
      g3 := fun c => refRow_isReal l hs2 g3 hg3 _
      β3 := fun c => refRow_isReal l hs2 be3 hbe3 _ }

/-- The value of the zero word is real. -/
theorem zero_word_isReal : IsReal (Ideal.ofBits .f32 0x00000000#32) := by
  rw [Ideal.ofBits_zero_f32]
  exact IsReal.zero

/-- A layer maps real features and real stacked arguments to real features (through the specification's layer). -/
theorem refLayer_isReal (l : ℕ) (hs2 : S5x128.Slices ![l, 0] S1x128) (hs3 : S5x128x128.Slices ![l, 0, 0] S1x128x128)
    (h : Mat Ideal) (src dst : Ix Ideal) (W1 : Sq5 Ideal) (b1 : Vec5 Ideal) (W2 : Sq5 Ideal) (b2 g1 be1 g2 be2 g3 be3 : Vec5 Ideal)
    (hh : ∀ i, IsReal (h i)) (hW1 : ∀ i, IsReal (W1 i)) (hb1 : ∀ i, IsReal (b1 i)) (hW2 : ∀ i, IsReal (W2 i))
    (hb2 : ∀ i, IsReal (b2 i)) (hg1 : ∀ i, IsReal (g1 i)) (hbe1 : ∀ i, IsReal (be1 i)) (hg2 : ∀ i, IsReal (g2 i))
    (hbe2 : ∀ i, IsReal (be2 i)) (hg3 : ∀ i, IsReal (g3 i)) (hbe3 : ∀ i, IsReal (be3 i)) (i) :
    IsReal (RefLayer l hs2 hs3 h src dst W1 b1 W2 b2 g1 be1 g2 be2 g3 be3 i) := by
  rw [refLayer_eq]
  exact GinSpec.layerC_isReal GinConsts.ofBits_eps zero_word_isReal _
    (refParams_real l hs2 hs3 W1 b1 W2 b2 g1 be1 g2 be2 g3 be3 hW1 hb1 hW2 hb2 hg1 hbe1 hg2 hbe2 hg3 hbe3) _ (refRst_isReal h src dst hh) i

end Cert.ReferenceIdeal.RefRead

end
-- ==== Proof.RefOps0.lean ====
/- Statements 1 … 60 of the reference network's entry function, as a list of 83
whole-array operations in program order (part of network layer 1 of five).

Each layer of the network maps the node features `h` (50000 rows of 128) to
`relu (BN₃ (relu (BN₂ (relu (BN₁ ((h + A h) W₁ + b₁)) W₂ + b₂))))`, where `A h` adds, for every edge, row `src` of
`h` into row `dst`, and `BN x = γ · (x - mean x) · rsqrt (var x + ε) + β` with the mean and the biased variance taken
over the 50000 rows, column by column. The program spells this with elementwise arithmetic, broadcasts, row slices of
the stacked parameters, one gather and one scatter-add, matrix products and column sums.

The 1 call of the variance helper in this stretch (column mean, centred squares, their column sum divided by
`50000 - ddof`, and a select that would return NaN were that divisor not positive) and the 1 call of the rectifier
helper (maximum with a zero array) are written out as the helper's own operations over the buffers of that call, which is
what running the call does. The list, run in order, is this stretch of the program (`part0_eq`); every operation touches
device buffers only (`ops0_sub`), determines all it writes (`ops0_fresh`), and writes exactly one of the listed
buffers (`ops0_W`, `ops0_writes`), so any other buffer is the same before and after (`keep0`). -/
import proofs.«113410_j5944234737805_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 1 … 60, in order, the helper calls written out. -/
abbrev ops0 : List (HloOp τ sig (Elt F)) :=
  [ StableHlo.nullary main_c (constantI S_ 32 0#32),
    StableHlo.unary main_c main_v0 (broadcastInDim S800000 ![] bcast_S_S800000 : (⟨S_, .i32⟩ : BufTy).Contents (Elt F) → (⟨S800000, .i32⟩ : BufTy).Contents (Elt F)),
    StableHlo.binary main_arg1 main_v0 main_v1 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v2 (broadcastInDim S800000 ![] bcast_S_S800000 : (⟨S_, .i32⟩ : BufTy).Contents (Elt F) → (⟨S800000, .i32⟩ : BufTy).Contents (Elt F)),
    StableHlo.binary main_arg1 main_v2 main_v3 (addi : (⟨S800000, .i32⟩ : BufTy).Contents (Elt F) → (⟨S800000, .i32⟩ : BufTy).Contents (Elt F) → (⟨S800000, .i32⟩ : BufTy).Contents (Elt F)),
    StableHlo.ternary main_v1 main_v3 main_arg1 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v4 main_v5 (broadcastInDim S800000x1 ![0] bcast_S800000_S800000x1_0 : (⟨S800000, .i32⟩ : BufTy).Contents (Elt F) → (⟨S800000x1, .i32⟩ : BufTy).Contents (Elt F)),
    StableHlo.binary main_arg0 main_v5 main_v6 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v7 (broadcastInDim S50000x128 ![] bcast_S_S50000x128 : (⟨S_, .f32⟩ : BufTy).Contents (Elt F) → (⟨S50000x128, .f32⟩ : BufTy).Contents (Elt F)),
    StableHlo.unary main_arg2 main_v8 (broadcastInDim S800000x1 ![0] bcast_S800000_S800000x1_0 : (⟨S800000, .i32⟩ : BufTy).Contents (Elt F) → (⟨S800000x1, .i32⟩ : BufTy).Contents (Elt F)),
    StableHlo.ternary main_v7 main_v8 main_v6 main_v9 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v9 main_v10 (addf : (⟨S50000x128, .f32⟩ : BufTy).Contents (Elt F) → (⟨S50000x128, .f32⟩ : BufTy).Contents (Elt F) → (⟨S50000x128, .f32⟩ : BufTy).Contents (Elt F)),
    StableHlo.unary main_arg3 main_v11 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v11 main_v12 rfl shapeCasts_S1x128x128_S128x128,
    StableHlo.binary main_v10 main_v12 main_v13 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v14 ((extractStridedSlice S1x128 ![0, 0] · slices_S5x128_S1x128_0_0) : (⟨S5x128, .f32⟩ : BufTy).Contents (Elt F) → (⟨S1x128, .f32⟩ : BufTy).Contents (Elt F)),
    StableHlo.reshape main_v14 main_v15 rfl shapeCasts_S1x128_S128,
    StableHlo.unary main_v15 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v13 main_v17 main_v18 (addf : (⟨S50000x128, .f32⟩ : BufTy).Contents (Elt F) → (⟨S50000x128, .f32⟩ : BufTy).Contents (Elt F) → (⟨S50000x128, .f32⟩ : BufTy).Contents (Elt F)),
    StableHlo.unary main_arg7 main_v19 ((extractStridedSlice S1x128 ![0, 0] · slices_S5x128_S1x128_0_0) : (⟨S5x128, .f32⟩ : BufTy).Contents (Elt F) → (⟨S1x128, .f32⟩ : BufTy).Contents (Elt F)),
    StableHlo.reshape main_v19 main_v20 rfl shapeCasts_S1x128_S128,
    StableHlo.unary main_arg8 main_v21 ((extractStridedSlice S1x128 ![0, 0] · slices_S5x128_S1x128_0_0) : (⟨S5x128, .f32⟩ : BufTy).Contents (Elt F) → (⟨S1x128, .f32⟩ : BufTy).Contents (Elt F)),
    StableHlo.reshape main_v21 main_v22 rfl shapeCasts_S1x128_S128,
    StableHlo.nullary main_cst_1 (constant S_ .f32 0x00000000#32),
    StableHlo.binary main_v18 main_cst_1 main_v23 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v24 (broadcastInDim S128 ![] bcast_S_S128 : (⟨S_, .f32⟩ : BufTy).Contents (Elt F) → (⟨S128, .f32⟩ : BufTy).Contents (Elt F)),
    StableHlo.binary main_v23 main_v24 main_v25 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (StableHlo.TRef.of main_v18 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (StableHlo.TRef.of main_v18 : StableHlo.TRef sig ⟨S50000x128, .f32⟩) main_call0.v4 main_call0.v5 subf,
    StableHlo.TRef.binary main_call0.v5 main_call0.v5 main_call0.v6 mulf,
    StableHlo.TRef.unary (StableHlo.TRef.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v25 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S50000x128 ![0, 1] bcast_S1x128_S50000x128_0_1 : (⟨S1x128, .f32⟩ : BufTy).Contents (Elt F) → (⟨S50000x128, .f32⟩ : BufTy).Contents (Elt F)),
    StableHlo.binary main_v18 main_v28 main_v29 (subf : (⟨S50000x128, .f32⟩ : BufTy).Contents (Elt F) → (⟨S50000x128, .f32⟩ : BufTy).Contents (Elt F) → (⟨S50000x128, .f32⟩ : BufTy).Contents (Elt F)),
    StableHlo.unary main_v20 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v29 main_v32 (mulf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v33 (broadcastInDim S128 ![] bcast_S_S128 : (⟨S_, .f32⟩ : BufTy).Contents (Elt F) → (⟨S128, .f32⟩ : BufTy).Contents (Elt F)),
    StableHlo.binary main_v26 main_v33 main_v34 (addf : (⟨S128, .f32⟩ : BufTy).Contents (Elt F) → (⟨S128, .f32⟩ : BufTy).Contents (Elt F) → (⟨S128, .f32⟩ : BufTy).Contents (Elt F)),
    StableHlo.unary main_v34 main_v35 (Host.rsqrt : (⟨S128, .f32⟩ : BufTy).Contents (Elt F) → (⟨S128, .f32⟩ : BufTy).Contents (Elt F)),
    StableHlo.unary main_v35 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S50000x128 ![0, 1] bcast_S1x128_S50000x128_0_1 : (⟨S1x128, .f32⟩ : BufTy).Contents (Elt F) → (⟨S50000x128, .f32⟩ : BufTy).Contents (Elt F)),
    StableHlo.binary main_v32 main_v37 main_v38 (mulf : (⟨S50000x128, .f32⟩ : BufTy).Contents (Elt F) → (⟨S50000x128, .f32⟩ : BufTy).Contents (Elt F) → (⟨S50000x128, .f32⟩ : BufTy).Contents (Elt F)),
    StableHlo.unary main_v22 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v40 main_v41 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (StableHlo.TRef.of main_v41 : StableHlo.TRef sig ⟨S50000x128, .f32⟩) main_call1.v0 main_call1.v1 maximumf,
    StableHlo.unary main_arg5 main_v43 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v43 main_v44 rfl shapeCasts_S1x128x128_S128x128,
    StableHlo.binary main_v42 main_v44 main_v45 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v46 ((extractStridedSlice S1x128 ![0, 0] · slices_S5x128_S1x128_0_0) : (⟨S5x128, .f32⟩ : BufTy).Contents (Elt F) → (⟨S1x128, .f32⟩ : BufTy).Contents (Elt F)),
    StableHlo.reshape main_v46 main_v47 rfl shapeCasts_S1x128_S128,
    StableHlo.unary main_v47 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v49 main_v50 (addf : (⟨S50000x128, .f32⟩ : BufTy).Contents (Elt F) → (⟨S50000x128, .f32⟩ : BufTy).Contents (Elt F) → (⟨S50000x128, .f32⟩ : BufTy).Contents (Elt F)),
    StableHlo.unary main_arg9 main_v51 ((extractStridedSlice S1x128 ![0, 0] · slices_S5x128_S1x128_0_0) : (⟨S5x128, .f32⟩ : BufTy).Contents (Elt F) → (⟨S1x128, .f32⟩ : BufTy).Contents (Elt F)),
    StableHlo.reshape main_v51 main_v52 rfl shapeCasts_S1x128_S128 ]

set_option maxRecDepth 16384 in
set_option maxHeartbeats 4000000 in
/-- This stretch of the program is its operations run in order: unfolding the helpers at their calls and
    re-associating the sequencing leaves the same chain of steps on both sides. -/
theorem part0_eq (c : Dev nD) : main_part0 (F := F) c = seq ops0 := by
  simp only [main_part0, fn_var.body, fn_where.body, fn_relu.body, seq, bind_assoc, pure_bind]
  rfl

set_option maxRecDepth 16384 in
/-- Every operation of the stretch touches buffers of the device only. -/
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., unary_bufs_sub .., reshape_bufs_sub ..⟩

set_option maxRecDepth 16384 in
/-- Every operation of the stretch determines what it writes (none leaves a buffer with unspecified contents). -/
theorem ops0_fresh : ∀ op ∈ (ops0 : List (HloOp τ sig (Elt F))), op.fresh = ∅ :=
  List.forall_iff_forall_mem.mp (show (ops0 : List (HloOp τ sig (Elt F))).Forall (fun op => op.fresh = ∅) from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩)

/-- The buffers the stretch writes: one per operation, in order. -/
abbrev ops0_W : List (Ref sig .tc) :=
  [main_c, main_v0, main_v1, main_c_0, main_v2, main_v3, main_v4, main_v5,
    main_v6, main_cst, main_v7, main_v8, main_v9, main_v10, main_v11, main_v12,
    main_v13, main_v14, main_v15, main_v16, main_v17, main_v18, main_v19, main_v20,
    main_v21, main_v22, main_cst_1, main_v23, main_cst_2, main_v24, main_v25, main_c_3,
    main_call0_cst, main_call0_v0, main_call0_v1, main_call0_cst_0, main_call0_v2, main_call0_v3, main_call0_v4, main_call0_v5,
    main_call0_v6, main_call0_v7, main_call0_cst_1, main_call0_v8, main_call0_cst_2, main_call0_v9, main_call0_v10, main_call0_v11,
    main_call0_cst_3, main_call0_v12, main_call0_cst_4, main_call0_call0_v0, main_call0_call0_v1, main_v26, main_v27, main_v28,
    main_v29, main_v30, main_v31, main_v32, main_cst_4, main_v33, main_v34, main_v35,
    main_v36, main_v37, main_v38, main_v39, main_v40, main_v41, main_call1_cst, main_call1_v0,
    main_v42, main_v43, main_v44, main_v45, main_v46, main_v47, main_v48, main_v49,
    main_v50, main_v51, main_v52]

set_option maxRecDepth 16384 in
set_option maxHeartbeats 4000000 in
/-- Each operation writes only its own result buffer, which is in the list. -/
theorem ops0_writes : (ops0 : List (HloOp τ sig (Elt F))).Forall fun op =>
    op.writes ⊆ (ops0_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer the stretch does not write holds afterwards what it held before. -/
theorem keep0 (V : Valuation τ sig (Elt F)) (r : Ref sig .tc) (h : r ∉ ops0_W) :
    after ops0 V (Proc.devRef .tc r) = V (Proc.devRef .tc r) :=
  after_of_writes_sub ops0 V ops0_writes h

end Cert.ReferenceIdeal.RefRun

end
-- ==== Proof.RefOps1.lean ====
/- Statements 61 … 120 of the reference network's entry function, as a list of 106
whole-array operations in program order (part of network layers 1 and 2 of five).

Each layer of the network maps the node features `h` (50000 rows of 128) to
`relu (BN₃ (relu (BN₂ (relu (BN₁ ((h + A h) W₁ + b₁)) W₂ + b₂))))`, where `A h` adds, for every edge, row `src` of
`h` into row `dst`, and `BN x = γ · (x - mean x) · rsqrt (var x + ε) + β` with the mean and the biased variance taken
over the 50000 rows, column by column. The program spells this with elementwise arithmetic, broadcasts, row slices of
the stacked parameters, one gather and one scatter-add, matrix products and column sums.

The 2 calls of the variance helper in this stretch (column mean, centred squares, their column sum divided by
`50000 - ddof`, and a select that would return NaN were that divisor not positive) and the 2 calls of the rectifier
helper (maximum with a zero array) are written out as the helper's own operations over the buffers of that call, which is
what running the call does. The list, run in order, is this stretch of the program (`part1_eq`); every operation touches
device buffers only (`ops1_sub`), determines all it writes (`ops1_fresh`), and writes exactly one of the listed
buffers (`ops1_W`, `ops1_writes`), so any other buffer is the same before and after (`keep1`). -/
import proofs.«113410_j5944234737805_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 61 … 120, in order, the helper calls written out. -/
abbrev ops1 : List (HloOp τ sig (Elt F)) :=
  [ StableHlo.unary main_arg10 main_v53 ((extractStridedSlice S1x128 ![0, 0] · slices_S5x128_S1x128_0_0) : (⟨S5x128, .f32⟩ : BufTy).Contents (Elt F) → (⟨S1x128, .f32⟩ : BufTy).Contents (Elt F)),
    StableHlo.reshape main_v53 main_v54 rfl shapeCasts_S1x128_S128,
    StableHlo.nullary main_cst_5 (constant S_ .f32 0x00000000#32),
    StableHlo.binary main_v50 main_cst_5 main_v55 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v56 (broadcastInDim S128 ![] bcast_S_S128 : (⟨S_, .f32⟩ : BufTy).Contents (Elt F) → (⟨S128, .f32⟩ : BufTy).Contents (Elt F)),
    StableHlo.binary main_v55 main_v56 main_v57 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call2.cst (constant S_ .f32 0x00000000#32),
    StableHlo.TRef.binary (StableHlo.TRef.of main_v50 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (StableHlo.TRef.of main_v50 : StableHlo.TRef sig ⟨S50000x128, .f32⟩) main_call2.v4 main_call2.v5 subf,
    StableHlo.TRef.binary main_call2.v5 main_call2.v5 main_call2.v6 mulf,
    StableHlo.TRef.unary (StableHlo.TRef.of main_c_7 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v57 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v60 main_v61 (subf : (⟨S50000x128, .f32⟩ : BufTy).Contents (Elt F) → (⟨S50000x128, .f32⟩ : BufTy).Contents (Elt F) → (⟨S50000x128, .f32⟩ : BufTy).Contents (Elt F)),
    StableHlo.unary main_v52 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v61 main_v64 (mulf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v65 (broadcastInDim S128 ![] bcast_S_S128 : (⟨S_, .f32⟩ : BufTy).Contents (Elt F) → (⟨S128, .f32⟩ : BufTy).Contents (Elt F)),
    StableHlo.binary main_v58 main_v65 main_v66 (addf : (⟨S128, .f32⟩ : BufTy).Contents (Elt F) → (⟨S128, .f32⟩ : BufTy).Contents (Elt F) → (⟨S128, .f32⟩ : BufTy).Contents (Elt F)),
    StableHlo.unary main_v66 main_v67 (Host.rsqrt : (⟨S128, .f32⟩ : BufTy).Contents (Elt F) → (⟨S128, .f32⟩ : BufTy).Contents (Elt F)),
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v69 main_v70 (mulf : (⟨S50000x128, .f32⟩ : BufTy).Contents (Elt F) → (⟨S50000x128, .f32⟩ : BufTy).Contents (Elt F) → (⟨S50000x128, .f32⟩ : BufTy).Contents (Elt F)),
    StableHlo.unary main_v54 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v70 main_v72 main_v73 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (StableHlo.TRef.of main_v73 : StableHlo.TRef sig ⟨S50000x128, .f32⟩) main_call3.v0 main_call3.v1 maximumf,
    StableHlo.unary main_arg11 main_v75 ((extractStridedSlice S1x128 ![0, 0] · slices_S5x128_S1x128_0_0) : (⟨S5x128, .f32⟩ : BufTy).Contents (Elt F) → (⟨S1x128, .f32⟩ : BufTy).Contents (Elt F)),
    StableHlo.reshape main_v75 main_v76 rfl shapeCasts_S1x128_S128,
    StableHlo.unary main_arg12 main_v77 ((extractStridedSlice S1x128 ![0, 0] · slices_S5x128_S1x128_0_0) : (⟨S5x128, .f32⟩ : BufTy).Contents (Elt F) → (⟨S1x128, .f32⟩ : BufTy).Contents (Elt F)),
    StableHlo.reshape main_v77 main_v78 rfl shapeCasts_S1x128_S128,
    StableHlo.nullary main_cst_9 (constant S_ .f32 0x00000000#32),
    StableHlo.binary main_v74 main_cst_9 main_v79 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v80 (broadcastInDim S128 ![] bcast_S_S128 : (⟨S_, .f32⟩ : BufTy).Contents (Elt F) → (⟨S128, .f32⟩ : BufTy).Contents (Elt F)),
    StableHlo.binary main_v79 main_v80 main_v81 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call4.cst (constant S_ .f32 0x00000000#32),
    StableHlo.TRef.binary (StableHlo.TRef.of main_v74 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (StableHlo.TRef.of main_v74 : StableHlo.TRef sig ⟨S50000x128, .f32⟩) main_call4.v4 main_call4.v5 subf,
    StableHlo.TRef.binary main_call4.v5 main_call4.v5 main_call4.v6 mulf,
    StableHlo.TRef.unary (StableHlo.TRef.of main_c_11 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v81 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v84 main_v85 (subf : (⟨S50000x128, .f32⟩ : BufTy).Contents (Elt F) → (⟨S50000x128, .f32⟩ : BufTy).Contents (Elt F) → (⟨S50000x128, .f32⟩ : BufTy).Contents (Elt F)),
    StableHlo.unary main_v76 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v85 main_v88 (mulf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v89 (broadcastInDim S128 ![] bcast_S_S128 : (⟨S_, .f32⟩ : BufTy).Contents (Elt F) → (⟨S128, .f32⟩ : BufTy).Contents (Elt F)),
    StableHlo.binary main_v82 main_v89 main_v90 (addf : (⟨S128, .f32⟩ : BufTy).Contents (Elt F) → (⟨S128, .f32⟩ : BufTy).Contents (Elt F) → (⟨S128, .f32⟩ : BufTy).Contents (Elt F)),
    StableHlo.unary main_v90 main_v91 (Host.rsqrt : (⟨S128, .f32⟩ : BufTy).Contents (Elt F) → (⟨S128, .f32⟩ : BufTy).Contents (Elt F)),
    StableHlo.unary main_v91 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v88 main_v93 main_v94 (mulf : (⟨S50000x128, .f32⟩ : BufTy).Contents (Elt F) → (⟨S50000x128, .f32⟩ : BufTy).Contents (Elt F) → (⟨S50000x128, .f32⟩ : BufTy).Contents (Elt F)),
    StableHlo.unary main_v78 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v96 main_v97 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (StableHlo.TRef.of main_v97 : StableHlo.TRef sig ⟨S50000x128, .f32⟩) main_call5.v0 main_call5.v1 maximumf,
    StableHlo.nullary main_c_13 (constantI S_ 32 0#32),
    StableHlo.unary main_c_13 main_v99 (broadcastInDim S800000 ![] bcast_S_S800000 : (⟨S_, .i32⟩ : BufTy).Contents (Elt F) → (⟨S800000, .i32⟩ : BufTy).Contents (Elt F)),
    StableHlo.binary main_arg1 main_v99 main_v100 (cmpi .slt : (⟨S800000, .i32⟩ : BufTy).Contents (Elt F) → (⟨S800000, .i32⟩ : BufTy).Contents (Elt F) → (⟨S800000, .i1⟩ : BufTy).Contents (Elt F)),
    StableHlo.nullary main_c_14 (constantI S_ 32 50000#32),
    StableHlo.unary main_c_14 main_v101 (broadcastInDim S800000 ![] bcast_S_S800000 : (⟨S_, .i32⟩ : BufTy).Contents (Elt F) → (⟨S800000, .i32⟩ : BufTy).Contents (Elt F)),
    StableHlo.binary main_arg1 main_v101 main_v102 (addi : (⟨S800000, .i32⟩ : BufTy).Contents (Elt F) → (⟨S800000, .i32⟩ : BufTy).Contents (Elt F) → (⟨S800000, .i32⟩ : BufTy).Contents (Elt F)) ]

set_option maxRecDepth 16384 in
set_option maxHeartbeats 4000000 in
/-- This stretch of the program is its operations run in order: unfolding the helpers at their calls and
    re-associating the sequencing leaves the same chain of steps on both sides. -/
theorem part1_eq (c : Dev nD) : main_part1 (F := F) c = seq ops1 := by
  simp only [main_part1, fn_var.body, fn_where.body, fn_relu.body, seq, bind_assoc, pure_bind]
  rfl

set_option maxRecDepth 16384 in
/-- Every operation of the stretch touches buffers of the device only. -/
theorem ops1_sub : (ops1 : List (HloOp τ sig (Elt F))).Forall fun op => op.bufs ⊆ tcRefs τ sig :=
  ⟨unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., reshape_bufs_sub .., unary_bufs_sub .., reshape_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub ..⟩

set_option maxRecDepth 16384 in
/-- Every operation of the stretch determines what it writes (none leaves a buffer with unspecified contents). -/
theorem ops1_fresh : ∀ op ∈ (ops1 : List (HloOp τ sig (Elt F))), op.fresh = ∅ :=
  List.forall_iff_forall_mem.mp (show (ops1 : List (HloOp τ sig (Elt F))).Forall (fun op => op.fresh = ∅) from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩)

/-- The buffers the stretch writes: one per operation, in order. -/
abbrev ops1_W : List (Ref sig .tc) :=
  [main_v53, main_v54, main_cst_5, main_v55, main_cst_6, main_v56, main_v57, main_c_7,
    main_call2_cst, main_call2_v0, main_call2_v1, main_call2_cst_0, main_call2_v2, main_call2_v3, main_call2_v4, main_call2_v5,
    main_call2_v6, main_call2_v7, main_call2_cst_1, main_call2_v8, main_call2_cst_2, main_call2_v9, main_call2_v10, main_call2_v11,
    main_call2_cst_3, main_call2_v12, main_call2_cst_4, main_call2_call0_v0, main_call2_call0_v1, main_v58, main_v59, main_v60,
    main_v61, main_v62, main_v63, main_v64, main_cst_8, main_v65, main_v66, main_v67,
    main_v68, main_v69, main_v70, main_v71, main_v72, main_v73, main_call3_cst, main_call3_v0,
    main_v74, main_v75, main_v76, main_v77, main_v78, main_cst_9, main_v79, main_cst_10,
    main_v80, main_v81, main_c_11, main_call4_cst, main_call4_v0, main_call4_v1, main_call4_cst_0, main_call4_v2,
    main_call4_v3, main_call4_v4, main_call4_v5, main_call4_v6, main_call4_v7, main_call4_cst_1, main_call4_v8, main_call4_cst_2,
    main_call4_v9, main_call4_v10, main_call4_v11, main_call4_cst_3, main_call4_v12, main_call4_cst_4, main_call4_call0_v0, main_call4_call0_v1,
    main_v82, main_v83, main_v84, main_v85, main_v86, main_v87, main_v88, main_cst_12,
    main_v89, main_v90, main_v91, main_v92, main_v93, main_v94, main_v95, main_v96,
    main_v97, main_call5_cst, main_call5_v0, main_v98, main_c_13, main_v99, main_v100, main_c_14,
    main_v101, main_v102]

set_option maxRecDepth 16384 in
set_option maxHeartbeats 4000000 in
/-- Each operation writes only its own result buffer, which is in the list. -/
theorem ops1_writes : (ops1 : List (HloOp τ sig (Elt F))).Forall fun op =>
    op.writes ⊆ (ops1_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer the stretch does not write holds afterwards what it held before. -/
theorem keep1 (V : Valuation τ sig (Elt F)) (r : Ref sig .tc) (h : r ∉ ops1_W) :
    after ops1 V (Proc.devRef .tc r) = V (Proc.devRef .tc r) :=
  after_of_writes_sub ops1 V ops1_writes h

end Cert.ReferenceIdeal.RefRun

end
-- ==== Proof.RefOps2.lean ====
/- Statements 121 … 180 of the reference network's entry function, as a list of 83
whole-array operations in program order (part of network layer 2 of five).

Each layer of the network maps the node features `h` (50000 rows of 128) to
`relu (BN₃ (relu (BN₂ (relu (BN₁ ((h + A h) W₁ + b₁)) W₂ + b₂))))`, where `A h` adds, for every edge, row `src` of
`h` into row `dst`, and `BN x = γ · (x - mean x) · rsqrt (var x + ε) + β` with the mean and the biased variance taken
over the 50000 rows, column by column. The program spells this with elementwise arithmetic, broadcasts, row slices of
the stacked parameters, one gather and one scatter-add, matrix products and column sums.

The 1 call of the variance helper in this stretch (column mean, centred squares, their column sum divided by
`50000 - ddof`, and a select that would return NaN were that divisor not positive) and the 1 call of the rectifier
helper (maximum with a zero array) are written out as the helper's own operations over the buffers of that call, which is
what running the call does. The list, run in order, is this stretch of the program (`part2_eq`); every operation touches
device buffers only (`ops2_sub`), determines all it writes (`ops2_fresh`), and writes exactly one of the listed
buffers (`ops2_W`, `ops2_writes`), so any other buffer is the same before and after (`keep2`). -/
import proofs.«113410_j5944234737805_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 121 … 180, in order, the helper calls written out. -/
abbrev ops2 : List (HloOp τ sig (Elt F)) :=
  [ StableHlo.ternary main_v100 main_v102 main_arg1 main_v103 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v103 main_v104 (broadcastInDim S800000x1 ![0] bcast_S800000_S800000x1_0 : (⟨S800000, .i32⟩ : BufTy).Contents (Elt F) → (⟨S800000x1, .i32⟩ : BufTy).Contents (Elt F)),
    StableHlo.binary main_v98 main_v104 main_v105 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_15 (constant S_ .f32 0x00000000#32),
    StableHlo.unary main_cst_15 main_v106 (broadcastInDim S50000x128 ![] bcast_S_S50000x128 : (⟨S_, .f32⟩ : BufTy).Contents (Elt F) → (⟨S50000x128, .f32⟩ : BufTy).Contents (Elt F)),
    StableHlo.unary main_arg2 main_v107 (broadcastInDim S800000x1 ![0] bcast_S800000_S800000x1_0 : (⟨S800000, .i32⟩ : BufTy).Contents (Elt F) → (⟨S800000x1, .i32⟩ : BufTy).Contents (Elt F)),
    StableHlo.ternary main_v106 main_v107 main_v105 main_v108 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v98 main_v108 main_v109 (addf : (⟨S50000x128, .f32⟩ : BufTy).Contents (Elt F) → (⟨S50000x128, .f32⟩ : BufTy).Contents (Elt F) → (⟨S50000x128, .f32⟩ : BufTy).Contents (Elt F)),
    StableHlo.unary main_arg3 main_v110 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v110 main_v111 rfl shapeCasts_S1x128x128_S128x128,
    StableHlo.binary main_v109 main_v111 main_v112 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v113 ((extractStridedSlice S1x128 ![1, 0] · slices_S5x128_S1x128_1_0) : (⟨S5x128, .f32⟩ : BufTy).Contents (Elt F) → (⟨S1x128, .f32⟩ : BufTy).Contents (Elt F)),
    StableHlo.reshape main_v113 main_v114 rfl shapeCasts_S1x128_S128,
    StableHlo.unary main_v114 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S50000x128 ![0, 1] bcast_S1x128_S50000x128_0_1 : (⟨S1x128, .f32⟩ : BufTy).Contents (Elt F) → (⟨S50000x128, .f32⟩ : BufTy).Contents (Elt F)),
    StableHlo.binary main_v112 main_v116 main_v117 (addf : (⟨S50000x128, .f32⟩ : BufTy).Contents (Elt F) → (⟨S50000x128, .f32⟩ : BufTy).Contents (Elt F) → (⟨S50000x128, .f32⟩ : BufTy).Contents (Elt F)),
    StableHlo.unary main_arg7 main_v118 ((extractStridedSlice S1x128 ![1, 0] · slices_S5x128_S1x128_1_0) : (⟨S5x128, .f32⟩ : BufTy).Contents (Elt F) → (⟨S1x128, .f32⟩ : BufTy).Contents (Elt F)),
    StableHlo.reshape main_v118 main_v119 rfl shapeCasts_S1x128_S128,
    StableHlo.unary main_arg8 main_v120 ((extractStridedSlice S1x128 ![1, 0] · slices_S5x128_S1x128_1_0) : (⟨S5x128, .f32⟩ : BufTy).Contents (Elt F) → (⟨S1x128, .f32⟩ : BufTy).Contents (Elt F)),
    StableHlo.reshape main_v120 main_v121 rfl shapeCasts_S1x128_S128,
    StableHlo.nullary main_cst_16 (constant S_ .f32 0x00000000#32),
    StableHlo.binary main_v117 main_cst_16 main_v122 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v123 (broadcastInDim S128 ![] bcast_S_S128 : (⟨S_, .f32⟩ : BufTy).Contents (Elt F) → (⟨S128, .f32⟩ : BufTy).Contents (Elt F)),
    StableHlo.binary main_v122 main_v123 main_v124 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call6.cst (constant S_ .f32 0x00000000#32),
    StableHlo.TRef.binary (StableHlo.TRef.of main_v117 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (StableHlo.TRef.of main_v117 : StableHlo.TRef sig ⟨S50000x128, .f32⟩) main_call6.v4 main_call6.v5 subf,
    StableHlo.TRef.binary main_call6.v5 main_call6.v5 main_call6.v6 mulf,
    StableHlo.TRef.unary (StableHlo.TRef.of main_c_18 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v124 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v127 main_v128 (subf : (⟨S50000x128, .f32⟩ : BufTy).Contents (Elt F) → (⟨S50000x128, .f32⟩ : BufTy).Contents (Elt F) → (⟨S50000x128, .f32⟩ : BufTy).Contents (Elt F)),
    StableHlo.unary main_v119 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S50000x128 ![0, 1] bcast_S1x128_S50000x128_0_1 : (⟨S1x128, .f32⟩ : BufTy).Contents (Elt F) → (⟨S50000x128, .f32⟩ : BufTy).Contents (Elt F)),
    StableHlo.binary main_v130 main_v128 main_v131 (mulf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v132 (broadcastInDim S128 ![] bcast_S_S128 : (⟨S_, .f32⟩ : BufTy).Contents (Elt F) → (⟨S128, .f32⟩ : BufTy).Contents (Elt F)),
    StableHlo.binary main_v125 main_v132 main_v133 (addf : (⟨S128, .f32⟩ : BufTy).Contents (Elt F) → (⟨S128, .f32⟩ : BufTy).Contents (Elt F) → (⟨S128, .f32⟩ : BufTy).Contents (Elt F)),
    StableHlo.unary main_v133 main_v134 (Host.rsqrt : (⟨S128, .f32⟩ : BufTy).Contents (Elt F) → (⟨S128, .f32⟩ : BufTy).Contents (Elt F)),
    StableHlo.unary main_v134 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S50000x128 ![0, 1] bcast_S1x128_S50000x128_0_1 : (⟨S1x128, .f32⟩ : BufTy).Contents (Elt F) → (⟨S50000x128, .f32⟩ : BufTy).Contents (Elt F)),
    StableHlo.binary main_v131 main_v136 main_v137 (mulf : (⟨S50000x128, .f32⟩ : BufTy).Contents (Elt F) → (⟨S50000x128, .f32⟩ : BufTy).Contents (Elt F) → (⟨S50000x128, .f32⟩ : BufTy).Contents (Elt F)),
    StableHlo.unary main_v121 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v137 main_v139 main_v140 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (StableHlo.TRef.of main_v140 : StableHlo.TRef sig ⟨S50000x128, .f32⟩) main_call7.v0 main_call7.v1 maximumf,
    StableHlo.unary main_arg5 main_v142 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v142 main_v143 rfl shapeCasts_S1x128x128_S128x128,
    StableHlo.binary main_v141 main_v143 main_v144 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v145 ((extractStridedSlice S1x128 ![1, 0] · slices_S5x128_S1x128_1_0) : (⟨S5x128, .f32⟩ : BufTy).Contents (Elt F) → (⟨S1x128, .f32⟩ : BufTy).Contents (Elt F)),
    StableHlo.reshape main_v145 main_v146 rfl shapeCasts_S1x128_S128,
    StableHlo.unary main_v146 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S50000x128 ![0, 1] bcast_S1x128_S50000x128_0_1 : (⟨S1x128, .f32⟩ : BufTy).Contents (Elt F) → (⟨S50000x128, .f32⟩ : BufTy).Contents (Elt F)),
    StableHlo.binary main_v144 main_v148 main_v149 (addf : (⟨S50000x128, .f32⟩ : BufTy).Contents (Elt F) → (⟨S50000x128, .f32⟩ : BufTy).Contents (Elt F) → (⟨S50000x128, .f32⟩ : BufTy).Contents (Elt F)),
    StableHlo.unary main_arg9 main_v150 ((extractStridedSlice S1x128 ![1, 0] · slices_S5x128_S1x128_1_0) : (⟨S5x128, .f32⟩ : BufTy).Contents (Elt F) → (⟨S1x128, .f32⟩ : BufTy).Contents (Elt F)),
    StableHlo.reshape main_v150 main_v151 rfl shapeCasts_S1x128_S128,
    StableHlo.unary main_arg10 main_v152 ((extractStridedSlice S1x128 ![1, 0] · slices_S5x128_S1x128_1_0) : (⟨S5x128, .f32⟩ : BufTy).Contents (Elt F) → (⟨S1x128, .f32⟩ : BufTy).Contents (Elt F)),
    StableHlo.reshape main_v152 main_v153 rfl shapeCasts_S1x128_S128,
    StableHlo.nullary main_cst_20 (constant S_ .f32 0x00000000#32),
    StableHlo.binary main_v149 main_cst_20 main_v154 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_21 (constant S_ .f32 0x47435000#32),
    StableHlo.unary main_cst_21 main_v155 (broadcastInDim S128 ![] bcast_S_S128 : (⟨S_, .f32⟩ : BufTy).Contents (Elt F) → (⟨S128, .f32⟩ : BufTy).Contents (Elt F)) ]

set_option maxRecDepth 16384 in
set_option maxHeartbeats 4000000 in
/-- This stretch of the program is its operations run in order: unfolding the helpers at their calls and
    re-associating the sequencing leaves the same chain of steps on both sides. -/
theorem part2_eq (c : Dev nD) : main_part2 (F := F) c = seq ops2 := by
  simp only [main_part2, fn_var.body, fn_where.body, fn_relu.body, seq, bind_assoc, pure_bind]
  rfl

set_option maxRecDepth 16384 in
/-- Every operation of the stretch touches buffers of the device only. -/
theorem ops2_sub : (ops2 : List (HloOp τ sig (Elt F))).Forall fun op => op.bufs ⊆ tcRefs τ sig :=
  ⟨ternary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., unary_bufs_sub .., reshape_bufs_sub .., unary_bufs_sub ..,
    reshape_bufs_sub .., nullary_bufs_sub .., binary_bufs_sub .., nullary_bufs_sub .., unary_bufs_sub ..⟩

set_option maxRecDepth 16384 in
/-- Every operation of the stretch determines what it writes (none leaves a buffer with unspecified contents). -/
theorem ops2_fresh : ∀ op ∈ (ops2 : List (HloOp τ sig (Elt F))), op.fresh = ∅ :=
  List.forall_iff_forall_mem.mp (show (ops2 : List (HloOp τ sig (Elt F))).Forall (fun op => op.fresh = ∅) from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩)

/-- The buffers the stretch writes: one per operation, in order. -/
abbrev ops2_W : List (Ref sig .tc) :=
  [main_v103, main_v104, main_v105, main_cst_15, main_v106, main_v107, main_v108, main_v109,
    main_v110, main_v111, main_v112, main_v113, main_v114, main_v115, main_v116, main_v117,
    main_v118, main_v119, main_v120, main_v121, main_cst_16, main_v122, main_cst_17, main_v123,
    main_v124, main_c_18, main_call6_cst, main_call6_v0, main_call6_v1, main_call6_cst_0, main_call6_v2, main_call6_v3,
    main_call6_v4, main_call6_v5, main_call6_v6, main_call6_v7, main_call6_cst_1, main_call6_v8, main_call6_cst_2, main_call6_v9,
    main_call6_v10, main_call6_v11, main_call6_cst_3, main_call6_v12, main_call6_cst_4, main_call6_call0_v0, main_call6_call0_v1, main_v125,
    main_v126, main_v127, main_v128, main_v129, main_v130, main_v131, main_cst_19, main_v132,
    main_v133, main_v134, main_v135, main_v136, main_v137, main_v138, main_v139, main_v140,
    main_call7_cst, main_call7_v0, main_v141, main_v142, main_v143, main_v144, main_v145, main_v146,
    main_v147, main_v148, main_v149, main_v150, main_v151, main_v152, main_v153, main_cst_20,
    main_v154, main_cst_21, main_v155]

set_option maxRecDepth 16384 in
set_option maxHeartbeats 4000000 in
/-- Each operation writes only its own result buffer, which is in the list. -/
theorem ops2_writes : (ops2 : List (HloOp τ sig (Elt F))).Forall fun op =>
    op.writes ⊆ (ops2_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer the stretch does not write holds afterwards what it held before. -/
theorem keep2 (V : Valuation τ sig (Elt F)) (r : Ref sig .tc) (h : r ∉ ops2_W) :
    after ops2 V (Proc.devRef .tc r) = V (Proc.devRef .tc r) :=
  after_of_writes_sub ops2 V ops2_writes h

end Cert.ReferenceIdeal.RefRun

end
-- ==== Proof.RefOps3.lean ====
/- Statements 181 … 240 of the reference network's entry function, as a list of 106
whole-array operations in program order (part of network layers 2 and 3 of five).

Each layer of the network maps the node features `h` (50000 rows of 128) to
`relu (BN₃ (relu (BN₂ (relu (BN₁ ((h + A h) W₁ + b₁)) W₂ + b₂))))`, where `A h` adds, for every edge, row `src` of
`h` into row `dst`, and `BN x = γ · (x - mean x) · rsqrt (var x + ε) + β` with the mean and the biased variance taken
over the 50000 rows, column by column. The program spells this with elementwise arithmetic, broadcasts, row slices of
the stacked parameters, one gather and one scatter-add, matrix products and column sums.

The 2 calls of the variance helper in this stretch (column mean, centred squares, their column sum divided by
`50000 - ddof`, and a select that would return NaN were that divisor not positive) and the 2 calls of the rectifier
helper (maximum with a zero array) are written out as the helper's own operations over the buffers of that call, which is
what running the call does. The list, run in order, is this stretch of the program (`part3_eq`); every operation touches
device buffers only (`ops3_sub`), determines all it writes (`ops3_fresh`), and writes exactly one of the listed
buffers (`ops3_W`, `ops3_writes`), so any other buffer is the same before and after (`keep3`). -/
import proofs.«113410_j5944234737805_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 181 … 240, in order, the helper calls written out. -/
abbrev ops3 : List (HloOp τ sig (Elt F)) :=
  [ StableHlo.binary main_v154 main_v155 main_v156 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32),
    StableHlo.TRef.nullary main_call8.cst (constant S_ .f32 0x00000000#32),
    StableHlo.TRef.binary (StableHlo.TRef.of main_v149 : StableHlo.TRef sig ⟨S50000x128, .f32⟩) main_call8.cst main_call8.v0 (fun x v => Host.reduceAdd x v reducesTo_S50000x128_S128_d0 h_S_),
    StableHlo.TRef.unary main_call8.v0 main_call8.v1 (broadcastInDim S1x128 ![1] bcast_S128_S1x128_1),
    StableHlo.TRef.nullary main_call8.cst_0 (constant S_ .f32 0x47435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S50000x128 ![0, 1] bcast_S1x128_S50000x128_0_1),
    StableHlo.TRef.binary (StableHlo.TRef.of main_v149 : StableHlo.TRef sig ⟨S50000x128, .f32⟩) main_call8.v4 main_call8.v5 subf,
    StableHlo.TRef.binary main_call8.v5 main_call8.v5 main_call8.v6 mulf,
    StableHlo.TRef.unary (StableHlo.TRef.of main_c_22 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v156 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S50000x128 ![0, 1] bcast_S1x128_S50000x128_0_1 : (⟨S1x128, .f32⟩ : BufTy).Contents (Elt F) → (⟨S50000x128, .f32⟩ : BufTy).Contents (Elt F)),
    StableHlo.binary main_v149 main_v159 main_v160 (subf : (⟨S50000x128, .f32⟩ : BufTy).Contents (Elt F) → (⟨S50000x128, .f32⟩ : BufTy).Contents (Elt F) → (⟨S50000x128, .f32⟩ : BufTy).Contents (Elt F)),
    StableHlo.unary main_v151 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S50000x128 ![0, 1] bcast_S1x128_S50000x128_0_1 : (⟨S1x128, .f32⟩ : BufTy).Contents (Elt F) → (⟨S50000x128, .f32⟩ : BufTy).Contents (Elt F)),
    StableHlo.binary main_v162 main_v160 main_v163 (mulf : (⟨S50000x128, .f32⟩ : BufTy).Contents (Elt F) → (⟨S50000x128, .f32⟩ : BufTy).Contents (Elt F) → (⟨S50000x128, .f32⟩ : BufTy).Contents (Elt F)),
    StableHlo.nullary main_cst_23 (constant S_ .f32 0x3727C5AC#32),
    StableHlo.unary main_cst_23 main_v164 (broadcastInDim S128 ![] bcast_S_S128 : (⟨S_, .f32⟩ : BufTy).Contents (Elt F) → (⟨S128, .f32⟩ : BufTy).Contents (Elt F)),
    StableHlo.binary main_v157 main_v164 main_v165 (addf : (⟨S128, .f32⟩ : BufTy).Contents (Elt F) → (⟨S128, .f32⟩ : BufTy).Contents (Elt F) → (⟨S128, .f32⟩ : BufTy).Contents (Elt F)),
    StableHlo.unary main_v165 main_v166 (Host.rsqrt : (⟨S128, .f32⟩ : BufTy).Contents (Elt F) → (⟨S128, .f32⟩ : BufTy).Contents (Elt F)),
    StableHlo.unary main_v166 main_v167 (broadcastInDim S1x128 ![1] bcast_S128_S1x128_1 : (⟨S128, .f32⟩ : BufTy).Contents (Elt F) → (⟨S1x128, .f32⟩ : BufTy).Contents (Elt F)),
    StableHlo.unary main_v167 main_v168 (broadcastInDim S50000x128 ![0, 1] bcast_S1x128_S50000x128_0_1 : (⟨S1x128, .f32⟩ : BufTy).Contents (Elt F) → (⟨S50000x128, .f32⟩ : BufTy).Contents (Elt F)),
    StableHlo.binary main_v163 main_v168 main_v169 (mulf : (⟨S50000x128, .f32⟩ : BufTy).Contents (Elt F) → (⟨S50000x128, .f32⟩ : BufTy).Contents (Elt F) → (⟨S50000x128, .f32⟩ : BufTy).Contents (Elt F)),
    StableHlo.unary main_v153 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S50000x128 ![0, 1] bcast_S1x128_S50000x128_0_1 : (⟨S1x128, .f32⟩ : BufTy).Contents (Elt F) → (⟨S50000x128, .f32⟩ : BufTy).Contents (Elt F)),
    StableHlo.binary main_v169 main_v171 main_v172 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (StableHlo.TRef.of main_v172 : StableHlo.TRef sig ⟨S50000x128, .f32⟩) main_call9.v0 main_call9.v1 maximumf,
    StableHlo.unary main_arg11 main_v174 ((extractStridedSlice S1x128 ![1, 0] · slices_S5x128_S1x128_1_0) : (⟨S5x128, .f32⟩ : BufTy).Contents (Elt F) → (⟨S1x128, .f32⟩ : BufTy).Contents (Elt F)),
    StableHlo.reshape main_v174 main_v175 rfl shapeCasts_S1x128_S128,
    StableHlo.unary main_arg12 main_v176 ((extractStridedSlice S1x128 ![1, 0] · slices_S5x128_S1x128_1_0) : (⟨S5x128, .f32⟩ : BufTy).Contents (Elt F) → (⟨S1x128, .f32⟩ : BufTy).Contents (Elt F)),
    StableHlo.reshape main_v176 main_v177 rfl shapeCasts_S1x128_S128,
    StableHlo.nullary main_cst_24 (constant S_ .f32 0x00000000#32),
    StableHlo.binary main_v173 main_cst_24 main_v178 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_25 (constant S_ .f32 0x47435000#32),
    StableHlo.unary main_cst_25 main_v179 (broadcastInDim S128 ![] bcast_S_S128 : (⟨S_, .f32⟩ : BufTy).Contents (Elt F) → (⟨S128, .f32⟩ : BufTy).Contents (Elt F)),
    StableHlo.binary main_v178 main_v179 main_v180 (Host.divf : (⟨S128, .f32⟩ : BufTy).Contents (Elt F) → (⟨S128, .f32⟩ : BufTy).Contents (Elt F) → (⟨S128, .f32⟩ : BufTy).Contents (Elt F)),
    StableHlo.nullary main_c_26 (constantI S_ 32 0#32),
    StableHlo.TRef.nullary main_call10.cst (constant S_ .f32 0x00000000#32),
    StableHlo.TRef.binary (StableHlo.TRef.of main_v173 : StableHlo.TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (StableHlo.TRef.of main_v173 : StableHlo.TRef sig ⟨S50000x128, .f32⟩) main_call10.v4 main_call10.v5 subf,
    StableHlo.TRef.binary main_call10.v5 main_call10.v5 main_call10.v6 mulf,
    StableHlo.TRef.unary (StableHlo.TRef.of main_c_26 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v180 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S50000x128 ![0, 1] bcast_S1x128_S50000x128_0_1 : (⟨S1x128, .f32⟩ : BufTy).Contents (Elt F) → (⟨S50000x128, .f32⟩ : BufTy).Contents (Elt F)),
    StableHlo.binary main_v173 main_v183 main_v184 (subf : (⟨S50000x128, .f32⟩ : BufTy).Contents (Elt F) → (⟨S50000x128, .f32⟩ : BufTy).Contents (Elt F) → (⟨S50000x128, .f32⟩ : BufTy).Contents (Elt F)),
    StableHlo.unary main_v175 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S50000x128 ![0, 1] bcast_S1x128_S50000x128_0_1 : (⟨S1x128, .f32⟩ : BufTy).Contents (Elt F) → (⟨S50000x128, .f32⟩ : BufTy).Contents (Elt F)),
    StableHlo.binary main_v186 main_v184 main_v187 (mulf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0x3727C5AC#32),
    StableHlo.unary main_cst_27 main_v188 (broadcastInDim S128 ![] bcast_S_S128 : (⟨S_, .f32⟩ : BufTy).Contents (Elt F) → (⟨S128, .f32⟩ : BufTy).Contents (Elt F)),
    StableHlo.binary main_v181 main_v188 main_v189 (addf : (⟨S128, .f32⟩ : BufTy).Contents (Elt F) → (⟨S128, .f32⟩ : BufTy).Contents (Elt F) → (⟨S128, .f32⟩ : BufTy).Contents (Elt F)),
    StableHlo.unary main_v189 main_v190 (Host.rsqrt : (⟨S128, .f32⟩ : BufTy).Contents (Elt F) → (⟨S128, .f32⟩ : BufTy).Contents (Elt F)),
    StableHlo.unary main_v190 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S50000x128 ![0, 1] bcast_S1x128_S50000x128_0_1 : (⟨S1x128, .f32⟩ : BufTy).Contents (Elt F) → (⟨S50000x128, .f32⟩ : BufTy).Contents (Elt F)),
    StableHlo.binary main_v187 main_v192 main_v193 (mulf : (⟨S50000x128, .f32⟩ : BufTy).Contents (Elt F) → (⟨S50000x128, .f32⟩ : BufTy).Contents (Elt F) → (⟨S50000x128, .f32⟩ : BufTy).Contents (Elt F)),
    StableHlo.unary main_v177 main_v194 (broadcastInDim S1x128 ![1] bcast_S128_S1x128_1 : (⟨S128, .f32⟩ : BufTy).Contents (Elt F) → (⟨S1x128, .f32⟩ : BufTy).Contents (Elt F)),
    StableHlo.unary main_v194 main_v195 (broadcastInDim S50000x128 ![0, 1] bcast_S1x128_S50000x128_0_1 : (⟨S1x128, .f32⟩ : BufTy).Contents (Elt F) → (⟨S50000x128, .f32⟩ : BufTy).Contents (Elt F)),
    StableHlo.binary main_v193 main_v195 main_v196 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (StableHlo.TRef.of main_v196 : StableHlo.TRef sig ⟨S50000x128, .f32⟩) main_call11.v0 main_call11.v1 maximumf,
    StableHlo.nullary main_c_28 (constantI S_ 32 0#32),
    StableHlo.unary main_c_28 main_v198 (broadcastInDim S800000 ![] bcast_S_S800000 : (⟨S_, .i32⟩ : BufTy).Contents (Elt F) → (⟨S800000, .i32⟩ : BufTy).Contents (Elt F)),
    StableHlo.binary main_arg1 main_v198 main_v199 (cmpi .slt : (⟨S800000, .i32⟩ : BufTy).Contents (Elt F) → (⟨S800000, .i32⟩ : BufTy).Contents (Elt F) → (⟨S800000, .i1⟩ : BufTy).Contents (Elt F)),
    StableHlo.nullary main_c_29 (constantI S_ 32 50000#32),
    StableHlo.unary main_c_29 main_v200 (broadcastInDim S800000 ![] bcast_S_S800000 : (⟨S_, .i32⟩ : BufTy).Contents (Elt F) → (⟨S800000, .i32⟩ : BufTy).Contents (Elt F)),
    StableHlo.binary main_arg1 main_v200 main_v201 (addi : (⟨S800000, .i32⟩ : BufTy).Contents (Elt F) → (⟨S800000, .i32⟩ : BufTy).Contents (Elt F) → (⟨S800000, .i32⟩ : BufTy).Contents (Elt F)),
    StableHlo.ternary main_v199 main_v201 main_arg1 main_v202 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v202 main_v203 (broadcastInDim S800000x1 ![0] bcast_S800000_S800000x1_0 : (⟨S800000, .i32⟩ : BufTy).Contents (Elt F) → (⟨S800000x1, .i32⟩ : BufTy).Contents (Elt F)),
    StableHlo.binary main_v197 main_v203 main_v204 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_30 (constant S_ .f32 0x00000000#32),
    StableHlo.unary main_cst_30 main_v205 (broadcastInDim S50000x128 ![] bcast_S_S50000x128 : (⟨S_, .f32⟩ : BufTy).Contents (Elt F) → (⟨S50000x128, .f32⟩ : BufTy).Contents (Elt F)),
    StableHlo.unary main_arg2 main_v206 (broadcastInDim S800000x1 ![0] bcast_S800000_S800000x1_0 : (⟨S800000, .i32⟩ : BufTy).Contents (Elt F) → (⟨S800000x1, .i32⟩ : BufTy).Contents (Elt F)) ]

set_option maxRecDepth 16384 in
set_option maxHeartbeats 4000000 in
/-- This stretch of the program is its operations run in order: unfolding the helpers at their calls and
    re-associating the sequencing leaves the same chain of steps on both sides. -/
theorem part3_eq (c : Dev nD) : main_part3 (F := F) c = seq ops3 := by
  simp only [main_part3, fn_var.body, fn_where.body, fn_relu.body, seq, bind_assoc, pure_bind]
  rfl

set_option maxRecDepth 16384 in
/-- Every operation of the stretch touches buffers of the device only. -/
theorem ops3_sub : (ops3 : List (HloOp τ sig (Elt F))).Forall fun op => op.bufs ⊆ tcRefs τ sig :=
  ⟨binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., reshape_bufs_sub .., unary_bufs_sub .., reshape_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub ..⟩

set_option maxRecDepth 16384 in
/-- Every operation of the stretch determines what it writes (none leaves a buffer with unspecified contents). -/
theorem ops3_fresh : ∀ op ∈ (ops3 : List (HloOp τ sig (Elt F))), op.fresh = ∅ :=
  List.forall_iff_forall_mem.mp (show (ops3 : List (HloOp τ sig (Elt F))).Forall (fun op => op.fresh = ∅) from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩)

/-- The buffers the stretch writes: one per operation, in order. -/
abbrev ops3_W : List (Ref sig .tc) :=
  [main_v156, main_c_22, main_call8_cst, main_call8_v0, main_call8_v1, main_call8_cst_0, main_call8_v2, main_call8_v3,
    main_call8_v4, main_call8_v5, main_call8_v6, main_call8_v7, main_call8_cst_1, main_call8_v8, main_call8_cst_2, main_call8_v9,
    main_call8_v10, main_call8_v11, main_call8_cst_3, main_call8_v12, main_call8_cst_4, main_call8_call0_v0, main_call8_call0_v1, main_v157,
    main_v158, main_v159, main_v160, main_v161, main_v162, main_v163, main_cst_23, main_v164,
    main_v165, main_v166, main_v167, main_v168, main_v169, main_v170, main_v171, main_v172,
    main_call9_cst, main_call9_v0, main_v173, main_v174, main_v175, main_v176, main_v177, main_cst_24,
    main_v178, main_cst_25, main_v179, main_v180, main_c_26, main_call10_cst, main_call10_v0, main_call10_v1,
    main_call10_cst_0, main_call10_v2, main_call10_v3, main_call10_v4, main_call10_v5, main_call10_v6, main_call10_v7, main_call10_cst_1,
    main_call10_v8, main_call10_cst_2, main_call10_v9, main_call10_v10, main_call10_v11, main_call10_cst_3, main_call10_v12, main_call10_cst_4,
    main_call10_call0_v0, main_call10_call0_v1, main_v181, main_v182, main_v183, main_v184, main_v185, main_v186,
    main_v187, main_cst_27, main_v188, main_v189, main_v190, main_v191, main_v192, main_v193,
    main_v194, main_v195, main_v196, main_call11_cst, main_call11_v0, main_v197, main_c_28, main_v198,
    main_v199, main_c_29, main_v200, main_v201, main_v202, main_v203, main_v204, main_cst_30,
    main_v205, main_v206]

set_option maxRecDepth 16384 in
set_option maxHeartbeats 4000000 in
/-- Each operation writes only its own result buffer, which is in the list. -/
theorem ops3_writes : (ops3 : List (HloOp τ sig (Elt F))).Forall fun op =>
    op.writes ⊆ (ops3_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer the stretch does not write holds afterwards what it held before. -/
theorem keep3 (V : Valuation τ sig (Elt F)) (r : Ref sig .tc) (h : r ∉ ops3_W) :
    after ops3 V (Proc.devRef .tc r) = V (Proc.devRef .tc r) :=
  after_of_writes_sub ops3 V ops3_writes h

end Cert.ReferenceIdeal.RefRun

end
-- ==== Proof.RefOps4.lean ====
/- Statements 241 … 300 of the reference network's entry function, as a list of 104
whole-array operations in program order (part of network layer 3 of five).

Each layer of the network maps the node features `h` (50000 rows of 128) to
`relu (BN₃ (relu (BN₂ (relu (BN₁ ((h + A h) W₁ + b₁)) W₂ + b₂))))`, where `A h` adds, for every edge, row `src` of
`h` into row `dst`, and `BN x = γ · (x - mean x) · rsqrt (var x + ε) + β` with the mean and the biased variance taken
over the 50000 rows, column by column. The program spells this with elementwise arithmetic, broadcasts, row slices of
the stacked parameters, one gather and one scatter-add, matrix products and column sums.

The 2 calls of the variance helper in this stretch (column mean, centred squares, their column sum divided by
`50000 - ddof`, and a select that would return NaN were that divisor not positive) and the 1 call of the rectifier
helper (maximum with a zero array) are written out as the helper's own operations over the buffers of that call, which is
what running the call does. The list, run in order, is this stretch of the program (`part4_eq`); every operation touches
device buffers only (`ops4_sub`), determines all it writes (`ops4_fresh`), and writes exactly one of the listed
buffers (`ops4_W`, `ops4_writes`), so any other buffer is the same before and after (`keep4`). -/
import proofs.«113410_j5944234737805_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 241 … 300, in order, the helper calls written out. -/
abbrev ops4 : List (HloOp τ sig (Elt F)) :=
  [ StableHlo.ternary main_v205 main_v206 main_v204 main_v207 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v197 main_v207 main_v208 (addf : (⟨S50000x128, .f32⟩ : BufTy).Contents (Elt F) → (⟨S50000x128, .f32⟩ : BufTy).Contents (Elt F) → (⟨S50000x128, .f32⟩ : BufTy).Contents (Elt F)),
    StableHlo.unary main_arg3 main_v209 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v209 main_v210 rfl shapeCasts_S1x128x128_S128x128,
    StableHlo.binary main_v208 main_v210 main_v211 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v212 ((extractStridedSlice S1x128 ![2, 0] · slices_S5x128_S1x128_2_0) : (⟨S5x128, .f32⟩ : BufTy).Contents (Elt F) → (⟨S1x128, .f32⟩ : BufTy).Contents (Elt F)),
    StableHlo.reshape main_v212 main_v213 rfl shapeCasts_S1x128_S128,
    StableHlo.unary main_v213 main_v214 (broadcastInDim S1x128 ![1] bcast_S128_S1x128_1 : (⟨S128, .f32⟩ : BufTy).Contents (Elt F) → (⟨S1x128, .f32⟩ : BufTy).Contents (Elt F)),
    StableHlo.unary main_v214 main_v215 (broadcastInDim S50000x128 ![0, 1] bcast_S1x128_S50000x128_0_1 : (⟨S1x128, .f32⟩ : BufTy).Contents (Elt F) → (⟨S50000x128, .f32⟩ : BufTy).Contents (Elt F)),
    StableHlo.binary main_v211 main_v215 main_v216 (addf : (⟨S50000x128, .f32⟩ : BufTy).Contents (Elt F) → (⟨S50000x128, .f32⟩ : BufTy).Contents (Elt F) → (⟨S50000x128, .f32⟩ : BufTy).Contents (Elt F)),
    StableHlo.unary main_arg7 main_v217 ((extractStridedSlice S1x128 ![2, 0] · slices_S5x128_S1x128_2_0) : (⟨S5x128, .f32⟩ : BufTy).Contents (Elt F) → (⟨S1x128, .f32⟩ : BufTy).Contents (Elt F)),
    StableHlo.reshape main_v217 main_v218 rfl shapeCasts_S1x128_S128,
    StableHlo.unary main_arg8 main_v219 ((extractStridedSlice S1x128 ![2, 0] · slices_S5x128_S1x128_2_0) : (⟨S5x128, .f32⟩ : BufTy).Contents (Elt F) → (⟨S1x128, .f32⟩ : BufTy).Contents (Elt F)),
    StableHlo.reshape main_v219 main_v220 rfl shapeCasts_S1x128_S128,
    StableHlo.nullary main_cst_31 (constant S_ .f32 0x00000000#32),
    StableHlo.binary main_v216 main_cst_31 main_v221 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_32 (constant S_ .f32 0x47435000#32),
    StableHlo.unary main_cst_32 main_v222 (broadcastInDim S128 ![] bcast_S_S128 : (⟨S_, .f32⟩ : BufTy).Contents (Elt F) → (⟨S128, .f32⟩ : BufTy).Contents (Elt F)),
    StableHlo.binary main_v221 main_v222 main_v223 (Host.divf : (⟨S128, .f32⟩ : BufTy).Contents (Elt F) → (⟨S128, .f32⟩ : BufTy).Contents (Elt F) → (⟨S128, .f32⟩ : BufTy).Contents (Elt F)),
    StableHlo.nullary main_c_33 (constantI S_ 32 0#32),
    StableHlo.TRef.nullary main_call12.cst (constant S_ .f32 0x00000000#32),
    StableHlo.TRef.binary (StableHlo.TRef.of main_v216 : StableHlo.TRef sig ⟨S50000x128, .f32⟩) main_call12.cst main_call12.v0 (fun x v => Host.reduceAdd x v reducesTo_S50000x128_S128_d0 h_S_),
    StableHlo.TRef.unary main_call12.v0 main_call12.v1 (broadcastInDim S1x128 ![1] bcast_S128_S1x128_1),
    StableHlo.TRef.nullary main_call12.cst_0 (constant S_ .f32 0x47435000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S50000x128 ![0, 1] bcast_S1x128_S50000x128_0_1),
    StableHlo.TRef.binary (StableHlo.TRef.of main_v216 : StableHlo.TRef sig ⟨S50000x128, .f32⟩) main_call12.v4 main_call12.v5 subf,
    StableHlo.TRef.binary main_call12.v5 main_call12.v5 main_call12.v6 mulf,
    StableHlo.TRef.unary (StableHlo.TRef.of main_c_33 : StableHlo.TRef sig ⟨S_, .i32⟩) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x128_S128_d0 h_S_),
    StableHlo.TRef.unary main_call12.v8 main_call12.v10 (broadcastInDim S128 ![] bcast_S_S128),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S128 ![] bcast_S_S128),
    StableHlo.TRef.ternary main_call12.v12 main_call12.v11 main_call12.call0.v1 main_call12.call0.v2 (fun p a b => select (broadcastInDim S128 ![] bcast_S_S128 p) a b),
    StableHlo.unary main_v223 main_v225 (broadcastInDim S1x128 ![1] bcast_S128_S1x128_1 : (⟨S128, .f32⟩ : BufTy).Contents (Elt F) → (⟨S1x128, .f32⟩ : BufTy).Contents (Elt F)),
    StableHlo.unary main_v225 main_v226 (broadcastInDim S50000x128 ![0, 1] bcast_S1x128_S50000x128_0_1 : (⟨S1x128, .f32⟩ : BufTy).Contents (Elt F) → (⟨S50000x128, .f32⟩ : BufTy).Contents (Elt F)),
    StableHlo.binary main_v216 main_v226 main_v227 (subf : (⟨S50000x128, .f32⟩ : BufTy).Contents (Elt F) → (⟨S50000x128, .f32⟩ : BufTy).Contents (Elt F) → (⟨S50000x128, .f32⟩ : BufTy).Contents (Elt F)),
    StableHlo.unary main_v218 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S50000x128 ![0, 1] bcast_S1x128_S50000x128_0_1 : (⟨S1x128, .f32⟩ : BufTy).Contents (Elt F) → (⟨S50000x128, .f32⟩ : BufTy).Contents (Elt F)),
    StableHlo.binary main_v229 main_v227 main_v230 (mulf : (⟨S50000x128, .f32⟩ : BufTy).Contents (Elt F) → (⟨S50000x128, .f32⟩ : BufTy).Contents (Elt F) → (⟨S50000x128, .f32⟩ : BufTy).Contents (Elt F)),
    StableHlo.nullary main_cst_34 (constant S_ .f32 0x3727C5AC#32),
    StableHlo.unary main_cst_34 main_v231 (broadcastInDim S128 ![] bcast_S_S128 : (⟨S_, .f32⟩ : BufTy).Contents (Elt F) → (⟨S128, .f32⟩ : BufTy).Contents (Elt F)),
    StableHlo.binary main_v224 main_v231 main_v232 (addf : (⟨S128, .f32⟩ : BufTy).Contents (Elt F) → (⟨S128, .f32⟩ : BufTy).Contents (Elt F) → (⟨S128, .f32⟩ : BufTy).Contents (Elt F)),
    StableHlo.unary main_v232 main_v233 (Host.rsqrt : (⟨S128, .f32⟩ : BufTy).Contents (Elt F) → (⟨S128, .f32⟩ : BufTy).Contents (Elt F)),
    StableHlo.unary main_v233 main_v234 (broadcastInDim S1x128 ![1] bcast_S128_S1x128_1 : (⟨S128, .f32⟩ : BufTy).Contents (Elt F) → (⟨S1x128, .f32⟩ : BufTy).Contents (Elt F)),
    StableHlo.unary main_v234 main_v235 (broadcastInDim S50000x128 ![0, 1] bcast_S1x128_S50000x128_0_1 : (⟨S1x128, .f32⟩ : BufTy).Contents (Elt F) → (⟨S50000x128, .f32⟩ : BufTy).Contents (Elt F)),
    StableHlo.binary main_v230 main_v235 main_v236 (mulf : (⟨S50000x128, .f32⟩ : BufTy).Contents (Elt F) → (⟨S50000x128, .f32⟩ : BufTy).Contents (Elt F) → (⟨S50000x128, .f32⟩ : BufTy).Contents (Elt F)),
    StableHlo.unary main_v220 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S50000x128 ![0, 1] bcast_S1x128_S50000x128_0_1 : (⟨S1x128, .f32⟩ : BufTy).Contents (Elt F) → (⟨S50000x128, .f32⟩ : BufTy).Contents (Elt F)),
    StableHlo.binary main_v236 main_v238 main_v239 (addf : (⟨S50000x128, .f32⟩ : BufTy).Contents (Elt F) → (⟨S50000x128, .f32⟩ : BufTy).Contents (Elt F) → (⟨S50000x128, .f32⟩ : BufTy).Contents (Elt F)),
    StableHlo.TRef.nullary main_call13.cst (constant S_ .f32 0x00000000#32),
    StableHlo.TRef.unary main_call13.cst main_call13.v0 (broadcastInDim S50000x128 ![] bcast_S_S50000x128),
    StableHlo.TRef.binary (StableHlo.TRef.of main_v239 : StableHlo.TRef sig ⟨S50000x128, .f32⟩) main_call13.v0 main_call13.v1 maximumf,
    StableHlo.unary main_arg5 main_v241 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v241 main_v242 rfl shapeCasts_S1x128x128_S128x128,
    StableHlo.binary main_v240 main_v242 main_v243 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v244 ((extractStridedSlice S1x128 ![2, 0] · slices_S5x128_S1x128_2_0) : (⟨S5x128, .f32⟩ : BufTy).Contents (Elt F) → (⟨S1x128, .f32⟩ : BufTy).Contents (Elt F)),
    StableHlo.reshape main_v244 main_v245 rfl shapeCasts_S1x128_S128,
    StableHlo.unary main_v245 main_v246 (broadcastInDim S1x128 ![1] bcast_S128_S1x128_1 : (⟨S128, .f32⟩ : BufTy).Contents (Elt F) → (⟨S1x128, .f32⟩ : BufTy).Contents (Elt F)),
    StableHlo.unary main_v246 main_v247 (broadcastInDim S50000x128 ![0, 1] bcast_S1x128_S50000x128_0_1 : (⟨S1x128, .f32⟩ : BufTy).Contents (Elt F) → (⟨S50000x128, .f32⟩ : BufTy).Contents (Elt F)),
    StableHlo.binary main_v243 main_v247 main_v248 (addf : (⟨S50000x128, .f32⟩ : BufTy).Contents (Elt F) → (⟨S50000x128, .f32⟩ : BufTy).Contents (Elt F) → (⟨S50000x128, .f32⟩ : BufTy).Contents (Elt F)),
    StableHlo.unary main_arg9 main_v249 ((extractStridedSlice S1x128 ![2, 0] · slices_S5x128_S1x128_2_0) : (⟨S5x128, .f32⟩ : BufTy).Contents (Elt F) → (⟨S1x128, .f32⟩ : BufTy).Contents (Elt F)),
    StableHlo.reshape main_v249 main_v250 rfl shapeCasts_S1x128_S128,
    StableHlo.unary main_arg10 main_v251 ((extractStridedSlice S1x128 ![2, 0] · slices_S5x128_S1x128_2_0) : (⟨S5x128, .f32⟩ : BufTy).Contents (Elt F) → (⟨S1x128, .f32⟩ : BufTy).Contents (Elt F)),
    StableHlo.reshape main_v251 main_v252 rfl shapeCasts_S1x128_S128,
    StableHlo.nullary main_cst_35 (constant S_ .f32 0x00000000#32),
    StableHlo.binary main_v248 main_cst_35 main_v253 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_36 (constant S_ .f32 0x47435000#32),
    StableHlo.unary main_cst_36 main_v254 (broadcastInDim S128 ![] bcast_S_S128 : (⟨S_, .f32⟩ : BufTy).Contents (Elt F) → (⟨S128, .f32⟩ : BufTy).Contents (Elt F)),
    StableHlo.binary main_v253 main_v254 main_v255 (Host.divf : (⟨S128, .f32⟩ : BufTy).Contents (Elt F) → (⟨S128, .f32⟩ : BufTy).Contents (Elt F) → (⟨S128, .f32⟩ : BufTy).Contents (Elt F)),
    StableHlo.nullary main_c_37 (constantI S_ 32 0#32),
    StableHlo.TRef.nullary main_call14.cst (constant S_ .f32 0x00000000#32),
    StableHlo.TRef.binary (StableHlo.TRef.of main_v248 : StableHlo.TRef sig ⟨S50000x128, .f32⟩) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (StableHlo.TRef.of main_v248 : StableHlo.TRef sig ⟨S50000x128, .f32⟩) main_call14.v4 main_call14.v5 subf,
    StableHlo.TRef.binary main_call14.v5 main_call14.v5 main_call14.v6 mulf,
    StableHlo.TRef.unary (StableHlo.TRef.of main_c_37 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v255 main_v257 (broadcastInDim S1x128 ![1] bcast_S128_S1x128_1 : (⟨S128, .f32⟩ : BufTy).Contents (Elt F) → (⟨S1x128, .f32⟩ : BufTy).Contents (Elt F)),
    StableHlo.unary main_v257 main_v258 (broadcastInDim S50000x128 ![0, 1] bcast_S1x128_S50000x128_0_1 : (⟨S1x128, .f32⟩ : BufTy).Contents (Elt F) → (⟨S50000x128, .f32⟩ : BufTy).Contents (Elt F)),
    StableHlo.binary main_v248 main_v258 main_v259 (subf : (⟨S50000x128, .f32⟩ : BufTy).Contents (Elt F) → (⟨S50000x128, .f32⟩ : BufTy).Contents (Elt F) → (⟨S50000x128, .f32⟩ : BufTy).Contents (Elt F)) ]

set_option maxRecDepth 16384 in
set_option maxHeartbeats 4000000 in
/-- This stretch of the program is its operations run in order: unfolding the helpers at their calls and
    re-associating the sequencing leaves the same chain of steps on both sides. -/
theorem part4_eq (c : Dev nD) : main_part4 (F := F) c = seq ops4 := by
  simp only [main_part4, fn_var.body, fn_where.body, fn_relu.body, seq, bind_assoc, pure_bind]
  rfl

set_option maxRecDepth 16384 in
/-- Every operation of the stretch touches buffers of the device only. -/
theorem ops4_sub : (ops4 : List (HloOp τ sig (Elt F))).Forall fun op => op.bufs ⊆ tcRefs τ sig :=
  ⟨ternary_bufs_sub .., binary_bufs_sub .., unary_bufs_sub .., reshape_bufs_sub .., binary_bufs_sub .., unary_bufs_sub ..,
    reshape_bufs_sub .., unary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub ..⟩

set_option maxRecDepth 16384 in
/-- Every operation of the stretch determines what it writes (none leaves a buffer with unspecified contents). -/
theorem ops4_fresh : ∀ op ∈ (ops4 : List (HloOp τ sig (Elt F))), op.fresh = ∅ :=
  List.forall_iff_forall_mem.mp (show (ops4 : List (HloOp τ sig (Elt F))).Forall (fun op => op.fresh = ∅) from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩)

/-- The buffers the stretch writes: one per operation, in order. -/
abbrev ops4_W : List (Ref sig .tc) :=
  [main_v207, main_v208, main_v209, main_v210, main_v211, main_v212, main_v213, main_v214,
    main_v215, main_v216, main_v217, main_v218, main_v219, main_v220, main_cst_31, main_v221,
    main_cst_32, main_v222, main_v223, main_c_33, main_call12_cst, main_call12_v0, main_call12_v1, main_call12_cst_0,
    main_call12_v2, main_call12_v3, main_call12_v4, main_call12_v5, main_call12_v6, main_call12_v7, main_call12_cst_1, main_call12_v8,
    main_call12_cst_2, main_call12_v9, main_call12_v10, main_call12_v11, main_call12_cst_3, main_call12_v12, main_call12_cst_4, main_call12_call0_v0,
    main_call12_call0_v1, main_v224, main_v225, main_v226, main_v227, main_v228, main_v229, main_v230,
    main_cst_34, main_v231, main_v232, main_v233, main_v234, main_v235, main_v236, main_v237,
    main_v238, main_v239, main_call13_cst, main_call13_v0, main_v240, main_v241, main_v242, main_v243,
    main_v244, main_v245, main_v246, main_v247, main_v248, main_v249, main_v250, main_v251,
    main_v252, main_cst_35, main_v253, main_cst_36, main_v254, main_v255, main_c_37, main_call14_cst,
    main_call14_v0, main_call14_v1, main_call14_cst_0, main_call14_v2, main_call14_v3, main_call14_v4, main_call14_v5, main_call14_v6,
    main_call14_v7, main_call14_cst_1, main_call14_v8, main_call14_cst_2, main_call14_v9, main_call14_v10, main_call14_v11, main_call14_cst_3,
    main_call14_v12, main_call14_cst_4, main_call14_call0_v0, main_call14_call0_v1, main_v256, main_v257, main_v258, main_v259]

set_option maxRecDepth 16384 in
set_option maxHeartbeats 4000000 in
/-- Each operation writes only its own result buffer, which is in the list. -/
theorem ops4_writes : (ops4 : List (HloOp τ sig (Elt F))).Forall fun op =>
    op.writes ⊆ (ops4_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer the stretch does not write holds afterwards what it held before. -/
theorem keep4 (V : Valuation τ sig (Elt F)) (r : Ref sig .tc) (h : r ∉ ops4_W) :
    after ops4 V (Proc.devRef .tc r) = V (Proc.devRef .tc r) :=
  after_of_writes_sub ops4 V ops4_writes h

end Cert.ReferenceIdeal.RefRun

end
-- ==== Proof.RefOps5.lean ====
/- Statements 301 … 360 of the reference network's entry function, as a list of 85
whole-array operations in program order (part of network layers 3 and 4 of five).

Each layer of the network maps the node features `h` (50000 rows of 128) to
`relu (BN₃ (relu (BN₂ (relu (BN₁ ((h + A h) W₁ + b₁)) W₂ + b₂))))`, where `A h` adds, for every edge, row `src` of
`h` into row `dst`, and `BN x = γ · (x - mean x) · rsqrt (var x + ε) + β` with the mean and the biased variance taken
over the 50000 rows, column by column. The program spells this with elementwise arithmetic, broadcasts, row slices of
the stacked parameters, one gather and one scatter-add, matrix products and column sums.

The 1 call of the variance helper in this stretch (column mean, centred squares, their column sum divided by
`50000 - ddof`, and a select that would return NaN were that divisor not positive) and the 2 calls of the rectifier
helper (maximum with a zero array) are written out as the helper's own operations over the buffers of that call, which is
what running the call does. The list, run in order, is this stretch of the program (`part5_eq`); every operation touches
device buffers only (`ops5_sub`), determines all it writes (`ops5_fresh`), and writes exactly one of the listed
buffers (`ops5_W`, `ops5_writes`), so any other buffer is the same before and after (`keep5`). -/
import proofs.«113410_j5944234737805_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 301 … 360, in order, the helper calls written out. -/
abbrev ops5 : List (HloOp τ sig (Elt F)) :=
  [ StableHlo.unary main_v250 main_v260 (broadcastInDim S1x128 ![1] bcast_S128_S1x128_1 : (⟨S128, .f32⟩ : BufTy).Contents (Elt F) → (⟨S1x128, .f32⟩ : BufTy).Contents (Elt F)),
    StableHlo.unary main_v260 main_v261 (broadcastInDim S50000x128 ![0, 1] bcast_S1x128_S50000x128_0_1 : (⟨S1x128, .f32⟩ : BufTy).Contents (Elt F) → (⟨S50000x128, .f32⟩ : BufTy).Contents (Elt F)),
    StableHlo.binary main_v261 main_v259 main_v262 (mulf : (⟨S50000x128, .f32⟩ : BufTy).Contents (Elt F) → (⟨S50000x128, .f32⟩ : BufTy).Contents (Elt F) → (⟨S50000x128, .f32⟩ : BufTy).Contents (Elt F)),
    StableHlo.nullary main_cst_38 (constant S_ .f32 0x3727C5AC#32),
    StableHlo.unary main_cst_38 main_v263 (broadcastInDim S128 ![] bcast_S_S128 : (⟨S_, .f32⟩ : BufTy).Contents (Elt F) → (⟨S128, .f32⟩ : BufTy).Contents (Elt F)),
    StableHlo.binary main_v256 main_v263 main_v264 (addf : (⟨S128, .f32⟩ : BufTy).Contents (Elt F) → (⟨S128, .f32⟩ : BufTy).Contents (Elt F) → (⟨S128, .f32⟩ : BufTy).Contents (Elt F)),
    StableHlo.unary main_v264 main_v265 (Host.rsqrt : (⟨S128, .f32⟩ : BufTy).Contents (Elt F) → (⟨S128, .f32⟩ : BufTy).Contents (Elt F)),
    StableHlo.unary main_v265 main_v266 (broadcastInDim S1x128 ![1] bcast_S128_S1x128_1 : (⟨S128, .f32⟩ : BufTy).Contents (Elt F) → (⟨S1x128, .f32⟩ : BufTy).Contents (Elt F)),
    StableHlo.unary main_v266 main_v267 (broadcastInDim S50000x128 ![0, 1] bcast_S1x128_S50000x128_0_1 : (⟨S1x128, .f32⟩ : BufTy).Contents (Elt F) → (⟨S50000x128, .f32⟩ : BufTy).Contents (Elt F)),
    StableHlo.binary main_v262 main_v267 main_v268 (mulf : (⟨S50000x128, .f32⟩ : BufTy).Contents (Elt F) → (⟨S50000x128, .f32⟩ : BufTy).Contents (Elt F) → (⟨S50000x128, .f32⟩ : BufTy).Contents (Elt F)),
    StableHlo.unary main_v252 main_v269 (broadcastInDim S1x128 ![1] bcast_S128_S1x128_1 : (⟨S128, .f32⟩ : BufTy).Contents (Elt F) → (⟨S1x128, .f32⟩ : BufTy).Contents (Elt F)),
    StableHlo.unary main_v269 main_v270 (broadcastInDim S50000x128 ![0, 1] bcast_S1x128_S50000x128_0_1 : (⟨S1x128, .f32⟩ : BufTy).Contents (Elt F) → (⟨S50000x128, .f32⟩ : BufTy).Contents (Elt F)),
    StableHlo.binary main_v268 main_v270 main_v271 (addf : (⟨S50000x128, .f32⟩ : BufTy).Contents (Elt F) → (⟨S50000x128, .f32⟩ : BufTy).Contents (Elt F) → (⟨S50000x128, .f32⟩ : BufTy).Contents (Elt F)),
    StableHlo.TRef.nullary main_call15.cst (constant S_ .f32 0x00000000#32),
    StableHlo.TRef.unary main_call15.cst main_call15.v0 (broadcastInDim S50000x128 ![] bcast_S_S50000x128),
    StableHlo.TRef.binary (StableHlo.TRef.of main_v271 : StableHlo.TRef sig ⟨S50000x128, .f32⟩) main_call15.v0 main_call15.v1 maximumf,
    StableHlo.unary main_arg11 main_v273 ((extractStridedSlice S1x128 ![2, 0] · slices_S5x128_S1x128_2_0) : (⟨S5x128, .f32⟩ : BufTy).Contents (Elt F) → (⟨S1x128, .f32⟩ : BufTy).Contents (Elt F)),
    StableHlo.reshape main_v273 main_v274 rfl shapeCasts_S1x128_S128,
    StableHlo.unary main_arg12 main_v275 ((extractStridedSlice S1x128 ![2, 0] · slices_S5x128_S1x128_2_0) : (⟨S5x128, .f32⟩ : BufTy).Contents (Elt F) → (⟨S1x128, .f32⟩ : BufTy).Contents (Elt F)),
    StableHlo.reshape main_v275 main_v276 rfl shapeCasts_S1x128_S128,
    StableHlo.nullary main_cst_39 (constant S_ .f32 0x00000000#32),
    StableHlo.binary main_v272 main_cst_39 main_v277 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_40 (constant S_ .f32 0x47435000#32),
    StableHlo.unary main_cst_40 main_v278 (broadcastInDim S128 ![] bcast_S_S128 : (⟨S_, .f32⟩ : BufTy).Contents (Elt F) → (⟨S128, .f32⟩ : BufTy).Contents (Elt F)),
    StableHlo.binary main_v277 main_v278 main_v279 (Host.divf : (⟨S128, .f32⟩ : BufTy).Contents (Elt F) → (⟨S128, .f32⟩ : BufTy).Contents (Elt F) → (⟨S128, .f32⟩ : BufTy).Contents (Elt F)),
    StableHlo.nullary main_c_41 (constantI S_ 32 0#32),
    StableHlo.TRef.nullary main_call16.cst (constant S_ .f32 0x00000000#32),
    StableHlo.TRef.binary (StableHlo.TRef.of main_v272 : StableHlo.TRef sig ⟨S50000x128, .f32⟩) main_call16.cst main_call16.v0 (fun x v => Host.reduceAdd x v reducesTo_S50000x128_S128_d0 h_S_),
    StableHlo.TRef.unary main_call16.v0 main_call16.v1 (broadcastInDim S1x128 ![1] bcast_S128_S1x128_1),
    StableHlo.TRef.nullary main_call16.cst_0 (constant S_ .f32 0x47435000#32),
    StableHlo.TRef.unary main_call16.cst_0 main_call16.v2 (broadcastInDim S1x128 ![] bcast_S_S1x128),
    StableHlo.TRef.binary main_call16.v1 main_call16.v2 main_call16.v3 Host.divf,
    StableHlo.TRef.unary main_call16.v3 main_call16.v4 (broadcastInDim S50000x128 ![0, 1] bcast_S1x128_S50000x128_0_1),
    StableHlo.TRef.binary (StableHlo.TRef.of main_v272 : StableHlo.TRef sig ⟨S50000x128, .f32⟩) main_call16.v4 main_call16.v5 subf,
    StableHlo.TRef.binary main_call16.v5 main_call16.v5 main_call16.v6 mulf,
    StableHlo.TRef.unary (StableHlo.TRef.of main_c_41 : StableHlo.TRef sig ⟨S_, .i32⟩) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x128_S128_d0 h_S_),
    StableHlo.TRef.unary main_call16.v8 main_call16.v10 (broadcastInDim S128 ![] bcast_S_S128),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S128 ![] bcast_S_S128),
    StableHlo.TRef.ternary main_call16.v12 main_call16.v11 main_call16.call0.v1 main_call16.call0.v2 (fun p a b => select (broadcastInDim S128 ![] bcast_S_S128 p) a b),
    StableHlo.unary main_v279 main_v281 (broadcastInDim S1x128 ![1] bcast_S128_S1x128_1 : (⟨S128, .f32⟩ : BufTy).Contents (Elt F) → (⟨S1x128, .f32⟩ : BufTy).Contents (Elt F)),
    StableHlo.unary main_v281 main_v282 (broadcastInDim S50000x128 ![0, 1] bcast_S1x128_S50000x128_0_1 : (⟨S1x128, .f32⟩ : BufTy).Contents (Elt F) → (⟨S50000x128, .f32⟩ : BufTy).Contents (Elt F)),
    StableHlo.binary main_v272 main_v282 main_v283 (subf : (⟨S50000x128, .f32⟩ : BufTy).Contents (Elt F) → (⟨S50000x128, .f32⟩ : BufTy).Contents (Elt F) → (⟨S50000x128, .f32⟩ : BufTy).Contents (Elt F)),
    StableHlo.unary main_v274 main_v284 (broadcastInDim S1x128 ![1] bcast_S128_S1x128_1 : (⟨S128, .f32⟩ : BufTy).Contents (Elt F) → (⟨S1x128, .f32⟩ : BufTy).Contents (Elt F)),
    StableHlo.unary main_v284 main_v285 (broadcastInDim S50000x128 ![0, 1] bcast_S1x128_S50000x128_0_1 : (⟨S1x128, .f32⟩ : BufTy).Contents (Elt F) → (⟨S50000x128, .f32⟩ : BufTy).Contents (Elt F)),
    StableHlo.binary main_v285 main_v283 main_v286 (mulf : (⟨S50000x128, .f32⟩ : BufTy).Contents (Elt F) → (⟨S50000x128, .f32⟩ : BufTy).Contents (Elt F) → (⟨S50000x128, .f32⟩ : BufTy).Contents (Elt F)),
    StableHlo.nullary main_cst_42 (constant S_ .f32 0x3727C5AC#32),
    StableHlo.unary main_cst_42 main_v287 (broadcastInDim S128 ![] bcast_S_S128 : (⟨S_, .f32⟩ : BufTy).Contents (Elt F) → (⟨S128, .f32⟩ : BufTy).Contents (Elt F)),
    StableHlo.binary main_v280 main_v287 main_v288 (addf : (⟨S128, .f32⟩ : BufTy).Contents (Elt F) → (⟨S128, .f32⟩ : BufTy).Contents (Elt F) → (⟨S128, .f32⟩ : BufTy).Contents (Elt F)),
    StableHlo.unary main_v288 main_v289 (Host.rsqrt : (⟨S128, .f32⟩ : BufTy).Contents (Elt F) → (⟨S128, .f32⟩ : BufTy).Contents (Elt F)),
    StableHlo.unary main_v289 main_v290 (broadcastInDim S1x128 ![1] bcast_S128_S1x128_1 : (⟨S128, .f32⟩ : BufTy).Contents (Elt F) → (⟨S1x128, .f32⟩ : BufTy).Contents (Elt F)),
    StableHlo.unary main_v290 main_v291 (broadcastInDim S50000x128 ![0, 1] bcast_S1x128_S50000x128_0_1 : (⟨S1x128, .f32⟩ : BufTy).Contents (Elt F) → (⟨S50000x128, .f32⟩ : BufTy).Contents (Elt F)),
    StableHlo.binary main_v286 main_v291 main_v292 (mulf : (⟨S50000x128, .f32⟩ : BufTy).Contents (Elt F) → (⟨S50000x128, .f32⟩ : BufTy).Contents (Elt F) → (⟨S50000x128, .f32⟩ : BufTy).Contents (Elt F)),
    StableHlo.unary main_v276 main_v293 (broadcastInDim S1x128 ![1] bcast_S128_S1x128_1 : (⟨S128, .f32⟩ : BufTy).Contents (Elt F) → (⟨S1x128, .f32⟩ : BufTy).Contents (Elt F)),
    StableHlo.unary main_v293 main_v294 (broadcastInDim S50000x128 ![0, 1] bcast_S1x128_S50000x128_0_1 : (⟨S1x128, .f32⟩ : BufTy).Contents (Elt F) → (⟨S50000x128, .f32⟩ : BufTy).Contents (Elt F)),
    StableHlo.binary main_v292 main_v294 main_v295 (addf : (⟨S50000x128, .f32⟩ : BufTy).Contents (Elt F) → (⟨S50000x128, .f32⟩ : BufTy).Contents (Elt F) → (⟨S50000x128, .f32⟩ : BufTy).Contents (Elt F)),
    StableHlo.TRef.nullary main_call17.cst (constant S_ .f32 0x00000000#32),
    StableHlo.TRef.unary main_call17.cst main_call17.v0 (broadcastInDim S50000x128 ![] bcast_S_S50000x128),
    StableHlo.TRef.binary (StableHlo.TRef.of main_v295 : StableHlo.TRef sig ⟨S50000x128, .f32⟩) main_call17.v0 main_call17.v1 maximumf,
    StableHlo.nullary main_c_43 (constantI S_ 32 0#32),
    StableHlo.unary main_c_43 main_v297 (broadcastInDim S800000 ![] bcast_S_S800000 : (⟨S_, .i32⟩ : BufTy).Contents (Elt F) → (⟨S800000, .i32⟩ : BufTy).Contents (Elt F)),
    StableHlo.binary main_arg1 main_v297 main_v298 (cmpi .slt : (⟨S800000, .i32⟩ : BufTy).Contents (Elt F) → (⟨S800000, .i32⟩ : BufTy).Contents (Elt F) → (⟨S800000, .i1⟩ : BufTy).Contents (Elt F)),
    StableHlo.nullary main_c_44 (constantI S_ 32 50000#32),
    StableHlo.unary main_c_44 main_v299 (broadcastInDim S800000 ![] bcast_S_S800000 : (⟨S_, .i32⟩ : BufTy).Contents (Elt F) → (⟨S800000, .i32⟩ : BufTy).Contents (Elt F)),
    StableHlo.binary main_arg1 main_v299 main_v300 (addi : (⟨S800000, .i32⟩ : BufTy).Contents (Elt F) → (⟨S800000, .i32⟩ : BufTy).Contents (Elt F) → (⟨S800000, .i32⟩ : BufTy).Contents (Elt F)),
    StableHlo.ternary main_v298 main_v300 main_arg1 main_v301 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v301 main_v302 (broadcastInDim S800000x1 ![0] bcast_S800000_S800000x1_0 : (⟨S800000, .i32⟩ : BufTy).Contents (Elt F) → (⟨S800000x1, .i32⟩ : BufTy).Contents (Elt F)),
    StableHlo.binary main_v296 main_v302 main_v303 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_45 (constant S_ .f32 0x00000000#32),
    StableHlo.unary main_cst_45 main_v304 (broadcastInDim S50000x128 ![] bcast_S_S50000x128 : (⟨S_, .f32⟩ : BufTy).Contents (Elt F) → (⟨S50000x128, .f32⟩ : BufTy).Contents (Elt F)),
    StableHlo.unary main_arg2 main_v305 (broadcastInDim S800000x1 ![0] bcast_S800000_S800000x1_0 : (⟨S800000, .i32⟩ : BufTy).Contents (Elt F) → (⟨S800000x1, .i32⟩ : BufTy).Contents (Elt F)),
    StableHlo.ternary main_v304 main_v305 main_v303 main_v306 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v296 main_v306 main_v307 (addf : (⟨S50000x128, .f32⟩ : BufTy).Contents (Elt F) → (⟨S50000x128, .f32⟩ : BufTy).Contents (Elt F) → (⟨S50000x128, .f32⟩ : BufTy).Contents (Elt F)),
    StableHlo.unary main_arg3 main_v308 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v308 main_v309 rfl shapeCasts_S1x128x128_S128x128,
    StableHlo.binary main_v307 main_v309 main_v310 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v311 ((extractStridedSlice S1x128 ![3, 0] · slices_S5x128_S1x128_3_0) : (⟨S5x128, .f32⟩ : BufTy).Contents (Elt F) → (⟨S1x128, .f32⟩ : BufTy).Contents (Elt F)) ]

set_option maxRecDepth 16384 in
set_option maxHeartbeats 4000000 in
/-- This stretch of the program is its operations run in order: unfolding the helpers at their calls and
    re-associating the sequencing leaves the same chain of steps on both sides. -/
theorem part5_eq (c : Dev nD) : main_part5 (F := F) c = seq ops5 := by
  simp only [main_part5, fn_var.body, fn_where.body, fn_relu.body, seq, bind_assoc, pure_bind]
  rfl

set_option maxRecDepth 16384 in
/-- Every operation of the stretch touches buffers of the device only. -/
theorem ops5_sub : (ops5 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., nullary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., binary_bufs_sub .., unary_bufs_sub .., reshape_bufs_sub .., binary_bufs_sub ..,
    unary_bufs_sub ..⟩

set_option maxRecDepth 16384 in
/-- Every operation of the stretch determines what it writes (none leaves a buffer with unspecified contents). -/
theorem ops5_fresh : ∀ op ∈ (ops5 : List (HloOp τ sig (Elt F))), op.fresh = ∅ :=
  List.forall_iff_forall_mem.mp (show (ops5 : List (HloOp τ sig (Elt F))).Forall (fun op => op.fresh = ∅) from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl⟩)

/-- The buffers the stretch writes: one per operation, in order. -/
abbrev ops5_W : List (Ref sig .tc) :=
  [main_v260, main_v261, main_v262, main_cst_38, main_v263, main_v264, main_v265, main_v266,
    main_v267, main_v268, main_v269, main_v270, main_v271, main_call15_cst, main_call15_v0, main_v272,
    main_v273, main_v274, main_v275, main_v276, main_cst_39, main_v277, main_cst_40, main_v278,
    main_v279, main_c_41, main_call16_cst, main_call16_v0, main_call16_v1, main_call16_cst_0, main_call16_v2, main_call16_v3,
    main_call16_v4, main_call16_v5, main_call16_v6, main_call16_v7, main_call16_cst_1, main_call16_v8, main_call16_cst_2, main_call16_v9,
    main_call16_v10, main_call16_v11, main_call16_cst_3, main_call16_v12, main_call16_cst_4, main_call16_call0_v0, main_call16_call0_v1, main_v280,
    main_v281, main_v282, main_v283, main_v284, main_v285, main_v286, main_cst_42, main_v287,
    main_v288, main_v289, main_v290, main_v291, main_v292, main_v293, main_v294, main_v295,
    main_call17_cst, main_call17_v0, main_v296, main_c_43, main_v297, main_v298, main_c_44, main_v299,
    main_v300, main_v301, main_v302, main_v303, main_cst_45, main_v304, main_v305, main_v306,
    main_v307, main_v308, main_v309, main_v310, main_v311]

set_option maxRecDepth 16384 in
set_option maxHeartbeats 4000000 in
/-- Each operation writes only its own result buffer, which is in the list. -/
theorem ops5_writes : (ops5 : List (HloOp τ sig (Elt F))).Forall fun op =>
    op.writes ⊆ (ops5_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer the stretch does not write holds afterwards what it held before. -/
theorem keep5 (V : Valuation τ sig (Elt F)) (r : Ref sig .tc) (h : r ∉ ops5_W) :
    after ops5 V (Proc.devRef .tc r) = V (Proc.devRef .tc r) :=
  after_of_writes_sub ops5 V ops5_writes h

end Cert.ReferenceIdeal.RefRun

end
-- ==== Proof.RefOps6.lean ====
/- Statements 361 … 420 of the reference network's entry function, as a list of 104
whole-array operations in program order (part of network layer 4 of five).

Each layer of the network maps the node features `h` (50000 rows of 128) to
`relu (BN₃ (relu (BN₂ (relu (BN₁ ((h + A h) W₁ + b₁)) W₂ + b₂))))`, where `A h` adds, for every edge, row `src` of
`h` into row `dst`, and `BN x = γ · (x - mean x) · rsqrt (var x + ε) + β` with the mean and the biased variance taken
over the 50000 rows, column by column. The program spells this with elementwise arithmetic, broadcasts, row slices of
the stacked parameters, one gather and one scatter-add, matrix products and column sums.

The 2 calls of the variance helper in this stretch (column mean, centred squares, their column sum divided by
`50000 - ddof`, and a select that would return NaN were that divisor not positive) and the 1 call of the rectifier
helper (maximum with a zero array) are written out as the helper's own operations over the buffers of that call, which is
what running the call does. The list, run in order, is this stretch of the program (`part6_eq`); every operation touches
device buffers only (`ops6_sub`), determines all it writes (`ops6_fresh`), and writes exactly one of the listed
buffers (`ops6_W`, `ops6_writes`), so any other buffer is the same before and after (`keep6`). -/
import proofs.«113410_j5944234737805_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 361 … 420, in order, the helper calls written out. -/
abbrev ops6 : List (HloOp τ sig (Elt F)) :=
  [ StableHlo.reshape main_v311 main_v312 rfl shapeCasts_S1x128_S128,
    StableHlo.unary main_v312 main_v313 (broadcastInDim S1x128 ![1] bcast_S128_S1x128_1 : (⟨S128, .f32⟩ : BufTy).Contents (Elt F) → (⟨S1x128, .f32⟩ : BufTy).Contents (Elt F)),
    StableHlo.unary main_v313 main_v314 (broadcastInDim S50000x128 ![0, 1] bcast_S1x128_S50000x128_0_1 : (⟨S1x128, .f32⟩ : BufTy).Contents (Elt F) → (⟨S50000x128, .f32⟩ : BufTy).Contents (Elt F)),
    StableHlo.binary main_v310 main_v314 main_v315 (addf : (⟨S50000x128, .f32⟩ : BufTy).Contents (Elt F) → (⟨S50000x128, .f32⟩ : BufTy).Contents (Elt F) → (⟨S50000x128, .f32⟩ : BufTy).Contents (Elt F)),
    StableHlo.unary main_arg7 main_v316 ((extractStridedSlice S1x128 ![3, 0] · slices_S5x128_S1x128_3_0) : (⟨S5x128, .f32⟩ : BufTy).Contents (Elt F) → (⟨S1x128, .f32⟩ : BufTy).Contents (Elt F)),
    StableHlo.reshape main_v316 main_v317 rfl shapeCasts_S1x128_S128,
    StableHlo.unary main_arg8 main_v318 ((extractStridedSlice S1x128 ![3, 0] · slices_S5x128_S1x128_3_0) : (⟨S5x128, .f32⟩ : BufTy).Contents (Elt F) → (⟨S1x128, .f32⟩ : BufTy).Contents (Elt F)),
    StableHlo.reshape main_v318 main_v319 rfl shapeCasts_S1x128_S128,
    StableHlo.nullary main_cst_46 (constant S_ .f32 0x00000000#32),
    StableHlo.binary main_v315 main_cst_46 main_v320 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_47 (constant S_ .f32 0x47435000#32),
    StableHlo.unary main_cst_47 main_v321 (broadcastInDim S128 ![] bcast_S_S128 : (⟨S_, .f32⟩ : BufTy).Contents (Elt F) → (⟨S128, .f32⟩ : BufTy).Contents (Elt F)),
    StableHlo.binary main_v320 main_v321 main_v322 (Host.divf : (⟨S128, .f32⟩ : BufTy).Contents (Elt F) → (⟨S128, .f32⟩ : BufTy).Contents (Elt F) → (⟨S128, .f32⟩ : BufTy).Contents (Elt F)),
    StableHlo.nullary main_c_48 (constantI S_ 32 0#32),
    StableHlo.TRef.nullary main_call18.cst (constant S_ .f32 0x00000000#32),
    StableHlo.TRef.binary (StableHlo.TRef.of main_v315 : StableHlo.TRef sig ⟨S50000x128, .f32⟩) main_call18.cst main_call18.v0 (fun x v => Host.reduceAdd x v reducesTo_S50000x128_S128_d0 h_S_),
    StableHlo.TRef.unary main_call18.v0 main_call18.v1 (broadcastInDim S1x128 ![1] bcast_S128_S1x128_1),
    StableHlo.TRef.nullary main_call18.cst_0 (constant S_ .f32 0x47435000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S50000x128 ![0, 1] bcast_S1x128_S50000x128_0_1),
    StableHlo.TRef.binary (StableHlo.TRef.of main_v315 : StableHlo.TRef sig ⟨S50000x128, .f32⟩) main_call18.v4 main_call18.v5 subf,
    StableHlo.TRef.binary main_call18.v5 main_call18.v5 main_call18.v6 mulf,
    StableHlo.TRef.unary (StableHlo.TRef.of main_c_48 : StableHlo.TRef sig ⟨S_, .i32⟩) main_call18.v7 (sitofp .f32),
    StableHlo.TRef.nullary main_call18.cst_1 (constant S_ .f32 0x47435000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S50000x128_S128_d0 h_S_),
    StableHlo.TRef.unary main_call18.v8 main_call18.v10 (broadcastInDim S128 ![] bcast_S_S128),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S128 ![] bcast_S_S128),
    StableHlo.TRef.ternary main_call18.v12 main_call18.v11 main_call18.call0.v1 main_call18.call0.v2 (fun p a b => select (broadcastInDim S128 ![] bcast_S_S128 p) a b),
    StableHlo.unary main_v322 main_v324 (broadcastInDim S1x128 ![1] bcast_S128_S1x128_1 : (⟨S128, .f32⟩ : BufTy).Contents (Elt F) → (⟨S1x128, .f32⟩ : BufTy).Contents (Elt F)),
    StableHlo.unary main_v324 main_v325 (broadcastInDim S50000x128 ![0, 1] bcast_S1x128_S50000x128_0_1 : (⟨S1x128, .f32⟩ : BufTy).Contents (Elt F) → (⟨S50000x128, .f32⟩ : BufTy).Contents (Elt F)),
    StableHlo.binary main_v315 main_v325 main_v326 (subf : (⟨S50000x128, .f32⟩ : BufTy).Contents (Elt F) → (⟨S50000x128, .f32⟩ : BufTy).Contents (Elt F) → (⟨S50000x128, .f32⟩ : BufTy).Contents (Elt F)),
    StableHlo.unary main_v317 main_v327 (broadcastInDim S1x128 ![1] bcast_S128_S1x128_1 : (⟨S128, .f32⟩ : BufTy).Contents (Elt F) → (⟨S1x128, .f32⟩ : BufTy).Contents (Elt F)),
    StableHlo.unary main_v327 main_v328 (broadcastInDim S50000x128 ![0, 1] bcast_S1x128_S50000x128_0_1 : (⟨S1x128, .f32⟩ : BufTy).Contents (Elt F) → (⟨S50000x128, .f32⟩ : BufTy).Contents (Elt F)),
    StableHlo.binary main_v328 main_v326 main_v329 (mulf : (⟨S50000x128, .f32⟩ : BufTy).Contents (Elt F) → (⟨S50000x128, .f32⟩ : BufTy).Contents (Elt F) → (⟨S50000x128, .f32⟩ : BufTy).Contents (Elt F)),
    StableHlo.nullary main_cst_49 (constant S_ .f32 0x3727C5AC#32),
    StableHlo.unary main_cst_49 main_v330 (broadcastInDim S128 ![] bcast_S_S128 : (⟨S_, .f32⟩ : BufTy).Contents (Elt F) → (⟨S128, .f32⟩ : BufTy).Contents (Elt F)),
    StableHlo.binary main_v323 main_v330 main_v331 (addf : (⟨S128, .f32⟩ : BufTy).Contents (Elt F) → (⟨S128, .f32⟩ : BufTy).Contents (Elt F) → (⟨S128, .f32⟩ : BufTy).Contents (Elt F)),
    StableHlo.unary main_v331 main_v332 (Host.rsqrt : (⟨S128, .f32⟩ : BufTy).Contents (Elt F) → (⟨S128, .f32⟩ : BufTy).Contents (Elt F)),
    StableHlo.unary main_v332 main_v333 (broadcastInDim S1x128 ![1] bcast_S128_S1x128_1 : (⟨S128, .f32⟩ : BufTy).Contents (Elt F) → (⟨S1x128, .f32⟩ : BufTy).Contents (Elt F)),
    StableHlo.unary main_v333 main_v334 (broadcastInDim S50000x128 ![0, 1] bcast_S1x128_S50000x128_0_1 : (⟨S1x128, .f32⟩ : BufTy).Contents (Elt F) → (⟨S50000x128, .f32⟩ : BufTy).Contents (Elt F)),
    StableHlo.binary main_v329 main_v334 main_v335 (mulf : (⟨S50000x128, .f32⟩ : BufTy).Contents (Elt F) → (⟨S50000x128, .f32⟩ : BufTy).Contents (Elt F) → (⟨S50000x128, .f32⟩ : BufTy).Contents (Elt F)),
    StableHlo.unary main_v319 main_v336 (broadcastInDim S1x128 ![1] bcast_S128_S1x128_1 : (⟨S128, .f32⟩ : BufTy).Contents (Elt F) → (⟨S1x128, .f32⟩ : BufTy).Contents (Elt F)),
    StableHlo.unary main_v336 main_v337 (broadcastInDim S50000x128 ![0, 1] bcast_S1x128_S50000x128_0_1 : (⟨S1x128, .f32⟩ : BufTy).Contents (Elt F) → (⟨S50000x128, .f32⟩ : BufTy).Contents (Elt F)),
    StableHlo.binary main_v335 main_v337 main_v338 (addf : (⟨S50000x128, .f32⟩ : BufTy).Contents (Elt F) → (⟨S50000x128, .f32⟩ : BufTy).Contents (Elt F) → (⟨S50000x128, .f32⟩ : BufTy).Contents (Elt F)),
    StableHlo.TRef.nullary main_call19.cst (constant S_ .f32 0x00000000#32),
    StableHlo.TRef.unary main_call19.cst main_call19.v0 (broadcastInDim S50000x128 ![] bcast_S_S50000x128),
    StableHlo.TRef.binary (StableHlo.TRef.of main_v338 : StableHlo.TRef sig ⟨S50000x128, .f32⟩) main_call19.v0 main_call19.v1 maximumf,
    StableHlo.unary main_arg5 main_v340 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v340 main_v341 rfl shapeCasts_S1x128x128_S128x128,
    StableHlo.binary main_v339 main_v341 main_v342 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v343 ((extractStridedSlice S1x128 ![3, 0] · slices_S5x128_S1x128_3_0) : (⟨S5x128, .f32⟩ : BufTy).Contents (Elt F) → (⟨S1x128, .f32⟩ : BufTy).Contents (Elt F)),
    StableHlo.reshape main_v343 main_v344 rfl shapeCasts_S1x128_S128,
    StableHlo.unary main_v344 main_v345 (broadcastInDim S1x128 ![1] bcast_S128_S1x128_1 : (⟨S128, .f32⟩ : BufTy).Contents (Elt F) → (⟨S1x128, .f32⟩ : BufTy).Contents (Elt F)),
    StableHlo.unary main_v345 main_v346 (broadcastInDim S50000x128 ![0, 1] bcast_S1x128_S50000x128_0_1 : (⟨S1x128, .f32⟩ : BufTy).Contents (Elt F) → (⟨S50000x128, .f32⟩ : BufTy).Contents (Elt F)),
    StableHlo.binary main_v342 main_v346 main_v347 (addf : (⟨S50000x128, .f32⟩ : BufTy).Contents (Elt F) → (⟨S50000x128, .f32⟩ : BufTy).Contents (Elt F) → (⟨S50000x128, .f32⟩ : BufTy).Contents (Elt F)),
    StableHlo.unary main_arg9 main_v348 ((extractStridedSlice S1x128 ![3, 0] · slices_S5x128_S1x128_3_0) : (⟨S5x128, .f32⟩ : BufTy).Contents (Elt F) → (⟨S1x128, .f32⟩ : BufTy).Contents (Elt F)),
    StableHlo.reshape main_v348 main_v349 rfl shapeCasts_S1x128_S128,
    StableHlo.unary main_arg10 main_v350 ((extractStridedSlice S1x128 ![3, 0] · slices_S5x128_S1x128_3_0) : (⟨S5x128, .f32⟩ : BufTy).Contents (Elt F) → (⟨S1x128, .f32⟩ : BufTy).Contents (Elt F)),
    StableHlo.reshape main_v350 main_v351 rfl shapeCasts_S1x128_S128,
    StableHlo.nullary main_cst_50 (constant S_ .f32 0x00000000#32),
    StableHlo.binary main_v347 main_cst_50 main_v352 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_51 (constant S_ .f32 0x47435000#32),
    StableHlo.unary main_cst_51 main_v353 (broadcastInDim S128 ![] bcast_S_S128 : (⟨S_, .f32⟩ : BufTy).Contents (Elt F) → (⟨S128, .f32⟩ : BufTy).Contents (Elt F)),
    StableHlo.binary main_v352 main_v353 main_v354 (Host.divf : (⟨S128, .f32⟩ : BufTy).Contents (Elt F) → (⟨S128, .f32⟩ : BufTy).Contents (Elt F) → (⟨S128, .f32⟩ : BufTy).Contents (Elt F)),
    StableHlo.nullary main_c_52 (constantI S_ 32 0#32),
    StableHlo.TRef.nullary main_call20.cst (constant S_ .f32 0x00000000#32),
    StableHlo.TRef.binary (StableHlo.TRef.of main_v347 : StableHlo.TRef sig ⟨S50000x128, .f32⟩) main_call20.cst main_call20.v0 (fun x v => Host.reduceAdd x v reducesTo_S50000x128_S128_d0 h_S_),
    StableHlo.TRef.unary main_call20.v0 main_call20.v1 (broadcastInDim S1x128 ![1] bcast_S128_S1x128_1),
    StableHlo.TRef.nullary main_call20.cst_0 (constant S_ .f32 0x47435000#32),
    StableHlo.TRef.unary main_call20.cst_0 main_call20.v2 (broadcastInDim S1x128 ![] bcast_S_S1x128),
    StableHlo.TRef.binary main_call20.v1 main_call20.v2 main_call20.v3 Host.divf,
    StableHlo.TRef.unary main_call20.v3 main_call20.v4 (broadcastInDim S50000x128 ![0, 1] bcast_S1x128_S50000x128_0_1),
    StableHlo.TRef.binary (StableHlo.TRef.of main_v347 : StableHlo.TRef sig ⟨S50000x128, .f32⟩) main_call20.v4 main_call20.v5 subf,
    StableHlo.TRef.binary main_call20.v5 main_call20.v5 main_call20.v6 mulf,
    StableHlo.TRef.unary (StableHlo.TRef.of main_c_52 : StableHlo.TRef sig ⟨S_, .i32⟩) main_call20.v7 (sitofp .f32),
    StableHlo.TRef.nullary main_call20.cst_1 (constant S_ .f32 0x47435000#32),
    StableHlo.TRef.binary main_call20.cst_1 main_call20.v7 main_call20.v8 subf,
    StableHlo.TRef.nullary main_call20.cst_2 (constant S_ .f32 0x00000000#32),
    StableHlo.TRef.binary main_call20.v6 main_call20.cst_2 main_call20.v9 (fun x v => Host.reduceAdd x v reducesTo_S50000x128_S128_d0 h_S_),
    StableHlo.TRef.unary main_call20.v8 main_call20.v10 (broadcastInDim S128 ![] bcast_S_S128),
    StableHlo.TRef.binary main_call20.v9 main_call20.v10 main_call20.v11 Host.divf,
    StableHlo.TRef.nullary main_call20.cst_3 (constant S_ .f32 0x00000000#32),
    StableHlo.TRef.binary main_call20.v8 main_call20.cst_3 main_call20.v12 (cmpf .ogt),
    StableHlo.TRef.nullary main_call20.cst_4 (constant S_ .f32 0x7FC00000#32),
    StableHlo.TRef.unary main_call20.cst_4 main_call20.call0.v0 id,
    StableHlo.TRef.unary main_call20.call0.v0 main_call20.call0.v1 (broadcastInDim S128 ![] bcast_S_S128),
    StableHlo.TRef.ternary main_call20.v12 main_call20.v11 main_call20.call0.v1 main_call20.call0.v2 (fun p a b => select (broadcastInDim S128 ![] bcast_S_S128 p) a b),
    StableHlo.unary main_v354 main_v356 (broadcastInDim S1x128 ![1] bcast_S128_S1x128_1 : (⟨S128, .f32⟩ : BufTy).Contents (Elt F) → (⟨S1x128, .f32⟩ : BufTy).Contents (Elt F)),
    StableHlo.unary main_v356 main_v357 (broadcastInDim S50000x128 ![0, 1] bcast_S1x128_S50000x128_0_1 : (⟨S1x128, .f32⟩ : BufTy).Contents (Elt F) → (⟨S50000x128, .f32⟩ : BufTy).Contents (Elt F)),
    StableHlo.binary main_v347 main_v357 main_v358 (subf : (⟨S50000x128, .f32⟩ : BufTy).Contents (Elt F) → (⟨S50000x128, .f32⟩ : BufTy).Contents (Elt F) → (⟨S50000x128, .f32⟩ : BufTy).Contents (Elt F)),
    StableHlo.unary main_v349 main_v359 (broadcastInDim S1x128 ![1] bcast_S128_S1x128_1 : (⟨S128, .f32⟩ : BufTy).Contents (Elt F) → (⟨S1x128, .f32⟩ : BufTy).Contents (Elt F)),
    StableHlo.unary main_v359 main_v360 (broadcastInDim S50000x128 ![0, 1] bcast_S1x128_S50000x128_0_1 : (⟨S1x128, .f32⟩ : BufTy).Contents (Elt F) → (⟨S50000x128, .f32⟩ : BufTy).Contents (Elt F)),
    StableHlo.binary main_v360 main_v358 main_v361 (mulf : (⟨S50000x128, .f32⟩ : BufTy).Contents (Elt F) → (⟨S50000x128, .f32⟩ : BufTy).Contents (Elt F) → (⟨S50000x128, .f32⟩ : BufTy).Contents (Elt F)),
    StableHlo.nullary main_cst_53 (constant S_ .f32 0x3727C5AC#32),
    StableHlo.unary main_cst_53 main_v362 (broadcastInDim S128 ![] bcast_S_S128 : (⟨S_, .f32⟩ : BufTy).Contents (Elt F) → (⟨S128, .f32⟩ : BufTy).Contents (Elt F)),
    StableHlo.binary main_v355 main_v362 main_v363 (addf : (⟨S128, .f32⟩ : BufTy).Contents (Elt F) → (⟨S128, .f32⟩ : BufTy).Contents (Elt F) → (⟨S128, .f32⟩ : BufTy).Contents (Elt F)) ]

set_option maxRecDepth 16384 in
set_option maxHeartbeats 4000000 in
/-- This stretch of the program is its operations run in order: unfolding the helpers at their calls and
    re-associating the sequencing leaves the same chain of steps on both sides. -/
theorem part6_eq (c : Dev nD) : main_part6 (F := F) c = seq ops6 := by
  simp only [main_part6, fn_var.body, fn_where.body, fn_relu.body, seq, bind_assoc, pure_bind]
  rfl

set_option maxRecDepth 16384 in
/-- Every operation of the stretch touches buffers of the device only. -/
theorem ops6_sub : (ops6 : List (HloOp τ sig (Elt F))).Forall fun op => op.bufs ⊆ tcRefs τ sig :=
  ⟨reshape_bufs_sub .., unary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub ..⟩

set_option maxRecDepth 16384 in
/-- Every operation of the stretch determines what it writes (none leaves a buffer with unspecified contents). -/
theorem ops6_fresh : ∀ op ∈ (ops6 : List (HloOp τ sig (Elt F))), op.fresh = ∅ :=
  List.forall_iff_forall_mem.mp (show (ops6 : List (HloOp τ sig (Elt F))).Forall (fun op => op.fresh = ∅) from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩)

/-- The buffers the stretch writes: one per operation, in order. -/
abbrev ops6_W : List (Ref sig .tc) :=
  [main_v312, main_v313, main_v314, main_v315, main_v316, main_v317, main_v318, main_v319,
    main_cst_46, main_v320, main_cst_47, main_v321, main_v322, main_c_48, main_call18_cst, main_call18_v0,
    main_call18_v1, main_call18_cst_0, main_call18_v2, main_call18_v3, main_call18_v4, main_call18_v5, main_call18_v6, main_call18_v7,
    main_call18_cst_1, main_call18_v8, main_call18_cst_2, main_call18_v9, main_call18_v10, main_call18_v11, main_call18_cst_3, main_call18_v12,
    main_call18_cst_4, main_call18_call0_v0, main_call18_call0_v1, main_v323, main_v324, main_v325, main_v326, main_v327,
    main_v328, main_v329, main_cst_49, main_v330, main_v331, main_v332, main_v333, main_v334,
    main_v335, main_v336, main_v337, main_v338, main_call19_cst, main_call19_v0, main_v339, main_v340,
    main_v341, main_v342, main_v343, main_v344, main_v345, main_v346, main_v347, main_v348,
    main_v349, main_v350, main_v351, main_cst_50, main_v352, main_cst_51, main_v353, main_v354,
    main_c_52, main_call20_cst, main_call20_v0, main_call20_v1, main_call20_cst_0, main_call20_v2, main_call20_v3, main_call20_v4,
    main_call20_v5, main_call20_v6, main_call20_v7, main_call20_cst_1, main_call20_v8, main_call20_cst_2, main_call20_v9, main_call20_v10,
    main_call20_v11, main_call20_cst_3, main_call20_v12, main_call20_cst_4, main_call20_call0_v0, main_call20_call0_v1, main_v355, main_v356,
    main_v357, main_v358, main_v359, main_v360, main_v361, main_cst_53, main_v362, main_v363]

set_option maxRecDepth 16384 in
set_option maxHeartbeats 4000000 in
/-- Each operation writes only its own result buffer, which is in the list. -/
theorem ops6_writes : (ops6 : List (HloOp τ sig (Elt F))).Forall fun op =>
    op.writes ⊆ (ops6_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer the stretch does not write holds afterwards what it held before. -/
theorem keep6 (V : Valuation τ sig (Elt F)) (r : Ref sig .tc) (h : r ∉ ops6_W) :
    after ops6 V (Proc.devRef .tc r) = V (Proc.devRef .tc r) :=
  after_of_writes_sub ops6 V ops6_writes h

end Cert.ReferenceIdeal.RefRun

end
-- ==== Proof.RefOps7.lean ====
/- Statements 421 … 480 of the reference network's entry function, as a list of 85
whole-array operations in program order (part of network layers 4 and 5 of five).

Each layer of the network maps the node features `h` (50000 rows of 128) to
`relu (BN₃ (relu (BN₂ (relu (BN₁ ((h + A h) W₁ + b₁)) W₂ + b₂))))`, where `A h` adds, for every edge, row `src` of
`h` into row `dst`, and `BN x = γ · (x - mean x) · rsqrt (var x + ε) + β` with the mean and the biased variance taken
over the 50000 rows, column by column. The program spells this with elementwise arithmetic, broadcasts, row slices of
the stacked parameters, one gather and one scatter-add, matrix products and column sums.

The 1 call of the variance helper in this stretch (column mean, centred squares, their column sum divided by
`50000 - ddof`, and a select that would return NaN were that divisor not positive) and the 2 calls of the rectifier
helper (maximum with a zero array) are written out as the helper's own operations over the buffers of that call, which is
what running the call does. The list, run in order, is this stretch of the program (`part7_eq`); every operation touches
device buffers only (`ops7_sub`), determines all it writes (`ops7_fresh`), and writes exactly one of the listed
buffers (`ops7_W`, `ops7_writes`), so any other buffer is the same before and after (`keep7`). -/
import proofs.«113410_j5944234737805_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 421 … 480, in order, the helper calls written out. -/
abbrev ops7 : List (HloOp τ sig (Elt F)) :=
  [ StableHlo.unary main_v363 main_v364 (Host.rsqrt : (⟨S128, .f32⟩ : BufTy).Contents (Elt F) → (⟨S128, .f32⟩ : BufTy).Contents (Elt F)),
    StableHlo.unary main_v364 main_v365 (broadcastInDim S1x128 ![1] bcast_S128_S1x128_1 : (⟨S128, .f32⟩ : BufTy).Contents (Elt F) → (⟨S1x128, .f32⟩ : BufTy).Contents (Elt F)),
    StableHlo.unary main_v365 main_v366 (broadcastInDim S50000x128 ![0, 1] bcast_S1x128_S50000x128_0_1 : (⟨S1x128, .f32⟩ : BufTy).Contents (Elt F) → (⟨S50000x128, .f32⟩ : BufTy).Contents (Elt F)),
    StableHlo.binary main_v361 main_v366 main_v367 (mulf : (⟨S50000x128, .f32⟩ : BufTy).Contents (Elt F) → (⟨S50000x128, .f32⟩ : BufTy).Contents (Elt F) → (⟨S50000x128, .f32⟩ : BufTy).Contents (Elt F)),
    StableHlo.unary main_v351 main_v368 (broadcastInDim S1x128 ![1] bcast_S128_S1x128_1 : (⟨S128, .f32⟩ : BufTy).Contents (Elt F) → (⟨S1x128, .f32⟩ : BufTy).Contents (Elt F)),
    StableHlo.unary main_v368 main_v369 (broadcastInDim S50000x128 ![0, 1] bcast_S1x128_S50000x128_0_1 : (⟨S1x128, .f32⟩ : BufTy).Contents (Elt F) → (⟨S50000x128, .f32⟩ : BufTy).Contents (Elt F)),
    StableHlo.binary main_v367 main_v369 main_v370 (addf : (⟨S50000x128, .f32⟩ : BufTy).Contents (Elt F) → (⟨S50000x128, .f32⟩ : BufTy).Contents (Elt F) → (⟨S50000x128, .f32⟩ : BufTy).Contents (Elt F)),
    StableHlo.TRef.nullary main_call21.cst (constant S_ .f32 0x00000000#32),
    StableHlo.TRef.unary main_call21.cst main_call21.v0 (broadcastInDim S50000x128 ![] bcast_S_S50000x128),
    StableHlo.TRef.binary (StableHlo.TRef.of main_v370 : StableHlo.TRef sig ⟨S50000x128, .f32⟩) main_call21.v0 main_call21.v1 maximumf,
    StableHlo.unary main_arg11 main_v372 ((extractStridedSlice S1x128 ![3, 0] · slices_S5x128_S1x128_3_0) : (⟨S5x128, .f32⟩ : BufTy).Contents (Elt F) → (⟨S1x128, .f32⟩ : BufTy).Contents (Elt F)),
    StableHlo.reshape main_v372 main_v373 rfl shapeCasts_S1x128_S128,
    StableHlo.unary main_arg12 main_v374 ((extractStridedSlice S1x128 ![3, 0] · slices_S5x128_S1x128_3_0) : (⟨S5x128, .f32⟩ : BufTy).Contents (Elt F) → (⟨S1x128, .f32⟩ : BufTy).Contents (Elt F)),
    StableHlo.reshape main_v374 main_v375 rfl shapeCasts_S1x128_S128,
    StableHlo.nullary main_cst_54 (constant S_ .f32 0x00000000#32),
    StableHlo.binary main_v371 main_cst_54 main_v376 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_55 (constant S_ .f32 0x47435000#32),
    StableHlo.unary main_cst_55 main_v377 (broadcastInDim S128 ![] bcast_S_S128 : (⟨S_, .f32⟩ : BufTy).Contents (Elt F) → (⟨S128, .f32⟩ : BufTy).Contents (Elt F)),
    StableHlo.binary main_v376 main_v377 main_v378 (Host.divf : (⟨S128, .f32⟩ : BufTy).Contents (Elt F) → (⟨S128, .f32⟩ : BufTy).Contents (Elt F) → (⟨S128, .f32⟩ : BufTy).Contents (Elt F)),
    StableHlo.nullary main_c_56 (constantI S_ 32 0#32),
    StableHlo.TRef.nullary main_call22.cst (constant S_ .f32 0x00000000#32),
    StableHlo.TRef.binary (StableHlo.TRef.of main_v371 : StableHlo.TRef sig ⟨S50000x128, .f32⟩) main_call22.cst main_call22.v0 (fun x v => Host.reduceAdd x v reducesTo_S50000x128_S128_d0 h_S_),
    StableHlo.TRef.unary main_call22.v0 main_call22.v1 (broadcastInDim S1x128 ![1] bcast_S128_S1x128_1),
    StableHlo.TRef.nullary main_call22.cst_0 (constant S_ .f32 0x47435000#32),
    StableHlo.TRef.unary main_call22.cst_0 main_call22.v2 (broadcastInDim S1x128 ![] bcast_S_S1x128),
    StableHlo.TRef.binary main_call22.v1 main_call22.v2 main_call22.v3 Host.divf,
    StableHlo.TRef.unary main_call22.v3 main_call22.v4 (broadcastInDim S50000x128 ![0, 1] bcast_S1x128_S50000x128_0_1),
    StableHlo.TRef.binary (StableHlo.TRef.of main_v371 : StableHlo.TRef sig ⟨S50000x128, .f32⟩) main_call22.v4 main_call22.v5 subf,
    StableHlo.TRef.binary main_call22.v5 main_call22.v5 main_call22.v6 mulf,
    StableHlo.TRef.unary (StableHlo.TRef.of main_c_56 : StableHlo.TRef sig ⟨S_, .i32⟩) main_call22.v7 (sitofp .f32),
    StableHlo.TRef.nullary main_call22.cst_1 (constant S_ .f32 0x47435000#32),
    StableHlo.TRef.binary main_call22.cst_1 main_call22.v7 main_call22.v8 subf,
    StableHlo.TRef.nullary main_call22.cst_2 (constant S_ .f32 0x00000000#32),
    StableHlo.TRef.binary main_call22.v6 main_call22.cst_2 main_call22.v9 (fun x v => Host.reduceAdd x v reducesTo_S50000x128_S128_d0 h_S_),
    StableHlo.TRef.unary main_call22.v8 main_call22.v10 (broadcastInDim S128 ![] bcast_S_S128),
    StableHlo.TRef.binary main_call22.v9 main_call22.v10 main_call22.v11 Host.divf,
    StableHlo.TRef.nullary main_call22.cst_3 (constant S_ .f32 0x00000000#32),
    StableHlo.TRef.binary main_call22.v8 main_call22.cst_3 main_call22.v12 (cmpf .ogt),
    StableHlo.TRef.nullary main_call22.cst_4 (constant S_ .f32 0x7FC00000#32),
    StableHlo.TRef.unary main_call22.cst_4 main_call22.call0.v0 id,
    StableHlo.TRef.unary main_call22.call0.v0 main_call22.call0.v1 (broadcastInDim S128 ![] bcast_S_S128),
    StableHlo.TRef.ternary main_call22.v12 main_call22.v11 main_call22.call0.v1 main_call22.call0.v2 (fun p a b => select (broadcastInDim S128 ![] bcast_S_S128 p) a b),
    StableHlo.unary main_v378 main_v380 (broadcastInDim S1x128 ![1] bcast_S128_S1x128_1 : (⟨S128, .f32⟩ : BufTy).Contents (Elt F) → (⟨S1x128, .f32⟩ : BufTy).Contents (Elt F)),
    StableHlo.unary main_v380 main_v381 (broadcastInDim S50000x128 ![0, 1] bcast_S1x128_S50000x128_0_1 : (⟨S1x128, .f32⟩ : BufTy).Contents (Elt F) → (⟨S50000x128, .f32⟩ : BufTy).Contents (Elt F)),
    StableHlo.binary main_v371 main_v381 main_v382 (subf : (⟨S50000x128, .f32⟩ : BufTy).Contents (Elt F) → (⟨S50000x128, .f32⟩ : BufTy).Contents (Elt F) → (⟨S50000x128, .f32⟩ : BufTy).Contents (Elt F)),
    StableHlo.unary main_v373 main_v383 (broadcastInDim S1x128 ![1] bcast_S128_S1x128_1 : (⟨S128, .f32⟩ : BufTy).Contents (Elt F) → (⟨S1x128, .f32⟩ : BufTy).Contents (Elt F)),
    StableHlo.unary main_v383 main_v384 (broadcastInDim S50000x128 ![0, 1] bcast_S1x128_S50000x128_0_1 : (⟨S1x128, .f32⟩ : BufTy).Contents (Elt F) → (⟨S50000x128, .f32⟩ : BufTy).Contents (Elt F)),
    StableHlo.binary main_v384 main_v382 main_v385 (mulf : (⟨S50000x128, .f32⟩ : BufTy).Contents (Elt F) → (⟨S50000x128, .f32⟩ : BufTy).Contents (Elt F) → (⟨S50000x128, .f32⟩ : BufTy).Contents (Elt F)),
    StableHlo.nullary main_cst_57 (constant S_ .f32 0x3727C5AC#32),
    StableHlo.unary main_cst_57 main_v386 (broadcastInDim S128 ![] bcast_S_S128 : (⟨S_, .f32⟩ : BufTy).Contents (Elt F) → (⟨S128, .f32⟩ : BufTy).Contents (Elt F)),
    StableHlo.binary main_v379 main_v386 main_v387 (addf : (⟨S128, .f32⟩ : BufTy).Contents (Elt F) → (⟨S128, .f32⟩ : BufTy).Contents (Elt F) → (⟨S128, .f32⟩ : BufTy).Contents (Elt F)),
    StableHlo.unary main_v387 main_v388 (Host.rsqrt : (⟨S128, .f32⟩ : BufTy).Contents (Elt F) → (⟨S128, .f32⟩ : BufTy).Contents (Elt F)),
    StableHlo.unary main_v388 main_v389 (broadcastInDim S1x128 ![1] bcast_S128_S1x128_1 : (⟨S128, .f32⟩ : BufTy).Contents (Elt F) → (⟨S1x128, .f32⟩ : BufTy).Contents (Elt F)),
    StableHlo.unary main_v389 main_v390 (broadcastInDim S50000x128 ![0, 1] bcast_S1x128_S50000x128_0_1 : (⟨S1x128, .f32⟩ : BufTy).Contents (Elt F) → (⟨S50000x128, .f32⟩ : BufTy).Contents (Elt F)),
    StableHlo.binary main_v385 main_v390 main_v391 (mulf : (⟨S50000x128, .f32⟩ : BufTy).Contents (Elt F) → (⟨S50000x128, .f32⟩ : BufTy).Contents (Elt F) → (⟨S50000x128, .f32⟩ : BufTy).Contents (Elt F)),
    StableHlo.unary main_v375 main_v392 (broadcastInDim S1x128 ![1] bcast_S128_S1x128_1 : (⟨S128, .f32⟩ : BufTy).Contents (Elt F) → (⟨S1x128, .f32⟩ : BufTy).Contents (Elt F)),
    StableHlo.unary main_v392 main_v393 (broadcastInDim S50000x128 ![0, 1] bcast_S1x128_S50000x128_0_1 : (⟨S1x128, .f32⟩ : BufTy).Contents (Elt F) → (⟨S50000x128, .f32⟩ : BufTy).Contents (Elt F)),
    StableHlo.binary main_v391 main_v393 main_v394 (addf : (⟨S50000x128, .f32⟩ : BufTy).Contents (Elt F) → (⟨S50000x128, .f32⟩ : BufTy).Contents (Elt F) → (⟨S50000x128, .f32⟩ : BufTy).Contents (Elt F)),
    StableHlo.TRef.nullary main_call23.cst (constant S_ .f32 0x00000000#32),
    StableHlo.TRef.unary main_call23.cst main_call23.v0 (broadcastInDim S50000x128 ![] bcast_S_S50000x128),
    StableHlo.TRef.binary (StableHlo.TRef.of main_v394 : StableHlo.TRef sig ⟨S50000x128, .f32⟩) main_call23.v0 main_call23.v1 maximumf,
    StableHlo.nullary main_c_58 (constantI S_ 32 0#32),
    StableHlo.unary main_c_58 main_v396 (broadcastInDim S800000 ![] bcast_S_S800000 : (⟨S_, .i32⟩ : BufTy).Contents (Elt F) → (⟨S800000, .i32⟩ : BufTy).Contents (Elt F)),
    StableHlo.binary main_arg1 main_v396 main_v397 (cmpi .slt : (⟨S800000, .i32⟩ : BufTy).Contents (Elt F) → (⟨S800000, .i32⟩ : BufTy).Contents (Elt F) → (⟨S800000, .i1⟩ : BufTy).Contents (Elt F)),
    StableHlo.nullary main_c_59 (constantI S_ 32 50000#32),
    StableHlo.unary main_c_59 main_v398 (broadcastInDim S800000 ![] bcast_S_S800000 : (⟨S_, .i32⟩ : BufTy).Contents (Elt F) → (⟨S800000, .i32⟩ : BufTy).Contents (Elt F)),
    StableHlo.binary main_arg1 main_v398 main_v399 (addi : (⟨S800000, .i32⟩ : BufTy).Contents (Elt F) → (⟨S800000, .i32⟩ : BufTy).Contents (Elt F) → (⟨S800000, .i32⟩ : BufTy).Contents (Elt F)),
    StableHlo.ternary main_v397 main_v399 main_arg1 main_v400 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v400 main_v401 (broadcastInDim S800000x1 ![0] bcast_S800000_S800000x1_0 : (⟨S800000, .i32⟩ : BufTy).Contents (Elt F) → (⟨S800000x1, .i32⟩ : BufTy).Contents (Elt F)),
    StableHlo.binary main_v395 main_v401 main_v402 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_60 (constant S_ .f32 0x00000000#32),
    StableHlo.unary main_cst_60 main_v403 (broadcastInDim S50000x128 ![] bcast_S_S50000x128 : (⟨S_, .f32⟩ : BufTy).Contents (Elt F) → (⟨S50000x128, .f32⟩ : BufTy).Contents (Elt F)),
    StableHlo.unary main_arg2 main_v404 (broadcastInDim S800000x1 ![0] bcast_S800000_S800000x1_0 : (⟨S800000, .i32⟩ : BufTy).Contents (Elt F) → (⟨S800000x1, .i32⟩ : BufTy).Contents (Elt F)),
    StableHlo.ternary main_v403 main_v404 main_v402 main_v405 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v395 main_v405 main_v406 (addf : (⟨S50000x128, .f32⟩ : BufTy).Contents (Elt F) → (⟨S50000x128, .f32⟩ : BufTy).Contents (Elt F) → (⟨S50000x128, .f32⟩ : BufTy).Contents (Elt F)),
    StableHlo.unary main_arg3 main_v407 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v407 main_v408 rfl shapeCasts_S1x128x128_S128x128,
    StableHlo.binary main_v406 main_v408 main_v409 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v410 ((extractStridedSlice S1x128 ![4, 0] · slices_S5x128_S1x128_4_0) : (⟨S5x128, .f32⟩ : BufTy).Contents (Elt F) → (⟨S1x128, .f32⟩ : BufTy).Contents (Elt F)),
    StableHlo.reshape main_v410 main_v411 rfl shapeCasts_S1x128_S128,
    StableHlo.unary main_v411 main_v412 (broadcastInDim S1x128 ![1] bcast_S128_S1x128_1 : (⟨S128, .f32⟩ : BufTy).Contents (Elt F) → (⟨S1x128, .f32⟩ : BufTy).Contents (Elt F)),
    StableHlo.unary main_v412 main_v413 (broadcastInDim S50000x128 ![0, 1] bcast_S1x128_S50000x128_0_1 : (⟨S1x128, .f32⟩ : BufTy).Contents (Elt F) → (⟨S50000x128, .f32⟩ : BufTy).Contents (Elt F)),
    StableHlo.binary main_v409 main_v413 main_v414 (addf : (⟨S50000x128, .f32⟩ : BufTy).Contents (Elt F) → (⟨S50000x128, .f32⟩ : BufTy).Contents (Elt F) → (⟨S50000x128, .f32⟩ : BufTy).Contents (Elt F)),
    StableHlo.unary main_arg7 main_v415 ((extractStridedSlice S1x128 ![4, 0] · slices_S5x128_S1x128_4_0) : (⟨S5x128, .f32⟩ : BufTy).Contents (Elt F) → (⟨S1x128, .f32⟩ : BufTy).Contents (Elt F)),
    StableHlo.reshape main_v415 main_v416 rfl shapeCasts_S1x128_S128 ]

set_option maxRecDepth 16384 in
set_option maxHeartbeats 4000000 in
/-- This stretch of the program is its operations run in order: unfolding the helpers at their calls and
    re-associating the sequencing leaves the same chain of steps on both sides. -/
theorem part7_eq (c : Dev nD) : main_part7 (F := F) c = seq ops7 := by
  simp only [main_part7, fn_var.body, fn_where.body, fn_relu.body, seq, bind_assoc, pure_bind]
  rfl

set_option maxRecDepth 16384 in
/-- Every operation of the stretch touches buffers of the device only. -/
theorem ops7_sub : (ops7 : List (HloOp τ sig (Elt F))).Forall fun op => op.bufs ⊆ tcRefs τ sig :=
  ⟨unary_bufs_sub .., unary_bufs_sub .., unary_bufs_sub .., binary_bufs_sub .., unary_bufs_sub .., unary_bufs_sub ..,
    binary_bufs_sub .., nullary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., unary_bufs_sub ..,
    reshape_bufs_sub ..⟩

set_option maxRecDepth 16384 in
/-- Every operation of the stretch determines what it writes (none leaves a buffer with unspecified contents). -/
theorem ops7_fresh : ∀ op ∈ (ops7 : List (HloOp τ sig (Elt F))), op.fresh = ∅ :=
  List.forall_iff_forall_mem.mp (show (ops7 : List (HloOp τ sig (Elt F))).Forall (fun op => op.fresh = ∅) from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl⟩)

/-- The buffers the stretch writes: one per operation, in order. -/
abbrev ops7_W : List (Ref sig .tc) :=
  [main_v364, main_v365, main_v366, main_v367, main_v368, main_v369, main_v370, main_call21_cst,
    main_call21_v0, main_v371, main_v372, main_v373, main_v374, main_v375, main_cst_54, main_v376,
    main_cst_55, main_v377, main_v378, main_c_56, main_call22_cst, main_call22_v0, main_call22_v1, main_call22_cst_0,
    main_call22_v2, main_call22_v3, main_call22_v4, main_call22_v5, main_call22_v6, main_call22_v7, main_call22_cst_1, main_call22_v8,
    main_call22_cst_2, main_call22_v9, main_call22_v10, main_call22_v11, main_call22_cst_3, main_call22_v12, main_call22_cst_4, main_call22_call0_v0,
    main_call22_call0_v1, main_v379, main_v380, main_v381, main_v382, main_v383, main_v384, main_v385,
    main_cst_57, main_v386, main_v387, main_v388, main_v389, main_v390, main_v391, main_v392,
    main_v393, main_v394, main_call23_cst, main_call23_v0, main_v395, main_c_58, main_v396, main_v397,
    main_c_59, main_v398, main_v399, main_v400, main_v401, main_v402, main_cst_60, main_v403,
    main_v404, main_v405, main_v406, main_v407, main_v408, main_v409, main_v410, main_v411,
    main_v412, main_v413, main_v414, main_v415, main_v416]

set_option maxRecDepth 16384 in
set_option maxHeartbeats 4000000 in
/-- Each operation writes only its own result buffer, which is in the list. -/
theorem ops7_writes : (ops7 : List (HloOp τ sig (Elt F))).Forall fun op =>
    op.writes ⊆ (ops7_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer the stretch does not write holds afterwards what it held before. -/
theorem keep7 (V : Valuation τ sig (Elt F)) (r : Ref sig .tc) (h : r ∉ ops7_W) :
    after ops7 V (Proc.devRef .tc r) = V (Proc.devRef .tc r) :=
  after_of_writes_sub ops7 V ops7_writes h

end Cert.ReferenceIdeal.RefRun

end
-- ==== Proof.RefOps8.lean ====
/- Statements 481 … 540 of the reference network's entry function, as a list of 104
whole-array operations in program order (part of network layer 5 of five).

Each layer of the network maps the node features `h` (50000 rows of 128) to
`relu (BN₃ (relu (BN₂ (relu (BN₁ ((h + A h) W₁ + b₁)) W₂ + b₂))))`, where `A h` adds, for every edge, row `src` of
`h` into row `dst`, and `BN x = γ · (x - mean x) · rsqrt (var x + ε) + β` with the mean and the biased variance taken
over the 50000 rows, column by column. The program spells this with elementwise arithmetic, broadcasts, row slices of
the stacked parameters, one gather and one scatter-add, matrix products and column sums.

The 2 calls of the variance helper in this stretch (column mean, centred squares, their column sum divided by
`50000 - ddof`, and a select that would return NaN were that divisor not positive) and the 1 call of the rectifier
helper (maximum with a zero array) are written out as the helper's own operations over the buffers of that call, which is
what running the call does. The list, run in order, is this stretch of the program (`part8_eq`); every operation touches
device buffers only (`ops8_sub`), determines all it writes (`ops8_fresh`), and writes exactly one of the listed
buffers (`ops8_W`, `ops8_writes`), so any other buffer is the same before and after (`keep8`). -/
import proofs.«113410_j5944234737805_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 481 … 540, in order, the helper calls written out. -/
abbrev ops8 : List (HloOp τ sig (Elt F)) :=
  [ StableHlo.unary main_arg8 main_v417 ((extractStridedSlice S1x128 ![4, 0] · slices_S5x128_S1x128_4_0) : (⟨S5x128, .f32⟩ : BufTy).Contents (Elt F) → (⟨S1x128, .f32⟩ : BufTy).Contents (Elt F)),
    StableHlo.reshape main_v417 main_v418 rfl shapeCasts_S1x128_S128,
    StableHlo.nullary main_cst_61 (constant S_ .f32 0x00000000#32),
    StableHlo.binary main_v414 main_cst_61 main_v419 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_62 (constant S_ .f32 0x47435000#32),
    StableHlo.unary main_cst_62 main_v420 (broadcastInDim S128 ![] bcast_S_S128 : (⟨S_, .f32⟩ : BufTy).Contents (Elt F) → (⟨S128, .f32⟩ : BufTy).Contents (Elt F)),
    StableHlo.binary main_v419 main_v420 main_v421 (Host.divf : (⟨S128, .f32⟩ : BufTy).Contents (Elt F) → (⟨S128, .f32⟩ : BufTy).Contents (Elt F) → (⟨S128, .f32⟩ : BufTy).Contents (Elt F)),
    StableHlo.nullary main_c_63 (constantI S_ 32 0#32),
    StableHlo.TRef.nullary main_call24.cst (constant S_ .f32 0x00000000#32),
    StableHlo.TRef.binary (StableHlo.TRef.of main_v414 : StableHlo.TRef sig ⟨S50000x128, .f32⟩) main_call24.cst main_call24.v0 (fun x v => Host.reduceAdd x v reducesTo_S50000x128_S128_d0 h_S_),
    StableHlo.TRef.unary main_call24.v0 main_call24.v1 (broadcastInDim S1x128 ![1] bcast_S128_S1x128_1),
    StableHlo.TRef.nullary main_call24.cst_0 (constant S_ .f32 0x47435000#32),
    StableHlo.TRef.unary main_call24.cst_0 main_call24.v2 (broadcastInDim S1x128 ![] bcast_S_S1x128),
    StableHlo.TRef.binary main_call24.v1 main_call24.v2 main_call24.v3 Host.divf,
    StableHlo.TRef.unary main_call24.v3 main_call24.v4 (broadcastInDim S50000x128 ![0, 1] bcast_S1x128_S50000x128_0_1),
    StableHlo.TRef.binary (StableHlo.TRef.of main_v414 : StableHlo.TRef sig ⟨S50000x128, .f32⟩) main_call24.v4 main_call24.v5 subf,
    StableHlo.TRef.binary main_call24.v5 main_call24.v5 main_call24.v6 mulf,
    StableHlo.TRef.unary (StableHlo.TRef.of main_c_63 : StableHlo.TRef sig ⟨S_, .i32⟩) main_call24.v7 (sitofp .f32),
    StableHlo.TRef.nullary main_call24.cst_1 (constant S_ .f32 0x47435000#32),
    StableHlo.TRef.binary main_call24.cst_1 main_call24.v7 main_call24.v8 subf,
    StableHlo.TRef.nullary main_call24.cst_2 (constant S_ .f32 0x00000000#32),
    StableHlo.TRef.binary main_call24.v6 main_call24.cst_2 main_call24.v9 (fun x v => Host.reduceAdd x v reducesTo_S50000x128_S128_d0 h_S_),
    StableHlo.TRef.unary main_call24.v8 main_call24.v10 (broadcastInDim S128 ![] bcast_S_S128),
    StableHlo.TRef.binary main_call24.v9 main_call24.v10 main_call24.v11 Host.divf,
    StableHlo.TRef.nullary main_call24.cst_3 (constant S_ .f32 0x00000000#32),
    StableHlo.TRef.binary main_call24.v8 main_call24.cst_3 main_call24.v12 (cmpf .ogt),
    StableHlo.TRef.nullary main_call24.cst_4 (constant S_ .f32 0x7FC00000#32),
    StableHlo.TRef.unary main_call24.cst_4 main_call24.call0.v0 id,
    StableHlo.TRef.unary main_call24.call0.v0 main_call24.call0.v1 (broadcastInDim S128 ![] bcast_S_S128),
    StableHlo.TRef.ternary main_call24.v12 main_call24.v11 main_call24.call0.v1 main_call24.call0.v2 (fun p a b => select (broadcastInDim S128 ![] bcast_S_S128 p) a b),
    StableHlo.unary main_v421 main_v423 (broadcastInDim S1x128 ![1] bcast_S128_S1x128_1 : (⟨S128, .f32⟩ : BufTy).Contents (Elt F) → (⟨S1x128, .f32⟩ : BufTy).Contents (Elt F)),
    StableHlo.unary main_v423 main_v424 (broadcastInDim S50000x128 ![0, 1] bcast_S1x128_S50000x128_0_1 : (⟨S1x128, .f32⟩ : BufTy).Contents (Elt F) → (⟨S50000x128, .f32⟩ : BufTy).Contents (Elt F)),
    StableHlo.binary main_v414 main_v424 main_v425 (subf : (⟨S50000x128, .f32⟩ : BufTy).Contents (Elt F) → (⟨S50000x128, .f32⟩ : BufTy).Contents (Elt F) → (⟨S50000x128, .f32⟩ : BufTy).Contents (Elt F)),
    StableHlo.unary main_v416 main_v426 (broadcastInDim S1x128 ![1] bcast_S128_S1x128_1 : (⟨S128, .f32⟩ : BufTy).Contents (Elt F) → (⟨S1x128, .f32⟩ : BufTy).Contents (Elt F)),
    StableHlo.unary main_v426 main_v427 (broadcastInDim S50000x128 ![0, 1] bcast_S1x128_S50000x128_0_1 : (⟨S1x128, .f32⟩ : BufTy).Contents (Elt F) → (⟨S50000x128, .f32⟩ : BufTy).Contents (Elt F)),
    StableHlo.binary main_v427 main_v425 main_v428 (mulf : (⟨S50000x128, .f32⟩ : BufTy).Contents (Elt F) → (⟨S50000x128, .f32⟩ : BufTy).Contents (Elt F) → (⟨S50000x128, .f32⟩ : BufTy).Contents (Elt F)),
    StableHlo.nullary main_cst_64 (constant S_ .f32 0x3727C5AC#32),
    StableHlo.unary main_cst_64 main_v429 (broadcastInDim S128 ![] bcast_S_S128 : (⟨S_, .f32⟩ : BufTy).Contents (Elt F) → (⟨S128, .f32⟩ : BufTy).Contents (Elt F)),
    StableHlo.binary main_v422 main_v429 main_v430 (addf : (⟨S128, .f32⟩ : BufTy).Contents (Elt F) → (⟨S128, .f32⟩ : BufTy).Contents (Elt F) → (⟨S128, .f32⟩ : BufTy).Contents (Elt F)),
    StableHlo.unary main_v430 main_v431 (Host.rsqrt : (⟨S128, .f32⟩ : BufTy).Contents (Elt F) → (⟨S128, .f32⟩ : BufTy).Contents (Elt F)),
    StableHlo.unary main_v431 main_v432 (broadcastInDim S1x128 ![1] bcast_S128_S1x128_1 : (⟨S128, .f32⟩ : BufTy).Contents (Elt F) → (⟨S1x128, .f32⟩ : BufTy).Contents (Elt F)),
    StableHlo.unary main_v432 main_v433 (broadcastInDim S50000x128 ![0, 1] bcast_S1x128_S50000x128_0_1 : (⟨S1x128, .f32⟩ : BufTy).Contents (Elt F) → (⟨S50000x128, .f32⟩ : BufTy).Contents (Elt F)),
    StableHlo.binary main_v428 main_v433 main_v434 (mulf : (⟨S50000x128, .f32⟩ : BufTy).Contents (Elt F) → (⟨S50000x128, .f32⟩ : BufTy).Contents (Elt F) → (⟨S50000x128, .f32⟩ : BufTy).Contents (Elt F)),
    StableHlo.unary main_v418 main_v435 (broadcastInDim S1x128 ![1] bcast_S128_S1x128_1 : (⟨S128, .f32⟩ : BufTy).Contents (Elt F) → (⟨S1x128, .f32⟩ : BufTy).Contents (Elt F)),
    StableHlo.unary main_v435 main_v436 (broadcastInDim S50000x128 ![0, 1] bcast_S1x128_S50000x128_0_1 : (⟨S1x128, .f32⟩ : BufTy).Contents (Elt F) → (⟨S50000x128, .f32⟩ : BufTy).Contents (Elt F)),
    StableHlo.binary main_v434 main_v436 main_v437 (addf : (⟨S50000x128, .f32⟩ : BufTy).Contents (Elt F) → (⟨S50000x128, .f32⟩ : BufTy).Contents (Elt F) → (⟨S50000x128, .f32⟩ : BufTy).Contents (Elt F)),
    StableHlo.TRef.nullary main_call25.cst (constant S_ .f32 0x00000000#32),
    StableHlo.TRef.unary main_call25.cst main_call25.v0 (broadcastInDim S50000x128 ![] bcast_S_S50000x128),
    StableHlo.TRef.binary (StableHlo.TRef.of main_v437 : StableHlo.TRef sig ⟨S50000x128, .f32⟩) main_call25.v0 main_call25.v1 maximumf,
    StableHlo.unary main_arg5 main_v439 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v439 main_v440 rfl shapeCasts_S1x128x128_S128x128,
    StableHlo.binary main_v438 main_v440 main_v441 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v442 ((extractStridedSlice S1x128 ![4, 0] · slices_S5x128_S1x128_4_0) : (⟨S5x128, .f32⟩ : BufTy).Contents (Elt F) → (⟨S1x128, .f32⟩ : BufTy).Contents (Elt F)),
    StableHlo.reshape main_v442 main_v443 rfl shapeCasts_S1x128_S128,
    StableHlo.unary main_v443 main_v444 (broadcastInDim S1x128 ![1] bcast_S128_S1x128_1 : (⟨S128, .f32⟩ : BufTy).Contents (Elt F) → (⟨S1x128, .f32⟩ : BufTy).Contents (Elt F)),
    StableHlo.unary main_v444 main_v445 (broadcastInDim S50000x128 ![0, 1] bcast_S1x128_S50000x128_0_1 : (⟨S1x128, .f32⟩ : BufTy).Contents (Elt F) → (⟨S50000x128, .f32⟩ : BufTy).Contents (Elt F)),
    StableHlo.binary main_v441 main_v445 main_v446 (addf : (⟨S50000x128, .f32⟩ : BufTy).Contents (Elt F) → (⟨S50000x128, .f32⟩ : BufTy).Contents (Elt F) → (⟨S50000x128, .f32⟩ : BufTy).Contents (Elt F)),
    StableHlo.unary main_arg9 main_v447 ((extractStridedSlice S1x128 ![4, 0] · slices_S5x128_S1x128_4_0) : (⟨S5x128, .f32⟩ : BufTy).Contents (Elt F) → (⟨S1x128, .f32⟩ : BufTy).Contents (Elt F)),
    StableHlo.reshape main_v447 main_v448 rfl shapeCasts_S1x128_S128,
    StableHlo.unary main_arg10 main_v449 ((extractStridedSlice S1x128 ![4, 0] · slices_S5x128_S1x128_4_0) : (⟨S5x128, .f32⟩ : BufTy).Contents (Elt F) → (⟨S1x128, .f32⟩ : BufTy).Contents (Elt F)),
    StableHlo.reshape main_v449 main_v450 rfl shapeCasts_S1x128_S128,
    StableHlo.nullary main_cst_65 (constant S_ .f32 0x00000000#32),
    StableHlo.binary main_v446 main_cst_65 main_v451 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_66 (constant S_ .f32 0x47435000#32),
    StableHlo.unary main_cst_66 main_v452 (broadcastInDim S128 ![] bcast_S_S128 : (⟨S_, .f32⟩ : BufTy).Contents (Elt F) → (⟨S128, .f32⟩ : BufTy).Contents (Elt F)),
    StableHlo.binary main_v451 main_v452 main_v453 (Host.divf : (⟨S128, .f32⟩ : BufTy).Contents (Elt F) → (⟨S128, .f32⟩ : BufTy).Contents (Elt F) → (⟨S128, .f32⟩ : BufTy).Contents (Elt F)),
    StableHlo.nullary main_c_67 (constantI S_ 32 0#32),
    StableHlo.TRef.nullary main_call26.cst (constant S_ .f32 0x00000000#32),
    StableHlo.TRef.binary (StableHlo.TRef.of main_v446 : StableHlo.TRef sig ⟨S50000x128, .f32⟩) main_call26.cst main_call26.v0 (fun x v => Host.reduceAdd x v reducesTo_S50000x128_S128_d0 h_S_),
    StableHlo.TRef.unary main_call26.v0 main_call26.v1 (broadcastInDim S1x128 ![1] bcast_S128_S1x128_1),
    StableHlo.TRef.nullary main_call26.cst_0 (constant S_ .f32 0x47435000#32),
    StableHlo.TRef.unary main_call26.cst_0 main_call26.v2 (broadcastInDim S1x128 ![] bcast_S_S1x128),
    StableHlo.TRef.binary main_call26.v1 main_call26.v2 main_call26.v3 Host.divf,
    StableHlo.TRef.unary main_call26.v3 main_call26.v4 (broadcastInDim S50000x128 ![0, 1] bcast_S1x128_S50000x128_0_1),
    StableHlo.TRef.binary (StableHlo.TRef.of main_v446 : StableHlo.TRef sig ⟨S50000x128, .f32⟩) main_call26.v4 main_call26.v5 subf,
    StableHlo.TRef.binary main_call26.v5 main_call26.v5 main_call26.v6 mulf,
    StableHlo.TRef.unary (StableHlo.TRef.of main_c_67 : StableHlo.TRef sig ⟨S_, .i32⟩) main_call26.v7 (sitofp .f32),
    StableHlo.TRef.nullary main_call26.cst_1 (constant S_ .f32 0x47435000#32),
    StableHlo.TRef.binary main_call26.cst_1 main_call26.v7 main_call26.v8 subf,
    StableHlo.TRef.nullary main_call26.cst_2 (constant S_ .f32 0x00000000#32),
    StableHlo.TRef.binary main_call26.v6 main_call26.cst_2 main_call26.v9 (fun x v => Host.reduceAdd x v reducesTo_S50000x128_S128_d0 h_S_),
    StableHlo.TRef.unary main_call26.v8 main_call26.v10 (broadcastInDim S128 ![] bcast_S_S128),
    StableHlo.TRef.binary main_call26.v9 main_call26.v10 main_call26.v11 Host.divf,
    StableHlo.TRef.nullary main_call26.cst_3 (constant S_ .f32 0x00000000#32),
    StableHlo.TRef.binary main_call26.v8 main_call26.cst_3 main_call26.v12 (cmpf .ogt),
    StableHlo.TRef.nullary main_call26.cst_4 (constant S_ .f32 0x7FC00000#32),
    StableHlo.TRef.unary main_call26.cst_4 main_call26.call0.v0 id,
    StableHlo.TRef.unary main_call26.call0.v0 main_call26.call0.v1 (broadcastInDim S128 ![] bcast_S_S128),
    StableHlo.TRef.ternary main_call26.v12 main_call26.v11 main_call26.call0.v1 main_call26.call0.v2 (fun p a b => select (broadcastInDim S128 ![] bcast_S_S128 p) a b),
    StableHlo.unary main_v453 main_v455 (broadcastInDim S1x128 ![1] bcast_S128_S1x128_1 : (⟨S128, .f32⟩ : BufTy).Contents (Elt F) → (⟨S1x128, .f32⟩ : BufTy).Contents (Elt F)),
    StableHlo.unary main_v455 main_v456 (broadcastInDim S50000x128 ![0, 1] bcast_S1x128_S50000x128_0_1 : (⟨S1x128, .f32⟩ : BufTy).Contents (Elt F) → (⟨S50000x128, .f32⟩ : BufTy).Contents (Elt F)),
    StableHlo.binary main_v446 main_v456 main_v457 (subf : (⟨S50000x128, .f32⟩ : BufTy).Contents (Elt F) → (⟨S50000x128, .f32⟩ : BufTy).Contents (Elt F) → (⟨S50000x128, .f32⟩ : BufTy).Contents (Elt F)),
    StableHlo.unary main_v448 main_v458 (broadcastInDim S1x128 ![1] bcast_S128_S1x128_1 : (⟨S128, .f32⟩ : BufTy).Contents (Elt F) → (⟨S1x128, .f32⟩ : BufTy).Contents (Elt F)),
    StableHlo.unary main_v458 main_v459 (broadcastInDim S50000x128 ![0, 1] bcast_S1x128_S50000x128_0_1 : (⟨S1x128, .f32⟩ : BufTy).Contents (Elt F) → (⟨S50000x128, .f32⟩ : BufTy).Contents (Elt F)),
    StableHlo.binary main_v459 main_v457 main_v460 (mulf : (⟨S50000x128, .f32⟩ : BufTy).Contents (Elt F) → (⟨S50000x128, .f32⟩ : BufTy).Contents (Elt F) → (⟨S50000x128, .f32⟩ : BufTy).Contents (Elt F)),
    StableHlo.nullary main_cst_68 (constant S_ .f32 0x3727C5AC#32),
    StableHlo.unary main_cst_68 main_v461 (broadcastInDim S128 ![] bcast_S_S128 : (⟨S_, .f32⟩ : BufTy).Contents (Elt F) → (⟨S128, .f32⟩ : BufTy).Contents (Elt F)),
    StableHlo.binary main_v454 main_v461 main_v462 (addf : (⟨S128, .f32⟩ : BufTy).Contents (Elt F) → (⟨S128, .f32⟩ : BufTy).Contents (Elt F) → (⟨S128, .f32⟩ : BufTy).Contents (Elt F)),
    StableHlo.unary main_v462 main_v463 (Host.rsqrt : (⟨S128, .f32⟩ : BufTy).Contents (Elt F) → (⟨S128, .f32⟩ : BufTy).Contents (Elt F)),
    StableHlo.unary main_v463 main_v464 (broadcastInDim S1x128 ![1] bcast_S128_S1x128_1 : (⟨S128, .f32⟩ : BufTy).Contents (Elt F) → (⟨S1x128, .f32⟩ : BufTy).Contents (Elt F)),
    StableHlo.unary main_v464 main_v465 (broadcastInDim S50000x128 ![0, 1] bcast_S1x128_S50000x128_0_1 : (⟨S1x128, .f32⟩ : BufTy).Contents (Elt F) → (⟨S50000x128, .f32⟩ : BufTy).Contents (Elt F)),
    StableHlo.binary main_v460 main_v465 main_v466 (mulf : (⟨S50000x128, .f32⟩ : BufTy).Contents (Elt F) → (⟨S50000x128, .f32⟩ : BufTy).Contents (Elt F) → (⟨S50000x128, .f32⟩ : BufTy).Contents (Elt F)),
    StableHlo.unary main_v450 main_v467 (broadcastInDim S1x128 ![1] bcast_S128_S1x128_1 : (⟨S128, .f32⟩ : BufTy).Contents (Elt F) → (⟨S1x128, .f32⟩ : BufTy).Contents (Elt F)),
    StableHlo.unary main_v467 main_v468 (broadcastInDim S50000x128 ![0, 1] bcast_S1x128_S50000x128_0_1 : (⟨S1x128, .f32⟩ : BufTy).Contents (Elt F) → (⟨S50000x128, .f32⟩ : BufTy).Contents (Elt F)) ]

set_option maxRecDepth 16384 in
set_option maxHeartbeats 4000000 in
/-- This stretch of the program is its operations run in order: unfolding the helpers at their calls and
    re-associating the sequencing leaves the same chain of steps on both sides. -/
theorem part8_eq (c : Dev nD) : main_part8 (F := F) c = seq ops8 := by
  simp only [main_part8, fn_var.body, fn_where.body, fn_relu.body, seq, bind_assoc, pure_bind]
  rfl

set_option maxRecDepth 16384 in
/-- Every operation of the stretch touches buffers of the device only. -/
theorem ops8_sub : (ops8 : List (HloOp τ sig (Elt F))).Forall fun op => op.bufs ⊆ tcRefs τ sig :=
  ⟨unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub ..⟩

set_option maxRecDepth 16384 in
/-- Every operation of the stretch determines what it writes (none leaves a buffer with unspecified contents). -/
theorem ops8_fresh : ∀ op ∈ (ops8 : List (HloOp τ sig (Elt F))), op.fresh = ∅ :=
  List.forall_iff_forall_mem.mp (show (ops8 : List (HloOp τ sig (Elt F))).Forall (fun op => op.fresh = ∅) from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩)

/-- The buffers the stretch writes: one per operation, in order. -/
abbrev ops8_W : List (Ref sig .tc) :=
  [main_v417, main_v418, main_cst_61, main_v419, main_cst_62, main_v420, main_v421, main_c_63,
    main_call24_cst, main_call24_v0, main_call24_v1, main_call24_cst_0, main_call24_v2, main_call24_v3, main_call24_v4, main_call24_v5,
    main_call24_v6, main_call24_v7, main_call24_cst_1, main_call24_v8, main_call24_cst_2, main_call24_v9, main_call24_v10, main_call24_v11,
    main_call24_cst_3, main_call24_v12, main_call24_cst_4, main_call24_call0_v0, main_call24_call0_v1, main_v422, main_v423, main_v424,
    main_v425, main_v426, main_v427, main_v428, main_cst_64, main_v429, main_v430, main_v431,
    main_v432, main_v433, main_v434, main_v435, main_v436, main_v437, main_call25_cst, main_call25_v0,
    main_v438, main_v439, main_v440, main_v441, main_v442, main_v443, main_v444, main_v445,
    main_v446, main_v447, main_v448, main_v449, main_v450, main_cst_65, main_v451, main_cst_66,
    main_v452, main_v453, main_c_67, main_call26_cst, main_call26_v0, main_call26_v1, main_call26_cst_0, main_call26_v2,
    main_call26_v3, main_call26_v4, main_call26_v5, main_call26_v6, main_call26_v7, main_call26_cst_1, main_call26_v8, main_call26_cst_2,
    main_call26_v9, main_call26_v10, main_call26_v11, main_call26_cst_3, main_call26_v12, main_call26_cst_4, main_call26_call0_v0, main_call26_call0_v1,
    main_v454, main_v455, main_v456, main_v457, main_v458, main_v459, main_v460, main_cst_68,
    main_v461, main_v462, main_v463, main_v464, main_v465, main_v466, main_v467, main_v468]

set_option maxRecDepth 16384 in
set_option maxHeartbeats 4000000 in
/-- Each operation writes only its own result buffer, which is in the list. -/
theorem ops8_writes : (ops8 : List (HloOp τ sig (Elt F))).Forall fun op =>
    op.writes ⊆ (ops8_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer the stretch does not write holds afterwards what it held before. -/
theorem keep8 (V : Valuation τ sig (Elt F)) (r : Ref sig .tc) (h : r ∉ ops8_W) :
    after ops8 V (Proc.devRef .tc r) = V (Proc.devRef .tc r) :=
  after_of_writes_sub ops8 V ops8_writes h

end Cert.ReferenceIdeal.RefRun

end
-- ==== Proof.RefOps9.lean ====
/- Statements 541 … 570 of the reference network's entry function, as a list of 55
whole-array operations in program order (part of network layer 5 of five).

Each layer of the network maps the node features `h` (50000 rows of 128) to
`relu (BN₃ (relu (BN₂ (relu (BN₁ ((h + A h) W₁ + b₁)) W₂ + b₂))))`, where `A h` adds, for every edge, row `src` of
`h` into row `dst`, and `BN x = γ · (x - mean x) · rsqrt (var x + ε) + β` with the mean and the biased variance taken
over the 50000 rows, column by column. The program spells this with elementwise arithmetic, broadcasts, row slices of
the stacked parameters, one gather and one scatter-add, matrix products and column sums.

The 1 call of the variance helper in this stretch (column mean, centred squares, their column sum divided by
`50000 - ddof`, and a select that would return NaN were that divisor not positive) and the 2 calls of the rectifier
helper (maximum with a zero array) are written out as the helper's own operations over the buffers of that call, which is
what running the call does. The list, run in order, is this stretch of the program (`part9_eq`); every operation touches
device buffers only (`ops9_sub`), determines all it writes (`ops9_fresh`), and writes exactly one of the listed
buffers (`ops9_W`, `ops9_writes`), so any other buffer is the same before and after (`keep9`). -/
import proofs.«113410_j5944234737805_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 541 … 570, in order, the helper calls written out. -/
abbrev ops9 : List (HloOp τ sig (Elt F)) :=
  [ StableHlo.binary main_v466 main_v468 main_v469 (addf : (⟨S50000x128, .f32⟩ : BufTy).Contents (Elt F) → (⟨S50000x128, .f32⟩ : BufTy).Contents (Elt F) → (⟨S50000x128, .f32⟩ : BufTy).Contents (Elt F)),
    StableHlo.TRef.nullary main_call27.cst (constant S_ .f32 0x00000000#32),
    StableHlo.TRef.unary main_call27.cst main_call27.v0 (broadcastInDim S50000x128 ![] bcast_S_S50000x128),
    StableHlo.TRef.binary (StableHlo.TRef.of main_v469 : StableHlo.TRef sig ⟨S50000x128, .f32⟩) main_call27.v0 main_call27.v1 maximumf,
    StableHlo.unary main_arg11 main_v471 ((extractStridedSlice S1x128 ![4, 0] · slices_S5x128_S1x128_4_0) : (⟨S5x128, .f32⟩ : BufTy).Contents (Elt F) → (⟨S1x128, .f32⟩ : BufTy).Contents (Elt F)),
    StableHlo.reshape main_v471 main_v472 rfl shapeCasts_S1x128_S128,
    StableHlo.unary main_arg12 main_v473 ((extractStridedSlice S1x128 ![4, 0] · slices_S5x128_S1x128_4_0) : (⟨S5x128, .f32⟩ : BufTy).Contents (Elt F) → (⟨S1x128, .f32⟩ : BufTy).Contents (Elt F)),
    StableHlo.reshape main_v473 main_v474 rfl shapeCasts_S1x128_S128,
    StableHlo.nullary main_cst_69 (constant S_ .f32 0x00000000#32),
    StableHlo.binary main_v470 main_cst_69 main_v475 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_70 (constant S_ .f32 0x47435000#32),
    StableHlo.unary main_cst_70 main_v476 (broadcastInDim S128 ![] bcast_S_S128 : (⟨S_, .f32⟩ : BufTy).Contents (Elt F) → (⟨S128, .f32⟩ : BufTy).Contents (Elt F)),
    StableHlo.binary main_v475 main_v476 main_v477 (Host.divf : (⟨S128, .f32⟩ : BufTy).Contents (Elt F) → (⟨S128, .f32⟩ : BufTy).Contents (Elt F) → (⟨S128, .f32⟩ : BufTy).Contents (Elt F)),
    StableHlo.nullary main_c_71 (constantI S_ 32 0#32),
    StableHlo.TRef.nullary main_call28.cst (constant S_ .f32 0x00000000#32),
    StableHlo.TRef.binary (StableHlo.TRef.of main_v470 : StableHlo.TRef sig ⟨S50000x128, .f32⟩) main_call28.cst main_call28.v0 (fun x v => Host.reduceAdd x v reducesTo_S50000x128_S128_d0 h_S_),
    StableHlo.TRef.unary main_call28.v0 main_call28.v1 (broadcastInDim S1x128 ![1] bcast_S128_S1x128_1),
    StableHlo.TRef.nullary main_call28.cst_0 (constant S_ .f32 0x47435000#32),
    StableHlo.TRef.unary main_call28.cst_0 main_call28.v2 (broadcastInDim S1x128 ![] bcast_S_S1x128),
    StableHlo.TRef.binary main_call28.v1 main_call28.v2 main_call28.v3 Host.divf,
    StableHlo.TRef.unary main_call28.v3 main_call28.v4 (broadcastInDim S50000x128 ![0, 1] bcast_S1x128_S50000x128_0_1),
    StableHlo.TRef.binary (StableHlo.TRef.of main_v470 : StableHlo.TRef sig ⟨S50000x128, .f32⟩) main_call28.v4 main_call28.v5 subf,
    StableHlo.TRef.binary main_call28.v5 main_call28.v5 main_call28.v6 mulf,
    StableHlo.TRef.unary (StableHlo.TRef.of main_c_71 : StableHlo.TRef sig ⟨S_, .i32⟩) main_call28.v7 (sitofp .f32),
    StableHlo.TRef.nullary main_call28.cst_1 (constant S_ .f32 0x47435000#32),
    StableHlo.TRef.binary main_call28.cst_1 main_call28.v7 main_call28.v8 subf,
    StableHlo.TRef.nullary main_call28.cst_2 (constant S_ .f32 0x00000000#32),
    StableHlo.TRef.binary main_call28.v6 main_call28.cst_2 main_call28.v9 (fun x v => Host.reduceAdd x v reducesTo_S50000x128_S128_d0 h_S_),
    StableHlo.TRef.unary main_call28.v8 main_call28.v10 (broadcastInDim S128 ![] bcast_S_S128),
    StableHlo.TRef.binary main_call28.v9 main_call28.v10 main_call28.v11 Host.divf,
    StableHlo.TRef.nullary main_call28.cst_3 (constant S_ .f32 0x00000000#32),
    StableHlo.TRef.binary main_call28.v8 main_call28.cst_3 main_call28.v12 (cmpf .ogt),
    StableHlo.TRef.nullary main_call28.cst_4 (constant S_ .f32 0x7FC00000#32),
    StableHlo.TRef.unary main_call28.cst_4 main_call28.call0.v0 id,
    StableHlo.TRef.unary main_call28.call0.v0 main_call28.call0.v1 (broadcastInDim S128 ![] bcast_S_S128),
    StableHlo.TRef.ternary main_call28.v12 main_call28.v11 main_call28.call0.v1 main_call28.call0.v2 (fun p a b => select (broadcastInDim S128 ![] bcast_S_S128 p) a b),
    StableHlo.unary main_v477 main_v479 (broadcastInDim S1x128 ![1] bcast_S128_S1x128_1 : (⟨S128, .f32⟩ : BufTy).Contents (Elt F) → (⟨S1x128, .f32⟩ : BufTy).Contents (Elt F)),
    StableHlo.unary main_v479 main_v480 (broadcastInDim S50000x128 ![0, 1] bcast_S1x128_S50000x128_0_1 : (⟨S1x128, .f32⟩ : BufTy).Contents (Elt F) → (⟨S50000x128, .f32⟩ : BufTy).Contents (Elt F)),
    StableHlo.binary main_v470 main_v480 main_v481 (subf : (⟨S50000x128, .f32⟩ : BufTy).Contents (Elt F) → (⟨S50000x128, .f32⟩ : BufTy).Contents (Elt F) → (⟨S50000x128, .f32⟩ : BufTy).Contents (Elt F)),
    StableHlo.unary main_v472 main_v482 (broadcastInDim S1x128 ![1] bcast_S128_S1x128_1 : (⟨S128, .f32⟩ : BufTy).Contents (Elt F) → (⟨S1x128, .f32⟩ : BufTy).Contents (Elt F)),
    StableHlo.unary main_v482 main_v483 (broadcastInDim S50000x128 ![0, 1] bcast_S1x128_S50000x128_0_1 : (⟨S1x128, .f32⟩ : BufTy).Contents (Elt F) → (⟨S50000x128, .f32⟩ : BufTy).Contents (Elt F)),
    StableHlo.binary main_v483 main_v481 main_v484 (mulf : (⟨S50000x128, .f32⟩ : BufTy).Contents (Elt F) → (⟨S50000x128, .f32⟩ : BufTy).Contents (Elt F) → (⟨S50000x128, .f32⟩ : BufTy).Contents (Elt F)),
    StableHlo.nullary main_cst_72 (constant S_ .f32 0x3727C5AC#32),
    StableHlo.unary main_cst_72 main_v485 (broadcastInDim S128 ![] bcast_S_S128 : (⟨S_, .f32⟩ : BufTy).Contents (Elt F) → (⟨S128, .f32⟩ : BufTy).Contents (Elt F)),
    StableHlo.binary main_v478 main_v485 main_v486 (addf : (⟨S128, .f32⟩ : BufTy).Contents (Elt F) → (⟨S128, .f32⟩ : BufTy).Contents (Elt F) → (⟨S128, .f32⟩ : BufTy).Contents (Elt F)),
    StableHlo.unary main_v486 main_v487 (Host.rsqrt : (⟨S128, .f32⟩ : BufTy).Contents (Elt F) → (⟨S128, .f32⟩ : BufTy).Contents (Elt F)),
    StableHlo.unary main_v487 main_v488 (broadcastInDim S1x128 ![1] bcast_S128_S1x128_1 : (⟨S128, .f32⟩ : BufTy).Contents (Elt F) → (⟨S1x128, .f32⟩ : BufTy).Contents (Elt F)),
    StableHlo.unary main_v488 main_v489 (broadcastInDim S50000x128 ![0, 1] bcast_S1x128_S50000x128_0_1 : (⟨S1x128, .f32⟩ : BufTy).Contents (Elt F) → (⟨S50000x128, .f32⟩ : BufTy).Contents (Elt F)),
    StableHlo.binary main_v484 main_v489 main_v490 (mulf : (⟨S50000x128, .f32⟩ : BufTy).Contents (Elt F) → (⟨S50000x128, .f32⟩ : BufTy).Contents (Elt F) → (⟨S50000x128, .f32⟩ : BufTy).Contents (Elt F)),
    StableHlo.unary main_v474 main_v491 (broadcastInDim S1x128 ![1] bcast_S128_S1x128_1 : (⟨S128, .f32⟩ : BufTy).Contents (Elt F) → (⟨S1x128, .f32⟩ : BufTy).Contents (Elt F)),
    StableHlo.unary main_v491 main_v492 (broadcastInDim S50000x128 ![0, 1] bcast_S1x128_S50000x128_0_1 : (⟨S1x128, .f32⟩ : BufTy).Contents (Elt F) → (⟨S50000x128, .f32⟩ : BufTy).Contents (Elt F)),
    StableHlo.binary main_v490 main_v492 main_v493 (addf : (⟨S50000x128, .f32⟩ : BufTy).Contents (Elt F) → (⟨S50000x128, .f32⟩ : BufTy).Contents (Elt F) → (⟨S50000x128, .f32⟩ : BufTy).Contents (Elt F)),
    StableHlo.TRef.nullary main_call29.cst (constant S_ .f32 0x00000000#32),
    StableHlo.TRef.unary main_call29.cst main_call29.v0 (broadcastInDim S50000x128 ![] bcast_S_S50000x128),
    StableHlo.TRef.binary (StableHlo.TRef.of main_v493 : StableHlo.TRef sig ⟨S50000x128, .f32⟩) main_call29.v0 main_call29.v1 maximumf ]

set_option maxRecDepth 16384 in
set_option maxHeartbeats 4000000 in
/-- This stretch of the program is its operations run in order: unfolding the helpers at their calls and
    re-associating the sequencing leaves the same chain of steps on both sides. -/
theorem part9_eq (c : Dev nD) : main_part9 (F := F) c = seq ops9 := by
  simp only [main_part9, fn_var.body, fn_where.body, fn_relu.body, seq, bind_assoc, pure_bind]

set_option maxRecDepth 16384 in
/-- Every operation of the stretch touches buffers of the device only. -/
theorem ops9_sub : (ops9 : List (HloOp τ sig (Elt F))).Forall fun op => op.bufs ⊆ tcRefs τ sig :=
  ⟨binary_bufs_sub .., nullary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub ..⟩

set_option maxRecDepth 16384 in
/-- Every operation of the stretch determines what it writes (none leaves a buffer with unspecified contents). -/
theorem ops9_fresh : ∀ op ∈ (ops9 : List (HloOp τ sig (Elt F))), op.fresh = ∅ :=
  List.forall_iff_forall_mem.mp (show (ops9 : List (HloOp τ sig (Elt F))).Forall (fun op => op.fresh = ∅) from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩)

/-- The buffers the stretch writes: one per operation, in order. -/
abbrev ops9_W : List (Ref sig .tc) :=
  [main_v469, main_call27_cst, main_call27_v0, main_v470, main_v471, main_v472, main_v473, main_v474,
    main_cst_69, main_v475, main_cst_70, main_v476, main_v477, main_c_71, main_call28_cst, main_call28_v0,
    main_call28_v1, main_call28_cst_0, main_call28_v2, main_call28_v3, main_call28_v4, main_call28_v5, main_call28_v6, main_call28_v7,
    main_call28_cst_1, main_call28_v8, main_call28_cst_2, main_call28_v9, main_call28_v10, main_call28_v11, main_call28_cst_3, main_call28_v12,
    main_call28_cst_4, main_call28_call0_v0, main_call28_call0_v1, main_v478, main_v479, main_v480, main_v481, main_v482,
    main_v483, main_v484, main_cst_72, main_v485, main_v486, main_v487, main_v488, main_v489,
    main_v490, main_v491, main_v492, main_v493, main_call29_cst, main_call29_v0, main_v494]

set_option maxRecDepth 16384 in
set_option maxHeartbeats 4000000 in
/-- Each operation writes only its own result buffer, which is in the list. -/
theorem ops9_writes : (ops9 : List (HloOp τ sig (Elt F))).Forall fun op =>
    op.writes ⊆ (ops9_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer the stretch does not write holds afterwards what it held before. -/
theorem keep9 (V : Valuation τ sig (Elt F)) (r : Ref sig .tc) (h : r ∉ ops9_W) :
    after ops9 V (Proc.devRef .tc r) = V (Proc.devRef .tc r) :=
  after_of_writes_sub ops9 V ops9_writes h

end Cert.ReferenceIdeal.RefRun

end
-- ==== Proof.RefRun.lean ====
/- The whole reference network as ONE list of 915 whole-array operations — the ten stretches of the entry function
   one after the other — and what running it does. The entry function is that list run in order (`main_eq`, from the
   stretches' own equations: running a concatenation is running its parts in turn). The device's buffers are all
   ordinary tensor buffers (none scoped, no semaphore), every operation touches device buffers only and determines what
   it writes, so from any memory every weakly fair execution terminates without a fault and leaves each buffer at the
   fold of the operations' results over the launch contents (`run`). No operation writes one of the thirteen argument
   arrays (features, edge sources, edge targets, and the stacked weights, biases, scales and shifts of the five layers):
   each stretch's written buffers are listed and an argument is in none of the lists, so the fold at an argument is the
   launch contents (`kept_main_arg0` … `kept_main_arg12`), which is the frame claim of the reference (`frame_ri`). -/
import proofs.«113410_j5944234737805_1_alg».proof.Defs
import proofs.«113410_j5944234737805_1_alg».proof.Proof.Gen.ReferenceIdeal
import proofs.«113410_j5944234737805_1_alg».proof.Proof.Gen.Pre_finite_inputs
import proofs.«113410_j5944234737805_1_alg».proof.Proof.RefOps0
import proofs.«113410_j5944234737805_1_alg».proof.Proof.RefOps1
import proofs.«113410_j5944234737805_1_alg».proof.Proof.RefOps2
import proofs.«113410_j5944234737805_1_alg».proof.Proof.RefOps3
import proofs.«113410_j5944234737805_1_alg».proof.Proof.RefOps4
import proofs.«113410_j5944234737805_1_alg».proof.Proof.RefOps5
import proofs.«113410_j5944234737805_1_alg».proof.Proof.RefOps6
import proofs.«113410_j5944234737805_1_alg».proof.Proof.RefOps7
import proofs.«113410_j5944234737805_1_alg».proof.Proof.RefOps8
import proofs.«113410_j5944234737805_1_alg».proof.Proof.RefOps9
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 915 operations of the entry function, in order: the ten stretches concatenated. -/
abbrev ops : List (HloOp τ sig (Elt F)) :=
  ops0 ++ (ops1 ++ (ops2 ++ (ops3 ++ (ops4 ++ (ops5 ++ (ops6 ++ (ops7 ++ (ops8 ++ (ops9)))))))))

set_option maxRecDepth 8192 in
/-- The entry function is its operations run in order. -/
theorem main_eq (c : Dev nD) : main (F := F) c = seq ops := by
  simp only [ops, seq_append, ← part0_eq c, ← part1_eq c, ← part2_eq c, ← part3_eq c, ← part4_eq c, ← part5_eq c, ← part6_eq c, ← part7_eq c, ← part8_eq c, ← part9_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h]

/-- Every operation determines what it writes. -/
theorem ops_fresh : ∀ op ∈ (ops : List (HloOp τ sig (Elt F))), op.fresh = ∅ := fun op h => by
  simp only [ops, List.mem_append] at h
  rcases h with h | h | h | h | h | h | h | h | h | h
  exacts [ops0_fresh op h, ops1_fresh op h, ops2_fresh op h, ops3_fresh op h, ops4_fresh op h, ops5_fresh op h, ops6_fresh op h, ops7_fresh op h, ops8_fresh op h, ops9_fresh op h]

/-- On every device, for any float values, from any memory with zero counters: every weakly fair execution of the
    entry function terminates, and each buffer ends at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold over the whole list is the stretches' folds, one inside the next. -/
theorem after_ops (V : Valuation τ sig (Elt F)) : after ops V = after ops9 (after ops8 (after ops7 (after ops6 (after ops5 (after ops4 (after ops3 (after ops2 (after ops1 (after ops0 (V)))))))))) := by
  simp only [ops, StableHlo.after_append]

/-- A buffer written by none of the ten stretches holds at the end what it held at the start. -/
theorem kept (V : Valuation τ sig (Elt F)) (r : Ref sig .tc)
    (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) (h9 : r ∉ ops9_W) :
    after ops V (Proc.devRef .tc r) = V (Proc.devRef .tc r) := by
  rw [after_ops, keep9 _ r h9, keep8 _ r h8, keep7 _ r h7, keep6 _ r h6, keep5 _ r h5, keep4 _ r h4, keep3 _ r h3, keep2 _ r h2, keep1 _ r h1, keep0 _ r h0]

/-- No operation writes argument 0. -/
theorem kept_main_arg0 (V : Valuation τ sig (Elt F)) :
    after ops V (Proc.devRef .tc main_arg0) = V (Proc.devRef .tc main_arg0) :=
  kept V main_arg0 (by decide) (by decide) (by decide) (by decide) (by decide) (by decide) (by decide) (by decide) (by decide) (by decide)

/-- No operation writes argument 1. -/
theorem kept_main_arg1 (V : Valuation τ sig (Elt F)) :
    after ops V (Proc.devRef .tc main_arg1) = V (Proc.devRef .tc main_arg1) :=
  kept V main_arg1 (by decide) (by decide) (by decide) (by decide) (by decide) (by decide) (by decide) (by decide) (by decide) (by decide)

/-- No operation writes argument 2. -/
theorem kept_main_arg2 (V : Valuation τ sig (Elt F)) :
    after ops V (Proc.devRef .tc main_arg2) = V (Proc.devRef .tc main_arg2) :=
  kept V main_arg2 (by decide) (by decide) (by decide) (by decide) (by decide) (by decide) (by decide) (by decide) (by decide) (by decide)

/-- No operation writes argument 3. -/
theorem kept_main_arg3 (V : Valuation τ sig (Elt F)) :
    after ops V (Proc.devRef .tc main_arg3) = V (Proc.devRef .tc main_arg3) :=
  kept V main_arg3 (by decide) (by decide) (by decide) (by decide) (by decide) (by decide) (by decide) (by decide) (by decide) (by decide)

/-- No operation writes argument 4. -/
theorem kept_main_arg4 (V : Valuation τ sig (Elt F)) :
    after ops V (Proc.devRef .tc main_arg4) = V (Proc.devRef .tc main_arg4) :=
  kept V main_arg4 (by decide) (by decide) (by decide) (by decide) (by decide) (by decide) (by decide) (by decide) (by decide) (by decide)

/-- No operation writes argument 5. -/
theorem kept_main_arg5 (V : Valuation τ sig (Elt F)) :
    after ops V (Proc.devRef .tc main_arg5) = V (Proc.devRef .tc main_arg5) :=
  kept V main_arg5 (by decide) (by decide) (by decide) (by decide) (by decide) (by decide) (by decide) (by decide) (by decide) (by decide)

/-- No operation writes argument 6. -/
theorem kept_main_arg6 (V : Valuation τ sig (Elt F)) :
    after ops V (Proc.devRef .tc main_arg6) = V (Proc.devRef .tc main_arg6) :=
  kept V main_arg6 (by decide) (by decide) (by decide) (by decide) (by decide) (by decide) (by decide) (by decide) (by decide) (by decide)

/-- No operation writes argument 7. -/
theorem kept_main_arg7 (V : Valuation τ sig (Elt F)) :
    after ops V (Proc.devRef .tc main_arg7) = V (Proc.devRef .tc main_arg7) :=
  kept V main_arg7 (by decide) (by decide) (by decide) (by decide) (by decide) (by decide) (by decide) (by decide) (by decide) (by decide)

/-- No operation writes argument 8. -/
theorem kept_main_arg8 (V : Valuation τ sig (Elt F)) :
    after ops V (Proc.devRef .tc main_arg8) = V (Proc.devRef .tc main_arg8) :=
  kept V main_arg8 (by decide) (by decide) (by decide) (by decide) (by decide) (by decide) (by decide) (by decide) (by decide) (by decide)

/-- No operation writes argument 9. -/
theorem kept_main_arg9 (V : Valuation τ sig (Elt F)) :
    after ops V (Proc.devRef .tc main_arg9) = V (Proc.devRef .tc main_arg9) :=
  kept V main_arg9 (by decide) (by decide) (by decide) (by decide) (by decide) (by decide) (by decide) (by decide) (by decide) (by decide)

/-- No operation writes argument 10. -/
theorem kept_main_arg10 (V : Valuation τ sig (Elt F)) :
    after ops V (Proc.devRef .tc main_arg10) = V (Proc.devRef .tc main_arg10) :=
  kept V main_arg10 (by decide) (by decide) (by decide) (by decide) (by decide) (by decide) (by decide) (by decide) (by decide) (by decide)

/-- No operation writes argument 11. -/
theorem kept_main_arg11 (V : Valuation τ sig (Elt F)) :
    after ops V (Proc.devRef .tc main_arg11) = V (Proc.devRef .tc main_arg11) :=
  kept V main_arg11 (by decide) (by decide) (by decide) (by decide) (by decide) (by decide) (by decide) (by decide) (by decide) (by decide)

/-- No operation writes argument 12. -/
theorem kept_main_arg12 (V : Valuation τ sig (Elt F)) :
    after ops V (Proc.devRef .tc main_arg12) = V (Proc.devRef .tc main_arg12) :=
  kept V main_arg12 (by decide) (by decide) (by decide) (by decide) (by decide) (by decide) (by decide) (by decide) (by decide) (by decide)

/-- The reference runs to the end without a fault and leaves its thirteen argument arrays as they were. -/
theorem frame_ri : Cert.frame_ReferenceIdeal := fun m ρ _ =>
  (θ_run Cert.ReferenceIdeal.defs _ _).mono (fun r h c =>
    ⟨(h c main_arg0).trans (kept_main_arg0 _),
     (h c main_arg1).trans (kept_main_arg1 _),
     (h c main_arg2).trans (kept_main_arg2 _),
     (h c main_arg3).trans (kept_main_arg3 _),
     (h c main_arg4).trans (kept_main_arg4 _),
     (h c main_arg5).trans (kept_main_arg5 _),
     (h c main_arg6).trans (kept_main_arg6 _),
     (h c main_arg7).trans (kept_main_arg7 _),
     (h c main_arg8).trans (kept_main_arg8 _),
     (h c main_arg9).trans (kept_main_arg9 _),
     (h c main_arg10).trans (kept_main_arg10 _),
     (h c main_arg11).trans (kept_main_arg11 _),
     (h c main_arg12).trans (kept_main_arg12 _)⟩)
    (run (F := Ideal) m ρ)

end Cert.ReferenceIdeal.RefRun

end
-- ==== Proof.RefLayer0.lean ====
/- Layer 1 of the reference network, stage by stage. Its 183 operations are cut into nine consecutive stages —
   neighbour sum and residual, linear map, batch normalisation, rectifier, linear map, batch normalisation, rectifier,
   batch normalisation, rectifier — and for each stage the contents of its result buffer after the stage's operations
   are the corresponding named function (`refRst`, `refLinear`, `refBN`, `refRelu`) of the contents of the buffers it
   reads, whatever the buffers held before: each operation writes its own buffer as its whole-array function of its
   operands and leaves every other buffer alone, so reading the result back through the list composes those functions
   in order. A stage writes only its own buffers, hence the features it received and the parameter arrays pass through
   it unchanged; chaining the nine equations gives the layer function `RefLayer 0` of the incoming features and the
   argument arrays (row 0 of each stacked parameter). -/
import proofs.«113410_j5944234737805_1_alg».proof.Proof.RefStages
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1, the neighbour sum added to the features: its 14 operations in order. -/
abbrev agg_0 : List (HloOp τ sig (Elt F)) :=
  [ StableHlo.nullary main_c (constantI S_ 32 0#32),
    StableHlo.unary main_c main_v0 (broadcastInDim S800000 ![] bcast_S_S800000 : (⟨S_, .i32⟩ : BufTy).Contents (Elt F) → (⟨S800000, .i32⟩ : BufTy).Contents (Elt F)),
    StableHlo.binary main_arg1 main_v0 main_v1 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v2 (broadcastInDim S800000 ![] bcast_S_S800000 : (⟨S_, .i32⟩ : BufTy).Contents (Elt F) → (⟨S800000, .i32⟩ : BufTy).Contents (Elt F)),
    StableHlo.binary main_arg1 main_v2 main_v3 (addi : (⟨S800000, .i32⟩ : BufTy).Contents (Elt F) → (⟨S800000, .i32⟩ : BufTy).Contents (Elt F) → (⟨S800000, .i32⟩ : BufTy).Contents (Elt F)),
    StableHlo.ternary main_v1 main_v3 main_arg1 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v4 main_v5 (broadcastInDim S800000x1 ![0] bcast_S800000_S800000x1_0 : (⟨S800000, .i32⟩ : BufTy).Contents (Elt F) → (⟨S800000x1, .i32⟩ : BufTy).Contents (Elt F)),
    StableHlo.binary main_arg0 main_v5 main_v6 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v7 (broadcastInDim S50000x128 ![] bcast_S_S50000x128 : (⟨S_, .f32⟩ : BufTy).Contents (Elt F) → (⟨S50000x128, .f32⟩ : BufTy).Contents (Elt F)),
    StableHlo.unary main_arg2 main_v8 (broadcastInDim S800000x1 ![0] bcast_S800000_S800000x1_0 : (⟨S800000, .i32⟩ : BufTy).Contents (Elt F) → (⟨S800000x1, .i32⟩ : BufTy).Contents (Elt F)),
    StableHlo.ternary main_v7 main_v8 main_v6 main_v9 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v9 main_v10 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev agg_0_W : List (Ref sig .tc) :=
  [main_c, main_v0, main_v1, main_c_0, main_v2, main_v3, main_v4, main_v5,
    main_v6, main_cst, main_v7, main_v8, main_v9, main_v10]

set_option maxRecDepth 16384 in
set_option maxHeartbeats 4000000 in
theorem agg_0_writes : (agg_0 : List (HloOp τ sig (Elt F))).Forall fun op =>
    op.writes ⊆ (agg_0_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_agg_0 (V : Valuation τ sig (Elt F)) (r : Ref sig .tc) (h : r ∉ agg_0_W) :
    after agg_0 V (Proc.devRef .tc r) = V (Proc.devRef .tc r) :=
  after_of_writes_sub agg_0 V agg_0_writes h

set_option maxRecDepth 16384 in
set_option maxHeartbeats 4000000 in
/-- What the stage leaves in its result buffer, as the named function of what its operand buffers held. -/
theorem agg_0_eq (V : Valuation τ sig (Elt F)) :
    after agg_0 V (Proc.devRef .tc main_v10) = refRst (V (Proc.devRef .tc main_arg0)) (V (Proc.devRef .tc main_arg1)) (V (Proc.devRef .tc main_arg2)) := by
  after_results_simp
  rfl

/-- Layer 1, the first linear map: its 8 operations in order. -/
abbrev lin1_0 : List (HloOp τ sig (Elt F)) :=
  [ StableHlo.unary main_arg3 main_v11 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v11 main_v12 rfl shapeCasts_S1x128x128_S128x128,
    StableHlo.binary main_v10 main_v12 main_v13 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v14 ((extractStridedSlice S1x128 ![0, 0] · slices_S5x128_S1x128_0_0) : (⟨S5x128, .f32⟩ : BufTy).Contents (Elt F) → (⟨S1x128, .f32⟩ : BufTy).Contents (Elt F)),
    StableHlo.reshape main_v14 main_v15 rfl shapeCasts_S1x128_S128,
    StableHlo.unary main_v15 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v13 main_v17 main_v18 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev lin1_0_W : List (Ref sig .tc) :=
  [main_v11, main_v12, main_v13, main_v14, main_v15, main_v16, main_v17, main_v18]

set_option maxRecDepth 16384 in
set_option maxHeartbeats 4000000 in
theorem lin1_0_writes : (lin1_0 : List (HloOp τ sig (Elt F))).Forall fun op =>
    op.writes ⊆ (lin1_0_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_lin1_0 (V : Valuation τ sig (Elt F)) (r : Ref sig .tc) (h : r ∉ lin1_0_W) :
    after lin1_0 V (Proc.devRef .tc r) = V (Proc.devRef .tc r) :=
  after_of_writes_sub lin1_0 V lin1_0_writes h

set_option maxRecDepth 16384 in
set_option maxHeartbeats 4000000 in
/-- What the stage leaves in its result buffer, as the named function of what its operand buffers held. -/
theorem lin1_0_eq (V : Valuation τ sig (Elt F)) :
    after lin1_0 V (Proc.devRef .tc main_v18) = refLinear (V (Proc.devRef .tc main_v10)) (refMat 0 slices_S5x128x128_S1x128x128_0_0_0 (V (Proc.devRef .tc main_arg3))) (refRow 0 slices_S5x128_S1x128_0_0 (V (Proc.devRef .tc main_arg4))) := by
  after_results_simp
  rfl

/-- Layer 1, the first batch normalisation: its 48 operations in order. -/
abbrev bn1_0 : List (HloOp τ sig (Elt F)) :=
  [ StableHlo.unary main_arg7 main_v19 ((extractStridedSlice S1x128 ![0, 0] · slices_S5x128_S1x128_0_0) : (⟨S5x128, .f32⟩ : BufTy).Contents (Elt F) → (⟨S1x128, .f32⟩ : BufTy).Contents (Elt F)),
    StableHlo.reshape main_v19 main_v20 rfl shapeCasts_S1x128_S128,
    StableHlo.unary main_arg8 main_v21 ((extractStridedSlice S1x128 ![0, 0] · slices_S5x128_S1x128_0_0) : (⟨S5x128, .f32⟩ : BufTy).Contents (Elt F) → (⟨S1x128, .f32⟩ : BufTy).Contents (Elt F)),
    StableHlo.reshape main_v21 main_v22 rfl shapeCasts_S1x128_S128,
    StableHlo.nullary main_cst_1 (constant S_ .f32 0x00000000#32),
    StableHlo.binary main_v18 main_cst_1 main_v23 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v24 (broadcastInDim S128 ![] bcast_S_S128 : (⟨S_, .f32⟩ : BufTy).Contents (Elt F) → (⟨S128, .f32⟩ : BufTy).Contents (Elt F)),
    StableHlo.binary main_v23 main_v24 main_v25 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (StableHlo.TRef.of main_v18 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (StableHlo.TRef.of main_v18 : StableHlo.TRef sig ⟨S50000x128, .f32⟩) main_call0.v4 main_call0.v5 subf,
    StableHlo.TRef.binary main_call0.v5 main_call0.v5 main_call0.v6 mulf,
    StableHlo.TRef.unary (StableHlo.TRef.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v25 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S50000x128 ![0, 1] bcast_S1x128_S50000x128_0_1 : (⟨S1x128, .f32⟩ : BufTy).Contents (Elt F) → (⟨S50000x128, .f32⟩ : BufTy).Contents (Elt F)),
    StableHlo.binary main_v18 main_v28 main_v29 (subf : (⟨S50000x128, .f32⟩ : BufTy).Contents (Elt F) → (⟨S50000x128, .f32⟩ : BufTy).Contents (Elt F) → (⟨S50000x128, .f32⟩ : BufTy).Contents (Elt F)),
    StableHlo.unary main_v20 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v29 main_v32 (mulf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v33 (broadcastInDim S128 ![] bcast_S_S128 : (⟨S_, .f32⟩ : BufTy).Contents (Elt F) → (⟨S128, .f32⟩ : BufTy).Contents (Elt F)),
    StableHlo.binary main_v26 main_v33 main_v34 (addf : (⟨S128, .f32⟩ : BufTy).Contents (Elt F) → (⟨S128, .f32⟩ : BufTy).Contents (Elt F) → (⟨S128, .f32⟩ : BufTy).Contents (Elt F)),
    StableHlo.unary main_v34 main_v35 (Host.rsqrt : (⟨S128, .f32⟩ : BufTy).Contents (Elt F) → (⟨S128, .f32⟩ : BufTy).Contents (Elt F)),
    StableHlo.unary main_v35 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S50000x128 ![0, 1] bcast_S1x128_S50000x128_0_1 : (⟨S1x128, .f32⟩ : BufTy).Contents (Elt F) → (⟨S50000x128, .f32⟩ : BufTy).Contents (Elt F)),
    StableHlo.binary main_v32 main_v37 main_v38 (mulf : (⟨S50000x128, .f32⟩ : BufTy).Contents (Elt F) → (⟨S50000x128, .f32⟩ : BufTy).Contents (Elt F) → (⟨S50000x128, .f32⟩ : BufTy).Contents (Elt F)),
    StableHlo.unary main_v22 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v40 main_v41 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev bn1_0_W : List (Ref sig .tc) :=
  [main_v19, main_v20, main_v21, main_v22, main_cst_1, main_v23, main_cst_2, main_v24,
    main_v25, main_c_3, main_call0_cst, main_call0_v0, main_call0_v1, main_call0_cst_0, main_call0_v2, main_call0_v3,
    main_call0_v4, main_call0_v5, main_call0_v6, main_call0_v7, main_call0_cst_1, main_call0_v8, main_call0_cst_2, main_call0_v9,
    main_call0_v10, main_call0_v11, main_call0_cst_3, main_call0_v12, main_call0_cst_4, main_call0_call0_v0, main_call0_call0_v1, main_v26,
    main_v27, main_v28, main_v29, main_v30, main_v31, main_v32, main_cst_4, main_v33,
    main_v34, main_v35, main_v36, main_v37, main_v38, main_v39, main_v40, main_v41]

set_option maxRecDepth 16384 in
set_option maxHeartbeats 4000000 in
theorem bn1_0_writes : (bn1_0 : List (HloOp τ sig (Elt F))).Forall fun op =>
    op.writes ⊆ (bn1_0_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_bn1_0 (V : Valuation τ sig (Elt F)) (r : Ref sig .tc) (h : r ∉ bn1_0_W) :
    after bn1_0 V (Proc.devRef .tc r) = V (Proc.devRef .tc r) :=
  after_of_writes_sub bn1_0 V bn1_0_writes h

set_option maxRecDepth 16384 in
set_option maxHeartbeats 4000000 in
/-- What the stage leaves in its result buffer, as the named function of what its operand buffers held. -/
theorem bn1_0_eq (V : Valuation τ sig (Elt F)) :
    after bn1_0 V (Proc.devRef .tc main_v41) = refBN (V (Proc.devRef .tc main_v18)) (refRow 0 slices_S5x128_S1x128_0_0 (V (Proc.devRef .tc main_arg7))) (refRow 0 slices_S5x128_S1x128_0_0 (V (Proc.devRef .tc main_arg8))) := by
  after_results_simp
  rfl

/-- Layer 1, the first rectifier: its 3 operations in order. -/
abbrev relu1_0 : List (HloOp τ sig (Elt F)) :=
  [ StableHlo.TRef.nullary main_call1.cst (constant S_ .f32 0x00000000#32),
    StableHlo.TRef.unary main_call1.cst main_call1.v0 (broadcastInDim S50000x128 ![] bcast_S_S50000x128),
    StableHlo.TRef.binary (StableHlo.TRef.of main_v41 : StableHlo.TRef sig ⟨S50000x128, .f32⟩) main_call1.v0 main_call1.v1 maximumf ]

/-- The buffers those operations write. -/
abbrev relu1_0_W : List (Ref sig .tc) :=
  [main_call1_cst, main_call1_v0, main_v42]

set_option maxRecDepth 16384 in
set_option maxHeartbeats 4000000 in
theorem relu1_0_writes : (relu1_0 : List (HloOp τ sig (Elt F))).Forall fun op =>
    op.writes ⊆ (relu1_0_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_relu1_0 (V : Valuation τ sig (Elt F)) (r : Ref sig .tc) (h : r ∉ relu1_0_W) :
    after relu1_0 V (Proc.devRef .tc r) = V (Proc.devRef .tc r) :=
  after_of_writes_sub relu1_0 V relu1_0_writes h

set_option maxRecDepth 16384 in
set_option maxHeartbeats 4000000 in
/-- What the stage leaves in its result buffer, as the named function of what its operand buffers held. -/
theorem relu1_0_eq (V : Valuation τ sig (Elt F)) :
    after relu1_0 V (Proc.devRef .tc main_v42) = refRelu (V (Proc.devRef .tc main_v41)) := by
  after_results_simp
  rfl

/-- Layer 1, the second linear map: its 8 operations in order. -/
abbrev lin2_0 : List (HloOp τ sig (Elt F)) :=
  [ StableHlo.unary main_arg5 main_v43 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v43 main_v44 rfl shapeCasts_S1x128x128_S128x128,
    StableHlo.binary main_v42 main_v44 main_v45 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v46 ((extractStridedSlice S1x128 ![0, 0] · slices_S5x128_S1x128_0_0) : (⟨S5x128, .f32⟩ : BufTy).Contents (Elt F) → (⟨S1x128, .f32⟩ : BufTy).Contents (Elt F)),
    StableHlo.reshape main_v46 main_v47 rfl shapeCasts_S1x128_S128,
    StableHlo.unary main_v47 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v49 main_v50 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev lin2_0_W : List (Ref sig .tc) :=
  [main_v43, main_v44, main_v45, main_v46, main_v47, main_v48, main_v49, main_v50]

set_option maxRecDepth 16384 in
set_option maxHeartbeats 4000000 in
theorem lin2_0_writes : (lin2_0 : List (HloOp τ sig (Elt F))).Forall fun op =>
    op.writes ⊆ (lin2_0_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_lin2_0 (V : Valuation τ sig (Elt F)) (r : Ref sig .tc) (h : r ∉ lin2_0_W) :
    after lin2_0 V (Proc.devRef .tc r) = V (Proc.devRef .tc r) :=
  after_of_writes_sub lin2_0 V lin2_0_writes h

set_option maxRecDepth 16384 in
set_option maxHeartbeats 4000000 in
/-- What the stage leaves in its result buffer, as the named function of what its operand buffers held. -/
theorem lin2_0_eq (V : Valuation τ sig (Elt F)) :
    after lin2_0 V (Proc.devRef .tc main_v50) = refLinear (V (Proc.devRef .tc main_v42)) (refMat 0 slices_S5x128x128_S1x128x128_0_0_0 (V (Proc.devRef .tc main_arg5))) (refRow 0 slices_S5x128_S1x128_0_0 (V (Proc.devRef .tc main_arg6))) := by
  after_results_simp
  rfl

/-- Layer 1, the second batch normalisation: its 48 operations in order. -/
abbrev bn2_0 : List (HloOp τ sig (Elt F)) :=
  [ StableHlo.unary main_arg9 main_v51 ((extractStridedSlice S1x128 ![0, 0] · slices_S5x128_S1x128_0_0) : (⟨S5x128, .f32⟩ : BufTy).Contents (Elt F) → (⟨S1x128, .f32⟩ : BufTy).Contents (Elt F)),
    StableHlo.reshape main_v51 main_v52 rfl shapeCasts_S1x128_S128,
    StableHlo.unary main_arg10 main_v53 ((extractStridedSlice S1x128 ![0, 0] · slices_S5x128_S1x128_0_0) : (⟨S5x128, .f32⟩ : BufTy).Contents (Elt F) → (⟨S1x128, .f32⟩ : BufTy).Contents (Elt F)),
    StableHlo.reshape main_v53 main_v54 rfl shapeCasts_S1x128_S128,
    StableHlo.nullary main_cst_5 (constant S_ .f32 0x00000000#32),
    StableHlo.binary main_v50 main_cst_5 main_v55 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v56 (broadcastInDim S128 ![] bcast_S_S128 : (⟨S_, .f32⟩ : BufTy).Contents (Elt F) → (⟨S128, .f32⟩ : BufTy).Contents (Elt F)),
    StableHlo.binary main_v55 main_v56 main_v57 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call2.cst (constant S_ .f32 0x00000000#32),
    StableHlo.TRef.binary (StableHlo.TRef.of main_v50 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (StableHlo.TRef.of main_v50 : StableHlo.TRef sig ⟨S50000x128, .f32⟩) main_call2.v4 main_call2.v5 subf,
    StableHlo.TRef.binary main_call2.v5 main_call2.v5 main_call2.v6 mulf,
    StableHlo.TRef.unary (StableHlo.TRef.of main_c_7 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v57 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v60 main_v61 (subf : (⟨S50000x128, .f32⟩ : BufTy).Contents (Elt F) → (⟨S50000x128, .f32⟩ : BufTy).Contents (Elt F) → (⟨S50000x128, .f32⟩ : BufTy).Contents (Elt F)),
    StableHlo.unary main_v52 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v61 main_v64 (mulf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v65 (broadcastInDim S128 ![] bcast_S_S128 : (⟨S_, .f32⟩ : BufTy).Contents (Elt F) → (⟨S128, .f32⟩ : BufTy).Contents (Elt F)),
    StableHlo.binary main_v58 main_v65 main_v66 (addf : (⟨S128, .f32⟩ : BufTy).Contents (Elt F) → (⟨S128, .f32⟩ : BufTy).Contents (Elt F) → (⟨S128, .f32⟩ : BufTy).Contents (Elt F)),
    StableHlo.unary main_v66 main_v67 (Host.rsqrt : (⟨S128, .f32⟩ : BufTy).Contents (Elt F) → (⟨S128, .f32⟩ : BufTy).Contents (Elt F)),
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v69 main_v70 (mulf : (⟨S50000x128, .f32⟩ : BufTy).Contents (Elt F) → (⟨S50000x128, .f32⟩ : BufTy).Contents (Elt F) → (⟨S50000x128, .f32⟩ : BufTy).Contents (Elt F)),
    StableHlo.unary main_v54 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v70 main_v72 main_v73 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev bn2_0_W : List (Ref sig .tc) :=
  [main_v51, main_v52, main_v53, main_v54, main_cst_5, main_v55, main_cst_6, main_v56,
    main_v57, main_c_7, main_call2_cst, main_call2_v0, main_call2_v1, main_call2_cst_0, main_call2_v2, main_call2_v3,
    main_call2_v4, main_call2_v5, main_call2_v6, main_call2_v7, main_call2_cst_1, main_call2_v8, main_call2_cst_2, main_call2_v9,
    main_call2_v10, main_call2_v11, main_call2_cst_3, main_call2_v12, main_call2_cst_4, main_call2_call0_v0, main_call2_call0_v1, main_v58,
    main_v59, main_v60, main_v61, main_v62, main_v63, main_v64, main_cst_8, main_v65,
    main_v66, main_v67, main_v68, main_v69, main_v70, main_v71, main_v72, main_v73]

set_option maxRecDepth 16384 in
set_option maxHeartbeats 4000000 in
theorem bn2_0_writes : (bn2_0 : List (HloOp τ sig (Elt F))).Forall fun op =>
    op.writes ⊆ (bn2_0_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_bn2_0 (V : Valuation τ sig (Elt F)) (r : Ref sig .tc) (h : r ∉ bn2_0_W) :
    after bn2_0 V (Proc.devRef .tc r) = V (Proc.devRef .tc r) :=
  after_of_writes_sub bn2_0 V bn2_0_writes h

set_option maxRecDepth 16384 in
set_option maxHeartbeats 4000000 in
/-- What the stage leaves in its result buffer, as the named function of what its operand buffers held. -/
theorem bn2_0_eq (V : Valuation τ sig (Elt F)) :
    after bn2_0 V (Proc.devRef .tc main_v73) = refBN (V (Proc.devRef .tc main_v50)) (refRow 0 slices_S5x128_S1x128_0_0 (V (Proc.devRef .tc main_arg9))) (refRow 0 slices_S5x128_S1x128_0_0 (V (Proc.devRef .tc main_arg10))) := by
  after_results_simp
  rfl

/-- Layer 1, the second rectifier: its 3 operations in order. -/
abbrev relu2_0 : List (HloOp τ sig (Elt F)) :=
  [ StableHlo.TRef.nullary main_call3.cst (constant S_ .f32 0x00000000#32),
    StableHlo.TRef.unary main_call3.cst main_call3.v0 (broadcastInDim S50000x128 ![] bcast_S_S50000x128),
    StableHlo.TRef.binary (StableHlo.TRef.of main_v73 : StableHlo.TRef sig ⟨S50000x128, .f32⟩) main_call3.v0 main_call3.v1 maximumf ]

/-- The buffers those operations write. -/
abbrev relu2_0_W : List (Ref sig .tc) :=
  [main_call3_cst, main_call3_v0, main_v74]

set_option maxRecDepth 16384 in
set_option maxHeartbeats 4000000 in
theorem relu2_0_writes : (relu2_0 : List (HloOp τ sig (Elt F))).Forall fun op =>
    op.writes ⊆ (relu2_0_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_relu2_0 (V : Valuation τ sig (Elt F)) (r : Ref sig .tc) (h : r ∉ relu2_0_W) :
    after relu2_0 V (Proc.devRef .tc r) = V (Proc.devRef .tc r) :=
  after_of_writes_sub relu2_0 V relu2_0_writes h

set_option maxRecDepth 16384 in
set_option maxHeartbeats 4000000 in
/-- What the stage leaves in its result buffer, as the named function of what its operand buffers held. -/
theorem relu2_0_eq (V : Valuation τ sig (Elt F)) :
    after relu2_0 V (Proc.devRef .tc main_v74) = refRelu (V (Proc.devRef .tc main_v73)) := by
  after_results_simp
  rfl

/-- Layer 1, the third batch normalisation: its 48 operations in order. -/
abbrev bn3_0 : List (HloOp τ sig (Elt F)) :=
  [ StableHlo.unary main_arg11 main_v75 ((extractStridedSlice S1x128 ![0, 0] · slices_S5x128_S1x128_0_0) : (⟨S5x128, .f32⟩ : BufTy).Contents (Elt F) → (⟨S1x128, .f32⟩ : BufTy).Contents (Elt F)),
    StableHlo.reshape main_v75 main_v76 rfl shapeCasts_S1x128_S128,
    StableHlo.unary main_arg12 main_v77 ((extractStridedSlice S1x128 ![0, 0] · slices_S5x128_S1x128_0_0) : (⟨S5x128, .f32⟩ : BufTy).Contents (Elt F) → (⟨S1x128, .f32⟩ : BufTy).Contents (Elt F)),
    StableHlo.reshape main_v77 main_v78 rfl shapeCasts_S1x128_S128,
    StableHlo.nullary main_cst_9 (constant S_ .f32 0x00000000#32),
    StableHlo.binary main_v74 main_cst_9 main_v79 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v80 (broadcastInDim S128 ![] bcast_S_S128 : (⟨S_, .f32⟩ : BufTy).Contents (Elt F) → (⟨S128, .f32⟩ : BufTy).Contents (Elt F)),
    StableHlo.binary main_v79 main_v80 main_v81 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call4.cst (constant S_ .f32 0x00000000#32),
    StableHlo.TRef.binary (StableHlo.TRef.of main_v74 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (StableHlo.TRef.of main_v74 : StableHlo.TRef sig ⟨S50000x128, .f32⟩) main_call4.v4 main_call4.v5 subf,
    StableHlo.TRef.binary main_call4.v5 main_call4.v5 main_call4.v6 mulf,
    StableHlo.TRef.unary (StableHlo.TRef.of main_c_11 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v81 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v84 main_v85 (subf : (⟨S50000x128, .f32⟩ : BufTy).Contents (Elt F) → (⟨S50000x128, .f32⟩ : BufTy).Contents (Elt F) → (⟨S50000x128, .f32⟩ : BufTy).Contents (Elt F)),
    StableHlo.unary main_v76 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v85 main_v88 (mulf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v89 (broadcastInDim S128 ![] bcast_S_S128 : (⟨S_, .f32⟩ : BufTy).Contents (Elt F) → (⟨S128, .f32⟩ : BufTy).Contents (Elt F)),
    StableHlo.binary main_v82 main_v89 main_v90 (addf : (⟨S128, .f32⟩ : BufTy).Contents (Elt F) → (⟨S128, .f32⟩ : BufTy).Contents (Elt F) → (⟨S128, .f32⟩ : BufTy).Contents (Elt F)),
    StableHlo.unary main_v90 main_v91 (Host.rsqrt : (⟨S128, .f32⟩ : BufTy).Contents (Elt F) → (⟨S128, .f32⟩ : BufTy).Contents (Elt F)),
    StableHlo.unary main_v91 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v88 main_v93 main_v94 (mulf : (⟨S50000x128, .f32⟩ : BufTy).Contents (Elt F) → (⟨S50000x128, .f32⟩ : BufTy).Contents (Elt F) → (⟨S50000x128, .f32⟩ : BufTy).Contents (Elt F)),
    StableHlo.unary main_v78 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v96 main_v97 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev bn3_0_W : List (Ref sig .tc) :=
  [main_v75, main_v76, main_v77, main_v78, main_cst_9, main_v79, main_cst_10, main_v80,
    main_v81, main_c_11, main_call4_cst, main_call4_v0, main_call4_v1, main_call4_cst_0, main_call4_v2, main_call4_v3,
    main_call4_v4, main_call4_v5, main_call4_v6, main_call4_v7, main_call4_cst_1, main_call4_v8, main_call4_cst_2, main_call4_v9,
    main_call4_v10, main_call4_v11, main_call4_cst_3, main_call4_v12, main_call4_cst_4, main_call4_call0_v0, main_call4_call0_v1, main_v82,
    main_v83, main_v84, main_v85, main_v86, main_v87, main_v88, main_cst_12, main_v89,
    main_v90, main_v91, main_v92, main_v93, main_v94, main_v95, main_v96, main_v97]

set_option maxRecDepth 16384 in
set_option maxHeartbeats 4000000 in
theorem bn3_0_writes : (bn3_0 : List (HloOp τ sig (Elt F))).Forall fun op =>
    op.writes ⊆ (bn3_0_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_bn3_0 (V : Valuation τ sig (Elt F)) (r : Ref sig .tc) (h : r ∉ bn3_0_W) :
    after bn3_0 V (Proc.devRef .tc r) = V (Proc.devRef .tc r) :=
  after_of_writes_sub bn3_0 V bn3_0_writes h

set_option maxRecDepth 16384 in
set_option maxHeartbeats 4000000 in
/-- What the stage leaves in its result buffer, as the named function of what its operand buffers held. -/
theorem bn3_0_eq (V : Valuation τ sig (Elt F)) :
    after bn3_0 V (Proc.devRef .tc main_v97) = refBN (V (Proc.devRef .tc main_v74)) (refRow 0 slices_S5x128_S1x128_0_0 (V (Proc.devRef .tc main_arg11))) (refRow 0 slices_S5x128_S1x128_0_0 (V (Proc.devRef .tc main_arg12))) := by
  after_results_simp
  rfl

/-- Layer 1, the third rectifier: its 3 operations in order. -/
abbrev relu3_0 : List (HloOp τ sig (Elt F)) :=
  [ StableHlo.TRef.nullary main_call5.cst (constant S_ .f32 0x00000000#32),
    StableHlo.TRef.unary main_call5.cst main_call5.v0 (broadcastInDim S50000x128 ![] bcast_S_S50000x128),
    StableHlo.TRef.binary (StableHlo.TRef.of main_v97 : StableHlo.TRef sig ⟨S50000x128, .f32⟩) main_call5.v0 main_call5.v1 maximumf ]

/-- The buffers those operations write. -/
abbrev relu3_0_W : List (Ref sig .tc) :=
  [main_call5_cst, main_call5_v0, main_v98]

set_option maxRecDepth 16384 in
set_option maxHeartbeats 4000000 in
theorem relu3_0_writes : (relu3_0 : List (HloOp τ sig (Elt F))).Forall fun op =>
    op.writes ⊆ (relu3_0_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_relu3_0 (V : Valuation τ sig (Elt F)) (r : Ref sig .tc) (h : r ∉ relu3_0_W) :
    after relu3_0 V (Proc.devRef .tc r) = V (Proc.devRef .tc r) :=
  after_of_writes_sub relu3_0 V relu3_0_writes h

set_option maxRecDepth 16384 in
set_option maxHeartbeats 4000000 in
/-- What the stage leaves in its result buffer, as the named function of what its operand buffers held. -/
theorem relu3_0_eq (V : Valuation τ sig (Elt F)) :
    after relu3_0 V (Proc.devRef .tc main_v98) = refRelu (V (Proc.devRef .tc main_v97)) := by
  after_results_simp
  rfl

/-- Layer 1: its 183 operations, the nine stages one after the other. -/
abbrev layer0 : List (HloOp τ sig (Elt F)) :=
  agg_0 ++ (lin1_0 ++ (bn1_0 ++ (relu1_0 ++ (lin2_0 ++ (bn2_0 ++ (relu2_0 ++ (bn3_0 ++ (relu3_0))))))))

/-- A buffer that no stage of the layer writes is unchanged by the layer. -/
theorem keep_layer0 (V : Valuation τ sig (Elt F)) (r : Ref sig .tc)
    (h0 : r ∉ agg_0_W) (h1 : r ∉ lin1_0_W) (h2 : r ∉ bn1_0_W) (h3 : r ∉ relu1_0_W) (h4 : r ∉ lin2_0_W) (h5 : r ∉ bn2_0_W) (h6 : r ∉ relu2_0_W) (h7 : r ∉ bn3_0_W) (h8 : r ∉ relu3_0_W) :
    after layer0 V (Proc.devRef .tc r) = V (Proc.devRef .tc r) := by
  simp only [layer0, StableHlo.after_append]
  rw [keep_relu3_0 _ r h8, keep_bn3_0 _ r h7, keep_relu2_0 _ r h6, keep_bn2_0 _ r h5, keep_lin2_0 _ r h4, keep_relu1_0 _ r h3, keep_bn1_0 _ r h2, keep_lin1_0 _ r h1, keep_agg_0 _ r h0]

set_option maxRecDepth 16384 in
/-- The layer's result buffer holds the layer function of what the previous features and the thirteen arguments held:
    each stage's result is read off its own equation, and what a later stage reads of an earlier buffer passes
    unchanged through the stages between. -/
theorem layer0_eq (V : Valuation τ sig (Elt F)) :
    after layer0 V (Proc.devRef .tc main_v98) =
      RefLayer 0 slices_S5x128_S1x128_0_0 slices_S5x128x128_S1x128x128_0_0_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  simp only [layer0, StableHlo.after_append]
  rw [relu3_0_eq,
    bn3_0_eq,
    relu2_0_eq,
    bn2_0_eq,
    lin2_0_eq,
    relu1_0_eq,
    bn1_0_eq,
    lin1_0_eq,
    agg_0_eq,
    keep_agg_0 _ main_arg3 (by decide),
    keep_agg_0 _ main_arg4 (by decide),
    keep_lin1_0 _ main_arg7 (by decide),
    keep_agg_0 _ main_arg7 (by decide),
    keep_lin1_0 _ main_arg8 (by decide),
    keep_agg_0 _ main_arg8 (by decide),
    keep_relu1_0 _ main_arg5 (by decide),
    keep_bn1_0 _ main_arg5 (by decide),
    keep_lin1_0 _ main_arg5 (by decide),
    keep_agg_0 _ main_arg5 (by decide),
    keep_relu1_0 _ main_arg6 (by decide),
    keep_bn1_0 _ main_arg6 (by decide),
    keep_lin1_0 _ main_arg6 (by decide),
    keep_agg_0 _ main_arg6 (by decide),
    keep_lin2_0 _ main_arg9 (by decide),
    keep_relu1_0 _ main_arg9 (by decide),
    keep_bn1_0 _ main_arg9 (by decide),
    keep_lin1_0 _ main_arg9 (by decide),
    keep_agg_0 _ main_arg9 (by decide),
    keep_lin2_0 _ main_arg10 (by decide),
    keep_relu1_0 _ main_arg10 (by decide),
    keep_bn1_0 _ main_arg10 (by decide),
    keep_lin1_0 _ main_arg10 (by decide),
    keep_agg_0 _ main_arg10 (by decide),
    keep_relu2_0 _ main_arg11 (by decide),
    keep_bn2_0 _ main_arg11 (by decide),
    keep_lin2_0 _ main_arg11 (by decide),
    keep_relu1_0 _ main_arg11 (by decide),
    keep_bn1_0 _ main_arg11 (by decide),
    keep_lin1_0 _ main_arg11 (by decide),
    keep_agg_0 _ main_arg11 (by decide),
    keep_relu2_0 _ main_arg12 (by decide),
    keep_bn2_0 _ main_arg12 (by decide),
    keep_lin2_0 _ main_arg12 (by decide),
    keep_relu1_0 _ main_arg12 (by decide),
    keep_bn1_0 _ main_arg12 (by decide),
    keep_lin1_0 _ main_arg12 (by decide),
    keep_agg_0 _ main_arg12 (by decide)]
  rfl

end Cert.ReferenceIdeal.RefRun

end
-- ==== Proof.RefLayer1.lean ====
/- Layer 2 of the reference network, stage by stage. Its 183 operations are cut into nine consecutive stages —
   neighbour sum and residual, linear map, batch normalisation, rectifier, linear map, batch normalisation, rectifier,
   batch normalisation, rectifier — and for each stage the contents of its result buffer after the stage's operations
   are the corresponding named function (`refRst`, `refLinear`, `refBN`, `refRelu`) of the contents of the buffers it
   reads, whatever the buffers held before: each operation writes its own buffer as its whole-array function of its
   operands and leaves every other buffer alone, so reading the result back through the list composes those functions
   in order. A stage writes only its own buffers, hence the features it received and the parameter arrays pass through
   it unchanged; chaining the nine equations gives the layer function `RefLayer 1` of the incoming features and the
   argument arrays (row 1 of each stacked parameter). -/
import proofs.«113410_j5944234737805_1_alg».proof.Proof.RefStages
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 2, the neighbour sum added to the features: its 14 operations in order. -/
abbrev agg_1 : List (HloOp τ sig (Elt F)) :=
  [ StableHlo.nullary main_c_13 (constantI S_ 32 0#32),
    StableHlo.unary main_c_13 main_v99 (broadcastInDim S800000 ![] bcast_S_S800000 : (⟨S_, .i32⟩ : BufTy).Contents (Elt F) → (⟨S800000, .i32⟩ : BufTy).Contents (Elt F)),
    StableHlo.binary main_arg1 main_v99 main_v100 (cmpi .slt : (⟨S800000, .i32⟩ : BufTy).Contents (Elt F) → (⟨S800000, .i32⟩ : BufTy).Contents (Elt F) → (⟨S800000, .i1⟩ : BufTy).Contents (Elt F)),
    StableHlo.nullary main_c_14 (constantI S_ 32 50000#32),
    StableHlo.unary main_c_14 main_v101 (broadcastInDim S800000 ![] bcast_S_S800000 : (⟨S_, .i32⟩ : BufTy).Contents (Elt F) → (⟨S800000, .i32⟩ : BufTy).Contents (Elt F)),
    StableHlo.binary main_arg1 main_v101 main_v102 (addi : (⟨S800000, .i32⟩ : BufTy).Contents (Elt F) → (⟨S800000, .i32⟩ : BufTy).Contents (Elt F) → (⟨S800000, .i32⟩ : BufTy).Contents (Elt F)),
    StableHlo.ternary main_v100 main_v102 main_arg1 main_v103 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v103 main_v104 (broadcastInDim S800000x1 ![0] bcast_S800000_S800000x1_0 : (⟨S800000, .i32⟩ : BufTy).Contents (Elt F) → (⟨S800000x1, .i32⟩ : BufTy).Contents (Elt F)),
    StableHlo.binary main_v98 main_v104 main_v105 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_15 (constant S_ .f32 0x00000000#32),
    StableHlo.unary main_cst_15 main_v106 (broadcastInDim S50000x128 ![] bcast_S_S50000x128 : (⟨S_, .f32⟩ : BufTy).Contents (Elt F) → (⟨S50000x128, .f32⟩ : BufTy).Contents (Elt F)),
    StableHlo.unary main_arg2 main_v107 (broadcastInDim S800000x1 ![0] bcast_S800000_S800000x1_0 : (⟨S800000, .i32⟩ : BufTy).Contents (Elt F) → (⟨S800000x1, .i32⟩ : BufTy).Contents (Elt F)),
    StableHlo.ternary main_v106 main_v107 main_v105 main_v108 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v98 main_v108 main_v109 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev agg_1_W : List (Ref sig .tc) :=
  [main_c_13, main_v99, main_v100, main_c_14, main_v101, main_v102, main_v103, main_v104,
    main_v105, main_cst_15, main_v106, main_v107, main_v108, main_v109]

set_option maxRecDepth 16384 in
set_option maxHeartbeats 4000000 in
theorem agg_1_writes : (agg_1 : List (HloOp τ sig (Elt F))).Forall fun op =>
    op.writes ⊆ (agg_1_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_agg_1 (V : Valuation τ sig (Elt F)) (r : Ref sig .tc) (h : r ∉ agg_1_W) :
    after agg_1 V (Proc.devRef .tc r) = V (Proc.devRef .tc r) :=
  after_of_writes_sub agg_1 V agg_1_writes h

set_option maxRecDepth 16384 in
set_option maxHeartbeats 4000000 in
/-- What the stage leaves in its result buffer, as the named function of what its operand buffers held. -/
theorem agg_1_eq (V : Valuation τ sig (Elt F)) :
    after agg_1 V (Proc.devRef .tc main_v109) = refRst (V (Proc.devRef .tc main_v98)) (V (Proc.devRef .tc main_arg1)) (V (Proc.devRef .tc main_arg2)) := by
  after_results_simp
  rfl

/-- Layer 2, the first linear map: its 8 operations in order. -/
abbrev lin1_1 : List (HloOp τ sig (Elt F)) :=
  [ StableHlo.unary main_arg3 main_v110 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v110 main_v111 rfl shapeCasts_S1x128x128_S128x128,
    StableHlo.binary main_v109 main_v111 main_v112 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v113 ((extractStridedSlice S1x128 ![1, 0] · slices_S5x128_S1x128_1_0) : (⟨S5x128, .f32⟩ : BufTy).Contents (Elt F) → (⟨S1x128, .f32⟩ : BufTy).Contents (Elt F)),
    StableHlo.reshape main_v113 main_v114 rfl shapeCasts_S1x128_S128,
    StableHlo.unary main_v114 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S50000x128 ![0, 1] bcast_S1x128_S50000x128_0_1 : (⟨S1x128, .f32⟩ : BufTy).Contents (Elt F) → (⟨S50000x128, .f32⟩ : BufTy).Contents (Elt F)),
    StableHlo.binary main_v112 main_v116 main_v117 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev lin1_1_W : List (Ref sig .tc) :=
  [main_v110, main_v111, main_v112, main_v113, main_v114, main_v115, main_v116, main_v117]

set_option maxRecDepth 16384 in
set_option maxHeartbeats 4000000 in
theorem lin1_1_writes : (lin1_1 : List (HloOp τ sig (Elt F))).Forall fun op =>
    op.writes ⊆ (lin1_1_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_lin1_1 (V : Valuation τ sig (Elt F)) (r : Ref sig .tc) (h : r ∉ lin1_1_W) :
    after lin1_1 V (Proc.devRef .tc r) = V (Proc.devRef .tc r) :=
  after_of_writes_sub lin1_1 V lin1_1_writes h

set_option maxRecDepth 16384 in
set_option maxHeartbeats 4000000 in
/-- What the stage leaves in its result buffer, as the named function of what its operand buffers held. -/
theorem lin1_1_eq (V : Valuation τ sig (Elt F)) :
    after lin1_1 V (Proc.devRef .tc main_v117) = refLinear (V (Proc.devRef .tc main_v109)) (refMat 1 slices_S5x128x128_S1x128x128_1_0_0 (V (Proc.devRef .tc main_arg3))) (refRow 1 slices_S5x128_S1x128_1_0 (V (Proc.devRef .tc main_arg4))) := by
  after_results_simp
  rfl

/-- Layer 2, the first batch normalisation: its 48 operations in order. -/
abbrev bn1_1 : List (HloOp τ sig (Elt F)) :=
  [ StableHlo.unary main_arg7 main_v118 ((extractStridedSlice S1x128 ![1, 0] · slices_S5x128_S1x128_1_0) : (⟨S5x128, .f32⟩ : BufTy).Contents (Elt F) → (⟨S1x128, .f32⟩ : BufTy).Contents (Elt F)),
    StableHlo.reshape main_v118 main_v119 rfl shapeCasts_S1x128_S128,
    StableHlo.unary main_arg8 main_v120 ((extractStridedSlice S1x128 ![1, 0] · slices_S5x128_S1x128_1_0) : (⟨S5x128, .f32⟩ : BufTy).Contents (Elt F) → (⟨S1x128, .f32⟩ : BufTy).Contents (Elt F)),
    StableHlo.reshape main_v120 main_v121 rfl shapeCasts_S1x128_S128,
    StableHlo.nullary main_cst_16 (constant S_ .f32 0x00000000#32),
    StableHlo.binary main_v117 main_cst_16 main_v122 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v123 (broadcastInDim S128 ![] bcast_S_S128 : (⟨S_, .f32⟩ : BufTy).Contents (Elt F) → (⟨S128, .f32⟩ : BufTy).Contents (Elt F)),
    StableHlo.binary main_v122 main_v123 main_v124 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call6.cst (constant S_ .f32 0x00000000#32),
    StableHlo.TRef.binary (StableHlo.TRef.of main_v117 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (StableHlo.TRef.of main_v117 : StableHlo.TRef sig ⟨S50000x128, .f32⟩) main_call6.v4 main_call6.v5 subf,
    StableHlo.TRef.binary main_call6.v5 main_call6.v5 main_call6.v6 mulf,
    StableHlo.TRef.unary (StableHlo.TRef.of main_c_18 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v124 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v127 main_v128 (subf : (⟨S50000x128, .f32⟩ : BufTy).Contents (Elt F) → (⟨S50000x128, .f32⟩ : BufTy).Contents (Elt F) → (⟨S50000x128, .f32⟩ : BufTy).Contents (Elt F)),
    StableHlo.unary main_v119 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S50000x128 ![0, 1] bcast_S1x128_S50000x128_0_1 : (⟨S1x128, .f32⟩ : BufTy).Contents (Elt F) → (⟨S50000x128, .f32⟩ : BufTy).Contents (Elt F)),
    StableHlo.binary main_v130 main_v128 main_v131 (mulf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v132 (broadcastInDim S128 ![] bcast_S_S128 : (⟨S_, .f32⟩ : BufTy).Contents (Elt F) → (⟨S128, .f32⟩ : BufTy).Contents (Elt F)),
    StableHlo.binary main_v125 main_v132 main_v133 (addf : (⟨S128, .f32⟩ : BufTy).Contents (Elt F) → (⟨S128, .f32⟩ : BufTy).Contents (Elt F) → (⟨S128, .f32⟩ : BufTy).Contents (Elt F)),
    StableHlo.unary main_v133 main_v134 (Host.rsqrt : (⟨S128, .f32⟩ : BufTy).Contents (Elt F) → (⟨S128, .f32⟩ : BufTy).Contents (Elt F)),
    StableHlo.unary main_v134 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S50000x128 ![0, 1] bcast_S1x128_S50000x128_0_1 : (⟨S1x128, .f32⟩ : BufTy).Contents (Elt F) → (⟨S50000x128, .f32⟩ : BufTy).Contents (Elt F)),
    StableHlo.binary main_v131 main_v136 main_v137 (mulf : (⟨S50000x128, .f32⟩ : BufTy).Contents (Elt F) → (⟨S50000x128, .f32⟩ : BufTy).Contents (Elt F) → (⟨S50000x128, .f32⟩ : BufTy).Contents (Elt F)),
    StableHlo.unary main_v121 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v137 main_v139 main_v140 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev bn1_1_W : List (Ref sig .tc) :=
  [main_v118, main_v119, main_v120, main_v121, main_cst_16, main_v122, main_cst_17, main_v123,
    main_v124, main_c_18, main_call6_cst, main_call6_v0, main_call6_v1, main_call6_cst_0, main_call6_v2, main_call6_v3,
    main_call6_v4, main_call6_v5, main_call6_v6, main_call6_v7, main_call6_cst_1, main_call6_v8, main_call6_cst_2, main_call6_v9,
    main_call6_v10, main_call6_v11, main_call6_cst_3, main_call6_v12, main_call6_cst_4, main_call6_call0_v0, main_call6_call0_v1, main_v125,
    main_v126, main_v127, main_v128, main_v129, main_v130, main_v131, main_cst_19, main_v132,
    main_v133, main_v134, main_v135, main_v136, main_v137, main_v138, main_v139, main_v140]

set_option maxRecDepth 16384 in
set_option maxHeartbeats 4000000 in
theorem bn1_1_writes : (bn1_1 : List (HloOp τ sig (Elt F))).Forall fun op =>
    op.writes ⊆ (bn1_1_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_bn1_1 (V : Valuation τ sig (Elt F)) (r : Ref sig .tc) (h : r ∉ bn1_1_W) :
    after bn1_1 V (Proc.devRef .tc r) = V (Proc.devRef .tc r) :=
  after_of_writes_sub bn1_1 V bn1_1_writes h

set_option maxRecDepth 16384 in
set_option maxHeartbeats 4000000 in
/-- What the stage leaves in its result buffer, as the named function of what its operand buffers held. -/
theorem bn1_1_eq (V : Valuation τ sig (Elt F)) :
    after bn1_1 V (Proc.devRef .tc main_v140) = refBN (V (Proc.devRef .tc main_v117)) (refRow 1 slices_S5x128_S1x128_1_0 (V (Proc.devRef .tc main_arg7))) (refRow 1 slices_S5x128_S1x128_1_0 (V (Proc.devRef .tc main_arg8))) := by
  after_results_simp
  rfl

/-- Layer 2, the first rectifier: its 3 operations in order. -/
abbrev relu1_1 : List (HloOp τ sig (Elt F)) :=
  [ StableHlo.TRef.nullary main_call7.cst (constant S_ .f32 0x00000000#32),
    StableHlo.TRef.unary main_call7.cst main_call7.v0 (broadcastInDim S50000x128 ![] bcast_S_S50000x128),
    StableHlo.TRef.binary (StableHlo.TRef.of main_v140 : StableHlo.TRef sig ⟨S50000x128, .f32⟩) main_call7.v0 main_call7.v1 maximumf ]

/-- The buffers those operations write. -/
abbrev relu1_1_W : List (Ref sig .tc) :=
  [main_call7_cst, main_call7_v0, main_v141]

set_option maxRecDepth 16384 in
set_option maxHeartbeats 4000000 in
theorem relu1_1_writes : (relu1_1 : List (HloOp τ sig (Elt F))).Forall fun op =>
    op.writes ⊆ (relu1_1_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_relu1_1 (V : Valuation τ sig (Elt F)) (r : Ref sig .tc) (h : r ∉ relu1_1_W) :
    after relu1_1 V (Proc.devRef .tc r) = V (Proc.devRef .tc r) :=
  after_of_writes_sub relu1_1 V relu1_1_writes h

set_option maxRecDepth 16384 in
set_option maxHeartbeats 4000000 in
/-- What the stage leaves in its result buffer, as the named function of what its operand buffers held. -/
theorem relu1_1_eq (V : Valuation τ sig (Elt F)) :
    after relu1_1 V (Proc.devRef .tc main_v141) = refRelu (V (Proc.devRef .tc main_v140)) := by
  after_results_simp
  rfl

/-- Layer 2, the second linear map: its 8 operations in order. -/
abbrev lin2_1 : List (HloOp τ sig (Elt F)) :=
  [ StableHlo.unary main_arg5 main_v142 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v142 main_v143 rfl shapeCasts_S1x128x128_S128x128,
    StableHlo.binary main_v141 main_v143 main_v144 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v145 ((extractStridedSlice S1x128 ![1, 0] · slices_S5x128_S1x128_1_0) : (⟨S5x128, .f32⟩ : BufTy).Contents (Elt F) → (⟨S1x128, .f32⟩ : BufTy).Contents (Elt F)),
    StableHlo.reshape main_v145 main_v146 rfl shapeCasts_S1x128_S128,
    StableHlo.unary main_v146 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S50000x128 ![0, 1] bcast_S1x128_S50000x128_0_1 : (⟨S1x128, .f32⟩ : BufTy).Contents (Elt F) → (⟨S50000x128, .f32⟩ : BufTy).Contents (Elt F)),
    StableHlo.binary main_v144 main_v148 main_v149 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev lin2_1_W : List (Ref sig .tc) :=
  [main_v142, main_v143, main_v144, main_v145, main_v146, main_v147, main_v148, main_v149]

set_option maxRecDepth 16384 in
set_option maxHeartbeats 4000000 in
theorem lin2_1_writes : (lin2_1 : List (HloOp τ sig (Elt F))).Forall fun op =>
    op.writes ⊆ (lin2_1_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_lin2_1 (V : Valuation τ sig (Elt F)) (r : Ref sig .tc) (h : r ∉ lin2_1_W) :
    after lin2_1 V (Proc.devRef .tc r) = V (Proc.devRef .tc r) :=
  after_of_writes_sub lin2_1 V lin2_1_writes h

set_option maxRecDepth 16384 in
set_option maxHeartbeats 4000000 in
/-- What the stage leaves in its result buffer, as the named function of what its operand buffers held. -/
theorem lin2_1_eq (V : Valuation τ sig (Elt F)) :
    after lin2_1 V (Proc.devRef .tc main_v149) = refLinear (V (Proc.devRef .tc main_v141)) (refMat 1 slices_S5x128x128_S1x128x128_1_0_0 (V (Proc.devRef .tc main_arg5))) (refRow 1 slices_S5x128_S1x128_1_0 (V (Proc.devRef .tc main_arg6))) := by
  after_results_simp
  rfl

/-- Layer 2, the second batch normalisation: its 48 operations in order. -/
abbrev bn2_1 : List (HloOp τ sig (Elt F)) :=
  [ StableHlo.unary main_arg9 main_v150 ((extractStridedSlice S1x128 ![1, 0] · slices_S5x128_S1x128_1_0) : (⟨S5x128, .f32⟩ : BufTy).Contents (Elt F) → (⟨S1x128, .f32⟩ : BufTy).Contents (Elt F)),
    StableHlo.reshape main_v150 main_v151 rfl shapeCasts_S1x128_S128,
    StableHlo.unary main_arg10 main_v152 ((extractStridedSlice S1x128 ![1, 0] · slices_S5x128_S1x128_1_0) : (⟨S5x128, .f32⟩ : BufTy).Contents (Elt F) → (⟨S1x128, .f32⟩ : BufTy).Contents (Elt F)),
    StableHlo.reshape main_v152 main_v153 rfl shapeCasts_S1x128_S128,
    StableHlo.nullary main_cst_20 (constant S_ .f32 0x00000000#32),
    StableHlo.binary main_v149 main_cst_20 main_v154 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_21 (constant S_ .f32 0x47435000#32),
    StableHlo.unary main_cst_21 main_v155 (broadcastInDim S128 ![] bcast_S_S128 : (⟨S_, .f32⟩ : BufTy).Contents (Elt F) → (⟨S128, .f32⟩ : BufTy).Contents (Elt F)),
    StableHlo.binary main_v154 main_v155 main_v156 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32),
    StableHlo.TRef.nullary main_call8.cst (constant S_ .f32 0x00000000#32),
    StableHlo.TRef.binary (StableHlo.TRef.of main_v149 : StableHlo.TRef sig ⟨S50000x128, .f32⟩) main_call8.cst main_call8.v0 (fun x v => Host.reduceAdd x v reducesTo_S50000x128_S128_d0 h_S_),
    StableHlo.TRef.unary main_call8.v0 main_call8.v1 (broadcastInDim S1x128 ![1] bcast_S128_S1x128_1),
    StableHlo.TRef.nullary main_call8.cst_0 (constant S_ .f32 0x47435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S50000x128 ![0, 1] bcast_S1x128_S50000x128_0_1),
    StableHlo.TRef.binary (StableHlo.TRef.of main_v149 : StableHlo.TRef sig ⟨S50000x128, .f32⟩) main_call8.v4 main_call8.v5 subf,
    StableHlo.TRef.binary main_call8.v5 main_call8.v5 main_call8.v6 mulf,
    StableHlo.TRef.unary (StableHlo.TRef.of main_c_22 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v156 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S50000x128 ![0, 1] bcast_S1x128_S50000x128_0_1 : (⟨S1x128, .f32⟩ : BufTy).Contents (Elt F) → (⟨S50000x128, .f32⟩ : BufTy).Contents (Elt F)),
    StableHlo.binary main_v149 main_v159 main_v160 (subf : (⟨S50000x128, .f32⟩ : BufTy).Contents (Elt F) → (⟨S50000x128, .f32⟩ : BufTy).Contents (Elt F) → (⟨S50000x128, .f32⟩ : BufTy).Contents (Elt F)),
    StableHlo.unary main_v151 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S50000x128 ![0, 1] bcast_S1x128_S50000x128_0_1 : (⟨S1x128, .f32⟩ : BufTy).Contents (Elt F) → (⟨S50000x128, .f32⟩ : BufTy).Contents (Elt F)),
    StableHlo.binary main_v162 main_v160 main_v163 (mulf : (⟨S50000x128, .f32⟩ : BufTy).Contents (Elt F) → (⟨S50000x128, .f32⟩ : BufTy).Contents (Elt F) → (⟨S50000x128, .f32⟩ : BufTy).Contents (Elt F)),
    StableHlo.nullary main_cst_23 (constant S_ .f32 0x3727C5AC#32),
    StableHlo.unary main_cst_23 main_v164 (broadcastInDim S128 ![] bcast_S_S128 : (⟨S_, .f32⟩ : BufTy).Contents (Elt F) → (⟨S128, .f32⟩ : BufTy).Contents (Elt F)),
    StableHlo.binary main_v157 main_v164 main_v165 (addf : (⟨S128, .f32⟩ : BufTy).Contents (Elt F) → (⟨S128, .f32⟩ : BufTy).Contents (Elt F) → (⟨S128, .f32⟩ : BufTy).Contents (Elt F)),
    StableHlo.unary main_v165 main_v166 (Host.rsqrt : (⟨S128, .f32⟩ : BufTy).Contents (Elt F) → (⟨S128, .f32⟩ : BufTy).Contents (Elt F)),
    StableHlo.unary main_v166 main_v167 (broadcastInDim S1x128 ![1] bcast_S128_S1x128_1 : (⟨S128, .f32⟩ : BufTy).Contents (Elt F) → (⟨S1x128, .f32⟩ : BufTy).Contents (Elt F)),
    StableHlo.unary main_v167 main_v168 (broadcastInDim S50000x128 ![0, 1] bcast_S1x128_S50000x128_0_1 : (⟨S1x128, .f32⟩ : BufTy).Contents (Elt F) → (⟨S50000x128, .f32⟩ : BufTy).Contents (Elt F)),
    StableHlo.binary main_v163 main_v168 main_v169 (mulf : (⟨S50000x128, .f32⟩ : BufTy).Contents (Elt F) → (⟨S50000x128, .f32⟩ : BufTy).Contents (Elt F) → (⟨S50000x128, .f32⟩ : BufTy).Contents (Elt F)),
    StableHlo.unary main_v153 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S50000x128 ![0, 1] bcast_S1x128_S50000x128_0_1 : (⟨S1x128, .f32⟩ : BufTy).Contents (Elt F) → (⟨S50000x128, .f32⟩ : BufTy).Contents (Elt F)),
    StableHlo.binary main_v169 main_v171 main_v172 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev bn2_1_W : List (Ref sig .tc) :=
  [main_v150, main_v151, main_v152, main_v153, main_cst_20, main_v154, main_cst_21, main_v155,
    main_v156, main_c_22, main_call8_cst, main_call8_v0, main_call8_v1, main_call8_cst_0, main_call8_v2, main_call8_v3,
    main_call8_v4, main_call8_v5, main_call8_v6, main_call8_v7, main_call8_cst_1, main_call8_v8, main_call8_cst_2, main_call8_v9,
    main_call8_v10, main_call8_v11, main_call8_cst_3, main_call8_v12, main_call8_cst_4, main_call8_call0_v0, main_call8_call0_v1, main_v157,
    main_v158, main_v159, main_v160, main_v161, main_v162, main_v163, main_cst_23, main_v164,
    main_v165, main_v166, main_v167, main_v168, main_v169, main_v170, main_v171, main_v172]

set_option maxRecDepth 16384 in
set_option maxHeartbeats 4000000 in
theorem bn2_1_writes : (bn2_1 : List (HloOp τ sig (Elt F))).Forall fun op =>
    op.writes ⊆ (bn2_1_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_bn2_1 (V : Valuation τ sig (Elt F)) (r : Ref sig .tc) (h : r ∉ bn2_1_W) :
    after bn2_1 V (Proc.devRef .tc r) = V (Proc.devRef .tc r) :=
  after_of_writes_sub bn2_1 V bn2_1_writes h

set_option maxRecDepth 16384 in
set_option maxHeartbeats 4000000 in
/-- What the stage leaves in its result buffer, as the named function of what its operand buffers held. -/
theorem bn2_1_eq (V : Valuation τ sig (Elt F)) :
    after bn2_1 V (Proc.devRef .tc main_v172) = refBN (V (Proc.devRef .tc main_v149)) (refRow 1 slices_S5x128_S1x128_1_0 (V (Proc.devRef .tc main_arg9))) (refRow 1 slices_S5x128_S1x128_1_0 (V (Proc.devRef .tc main_arg10))) := by
  after_results_simp
  rfl

/-- Layer 2, the second rectifier: its 3 operations in order. -/
abbrev relu2_1 : List (HloOp τ sig (Elt F)) :=
  [ StableHlo.TRef.nullary main_call9.cst (constant S_ .f32 0x00000000#32),
    StableHlo.TRef.unary main_call9.cst main_call9.v0 (broadcastInDim S50000x128 ![] bcast_S_S50000x128),
    StableHlo.TRef.binary (StableHlo.TRef.of main_v172 : StableHlo.TRef sig ⟨S50000x128, .f32⟩) main_call9.v0 main_call9.v1 maximumf ]

/-- The buffers those operations write. -/
abbrev relu2_1_W : List (Ref sig .tc) :=
  [main_call9_cst, main_call9_v0, main_v173]

set_option maxRecDepth 16384 in
set_option maxHeartbeats 4000000 in
theorem relu2_1_writes : (relu2_1 : List (HloOp τ sig (Elt F))).Forall fun op =>
    op.writes ⊆ (relu2_1_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_relu2_1 (V : Valuation τ sig (Elt F)) (r : Ref sig .tc) (h : r ∉ relu2_1_W) :
    after relu2_1 V (Proc.devRef .tc r) = V (Proc.devRef .tc r) :=
  after_of_writes_sub relu2_1 V relu2_1_writes h

set_option maxRecDepth 16384 in
set_option maxHeartbeats 4000000 in
/-- What the stage leaves in its result buffer, as the named function of what its operand buffers held. -/
theorem relu2_1_eq (V : Valuation τ sig (Elt F)) :
    after relu2_1 V (Proc.devRef .tc main_v173) = refRelu (V (Proc.devRef .tc main_v172)) := by
  after_results_simp
  rfl

/-- Layer 2, the third batch normalisation: its 48 operations in order. -/
abbrev bn3_1 : List (HloOp τ sig (Elt F)) :=
  [ StableHlo.unary main_arg11 main_v174 ((extractStridedSlice S1x128 ![1, 0] · slices_S5x128_S1x128_1_0) : (⟨S5x128, .f32⟩ : BufTy).Contents (Elt F) → (⟨S1x128, .f32⟩ : BufTy).Contents (Elt F)),
    StableHlo.reshape main_v174 main_v175 rfl shapeCasts_S1x128_S128,
    StableHlo.unary main_arg12 main_v176 ((extractStridedSlice S1x128 ![1, 0] · slices_S5x128_S1x128_1_0) : (⟨S5x128, .f32⟩ : BufTy).Contents (Elt F) → (⟨S1x128, .f32⟩ : BufTy).Contents (Elt F)),
    StableHlo.reshape main_v176 main_v177 rfl shapeCasts_S1x128_S128,
    StableHlo.nullary main_cst_24 (constant S_ .f32 0x00000000#32),
    StableHlo.binary main_v173 main_cst_24 main_v178 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_25 (constant S_ .f32 0x47435000#32),
    StableHlo.unary main_cst_25 main_v179 (broadcastInDim S128 ![] bcast_S_S128 : (⟨S_, .f32⟩ : BufTy).Contents (Elt F) → (⟨S128, .f32⟩ : BufTy).Contents (Elt F)),
    StableHlo.binary main_v178 main_v179 main_v180 (Host.divf : (⟨S128, .f32⟩ : BufTy).Contents (Elt F) → (⟨S128, .f32⟩ : BufTy).Contents (Elt F) → (⟨S128, .f32⟩ : BufTy).Contents (Elt F)),
    StableHlo.nullary main_c_26 (constantI S_ 32 0#32),
    StableHlo.TRef.nullary main_call10.cst (constant S_ .f32 0x00000000#32),
    StableHlo.TRef.binary (StableHlo.TRef.of main_v173 : StableHlo.TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (StableHlo.TRef.of main_v173 : StableHlo.TRef sig ⟨S50000x128, .f32⟩) main_call10.v4 main_call10.v5 subf,
    StableHlo.TRef.binary main_call10.v5 main_call10.v5 main_call10.v6 mulf,
    StableHlo.TRef.unary (StableHlo.TRef.of main_c_26 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v180 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S50000x128 ![0, 1] bcast_S1x128_S50000x128_0_1 : (⟨S1x128, .f32⟩ : BufTy).Contents (Elt F) → (⟨S50000x128, .f32⟩ : BufTy).Contents (Elt F)),
    StableHlo.binary main_v173 main_v183 main_v184 (subf : (⟨S50000x128, .f32⟩ : BufTy).Contents (Elt F) → (⟨S50000x128, .f32⟩ : BufTy).Contents (Elt F) → (⟨S50000x128, .f32⟩ : BufTy).Contents (Elt F)),
    StableHlo.unary main_v175 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S50000x128 ![0, 1] bcast_S1x128_S50000x128_0_1 : (⟨S1x128, .f32⟩ : BufTy).Contents (Elt F) → (⟨S50000x128, .f32⟩ : BufTy).Contents (Elt F)),
    StableHlo.binary main_v186 main_v184 main_v187 (mulf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0x3727C5AC#32),
    StableHlo.unary main_cst_27 main_v188 (broadcastInDim S128 ![] bcast_S_S128 : (⟨S_, .f32⟩ : BufTy).Contents (Elt F) → (⟨S128, .f32⟩ : BufTy).Contents (Elt F)),
    StableHlo.binary main_v181 main_v188 main_v189 (addf : (⟨S128, .f32⟩ : BufTy).Contents (Elt F) → (⟨S128, .f32⟩ : BufTy).Contents (Elt F) → (⟨S128, .f32⟩ : BufTy).Contents (Elt F)),
    StableHlo.unary main_v189 main_v190 (Host.rsqrt : (⟨S128, .f32⟩ : BufTy).Contents (Elt F) → (⟨S128, .f32⟩ : BufTy).Contents (Elt F)),
    StableHlo.unary main_v190 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S50000x128 ![0, 1] bcast_S1x128_S50000x128_0_1 : (⟨S1x128, .f32⟩ : BufTy).Contents (Elt F) → (⟨S50000x128, .f32⟩ : BufTy).Contents (Elt F)),
    StableHlo.binary main_v187 main_v192 main_v193 (mulf : (⟨S50000x128, .f32⟩ : BufTy).Contents (Elt F) → (⟨S50000x128, .f32⟩ : BufTy).Contents (Elt F) → (⟨S50000x128, .f32⟩ : BufTy).Contents (Elt F)),
    StableHlo.unary main_v177 main_v194 (broadcastInDim S1x128 ![1] bcast_S128_S1x128_1 : (⟨S128, .f32⟩ : BufTy).Contents (Elt F) → (⟨S1x128, .f32⟩ : BufTy).Contents (Elt F)),
    StableHlo.unary main_v194 main_v195 (broadcastInDim S50000x128 ![0, 1] bcast_S1x128_S50000x128_0_1 : (⟨S1x128, .f32⟩ : BufTy).Contents (Elt F) → (⟨S50000x128, .f32⟩ : BufTy).Contents (Elt F)),
    StableHlo.binary main_v193 main_v195 main_v196 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev bn3_1_W : List (Ref sig .tc) :=
  [main_v174, main_v175, main_v176, main_v177, main_cst_24, main_v178, main_cst_25, main_v179,
    main_v180, main_c_26, main_call10_cst, main_call10_v0, main_call10_v1, main_call10_cst_0, main_call10_v2, main_call10_v3,
    main_call10_v4, main_call10_v5, main_call10_v6, main_call10_v7, main_call10_cst_1, main_call10_v8, main_call10_cst_2, main_call10_v9,
    main_call10_v10, main_call10_v11, main_call10_cst_3, main_call10_v12, main_call10_cst_4, main_call10_call0_v0, main_call10_call0_v1, main_v181,
    main_v182, main_v183, main_v184, main_v185, main_v186, main_v187, main_cst_27, main_v188,
    main_v189, main_v190, main_v191, main_v192, main_v193, main_v194, main_v195, main_v196]

set_option maxRecDepth 16384 in
set_option maxHeartbeats 4000000 in
theorem bn3_1_writes : (bn3_1 : List (HloOp τ sig (Elt F))).Forall fun op =>
    op.writes ⊆ (bn3_1_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_bn3_1 (V : Valuation τ sig (Elt F)) (r : Ref sig .tc) (h : r ∉ bn3_1_W) :
    after bn3_1 V (Proc.devRef .tc r) = V (Proc.devRef .tc r) :=
  after_of_writes_sub bn3_1 V bn3_1_writes h

set_option maxRecDepth 16384 in
set_option maxHeartbeats 4000000 in
/-- What the stage leaves in its result buffer, as the named function of what its operand buffers held. -/
theorem bn3_1_eq (V : Valuation τ sig (Elt F)) :
    after bn3_1 V (Proc.devRef .tc main_v196) = refBN (V (Proc.devRef .tc main_v173)) (refRow 1 slices_S5x128_S1x128_1_0 (V (Proc.devRef .tc main_arg11))) (refRow 1 slices_S5x128_S1x128_1_0 (V (Proc.devRef .tc main_arg12))) := by
  after_results_simp
  rfl

/-- Layer 2, the third rectifier: its 3 operations in order. -/
abbrev relu3_1 : List (HloOp τ sig (Elt F)) :=
  [ StableHlo.TRef.nullary main_call11.cst (constant S_ .f32 0x00000000#32),
    StableHlo.TRef.unary main_call11.cst main_call11.v0 (broadcastInDim S50000x128 ![] bcast_S_S50000x128),
    StableHlo.TRef.binary (StableHlo.TRef.of main_v196 : StableHlo.TRef sig ⟨S50000x128, .f32⟩) main_call11.v0 main_call11.v1 maximumf ]

/-- The buffers those operations write. -/
abbrev relu3_1_W : List (Ref sig .tc) :=
  [main_call11_cst, main_call11_v0, main_v197]

set_option maxRecDepth 16384 in
set_option maxHeartbeats 4000000 in
theorem relu3_1_writes : (relu3_1 : List (HloOp τ sig (Elt F))).Forall fun op =>
    op.writes ⊆ (relu3_1_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_relu3_1 (V : Valuation τ sig (Elt F)) (r : Ref sig .tc) (h : r ∉ relu3_1_W) :
    after relu3_1 V (Proc.devRef .tc r) = V (Proc.devRef .tc r) :=
  after_of_writes_sub relu3_1 V relu3_1_writes h

set_option maxRecDepth 16384 in
set_option maxHeartbeats 4000000 in
/-- What the stage leaves in its result buffer, as the named function of what its operand buffers held. -/
theorem relu3_1_eq (V : Valuation τ sig (Elt F)) :
    after relu3_1 V (Proc.devRef .tc main_v197) = refRelu (V (Proc.devRef .tc main_v196)) := by
  after_results_simp
  rfl

/-- Layer 2: its 183 operations, the nine stages one after the other. -/
abbrev layer1 : List (HloOp τ sig (Elt F)) :=
  agg_1 ++ (lin1_1 ++ (bn1_1 ++ (relu1_1 ++ (lin2_1 ++ (bn2_1 ++ (relu2_1 ++ (bn3_1 ++ (relu3_1))))))))

/-- A buffer that no stage of the layer writes is unchanged by the layer. -/
theorem keep_layer1 (V : Valuation τ sig (Elt F)) (r : Ref sig .tc)
    (h0 : r ∉ agg_1_W) (h1 : r ∉ lin1_1_W) (h2 : r ∉ bn1_1_W) (h3 : r ∉ relu1_1_W) (h4 : r ∉ lin2_1_W) (h5 : r ∉ bn2_1_W) (h6 : r ∉ relu2_1_W) (h7 : r ∉ bn3_1_W) (h8 : r ∉ relu3_1_W) :
    after layer1 V (Proc.devRef .tc r) = V (Proc.devRef .tc r) := by
  simp only [layer1, StableHlo.after_append]
  rw [keep_relu3_1 _ r h8, keep_bn3_1 _ r h7, keep_relu2_1 _ r h6, keep_bn2_1 _ r h5, keep_lin2_1 _ r h4, keep_relu1_1 _ r h3, keep_bn1_1 _ r h2, keep_lin1_1 _ r h1, keep_agg_1 _ r h0]

set_option maxRecDepth 16384 in
/-- The layer's result buffer holds the layer function of what the previous features and the thirteen arguments held:
    each stage's result is read off its own equation, and what a later stage reads of an earlier buffer passes
    unchanged through the stages between. -/
theorem layer1_eq (V : Valuation τ sig (Elt F)) :
    after layer1 V (Proc.devRef .tc main_v197) =
      RefLayer 1 slices_S5x128_S1x128_1_0 slices_S5x128x128_S1x128x128_1_0_0 (V (Proc.devRef .tc main_v98)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  simp only [layer1, StableHlo.after_append]
  rw [relu3_1_eq,
    bn3_1_eq,
    relu2_1_eq,
    bn2_1_eq,
    lin2_1_eq,
    relu1_1_eq,
    bn1_1_eq,
    lin1_1_eq,
    agg_1_eq,
    keep_agg_1 _ main_arg3 (by decide),
    keep_agg_1 _ main_arg4 (by decide),
    keep_lin1_1 _ main_arg7 (by decide),
    keep_agg_1 _ main_arg7 (by decide),
    keep_lin1_1 _ main_arg8 (by decide),
    keep_agg_1 _ main_arg8 (by decide),
    keep_relu1_1 _ main_arg5 (by decide),
    keep_bn1_1 _ main_arg5 (by decide),
    keep_lin1_1 _ main_arg5 (by decide),
    keep_agg_1 _ main_arg5 (by decide),
    keep_relu1_1 _ main_arg6 (by decide),
    keep_bn1_1 _ main_arg6 (by decide),
    keep_lin1_1 _ main_arg6 (by decide),
    keep_agg_1 _ main_arg6 (by decide),
    keep_lin2_1 _ main_arg9 (by decide),
    keep_relu1_1 _ main_arg9 (by decide),
    keep_bn1_1 _ main_arg9 (by decide),
    keep_lin1_1 _ main_arg9 (by decide),
    keep_agg_1 _ main_arg9 (by decide),
    keep_lin2_1 _ main_arg10 (by decide),
    keep_relu1_1 _ main_arg10 (by decide),
    keep_bn1_1 _ main_arg10 (by decide),
    keep_lin1_1 _ main_arg10 (by decide),
    keep_agg_1 _ main_arg10 (by decide),
    keep_relu2_1 _ main_arg11 (by decide),
    keep_bn2_1 _ main_arg11 (by decide),
    keep_lin2_1 _ main_arg11 (by decide),
    keep_relu1_1 _ main_arg11 (by decide),
    keep_bn1_1 _ main_arg11 (by decide),
    keep_lin1_1 _ main_arg11 (by decide),
    keep_agg_1 _ main_arg11 (by decide),
    keep_relu2_1 _ main_arg12 (by decide),
    keep_bn2_1 _ main_arg12 (by decide),
    keep_lin2_1 _ main_arg12 (by decide),
    keep_relu1_1 _ main_arg12 (by decide),
    keep_bn1_1 _ main_arg12 (by decide),
    keep_lin1_1 _ main_arg12 (by decide),
    keep_agg_1 _ main_arg12 (by decide)]
  rfl

end Cert.ReferenceIdeal.RefRun

end
-- ==== Proof.RefLayer2.lean ====
/- Layer 3 of the reference network, stage by stage. Its 183 operations are cut into nine consecutive stages —
   neighbour sum and residual, linear map, batch normalisation, rectifier, linear map, batch normalisation, rectifier,
   batch normalisation, rectifier — and for each stage the contents of its result buffer after the stage's operations
   are the corresponding named function (`refRst`, `refLinear`, `refBN`, `refRelu`) of the contents of the buffers it
   reads, whatever the buffers held before: each operation writes its own buffer as its whole-array function of its
   operands and leaves every other buffer alone, so reading the result back through the list composes those functions
   in order. A stage writes only its own buffers, hence the features it received and the parameter arrays pass through
   it unchanged; chaining the nine equations gives the layer function `RefLayer 2` of the incoming features and the
   argument arrays (row 2 of each stacked parameter). -/
import proofs.«113410_j5944234737805_1_alg».proof.Proof.RefStages
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 3, the neighbour sum added to the features: its 14 operations in order. -/
abbrev agg_2 : List (HloOp τ sig (Elt F)) :=
  [ StableHlo.nullary main_c_28 (constantI S_ 32 0#32),
    StableHlo.unary main_c_28 main_v198 (broadcastInDim S800000 ![] bcast_S_S800000 : (⟨S_, .i32⟩ : BufTy).Contents (Elt F) → (⟨S800000, .i32⟩ : BufTy).Contents (Elt F)),
    StableHlo.binary main_arg1 main_v198 main_v199 (cmpi .slt : (⟨S800000, .i32⟩ : BufTy).Contents (Elt F) → (⟨S800000, .i32⟩ : BufTy).Contents (Elt F) → (⟨S800000, .i1⟩ : BufTy).Contents (Elt F)),
    StableHlo.nullary main_c_29 (constantI S_ 32 50000#32),
    StableHlo.unary main_c_29 main_v200 (broadcastInDim S800000 ![] bcast_S_S800000 : (⟨S_, .i32⟩ : BufTy).Contents (Elt F) → (⟨S800000, .i32⟩ : BufTy).Contents (Elt F)),
    StableHlo.binary main_arg1 main_v200 main_v201 (addi : (⟨S800000, .i32⟩ : BufTy).Contents (Elt F) → (⟨S800000, .i32⟩ : BufTy).Contents (Elt F) → (⟨S800000, .i32⟩ : BufTy).Contents (Elt F)),
    StableHlo.ternary main_v199 main_v201 main_arg1 main_v202 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v202 main_v203 (broadcastInDim S800000x1 ![0] bcast_S800000_S800000x1_0 : (⟨S800000, .i32⟩ : BufTy).Contents (Elt F) → (⟨S800000x1, .i32⟩ : BufTy).Contents (Elt F)),
    StableHlo.binary main_v197 main_v203 main_v204 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_30 (constant S_ .f32 0x00000000#32),
    StableHlo.unary main_cst_30 main_v205 (broadcastInDim S50000x128 ![] bcast_S_S50000x128 : (⟨S_, .f32⟩ : BufTy).Contents (Elt F) → (⟨S50000x128, .f32⟩ : BufTy).Contents (Elt F)),
    StableHlo.unary main_arg2 main_v206 (broadcastInDim S800000x1 ![0] bcast_S800000_S800000x1_0 : (⟨S800000, .i32⟩ : BufTy).Contents (Elt F) → (⟨S800000x1, .i32⟩ : BufTy).Contents (Elt F)),
    StableHlo.ternary main_v205 main_v206 main_v204 main_v207 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v197 main_v207 main_v208 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev agg_2_W : List (Ref sig .tc) :=
  [main_c_28, main_v198, main_v199, main_c_29, main_v200, main_v201, main_v202, main_v203,
    main_v204, main_cst_30, main_v205, main_v206, main_v207, main_v208]

set_option maxRecDepth 16384 in
set_option maxHeartbeats 4000000 in
theorem agg_2_writes : (agg_2 : List (HloOp τ sig (Elt F))).Forall fun op =>
    op.writes ⊆ (agg_2_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_agg_2 (V : Valuation τ sig (Elt F)) (r : Ref sig .tc) (h : r ∉ agg_2_W) :
    after agg_2 V (Proc.devRef .tc r) = V (Proc.devRef .tc r) :=
  after_of_writes_sub agg_2 V agg_2_writes h

set_option maxRecDepth 16384 in
set_option maxHeartbeats 4000000 in
/-- What the stage leaves in its result buffer, as the named function of what its operand buffers held. -/
theorem agg_2_eq (V : Valuation τ sig (Elt F)) :
    after agg_2 V (Proc.devRef .tc main_v208) = refRst (V (Proc.devRef .tc main_v197)) (V (Proc.devRef .tc main_arg1)) (V (Proc.devRef .tc main_arg2)) := by
  after_results_simp
  rfl

/-- Layer 3, the first linear map: its 8 operations in order. -/
abbrev lin1_2 : List (HloOp τ sig (Elt F)) :=
  [ StableHlo.unary main_arg3 main_v209 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v209 main_v210 rfl shapeCasts_S1x128x128_S128x128,
    StableHlo.binary main_v208 main_v210 main_v211 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v212 ((extractStridedSlice S1x128 ![2, 0] · slices_S5x128_S1x128_2_0) : (⟨S5x128, .f32⟩ : BufTy).Contents (Elt F) → (⟨S1x128, .f32⟩ : BufTy).Contents (Elt F)),
    StableHlo.reshape main_v212 main_v213 rfl shapeCasts_S1x128_S128,
    StableHlo.unary main_v213 main_v214 (broadcastInDim S1x128 ![1] bcast_S128_S1x128_1 : (⟨S128, .f32⟩ : BufTy).Contents (Elt F) → (⟨S1x128, .f32⟩ : BufTy).Contents (Elt F)),
    StableHlo.unary main_v214 main_v215 (broadcastInDim S50000x128 ![0, 1] bcast_S1x128_S50000x128_0_1 : (⟨S1x128, .f32⟩ : BufTy).Contents (Elt F) → (⟨S50000x128, .f32⟩ : BufTy).Contents (Elt F)),
    StableHlo.binary main_v211 main_v215 main_v216 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev lin1_2_W : List (Ref sig .tc) :=
  [main_v209, main_v210, main_v211, main_v212, main_v213, main_v214, main_v215, main_v216]

set_option maxRecDepth 16384 in
set_option maxHeartbeats 4000000 in
theorem lin1_2_writes : (lin1_2 : List (HloOp τ sig (Elt F))).Forall fun op =>
    op.writes ⊆ (lin1_2_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_lin1_2 (V : Valuation τ sig (Elt F)) (r : Ref sig .tc) (h : r ∉ lin1_2_W) :
    after lin1_2 V (Proc.devRef .tc r) = V (Proc.devRef .tc r) :=
  after_of_writes_sub lin1_2 V lin1_2_writes h

set_option maxRecDepth 16384 in
set_option maxHeartbeats 4000000 in
/-- What the stage leaves in its result buffer, as the named function of what its operand buffers held. -/
theorem lin1_2_eq (V : Valuation τ sig (Elt F)) :
    after lin1_2 V (Proc.devRef .tc main_v216) = refLinear (V (Proc.devRef .tc main_v208)) (refMat 2 slices_S5x128x128_S1x128x128_2_0_0 (V (Proc.devRef .tc main_arg3))) (refRow 2 slices_S5x128_S1x128_2_0 (V (Proc.devRef .tc main_arg4))) := by
  after_results_simp
  rfl

/-- Layer 3, the first batch normalisation: its 48 operations in order. -/
abbrev bn1_2 : List (HloOp τ sig (Elt F)) :=
  [ StableHlo.unary main_arg7 main_v217 ((extractStridedSlice S1x128 ![2, 0] · slices_S5x128_S1x128_2_0) : (⟨S5x128, .f32⟩ : BufTy).Contents (Elt F) → (⟨S1x128, .f32⟩ : BufTy).Contents (Elt F)),
    StableHlo.reshape main_v217 main_v218 rfl shapeCasts_S1x128_S128,
    StableHlo.unary main_arg8 main_v219 ((extractStridedSlice S1x128 ![2, 0] · slices_S5x128_S1x128_2_0) : (⟨S5x128, .f32⟩ : BufTy).Contents (Elt F) → (⟨S1x128, .f32⟩ : BufTy).Contents (Elt F)),
    StableHlo.reshape main_v219 main_v220 rfl shapeCasts_S1x128_S128,
    StableHlo.nullary main_cst_31 (constant S_ .f32 0x00000000#32),
    StableHlo.binary main_v216 main_cst_31 main_v221 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_32 (constant S_ .f32 0x47435000#32),
    StableHlo.unary main_cst_32 main_v222 (broadcastInDim S128 ![] bcast_S_S128 : (⟨S_, .f32⟩ : BufTy).Contents (Elt F) → (⟨S128, .f32⟩ : BufTy).Contents (Elt F)),
    StableHlo.binary main_v221 main_v222 main_v223 (Host.divf : (⟨S128, .f32⟩ : BufTy).Contents (Elt F) → (⟨S128, .f32⟩ : BufTy).Contents (Elt F) → (⟨S128, .f32⟩ : BufTy).Contents (Elt F)),
    StableHlo.nullary main_c_33 (constantI S_ 32 0#32),
    StableHlo.TRef.nullary main_call12.cst (constant S_ .f32 0x00000000#32),
    StableHlo.TRef.binary (StableHlo.TRef.of main_v216 : StableHlo.TRef sig ⟨S50000x128, .f32⟩) main_call12.cst main_call12.v0 (fun x v => Host.reduceAdd x v reducesTo_S50000x128_S128_d0 h_S_),
    StableHlo.TRef.unary main_call12.v0 main_call12.v1 (broadcastInDim S1x128 ![1] bcast_S128_S1x128_1),
    StableHlo.TRef.nullary main_call12.cst_0 (constant S_ .f32 0x47435000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S50000x128 ![0, 1] bcast_S1x128_S50000x128_0_1),
    StableHlo.TRef.binary (StableHlo.TRef.of main_v216 : StableHlo.TRef sig ⟨S50000x128, .f32⟩) main_call12.v4 main_call12.v5 subf,
    StableHlo.TRef.binary main_call12.v5 main_call12.v5 main_call12.v6 mulf,
    StableHlo.TRef.unary (StableHlo.TRef.of main_c_33 : StableHlo.TRef sig ⟨S_, .i32⟩) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x128_S128_d0 h_S_),
    StableHlo.TRef.unary main_call12.v8 main_call12.v10 (broadcastInDim S128 ![] bcast_S_S128),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S128 ![] bcast_S_S128),
    StableHlo.TRef.ternary main_call12.v12 main_call12.v11 main_call12.call0.v1 main_call12.call0.v2 (fun p a b => select (broadcastInDim S128 ![] bcast_S_S128 p) a b),
    StableHlo.unary main_v223 main_v225 (broadcastInDim S1x128 ![1] bcast_S128_S1x128_1 : (⟨S128, .f32⟩ : BufTy).Contents (Elt F) → (⟨S1x128, .f32⟩ : BufTy).Contents (Elt F)),
    StableHlo.unary main_v225 main_v226 (broadcastInDim S50000x128 ![0, 1] bcast_S1x128_S50000x128_0_1 : (⟨S1x128, .f32⟩ : BufTy).Contents (Elt F) → (⟨S50000x128, .f32⟩ : BufTy).Contents (Elt F)),
    StableHlo.binary main_v216 main_v226 main_v227 (subf : (⟨S50000x128, .f32⟩ : BufTy).Contents (Elt F) → (⟨S50000x128, .f32⟩ : BufTy).Contents (Elt F) → (⟨S50000x128, .f32⟩ : BufTy).Contents (Elt F)),
    StableHlo.unary main_v218 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S50000x128 ![0, 1] bcast_S1x128_S50000x128_0_1 : (⟨S1x128, .f32⟩ : BufTy).Contents (Elt F) → (⟨S50000x128, .f32⟩ : BufTy).Contents (Elt F)),
    StableHlo.binary main_v229 main_v227 main_v230 (mulf : (⟨S50000x128, .f32⟩ : BufTy).Contents (Elt F) → (⟨S50000x128, .f32⟩ : BufTy).Contents (Elt F) → (⟨S50000x128, .f32⟩ : BufTy).Contents (Elt F)),
    StableHlo.nullary main_cst_34 (constant S_ .f32 0x3727C5AC#32),
    StableHlo.unary main_cst_34 main_v231 (broadcastInDim S128 ![] bcast_S_S128 : (⟨S_, .f32⟩ : BufTy).Contents (Elt F) → (⟨S128, .f32⟩ : BufTy).Contents (Elt F)),
    StableHlo.binary main_v224 main_v231 main_v232 (addf : (⟨S128, .f32⟩ : BufTy).Contents (Elt F) → (⟨S128, .f32⟩ : BufTy).Contents (Elt F) → (⟨S128, .f32⟩ : BufTy).Contents (Elt F)),
    StableHlo.unary main_v232 main_v233 (Host.rsqrt : (⟨S128, .f32⟩ : BufTy).Contents (Elt F) → (⟨S128, .f32⟩ : BufTy).Contents (Elt F)),
    StableHlo.unary main_v233 main_v234 (broadcastInDim S1x128 ![1] bcast_S128_S1x128_1 : (⟨S128, .f32⟩ : BufTy).Contents (Elt F) → (⟨S1x128, .f32⟩ : BufTy).Contents (Elt F)),
    StableHlo.unary main_v234 main_v235 (broadcastInDim S50000x128 ![0, 1] bcast_S1x128_S50000x128_0_1 : (⟨S1x128, .f32⟩ : BufTy).Contents (Elt F) → (⟨S50000x128, .f32⟩ : BufTy).Contents (Elt F)),
    StableHlo.binary main_v230 main_v235 main_v236 (mulf : (⟨S50000x128, .f32⟩ : BufTy).Contents (Elt F) → (⟨S50000x128, .f32⟩ : BufTy).Contents (Elt F) → (⟨S50000x128, .f32⟩ : BufTy).Contents (Elt F)),
    StableHlo.unary main_v220 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S50000x128 ![0, 1] bcast_S1x128_S50000x128_0_1 : (⟨S1x128, .f32⟩ : BufTy).Contents (Elt F) → (⟨S50000x128, .f32⟩ : BufTy).Contents (Elt F)),
    StableHlo.binary main_v236 main_v238 main_v239 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev bn1_2_W : List (Ref sig .tc) :=
  [main_v217, main_v218, main_v219, main_v220, main_cst_31, main_v221, main_cst_32, main_v222,
    main_v223, main_c_33, main_call12_cst, main_call12_v0, main_call12_v1, main_call12_cst_0, main_call12_v2, main_call12_v3,
    main_call12_v4, main_call12_v5, main_call12_v6, main_call12_v7, main_call12_cst_1, main_call12_v8, main_call12_cst_2, main_call12_v9,
    main_call12_v10, main_call12_v11, main_call12_cst_3, main_call12_v12, main_call12_cst_4, main_call12_call0_v0, main_call12_call0_v1, main_v224,
    main_v225, main_v226, main_v227, main_v228, main_v229, main_v230, main_cst_34, main_v231,
    main_v232, main_v233, main_v234, main_v235, main_v236, main_v237, main_v238, main_v239]

set_option maxRecDepth 16384 in
set_option maxHeartbeats 4000000 in
theorem bn1_2_writes : (bn1_2 : List (HloOp τ sig (Elt F))).Forall fun op =>
    op.writes ⊆ (bn1_2_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_bn1_2 (V : Valuation τ sig (Elt F)) (r : Ref sig .tc) (h : r ∉ bn1_2_W) :
    after bn1_2 V (Proc.devRef .tc r) = V (Proc.devRef .tc r) :=
  after_of_writes_sub bn1_2 V bn1_2_writes h

set_option maxRecDepth 16384 in
set_option maxHeartbeats 4000000 in
/-- What the stage leaves in its result buffer, as the named function of what its operand buffers held. -/
theorem bn1_2_eq (V : Valuation τ sig (Elt F)) :
    after bn1_2 V (Proc.devRef .tc main_v239) = refBN (V (Proc.devRef .tc main_v216)) (refRow 2 slices_S5x128_S1x128_2_0 (V (Proc.devRef .tc main_arg7))) (refRow 2 slices_S5x128_S1x128_2_0 (V (Proc.devRef .tc main_arg8))) := by
  after_results_simp
  rfl

/-- Layer 3, the first rectifier: its 3 operations in order. -/
abbrev relu1_2 : List (HloOp τ sig (Elt F)) :=
  [ StableHlo.TRef.nullary main_call13.cst (constant S_ .f32 0x00000000#32),
    StableHlo.TRef.unary main_call13.cst main_call13.v0 (broadcastInDim S50000x128 ![] bcast_S_S50000x128),
    StableHlo.TRef.binary (StableHlo.TRef.of main_v239 : StableHlo.TRef sig ⟨S50000x128, .f32⟩) main_call13.v0 main_call13.v1 maximumf ]

/-- The buffers those operations write. -/
abbrev relu1_2_W : List (Ref sig .tc) :=
  [main_call13_cst, main_call13_v0, main_v240]

set_option maxRecDepth 16384 in
set_option maxHeartbeats 4000000 in
theorem relu1_2_writes : (relu1_2 : List (HloOp τ sig (Elt F))).Forall fun op =>
    op.writes ⊆ (relu1_2_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_relu1_2 (V : Valuation τ sig (Elt F)) (r : Ref sig .tc) (h : r ∉ relu1_2_W) :
    after relu1_2 V (Proc.devRef .tc r) = V (Proc.devRef .tc r) :=
  after_of_writes_sub relu1_2 V relu1_2_writes h

set_option maxRecDepth 16384 in
set_option maxHeartbeats 4000000 in
/-- What the stage leaves in its result buffer, as the named function of what its operand buffers held. -/
theorem relu1_2_eq (V : Valuation τ sig (Elt F)) :
    after relu1_2 V (Proc.devRef .tc main_v240) = refRelu (V (Proc.devRef .tc main_v239)) := by
  after_results_simp
  rfl

/-- Layer 3, the second linear map: its 8 operations in order. -/
abbrev lin2_2 : List (HloOp τ sig (Elt F)) :=
  [ StableHlo.unary main_arg5 main_v241 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v241 main_v242 rfl shapeCasts_S1x128x128_S128x128,
    StableHlo.binary main_v240 main_v242 main_v243 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v244 ((extractStridedSlice S1x128 ![2, 0] · slices_S5x128_S1x128_2_0) : (⟨S5x128, .f32⟩ : BufTy).Contents (Elt F) → (⟨S1x128, .f32⟩ : BufTy).Contents (Elt F)),
    StableHlo.reshape main_v244 main_v245 rfl shapeCasts_S1x128_S128,
    StableHlo.unary main_v245 main_v246 (broadcastInDim S1x128 ![1] bcast_S128_S1x128_1 : (⟨S128, .f32⟩ : BufTy).Contents (Elt F) → (⟨S1x128, .f32⟩ : BufTy).Contents (Elt F)),
    StableHlo.unary main_v246 main_v247 (broadcastInDim S50000x128 ![0, 1] bcast_S1x128_S50000x128_0_1 : (⟨S1x128, .f32⟩ : BufTy).Contents (Elt F) → (⟨S50000x128, .f32⟩ : BufTy).Contents (Elt F)),
    StableHlo.binary main_v243 main_v247 main_v248 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev lin2_2_W : List (Ref sig .tc) :=
  [main_v241, main_v242, main_v243, main_v244, main_v245, main_v246, main_v247, main_v248]

set_option maxRecDepth 16384 in
set_option maxHeartbeats 4000000 in
theorem lin2_2_writes : (lin2_2 : List (HloOp τ sig (Elt F))).Forall fun op =>
    op.writes ⊆ (lin2_2_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_lin2_2 (V : Valuation τ sig (Elt F)) (r : Ref sig .tc) (h : r ∉ lin2_2_W) :
    after lin2_2 V (Proc.devRef .tc r) = V (Proc.devRef .tc r) :=
  after_of_writes_sub lin2_2 V lin2_2_writes h

set_option maxRecDepth 16384 in
set_option maxHeartbeats 4000000 in
/-- What the stage leaves in its result buffer, as the named function of what its operand buffers held. -/
theorem lin2_2_eq (V : Valuation τ sig (Elt F)) :
    after lin2_2 V (Proc.devRef .tc main_v248) = refLinear (V (Proc.devRef .tc main_v240)) (refMat 2 slices_S5x128x128_S1x128x128_2_0_0 (V (Proc.devRef .tc main_arg5))) (refRow 2 slices_S5x128_S1x128_2_0 (V (Proc.devRef .tc main_arg6))) := by
  after_results_simp
  rfl

/-- Layer 3, the second batch normalisation: its 48 operations in order. -/
abbrev bn2_2 : List (HloOp τ sig (Elt F)) :=
  [ StableHlo.unary main_arg9 main_v249 ((extractStridedSlice S1x128 ![2, 0] · slices_S5x128_S1x128_2_0) : (⟨S5x128, .f32⟩ : BufTy).Contents (Elt F) → (⟨S1x128, .f32⟩ : BufTy).Contents (Elt F)),
    StableHlo.reshape main_v249 main_v250 rfl shapeCasts_S1x128_S128,
    StableHlo.unary main_arg10 main_v251 ((extractStridedSlice S1x128 ![2, 0] · slices_S5x128_S1x128_2_0) : (⟨S5x128, .f32⟩ : BufTy).Contents (Elt F) → (⟨S1x128, .f32⟩ : BufTy).Contents (Elt F)),
    StableHlo.reshape main_v251 main_v252 rfl shapeCasts_S1x128_S128,
    StableHlo.nullary main_cst_35 (constant S_ .f32 0x00000000#32),
    StableHlo.binary main_v248 main_cst_35 main_v253 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_36 (constant S_ .f32 0x47435000#32),
    StableHlo.unary main_cst_36 main_v254 (broadcastInDim S128 ![] bcast_S_S128 : (⟨S_, .f32⟩ : BufTy).Contents (Elt F) → (⟨S128, .f32⟩ : BufTy).Contents (Elt F)),
    StableHlo.binary main_v253 main_v254 main_v255 (Host.divf : (⟨S128, .f32⟩ : BufTy).Contents (Elt F) → (⟨S128, .f32⟩ : BufTy).Contents (Elt F) → (⟨S128, .f32⟩ : BufTy).Contents (Elt F)),
    StableHlo.nullary main_c_37 (constantI S_ 32 0#32),
    StableHlo.TRef.nullary main_call14.cst (constant S_ .f32 0x00000000#32),
    StableHlo.TRef.binary (StableHlo.TRef.of main_v248 : StableHlo.TRef sig ⟨S50000x128, .f32⟩) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (StableHlo.TRef.of main_v248 : StableHlo.TRef sig ⟨S50000x128, .f32⟩) main_call14.v4 main_call14.v5 subf,
    StableHlo.TRef.binary main_call14.v5 main_call14.v5 main_call14.v6 mulf,
    StableHlo.TRef.unary (StableHlo.TRef.of main_c_37 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v255 main_v257 (broadcastInDim S1x128 ![1] bcast_S128_S1x128_1 : (⟨S128, .f32⟩ : BufTy).Contents (Elt F) → (⟨S1x128, .f32⟩ : BufTy).Contents (Elt F)),
    StableHlo.unary main_v257 main_v258 (broadcastInDim S50000x128 ![0, 1] bcast_S1x128_S50000x128_0_1 : (⟨S1x128, .f32⟩ : BufTy).Contents (Elt F) → (⟨S50000x128, .f32⟩ : BufTy).Contents (Elt F)),
    StableHlo.binary main_v248 main_v258 main_v259 (subf : (⟨S50000x128, .f32⟩ : BufTy).Contents (Elt F) → (⟨S50000x128, .f32⟩ : BufTy).Contents (Elt F) → (⟨S50000x128, .f32⟩ : BufTy).Contents (Elt F)),
    StableHlo.unary main_v250 main_v260 (broadcastInDim S1x128 ![1] bcast_S128_S1x128_1 : (⟨S128, .f32⟩ : BufTy).Contents (Elt F) → (⟨S1x128, .f32⟩ : BufTy).Contents (Elt F)),
    StableHlo.unary main_v260 main_v261 (broadcastInDim S50000x128 ![0, 1] bcast_S1x128_S50000x128_0_1 : (⟨S1x128, .f32⟩ : BufTy).Contents (Elt F) → (⟨S50000x128, .f32⟩ : BufTy).Contents (Elt F)),
    StableHlo.binary main_v261 main_v259 main_v262 (mulf : (⟨S50000x128, .f32⟩ : BufTy).Contents (Elt F) → (⟨S50000x128, .f32⟩ : BufTy).Contents (Elt F) → (⟨S50000x128, .f32⟩ : BufTy).Contents (Elt F)),
    StableHlo.nullary main_cst_38 (constant S_ .f32 0x3727C5AC#32),
    StableHlo.unary main_cst_38 main_v263 (broadcastInDim S128 ![] bcast_S_S128 : (⟨S_, .f32⟩ : BufTy).Contents (Elt F) → (⟨S128, .f32⟩ : BufTy).Contents (Elt F)),
    StableHlo.binary main_v256 main_v263 main_v264 (addf : (⟨S128, .f32⟩ : BufTy).Contents (Elt F) → (⟨S128, .f32⟩ : BufTy).Contents (Elt F) → (⟨S128, .f32⟩ : BufTy).Contents (Elt F)),
    StableHlo.unary main_v264 main_v265 (Host.rsqrt : (⟨S128, .f32⟩ : BufTy).Contents (Elt F) → (⟨S128, .f32⟩ : BufTy).Contents (Elt F)),
    StableHlo.unary main_v265 main_v266 (broadcastInDim S1x128 ![1] bcast_S128_S1x128_1 : (⟨S128, .f32⟩ : BufTy).Contents (Elt F) → (⟨S1x128, .f32⟩ : BufTy).Contents (Elt F)),
    StableHlo.unary main_v266 main_v267 (broadcastInDim S50000x128 ![0, 1] bcast_S1x128_S50000x128_0_1 : (⟨S1x128, .f32⟩ : BufTy).Contents (Elt F) → (⟨S50000x128, .f32⟩ : BufTy).Contents (Elt F)),
    StableHlo.binary main_v262 main_v267 main_v268 (mulf : (⟨S50000x128, .f32⟩ : BufTy).Contents (Elt F) → (⟨S50000x128, .f32⟩ : BufTy).Contents (Elt F) → (⟨S50000x128, .f32⟩ : BufTy).Contents (Elt F)),
    StableHlo.unary main_v252 main_v269 (broadcastInDim S1x128 ![1] bcast_S128_S1x128_1 : (⟨S128, .f32⟩ : BufTy).Contents (Elt F) → (⟨S1x128, .f32⟩ : BufTy).Contents (Elt F)),
    StableHlo.unary main_v269 main_v270 (broadcastInDim S50000x128 ![0, 1] bcast_S1x128_S50000x128_0_1 : (⟨S1x128, .f32⟩ : BufTy).Contents (Elt F) → (⟨S50000x128, .f32⟩ : BufTy).Contents (Elt F)),
    StableHlo.binary main_v268 main_v270 main_v271 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev bn2_2_W : List (Ref sig .tc) :=
  [main_v249, main_v250, main_v251, main_v252, main_cst_35, main_v253, main_cst_36, main_v254,
    main_v255, main_c_37, main_call14_cst, main_call14_v0, main_call14_v1, main_call14_cst_0, main_call14_v2, main_call14_v3,
    main_call14_v4, main_call14_v5, main_call14_v6, main_call14_v7, main_call14_cst_1, main_call14_v8, main_call14_cst_2, main_call14_v9,
    main_call14_v10, main_call14_v11, main_call14_cst_3, main_call14_v12, main_call14_cst_4, main_call14_call0_v0, main_call14_call0_v1, main_v256,
    main_v257, main_v258, main_v259, main_v260, main_v261, main_v262, main_cst_38, main_v263,
    main_v264, main_v265, main_v266, main_v267, main_v268, main_v269, main_v270, main_v271]

set_option maxRecDepth 16384 in
set_option maxHeartbeats 4000000 in
theorem bn2_2_writes : (bn2_2 : List (HloOp τ sig (Elt F))).Forall fun op =>
    op.writes ⊆ (bn2_2_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_bn2_2 (V : Valuation τ sig (Elt F)) (r : Ref sig .tc) (h : r ∉ bn2_2_W) :
    after bn2_2 V (Proc.devRef .tc r) = V (Proc.devRef .tc r) :=
  after_of_writes_sub bn2_2 V bn2_2_writes h

set_option maxRecDepth 16384 in
set_option maxHeartbeats 4000000 in
/-- What the stage leaves in its result buffer, as the named function of what its operand buffers held. -/
theorem bn2_2_eq (V : Valuation τ sig (Elt F)) :
    after bn2_2 V (Proc.devRef .tc main_v271) = refBN (V (Proc.devRef .tc main_v248)) (refRow 2 slices_S5x128_S1x128_2_0 (V (Proc.devRef .tc main_arg9))) (refRow 2 slices_S5x128_S1x128_2_0 (V (Proc.devRef .tc main_arg10))) := by
  after_results_simp
  rfl

/-- Layer 3, the second rectifier: its 3 operations in order. -/
abbrev relu2_2 : List (HloOp τ sig (Elt F)) :=
  [ StableHlo.TRef.nullary main_call15.cst (constant S_ .f32 0x00000000#32),
    StableHlo.TRef.unary main_call15.cst main_call15.v0 (broadcastInDim S50000x128 ![] bcast_S_S50000x128),
    StableHlo.TRef.binary (StableHlo.TRef.of main_v271 : StableHlo.TRef sig ⟨S50000x128, .f32⟩) main_call15.v0 main_call15.v1 maximumf ]

/-- The buffers those operations write. -/
abbrev relu2_2_W : List (Ref sig .tc) :=
  [main_call15_cst, main_call15_v0, main_v272]

set_option maxRecDepth 16384 in
set_option maxHeartbeats 4000000 in
theorem relu2_2_writes : (relu2_2 : List (HloOp τ sig (Elt F))).Forall fun op =>
    op.writes ⊆ (relu2_2_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_relu2_2 (V : Valuation τ sig (Elt F)) (r : Ref sig .tc) (h : r ∉ relu2_2_W) :
    after relu2_2 V (Proc.devRef .tc r) = V (Proc.devRef .tc r) :=
  after_of_writes_sub relu2_2 V relu2_2_writes h

set_option maxRecDepth 16384 in
set_option maxHeartbeats 4000000 in
/-- What the stage leaves in its result buffer, as the named function of what its operand buffers held. -/
theorem relu2_2_eq (V : Valuation τ sig (Elt F)) :
    after relu2_2 V (Proc.devRef .tc main_v272) = refRelu (V (Proc.devRef .tc main_v271)) := by
  after_results_simp
  rfl

/-- Layer 3, the third batch normalisation: its 48 operations in order. -/
abbrev bn3_2 : List (HloOp τ sig (Elt F)) :=
  [ StableHlo.unary main_arg11 main_v273 ((extractStridedSlice S1x128 ![2, 0] · slices_S5x128_S1x128_2_0) : (⟨S5x128, .f32⟩ : BufTy).Contents (Elt F) → (⟨S1x128, .f32⟩ : BufTy).Contents (Elt F)),
    StableHlo.reshape main_v273 main_v274 rfl shapeCasts_S1x128_S128,
    StableHlo.unary main_arg12 main_v275 ((extractStridedSlice S1x128 ![2, 0] · slices_S5x128_S1x128_2_0) : (⟨S5x128, .f32⟩ : BufTy).Contents (Elt F) → (⟨S1x128, .f32⟩ : BufTy).Contents (Elt F)),
    StableHlo.reshape main_v275 main_v276 rfl shapeCasts_S1x128_S128,
    StableHlo.nullary main_cst_39 (constant S_ .f32 0x00000000#32),
    StableHlo.binary main_v272 main_cst_39 main_v277 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_40 (constant S_ .f32 0x47435000#32),
    StableHlo.unary main_cst_40 main_v278 (broadcastInDim S128 ![] bcast_S_S128 : (⟨S_, .f32⟩ : BufTy).Contents (Elt F) → (⟨S128, .f32⟩ : BufTy).Contents (Elt F)),
    StableHlo.binary main_v277 main_v278 main_v279 (Host.divf : (⟨S128, .f32⟩ : BufTy).Contents (Elt F) → (⟨S128, .f32⟩ : BufTy).Contents (Elt F) → (⟨S128, .f32⟩ : BufTy).Contents (Elt F)),
    StableHlo.nullary main_c_41 (constantI S_ 32 0#32),
    StableHlo.TRef.nullary main_call16.cst (constant S_ .f32 0x00000000#32),
    StableHlo.TRef.binary (StableHlo.TRef.of main_v272 : StableHlo.TRef sig ⟨S50000x128, .f32⟩) main_call16.cst main_call16.v0 (fun x v => Host.reduceAdd x v reducesTo_S50000x128_S128_d0 h_S_),
    StableHlo.TRef.unary main_call16.v0 main_call16.v1 (broadcastInDim S1x128 ![1] bcast_S128_S1x128_1),
    StableHlo.TRef.nullary main_call16.cst_0 (constant S_ .f32 0x47435000#32),
    StableHlo.TRef.unary main_call16.cst_0 main_call16.v2 (broadcastInDim S1x128 ![] bcast_S_S1x128),
    StableHlo.TRef.binary main_call16.v1 main_call16.v2 main_call16.v3 Host.divf,
    StableHlo.TRef.unary main_call16.v3 main_call16.v4 (broadcastInDim S50000x128 ![0, 1] bcast_S1x128_S50000x128_0_1),
    StableHlo.TRef.binary (StableHlo.TRef.of main_v272 : StableHlo.TRef sig ⟨S50000x128, .f32⟩) main_call16.v4 main_call16.v5 subf,
    StableHlo.TRef.binary main_call16.v5 main_call16.v5 main_call16.v6 mulf,
    StableHlo.TRef.unary (StableHlo.TRef.of main_c_41 : StableHlo.TRef sig ⟨S_, .i32⟩) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x128_S128_d0 h_S_),
    StableHlo.TRef.unary main_call16.v8 main_call16.v10 (broadcastInDim S128 ![] bcast_S_S128),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S128 ![] bcast_S_S128),
    StableHlo.TRef.ternary main_call16.v12 main_call16.v11 main_call16.call0.v1 main_call16.call0.v2 (fun p a b => select (broadcastInDim S128 ![] bcast_S_S128 p) a b),
    StableHlo.unary main_v279 main_v281 (broadcastInDim S1x128 ![1] bcast_S128_S1x128_1 : (⟨S128, .f32⟩ : BufTy).Contents (Elt F) → (⟨S1x128, .f32⟩ : BufTy).Contents (Elt F)),
    StableHlo.unary main_v281 main_v282 (broadcastInDim S50000x128 ![0, 1] bcast_S1x128_S50000x128_0_1 : (⟨S1x128, .f32⟩ : BufTy).Contents (Elt F) → (⟨S50000x128, .f32⟩ : BufTy).Contents (Elt F)),
    StableHlo.binary main_v272 main_v282 main_v283 (subf : (⟨S50000x128, .f32⟩ : BufTy).Contents (Elt F) → (⟨S50000x128, .f32⟩ : BufTy).Contents (Elt F) → (⟨S50000x128, .f32⟩ : BufTy).Contents (Elt F)),
    StableHlo.unary main_v274 main_v284 (broadcastInDim S1x128 ![1] bcast_S128_S1x128_1 : (⟨S128, .f32⟩ : BufTy).Contents (Elt F) → (⟨S1x128, .f32⟩ : BufTy).Contents (Elt F)),
    StableHlo.unary main_v284 main_v285 (broadcastInDim S50000x128 ![0, 1] bcast_S1x128_S50000x128_0_1 : (⟨S1x128, .f32⟩ : BufTy).Contents (Elt F) → (⟨S50000x128, .f32⟩ : BufTy).Contents (Elt F)),
    StableHlo.binary main_v285 main_v283 main_v286 (mulf : (⟨S50000x128, .f32⟩ : BufTy).Contents (Elt F) → (⟨S50000x128, .f32⟩ : BufTy).Contents (Elt F) → (⟨S50000x128, .f32⟩ : BufTy).Contents (Elt F)),
    StableHlo.nullary main_cst_42 (constant S_ .f32 0x3727C5AC#32),
    StableHlo.unary main_cst_42 main_v287 (broadcastInDim S128 ![] bcast_S_S128 : (⟨S_, .f32⟩ : BufTy).Contents (Elt F) → (⟨S128, .f32⟩ : BufTy).Contents (Elt F)),
    StableHlo.binary main_v280 main_v287 main_v288 (addf : (⟨S128, .f32⟩ : BufTy).Contents (Elt F) → (⟨S128, .f32⟩ : BufTy).Contents (Elt F) → (⟨S128, .f32⟩ : BufTy).Contents (Elt F)),
    StableHlo.unary main_v288 main_v289 (Host.rsqrt : (⟨S128, .f32⟩ : BufTy).Contents (Elt F) → (⟨S128, .f32⟩ : BufTy).Contents (Elt F)),
    StableHlo.unary main_v289 main_v290 (broadcastInDim S1x128 ![1] bcast_S128_S1x128_1 : (⟨S128, .f32⟩ : BufTy).Contents (Elt F) → (⟨S1x128, .f32⟩ : BufTy).Contents (Elt F)),
    StableHlo.unary main_v290 main_v291 (broadcastInDim S50000x128 ![0, 1] bcast_S1x128_S50000x128_0_1 : (⟨S1x128, .f32⟩ : BufTy).Contents (Elt F) → (⟨S50000x128, .f32⟩ : BufTy).Contents (Elt F)),
    StableHlo.binary main_v286 main_v291 main_v292 (mulf : (⟨S50000x128, .f32⟩ : BufTy).Contents (Elt F) → (⟨S50000x128, .f32⟩ : BufTy).Contents (Elt F) → (⟨S50000x128, .f32⟩ : BufTy).Contents (Elt F)),
    StableHlo.unary main_v276 main_v293 (broadcastInDim S1x128 ![1] bcast_S128_S1x128_1 : (⟨S128, .f32⟩ : BufTy).Contents (Elt F) → (⟨S1x128, .f32⟩ : BufTy).Contents (Elt F)),
    StableHlo.unary main_v293 main_v294 (broadcastInDim S50000x128 ![0, 1] bcast_S1x128_S50000x128_0_1 : (⟨S1x128, .f32⟩ : BufTy).Contents (Elt F) → (⟨S50000x128, .f32⟩ : BufTy).Contents (Elt F)),
    StableHlo.binary main_v292 main_v294 main_v295 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev bn3_2_W : List (Ref sig .tc) :=
  [main_v273, main_v274, main_v275, main_v276, main_cst_39, main_v277, main_cst_40, main_v278,
    main_v279, main_c_41, main_call16_cst, main_call16_v0, main_call16_v1, main_call16_cst_0, main_call16_v2, main_call16_v3,
    main_call16_v4, main_call16_v5, main_call16_v6, main_call16_v7, main_call16_cst_1, main_call16_v8, main_call16_cst_2, main_call16_v9,
    main_call16_v10, main_call16_v11, main_call16_cst_3, main_call16_v12, main_call16_cst_4, main_call16_call0_v0, main_call16_call0_v1, main_v280,
    main_v281, main_v282, main_v283, main_v284, main_v285, main_v286, main_cst_42, main_v287,
    main_v288, main_v289, main_v290, main_v291, main_v292, main_v293, main_v294, main_v295]

set_option maxRecDepth 16384 in
set_option maxHeartbeats 4000000 in
theorem bn3_2_writes : (bn3_2 : List (HloOp τ sig (Elt F))).Forall fun op =>
    op.writes ⊆ (bn3_2_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_bn3_2 (V : Valuation τ sig (Elt F)) (r : Ref sig .tc) (h : r ∉ bn3_2_W) :
    after bn3_2 V (Proc.devRef .tc r) = V (Proc.devRef .tc r) :=
  after_of_writes_sub bn3_2 V bn3_2_writes h

set_option maxRecDepth 16384 in
set_option maxHeartbeats 4000000 in
/-- What the stage leaves in its result buffer, as the named function of what its operand buffers held. -/
theorem bn3_2_eq (V : Valuation τ sig (Elt F)) :
    after bn3_2 V (Proc.devRef .tc main_v295) = refBN (V (Proc.devRef .tc main_v272)) (refRow 2 slices_S5x128_S1x128_2_0 (V (Proc.devRef .tc main_arg11))) (refRow 2 slices_S5x128_S1x128_2_0 (V (Proc.devRef .tc main_arg12))) := by
  after_results_simp
  rfl

/-- Layer 3, the third rectifier: its 3 operations in order. -/
abbrev relu3_2 : List (HloOp τ sig (Elt F)) :=
  [ StableHlo.TRef.nullary main_call17.cst (constant S_ .f32 0x00000000#32),
    StableHlo.TRef.unary main_call17.cst main_call17.v0 (broadcastInDim S50000x128 ![] bcast_S_S50000x128),
    StableHlo.TRef.binary (StableHlo.TRef.of main_v295 : StableHlo.TRef sig ⟨S50000x128, .f32⟩) main_call17.v0 main_call17.v1 maximumf ]

/-- The buffers those operations write. -/
abbrev relu3_2_W : List (Ref sig .tc) :=
  [main_call17_cst, main_call17_v0, main_v296]

set_option maxRecDepth 16384 in
set_option maxHeartbeats 4000000 in
theorem relu3_2_writes : (relu3_2 : List (HloOp τ sig (Elt F))).Forall fun op =>
    op.writes ⊆ (relu3_2_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_relu3_2 (V : Valuation τ sig (Elt F)) (r : Ref sig .tc) (h : r ∉ relu3_2_W) :
    after relu3_2 V (Proc.devRef .tc r) = V (Proc.devRef .tc r) :=
  after_of_writes_sub relu3_2 V relu3_2_writes h

set_option maxRecDepth 16384 in
set_option maxHeartbeats 4000000 in
/-- What the stage leaves in its result buffer, as the named function of what its operand buffers held. -/
theorem relu3_2_eq (V : Valuation τ sig (Elt F)) :
    after relu3_2 V (Proc.devRef .tc main_v296) = refRelu (V (Proc.devRef .tc main_v295)) := by
  after_results_simp
  rfl

/-- Layer 3: its 183 operations, the nine stages one after the other. -/
abbrev layer2 : List (HloOp τ sig (Elt F)) :=
  agg_2 ++ (lin1_2 ++ (bn1_2 ++ (relu1_2 ++ (lin2_2 ++ (bn2_2 ++ (relu2_2 ++ (bn3_2 ++ (relu3_2))))))))

/-- A buffer that no stage of the layer writes is unchanged by the layer. -/
theorem keep_layer2 (V : Valuation τ sig (Elt F)) (r : Ref sig .tc)
    (h0 : r ∉ agg_2_W) (h1 : r ∉ lin1_2_W) (h2 : r ∉ bn1_2_W) (h3 : r ∉ relu1_2_W) (h4 : r ∉ lin2_2_W) (h5 : r ∉ bn2_2_W) (h6 : r ∉ relu2_2_W) (h7 : r ∉ bn3_2_W) (h8 : r ∉ relu3_2_W) :
    after layer2 V (Proc.devRef .tc r) = V (Proc.devRef .tc r) := by
  simp only [layer2, StableHlo.after_append]
  rw [keep_relu3_2 _ r h8, keep_bn3_2 _ r h7, keep_relu2_2 _ r h6, keep_bn2_2 _ r h5, keep_lin2_2 _ r h4, keep_relu1_2 _ r h3, keep_bn1_2 _ r h2, keep_lin1_2 _ r h1, keep_agg_2 _ r h0]

set_option maxRecDepth 16384 in
/-- The layer's result buffer holds the layer function of what the previous features and the thirteen arguments held:
    each stage's result is read off its own equation, and what a later stage reads of an earlier buffer passes
    unchanged through the stages between. -/
theorem layer2_eq (V : Valuation τ sig (Elt F)) :
    after layer2 V (Proc.devRef .tc main_v296) =
      RefLayer 2 slices_S5x128_S1x128_2_0 slices_S5x128x128_S1x128x128_2_0_0 (V (Proc.devRef .tc main_v197)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  simp only [layer2, StableHlo.after_append]
  rw [relu3_2_eq,
    bn3_2_eq,
    relu2_2_eq,
    bn2_2_eq,
    lin2_2_eq,
    relu1_2_eq,
    bn1_2_eq,
    lin1_2_eq,
    agg_2_eq,
    keep_agg_2 _ main_arg3 (by decide),
    keep_agg_2 _ main_arg4 (by decide),
    keep_lin1_2 _ main_arg7 (by decide),
    keep_agg_2 _ main_arg7 (by decide),
    keep_lin1_2 _ main_arg8 (by decide),
    keep_agg_2 _ main_arg8 (by decide),
    keep_relu1_2 _ main_arg5 (by decide),
    keep_bn1_2 _ main_arg5 (by decide),
    keep_lin1_2 _ main_arg5 (by decide),
    keep_agg_2 _ main_arg5 (by decide),
    keep_relu1_2 _ main_arg6 (by decide),
    keep_bn1_2 _ main_arg6 (by decide),
    keep_lin1_2 _ main_arg6 (by decide),
    keep_agg_2 _ main_arg6 (by decide),
    keep_lin2_2 _ main_arg9 (by decide),
    keep_relu1_2 _ main_arg9 (by decide),
    keep_bn1_2 _ main_arg9 (by decide),
    keep_lin1_2 _ main_arg9 (by decide),
    keep_agg_2 _ main_arg9 (by decide),
    keep_lin2_2 _ main_arg10 (by decide),
    keep_relu1_2 _ main_arg10 (by decide),
    keep_bn1_2 _ main_arg10 (by decide),
    keep_lin1_2 _ main_arg10 (by decide),
    keep_agg_2 _ main_arg10 (by decide),
    keep_relu2_2 _ main_arg11 (by decide),
    keep_bn2_2 _ main_arg11 (by decide),
    keep_lin2_2 _ main_arg11 (by decide),
    keep_relu1_2 _ main_arg11 (by decide),
    keep_bn1_2 _ main_arg11 (by decide),
    keep_lin1_2 _ main_arg11 (by decide),
    keep_agg_2 _ main_arg11 (by decide),
    keep_relu2_2 _ main_arg12 (by decide),
    keep_bn2_2 _ main_arg12 (by decide),
    keep_lin2_2 _ main_arg12 (by decide),
    keep_relu1_2 _ main_arg12 (by decide),
    keep_bn1_2 _ main_arg12 (by decide),
    keep_lin1_2 _ main_arg12 (by decide),
    keep_agg_2 _ main_arg12 (by decide)]
  rfl

end Cert.ReferenceIdeal.RefRun

end
-- ==== Proof.RefLayer3.lean ====
/- Layer 4 of the reference network, stage by stage. Its 183 operations are cut into nine consecutive stages —
   neighbour sum and residual, linear map, batch normalisation, rectifier, linear map, batch normalisation, rectifier,
   batch normalisation, rectifier — and for each stage the contents of its result buffer after the stage's operations
   are the corresponding named function (`refRst`, `refLinear`, `refBN`, `refRelu`) of the contents of the buffers it
   reads, whatever the buffers held before: each operation writes its own buffer as its whole-array function of its
   operands and leaves every other buffer alone, so reading the result back through the list composes those functions
   in order. A stage writes only its own buffers, hence the features it received and the parameter arrays pass through
   it unchanged; chaining the nine equations gives the layer function `RefLayer 3` of the incoming features and the
   argument arrays (row 3 of each stacked parameter). -/
import proofs.«113410_j5944234737805_1_alg».proof.Proof.RefStages
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 4, the neighbour sum added to the features: its 14 operations in order. -/
abbrev agg_3 : List (HloOp τ sig (Elt F)) :=
  [ StableHlo.nullary main_c_43 (constantI S_ 32 0#32),
    StableHlo.unary main_c_43 main_v297 (broadcastInDim S800000 ![] bcast_S_S800000 : (⟨S_, .i32⟩ : BufTy).Contents (Elt F) → (⟨S800000, .i32⟩ : BufTy).Contents (Elt F)),
    StableHlo.binary main_arg1 main_v297 main_v298 (cmpi .slt : (⟨S800000, .i32⟩ : BufTy).Contents (Elt F) → (⟨S800000, .i32⟩ : BufTy).Contents (Elt F) → (⟨S800000, .i1⟩ : BufTy).Contents (Elt F)),
    StableHlo.nullary main_c_44 (constantI S_ 32 50000#32),
    StableHlo.unary main_c_44 main_v299 (broadcastInDim S800000 ![] bcast_S_S800000 : (⟨S_, .i32⟩ : BufTy).Contents (Elt F) → (⟨S800000, .i32⟩ : BufTy).Contents (Elt F)),
    StableHlo.binary main_arg1 main_v299 main_v300 (addi : (⟨S800000, .i32⟩ : BufTy).Contents (Elt F) → (⟨S800000, .i32⟩ : BufTy).Contents (Elt F) → (⟨S800000, .i32⟩ : BufTy).Contents (Elt F)),
    StableHlo.ternary main_v298 main_v300 main_arg1 main_v301 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v301 main_v302 (broadcastInDim S800000x1 ![0] bcast_S800000_S800000x1_0 : (⟨S800000, .i32⟩ : BufTy).Contents (Elt F) → (⟨S800000x1, .i32⟩ : BufTy).Contents (Elt F)),
    StableHlo.binary main_v296 main_v302 main_v303 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_45 (constant S_ .f32 0x00000000#32),
    StableHlo.unary main_cst_45 main_v304 (broadcastInDim S50000x128 ![] bcast_S_S50000x128 : (⟨S_, .f32⟩ : BufTy).Contents (Elt F) → (⟨S50000x128, .f32⟩ : BufTy).Contents (Elt F)),
    StableHlo.unary main_arg2 main_v305 (broadcastInDim S800000x1 ![0] bcast_S800000_S800000x1_0 : (⟨S800000, .i32⟩ : BufTy).Contents (Elt F) → (⟨S800000x1, .i32⟩ : BufTy).Contents (Elt F)),
    StableHlo.ternary main_v304 main_v305 main_v303 main_v306 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v296 main_v306 main_v307 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev agg_3_W : List (Ref sig .tc) :=
  [main_c_43, main_v297, main_v298, main_c_44, main_v299, main_v300, main_v301, main_v302,
    main_v303, main_cst_45, main_v304, main_v305, main_v306, main_v307]

set_option maxRecDepth 16384 in
set_option maxHeartbeats 4000000 in
theorem agg_3_writes : (agg_3 : List (HloOp τ sig (Elt F))).Forall fun op =>
    op.writes ⊆ (agg_3_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_agg_3 (V : Valuation τ sig (Elt F)) (r : Ref sig .tc) (h : r ∉ agg_3_W) :
    after agg_3 V (Proc.devRef .tc r) = V (Proc.devRef .tc r) :=
  after_of_writes_sub agg_3 V agg_3_writes h

set_option maxRecDepth 16384 in
set_option maxHeartbeats 4000000 in
/-- What the stage leaves in its result buffer, as the named function of what its operand buffers held. -/
theorem agg_3_eq (V : Valuation τ sig (Elt F)) :
    after agg_3 V (Proc.devRef .tc main_v307) = refRst (V (Proc.devRef .tc main_v296)) (V (Proc.devRef .tc main_arg1)) (V (Proc.devRef .tc main_arg2)) := by
  after_results_simp
  rfl

/-- Layer 4, the first linear map: its 8 operations in order. -/
abbrev lin1_3 : List (HloOp τ sig (Elt F)) :=
  [ StableHlo.unary main_arg3 main_v308 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v308 main_v309 rfl shapeCasts_S1x128x128_S128x128,
    StableHlo.binary main_v307 main_v309 main_v310 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v311 ((extractStridedSlice S1x128 ![3, 0] · slices_S5x128_S1x128_3_0) : (⟨S5x128, .f32⟩ : BufTy).Contents (Elt F) → (⟨S1x128, .f32⟩ : BufTy).Contents (Elt F)),
    StableHlo.reshape main_v311 main_v312 rfl shapeCasts_S1x128_S128,
    StableHlo.unary main_v312 main_v313 (broadcastInDim S1x128 ![1] bcast_S128_S1x128_1 : (⟨S128, .f32⟩ : BufTy).Contents (Elt F) → (⟨S1x128, .f32⟩ : BufTy).Contents (Elt F)),
    StableHlo.unary main_v313 main_v314 (broadcastInDim S50000x128 ![0, 1] bcast_S1x128_S50000x128_0_1 : (⟨S1x128, .f32⟩ : BufTy).Contents (Elt F) → (⟨S50000x128, .f32⟩ : BufTy).Contents (Elt F)),
    StableHlo.binary main_v310 main_v314 main_v315 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev lin1_3_W : List (Ref sig .tc) :=
  [main_v308, main_v309, main_v310, main_v311, main_v312, main_v313, main_v314, main_v315]

set_option maxRecDepth 16384 in
set_option maxHeartbeats 4000000 in
theorem lin1_3_writes : (lin1_3 : List (HloOp τ sig (Elt F))).Forall fun op =>
    op.writes ⊆ (lin1_3_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_lin1_3 (V : Valuation τ sig (Elt F)) (r : Ref sig .tc) (h : r ∉ lin1_3_W) :
    after lin1_3 V (Proc.devRef .tc r) = V (Proc.devRef .tc r) :=
  after_of_writes_sub lin1_3 V lin1_3_writes h

set_option maxRecDepth 16384 in
set_option maxHeartbeats 4000000 in
/-- What the stage leaves in its result buffer, as the named function of what its operand buffers held. -/
theorem lin1_3_eq (V : Valuation τ sig (Elt F)) :
    after lin1_3 V (Proc.devRef .tc main_v315) = refLinear (V (Proc.devRef .tc main_v307)) (refMat 3 slices_S5x128x128_S1x128x128_3_0_0 (V (Proc.devRef .tc main_arg3))) (refRow 3 slices_S5x128_S1x128_3_0 (V (Proc.devRef .tc main_arg4))) := by
  after_results_simp
  rfl

/-- Layer 4, the first batch normalisation: its 48 operations in order. -/
abbrev bn1_3 : List (HloOp τ sig (Elt F)) :=
  [ StableHlo.unary main_arg7 main_v316 ((extractStridedSlice S1x128 ![3, 0] · slices_S5x128_S1x128_3_0) : (⟨S5x128, .f32⟩ : BufTy).Contents (Elt F) → (⟨S1x128, .f32⟩ : BufTy).Contents (Elt F)),
    StableHlo.reshape main_v316 main_v317 rfl shapeCasts_S1x128_S128,
    StableHlo.unary main_arg8 main_v318 ((extractStridedSlice S1x128 ![3, 0] · slices_S5x128_S1x128_3_0) : (⟨S5x128, .f32⟩ : BufTy).Contents (Elt F) → (⟨S1x128, .f32⟩ : BufTy).Contents (Elt F)),
    StableHlo.reshape main_v318 main_v319 rfl shapeCasts_S1x128_S128,
    StableHlo.nullary main_cst_46 (constant S_ .f32 0x00000000#32),
    StableHlo.binary main_v315 main_cst_46 main_v320 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_47 (constant S_ .f32 0x47435000#32),
    StableHlo.unary main_cst_47 main_v321 (broadcastInDim S128 ![] bcast_S_S128 : (⟨S_, .f32⟩ : BufTy).Contents (Elt F) → (⟨S128, .f32⟩ : BufTy).Contents (Elt F)),
    StableHlo.binary main_v320 main_v321 main_v322 (Host.divf : (⟨S128, .f32⟩ : BufTy).Contents (Elt F) → (⟨S128, .f32⟩ : BufTy).Contents (Elt F) → (⟨S128, .f32⟩ : BufTy).Contents (Elt F)),
    StableHlo.nullary main_c_48 (constantI S_ 32 0#32),
    StableHlo.TRef.nullary main_call18.cst (constant S_ .f32 0x00000000#32),
    StableHlo.TRef.binary (StableHlo.TRef.of main_v315 : StableHlo.TRef sig ⟨S50000x128, .f32⟩) main_call18.cst main_call18.v0 (fun x v => Host.reduceAdd x v reducesTo_S50000x128_S128_d0 h_S_),
    StableHlo.TRef.unary main_call18.v0 main_call18.v1 (broadcastInDim S1x128 ![1] bcast_S128_S1x128_1),
    StableHlo.TRef.nullary main_call18.cst_0 (constant S_ .f32 0x47435000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S50000x128 ![0, 1] bcast_S1x128_S50000x128_0_1),
    StableHlo.TRef.binary (StableHlo.TRef.of main_v315 : StableHlo.TRef sig ⟨S50000x128, .f32⟩) main_call18.v4 main_call18.v5 subf,
    StableHlo.TRef.binary main_call18.v5 main_call18.v5 main_call18.v6 mulf,
    StableHlo.TRef.unary (StableHlo.TRef.of main_c_48 : StableHlo.TRef sig ⟨S_, .i32⟩) main_call18.v7 (sitofp .f32),
    StableHlo.TRef.nullary main_call18.cst_1 (constant S_ .f32 0x47435000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S50000x128_S128_d0 h_S_),
    StableHlo.TRef.unary main_call18.v8 main_call18.v10 (broadcastInDim S128 ![] bcast_S_S128),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S128 ![] bcast_S_S128),
    StableHlo.TRef.ternary main_call18.v12 main_call18.v11 main_call18.call0.v1 main_call18.call0.v2 (fun p a b => select (broadcastInDim S128 ![] bcast_S_S128 p) a b),
    StableHlo.unary main_v322 main_v324 (broadcastInDim S1x128 ![1] bcast_S128_S1x128_1 : (⟨S128, .f32⟩ : BufTy).Contents (Elt F) → (⟨S1x128, .f32⟩ : BufTy).Contents (Elt F)),
    StableHlo.unary main_v324 main_v325 (broadcastInDim S50000x128 ![0, 1] bcast_S1x128_S50000x128_0_1 : (⟨S1x128, .f32⟩ : BufTy).Contents (Elt F) → (⟨S50000x128, .f32⟩ : BufTy).Contents (Elt F)),
    StableHlo.binary main_v315 main_v325 main_v326 (subf : (⟨S50000x128, .f32⟩ : BufTy).Contents (Elt F) → (⟨S50000x128, .f32⟩ : BufTy).Contents (Elt F) → (⟨S50000x128, .f32⟩ : BufTy).Contents (Elt F)),
    StableHlo.unary main_v317 main_v327 (broadcastInDim S1x128 ![1] bcast_S128_S1x128_1 : (⟨S128, .f32⟩ : BufTy).Contents (Elt F) → (⟨S1x128, .f32⟩ : BufTy).Contents (Elt F)),
    StableHlo.unary main_v327 main_v328 (broadcastInDim S50000x128 ![0, 1] bcast_S1x128_S50000x128_0_1 : (⟨S1x128, .f32⟩ : BufTy).Contents (Elt F) → (⟨S50000x128, .f32⟩ : BufTy).Contents (Elt F)),
    StableHlo.binary main_v328 main_v326 main_v329 (mulf : (⟨S50000x128, .f32⟩ : BufTy).Contents (Elt F) → (⟨S50000x128, .f32⟩ : BufTy).Contents (Elt F) → (⟨S50000x128, .f32⟩ : BufTy).Contents (Elt F)),
    StableHlo.nullary main_cst_49 (constant S_ .f32 0x3727C5AC#32),
    StableHlo.unary main_cst_49 main_v330 (broadcastInDim S128 ![] bcast_S_S128 : (⟨S_, .f32⟩ : BufTy).Contents (Elt F) → (⟨S128, .f32⟩ : BufTy).Contents (Elt F)),
    StableHlo.binary main_v323 main_v330 main_v331 (addf : (⟨S128, .f32⟩ : BufTy).Contents (Elt F) → (⟨S128, .f32⟩ : BufTy).Contents (Elt F) → (⟨S128, .f32⟩ : BufTy).Contents (Elt F)),
    StableHlo.unary main_v331 main_v332 (Host.rsqrt : (⟨S128, .f32⟩ : BufTy).Contents (Elt F) → (⟨S128, .f32⟩ : BufTy).Contents (Elt F)),
    StableHlo.unary main_v332 main_v333 (broadcastInDim S1x128 ![1] bcast_S128_S1x128_1 : (⟨S128, .f32⟩ : BufTy).Contents (Elt F) → (⟨S1x128, .f32⟩ : BufTy).Contents (Elt F)),
    StableHlo.unary main_v333 main_v334 (broadcastInDim S50000x128 ![0, 1] bcast_S1x128_S50000x128_0_1 : (⟨S1x128, .f32⟩ : BufTy).Contents (Elt F) → (⟨S50000x128, .f32⟩ : BufTy).Contents (Elt F)),
    StableHlo.binary main_v329 main_v334 main_v335 (mulf : (⟨S50000x128, .f32⟩ : BufTy).Contents (Elt F) → (⟨S50000x128, .f32⟩ : BufTy).Contents (Elt F) → (⟨S50000x128, .f32⟩ : BufTy).Contents (Elt F)),
    StableHlo.unary main_v319 main_v336 (broadcastInDim S1x128 ![1] bcast_S128_S1x128_1 : (⟨S128, .f32⟩ : BufTy).Contents (Elt F) → (⟨S1x128, .f32⟩ : BufTy).Contents (Elt F)),
    StableHlo.unary main_v336 main_v337 (broadcastInDim S50000x128 ![0, 1] bcast_S1x128_S50000x128_0_1 : (⟨S1x128, .f32⟩ : BufTy).Contents (Elt F) → (⟨S50000x128, .f32⟩ : BufTy).Contents (Elt F)),
    StableHlo.binary main_v335 main_v337 main_v338 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev bn1_3_W : List (Ref sig .tc) :=
  [main_v316, main_v317, main_v318, main_v319, main_cst_46, main_v320, main_cst_47, main_v321,
    main_v322, main_c_48, main_call18_cst, main_call18_v0, main_call18_v1, main_call18_cst_0, main_call18_v2, main_call18_v3,
    main_call18_v4, main_call18_v5, main_call18_v6, main_call18_v7, main_call18_cst_1, main_call18_v8, main_call18_cst_2, main_call18_v9,
    main_call18_v10, main_call18_v11, main_call18_cst_3, main_call18_v12, main_call18_cst_4, main_call18_call0_v0, main_call18_call0_v1, main_v323,
    main_v324, main_v325, main_v326, main_v327, main_v328, main_v329, main_cst_49, main_v330,
    main_v331, main_v332, main_v333, main_v334, main_v335, main_v336, main_v337, main_v338]

set_option maxRecDepth 16384 in
set_option maxHeartbeats 4000000 in
theorem bn1_3_writes : (bn1_3 : List (HloOp τ sig (Elt F))).Forall fun op =>
    op.writes ⊆ (bn1_3_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_bn1_3 (V : Valuation τ sig (Elt F)) (r : Ref sig .tc) (h : r ∉ bn1_3_W) :
    after bn1_3 V (Proc.devRef .tc r) = V (Proc.devRef .tc r) :=
  after_of_writes_sub bn1_3 V bn1_3_writes h

set_option maxRecDepth 16384 in
set_option maxHeartbeats 4000000 in
/-- What the stage leaves in its result buffer, as the named function of what its operand buffers held. -/
theorem bn1_3_eq (V : Valuation τ sig (Elt F)) :
    after bn1_3 V (Proc.devRef .tc main_v338) = refBN (V (Proc.devRef .tc main_v315)) (refRow 3 slices_S5x128_S1x128_3_0 (V (Proc.devRef .tc main_arg7))) (refRow 3 slices_S5x128_S1x128_3_0 (V (Proc.devRef .tc main_arg8))) := by
  after_results_simp
  rfl

/-- Layer 4, the first rectifier: its 3 operations in order. -/
abbrev relu1_3 : List (HloOp τ sig (Elt F)) :=
  [ StableHlo.TRef.nullary main_call19.cst (constant S_ .f32 0x00000000#32),
    StableHlo.TRef.unary main_call19.cst main_call19.v0 (broadcastInDim S50000x128 ![] bcast_S_S50000x128),
    StableHlo.TRef.binary (StableHlo.TRef.of main_v338 : StableHlo.TRef sig ⟨S50000x128, .f32⟩) main_call19.v0 main_call19.v1 maximumf ]

/-- The buffers those operations write. -/
abbrev relu1_3_W : List (Ref sig .tc) :=
  [main_call19_cst, main_call19_v0, main_v339]

set_option maxRecDepth 16384 in
set_option maxHeartbeats 4000000 in
theorem relu1_3_writes : (relu1_3 : List (HloOp τ sig (Elt F))).Forall fun op =>
    op.writes ⊆ (relu1_3_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_relu1_3 (V : Valuation τ sig (Elt F)) (r : Ref sig .tc) (h : r ∉ relu1_3_W) :
    after relu1_3 V (Proc.devRef .tc r) = V (Proc.devRef .tc r) :=
  after_of_writes_sub relu1_3 V relu1_3_writes h

set_option maxRecDepth 16384 in
set_option maxHeartbeats 4000000 in
/-- What the stage leaves in its result buffer, as the named function of what its operand buffers held. -/
theorem relu1_3_eq (V : Valuation τ sig (Elt F)) :
    after relu1_3 V (Proc.devRef .tc main_v339) = refRelu (V (Proc.devRef .tc main_v338)) := by
  after_results_simp
  rfl

/-- Layer 4, the second linear map: its 8 operations in order. -/
abbrev lin2_3 : List (HloOp τ sig (Elt F)) :=
  [ StableHlo.unary main_arg5 main_v340 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v340 main_v341 rfl shapeCasts_S1x128x128_S128x128,
    StableHlo.binary main_v339 main_v341 main_v342 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v343 ((extractStridedSlice S1x128 ![3, 0] · slices_S5x128_S1x128_3_0) : (⟨S5x128, .f32⟩ : BufTy).Contents (Elt F) → (⟨S1x128, .f32⟩ : BufTy).Contents (Elt F)),
    StableHlo.reshape main_v343 main_v344 rfl shapeCasts_S1x128_S128,
    StableHlo.unary main_v344 main_v345 (broadcastInDim S1x128 ![1] bcast_S128_S1x128_1 : (⟨S128, .f32⟩ : BufTy).Contents (Elt F) → (⟨S1x128, .f32⟩ : BufTy).Contents (Elt F)),
    StableHlo.unary main_v345 main_v346 (broadcastInDim S50000x128 ![0, 1] bcast_S1x128_S50000x128_0_1 : (⟨S1x128, .f32⟩ : BufTy).Contents (Elt F) → (⟨S50000x128, .f32⟩ : BufTy).Contents (Elt F)),
    StableHlo.binary main_v342 main_v346 main_v347 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev lin2_3_W : List (Ref sig .tc) :=
  [main_v340, main_v341, main_v342, main_v343, main_v344, main_v345, main_v346, main_v347]

set_option maxRecDepth 16384 in
set_option maxHeartbeats 4000000 in
theorem lin2_3_writes : (lin2_3 : List (HloOp τ sig (Elt F))).Forall fun op =>
    op.writes ⊆ (lin2_3_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_lin2_3 (V : Valuation τ sig (Elt F)) (r : Ref sig .tc) (h : r ∉ lin2_3_W) :
    after lin2_3 V (Proc.devRef .tc r) = V (Proc.devRef .tc r) :=
  after_of_writes_sub lin2_3 V lin2_3_writes h

set_option maxRecDepth 16384 in
set_option maxHeartbeats 4000000 in
/-- What the stage leaves in its result buffer, as the named function of what its operand buffers held. -/
theorem lin2_3_eq (V : Valuation τ sig (Elt F)) :
    after lin2_3 V (Proc.devRef .tc main_v347) = refLinear (V (Proc.devRef .tc main_v339)) (refMat 3 slices_S5x128x128_S1x128x128_3_0_0 (V (Proc.devRef .tc main_arg5))) (refRow 3 slices_S5x128_S1x128_3_0 (V (Proc.devRef .tc main_arg6))) := by
  after_results_simp
  rfl

/-- Layer 4, the second batch normalisation: its 48 operations in order. -/
abbrev bn2_3 : List (HloOp τ sig (Elt F)) :=
  [ StableHlo.unary main_arg9 main_v348 ((extractStridedSlice S1x128 ![3, 0] · slices_S5x128_S1x128_3_0) : (⟨S5x128, .f32⟩ : BufTy).Contents (Elt F) → (⟨S1x128, .f32⟩ : BufTy).Contents (Elt F)),
    StableHlo.reshape main_v348 main_v349 rfl shapeCasts_S1x128_S128,
    StableHlo.unary main_arg10 main_v350 ((extractStridedSlice S1x128 ![3, 0] · slices_S5x128_S1x128_3_0) : (⟨S5x128, .f32⟩ : BufTy).Contents (Elt F) → (⟨S1x128, .f32⟩ : BufTy).Contents (Elt F)),
    StableHlo.reshape main_v350 main_v351 rfl shapeCasts_S1x128_S128,
    StableHlo.nullary main_cst_50 (constant S_ .f32 0x00000000#32),
    StableHlo.binary main_v347 main_cst_50 main_v352 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_51 (constant S_ .f32 0x47435000#32),
    StableHlo.unary main_cst_51 main_v353 (broadcastInDim S128 ![] bcast_S_S128 : (⟨S_, .f32⟩ : BufTy).Contents (Elt F) → (⟨S128, .f32⟩ : BufTy).Contents (Elt F)),
    StableHlo.binary main_v352 main_v353 main_v354 (Host.divf : (⟨S128, .f32⟩ : BufTy).Contents (Elt F) → (⟨S128, .f32⟩ : BufTy).Contents (Elt F) → (⟨S128, .f32⟩ : BufTy).Contents (Elt F)),
    StableHlo.nullary main_c_52 (constantI S_ 32 0#32),
    StableHlo.TRef.nullary main_call20.cst (constant S_ .f32 0x00000000#32),
    StableHlo.TRef.binary (StableHlo.TRef.of main_v347 : StableHlo.TRef sig ⟨S50000x128, .f32⟩) main_call20.cst main_call20.v0 (fun x v => Host.reduceAdd x v reducesTo_S50000x128_S128_d0 h_S_),
    StableHlo.TRef.unary main_call20.v0 main_call20.v1 (broadcastInDim S1x128 ![1] bcast_S128_S1x128_1),
    StableHlo.TRef.nullary main_call20.cst_0 (constant S_ .f32 0x47435000#32),
    StableHlo.TRef.unary main_call20.cst_0 main_call20.v2 (broadcastInDim S1x128 ![] bcast_S_S1x128),
    StableHlo.TRef.binary main_call20.v1 main_call20.v2 main_call20.v3 Host.divf,
    StableHlo.TRef.unary main_call20.v3 main_call20.v4 (broadcastInDim S50000x128 ![0, 1] bcast_S1x128_S50000x128_0_1),
    StableHlo.TRef.binary (StableHlo.TRef.of main_v347 : StableHlo.TRef sig ⟨S50000x128, .f32⟩) main_call20.v4 main_call20.v5 subf,
    StableHlo.TRef.binary main_call20.v5 main_call20.v5 main_call20.v6 mulf,
    StableHlo.TRef.unary (StableHlo.TRef.of main_c_52 : StableHlo.TRef sig ⟨S_, .i32⟩) main_call20.v7 (sitofp .f32),
    StableHlo.TRef.nullary main_call20.cst_1 (constant S_ .f32 0x47435000#32),
    StableHlo.TRef.binary main_call20.cst_1 main_call20.v7 main_call20.v8 subf,
    StableHlo.TRef.nullary main_call20.cst_2 (constant S_ .f32 0x00000000#32),
    StableHlo.TRef.binary main_call20.v6 main_call20.cst_2 main_call20.v9 (fun x v => Host.reduceAdd x v reducesTo_S50000x128_S128_d0 h_S_),
    StableHlo.TRef.unary main_call20.v8 main_call20.v10 (broadcastInDim S128 ![] bcast_S_S128),
    StableHlo.TRef.binary main_call20.v9 main_call20.v10 main_call20.v11 Host.divf,
    StableHlo.TRef.nullary main_call20.cst_3 (constant S_ .f32 0x00000000#32),
    StableHlo.TRef.binary main_call20.v8 main_call20.cst_3 main_call20.v12 (cmpf .ogt),
    StableHlo.TRef.nullary main_call20.cst_4 (constant S_ .f32 0x7FC00000#32),
    StableHlo.TRef.unary main_call20.cst_4 main_call20.call0.v0 id,
    StableHlo.TRef.unary main_call20.call0.v0 main_call20.call0.v1 (broadcastInDim S128 ![] bcast_S_S128),
    StableHlo.TRef.ternary main_call20.v12 main_call20.v11 main_call20.call0.v1 main_call20.call0.v2 (fun p a b => select (broadcastInDim S128 ![] bcast_S_S128 p) a b),
    StableHlo.unary main_v354 main_v356 (broadcastInDim S1x128 ![1] bcast_S128_S1x128_1 : (⟨S128, .f32⟩ : BufTy).Contents (Elt F) → (⟨S1x128, .f32⟩ : BufTy).Contents (Elt F)),
    StableHlo.unary main_v356 main_v357 (broadcastInDim S50000x128 ![0, 1] bcast_S1x128_S50000x128_0_1 : (⟨S1x128, .f32⟩ : BufTy).Contents (Elt F) → (⟨S50000x128, .f32⟩ : BufTy).Contents (Elt F)),
    StableHlo.binary main_v347 main_v357 main_v358 (subf : (⟨S50000x128, .f32⟩ : BufTy).Contents (Elt F) → (⟨S50000x128, .f32⟩ : BufTy).Contents (Elt F) → (⟨S50000x128, .f32⟩ : BufTy).Contents (Elt F)),
    StableHlo.unary main_v349 main_v359 (broadcastInDim S1x128 ![1] bcast_S128_S1x128_1 : (⟨S128, .f32⟩ : BufTy).Contents (Elt F) → (⟨S1x128, .f32⟩ : BufTy).Contents (Elt F)),
    StableHlo.unary main_v359 main_v360 (broadcastInDim S50000x128 ![0, 1] bcast_S1x128_S50000x128_0_1 : (⟨S1x128, .f32⟩ : BufTy).Contents (Elt F) → (⟨S50000x128, .f32⟩ : BufTy).Contents (Elt F)),
    StableHlo.binary main_v360 main_v358 main_v361 (mulf : (⟨S50000x128, .f32⟩ : BufTy).Contents (Elt F) → (⟨S50000x128, .f32⟩ : BufTy).Contents (Elt F) → (⟨S50000x128, .f32⟩ : BufTy).Contents (Elt F)),
    StableHlo.nullary main_cst_53 (constant S_ .f32 0x3727C5AC#32),
    StableHlo.unary main_cst_53 main_v362 (broadcastInDim S128 ![] bcast_S_S128 : (⟨S_, .f32⟩ : BufTy).Contents (Elt F) → (⟨S128, .f32⟩ : BufTy).Contents (Elt F)),
    StableHlo.binary main_v355 main_v362 main_v363 (addf : (⟨S128, .f32⟩ : BufTy).Contents (Elt F) → (⟨S128, .f32⟩ : BufTy).Contents (Elt F) → (⟨S128, .f32⟩ : BufTy).Contents (Elt F)),
    StableHlo.unary main_v363 main_v364 (Host.rsqrt : (⟨S128, .f32⟩ : BufTy).Contents (Elt F) → (⟨S128, .f32⟩ : BufTy).Contents (Elt F)),
    StableHlo.unary main_v364 main_v365 (broadcastInDim S1x128 ![1] bcast_S128_S1x128_1 : (⟨S128, .f32⟩ : BufTy).Contents (Elt F) → (⟨S1x128, .f32⟩ : BufTy).Contents (Elt F)),
    StableHlo.unary main_v365 main_v366 (broadcastInDim S50000x128 ![0, 1] bcast_S1x128_S50000x128_0_1 : (⟨S1x128, .f32⟩ : BufTy).Contents (Elt F) → (⟨S50000x128, .f32⟩ : BufTy).Contents (Elt F)),
    StableHlo.binary main_v361 main_v366 main_v367 (mulf : (⟨S50000x128, .f32⟩ : BufTy).Contents (Elt F) → (⟨S50000x128, .f32⟩ : BufTy).Contents (Elt F) → (⟨S50000x128, .f32⟩ : BufTy).Contents (Elt F)),
    StableHlo.unary main_v351 main_v368 (broadcastInDim S1x128 ![1] bcast_S128_S1x128_1 : (⟨S128, .f32⟩ : BufTy).Contents (Elt F) → (⟨S1x128, .f32⟩ : BufTy).Contents (Elt F)),
    StableHlo.unary main_v368 main_v369 (broadcastInDim S50000x128 ![0, 1] bcast_S1x128_S50000x128_0_1 : (⟨S1x128, .f32⟩ : BufTy).Contents (Elt F) → (⟨S50000x128, .f32⟩ : BufTy).Contents (Elt F)),
    StableHlo.binary main_v367 main_v369 main_v370 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev bn2_3_W : List (Ref sig .tc) :=
  [main_v348, main_v349, main_v350, main_v351, main_cst_50, main_v352, main_cst_51, main_v353,
    main_v354, main_c_52, main_call20_cst, main_call20_v0, main_call20_v1, main_call20_cst_0, main_call20_v2, main_call20_v3,
    main_call20_v4, main_call20_v5, main_call20_v6, main_call20_v7, main_call20_cst_1, main_call20_v8, main_call20_cst_2, main_call20_v9,
    main_call20_v10, main_call20_v11, main_call20_cst_3, main_call20_v12, main_call20_cst_4, main_call20_call0_v0, main_call20_call0_v1, main_v355,
    main_v356, main_v357, main_v358, main_v359, main_v360, main_v361, main_cst_53, main_v362,
    main_v363, main_v364, main_v365, main_v366, main_v367, main_v368, main_v369, main_v370]

set_option maxRecDepth 16384 in
set_option maxHeartbeats 4000000 in
theorem bn2_3_writes : (bn2_3 : List (HloOp τ sig (Elt F))).Forall fun op =>
    op.writes ⊆ (bn2_3_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_bn2_3 (V : Valuation τ sig (Elt F)) (r : Ref sig .tc) (h : r ∉ bn2_3_W) :
    after bn2_3 V (Proc.devRef .tc r) = V (Proc.devRef .tc r) :=
  after_of_writes_sub bn2_3 V bn2_3_writes h

set_option maxRecDepth 16384 in
set_option maxHeartbeats 4000000 in
/-- What the stage leaves in its result buffer, as the named function of what its operand buffers held. -/
theorem bn2_3_eq (V : Valuation τ sig (Elt F)) :
    after bn2_3 V (Proc.devRef .tc main_v370) = refBN (V (Proc.devRef .tc main_v347)) (refRow 3 slices_S5x128_S1x128_3_0 (V (Proc.devRef .tc main_arg9))) (refRow 3 slices_S5x128_S1x128_3_0 (V (Proc.devRef .tc main_arg10))) := by
  after_results_simp
  rfl

/-- Layer 4, the second rectifier: its 3 operations in order. -/
abbrev relu2_3 : List (HloOp τ sig (Elt F)) :=
  [ StableHlo.TRef.nullary main_call21.cst (constant S_ .f32 0x00000000#32),
    StableHlo.TRef.unary main_call21.cst main_call21.v0 (broadcastInDim S50000x128 ![] bcast_S_S50000x128),
    StableHlo.TRef.binary (StableHlo.TRef.of main_v370 : StableHlo.TRef sig ⟨S50000x128, .f32⟩) main_call21.v0 main_call21.v1 maximumf ]

/-- The buffers those operations write. -/
abbrev relu2_3_W : List (Ref sig .tc) :=
  [main_call21_cst, main_call21_v0, main_v371]

set_option maxRecDepth 16384 in
set_option maxHeartbeats 4000000 in
theorem relu2_3_writes : (relu2_3 : List (HloOp τ sig (Elt F))).Forall fun op =>
    op.writes ⊆ (relu2_3_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_relu2_3 (V : Valuation τ sig (Elt F)) (r : Ref sig .tc) (h : r ∉ relu2_3_W) :
    after relu2_3 V (Proc.devRef .tc r) = V (Proc.devRef .tc r) :=
  after_of_writes_sub relu2_3 V relu2_3_writes h

set_option maxRecDepth 16384 in
set_option maxHeartbeats 4000000 in
/-- What the stage leaves in its result buffer, as the named function of what its operand buffers held. -/
theorem relu2_3_eq (V : Valuation τ sig (Elt F)) :
    after relu2_3 V (Proc.devRef .tc main_v371) = refRelu (V (Proc.devRef .tc main_v370)) := by
  after_results_simp
  rfl

/-- Layer 4, the third batch normalisation: its 48 operations in order. -/
abbrev bn3_3 : List (HloOp τ sig (Elt F)) :=
  [ StableHlo.unary main_arg11 main_v372 ((extractStridedSlice S1x128 ![3, 0] · slices_S5x128_S1x128_3_0) : (⟨S5x128, .f32⟩ : BufTy).Contents (Elt F) → (⟨S1x128, .f32⟩ : BufTy).Contents (Elt F)),
    StableHlo.reshape main_v372 main_v373 rfl shapeCasts_S1x128_S128,
    StableHlo.unary main_arg12 main_v374 ((extractStridedSlice S1x128 ![3, 0] · slices_S5x128_S1x128_3_0) : (⟨S5x128, .f32⟩ : BufTy).Contents (Elt F) → (⟨S1x128, .f32⟩ : BufTy).Contents (Elt F)),
    StableHlo.reshape main_v374 main_v375 rfl shapeCasts_S1x128_S128,
    StableHlo.nullary main_cst_54 (constant S_ .f32 0x00000000#32),
    StableHlo.binary main_v371 main_cst_54 main_v376 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_55 (constant S_ .f32 0x47435000#32),
    StableHlo.unary main_cst_55 main_v377 (broadcastInDim S128 ![] bcast_S_S128 : (⟨S_, .f32⟩ : BufTy).Contents (Elt F) → (⟨S128, .f32⟩ : BufTy).Contents (Elt F)),
    StableHlo.binary main_v376 main_v377 main_v378 (Host.divf : (⟨S128, .f32⟩ : BufTy).Contents (Elt F) → (⟨S128, .f32⟩ : BufTy).Contents (Elt F) → (⟨S128, .f32⟩ : BufTy).Contents (Elt F)),
    StableHlo.nullary main_c_56 (constantI S_ 32 0#32),
    StableHlo.TRef.nullary main_call22.cst (constant S_ .f32 0x00000000#32),
    StableHlo.TRef.binary (StableHlo.TRef.of main_v371 : StableHlo.TRef sig ⟨S50000x128, .f32⟩) main_call22.cst main_call22.v0 (fun x v => Host.reduceAdd x v reducesTo_S50000x128_S128_d0 h_S_),
    StableHlo.TRef.unary main_call22.v0 main_call22.v1 (broadcastInDim S1x128 ![1] bcast_S128_S1x128_1),
    StableHlo.TRef.nullary main_call22.cst_0 (constant S_ .f32 0x47435000#32),
    StableHlo.TRef.unary main_call22.cst_0 main_call22.v2 (broadcastInDim S1x128 ![] bcast_S_S1x128),
    StableHlo.TRef.binary main_call22.v1 main_call22.v2 main_call22.v3 Host.divf,
    StableHlo.TRef.unary main_call22.v3 main_call22.v4 (broadcastInDim S50000x128 ![0, 1] bcast_S1x128_S50000x128_0_1),
    StableHlo.TRef.binary (StableHlo.TRef.of main_v371 : StableHlo.TRef sig ⟨S50000x128, .f32⟩) main_call22.v4 main_call22.v5 subf,
    StableHlo.TRef.binary main_call22.v5 main_call22.v5 main_call22.v6 mulf,
    StableHlo.TRef.unary (StableHlo.TRef.of main_c_56 : StableHlo.TRef sig ⟨S_, .i32⟩) main_call22.v7 (sitofp .f32),
    StableHlo.TRef.nullary main_call22.cst_1 (constant S_ .f32 0x47435000#32),
    StableHlo.TRef.binary main_call22.cst_1 main_call22.v7 main_call22.v8 subf,
    StableHlo.TRef.nullary main_call22.cst_2 (constant S_ .f32 0x00000000#32),
    StableHlo.TRef.binary main_call22.v6 main_call22.cst_2 main_call22.v9 (fun x v => Host.reduceAdd x v reducesTo_S50000x128_S128_d0 h_S_),
    StableHlo.TRef.unary main_call22.v8 main_call22.v10 (broadcastInDim S128 ![] bcast_S_S128),
    StableHlo.TRef.binary main_call22.v9 main_call22.v10 main_call22.v11 Host.divf,
    StableHlo.TRef.nullary main_call22.cst_3 (constant S_ .f32 0x00000000#32),
    StableHlo.TRef.binary main_call22.v8 main_call22.cst_3 main_call22.v12 (cmpf .ogt),
    StableHlo.TRef.nullary main_call22.cst_4 (constant S_ .f32 0x7FC00000#32),
    StableHlo.TRef.unary main_call22.cst_4 main_call22.call0.v0 id,
    StableHlo.TRef.unary main_call22.call0.v0 main_call22.call0.v1 (broadcastInDim S128 ![] bcast_S_S128),
    StableHlo.TRef.ternary main_call22.v12 main_call22.v11 main_call22.call0.v1 main_call22.call0.v2 (fun p a b => select (broadcastInDim S128 ![] bcast_S_S128 p) a b),
    StableHlo.unary main_v378 main_v380 (broadcastInDim S1x128 ![1] bcast_S128_S1x128_1 : (⟨S128, .f32⟩ : BufTy).Contents (Elt F) → (⟨S1x128, .f32⟩ : BufTy).Contents (Elt F)),
    StableHlo.unary main_v380 main_v381 (broadcastInDim S50000x128 ![0, 1] bcast_S1x128_S50000x128_0_1 : (⟨S1x128, .f32⟩ : BufTy).Contents (Elt F) → (⟨S50000x128, .f32⟩ : BufTy).Contents (Elt F)),
    StableHlo.binary main_v371 main_v381 main_v382 (subf : (⟨S50000x128, .f32⟩ : BufTy).Contents (Elt F) → (⟨S50000x128, .f32⟩ : BufTy).Contents (Elt F) → (⟨S50000x128, .f32⟩ : BufTy).Contents (Elt F)),
    StableHlo.unary main_v373 main_v383 (broadcastInDim S1x128 ![1] bcast_S128_S1x128_1 : (⟨S128, .f32⟩ : BufTy).Contents (Elt F) → (⟨S1x128, .f32⟩ : BufTy).Contents (Elt F)),
    StableHlo.unary main_v383 main_v384 (broadcastInDim S50000x128 ![0, 1] bcast_S1x128_S50000x128_0_1 : (⟨S1x128, .f32⟩ : BufTy).Contents (Elt F) → (⟨S50000x128, .f32⟩ : BufTy).Contents (Elt F)),
    StableHlo.binary main_v384 main_v382 main_v385 (mulf : (⟨S50000x128, .f32⟩ : BufTy).Contents (Elt F) → (⟨S50000x128, .f32⟩ : BufTy).Contents (Elt F) → (⟨S50000x128, .f32⟩ : BufTy).Contents (Elt F)),
    StableHlo.nullary main_cst_57 (constant S_ .f32 0x3727C5AC#32),
    StableHlo.unary main_cst_57 main_v386 (broadcastInDim S128 ![] bcast_S_S128 : (⟨S_, .f32⟩ : BufTy).Contents (Elt F) → (⟨S128, .f32⟩ : BufTy).Contents (Elt F)),
    StableHlo.binary main_v379 main_v386 main_v387 (addf : (⟨S128, .f32⟩ : BufTy).Contents (Elt F) → (⟨S128, .f32⟩ : BufTy).Contents (Elt F) → (⟨S128, .f32⟩ : BufTy).Contents (Elt F)),
    StableHlo.unary main_v387 main_v388 (Host.rsqrt : (⟨S128, .f32⟩ : BufTy).Contents (Elt F) → (⟨S128, .f32⟩ : BufTy).Contents (Elt F)),
    StableHlo.unary main_v388 main_v389 (broadcastInDim S1x128 ![1] bcast_S128_S1x128_1 : (⟨S128, .f32⟩ : BufTy).Contents (Elt F) → (⟨S1x128, .f32⟩ : BufTy).Contents (Elt F)),
    StableHlo.unary main_v389 main_v390 (broadcastInDim S50000x128 ![0, 1] bcast_S1x128_S50000x128_0_1 : (⟨S1x128, .f32⟩ : BufTy).Contents (Elt F) → (⟨S50000x128, .f32⟩ : BufTy).Contents (Elt F)),
    StableHlo.binary main_v385 main_v390 main_v391 (mulf : (⟨S50000x128, .f32⟩ : BufTy).Contents (Elt F) → (⟨S50000x128, .f32⟩ : BufTy).Contents (Elt F) → (⟨S50000x128, .f32⟩ : BufTy).Contents (Elt F)),
    StableHlo.unary main_v375 main_v392 (broadcastInDim S1x128 ![1] bcast_S128_S1x128_1 : (⟨S128, .f32⟩ : BufTy).Contents (Elt F) → (⟨S1x128, .f32⟩ : BufTy).Contents (Elt F)),
    StableHlo.unary main_v392 main_v393 (broadcastInDim S50000x128 ![0, 1] bcast_S1x128_S50000x128_0_1 : (⟨S1x128, .f32⟩ : BufTy).Contents (Elt F) → (⟨S50000x128, .f32⟩ : BufTy).Contents (Elt F)),
    StableHlo.binary main_v391 main_v393 main_v394 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev bn3_3_W : List (Ref sig .tc) :=
  [main_v372, main_v373, main_v374, main_v375, main_cst_54, main_v376, main_cst_55, main_v377,
    main_v378, main_c_56, main_call22_cst, main_call22_v0, main_call22_v1, main_call22_cst_0, main_call22_v2, main_call22_v3,
    main_call22_v4, main_call22_v5, main_call22_v6, main_call22_v7, main_call22_cst_1, main_call22_v8, main_call22_cst_2, main_call22_v9,
    main_call22_v10, main_call22_v11, main_call22_cst_3, main_call22_v12, main_call22_cst_4, main_call22_call0_v0, main_call22_call0_v1, main_v379,
    main_v380, main_v381, main_v382, main_v383, main_v384, main_v385, main_cst_57, main_v386,
    main_v387, main_v388, main_v389, main_v390, main_v391, main_v392, main_v393, main_v394]

set_option maxRecDepth 16384 in
set_option maxHeartbeats 4000000 in
theorem bn3_3_writes : (bn3_3 : List (HloOp τ sig (Elt F))).Forall fun op =>
    op.writes ⊆ (bn3_3_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_bn3_3 (V : Valuation τ sig (Elt F)) (r : Ref sig .tc) (h : r ∉ bn3_3_W) :
    after bn3_3 V (Proc.devRef .tc r) = V (Proc.devRef .tc r) :=
  after_of_writes_sub bn3_3 V bn3_3_writes h

set_option maxRecDepth 16384 in
set_option maxHeartbeats 4000000 in
/-- What the stage leaves in its result buffer, as the named function of what its operand buffers held. -/
theorem bn3_3_eq (V : Valuation τ sig (Elt F)) :
    after bn3_3 V (Proc.devRef .tc main_v394) = refBN (V (Proc.devRef .tc main_v371)) (refRow 3 slices_S5x128_S1x128_3_0 (V (Proc.devRef .tc main_arg11))) (refRow 3 slices_S5x128_S1x128_3_0 (V (Proc.devRef .tc main_arg12))) := by
  after_results_simp
  rfl

/-- Layer 4, the third rectifier: its 3 operations in order. -/
abbrev relu3_3 : List (HloOp τ sig (Elt F)) :=
  [ StableHlo.TRef.nullary main_call23.cst (constant S_ .f32 0x00000000#32),
    StableHlo.TRef.unary main_call23.cst main_call23.v0 (broadcastInDim S50000x128 ![] bcast_S_S50000x128),
    StableHlo.TRef.binary (StableHlo.TRef.of main_v394 : StableHlo.TRef sig ⟨S50000x128, .f32⟩) main_call23.v0 main_call23.v1 maximumf ]

/-- The buffers those operations write. -/
abbrev relu3_3_W : List (Ref sig .tc) :=
  [main_call23_cst, main_call23_v0, main_v395]

set_option maxRecDepth 16384 in
set_option maxHeartbeats 4000000 in
theorem relu3_3_writes : (relu3_3 : List (HloOp τ sig (Elt F))).Forall fun op =>
    op.writes ⊆ (relu3_3_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_relu3_3 (V : Valuation τ sig (Elt F)) (r : Ref sig .tc) (h : r ∉ relu3_3_W) :
    after relu3_3 V (Proc.devRef .tc r) = V (Proc.devRef .tc r) :=
  after_of_writes_sub relu3_3 V relu3_3_writes h

set_option maxRecDepth 16384 in
set_option maxHeartbeats 4000000 in
/-- What the stage leaves in its result buffer, as the named function of what its operand buffers held. -/
theorem relu3_3_eq (V : Valuation τ sig (Elt F)) :
    after relu3_3 V (Proc.devRef .tc main_v395) = refRelu (V (Proc.devRef .tc main_v394)) := by
  after_results_simp
  rfl

/-- Layer 4: its 183 operations, the nine stages one after the other. -/
abbrev layer3 : List (HloOp τ sig (Elt F)) :=
  agg_3 ++ (lin1_3 ++ (bn1_3 ++ (relu1_3 ++ (lin2_3 ++ (bn2_3 ++ (relu2_3 ++ (bn3_3 ++ (relu3_3))))))))

/-- A buffer that no stage of the layer writes is unchanged by the layer. -/
theorem keep_layer3 (V : Valuation τ sig (Elt F)) (r : Ref sig .tc)
    (h0 : r ∉ agg_3_W) (h1 : r ∉ lin1_3_W) (h2 : r ∉ bn1_3_W) (h3 : r ∉ relu1_3_W) (h4 : r ∉ lin2_3_W) (h5 : r ∉ bn2_3_W) (h6 : r ∉ relu2_3_W) (h7 : r ∉ bn3_3_W) (h8 : r ∉ relu3_3_W) :
    after layer3 V (Proc.devRef .tc r) = V (Proc.devRef .tc r) := by
  simp only [layer3, StableHlo.after_append]
  rw [keep_relu3_3 _ r h8, keep_bn3_3 _ r h7, keep_relu2_3 _ r h6, keep_bn2_3 _ r h5, keep_lin2_3 _ r h4, keep_relu1_3 _ r h3, keep_bn1_3 _ r h2, keep_lin1_3 _ r h1, keep_agg_3 _ r h0]

set_option maxRecDepth 16384 in
/-- The layer's result buffer holds the layer function of what the previous features and the thirteen arguments held:
    each stage's result is read off its own equation, and what a later stage reads of an earlier buffer passes
    unchanged through the stages between. -/
theorem layer3_eq (V : Valuation τ sig (Elt F)) :
    after layer3 V (Proc.devRef .tc main_v395) =
      RefLayer 3 slices_S5x128_S1x128_3_0 slices_S5x128x128_S1x128x128_3_0_0 (V (Proc.devRef .tc main_v296)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  simp only [layer3, StableHlo.after_append]
  rw [relu3_3_eq,
    bn3_3_eq,
    relu2_3_eq,
    bn2_3_eq,
    lin2_3_eq,
    relu1_3_eq,
    bn1_3_eq,
    lin1_3_eq,
    agg_3_eq,
    keep_agg_3 _ main_arg3 (by decide),
    keep_agg_3 _ main_arg4 (by decide),
    keep_lin1_3 _ main_arg7 (by decide),
    keep_agg_3 _ main_arg7 (by decide),
    keep_lin1_3 _ main_arg8 (by decide),
    keep_agg_3 _ main_arg8 (by decide),
    keep_relu1_3 _ main_arg5 (by decide),
    keep_bn1_3 _ main_arg5 (by decide),
    keep_lin1_3 _ main_arg5 (by decide),
    keep_agg_3 _ main_arg5 (by decide),
    keep_relu1_3 _ main_arg6 (by decide),
    keep_bn1_3 _ main_arg6 (by decide),
    keep_lin1_3 _ main_arg6 (by decide),
    keep_agg_3 _ main_arg6 (by decide),
    keep_lin2_3 _ main_arg9 (by decide),
    keep_relu1_3 _ main_arg9 (by decide),
    keep_bn1_3 _ main_arg9 (by decide),
    keep_lin1_3 _ main_arg9 (by decide),
    keep_agg_3 _ main_arg9 (by decide),
    keep_lin2_3 _ main_arg10 (by decide),
    keep_relu1_3 _ main_arg10 (by decide),
    keep_bn1_3 _ main_arg10 (by decide),
    keep_lin1_3 _ main_arg10 (by decide),
    keep_agg_3 _ main_arg10 (by decide),
    keep_relu2_3 _ main_arg11 (by decide),
    keep_bn2_3 _ main_arg11 (by decide),
    keep_lin2_3 _ main_arg11 (by decide),
    keep_relu1_3 _ main_arg11 (by decide),
    keep_bn1_3 _ main_arg11 (by decide),
    keep_lin1_3 _ main_arg11 (by decide),
    keep_agg_3 _ main_arg11 (by decide),
    keep_relu2_3 _ main_arg12 (by decide),
    keep_bn2_3 _ main_arg12 (by decide),
    keep_lin2_3 _ main_arg12 (by decide),
    keep_relu1_3 _ main_arg12 (by decide),
    keep_bn1_3 _ main_arg12 (by decide),
    keep_lin1_3 _ main_arg12 (by decide),
    keep_agg_3 _ main_arg12 (by decide)]
  rfl

end Cert.ReferenceIdeal.RefRun

end
-- ==== Proof.RefLayer4.lean ====
/- Layer 5 of the reference network, stage by stage. Its 183 operations are cut into nine consecutive stages —
   neighbour sum and residual, linear map, batch normalisation, rectifier, linear map, batch normalisation, rectifier,
   batch normalisation, rectifier — and for each stage the contents of its result buffer after the stage's operations
   are the corresponding named function (`refRst`, `refLinear`, `refBN`, `refRelu`) of the contents of the buffers it
   reads, whatever the buffers held before: each operation writes its own buffer as its whole-array function of its
   operands and leaves every other buffer alone, so reading the result back through the list composes those functions
   in order. A stage writes only its own buffers, hence the features it received and the parameter arrays pass through
   it unchanged; chaining the nine equations gives the layer function `RefLayer 4` of the incoming features and the
   argument arrays (row 4 of each stacked parameter). -/
import proofs.«113410_j5944234737805_1_alg».proof.Proof.RefStages
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 5, the neighbour sum added to the features: its 14 operations in order. -/
abbrev agg_4 : List (HloOp τ sig (Elt F)) :=
  [ StableHlo.nullary main_c_58 (constantI S_ 32 0#32),
    StableHlo.unary main_c_58 main_v396 (broadcastInDim S800000 ![] bcast_S_S800000 : (⟨S_, .i32⟩ : BufTy).Contents (Elt F) → (⟨S800000, .i32⟩ : BufTy).Contents (Elt F)),
    StableHlo.binary main_arg1 main_v396 main_v397 (cmpi .slt : (⟨S800000, .i32⟩ : BufTy).Contents (Elt F) → (⟨S800000, .i32⟩ : BufTy).Contents (Elt F) → (⟨S800000, .i1⟩ : BufTy).Contents (Elt F)),
    StableHlo.nullary main_c_59 (constantI S_ 32 50000#32),
    StableHlo.unary main_c_59 main_v398 (broadcastInDim S800000 ![] bcast_S_S800000 : (⟨S_, .i32⟩ : BufTy).Contents (Elt F) → (⟨S800000, .i32⟩ : BufTy).Contents (Elt F)),
    StableHlo.binary main_arg1 main_v398 main_v399 (addi : (⟨S800000, .i32⟩ : BufTy).Contents (Elt F) → (⟨S800000, .i32⟩ : BufTy).Contents (Elt F) → (⟨S800000, .i32⟩ : BufTy).Contents (Elt F)),
    StableHlo.ternary main_v397 main_v399 main_arg1 main_v400 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v400 main_v401 (broadcastInDim S800000x1 ![0] bcast_S800000_S800000x1_0 : (⟨S800000, .i32⟩ : BufTy).Contents (Elt F) → (⟨S800000x1, .i32⟩ : BufTy).Contents (Elt F)),
    StableHlo.binary main_v395 main_v401 main_v402 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_60 (constant S_ .f32 0x00000000#32),
    StableHlo.unary main_cst_60 main_v403 (broadcastInDim S50000x128 ![] bcast_S_S50000x128 : (⟨S_, .f32⟩ : BufTy).Contents (Elt F) → (⟨S50000x128, .f32⟩ : BufTy).Contents (Elt F)),
    StableHlo.unary main_arg2 main_v404 (broadcastInDim S800000x1 ![0] bcast_S800000_S800000x1_0 : (⟨S800000, .i32⟩ : BufTy).Contents (Elt F) → (⟨S800000x1, .i32⟩ : BufTy).Contents (Elt F)),
    StableHlo.ternary main_v403 main_v404 main_v402 main_v405 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v395 main_v405 main_v406 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev agg_4_W : List (Ref sig .tc) :=
  [main_c_58, main_v396, main_v397, main_c_59, main_v398, main_v399, main_v400, main_v401,
    main_v402, main_cst_60, main_v403, main_v404, main_v405, main_v406]

set_option maxRecDepth 16384 in
set_option maxHeartbeats 4000000 in
theorem agg_4_writes : (agg_4 : List (HloOp τ sig (Elt F))).Forall fun op =>
    op.writes ⊆ (agg_4_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_agg_4 (V : Valuation τ sig (Elt F)) (r : Ref sig .tc) (h : r ∉ agg_4_W) :
    after agg_4 V (Proc.devRef .tc r) = V (Proc.devRef .tc r) :=
  after_of_writes_sub agg_4 V agg_4_writes h

set_option maxRecDepth 16384 in
set_option maxHeartbeats 4000000 in
/-- What the stage leaves in its result buffer, as the named function of what its operand buffers held. -/
theorem agg_4_eq (V : Valuation τ sig (Elt F)) :
    after agg_4 V (Proc.devRef .tc main_v406) = refRst (V (Proc.devRef .tc main_v395)) (V (Proc.devRef .tc main_arg1)) (V (Proc.devRef .tc main_arg2)) := by
  after_results_simp
  rfl

/-- Layer 5, the first linear map: its 8 operations in order. -/
abbrev lin1_4 : List (HloOp τ sig (Elt F)) :=
  [ StableHlo.unary main_arg3 main_v407 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v407 main_v408 rfl shapeCasts_S1x128x128_S128x128,
    StableHlo.binary main_v406 main_v408 main_v409 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v410 ((extractStridedSlice S1x128 ![4, 0] · slices_S5x128_S1x128_4_0) : (⟨S5x128, .f32⟩ : BufTy).Contents (Elt F) → (⟨S1x128, .f32⟩ : BufTy).Contents (Elt F)),
    StableHlo.reshape main_v410 main_v411 rfl shapeCasts_S1x128_S128,
    StableHlo.unary main_v411 main_v412 (broadcastInDim S1x128 ![1] bcast_S128_S1x128_1 : (⟨S128, .f32⟩ : BufTy).Contents (Elt F) → (⟨S1x128, .f32⟩ : BufTy).Contents (Elt F)),
    StableHlo.unary main_v412 main_v413 (broadcastInDim S50000x128 ![0, 1] bcast_S1x128_S50000x128_0_1 : (⟨S1x128, .f32⟩ : BufTy).Contents (Elt F) → (⟨S50000x128, .f32⟩ : BufTy).Contents (Elt F)),
    StableHlo.binary main_v409 main_v413 main_v414 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev lin1_4_W : List (Ref sig .tc) :=
  [main_v407, main_v408, main_v409, main_v410, main_v411, main_v412, main_v413, main_v414]

set_option maxRecDepth 16384 in
set_option maxHeartbeats 4000000 in
theorem lin1_4_writes : (lin1_4 : List (HloOp τ sig (Elt F))).Forall fun op =>
    op.writes ⊆ (lin1_4_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_lin1_4 (V : Valuation τ sig (Elt F)) (r : Ref sig .tc) (h : r ∉ lin1_4_W) :
    after lin1_4 V (Proc.devRef .tc r) = V (Proc.devRef .tc r) :=
  after_of_writes_sub lin1_4 V lin1_4_writes h

set_option maxRecDepth 16384 in
set_option maxHeartbeats 4000000 in
/-- What the stage leaves in its result buffer, as the named function of what its operand buffers held. -/
theorem lin1_4_eq (V : Valuation τ sig (Elt F)) :
    after lin1_4 V (Proc.devRef .tc main_v414) = refLinear (V (Proc.devRef .tc main_v406)) (refMat 4 slices_S5x128x128_S1x128x128_4_0_0 (V (Proc.devRef .tc main_arg3))) (refRow 4 slices_S5x128_S1x128_4_0 (V (Proc.devRef .tc main_arg4))) := by
  after_results_simp
  rfl

/-- Layer 5, the first batch normalisation: its 48 operations in order. -/
abbrev bn1_4 : List (HloOp τ sig (Elt F)) :=
  [ StableHlo.unary main_arg7 main_v415 ((extractStridedSlice S1x128 ![4, 0] · slices_S5x128_S1x128_4_0) : (⟨S5x128, .f32⟩ : BufTy).Contents (Elt F) → (⟨S1x128, .f32⟩ : BufTy).Contents (Elt F)),
    StableHlo.reshape main_v415 main_v416 rfl shapeCasts_S1x128_S128,
    StableHlo.unary main_arg8 main_v417 ((extractStridedSlice S1x128 ![4, 0] · slices_S5x128_S1x128_4_0) : (⟨S5x128, .f32⟩ : BufTy).Contents (Elt F) → (⟨S1x128, .f32⟩ : BufTy).Contents (Elt F)),
    StableHlo.reshape main_v417 main_v418 rfl shapeCasts_S1x128_S128,
    StableHlo.nullary main_cst_61 (constant S_ .f32 0x00000000#32),
    StableHlo.binary main_v414 main_cst_61 main_v419 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_62 (constant S_ .f32 0x47435000#32),
    StableHlo.unary main_cst_62 main_v420 (broadcastInDim S128 ![] bcast_S_S128 : (⟨S_, .f32⟩ : BufTy).Contents (Elt F) → (⟨S128, .f32⟩ : BufTy).Contents (Elt F)),
    StableHlo.binary main_v419 main_v420 main_v421 (Host.divf : (⟨S128, .f32⟩ : BufTy).Contents (Elt F) → (⟨S128, .f32⟩ : BufTy).Contents (Elt F) → (⟨S128, .f32⟩ : BufTy).Contents (Elt F)),
    StableHlo.nullary main_c_63 (constantI S_ 32 0#32),
    StableHlo.TRef.nullary main_call24.cst (constant S_ .f32 0x00000000#32),
    StableHlo.TRef.binary (StableHlo.TRef.of main_v414 : StableHlo.TRef sig ⟨S50000x128, .f32⟩) main_call24.cst main_call24.v0 (fun x v => Host.reduceAdd x v reducesTo_S50000x128_S128_d0 h_S_),
    StableHlo.TRef.unary main_call24.v0 main_call24.v1 (broadcastInDim S1x128 ![1] bcast_S128_S1x128_1),
    StableHlo.TRef.nullary main_call24.cst_0 (constant S_ .f32 0x47435000#32),
    StableHlo.TRef.unary main_call24.cst_0 main_call24.v2 (broadcastInDim S1x128 ![] bcast_S_S1x128),
    StableHlo.TRef.binary main_call24.v1 main_call24.v2 main_call24.v3 Host.divf,
    StableHlo.TRef.unary main_call24.v3 main_call24.v4 (broadcastInDim S50000x128 ![0, 1] bcast_S1x128_S50000x128_0_1),
    StableHlo.TRef.binary (StableHlo.TRef.of main_v414 : StableHlo.TRef sig ⟨S50000x128, .f32⟩) main_call24.v4 main_call24.v5 subf,
    StableHlo.TRef.binary main_call24.v5 main_call24.v5 main_call24.v6 mulf,
    StableHlo.TRef.unary (StableHlo.TRef.of main_c_63 : StableHlo.TRef sig ⟨S_, .i32⟩) main_call24.v7 (sitofp .f32),
    StableHlo.TRef.nullary main_call24.cst_1 (constant S_ .f32 0x47435000#32),
    StableHlo.TRef.binary main_call24.cst_1 main_call24.v7 main_call24.v8 subf,
    StableHlo.TRef.nullary main_call24.cst_2 (constant S_ .f32 0x00000000#32),
    StableHlo.TRef.binary main_call24.v6 main_call24.cst_2 main_call24.v9 (fun x v => Host.reduceAdd x v reducesTo_S50000x128_S128_d0 h_S_),
    StableHlo.TRef.unary main_call24.v8 main_call24.v10 (broadcastInDim S128 ![] bcast_S_S128),
    StableHlo.TRef.binary main_call24.v9 main_call24.v10 main_call24.v11 Host.divf,
    StableHlo.TRef.nullary main_call24.cst_3 (constant S_ .f32 0x00000000#32),
    StableHlo.TRef.binary main_call24.v8 main_call24.cst_3 main_call24.v12 (cmpf .ogt),
    StableHlo.TRef.nullary main_call24.cst_4 (constant S_ .f32 0x7FC00000#32),
    StableHlo.TRef.unary main_call24.cst_4 main_call24.call0.v0 id,
    StableHlo.TRef.unary main_call24.call0.v0 main_call24.call0.v1 (broadcastInDim S128 ![] bcast_S_S128),
    StableHlo.TRef.ternary main_call24.v12 main_call24.v11 main_call24.call0.v1 main_call24.call0.v2 (fun p a b => select (broadcastInDim S128 ![] bcast_S_S128 p) a b),
    StableHlo.unary main_v421 main_v423 (broadcastInDim S1x128 ![1] bcast_S128_S1x128_1 : (⟨S128, .f32⟩ : BufTy).Contents (Elt F) → (⟨S1x128, .f32⟩ : BufTy).Contents (Elt F)),
    StableHlo.unary main_v423 main_v424 (broadcastInDim S50000x128 ![0, 1] bcast_S1x128_S50000x128_0_1 : (⟨S1x128, .f32⟩ : BufTy).Contents (Elt F) → (⟨S50000x128, .f32⟩ : BufTy).Contents (Elt F)),
    StableHlo.binary main_v414 main_v424 main_v425 (subf : (⟨S50000x128, .f32⟩ : BufTy).Contents (Elt F) → (⟨S50000x128, .f32⟩ : BufTy).Contents (Elt F) → (⟨S50000x128, .f32⟩ : BufTy).Contents (Elt F)),
    StableHlo.unary main_v416 main_v426 (broadcastInDim S1x128 ![1] bcast_S128_S1x128_1 : (⟨S128, .f32⟩ : BufTy).Contents (Elt F) → (⟨S1x128, .f32⟩ : BufTy).Contents (Elt F)),
    StableHlo.unary main_v426 main_v427 (broadcastInDim S50000x128 ![0, 1] bcast_S1x128_S50000x128_0_1 : (⟨S1x128, .f32⟩ : BufTy).Contents (Elt F) → (⟨S50000x128, .f32⟩ : BufTy).Contents (Elt F)),
    StableHlo.binary main_v427 main_v425 main_v428 (mulf : (⟨S50000x128, .f32⟩ : BufTy).Contents (Elt F) → (⟨S50000x128, .f32⟩ : BufTy).Contents (Elt F) → (⟨S50000x128, .f32⟩ : BufTy).Contents (Elt F)),
    StableHlo.nullary main_cst_64 (constant S_ .f32 0x3727C5AC#32),
    StableHlo.unary main_cst_64 main_v429 (broadcastInDim S128 ![] bcast_S_S128 : (⟨S_, .f32⟩ : BufTy).Contents (Elt F) → (⟨S128, .f32⟩ : BufTy).Contents (Elt F)),
    StableHlo.binary main_v422 main_v429 main_v430 (addf : (⟨S128, .f32⟩ : BufTy).Contents (Elt F) → (⟨S128, .f32⟩ : BufTy).Contents (Elt F) → (⟨S128, .f32⟩ : BufTy).Contents (Elt F)),
    StableHlo.unary main_v430 main_v431 (Host.rsqrt : (⟨S128, .f32⟩ : BufTy).Contents (Elt F) → (⟨S128, .f32⟩ : BufTy).Contents (Elt F)),
    StableHlo.unary main_v431 main_v432 (broadcastInDim S1x128 ![1] bcast_S128_S1x128_1 : (⟨S128, .f32⟩ : BufTy).Contents (Elt F) → (⟨S1x128, .f32⟩ : BufTy).Contents (Elt F)),
    StableHlo.unary main_v432 main_v433 (broadcastInDim S50000x128 ![0, 1] bcast_S1x128_S50000x128_0_1 : (⟨S1x128, .f32⟩ : BufTy).Contents (Elt F) → (⟨S50000x128, .f32⟩ : BufTy).Contents (Elt F)),
    StableHlo.binary main_v428 main_v433 main_v434 (mulf : (⟨S50000x128, .f32⟩ : BufTy).Contents (Elt F) → (⟨S50000x128, .f32⟩ : BufTy).Contents (Elt F) → (⟨S50000x128, .f32⟩ : BufTy).Contents (Elt F)),
    StableHlo.unary main_v418 main_v435 (broadcastInDim S1x128 ![1] bcast_S128_S1x128_1 : (⟨S128, .f32⟩ : BufTy).Contents (Elt F) → (⟨S1x128, .f32⟩ : BufTy).Contents (Elt F)),
    StableHlo.unary main_v435 main_v436 (broadcastInDim S50000x128 ![0, 1] bcast_S1x128_S50000x128_0_1 : (⟨S1x128, .f32⟩ : BufTy).Contents (Elt F) → (⟨S50000x128, .f32⟩ : BufTy).Contents (Elt F)),
    StableHlo.binary main_v434 main_v436 main_v437 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev bn1_4_W : List (Ref sig .tc) :=
  [main_v415, main_v416, main_v417, main_v418, main_cst_61, main_v419, main_cst_62, main_v420,
    main_v421, main_c_63, main_call24_cst, main_call24_v0, main_call24_v1, main_call24_cst_0, main_call24_v2, main_call24_v3,
    main_call24_v4, main_call24_v5, main_call24_v6, main_call24_v7, main_call24_cst_1, main_call24_v8, main_call24_cst_2, main_call24_v9,
    main_call24_v10, main_call24_v11, main_call24_cst_3, main_call24_v12, main_call24_cst_4, main_call24_call0_v0, main_call24_call0_v1, main_v422,
    main_v423, main_v424, main_v425, main_v426, main_v427, main_v428, main_cst_64, main_v429,
    main_v430, main_v431, main_v432, main_v433, main_v434, main_v435, main_v436, main_v437]

set_option maxRecDepth 16384 in
set_option maxHeartbeats 4000000 in
theorem bn1_4_writes : (bn1_4 : List (HloOp τ sig (Elt F))).Forall fun op =>
    op.writes ⊆ (bn1_4_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_bn1_4 (V : Valuation τ sig (Elt F)) (r : Ref sig .tc) (h : r ∉ bn1_4_W) :
    after bn1_4 V (Proc.devRef .tc r) = V (Proc.devRef .tc r) :=
  after_of_writes_sub bn1_4 V bn1_4_writes h

set_option maxRecDepth 16384 in
set_option maxHeartbeats 4000000 in
/-- What the stage leaves in its result buffer, as the named function of what its operand buffers held. -/
theorem bn1_4_eq (V : Valuation τ sig (Elt F)) :
    after bn1_4 V (Proc.devRef .tc main_v437) = refBN (V (Proc.devRef .tc main_v414)) (refRow 4 slices_S5x128_S1x128_4_0 (V (Proc.devRef .tc main_arg7))) (refRow 4 slices_S5x128_S1x128_4_0 (V (Proc.devRef .tc main_arg8))) := by
  after_results_simp
  rfl

/-- Layer 5, the first rectifier: its 3 operations in order. -/
abbrev relu1_4 : List (HloOp τ sig (Elt F)) :=
  [ StableHlo.TRef.nullary main_call25.cst (constant S_ .f32 0x00000000#32),
    StableHlo.TRef.unary main_call25.cst main_call25.v0 (broadcastInDim S50000x128 ![] bcast_S_S50000x128),
    StableHlo.TRef.binary (StableHlo.TRef.of main_v437 : StableHlo.TRef sig ⟨S50000x128, .f32⟩) main_call25.v0 main_call25.v1 maximumf ]

/-- The buffers those operations write. -/
abbrev relu1_4_W : List (Ref sig .tc) :=
  [main_call25_cst, main_call25_v0, main_v438]

set_option maxRecDepth 16384 in
set_option maxHeartbeats 4000000 in
theorem relu1_4_writes : (relu1_4 : List (HloOp τ sig (Elt F))).Forall fun op =>
    op.writes ⊆ (relu1_4_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_relu1_4 (V : Valuation τ sig (Elt F)) (r : Ref sig .tc) (h : r ∉ relu1_4_W) :
    after relu1_4 V (Proc.devRef .tc r) = V (Proc.devRef .tc r) :=
  after_of_writes_sub relu1_4 V relu1_4_writes h

set_option maxRecDepth 16384 in
set_option maxHeartbeats 4000000 in
/-- What the stage leaves in its result buffer, as the named function of what its operand buffers held. -/
theorem relu1_4_eq (V : Valuation τ sig (Elt F)) :
    after relu1_4 V (Proc.devRef .tc main_v438) = refRelu (V (Proc.devRef .tc main_v437)) := by
  after_results_simp
  rfl

/-- Layer 5, the second linear map: its 8 operations in order. -/
abbrev lin2_4 : List (HloOp τ sig (Elt F)) :=
  [ StableHlo.unary main_arg5 main_v439 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v439 main_v440 rfl shapeCasts_S1x128x128_S128x128,
    StableHlo.binary main_v438 main_v440 main_v441 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v442 ((extractStridedSlice S1x128 ![4, 0] · slices_S5x128_S1x128_4_0) : (⟨S5x128, .f32⟩ : BufTy).Contents (Elt F) → (⟨S1x128, .f32⟩ : BufTy).Contents (Elt F)),
    StableHlo.reshape main_v442 main_v443 rfl shapeCasts_S1x128_S128,
    StableHlo.unary main_v443 main_v444 (broadcastInDim S1x128 ![1] bcast_S128_S1x128_1 : (⟨S128, .f32⟩ : BufTy).Contents (Elt F) → (⟨S1x128, .f32⟩ : BufTy).Contents (Elt F)),
    StableHlo.unary main_v444 main_v445 (broadcastInDim S50000x128 ![0, 1] bcast_S1x128_S50000x128_0_1 : (⟨S1x128, .f32⟩ : BufTy).Contents (Elt F) → (⟨S50000x128, .f32⟩ : BufTy).Contents (Elt F)),
    StableHlo.binary main_v441 main_v445 main_v446 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev lin2_4_W : List (Ref sig .tc) :=
  [main_v439, main_v440, main_v441, main_v442, main_v443, main_v444, main_v445, main_v446]

set_option maxRecDepth 16384 in
set_option maxHeartbeats 4000000 in
theorem lin2_4_writes : (lin2_4 : List (HloOp τ sig (Elt F))).Forall fun op =>
    op.writes ⊆ (lin2_4_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_lin2_4 (V : Valuation τ sig (Elt F)) (r : Ref sig .tc) (h : r ∉ lin2_4_W) :
    after lin2_4 V (Proc.devRef .tc r) = V (Proc.devRef .tc r) :=
  after_of_writes_sub lin2_4 V lin2_4_writes h

set_option maxRecDepth 16384 in
set_option maxHeartbeats 4000000 in
/-- What the stage leaves in its result buffer, as the named function of what its operand buffers held. -/
theorem lin2_4_eq (V : Valuation τ sig (Elt F)) :
    after lin2_4 V (Proc.devRef .tc main_v446) = refLinear (V (Proc.devRef .tc main_v438)) (refMat 4 slices_S5x128x128_S1x128x128_4_0_0 (V (Proc.devRef .tc main_arg5))) (refRow 4 slices_S5x128_S1x128_4_0 (V (Proc.devRef .tc main_arg6))) := by
  after_results_simp
  rfl

/-- Layer 5, the second batch normalisation: its 48 operations in order. -/
abbrev bn2_4 : List (HloOp τ sig (Elt F)) :=
  [ StableHlo.unary main_arg9 main_v447 ((extractStridedSlice S1x128 ![4, 0] · slices_S5x128_S1x128_4_0) : (⟨S5x128, .f32⟩ : BufTy).Contents (Elt F) → (⟨S1x128, .f32⟩ : BufTy).Contents (Elt F)),
    StableHlo.reshape main_v447 main_v448 rfl shapeCasts_S1x128_S128,
    StableHlo.unary main_arg10 main_v449 ((extractStridedSlice S1x128 ![4, 0] · slices_S5x128_S1x128_4_0) : (⟨S5x128, .f32⟩ : BufTy).Contents (Elt F) → (⟨S1x128, .f32⟩ : BufTy).Contents (Elt F)),
    StableHlo.reshape main_v449 main_v450 rfl shapeCasts_S1x128_S128,
    StableHlo.nullary main_cst_65 (constant S_ .f32 0x00000000#32),
    StableHlo.binary main_v446 main_cst_65 main_v451 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_66 (constant S_ .f32 0x47435000#32),
    StableHlo.unary main_cst_66 main_v452 (broadcastInDim S128 ![] bcast_S_S128 : (⟨S_, .f32⟩ : BufTy).Contents (Elt F) → (⟨S128, .f32⟩ : BufTy).Contents (Elt F)),
    StableHlo.binary main_v451 main_v452 main_v453 (Host.divf : (⟨S128, .f32⟩ : BufTy).Contents (Elt F) → (⟨S128, .f32⟩ : BufTy).Contents (Elt F) → (⟨S128, .f32⟩ : BufTy).Contents (Elt F)),
    StableHlo.nullary main_c_67 (constantI S_ 32 0#32),
    StableHlo.TRef.nullary main_call26.cst (constant S_ .f32 0x00000000#32),
    StableHlo.TRef.binary (StableHlo.TRef.of main_v446 : StableHlo.TRef sig ⟨S50000x128, .f32⟩) main_call26.cst main_call26.v0 (fun x v => Host.reduceAdd x v reducesTo_S50000x128_S128_d0 h_S_),
    StableHlo.TRef.unary main_call26.v0 main_call26.v1 (broadcastInDim S1x128 ![1] bcast_S128_S1x128_1),
    StableHlo.TRef.nullary main_call26.cst_0 (constant S_ .f32 0x47435000#32),
    StableHlo.TRef.unary main_call26.cst_0 main_call26.v2 (broadcastInDim S1x128 ![] bcast_S_S1x128),
    StableHlo.TRef.binary main_call26.v1 main_call26.v2 main_call26.v3 Host.divf,
    StableHlo.TRef.unary main_call26.v3 main_call26.v4 (broadcastInDim S50000x128 ![0, 1] bcast_S1x128_S50000x128_0_1),
    StableHlo.TRef.binary (StableHlo.TRef.of main_v446 : StableHlo.TRef sig ⟨S50000x128, .f32⟩) main_call26.v4 main_call26.v5 subf,
    StableHlo.TRef.binary main_call26.v5 main_call26.v5 main_call26.v6 mulf,
    StableHlo.TRef.unary (StableHlo.TRef.of main_c_67 : StableHlo.TRef sig ⟨S_, .i32⟩) main_call26.v7 (sitofp .f32),
    StableHlo.TRef.nullary main_call26.cst_1 (constant S_ .f32 0x47435000#32),
    StableHlo.TRef.binary main_call26.cst_1 main_call26.v7 main_call26.v8 subf,
    StableHlo.TRef.nullary main_call26.cst_2 (constant S_ .f32 0x00000000#32),
    StableHlo.TRef.binary main_call26.v6 main_call26.cst_2 main_call26.v9 (fun x v => Host.reduceAdd x v reducesTo_S50000x128_S128_d0 h_S_),
    StableHlo.TRef.unary main_call26.v8 main_call26.v10 (broadcastInDim S128 ![] bcast_S_S128),
    StableHlo.TRef.binary main_call26.v9 main_call26.v10 main_call26.v11 Host.divf,
    StableHlo.TRef.nullary main_call26.cst_3 (constant S_ .f32 0x00000000#32),
    StableHlo.TRef.binary main_call26.v8 main_call26.cst_3 main_call26.v12 (cmpf .ogt),
    StableHlo.TRef.nullary main_call26.cst_4 (constant S_ .f32 0x7FC00000#32),
    StableHlo.TRef.unary main_call26.cst_4 main_call26.call0.v0 id,
    StableHlo.TRef.unary main_call26.call0.v0 main_call26.call0.v1 (broadcastInDim S128 ![] bcast_S_S128),
    StableHlo.TRef.ternary main_call26.v12 main_call26.v11 main_call26.call0.v1 main_call26.call0.v2 (fun p a b => select (broadcastInDim S128 ![] bcast_S_S128 p) a b),
    StableHlo.unary main_v453 main_v455 (broadcastInDim S1x128 ![1] bcast_S128_S1x128_1 : (⟨S128, .f32⟩ : BufTy).Contents (Elt F) → (⟨S1x128, .f32⟩ : BufTy).Contents (Elt F)),
    StableHlo.unary main_v455 main_v456 (broadcastInDim S50000x128 ![0, 1] bcast_S1x128_S50000x128_0_1 : (⟨S1x128, .f32⟩ : BufTy).Contents (Elt F) → (⟨S50000x128, .f32⟩ : BufTy).Contents (Elt F)),
    StableHlo.binary main_v446 main_v456 main_v457 (subf : (⟨S50000x128, .f32⟩ : BufTy).Contents (Elt F) → (⟨S50000x128, .f32⟩ : BufTy).Contents (Elt F) → (⟨S50000x128, .f32⟩ : BufTy).Contents (Elt F)),
    StableHlo.unary main_v448 main_v458 (broadcastInDim S1x128 ![1] bcast_S128_S1x128_1 : (⟨S128, .f32⟩ : BufTy).Contents (Elt F) → (⟨S1x128, .f32⟩ : BufTy).Contents (Elt F)),
    StableHlo.unary main_v458 main_v459 (broadcastInDim S50000x128 ![0, 1] bcast_S1x128_S50000x128_0_1 : (⟨S1x128, .f32⟩ : BufTy).Contents (Elt F) → (⟨S50000x128, .f32⟩ : BufTy).Contents (Elt F)),
    StableHlo.binary main_v459 main_v457 main_v460 (mulf : (⟨S50000x128, .f32⟩ : BufTy).Contents (Elt F) → (⟨S50000x128, .f32⟩ : BufTy).Contents (Elt F) → (⟨S50000x128, .f32⟩ : BufTy).Contents (Elt F)),
    StableHlo.nullary main_cst_68 (constant S_ .f32 0x3727C5AC#32),
    StableHlo.unary main_cst_68 main_v461 (broadcastInDim S128 ![] bcast_S_S128 : (⟨S_, .f32⟩ : BufTy).Contents (Elt F) → (⟨S128, .f32⟩ : BufTy).Contents (Elt F)),
    StableHlo.binary main_v454 main_v461 main_v462 (addf : (⟨S128, .f32⟩ : BufTy).Contents (Elt F) → (⟨S128, .f32⟩ : BufTy).Contents (Elt F) → (⟨S128, .f32⟩ : BufTy).Contents (Elt F)),
    StableHlo.unary main_v462 main_v463 (Host.rsqrt : (⟨S128, .f32⟩ : BufTy).Contents (Elt F) → (⟨S128, .f32⟩ : BufTy).Contents (Elt F)),
    StableHlo.unary main_v463 main_v464 (broadcastInDim S1x128 ![1] bcast_S128_S1x128_1 : (⟨S128, .f32⟩ : BufTy).Contents (Elt F) → (⟨S1x128, .f32⟩ : BufTy).Contents (Elt F)),
    StableHlo.unary main_v464 main_v465 (broadcastInDim S50000x128 ![0, 1] bcast_S1x128_S50000x128_0_1 : (⟨S1x128, .f32⟩ : BufTy).Contents (Elt F) → (⟨S50000x128, .f32⟩ : BufTy).Contents (Elt F)),
    StableHlo.binary main_v460 main_v465 main_v466 (mulf : (⟨S50000x128, .f32⟩ : BufTy).Contents (Elt F) → (⟨S50000x128, .f32⟩ : BufTy).Contents (Elt F) → (⟨S50000x128, .f32⟩ : BufTy).Contents (Elt F)),
    StableHlo.unary main_v450 main_v467 (broadcastInDim S1x128 ![1] bcast_S128_S1x128_1 : (⟨S128, .f32⟩ : BufTy).Contents (Elt F) → (⟨S1x128, .f32⟩ : BufTy).Contents (Elt F)),
    StableHlo.unary main_v467 main_v468 (broadcastInDim S50000x128 ![0, 1] bcast_S1x128_S50000x128_0_1 : (⟨S1x128, .f32⟩ : BufTy).Contents (Elt F) → (⟨S50000x128, .f32⟩ : BufTy).Contents (Elt F)),
    StableHlo.binary main_v466 main_v468 main_v469 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev bn2_4_W : List (Ref sig .tc) :=
  [main_v447, main_v448, main_v449, main_v450, main_cst_65, main_v451, main_cst_66, main_v452,
    main_v453, main_c_67, main_call26_cst, main_call26_v0, main_call26_v1, main_call26_cst_0, main_call26_v2, main_call26_v3,
    main_call26_v4, main_call26_v5, main_call26_v6, main_call26_v7, main_call26_cst_1, main_call26_v8, main_call26_cst_2, main_call26_v9,
    main_call26_v10, main_call26_v11, main_call26_cst_3, main_call26_v12, main_call26_cst_4, main_call26_call0_v0, main_call26_call0_v1, main_v454,
    main_v455, main_v456, main_v457, main_v458, main_v459, main_v460, main_cst_68, main_v461,
    main_v462, main_v463, main_v464, main_v465, main_v466, main_v467, main_v468, main_v469]

set_option maxRecDepth 16384 in
set_option maxHeartbeats 4000000 in
theorem bn2_4_writes : (bn2_4 : List (HloOp τ sig (Elt F))).Forall fun op =>
    op.writes ⊆ (bn2_4_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_bn2_4 (V : Valuation τ sig (Elt F)) (r : Ref sig .tc) (h : r ∉ bn2_4_W) :
    after bn2_4 V (Proc.devRef .tc r) = V (Proc.devRef .tc r) :=
  after_of_writes_sub bn2_4 V bn2_4_writes h

set_option maxRecDepth 16384 in
set_option maxHeartbeats 4000000 in
/-- What the stage leaves in its result buffer, as the named function of what its operand buffers held. -/
theorem bn2_4_eq (V : Valuation τ sig (Elt F)) :
    after bn2_4 V (Proc.devRef .tc main_v469) = refBN (V (Proc.devRef .tc main_v446)) (refRow 4 slices_S5x128_S1x128_4_0 (V (Proc.devRef .tc main_arg9))) (refRow 4 slices_S5x128_S1x128_4_0 (V (Proc.devRef .tc main_arg10))) := by
  after_results_simp
  rfl

/-- Layer 5, the second rectifier: its 3 operations in order. -/
abbrev relu2_4 : List (HloOp τ sig (Elt F)) :=
  [ StableHlo.TRef.nullary main_call27.cst (constant S_ .f32 0x00000000#32),
    StableHlo.TRef.unary main_call27.cst main_call27.v0 (broadcastInDim S50000x128 ![] bcast_S_S50000x128),
    StableHlo.TRef.binary (StableHlo.TRef.of main_v469 : StableHlo.TRef sig ⟨S50000x128, .f32⟩) main_call27.v0 main_call27.v1 maximumf ]

/-- The buffers those operations write. -/
abbrev relu2_4_W : List (Ref sig .tc) :=
  [main_call27_cst, main_call27_v0, main_v470]

set_option maxRecDepth 16384 in
set_option maxHeartbeats 4000000 in
theorem relu2_4_writes : (relu2_4 : List (HloOp τ sig (Elt F))).Forall fun op =>
    op.writes ⊆ (relu2_4_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_relu2_4 (V : Valuation τ sig (Elt F)) (r : Ref sig .tc) (h : r ∉ relu2_4_W) :
    after relu2_4 V (Proc.devRef .tc r) = V (Proc.devRef .tc r) :=
  after_of_writes_sub relu2_4 V relu2_4_writes h

set_option maxRecDepth 16384 in
set_option maxHeartbeats 4000000 in
/-- What the stage leaves in its result buffer, as the named function of what its operand buffers held. -/
theorem relu2_4_eq (V : Valuation τ sig (Elt F)) :
    after relu2_4 V (Proc.devRef .tc main_v470) = refRelu (V (Proc.devRef .tc main_v469)) := by
  after_results_simp
  rfl

/-- Layer 5, the third batch normalisation: its 48 operations in order. -/
abbrev bn3_4 : List (HloOp τ sig (Elt F)) :=
  [ StableHlo.unary main_arg11 main_v471 ((extractStridedSlice S1x128 ![4, 0] · slices_S5x128_S1x128_4_0) : (⟨S5x128, .f32⟩ : BufTy).Contents (Elt F) → (⟨S1x128, .f32⟩ : BufTy).Contents (Elt F)),
    StableHlo.reshape main_v471 main_v472 rfl shapeCasts_S1x128_S128,
    StableHlo.unary main_arg12 main_v473 ((extractStridedSlice S1x128 ![4, 0] · slices_S5x128_S1x128_4_0) : (⟨S5x128, .f32⟩ : BufTy).Contents (Elt F) → (⟨S1x128, .f32⟩ : BufTy).Contents (Elt F)),
    StableHlo.reshape main_v473 main_v474 rfl shapeCasts_S1x128_S128,
    StableHlo.nullary main_cst_69 (constant S_ .f32 0x00000000#32),
    StableHlo.binary main_v470 main_cst_69 main_v475 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_70 (constant S_ .f32 0x47435000#32),
    StableHlo.unary main_cst_70 main_v476 (broadcastInDim S128 ![] bcast_S_S128 : (⟨S_, .f32⟩ : BufTy).Contents (Elt F) → (⟨S128, .f32⟩ : BufTy).Contents (Elt F)),
    StableHlo.binary main_v475 main_v476 main_v477 (Host.divf : (⟨S128, .f32⟩ : BufTy).Contents (Elt F) → (⟨S128, .f32⟩ : BufTy).Contents (Elt F) → (⟨S128, .f32⟩ : BufTy).Contents (Elt F)),
    StableHlo.nullary main_c_71 (constantI S_ 32 0#32),
    StableHlo.TRef.nullary main_call28.cst (constant S_ .f32 0x00000000#32),
    StableHlo.TRef.binary (StableHlo.TRef.of main_v470 : StableHlo.TRef sig ⟨S50000x128, .f32⟩) main_call28.cst main_call28.v0 (fun x v => Host.reduceAdd x v reducesTo_S50000x128_S128_d0 h_S_),
    StableHlo.TRef.unary main_call28.v0 main_call28.v1 (broadcastInDim S1x128 ![1] bcast_S128_S1x128_1),
    StableHlo.TRef.nullary main_call28.cst_0 (constant S_ .f32 0x47435000#32),
    StableHlo.TRef.unary main_call28.cst_0 main_call28.v2 (broadcastInDim S1x128 ![] bcast_S_S1x128),
    StableHlo.TRef.binary main_call28.v1 main_call28.v2 main_call28.v3 Host.divf,
    StableHlo.TRef.unary main_call28.v3 main_call28.v4 (broadcastInDim S50000x128 ![0, 1] bcast_S1x128_S50000x128_0_1),
    StableHlo.TRef.binary (StableHlo.TRef.of main_v470 : StableHlo.TRef sig ⟨S50000x128, .f32⟩) main_call28.v4 main_call28.v5 subf,
    StableHlo.TRef.binary main_call28.v5 main_call28.v5 main_call28.v6 mulf,
    StableHlo.TRef.unary (StableHlo.TRef.of main_c_71 : StableHlo.TRef sig ⟨S_, .i32⟩) main_call28.v7 (sitofp .f32),
    StableHlo.TRef.nullary main_call28.cst_1 (constant S_ .f32 0x47435000#32),
    StableHlo.TRef.binary main_call28.cst_1 main_call28.v7 main_call28.v8 subf,
    StableHlo.TRef.nullary main_call28.cst_2 (constant S_ .f32 0x00000000#32),
    StableHlo.TRef.binary main_call28.v6 main_call28.cst_2 main_call28.v9 (fun x v => Host.reduceAdd x v reducesTo_S50000x128_S128_d0 h_S_),
    StableHlo.TRef.unary main_call28.v8 main_call28.v10 (broadcastInDim S128 ![] bcast_S_S128),
    StableHlo.TRef.binary main_call28.v9 main_call28.v10 main_call28.v11 Host.divf,
    StableHlo.TRef.nullary main_call28.cst_3 (constant S_ .f32 0x00000000#32),
    StableHlo.TRef.binary main_call28.v8 main_call28.cst_3 main_call28.v12 (cmpf .ogt),
    StableHlo.TRef.nullary main_call28.cst_4 (constant S_ .f32 0x7FC00000#32),
    StableHlo.TRef.unary main_call28.cst_4 main_call28.call0.v0 id,
    StableHlo.TRef.unary main_call28.call0.v0 main_call28.call0.v1 (broadcastInDim S128 ![] bcast_S_S128),
    StableHlo.TRef.ternary main_call28.v12 main_call28.v11 main_call28.call0.v1 main_call28.call0.v2 (fun p a b => select (broadcastInDim S128 ![] bcast_S_S128 p) a b),
    StableHlo.unary main_v477 main_v479 (broadcastInDim S1x128 ![1] bcast_S128_S1x128_1 : (⟨S128, .f32⟩ : BufTy).Contents (Elt F) → (⟨S1x128, .f32⟩ : BufTy).Contents (Elt F)),
    StableHlo.unary main_v479 main_v480 (broadcastInDim S50000x128 ![0, 1] bcast_S1x128_S50000x128_0_1 : (⟨S1x128, .f32⟩ : BufTy).Contents (Elt F) → (⟨S50000x128, .f32⟩ : BufTy).Contents (Elt F)),
    StableHlo.binary main_v470 main_v480 main_v481 (subf : (⟨S50000x128, .f32⟩ : BufTy).Contents (Elt F) → (⟨S50000x128, .f32⟩ : BufTy).Contents (Elt F) → (⟨S50000x128, .f32⟩ : BufTy).Contents (Elt F)),
    StableHlo.unary main_v472 main_v482 (broadcastInDim S1x128 ![1] bcast_S128_S1x128_1 : (⟨S128, .f32⟩ : BufTy).Contents (Elt F) → (⟨S1x128, .f32⟩ : BufTy).Contents (Elt F)),
    StableHlo.unary main_v482 main_v483 (broadcastInDim S50000x128 ![0, 1] bcast_S1x128_S50000x128_0_1 : (⟨S1x128, .f32⟩ : BufTy).Contents (Elt F) → (⟨S50000x128, .f32⟩ : BufTy).Contents (Elt F)),
    StableHlo.binary main_v483 main_v481 main_v484 (mulf : (⟨S50000x128, .f32⟩ : BufTy).Contents (Elt F) → (⟨S50000x128, .f32⟩ : BufTy).Contents (Elt F) → (⟨S50000x128, .f32⟩ : BufTy).Contents (Elt F)),
    StableHlo.nullary main_cst_72 (constant S_ .f32 0x3727C5AC#32),
    StableHlo.unary main_cst_72 main_v485 (broadcastInDim S128 ![] bcast_S_S128 : (⟨S_, .f32⟩ : BufTy).Contents (Elt F) → (⟨S128, .f32⟩ : BufTy).Contents (Elt F)),
    StableHlo.binary main_v478 main_v485 main_v486 (addf : (⟨S128, .f32⟩ : BufTy).Contents (Elt F) → (⟨S128, .f32⟩ : BufTy).Contents (Elt F) → (⟨S128, .f32⟩ : BufTy).Contents (Elt F)),
    StableHlo.unary main_v486 main_v487 (Host.rsqrt : (⟨S128, .f32⟩ : BufTy).Contents (Elt F) → (⟨S128, .f32⟩ : BufTy).Contents (Elt F)),
    StableHlo.unary main_v487 main_v488 (broadcastInDim S1x128 ![1] bcast_S128_S1x128_1 : (⟨S128, .f32⟩ : BufTy).Contents (Elt F) → (⟨S1x128, .f32⟩ : BufTy).Contents (Elt F)),
    StableHlo.unary main_v488 main_v489 (broadcastInDim S50000x128 ![0, 1] bcast_S1x128_S50000x128_0_1 : (⟨S1x128, .f32⟩ : BufTy).Contents (Elt F) → (⟨S50000x128, .f32⟩ : BufTy).Contents (Elt F)),
    StableHlo.binary main_v484 main_v489 main_v490 (mulf : (⟨S50000x128, .f32⟩ : BufTy).Contents (Elt F) → (⟨S50000x128, .f32⟩ : BufTy).Contents (Elt F) → (⟨S50000x128, .f32⟩ : BufTy).Contents (Elt F)),
    StableHlo.unary main_v474 main_v491 (broadcastInDim S1x128 ![1] bcast_S128_S1x128_1 : (⟨S128, .f32⟩ : BufTy).Contents (Elt F) → (⟨S1x128, .f32⟩ : BufTy).Contents (Elt F)),
    StableHlo.unary main_v491 main_v492 (broadcastInDim S50000x128 ![0, 1] bcast_S1x128_S50000x128_0_1 : (⟨S1x128, .f32⟩ : BufTy).Contents (Elt F) → (⟨S50000x128, .f32⟩ : BufTy).Contents (Elt F)),
    StableHlo.binary main_v490 main_v492 main_v493 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev bn3_4_W : List (Ref sig .tc) :=
  [main_v471, main_v472, main_v473, main_v474, main_cst_69, main_v475, main_cst_70, main_v476,
    main_v477, main_c_71, main_call28_cst, main_call28_v0, main_call28_v1, main_call28_cst_0, main_call28_v2, main_call28_v3,
    main_call28_v4, main_call28_v5, main_call28_v6, main_call28_v7, main_call28_cst_1, main_call28_v8, main_call28_cst_2, main_call28_v9,
    main_call28_v10, main_call28_v11, main_call28_cst_3, main_call28_v12, main_call28_cst_4, main_call28_call0_v0, main_call28_call0_v1, main_v478,
    main_v479, main_v480, main_v481, main_v482, main_v483, main_v484, main_cst_72, main_v485,
    main_v486, main_v487, main_v488, main_v489, main_v490, main_v491, main_v492, main_v493]

set_option maxRecDepth 16384 in
set_option maxHeartbeats 4000000 in
theorem bn3_4_writes : (bn3_4 : List (HloOp τ sig (Elt F))).Forall fun op =>
    op.writes ⊆ (bn3_4_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_bn3_4 (V : Valuation τ sig (Elt F)) (r : Ref sig .tc) (h : r ∉ bn3_4_W) :
    after bn3_4 V (Proc.devRef .tc r) = V (Proc.devRef .tc r) :=
  after_of_writes_sub bn3_4 V bn3_4_writes h

set_option maxRecDepth 16384 in
set_option maxHeartbeats 4000000 in
/-- What the stage leaves in its result buffer, as the named function of what its operand buffers held. -/
theorem bn3_4_eq (V : Valuation τ sig (Elt F)) :
    after bn3_4 V (Proc.devRef .tc main_v493) = refBN (V (Proc.devRef .tc main_v470)) (refRow 4 slices_S5x128_S1x128_4_0 (V (Proc.devRef .tc main_arg11))) (refRow 4 slices_S5x128_S1x128_4_0 (V (Proc.devRef .tc main_arg12))) := by
  after_results_simp
  rfl

/-- Layer 5, the third rectifier: its 3 operations in order. -/
abbrev relu3_4 : List (HloOp τ sig (Elt F)) :=
  [ StableHlo.TRef.nullary main_call29.cst (constant S_ .f32 0x00000000#32),
    StableHlo.TRef.unary main_call29.cst main_call29.v0 (broadcastInDim S50000x128 ![] bcast_S_S50000x128),
    StableHlo.TRef.binary (StableHlo.TRef.of main_v493 : StableHlo.TRef sig ⟨S50000x128, .f32⟩) main_call29.v0 main_call29.v1 maximumf ]

/-- The buffers those operations write. -/
abbrev relu3_4_W : List (Ref sig .tc) :=
  [main_call29_cst, main_call29_v0, main_v494]

set_option maxRecDepth 16384 in
set_option maxHeartbeats 4000000 in
theorem relu3_4_writes : (relu3_4 : List (HloOp τ sig (Elt F))).Forall fun op =>
    op.writes ⊆ (relu3_4_W.map (Proc.devRef (τ := τ) .tc)).toFinset := by
  simp only [List.Forall]
  exact ⟨(by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide)),
    (by simp only [TRef.nullary, TRef.unary, TRef.binary, TRef.ternary, nullary_writes, unary_writes, binary_writes, ternary_writes, reshape_writes, Finset.singleton_subset_iff, List.mem_toFinset]; exact List.mem_map_of_mem (by decide))⟩

/-- A buffer these operations do not write is unchanged by them. -/
theorem keep_relu3_4 (V : Valuation τ sig (Elt F)) (r : Ref sig .tc) (h : r ∉ relu3_4_W) :
    after relu3_4 V (Proc.devRef .tc r) = V (Proc.devRef .tc r) :=
  after_of_writes_sub relu3_4 V relu3_4_writes h

set_option maxRecDepth 16384 in
set_option maxHeartbeats 4000000 in
/-- What the stage leaves in its result buffer, as the named function of what its operand buffers held. -/
theorem relu3_4_eq (V : Valuation τ sig (Elt F)) :
    after relu3_4 V (Proc.devRef .tc main_v494) = refRelu (V (Proc.devRef .tc main_v493)) := by
  after_results_simp
  rfl

/-- Layer 5: its 183 operations, the nine stages one after the other. -/
abbrev layer4 : List (HloOp τ sig (Elt F)) :=
  agg_4 ++ (lin1_4 ++ (bn1_4 ++ (relu1_4 ++ (lin2_4 ++ (bn2_4 ++ (relu2_4 ++ (bn3_4 ++ (relu3_4))))))))

/-- A buffer that no stage of the layer writes is unchanged by the layer. -/
theorem keep_layer4 (V : Valuation τ sig (Elt F)) (r : Ref sig .tc)
    (h0 : r ∉ agg_4_W) (h1 : r ∉ lin1_4_W) (h2 : r ∉ bn1_4_W) (h3 : r ∉ relu1_4_W) (h4 : r ∉ lin2_4_W) (h5 : r ∉ bn2_4_W) (h6 : r ∉ relu2_4_W) (h7 : r ∉ bn3_4_W) (h8 : r ∉ relu3_4_W) :
    after layer4 V (Proc.devRef .tc r) = V (Proc.devRef .tc r) := by
  simp only [layer4, StableHlo.after_append]
  rw [keep_relu3_4 _ r h8, keep_bn3_4 _ r h7, keep_relu2_4 _ r h6, keep_bn2_4 _ r h5, keep_lin2_4 _ r h4, keep_relu1_4 _ r h3, keep_bn1_4 _ r h2, keep_lin1_4 _ r h1, keep_agg_4 _ r h0]

set_option maxRecDepth 16384 in
/-- The layer's result buffer holds the layer function of what the previous features and the thirteen arguments held:
    each stage's result is read off its own equation, and what a later stage reads of an earlier buffer passes
    unchanged through the stages between. -/
theorem layer4_eq (V : Valuation τ sig (Elt F)) :
    after layer4 V (Proc.devRef .tc main_v494) =
      RefLayer 4 slices_S5x128_S1x128_4_0 slices_S5x128x128_S1x128x128_4_0_0 (V (Proc.devRef .tc main_v395)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  simp only [layer4, StableHlo.after_append]
  rw [relu3_4_eq,
    bn3_4_eq,
    relu2_4_eq,
    bn2_4_eq,
    lin2_4_eq,
    relu1_4_eq,
    bn1_4_eq,
    lin1_4_eq,
    agg_4_eq,
    keep_agg_4 _ main_arg3 (by decide),
    keep_agg_4 _ main_arg4 (by decide),
    keep_lin1_4 _ main_arg7 (by decide),
    keep_agg_4 _ main_arg7 (by decide),
    keep_lin1_4 _ main_arg8 (by decide),
    keep_agg_4 _ main_arg8 (by decide),
    keep_relu1_4 _ main_arg5 (by decide),
    keep_bn1_4 _ main_arg5 (by decide),
    keep_lin1_4 _ main_arg5 (by decide),
    keep_agg_4 _ main_arg5 (by decide),
    keep_relu1_4 _ main_arg6 (by decide),
    keep_bn1_4 _ main_arg6 (by decide),
    keep_lin1_4 _ main_arg6 (by decide),
    keep_agg_4 _ main_arg6 (by decide),
    keep_lin2_4 _ main_arg9 (by decide),
    keep_relu1_4 _ main_arg9 (by decide),
    keep_bn1_4 _ main_arg9 (by decide),
    keep_lin1_4 _ main_arg9 (by decide),
    keep_agg_4 _ main_arg9 (by decide),
    keep_lin2_4 _ main_arg10 (by decide),
    keep_relu1_4 _ main_arg10 (by decide),
    keep_bn1_4 _ main_arg10 (by decide),
    keep_lin1_4 _ main_arg10 (by decide),
    keep_agg_4 _ main_arg10 (by decide),
    keep_relu2_4 _ main_arg11 (by decide),
    keep_bn2_4 _ main_arg11 (by decide),
    keep_lin2_4 _ main_arg11 (by decide),
    keep_relu1_4 _ main_arg11 (by decide),
    keep_bn1_4 _ main_arg11 (by decide),
    keep_lin1_4 _ main_arg11 (by decide),
    keep_agg_4 _ main_arg11 (by decide),
    keep_relu2_4 _ main_arg12 (by decide),
    keep_bn2_4 _ main_arg12 (by decide),
    keep_lin2_4 _ main_arg12 (by decide),
    keep_relu1_4 _ main_arg12 (by decide),
    keep_bn1_4 _ main_arg12 (by decide),
    keep_lin1_4 _ main_arg12 (by decide),
    keep_agg_4 _ main_arg12 (by decide)]
  rfl

end Cert.ReferenceIdeal.RefRun

end
-- ==== Proof.RefValue.lean ====
/- The whole reference network's result as five applications of one layer function. The 915 operations of the
   entry function, grouped by layer instead of by stretch, are the same list (`ops_eq_layers`); each layer's result
   buffer then holds the layer function of the previous layer's result and of the argument arrays, which no layer
   writes, so the final features are `RefNet` — layer 5 of layer 4 of … of layer 1 — of the thirteen arguments'
   launch contents (`out_eq`), and that is what every weakly fair execution leaves in the result buffer (`run_out`). -/
import proofs.«113410_j5944234737805_1_alg».proof.Proof.RefRun
import proofs.«113410_j5944234737805_1_alg».proof.Proof.RefLayer0
import proofs.«113410_j5944234737805_1_alg».proof.Proof.RefLayer1
import proofs.«113410_j5944234737805_1_alg».proof.Proof.RefLayer2
import proofs.«113410_j5944234737805_1_alg».proof.Proof.RefLayer3
import proofs.«113410_j5944234737805_1_alg».proof.Proof.RefLayer4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The network: the five layers in turn, layer `l` at row `l` of the stacked parameters. -/
def RefNet (h : Mat F) (src dst : Ix F) (W1 : Sq5 F) (b1 : Vec5 F) (W2 : Sq5 F) (b2 g1 be1 g2 be2 g3 be3 : Vec5 F) : Mat F :=
  RefLayer 4 slices_S5x128_S1x128_4_0 slices_S5x128x128_S1x128x128_4_0_0 (RefLayer 3 slices_S5x128_S1x128_3_0 slices_S5x128x128_S1x128x128_3_0_0 (RefLayer 2 slices_S5x128_S1x128_2_0 slices_S5x128x128_S1x128x128_2_0_0 (RefLayer 1 slices_S5x128_S1x128_1_0 slices_S5x128x128_S1x128x128_1_0_0 (RefLayer 0 slices_S5x128_S1x128_0_0 slices_S5x128x128_S1x128x128_0_0_0 h src dst W1 b1 W2 b2 g1 be1 g2 be2 g3 be3) src dst W1 b1 W2 b2 g1 be1 g2 be2 g3 be3) src dst W1 b1 W2 b2 g1 be1 g2 be2 g3 be3) src dst W1 b1 W2 b2 g1 be1 g2 be2 g3 be3) src dst W1 b1 W2 b2 g1 be1 g2 be2 g3 be3

/-- The operations grouped by layer. -/
abbrev layers : List (HloOp τ sig (Elt F)) :=
  layer0 ++ (layer1 ++ (layer2 ++ (layer3 ++ layer4)))

set_option maxRecDepth 65536 in
set_option maxHeartbeats 8000000 in
/-- Grouped by stretch or by layer, the list of operations is the same list. -/
theorem ops_eq_layers : (ops : List (HloOp τ sig (Elt F))) = layers := by
  rfl

/-- The fold over the layers' list is the layers' folds, one inside the next. -/
theorem after_layers (V : Valuation τ sig (Elt F)) :
    after layers V = after layer4 (after layer3 (after layer2 (after layer1 (after layer0 V)))) :=
  (StableHlo.after_append layer0 (layer1 ++ (layer2 ++ (layer3 ++ layer4))) V).trans
    ((StableHlo.after_append layer1 (layer2 ++ (layer3 ++ layer4)) (after layer0 V)).trans
      ((StableHlo.after_append layer2 (layer3 ++ layer4) (after layer1 (after layer0 V))).trans
        (StableHlo.after_append layer3 layer4 (after layer2 (after layer1 (after layer0 V))))))

set_option maxRecDepth 16384 in
/-- After all the operations the result buffer holds the network function of what the arguments held at the start. -/
theorem out_eq (V : Valuation τ sig (Elt F)) :
    after ops V (Proc.devRef .tc main_v494) = RefNet (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_eq_layers, after_layers, layer4_eq,
    layer3_eq,
    layer2_eq,
    layer1_eq,
    layer0_eq,
    keep_layer3 _ main_arg1 (by decide) (by decide) (by decide) (by decide) (by decide) (by decide) (by decide) (by decide) (by decide),
    keep_layer3 _ main_arg2 (by decide) (by decide) (by decide) (by decide) (by decide) (by decide) (by decide) (by decide) (by decide),
    keep_layer3 _ main_arg3 (by decide) (by decide) (by decide) (by decide) (by decide) (by decide) (by decide) (by decide) (by decide),
    keep_layer3 _ main_arg4 (by decide) (by decide) (by decide) (by decide) (by decide) (by decide) (by decide) (by decide) (by decide),
    keep_layer3 _ main_arg5 (by decide) (by decide) (by decide) (by decide) (by decide) (by decide) (by decide) (by decide) (by decide),
    keep_layer3 _ main_arg6 (by decide) (by decide) (by decide) (by decide) (by decide) (by decide) (by decide) (by decide) (by decide),
    keep_layer3 _ main_arg7 (by decide) (by decide) (by decide) (by decide) (by decide) (by decide) (by decide) (by decide) (by decide),
    keep_layer3 _ main_arg8 (by decide) (by decide) (by decide) (by decide) (by decide) (by decide) (by decide) (by decide) (by decide),
    keep_layer3 _ main_arg9 (by decide) (by decide) (by decide) (by decide) (by decide) (by decide) (by decide) (by decide) (by decide),
    keep_layer3 _ main_arg10 (by decide) (by decide) (by decide) (by decide) (by decide) (by decide) (by decide) (by decide) (by decide),
    keep_layer3 _ main_arg11 (by decide) (by decide) (by decide) (by decide) (by decide) (by decide) (by decide) (by decide) (by decide),
    keep_layer3 _ main_arg12 (by decide) (by decide) (by decide) (by decide) (by decide) (by decide) (by decide) (by decide) (by decide),
    keep_layer2 _ main_arg1 (by decide) (by decide) (by decide) (by decide) (by decide) (by decide) (by decide) (by decide) (by decide),
    keep_layer2 _ main_arg2 (by decide) (by decide) (by decide) (by decide) (by decide) (by decide) (by decide) (by decide) (by decide),
    keep_layer2 _ main_arg3 (by decide) (by decide) (by decide) (by decide) (by decide) (by decide) (by decide) (by decide) (by decide),
    keep_layer2 _ main_arg4 (by decide) (by decide) (by decide) (by decide) (by decide) (by decide) (by decide) (by decide) (by decide),
    keep_layer2 _ main_arg5 (by decide) (by decide) (by decide) (by decide) (by decide) (by decide) (by decide) (by decide) (by decide),
    keep_layer2 _ main_arg6 (by decide) (by decide) (by decide) (by decide) (by decide) (by decide) (by decide) (by decide) (by decide),
    keep_layer2 _ main_arg7 (by decide) (by decide) (by decide) (by decide) (by decide) (by decide) (by decide) (by decide) (by decide),
    keep_layer2 _ main_arg8 (by decide) (by decide) (by decide) (by decide) (by decide) (by decide) (by decide) (by decide) (by decide),
    keep_layer2 _ main_arg9 (by decide) (by decide) (by decide) (by decide) (by decide) (by decide) (by decide) (by decide) (by decide),
    keep_layer2 _ main_arg10 (by decide) (by decide) (by decide) (by decide) (by decide) (by decide) (by decide) (by decide) (by decide),
    keep_layer2 _ main_arg11 (by decide) (by decide) (by decide) (by decide) (by decide) (by decide) (by decide) (by decide) (by decide),
    keep_layer2 _ main_arg12 (by decide) (by decide) (by decide) (by decide) (by decide) (by decide) (by decide) (by decide) (by decide),
    keep_layer1 _ main_arg1 (by decide) (by decide) (by decide) (by decide) (by decide) (by decide) (by decide) (by decide) (by decide),
    keep_layer1 _ main_arg2 (by decide) (by decide) (by decide) (by decide) (by decide) (by decide) (by decide) (by decide) (by decide),
    keep_layer1 _ main_arg3 (by decide) (by decide) (by decide) (by decide) (by decide) (by decide) (by decide) (by decide) (by decide),
    keep_layer1 _ main_arg4 (by decide) (by decide) (by decide) (by decide) (by decide) (by decide) (by decide) (by decide) (by decide),
    keep_layer1 _ main_arg5 (by decide) (by decide) (by decide) (by decide) (by decide) (by decide) (by decide) (by decide) (by decide),
    keep_layer1 _ main_arg6 (by decide) (by decide) (by decide) (by decide) (by decide) (by decide) (by decide) (by decide) (by decide),
    keep_layer1 _ main_arg7 (by decide) (by decide) (by decide) (by decide) (by decide) (by decide) (by decide) (by decide) (by decide),
    keep_layer1 _ main_arg8 (by decide) (by decide) (by decide) (by decide) (by decide) (by decide) (by decide) (by decide) (by decide),
    keep_layer1 _ main_arg9 (by decide) (by decide) (by decide) (by decide) (by decide) (by decide) (by decide) (by decide) (by decide),
    keep_layer1 _ main_arg10 (by decide) (by decide) (by decide) (by decide) (by decide) (by decide) (by decide) (by decide) (by decide),
    keep_layer1 _ main_arg11 (by decide) (by decide) (by decide) (by decide) (by decide) (by decide) (by decide) (by decide) (by decide),
    keep_layer1 _ main_arg12 (by decide) (by decide) (by decide) (by decide) (by decide) (by decide) (by decide) (by decide) (by decide),
    keep_layer0 _ main_arg1 (by decide) (by decide) (by decide) (by decide) (by decide) (by decide) (by decide) (by decide) (by decide),
    keep_layer0 _ main_arg2 (by decide) (by decide) (by decide) (by decide) (by decide) (by decide) (by decide) (by decide) (by decide),
    keep_layer0 _ main_arg3 (by decide) (by decide) (by decide) (by decide) (by decide) (by decide) (by decide) (by decide) (by decide),
    keep_layer0 _ main_arg4 (by decide) (by decide) (by decide) (by decide) (by decide) (by decide) (by decide) (by decide) (by decide),
    keep_layer0 _ main_arg5 (by decide) (by decide) (by decide) (by decide) (by decide) (by decide) (by decide) (by decide) (by decide),
    keep_layer0 _ main_arg6 (by decide) (by decide) (by decide) (by decide) (by decide) (by decide) (by decide) (by decide) (by decide),
    keep_layer0 _ main_arg7 (by decide) (by decide) (by decide) (by decide) (by decide) (by decide) (by decide) (by decide) (by decide),
    keep_layer0 _ main_arg8 (by decide) (by decide) (by decide) (by decide) (by decide) (by decide) (by decide) (by decide) (by decide),
    keep_layer0 _ main_arg9 (by decide) (by decide) (by decide) (by decide) (by decide) (by decide) (by decide) (by decide) (by decide),
    keep_layer0 _ main_arg10 (by decide) (by decide) (by decide) (by decide) (by decide) (by decide) (by decide) (by decide) (by decide),
    keep_layer0 _ main_arg11 (by decide) (by decide) (by decide) (by decide) (by decide) (by decide) (by decide) (by decide) (by decide),
    keep_layer0 _ main_arg12 (by decide) (by decide) (by decide) (by decide) (by decide) (by decide) (by decide) (by decide) (by decide)]
  rfl

/-- Every weakly fair execution of the reference ends with the network function of the launch contents of the
    arguments in the result buffer. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v494) = RefNet (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10)) (launchContents m c (Proc.devRef .tc main_arg11)) (launchContents m c (Proc.devRef .tc main_arg12)) :=
  (θ_run defs _ _).mono (fun r h c => (h c main_v494).trans (out_eq _)) (run m ρ)

end Cert.ReferenceIdeal.RefRun

end
-- ==== Proof.FiniteInputs.lean ====
/- From the finiteness precondition to "every entry of every float argument is a real number".

   The precondition is the conjunction, over the eleven float arrays among the thirteen arguments, of "all entries
   satisfy |x| < +∞", each "all" a reduction by `and` over every axis starting from 1, each comparison against the
   infinity word. At the exact values the infinity word is +∞ and |x| is `max x (-x)`, which is +∞ exactly at the two
   infinities; so |x| < +∞ says that x is neither +∞ nor −∞, i.e. a real. A conjunction of bits that is 1 has every
   conjunct 1, and an `and`-reduction to a single result that is 1 met only 1s, so each array's every entry passes the
   comparison. The two integer index vectors carry no condition. -/
import proofs.«113410_j5944234737805_1_alg».proof.Pre_finite_inputs
import proofs.«113410_j5944234737805_1_alg».proof.Proof.Gen.Pre_finite_inputs
import proofs.«113410_j5944234737805_1_alg».proof.Proof.LibMoments
import Idealize.ShloMosaic.Lib.ReduceAll
import Idealize.ShloMosaic.Lib.ValueIdx
import Idealize.ShloMosaic.PureOps.Ideal.Laws

noncomputable section

namespace Cert.FiniteInputs

open Idealize.ShloMosaic Cert.LibMoments Cert.Pre_finite_inputs

/-- A rank-zero array has one index. -/
instance : Subsingleton S_.Idx := ⟨fun a b => funext fun d => d.elim0⟩

/-- The infinity word denotes +∞. -/
theorem ofBits_inf : Ideal.ofBits .f32 0x7F800000#32 = (⊤ : EReal) := by
  simp [Ideal.ofBits, Ideal.ieee]

/-- `|x| < +∞` holding says that `x` is a real. -/
theorem isReal_of_abs_lt_inf (x : EReal)
    (h : Ideal.cmp .olt (max x (-x)) (Ideal.ofBits .f32 0x7F800000#32) = 1#1) : IsReal x := by
  rw [ofBits_inf] at h
  have hlt : max x (-x) < (⊤ : EReal) := by
    by_contra hn
    have h' : BitVec.ofBool (decide (max x (-x) < (⊤ : EReal))) = 1#1 := h
    rw [decide_eq_false hn] at h'
    exact absurd h' (by decide)
  refine IsReal.of_ne ?_ ?_
  · rintro rfl
    simp at hlt
  · rintro rfl
    simp at hlt

/-- One array's check: if the `and` of `|a i| < +∞` over every index is 1, every entry of `a` is a real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf (F := Ideal) .olt (Host.absf a) (broadcastInDim s ![] hb (constant (F := Ideal) S_ .f32 0x7F800000#32)))
          (constantI S_ 1 1#1) hr hu ValueIdx.ix0 = 1#1)
    (i : s.Idx) : IsReal (a i) :=
  isReal_of_abs_lt_inf (a i) (Host.reduce_andi_all _ _ hr hu _ e i)

/-- Under the precondition every entry of each of the eleven float arguments is a real. -/
theorem real_of_pre (a0 : FVec Ideal S50000x128 .f32) (a1 a2 : IVec S800000 32) (a3 : FVec Ideal S5x128x128 .f32)
    (a4 : FVec Ideal S5x128 .f32) (a5 : FVec Ideal S5x128x128 .f32) (a6 a7 a8 a9 a10 a11 a12 : FVec Ideal S5x128 .f32)
    (h : fn (F := Ideal) a0 a1 a2 a3 a4 a5 a6 a7 a8 a9 a10 a11 a12 = fun _ => 1#1) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i))
      ∧ (∀ i, IsReal (a11 i)) ∧ (∀ i, IsReal (a12 i)) := by
  have h0 := congrFun h ValueIdx.ix0
  dsimp only [fn, fn_part1, fn_part2, fn_part3] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨all_real a0 _ _ _ e0, all_real a3 _ _ _ e3, all_real a4 _ _ _ e4, all_real a5 _ _ _ e5, all_real a6 _ _ _ e6,
    all_real a7 _ _ _ e7, all_real a8 _ _ _ e8, all_real a9 _ _ _ e9, all_real a10 _ _ _ e10, all_real a11 _ _ _ e11,
    all_real a12 _ _ _ e12⟩

end Cert.FiniteInputs

end
-- ==== Proof.RefNetReal.lean ====
/- The five-layer network layer by layer: the features entering each layer, and their realness.

   The network applies the layer function five times, layer `l` at row `l` of the stacked parameters, each layer fed the
   previous layer's output and the same edge lists and parameters. Naming the features after one, two, three and four
   layers, the network's result is the fifth layer applied to the features after four. When the incoming features and
   the ten stacked parameter arrays are arrays of real numbers, so are the features after every layer (a layer maps
   reals to reals), hence the input of every layer inside the network is real, and so is the network's result. Under the
   finiteness precondition the eleven float arguments are such arrays. -/
import proofs.«113410_j5944234737805_1_alg».proof.Proof.RefSpec
import proofs.«113410_j5944234737805_1_alg».proof.Proof.RefValue
import proofs.«113410_j5944234737805_1_alg».proof.Proof.FiniteInputs

noncomputable section

namespace Cert.ReferenceIdeal.RefRead

open Cert.ReferenceIdeal Cert.ReferenceIdeal.Gen Cert.ReferenceIdeal.RefRun Idealize.ShloMosaic Idealize.ShloMosaic.ValueIdx
open Cert.LibMoments

section Features

variable {F : FTy → Type} [FloatOps F]

/-- The features after the first layer. -/
def refFeat1 (h : Mat F) (src dst : Ix F) (W1 : Sq5 F) (b1 : Vec5 F) (W2 : Sq5 F) (b2 g1 be1 g2 be2 g3 be3 : Vec5 F) : Mat F :=
  RefLayer 0 slices_S5x128_S1x128_0_0 slices_S5x128x128_S1x128x128_0_0_0 h src dst W1 b1 W2 b2 g1 be1 g2 be2 g3 be3
/-- The features after two layers. -/
def refFeat2 (h : Mat F) (src dst : Ix F) (W1 : Sq5 F) (b1 : Vec5 F) (W2 : Sq5 F) (b2 g1 be1 g2 be2 g3 be3 : Vec5 F) : Mat F :=
  RefLayer 1 slices_S5x128_S1x128_1_0 slices_S5x128x128_S1x128x128_1_0_0 (refFeat1 h src dst W1 b1 W2 b2 g1 be1 g2 be2 g3 be3) src dst W1 b1 W2 b2 g1 be1 g2 be2 g3 be3
/-- The features after three layers. -/
def refFeat3 (h : Mat F) (src dst : Ix F) (W1 : Sq5 F) (b1 : Vec5 F) (W2 : Sq5 F) (b2 g1 be1 g2 be2 g3 be3 : Vec5 F) : Mat F :=
  RefLayer 2 slices_S5x128_S1x128_2_0 slices_S5x128x128_S1x128x128_2_0_0 (refFeat2 h src dst W1 b1 W2 b2 g1 be1 g2 be2 g3 be3) src dst W1 b1 W2 b2 g1 be1 g2 be2 g3 be3
/-- The features after four layers. -/
def refFeat4 (h : Mat F) (src dst : Ix F) (W1 : Sq5 F) (b1 : Vec5 F) (W2 : Sq5 F) (b2 g1 be1 g2 be2 g3 be3 : Vec5 F) : Mat F :=
  RefLayer 3 slices_S5x128_S1x128_3_0 slices_S5x128x128_S1x128x128_3_0_0 (refFeat3 h src dst W1 b1 W2 b2 g1 be1 g2 be2 g3 be3) src dst W1 b1 W2 b2 g1 be1 g2 be2 g3 be3

/-- The network is the fifth layer applied to the features after four. -/
theorem RefNet_eq (h : Mat F) (src dst : Ix F) (W1 : Sq5 F) (b1 : Vec5 F) (W2 : Sq5 F) (b2 g1 be1 g2 be2 g3 be3 : Vec5 F) :
    RefNet h src dst W1 b1 W2 b2 g1 be1 g2 be2 g3 be3 = RefLayer 4 slices_S5x128_S1x128_4_0 slices_S5x128x128_S1x128x128_4_0_0 (refFeat4 h src dst W1 b1 W2 b2 g1 be1 g2 be2 g3 be3) src dst W1 b1 W2 b2 g1 be1 g2 be2 g3 be3 := rfl

end Features

/-- The incoming features and the ten stacked parameter arrays are arrays of real numbers. -/
structure RealArgs (h : Mat Ideal) (W1 : Sq5 Ideal) (b1 : Vec5 Ideal) (W2 : Sq5 Ideal) (b2 g1 be1 g2 be2 g3 be3 : Vec5 Ideal) : Prop where
  h : ∀ i, IsReal (h i)
  W1 : ∀ i, IsReal (W1 i)
  b1 : ∀ i, IsReal (b1 i)
  W2 : ∀ i, IsReal (W2 i)
  b2 : ∀ i, IsReal (b2 i)
  g1 : ∀ i, IsReal (g1 i)
  be1 : ∀ i, IsReal (be1 i)
  g2 : ∀ i, IsReal (g2 i)
  be2 : ∀ i, IsReal (be2 i)
  g3 : ∀ i, IsReal (g3 i)
  be3 : ∀ i, IsReal (be3 i)

/-- A layer at any row maps real features to real features, the parameters being real. -/
theorem RealArgs.layer {h : Mat Ideal} {W1 : Sq5 Ideal} {b1 : Vec5 Ideal} {W2 : Sq5 Ideal} {b2 g1 be1 g2 be2 g3 be3 : Vec5 Ideal}
    (ha : RealArgs h W1 b1 W2 b2 g1 be1 g2 be2 g3 be3) (l : ℕ) (hs2 : S5x128.Slices ![l, 0] S1x128)
    (hs3 : S5x128x128.Slices ![l, 0, 0] S1x128x128) (y : Mat Ideal) (hy : ∀ i, IsReal (y i)) (src dst : Ix Ideal) (i) :
    IsReal (RefLayer l hs2 hs3 y src dst W1 b1 W2 b2 g1 be1 g2 be2 g3 be3 i) :=
  refLayer_isReal l hs2 hs3 y src dst W1 b1 W2 b2 g1 be1 g2 be2 g3 be3 hy ha.W1 ha.b1 ha.W2 ha.b2 ha.g1 ha.be1 ha.g2 ha.be2
    ha.g3 ha.be3 i

variable (h : Mat Ideal) (src dst : Ix Ideal) (W1 : Sq5 Ideal) (b1 : Vec5 Ideal) (W2 : Sq5 Ideal) (b2 g1 be1 g2 be2 g3 be3 : Vec5 Ideal)

/-- The input of layer 2 inside the network is real. -/
theorem refFeat1_isReal (ha : RealArgs h W1 b1 W2 b2 g1 be1 g2 be2 g3 be3) (i) : IsReal (refFeat1 h src dst W1 b1 W2 b2 g1 be1 g2 be2 g3 be3 i) :=
  ha.layer 0 _ _ h ha.h src dst i
/-- The input of layer 3 inside the network is real. -/
theorem refFeat2_isReal (ha : RealArgs h W1 b1 W2 b2 g1 be1 g2 be2 g3 be3) (i) : IsReal (refFeat2 h src dst W1 b1 W2 b2 g1 be1 g2 be2 g3 be3 i) :=
  ha.layer 1 _ _ _ (refFeat1_isReal h src dst W1 b1 W2 b2 g1 be1 g2 be2 g3 be3 ha) src dst i
/-- The input of layer 4 inside the network is real. -/
theorem refFeat3_isReal (ha : RealArgs h W1 b1 W2 b2 g1 be1 g2 be2 g3 be3) (i) : IsReal (refFeat3 h src dst W1 b1 W2 b2 g1 be1 g2 be2 g3 be3 i) :=
  ha.layer 2 _ _ _ (refFeat2_isReal h src dst W1 b1 W2 b2 g1 be1 g2 be2 g3 be3 ha) src dst i
/-- The input of layer 5 inside the network is real. -/
theorem refFeat4_isReal (ha : RealArgs h W1 b1 W2 b2 g1 be1 g2 be2 g3 be3) (i) : IsReal (refFeat4 h src dst W1 b1 W2 b2 g1 be1 g2 be2 g3 be3 i) :=
  ha.layer 3 _ _ _ (refFeat3_isReal h src dst W1 b1 W2 b2 g1 be1 g2 be2 g3 be3 ha) src dst i
/-- The network's result is real. -/
theorem RefNet_isReal (ha : RealArgs h W1 b1 W2 b2 g1 be1 g2 be2 g3 be3) (i) : IsReal (RefNet h src dst W1 b1 W2 b2 g1 be1 g2 be2 g3 be3 i) := by
  rw [RefNet_eq]
  exact ha.layer 4 _ _ _ (refFeat4_isReal h src dst W1 b1 W2 b2 g1 be1 g2 be2 g3 be3 ha) src dst i

/-- Under the finiteness precondition the eleven float arguments are arrays of reals. -/
theorem realArgs_of_pre
    (hp : Cert.Pre_finite_inputs.fn (F := Ideal) h src dst W1 b1 W2 b2 g1 be1 g2 be2 g3 be3 = fun _ => 1#1) :
    RealArgs h W1 b1 W2 b2 g1 be1 g2 be2 g3 be3 := by
  obtain ⟨r0, r3, r4, r5, r6, r7, r8, r9, r10, r11, r12⟩ :=
    Cert.FiniteInputs.real_of_pre h src dst W1 b1 W2 b2 g1 be1 g2 be2 g3 be3 hp
  exact ⟨r0, r3, r4, r5, r6, r7, r8, r9, r10, r11, r12⟩

end Cert.ReferenceIdeal.RefRead

end
-- ==== Proof.JoinLayer.lean ====
/-
  One layer of the kernel program and one layer of the reference are the same function on real features. The kernel program's
  layer is the layer function with moment variances, of the features plus their neighbour sum, at parameters it slices out
  of the stacked arguments; the reference's layer is the layer function with centred variances at the same parameters in
  its own spelling. The two spellings of the parameters agree, the two spellings of the neighbour sum agree, and on real
  data the two variances agree.
-/
import proofs.«113410_j5944234737805_1_alg».proof.Proof.JoinRows
import proofs.«113410_j5944234737805_1_alg».proof.Proof.RefNetReal
import proofs.«113410_j5944234737805_1_alg».proof.Proof.KPay1
import proofs.«113410_j5944234737805_1_alg».proof.Proof.GinSpec
import proofs.«113410_j5944234737805_1_alg».proof.Proof.GinConsts

noncomputable section

namespace Cert.JoinLayer

open Idealize.ShloMosaic Idealize.ShloMosaic.TcCoe Idealize.ShloMosaic.ValueIdx Cert.LibMoments
open Cert.KernelIdeal Cert.ReferenceIdeal.RefRun Cert.ReferenceIdeal.RefRead

/-- The epsilon and the zero of the normalisations. -/
abbrev eps : EReal := Ideal.ofBits .f32 0x3727C5AC#32
abbrev zero : EReal := Ideal.ofBits .f32 0x00000000#32

/-- The parameters of layer l as the kernel program slices them out of the stacked arguments. -/
def kParams (l : ℕ) (hs2 : Cert.KernelIdeal.S5x128.Slices ![l, 0] Cert.KernelIdeal.S1x128)
    (hs3 : Cert.KernelIdeal.S5x128x128.Slices ![l, 0, 0] Cert.KernelIdeal.S1x128x128) (W1 : (⟨Cert.KernelIdeal.S5x128x128, .f32⟩ : BufTy).Contents (Elt Ideal)) (b1 : (⟨Cert.KernelIdeal.S5x128, .f32⟩ : BufTy).Contents (Elt Ideal)) (W2 : (⟨Cert.KernelIdeal.S5x128x128, .f32⟩ : BufTy).Contents (Elt Ideal)) (b2 g1 be1 g2 be2 g3 be3 : (⟨Cert.KernelIdeal.S5x128, .f32⟩ : BufTy).Contents (Elt Ideal)) : GinSpec.Params where
  W1 := KHost.matL l hs3 W1
  b1 := KHost.rowL l hs2 b1
  W2 := KHost.matL l hs3 W2
  b2 := KHost.rowL l hs2 b2
  g1 := KPay.rowAt (KHost.rowL l hs2 g1)
  β1 := KPay.rowAt (KHost.rowL l hs2 be1)
  g2 := KPay.rowAt (KHost.rowL l hs2 g2)
  β2 := KPay.rowAt (KHost.rowL l hs2 be2)
  g3 := KPay.rowAt (KHost.rowL l hs2 g3)
  β3 := KPay.rowAt (KHost.rowL l hs2 be3)

/-- They are the reference's parameters. -/
theorem kParams_eq (l : ℕ) (hs2 : Cert.KernelIdeal.S5x128.Slices ![l, 0] Cert.KernelIdeal.S1x128)
    (hs3 : Cert.KernelIdeal.S5x128x128.Slices ![l, 0, 0] Cert.KernelIdeal.S1x128x128)
    (hs2' : Cert.ReferenceIdeal.S5x128.Slices ![l, 0] Cert.ReferenceIdeal.S1x128)
    (hs3' : Cert.ReferenceIdeal.S5x128x128.Slices ![l, 0, 0] Cert.ReferenceIdeal.S1x128x128) (W1 : (⟨Cert.KernelIdeal.S5x128x128, .f32⟩ : BufTy).Contents (Elt Ideal)) (b1 : (⟨Cert.KernelIdeal.S5x128, .f32⟩ : BufTy).Contents (Elt Ideal)) (W2 : (⟨Cert.KernelIdeal.S5x128x128, .f32⟩ : BufTy).Contents (Elt Ideal)) (b2 g1 be1 g2 be2 g3 be3 : (⟨Cert.KernelIdeal.S5x128, .f32⟩ : BufTy).Contents (Elt Ideal)) :
    kParams l hs2 hs3 W1 b1 W2 b2 g1 be1 g2 be2 g3 be3 = refParams l hs2' hs3' W1 b1 W2 b2 g1 be1 g2 be2 g3 be3 := by
  have hr : ∀ p : (⟨Cert.KernelIdeal.S5x128, .f32⟩ : BufTy).Contents (Elt Ideal), KPay.rowAt (KHost.rowL l hs2 p) = fun c => refRow l hs2' p (ix1 c) :=
    fun p => funext fun c => Cert.Join.rowL_apply l hs2 hs2' p c
  unfold kParams refParams
  rw [Cert.Join.matL_eq l hs3 hs3' W1, Cert.Join.matL_eq l hs3 hs3' W2, Cert.Join.rowL_eq_bias l hs2 hs2' b1,
    Cert.Join.rowL_eq_bias l hs2 hs2' b2, hr g1, hr be1, hr g2, hr be2, hr g3, hr be3]

/-- On real features and real parameters, the kernel program's layer is the reference's. -/
theorem layer_join (l : ℕ) (hs2 : Cert.KernelIdeal.S5x128.Slices ![l, 0] Cert.KernelIdeal.S1x128)
    (hs3 : Cert.KernelIdeal.S5x128x128.Slices ![l, 0, 0] Cert.KernelIdeal.S1x128x128)
    (hs2' : Cert.ReferenceIdeal.S5x128.Slices ![l, 0] Cert.ReferenceIdeal.S1x128)
    (hs3' : Cert.ReferenceIdeal.S5x128x128.Slices ![l, 0, 0] Cert.ReferenceIdeal.S1x128x128)
    (x : Mat Ideal) (hx : ∀ i, IsReal (x i)) (src dst : Ix Ideal) (W1 : (⟨Cert.KernelIdeal.S5x128x128, .f32⟩ : BufTy).Contents (Elt Ideal)) (b1 : (⟨Cert.KernelIdeal.S5x128, .f32⟩ : BufTy).Contents (Elt Ideal)) (W2 : (⟨Cert.KernelIdeal.S5x128x128, .f32⟩ : BufTy).Contents (Elt Ideal)) (b2 g1 be1 g2 be2 g3 be3 : (⟨Cert.KernelIdeal.S5x128, .f32⟩ : BufTy).Contents (Elt Ideal))
    {h : Mat Ideal} (ha : RealArgs h W1 b1 W2 b2 g1 be1 g2 be2 g3 be3) :
    GinSpec.layerM eps zero (kParams l hs2 hs3 W1 b1 W2 b2 g1 be1 g2 be2 g3 be3) (KHost.rst x src dst)
      = RefLayer l hs2' hs3' x src dst W1 b1 W2 b2 g1 be1 g2 be2 g3 be3 := by
  rw [refLayer_eq, ← Cert.Join.rst_eq x src dst, kParams_eq l hs2 hs3 hs2' hs3']
  exact GinSpec.layerM_eq_layerC GinConsts.ofBits_eps zero_word_isReal _
    (refParams_real l hs2' hs3' W1 b1 W2 b2 g1 be1 g2 be2 g3 be3 ha.W1 ha.b1 ha.W2 ha.b2 ha.g1 ha.be1 ha.g2 ha.be2 ha.g3 ha.be3) _
    (fun i => by rw [Cert.Join.rst_eq]; exact refRst_isReal x src dst hx i)

end Cert.JoinLayer

end
-- ==== Proof.Net.lean ====
/-
  The whole kernel program: five layers, each the layer function of the previous layer's features and the launch arguments
  (no layer writes an argument). On real launch contents each layer is the reference's layer, from the first to the last,
  the realness of each layer's features handed to the next. So the result buffer ends at the reference network of the
  launch contents.
-/
import proofs.«113410_j5944234737805_1_alg».proof.Proof.Layer0
import proofs.«113410_j5944234737805_1_alg».proof.Proof.Layer1
import proofs.«113410_j5944234737805_1_alg».proof.Proof.Layer2
import proofs.«113410_j5944234737805_1_alg».proof.Proof.Layer3
import proofs.«113410_j5944234737805_1_alg».proof.Proof.Layer4
import proofs.«113410_j5944234737805_1_alg».proof.Proof.JoinLayer

noncomputable section

open Idealize.ShloMosaic Idealize.ShloMosaic.TcCoe Idealize.SL.Sem Idealize.ShloMosaic.ValueIdx

namespace Cert.KernelIdeal.Net

open Cert.KernelIdeal Cert.KernelIdeal.Gen Cert.ReferenceIdeal.RefRun Cert.ReferenceIdeal.RefRead Cert.LibMoments

variable (m : (ℓ : Loc nD τ sig) → Buf (Elt Ideal) ℓ) (ρ : Dev nD → PrngReg)

/-! ## The arguments at every layer's start are the launch contents -/

theorem argsAt8_main_arg1 (c : Dev nD) : W8 m ρ c (Proc.devRef .tc main_arg1) = W0 m ρ c (Proc.devRef .tc main_arg1) :=
  (Layer0.args_main_arg1 m ρ c)
theorem argsAt8_main_arg2 (c : Dev nD) : W8 m ρ c (Proc.devRef .tc main_arg2) = W0 m ρ c (Proc.devRef .tc main_arg2) :=
  (Layer0.args_main_arg2 m ρ c)
theorem argsAt8_main_arg3 (c : Dev nD) : W8 m ρ c (Proc.devRef .tc main_arg3) = W0 m ρ c (Proc.devRef .tc main_arg3) :=
  (Layer0.args_main_arg3 m ρ c)
theorem argsAt8_main_arg4 (c : Dev nD) : W8 m ρ c (Proc.devRef .tc main_arg4) = W0 m ρ c (Proc.devRef .tc main_arg4) :=
  (Layer0.args_main_arg4 m ρ c)
theorem argsAt8_main_arg5 (c : Dev nD) : W8 m ρ c (Proc.devRef .tc main_arg5) = W0 m ρ c (Proc.devRef .tc main_arg5) :=
  (Layer0.args_main_arg5 m ρ c)
theorem argsAt8_main_arg6 (c : Dev nD) : W8 m ρ c (Proc.devRef .tc main_arg6) = W0 m ρ c (Proc.devRef .tc main_arg6) :=
  (Layer0.args_main_arg6 m ρ c)
theorem argsAt8_main_arg7 (c : Dev nD) : W8 m ρ c (Proc.devRef .tc main_arg7) = W0 m ρ c (Proc.devRef .tc main_arg7) :=
  (Layer0.args_main_arg7 m ρ c)
theorem argsAt8_main_arg8 (c : Dev nD) : W8 m ρ c (Proc.devRef .tc main_arg8) = W0 m ρ c (Proc.devRef .tc main_arg8) :=
  (Layer0.args_main_arg8 m ρ c)
theorem argsAt8_main_arg9 (c : Dev nD) : W8 m ρ c (Proc.devRef .tc main_arg9) = W0 m ρ c (Proc.devRef .tc main_arg9) :=
  (Layer0.args_main_arg9 m ρ c)
theorem argsAt8_main_arg10 (c : Dev nD) : W8 m ρ c (Proc.devRef .tc main_arg10) = W0 m ρ c (Proc.devRef .tc main_arg10) :=
  (Layer0.args_main_arg10 m ρ c)
theorem argsAt8_main_arg11 (c : Dev nD) : W8 m ρ c (Proc.devRef .tc main_arg11) = W0 m ρ c (Proc.devRef .tc main_arg11) :=
  (Layer0.args_main_arg11 m ρ c)
theorem argsAt8_main_arg12 (c : Dev nD) : W8 m ρ c (Proc.devRef .tc main_arg12) = W0 m ρ c (Proc.devRef .tc main_arg12) :=
  (Layer0.args_main_arg12 m ρ c)
theorem argsAt16_main_arg1 (c : Dev nD) : W16 m ρ c (Proc.devRef .tc main_arg1) = W0 m ρ c (Proc.devRef .tc main_arg1) :=
  (Layer1.args_main_arg1 m ρ c).trans (argsAt8_main_arg1 m ρ c)
theorem argsAt16_main_arg2 (c : Dev nD) : W16 m ρ c (Proc.devRef .tc main_arg2) = W0 m ρ c (Proc.devRef .tc main_arg2) :=
  (Layer1.args_main_arg2 m ρ c).trans (argsAt8_main_arg2 m ρ c)
theorem argsAt16_main_arg3 (c : Dev nD) : W16 m ρ c (Proc.devRef .tc main_arg3) = W0 m ρ c (Proc.devRef .tc main_arg3) :=
  (Layer1.args_main_arg3 m ρ c).trans (argsAt8_main_arg3 m ρ c)
theorem argsAt16_main_arg4 (c : Dev nD) : W16 m ρ c (Proc.devRef .tc main_arg4) = W0 m ρ c (Proc.devRef .tc main_arg4) :=
  (Layer1.args_main_arg4 m ρ c).trans (argsAt8_main_arg4 m ρ c)
theorem argsAt16_main_arg5 (c : Dev nD) : W16 m ρ c (Proc.devRef .tc main_arg5) = W0 m ρ c (Proc.devRef .tc main_arg5) :=
  (Layer1.args_main_arg5 m ρ c).trans (argsAt8_main_arg5 m ρ c)
theorem argsAt16_main_arg6 (c : Dev nD) : W16 m ρ c (Proc.devRef .tc main_arg6) = W0 m ρ c (Proc.devRef .tc main_arg6) :=
  (Layer1.args_main_arg6 m ρ c).trans (argsAt8_main_arg6 m ρ c)
theorem argsAt16_main_arg7 (c : Dev nD) : W16 m ρ c (Proc.devRef .tc main_arg7) = W0 m ρ c (Proc.devRef .tc main_arg7) :=
  (Layer1.args_main_arg7 m ρ c).trans (argsAt8_main_arg7 m ρ c)
theorem argsAt16_main_arg8 (c : Dev nD) : W16 m ρ c (Proc.devRef .tc main_arg8) = W0 m ρ c (Proc.devRef .tc main_arg8) :=
  (Layer1.args_main_arg8 m ρ c).trans (argsAt8_main_arg8 m ρ c)
theorem argsAt16_main_arg9 (c : Dev nD) : W16 m ρ c (Proc.devRef .tc main_arg9) = W0 m ρ c (Proc.devRef .tc main_arg9) :=
  (Layer1.args_main_arg9 m ρ c).trans (argsAt8_main_arg9 m ρ c)
theorem argsAt16_main_arg10 (c : Dev nD) : W16 m ρ c (Proc.devRef .tc main_arg10) = W0 m ρ c (Proc.devRef .tc main_arg10) :=
  (Layer1.args_main_arg10 m ρ c).trans (argsAt8_main_arg10 m ρ c)
theorem argsAt16_main_arg11 (c : Dev nD) : W16 m ρ c (Proc.devRef .tc main_arg11) = W0 m ρ c (Proc.devRef .tc main_arg11) :=
  (Layer1.args_main_arg11 m ρ c).trans (argsAt8_main_arg11 m ρ c)
theorem argsAt16_main_arg12 (c : Dev nD) : W16 m ρ c (Proc.devRef .tc main_arg12) = W0 m ρ c (Proc.devRef .tc main_arg12) :=
  (Layer1.args_main_arg12 m ρ c).trans (argsAt8_main_arg12 m ρ c)
theorem argsAt24_main_arg1 (c : Dev nD) : W24 m ρ c (Proc.devRef .tc main_arg1) = W0 m ρ c (Proc.devRef .tc main_arg1) :=
  (Layer2.args_main_arg1 m ρ c).trans (argsAt16_main_arg1 m ρ c)
theorem argsAt24_main_arg2 (c : Dev nD) : W24 m ρ c (Proc.devRef .tc main_arg2) = W0 m ρ c (Proc.devRef .tc main_arg2) :=
  (Layer2.args_main_arg2 m ρ c).trans (argsAt16_main_arg2 m ρ c)
theorem argsAt24_main_arg3 (c : Dev nD) : W24 m ρ c (Proc.devRef .tc main_arg3) = W0 m ρ c (Proc.devRef .tc main_arg3) :=
  (Layer2.args_main_arg3 m ρ c).trans (argsAt16_main_arg3 m ρ c)
theorem argsAt24_main_arg4 (c : Dev nD) : W24 m ρ c (Proc.devRef .tc main_arg4) = W0 m ρ c (Proc.devRef .tc main_arg4) :=
  (Layer2.args_main_arg4 m ρ c).trans (argsAt16_main_arg4 m ρ c)
theorem argsAt24_main_arg5 (c : Dev nD) : W24 m ρ c (Proc.devRef .tc main_arg5) = W0 m ρ c (Proc.devRef .tc main_arg5) :=
  (Layer2.args_main_arg5 m ρ c).trans (argsAt16_main_arg5 m ρ c)
theorem argsAt24_main_arg6 (c : Dev nD) : W24 m ρ c (Proc.devRef .tc main_arg6) = W0 m ρ c (Proc.devRef .tc main_arg6) :=
  (Layer2.args_main_arg6 m ρ c).trans (argsAt16_main_arg6 m ρ c)
theorem argsAt24_main_arg7 (c : Dev nD) : W24 m ρ c (Proc.devRef .tc main_arg7) = W0 m ρ c (Proc.devRef .tc main_arg7) :=
  (Layer2.args_main_arg7 m ρ c).trans (argsAt16_main_arg7 m ρ c)
theorem argsAt24_main_arg8 (c : Dev nD) : W24 m ρ c (Proc.devRef .tc main_arg8) = W0 m ρ c (Proc.devRef .tc main_arg8) :=
  (Layer2.args_main_arg8 m ρ c).trans (argsAt16_main_arg8 m ρ c)
theorem argsAt24_main_arg9 (c : Dev nD) : W24 m ρ c (Proc.devRef .tc main_arg9) = W0 m ρ c (Proc.devRef .tc main_arg9) :=
  (Layer2.args_main_arg9 m ρ c).trans (argsAt16_main_arg9 m ρ c)
theorem argsAt24_main_arg10 (c : Dev nD) : W24 m ρ c (Proc.devRef .tc main_arg10) = W0 m ρ c (Proc.devRef .tc main_arg10) :=
  (Layer2.args_main_arg10 m ρ c).trans (argsAt16_main_arg10 m ρ c)
theorem argsAt24_main_arg11 (c : Dev nD) : W24 m ρ c (Proc.devRef .tc main_arg11) = W0 m ρ c (Proc.devRef .tc main_arg11) :=
  (Layer2.args_main_arg11 m ρ c).trans (argsAt16_main_arg11 m ρ c)
theorem argsAt24_main_arg12 (c : Dev nD) : W24 m ρ c (Proc.devRef .tc main_arg12) = W0 m ρ c (Proc.devRef .tc main_arg12) :=
  (Layer2.args_main_arg12 m ρ c).trans (argsAt16_main_arg12 m ρ c)
theorem argsAt32_main_arg1 (c : Dev nD) : W32 m ρ c (Proc.devRef .tc main_arg1) = W0 m ρ c (Proc.devRef .tc main_arg1) :=
  (Layer3.args_main_arg1 m ρ c).trans (argsAt24_main_arg1 m ρ c)
theorem argsAt32_main_arg2 (c : Dev nD) : W32 m ρ c (Proc.devRef .tc main_arg2) = W0 m ρ c (Proc.devRef .tc main_arg2) :=
  (Layer3.args_main_arg2 m ρ c).trans (argsAt24_main_arg2 m ρ c)
theorem argsAt32_main_arg3 (c : Dev nD) : W32 m ρ c (Proc.devRef .tc main_arg3) = W0 m ρ c (Proc.devRef .tc main_arg3) :=
  (Layer3.args_main_arg3 m ρ c).trans (argsAt24_main_arg3 m ρ c)
theorem argsAt32_main_arg4 (c : Dev nD) : W32 m ρ c (Proc.devRef .tc main_arg4) = W0 m ρ c (Proc.devRef .tc main_arg4) :=
  (Layer3.args_main_arg4 m ρ c).trans (argsAt24_main_arg4 m ρ c)
theorem argsAt32_main_arg5 (c : Dev nD) : W32 m ρ c (Proc.devRef .tc main_arg5) = W0 m ρ c (Proc.devRef .tc main_arg5) :=
  (Layer3.args_main_arg5 m ρ c).trans (argsAt24_main_arg5 m ρ c)
theorem argsAt32_main_arg6 (c : Dev nD) : W32 m ρ c (Proc.devRef .tc main_arg6) = W0 m ρ c (Proc.devRef .tc main_arg6) :=
  (Layer3.args_main_arg6 m ρ c).trans (argsAt24_main_arg6 m ρ c)
theorem argsAt32_main_arg7 (c : Dev nD) : W32 m ρ c (Proc.devRef .tc main_arg7) = W0 m ρ c (Proc.devRef .tc main_arg7) :=
  (Layer3.args_main_arg7 m ρ c).trans (argsAt24_main_arg7 m ρ c)
theorem argsAt32_main_arg8 (c : Dev nD) : W32 m ρ c (Proc.devRef .tc main_arg8) = W0 m ρ c (Proc.devRef .tc main_arg8) :=
  (Layer3.args_main_arg8 m ρ c).trans (argsAt24_main_arg8 m ρ c)
theorem argsAt32_main_arg9 (c : Dev nD) : W32 m ρ c (Proc.devRef .tc main_arg9) = W0 m ρ c (Proc.devRef .tc main_arg9) :=
  (Layer3.args_main_arg9 m ρ c).trans (argsAt24_main_arg9 m ρ c)
theorem argsAt32_main_arg10 (c : Dev nD) : W32 m ρ c (Proc.devRef .tc main_arg10) = W0 m ρ c (Proc.devRef .tc main_arg10) :=
  (Layer3.args_main_arg10 m ρ c).trans (argsAt24_main_arg10 m ρ c)
theorem argsAt32_main_arg11 (c : Dev nD) : W32 m ρ c (Proc.devRef .tc main_arg11) = W0 m ρ c (Proc.devRef .tc main_arg11) :=
  (Layer3.args_main_arg11 m ρ c).trans (argsAt24_main_arg11 m ρ c)
theorem argsAt32_main_arg12 (c : Dev nD) : W32 m ρ c (Proc.devRef .tc main_arg12) = W0 m ρ c (Proc.devRef .tc main_arg12) :=
  (Layer3.args_main_arg12 m ρ c).trans (argsAt24_main_arg12 m ρ c)

/-! ## The five layers -/

/-- Layer 0: its output features are the layer function of its input features and the launch arguments. -/
theorem step0 (c : Dev nD) :
    W8 m ρ c (Proc.devRef .tc main_v60)
      = GinSpec.layerM Cert.JoinLayer.eps Cert.JoinLayer.zero
          (Cert.JoinLayer.kParams 0 Cert.KernelIdeal.Gen.slices_S5x128_S1x128_0_0 Cert.KernelIdeal.Gen.slices_S5x128x128_S1x128x128_0_0_0 (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)))
          (KHost.rst (W0 m ρ c (Proc.devRef .tc main_arg0)) (W0 m ρ c (Proc.devRef .tc main_arg1)) (W0 m ρ c (Proc.devRef .tc main_arg2))) := by
  refine (Layer0.layer_out m ρ c).trans ?_
  unfold Layer0.P0 Layer0.Y0 Cert.JoinLayer.kParams
  rfl

/-- Layer 1: its output features are the layer function of its input features and the launch arguments. -/
theorem step1 (c : Dev nD) :
    W16 m ρ c (Proc.devRef .tc main_v121)
      = GinSpec.layerM Cert.JoinLayer.eps Cert.JoinLayer.zero
          (Cert.JoinLayer.kParams 1 Cert.KernelIdeal.Gen.slices_S5x128_S1x128_1_0 Cert.KernelIdeal.Gen.slices_S5x128x128_S1x128x128_1_0_0 (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)))
          (KHost.rst (W8 m ρ c (Proc.devRef .tc main_v60)) (W0 m ρ c (Proc.devRef .tc main_arg1)) (W0 m ρ c (Proc.devRef .tc main_arg2))) := by
  refine (Layer1.layer_out m ρ c).trans ?_
  unfold Layer1.P0 Layer1.Y0 Cert.JoinLayer.kParams
  rw [argsAt8_main_arg1 m ρ c, argsAt8_main_arg2 m ρ c, argsAt8_main_arg3 m ρ c, argsAt8_main_arg4 m ρ c, argsAt8_main_arg5 m ρ c, argsAt8_main_arg6 m ρ c, argsAt8_main_arg7 m ρ c, argsAt8_main_arg8 m ρ c, argsAt8_main_arg9 m ρ c, argsAt8_main_arg10 m ρ c, argsAt8_main_arg11 m ρ c, argsAt8_main_arg12 m ρ c]

/-- Layer 2: its output features are the layer function of its input features and the launch arguments. -/
theorem step2 (c : Dev nD) :
    W24 m ρ c (Proc.devRef .tc main_v182)
      = GinSpec.layerM Cert.JoinLayer.eps Cert.JoinLayer.zero
          (Cert.JoinLayer.kParams 2 Cert.KernelIdeal.Gen.slices_S5x128_S1x128_2_0 Cert.KernelIdeal.Gen.slices_S5x128x128_S1x128x128_2_0_0 (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)))
          (KHost.rst (W16 m ρ c (Proc.devRef .tc main_v121)) (W0 m ρ c (Proc.devRef .tc main_arg1)) (W0 m ρ c (Proc.devRef .tc main_arg2))) := by
  refine (Layer2.layer_out m ρ c).trans ?_
  unfold Layer2.P0 Layer2.Y0 Cert.JoinLayer.kParams
  rw [argsAt16_main_arg1 m ρ c, argsAt16_main_arg2 m ρ c, argsAt16_main_arg3 m ρ c, argsAt16_main_arg4 m ρ c, argsAt16_main_arg5 m ρ c, argsAt16_main_arg6 m ρ c, argsAt16_main_arg7 m ρ c, argsAt16_main_arg8 m ρ c, argsAt16_main_arg9 m ρ c, argsAt16_main_arg10 m ρ c, argsAt16_main_arg11 m ρ c, argsAt16_main_arg12 m ρ c]

/-- Layer 3: its output features are the layer function of its input features and the launch arguments. -/
theorem step3 (c : Dev nD) :
    W32 m ρ c (Proc.devRef .tc main_v243)
      = GinSpec.layerM Cert.JoinLayer.eps Cert.JoinLayer.zero
          (Cert.JoinLayer.kParams 3 Cert.KernelIdeal.Gen.slices_S5x128_S1x128_3_0 Cert.KernelIdeal.Gen.slices_S5x128x128_S1x128x128_3_0_0 (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)))
          (KHost.rst (W24 m ρ c (Proc.devRef .tc main_v182)) (W0 m ρ c (Proc.devRef .tc main_arg1)) (W0 m ρ c (Proc.devRef .tc main_arg2))) := by
  refine (Layer3.layer_out m ρ c).trans ?_
  unfold Layer3.P0 Layer3.Y0 Cert.JoinLayer.kParams
  rw [argsAt24_main_arg1 m ρ c, argsAt24_main_arg2 m ρ c, argsAt24_main_arg3 m ρ c, argsAt24_main_arg4 m ρ c, argsAt24_main_arg5 m ρ c, argsAt24_main_arg6 m ρ c, argsAt24_main_arg7 m ρ c, argsAt24_main_arg8 m ρ c, argsAt24_main_arg9 m ρ c, argsAt24_main_arg10 m ρ c, argsAt24_main_arg11 m ρ c, argsAt24_main_arg12 m ρ c]

/-- Layer 4: its output features are the layer function of its input features and the launch arguments. -/
theorem step4 (c : Dev nD) :
    W40 m ρ c (Proc.devRef .tc main_v304)
      = GinSpec.layerM Cert.JoinLayer.eps Cert.JoinLayer.zero
          (Cert.JoinLayer.kParams 4 Cert.KernelIdeal.Gen.slices_S5x128_S1x128_4_0 Cert.KernelIdeal.Gen.slices_S5x128x128_S1x128x128_4_0_0 (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)))
          (KHost.rst (W32 m ρ c (Proc.devRef .tc main_v243)) (W0 m ρ c (Proc.devRef .tc main_arg1)) (W0 m ρ c (Proc.devRef .tc main_arg2))) := by
  refine (Layer4.layer_out m ρ c).trans ?_
  unfold Layer4.P0 Layer4.Y0 Cert.JoinLayer.kParams
  rw [argsAt32_main_arg1 m ρ c, argsAt32_main_arg2 m ρ c, argsAt32_main_arg3 m ρ c, argsAt32_main_arg4 m ρ c, argsAt32_main_arg5 m ρ c, argsAt32_main_arg6 m ρ c, argsAt32_main_arg7 m ρ c, argsAt32_main_arg8 m ρ c, argsAt32_main_arg9 m ρ c, argsAt32_main_arg10 m ρ c, argsAt32_main_arg11 m ρ c, argsAt32_main_arg12 m ρ c]

/-! ## The network -/

/-- On real launch contents the result buffer ends at the reference network of the launch contents. -/
theorem result_eq (c : Dev nD) (ha : RealArgs (W0 m ρ c (Proc.devRef .tc main_arg0)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12))) :
    W40 m ρ c (Proc.devRef .tc main_v304) = RefNet (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) := by
  have e1 : W8 m ρ c (Proc.devRef .tc main_v60) = refFeat1 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) :=
    (step0 m ρ c).trans (Cert.JoinLayer.layer_join 0 _ _ Cert.ReferenceIdeal.Gen.slices_S5x128_S1x128_0_0 Cert.ReferenceIdeal.Gen.slices_S5x128x128_S1x128x128_0_0_0 _ ha.h _ _ _ _ _ _ _ _ _ _ _ _ ha)
  have e2 : W16 m ρ c (Proc.devRef .tc main_v121) = refFeat2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) := by
    refine (step1 m ρ c).trans ?_
    rw [e1]
    exact Cert.JoinLayer.layer_join 1 _ _ Cert.ReferenceIdeal.Gen.slices_S5x128_S1x128_1_0 Cert.ReferenceIdeal.Gen.slices_S5x128x128_S1x128x128_1_0_0 _ (refFeat1_isReal _ _ _ _ _ _ _ _ _ _ _ _ _ ha) _ _ _ _ _ _ _ _ _ _ _ _ ha
  have e3 : W24 m ρ c (Proc.devRef .tc main_v182) = refFeat3 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) := by
    refine (step2 m ρ c).trans ?_
    rw [e2]
    exact Cert.JoinLayer.layer_join 2 _ _ Cert.ReferenceIdeal.Gen.slices_S5x128_S1x128_2_0 Cert.ReferenceIdeal.Gen.slices_S5x128x128_S1x128x128_2_0_0 _ (refFeat2_isReal _ _ _ _ _ _ _ _ _ _ _ _ _ ha) _ _ _ _ _ _ _ _ _ _ _ _ ha
  have e4 : W32 m ρ c (Proc.devRef .tc main_v243) = refFeat4 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) := by
    refine (step3 m ρ c).trans ?_
    rw [e3]
    exact Cert.JoinLayer.layer_join 3 _ _ Cert.ReferenceIdeal.Gen.slices_S5x128_S1x128_3_0 Cert.ReferenceIdeal.Gen.slices_S5x128x128_S1x128x128_3_0_0 _ (refFeat3_isReal _ _ _ _ _ _ _ _ _ _ _ _ _ ha) _ _ _ _ _ _ _ _ _ _ _ _ ha
  refine (step4 m ρ c).trans ?_
  rw [e4, RefNet_eq]
  exact Cert.JoinLayer.layer_join 4 _ _ Cert.ReferenceIdeal.Gen.slices_S5x128_S1x128_4_0 Cert.ReferenceIdeal.Gen.slices_S5x128x128_S1x128x128_4_0_0 _ (refFeat4_isReal _ _ _ _ _ _ _ _ _ _ _ _ _ ha) _ _ _ _ _ _ _ _ _ _ _ _ ha

end Cert.KernelIdeal.Net

end
-- ==== Proof.lean ====
/-
  The certificate. The kernel is a five-layer graph network: per layer a neighbour sum by host operations and four kernel
  regions (a dense layer with running column sums; normalise, rectify and a second dense layer with running sums;
  normalise and rectify with running sums; normalise and rectify), the column statistics taken from the running sums as
  mean square minus squared mean. The reference is the same network by whole-array operations, its variances centred.
  Both programs run without fault and leave their arguments alone (the kernel program by its regions' run, the reference
  by its straight line of operations). At the exact values and on finite inputs every intermediate array is real, the two
  variances agree, and tile by tile the kernels compute the whole-array layers; so the two results are equal.
-/
import proofs.«113410_j5944234737805_1_alg».proof.Defs
import proofs.«113410_j5944234737805_1_alg».proof.Proof.Gen.Kernel
import proofs.«113410_j5944234737805_1_alg».proof.Proof.Gen.Kernel.Frame
import proofs.«113410_j5944234737805_1_alg».proof.Proof.Gen.KernelIdeal
import proofs.«113410_j5944234737805_1_alg».proof.Proof.Gen.KernelIdeal.Frame
import proofs.«113410_j5944234737805_1_alg».proof.Proof.Gen.ReferenceIdeal
import proofs.«113410_j5944234737805_1_alg».proof.Proof.Gen.Pre_finite_inputs
import proofs.«113410_j5944234737805_1_alg».proof.Proof.KRun
import proofs.«113410_j5944234737805_1_alg».proof.Proof.Net
import proofs.«113410_j5944234737805_1_alg».proof.Proof.RefValue
import proofs.«113410_j5944234737805_1_alg».proof.Proof.RefNetReal
import Idealize.ShloMosaic.Adequacy
import Idealize.ShloMosaic.Init

noncomputable section

namespace Cert.Proof

open Idealize.ShloMosaic Idealize.SL.Sem Idealize.ShloMosaic.StableHlo

/-- The kernel program, at the word level and idealized, runs and leaves its arguments alone. -/
theorem frame_k : Cert.frame_Kernel := fun m ρ _ => Cert.Kernel.Gen.frame m ρ
theorem frame_ki : Cert.frame_KernelIdeal := fun m ρ _ => Cert.KernelIdeal.Gen.frame m ρ

/-- So does the reference. -/
theorem frame_ri : Cert.frame_ReferenceIdeal := Cert.ReferenceIdeal.RefRun.frame_ri

/-- The idealization rewrote nothing. -/
theorem preserves : Cert.preserves_Kernel_KernelIdeal := trivial

/-- On finite inputs the two idealized programs end with equal results. -/
theorem algebraic : Cert.algebraic_KernelIdeal_ReferenceIdeal := by
  intro m ρ m' ρ' hpre hagree
  refine ⟨fun c => Cert.KernelIdeal.Gen.W40 m ρ c (Proc.devRef .tc Cert.KernelIdeal.main_v304),
    Cert.KernelIdeal.KRun.run_result m ρ, ?_⟩
  refine (θ_run Cert.ReferenceIdeal.defs _ _).mono (fun r h c => ?_) (Cert.ReferenceIdeal.RefRun.run (F := Ideal) m' ρ')
  obtain ⟨g0, g1, g2, g3, g4, g5, g6, g7, g8, g9, g10, g11, g12⟩ := hagree c
  refine ⟨?_, (h c Cert.ReferenceIdeal.main_arg0).trans (Cert.ReferenceIdeal.RefRun.kept_main_arg0 _),
    (h c Cert.ReferenceIdeal.main_arg1).trans (Cert.ReferenceIdeal.RefRun.kept_main_arg1 _),
    (h c Cert.ReferenceIdeal.main_arg2).trans (Cert.ReferenceIdeal.RefRun.kept_main_arg2 _),
    (h c Cert.ReferenceIdeal.main_arg3).trans (Cert.ReferenceIdeal.RefRun.kept_main_arg3 _),
    (h c Cert.ReferenceIdeal.main_arg4).trans (Cert.ReferenceIdeal.RefRun.kept_main_arg4 _),
    (h c Cert.ReferenceIdeal.main_arg5).trans (Cert.ReferenceIdeal.RefRun.kept_main_arg5 _),
    (h c Cert.ReferenceIdeal.main_arg6).trans (Cert.ReferenceIdeal.RefRun.kept_main_arg6 _),
    (h c Cert.ReferenceIdeal.main_arg7).trans (Cert.ReferenceIdeal.RefRun.kept_main_arg7 _),
    (h c Cert.ReferenceIdeal.main_arg8).trans (Cert.ReferenceIdeal.RefRun.kept_main_arg8 _),
    (h c Cert.ReferenceIdeal.main_arg9).trans (Cert.ReferenceIdeal.RefRun.kept_main_arg9 _),
    (h c Cert.ReferenceIdeal.main_arg10).trans (Cert.ReferenceIdeal.RefRun.kept_main_arg10 _),
    (h c Cert.ReferenceIdeal.main_arg11).trans (Cert.ReferenceIdeal.RefRun.kept_main_arg11 _),
    (h c Cert.ReferenceIdeal.main_arg12).trans (Cert.ReferenceIdeal.RefRun.kept_main_arg12 _)⟩
  refine (h c Cert.ReferenceIdeal.main_v494).trans ((Cert.ReferenceIdeal.RefRun.out_eq _).trans ?_)
  have ha := Cert.ReferenceIdeal.RefRead.realArgs_of_pre _ _ _ _ _ _ _ _ _ _ _ _ _ (hpre c)
  refine Eq.trans ?_ (Cert.KernelIdeal.Net.result_eq m ρ c ha).symm
  show Cert.ReferenceIdeal.RefRun.RefNet (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
  rw [g0, g1, g2, g3, g4, g5, g6, g7, g8, g9, g10, g11, g12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
